-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S16x64 : Shape := ⟨2, ![16, 64]⟩
abbrev S100000x64 : Shape := ⟨2, ![100000, 64]⟩
abbrev S400x64 : Shape := ⟨2, ![400, 64]⟩
abbrev S4x64 : Shape := ⟨2, ![4, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16x64 : S_.BroadcastsInDim S16x64 (![] : Fin 0 → Fin S16x64.rank)
  reducesTo_S16x64_S_d0_1 : S16x64.ReducesTo [0, 1] S_
  bcast_S_S100000x64 : S_.BroadcastsInDim S100000x64 (![] : Fin 0 → Fin S100000x64.rank)
  reducesTo_S100000x64_S_d0_1 : S100000x64.ReducesTo [0, 1] S_
  bcast_S_S400x64 : S_.BroadcastsInDim S400x64 (![] : Fin 0 → Fin S400x64.rank)
  reducesTo_S400x64_S_d0_1 : S400x64.ReducesTo [0, 1] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_

variable [Facts]

def fn_part6 {F : FTy → Type} [FloatOps F] (main_arg6 : IVec S16384 32) (main_v100 : IVec S_ 1) (main_c_40 : IVec S_ 32) : IVec S_ 1 :=
  let main_v101 : IVec S16384 32 := broadcastInDim S16384 ![] bcast_S_S16384 main_c_40
  let main_v102 : IVec S16384 1 := cmpi .sge main_arg6 main_v101
  let main_c_41 : IVec S_ 32 := constantI S_ 32 99999#32
  let main_v103 : IVec S16384 32 := broadcastInDim S16384 ![] bcast_S_S16384 main_c_41
  let main_v104 : IVec S16384 1 := cmpi .sle main_arg6 main_v103
  let main_v105 : IVec S16384 1 := andi main_v102 main_v104
  let main_c_42 : IVec S_ 1 := constantI S_ 1 1#1
  let main_v106 : IVec S_ 1 := (fun x v => Host.reduce IntOp.andi x v reducesTo_S16384_S_d0 h_S_) main_v105 main_c_42
  let main_v107 : IVec S_ 1 := andi main_v100 main_v106
  main_v107

def fn_part5 {F : FTy → Type} [FloatOps F] (main_arg4 : IVec S16384 32) (main_arg5 : IVec S16384 32) (main_arg6 : IVec S16384 32) (main_v79 : IVec S_ 1) (main_v84 : IVec S16384 1) : IVec S_ 1 :=
  let main_c_33 : IVec S_ 1 := constantI S_ 1 1#1
  let main_v85 : IVec S_ 1 := (fun x v => Host.reduce IntOp.andi x v reducesTo_S16384_S_d0 h_S_) main_v84 main_c_33
  let main_v86 : IVec S_ 1 := andi main_v79 main_v85
  let main_c_34 : IVec S_ 32 := constantI S_ 32 0#32
  let main_v87 : IVec S16384 32 := broadcastInDim S16384 ![] bcast_S_S16384 main_c_34
  let main_v88 : IVec S16384 1 := cmpi .sge main_arg4 main_v87
  let main_c_35 : IVec S_ 32 := constantI S_ 32 3#32
  let main_v89 : IVec S16384 32 := broadcastInDim S16384 ![] bcast_S_S16384 main_c_35
  let main_v90 : IVec S16384 1 := cmpi .sle main_arg4 main_v89
  let main_v91 : IVec S16384 1 := andi main_v88 main_v90
  let main_c_36 : IVec S_ 1 := constantI S_ 1 1#1
  let main_v92 : IVec S_ 1 := (fun x v => Host.reduce IntOp.andi x v reducesTo_S16384_S_d0 h_S_) main_v91 main_c_36
  let main_v93 : IVec S_ 1 := andi main_v86 main_v92
  let main_c_37 : IVec S_ 32 := constantI S_ 32 0#32
  let main_v94 : IVec S16384 32 := broadcastInDim S16384 ![] bcast_S_S16384 main_c_37
  let main_v95 : IVec S16384 1 := cmpi .sge main_arg5 main_v94
  let main_c_38 : IVec S_ 32 := constantI S_ 32 63#32
  let main_v96 : IVec S16384 32 := broadcastInDim S16384 ![] bcast_S_S16384 main_c_38
  let main_v97 : IVec S16384 1 := cmpi .sle main_arg5 main_v96
  let main_v98 : IVec S16384 1 := andi main_v95 main_v97
  let main_c_39 : IVec S_ 1 := constantI S_ 1 1#1
  let main_v99 : IVec S_ 1 := (fun x v => Host.reduce IntOp.andi x v reducesTo_S16384_S_d0 h_S_) main_v98 main_c_39
  let main_v100 : IVec S_ 1 := andi main_v93 main_v99
  let main_c_40 : IVec S_ 32 := constantI S_ 32 0#32
  fn_part6 (F := F) main_arg6 main_v100 main_c_40

def fn_part4 {F : FTy → Type} [FloatOps F] (main_arg1 : IVec S16384 32) (main_arg2 : IVec S16384 32) (main_arg3 : IVec S16384 32) (main_arg4 : IVec S16384 32) (main_arg5 : IVec S16384 32) (main_arg6 : IVec S16384 32) (main_v65 : IVec S_ 1) (main_v67 : IVec S16384 1) : IVec S_ 1 :=
  let main_c_26 : IVec S_ 32 := constantI S_ 32 99999#32
  let main_v68 : IVec S16384 32 := broadcastInDim S16384 ![] bcast_S_S16384 main_c_26
  let main_v69 : IVec S16384 1 := cmpi .sle main_arg1 main_v68
  let main_v70 : IVec S16384 1 := andi main_v67 main_v69
  let main_c_27 : IVec S_ 1 := constantI S_ 1 1#1
  let main_v71 : IVec S_ 1 := (fun x v => Host.reduce IntOp.andi x v reducesTo_S16384_S_d0 h_S_) main_v70 main_c_27
  let main_v72 : IVec S_ 1 := andi main_v65 main_v71
  let main_c_28 : IVec S_ 32 := constantI S_ 32 0#32
  let main_v73 : IVec S16384 32 := broadcastInDim S16384 ![] bcast_S_S16384 main_c_28
  let main_v74 : IVec S16384 1 := cmpi .sge main_arg2 main_v73
  let main_c_29 : IVec S_ 32 := constantI S_ 32 399#32
  let main_v75 : IVec S16384 32 := broadcastInDim S16384 ![] bcast_S_S16384 main_c_29
  let main_v76 : IVec S16384 1 := cmpi .sle main_arg2 main_v75
  let main_v77 : IVec S16384 1 := andi main_v74 main_v76
  let main_c_30 : IVec S_ 1 := constantI S_ 1 1#1
  let main_v78 : IVec S_ 1 := (fun x v => Host.reduce IntOp.andi x v reducesTo_S16384_S_d0 h_S_) main_v77 main_c_30
  let main_v79 : IVec S_ 1 := andi main_v72 main_v78
  let main_c_31 : IVec S_ 32 := constantI S_ 32 0#32
  let main_v80 : IVec S16384 32 := broadcastInDim S16384 ![] bcast_S_S16384 main_c_31
  let main_v81 : IVec S16384 1 := cmpi .sge main_arg3 main_v80
  let main_c_32 : IVec S_ 32 := constantI S_ 32 99999#32
  let main_v82 : IVec S16384 32 := broadcastInDim S16384 ![] bcast_S_S16384 main_c_32
  let main_v83 : IVec S16384 1 := cmpi .sle main_arg3 main_v82
  let main_v84 : IVec S16384 1 := andi main_v81 main_v83
  fn_part5 (F := F) main_arg4 main_arg5 main_arg6 main_v79 main_v84

def fn_part3 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg18 : FVec F S64 .f32) (main_v48 : IVec S_ 1) (main_v49 : FVec F S512x64 .f32) (main_v50 : FVec F S512x64 .f32) : IVec S_ 1 :=
  let main_v51 : IVec S512x64 1 := cmpf .olt main_v49 main_v50
  let main_c_19 : IVec S_ 1 := constantI S_ 1 1#1
  let main_v52 : IVec S_ 1 := (fun x v => Host.reduce IntOp.andi x v reducesTo_S512x64_S_d0_1 h_S_) main_v51 main_c_19
  let main_v53 : IVec S_ 1 := andi main_v48 main_v52
  let main_v54 : FVec F S64 .f32 := Host.absf main_arg18
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S16384 32 := broadcastInDim S16384 ![] bcast_S_S16384 main_c_22
  let main_v60 : IVec S16384 1 := cmpi .sge main_arg0 main_v59
  let main_c_23 : IVec S_ 32 := constantI S_ 32 15#32
  let main_v61 : IVec S16384 32 := broadcastInDim S16384 ![] bcast_S_S16384 main_c_23
  let main_v62 : IVec S16384 1 := cmpi .sle main_arg0 main_v61
  let main_v63 : IVec S16384 1 := andi main_v60 main_v62
  let main_c_24 : IVec S_ 1 := constantI S_ 1 1#1
  let main_v64 : IVec S_ 1 := (fun x v => Host.reduce IntOp.andi x v reducesTo_S16384_S_d0 h_S_) main_v63 main_c_24
  let main_v65 : IVec S_ 1 := andi main_v58 main_v64
  let main_c_25 : IVec S_ 32 := constantI S_ 32 0#32
  let main_v66 : IVec S16384 32 := broadcastInDim S16384 ![] bcast_S_S16384 main_c_25
  let main_v67 : IVec S16384 1 := cmpi .sge main_arg1 main_v66
  fn_part4 (F := F) main_arg1 main_arg2 main_arg3 main_arg4 main_arg5 main_arg6 main_v65 main_v67

def fn_part2 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg14 : FVec F S100000x64 .f32) (main_arg15 : FVec F S1x64 .f32) (main_arg16 : FVec F S64 .f32) (main_arg17 : FVec F S512x64 .f32) (main_arg18 : FVec F S64 .f32) (main_v33 : IVec S_ 1) : IVec S_ 1 :=
  let main_v34 : FVec F S100000x64 .f32 := Host.absf main_arg14
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  let main_v39 : FVec F S1x64 .f32 := Host.absf main_arg15
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S64 .f32 := Host.absf main_arg16
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S512x64 .f32 := Host.absf main_arg17
  let main_cst_18 : FVec F S_ .f32 := constant S_ .f32 0x7F800000#32
  let main_v50 : FVec F S512x64 .f32 := broadcastInDim S512x64 ![] bcast_S_S512x64 main_cst_18
  fn_part3 (F := F) main_arg0 main_arg1 main_arg2 main_arg3 main_arg4 main_arg5 main_arg6 main_arg18 main_v48 main_v49 main_v50

def fn_part1 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg11 : FVec F S100000x64 .f32) (main_arg12 : FVec F S4x64 .f32) (main_arg13 : FVec F S64x64 .f32) (main_arg14 : FVec F S100000x64 .f32) (main_arg15 : FVec F S1x64 .f32) (main_arg16 : FVec F S64 .f32) (main_arg17 : FVec F S512x64 .f32) (main_arg18 : FVec F S64 .f32) (main_v13 : IVec S_ 1) (main_v16 : IVec S400x64 1) : IVec S_ 1 :=
  let main_c_5 : IVec S_ 1 := constantI S_ 1 1#1
  let main_v17 : IVec S_ 1 := (fun x v => Host.reduce IntOp.andi x v reducesTo_S400x64_S_d0_1 h_S_) main_v16 main_c_5
  let main_v18 : IVec S_ 1 := andi main_v13 main_v17
  let main_v19 : FVec F S100000x64 .f32 := Host.absf main_arg11
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S4x64 .f32 := Host.absf main_arg12
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64x64 .f32 := Host.absf main_arg13
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg1 main_arg2 main_arg3 main_arg4 main_arg5 main_arg6 main_arg14 main_arg15 main_arg16 main_arg17 main_arg18 main_v33

def fn {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : FVec F S16384 .f32) (main_arg8 : FVec F S16x64 .f32) (main_arg9 : FVec F S100000x64 .f32) (main_arg10 : FVec F S400x64 .f32) (main_arg11 : FVec F S100000x64 .f32) (main_arg12 : FVec F S4x64 .f32) (main_arg13 : FVec F S64x64 .f32) (main_arg14 : FVec F S100000x64 .f32) (main_arg15 : FVec F S1x64 .f32) (main_arg16 : FVec F S64 .f32) (main_arg17 : FVec F S512x64 .f32) (main_arg18 : FVec F S64 .f32) : IVec S_ 1 :=
  let main_v0 : FVec F S16384 .f32 := Host.absf main_arg7
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16x64 .f32 := Host.absf main_arg8
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S100000x64 .f32 := Host.absf main_arg9
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S400x64 .f32 := Host.absf main_arg10
  let main_cst_4 : FVec F S_ .f32 := constant S_ .f32 0x7F800000#32
  let main_v15 : FVec F S400x64 .f32 := broadcastInDim S400x64 ![] bcast_S_S400x64 main_cst_4
  let main_v16 : IVec S400x64 1 := cmpf .olt main_v14 main_v15
  fn_part1 (F := F) main_arg0 main_arg1 main_arg2 main_arg3 main_arg4 main_arg5 main_arg6 main_arg11 main_arg12 main_arg13 main_arg14 main_arg15 main_arg16 main_arg17 main_arg18 main_v13 main_v16
-- ==== Kernel.lean ====
abbrev S16384 : Shape := ⟨1, ![16384]⟩
abbrev S16x64 : Shape := ⟨2, ![16, 64]⟩
abbrev S100000x64 : Shape := ⟨2, ![100000, 64]⟩
abbrev S400x64 : Shape := ⟨2, ![400, 64]⟩
abbrev S4x64 : Shape := ⟨2, ![4, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S32x4x128 : Shape := ⟨3, ![32, 4, 128]⟩
abbrev S_ : Shape := ⟨0, ![]⟩
abbrev S100000x128 : Shape := ⟨2, ![100000, 128]⟩
abbrev S16384x128 : Shape := ⟨2, ![16384, 128]⟩
abbrev S3x4x128 : Shape := ⟨3, ![3, 4, 128]⟩
abbrev S7x128x128 : Shape := ⟨3, ![7, 128, 128]⟩
abbrev S3 : Shape := ⟨1, ![3]⟩
abbrev S7 : Shape := ⟨1, ![7]⟩
abbrev S1x4x128 : Shape := ⟨3, ![1, 4, 128]⟩
abbrev S4x128 : Shape := ⟨2, ![4, 128]⟩
abbrev S1 : Shape := ⟨1, ![1]⟩
abbrev S1x128x128 : Shape := ⟨3, ![1, 128, 128]⟩
abbrev S128x128 : Shape := ⟨2, ![128, 128]⟩
abbrev S1x1x128 : Shape := ⟨3, ![1, 1, 128]⟩
abbrev S128 : Shape := ⟨1, ![128]⟩
abbrev S16384x1 : Shape := ⟨2, ![16384, 1]⟩
abbrev S16384x64 : Shape := ⟨2, ![16384, 64]⟩
abbrev S2048x128 : Shape := ⟨2, ![2048, 128]⟩
abbrev S2048x1 : Shape := ⟨2, ![2048, 1]⟩
abbrev S2048x64 : Shape := ⟨2, ![2048, 64]⟩
abbrev S128x64 : Shape := ⟨2, ![128, 64]⟩
abbrev S2048x16 : Shape := ⟨2, ![2048, 16]⟩
abbrev S2048x400 : Shape := ⟨2, ![2048, 400]⟩
abbrev S2048x4 : Shape := ⟨2, ![2048, 4]⟩

abbrev nBuf : Table → Nat
  | .hbm => 48
  | .local .tc .vmem => 45
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .f32⟩
  | .hbm, ⟨8, _⟩ => ⟨S16x64, .f32⟩
  | .hbm, ⟨9, _⟩ => ⟨S100000x64, .f32⟩
  | .hbm, ⟨10, _⟩ => ⟨S400x64, .f32⟩
  | .hbm, ⟨11, _⟩ => ⟨S100000x64, .f32⟩
  | .hbm, ⟨12, _⟩ => ⟨S4x64, .f32⟩
  | .hbm, ⟨13, _⟩ => ⟨S64x64, .f32⟩
  | .hbm, ⟨14, _⟩ => ⟨S100000x64, .f32⟩
  | .hbm, ⟨15, _⟩ => ⟨S1x64, .f32⟩
  | .hbm, ⟨16, _⟩ => ⟨S64, .f32⟩
  | .hbm, ⟨17, _⟩ => ⟨S512x64, .f32⟩
  | .hbm, ⟨18, _⟩ => ⟨S64, .f32⟩
  | .hbm, ⟨19, _⟩ => ⟨S32x4x128, .i32⟩
  | .hbm, ⟨20, _⟩ => ⟨S32x4x128, .i32⟩
  | .hbm, ⟨21, _⟩ => ⟨S32x4x128, .i32⟩
  | .hbm, ⟨22, _⟩ => ⟨S_, .f32⟩
  | .hbm, ⟨23, _⟩ => ⟨S100000x64, .f32⟩
  | .hbm, ⟨24, _⟩ => ⟨S100000x128, .f32⟩
  | .hbm, ⟨25, _⟩ => ⟨S_, .f32⟩
  | .hbm, ⟨26, _⟩ => ⟨S100000x64, .f32⟩
  | .hbm, ⟨27, _⟩ => ⟨S100000x128, .f32⟩
  | .hbm, ⟨28, _⟩ => ⟨S_, .f32⟩
  | .hbm, ⟨29, _⟩ => ⟨S100000x64, .f32⟩
  | .hbm, ⟨30, _⟩ => ⟨S100000x128, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S1x64, .f32⟩
  | .hbm, ⟨35, _⟩ => ⟨S1x64, .f32⟩
  | .hbm, ⟨36, _⟩ => ⟨S16x64, .f32⟩
  | .hbm, ⟨37, _⟩ => ⟨S400x64, .f32⟩
  | .hbm, ⟨38, _⟩ => ⟨S4x64, .f32⟩
  | .hbm, ⟨39, _⟩ => ⟨S64x64, .f32⟩
  | .hbm, ⟨40, _⟩ => ⟨S1x64, .f32⟩
  | .hbm, ⟨41, _⟩ => ⟨S1x64, .f32⟩
  | .hbm, ⟨42, _⟩ => ⟨S16384x1, .i32⟩
  | .hbm, ⟨43, _⟩ => ⟨S16384x1, .i32⟩
  | .hbm, ⟨44, _⟩ => ⟨S16384x1, .i32⟩
  | .hbm, ⟨45, _⟩ => ⟨S16384x1, .i32⟩
  | .hbm, ⟨46, _⟩ => ⟨S16384x1, .f32⟩
  | .hbm, ⟨47, _⟩ => ⟨S16384x64, .f32⟩
  | .local .tc .vmem, ⟨0, _⟩ => ⟨S16x64, .f32⟩
  | .local .tc .vmem, ⟨1, _⟩ => ⟨S400x64, .f32⟩
  | .local .tc .vmem, ⟨2, _⟩ => ⟨S4x64, .f32⟩
  | .local .tc .vmem, ⟨3, _⟩ => ⟨S64x64, .f32⟩
  | .local .tc .vmem, ⟨4, _⟩ => ⟨S64x64, .f32⟩
  | .local .tc .vmem, ⟨5, _⟩ => ⟨S64x64, .f32⟩
  | .local .tc .vmem, ⟨6, _⟩ => ⟨S64x64, .f32⟩
  | .local .tc .vmem, ⟨7, _⟩ => ⟨S64x64, .f32⟩
  | .local .tc .vmem, ⟨8, _⟩ => ⟨S64x64, .f32⟩
  | .local .tc .vmem, ⟨9, _⟩ => ⟨S1x64, .f32⟩
  | .local .tc .vmem, ⟨10, _⟩ => ⟨S1x64, .f32⟩
  | .local .tc .vmem, ⟨11, _⟩ => ⟨S1x64, .f32⟩
  | .local .tc .vmem, ⟨12, _⟩ => ⟨S16x64, .f32⟩
  | .local .tc .vmem, ⟨13, _⟩ => ⟨S400x64, .f32⟩
  | .local .tc .vmem, ⟨14, _⟩ => ⟨S4x64, .f32⟩
  | .local .tc .vmem, ⟨15, _⟩ => ⟨S64x64, .f32⟩
  | .local .tc .vmem, ⟨16, _⟩ => ⟨S1x64, .f32⟩
  | .local .tc .vmem, ⟨17, _⟩ => ⟨S1x64, .f32⟩
  | .local .tc .vmem, ⟨18, _⟩ => ⟨S2048x128, .f32⟩
  | .local .tc .vmem, ⟨19, _⟩ => ⟨S2048x128, .f32⟩
  | .local .tc .vmem, ⟨20, _⟩ => ⟨S2048x128, .f32⟩
  | .local .tc .vmem, ⟨21, _⟩ => ⟨S2048x128, .f32⟩
  | .local .tc .vmem, ⟨22, _⟩ => ⟨S2048x128, .f32⟩
  | .local .tc .vmem, ⟨23, _⟩ => ⟨S2048x128, .f32⟩
  | .local .tc .vmem, ⟨24, _⟩ => ⟨S2048x1, .i32⟩
  | .local .tc .vmem, ⟨25, _⟩ => ⟨S2048x1, .i32⟩
  | .local .tc .vmem, ⟨26, _⟩ => ⟨S2048x1, .i32⟩
  | .local .tc .vmem, ⟨27, _⟩ => ⟨S2048x1, .i32⟩
  | .local .tc .vmem, ⟨28, _⟩ => ⟨S2048x1, .i32⟩
  | .local .tc .vmem, ⟨29, _⟩ => ⟨S2048x1, .i32⟩
  | .local .tc .vmem, ⟨30, _⟩ => ⟨S2048x1, .i32⟩
  | .local .tc .vmem, ⟨31, _⟩ => ⟨S2048x1, .i32⟩
  | .local .tc .vmem, ⟨32, _⟩ => ⟨S2048x1, .f32⟩
  | .local .tc .vmem, ⟨33, _⟩ => ⟨S2048x1, .f32⟩
  | .local .tc .vmem, ⟨34, _⟩ => ⟨S64x64, .f32⟩
  | .local .tc .vmem, ⟨35, _⟩ => ⟨S64x64, .f32⟩
  | .local .tc .vmem, ⟨36, _⟩ => ⟨S64x64, .f32⟩
  | .local .tc .vmem, ⟨37, _⟩ => ⟨S16x64, .f32⟩
  | .local .tc .vmem, ⟨38, _⟩ => ⟨S400x64, .f32⟩
  | .local .tc .vmem, ⟨39, _⟩ => ⟨S4x64, .f32⟩
  | .local .tc .vmem, ⟨40, _⟩ => ⟨S64x64, .f32⟩
  | .local .tc .vmem, ⟨41, _⟩ => ⟨S1x64, .f32⟩
  | .local .tc .vmem, ⟨42, _⟩ => ⟨S1x64, .f32⟩
  | .local .tc .vmem, ⟨43, _⟩ => ⟨S2048x64, .f32⟩
  | .local .tc .vmem, ⟨44, _⟩ => ⟨S2048x64, .f32⟩
  | .local .scVector .vmem, ⟨0, _⟩ => ⟨S3x4x128, .i32⟩
  | .local .scVector .vmem, ⟨1, _⟩ => ⟨S7x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 62 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTables nBuf rfl bufTy 4 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9_0 : Ref sig .tc := ⟨.hbm, 31, rfl⟩
abbrev main_v9_1 : Ref sig .tc := ⟨.hbm, 32, rfl⟩
abbrev main_v9_2 : Ref sig .tc := ⟨.hbm, 33, rfl⟩
abbrev main_v10 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev main_v12_2 : Ref sig .tc := ⟨.hbm, 38, rfl⟩
abbrev main_v12_3 : Ref sig .tc := ⟨.hbm, 39, rfl⟩
abbrev main_v12_4 : Ref sig .tc := ⟨.hbm, 40, rfl⟩
abbrev main_v12_5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v0_scv : Ref sig .scVector := ⟨.hbm, 19, rfl⟩
abbrev main_v1_scv : Ref sig .scVector := ⟨.hbm, 20, rfl⟩
abbrev main_v2_scv : Ref sig .scVector := ⟨.hbm, 21, rfl⟩
abbrev main_v4_scv : Ref sig .scVector := ⟨.hbm, 24, rfl⟩
abbrev main_v6_scv : Ref sig .scVector := ⟨.hbm, 27, rfl⟩
abbrev main_v8_scv : Ref sig .scVector := ⟨.hbm, 30, rfl⟩
abbrev main_v9_0_scv : Ref sig .scVector := ⟨.hbm, 31, rfl⟩
abbrev main_v9_1_scv : Ref sig .scVector := ⟨.hbm, 32, rfl⟩
abbrev main_v9_2_scv : Ref sig .scVector := ⟨.hbm, 33, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg14_0 : Ref sig .tc := ⟨.vmem, 14, rfl⟩
abbrev cc1_stg15_0 : Ref sig .tc := ⟨.vmem, 15, rfl⟩
abbrev cc1_stg16_0 : Ref sig .tc := ⟨.vmem, 16, rfl⟩
abbrev cc1_stg17_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_stg13_0 : Ref sig .tc := ⟨.vmem, 39, rfl⟩
abbrev cc2_stg14_0 : Ref sig .tc := ⟨.vmem, 40, rfl⟩
abbrev cc2_stg15_0 : Ref sig .tc := ⟨.vmem, 41, rfl⟩
abbrev cc2_stg16_0 : Ref sig .tc := ⟨.vmem, 42, rfl⟩
abbrev cc2_stg17_0 : Ref sig .tc := ⟨.vmem, 43, rfl⟩
abbrev cc2_stg17_1 : Ref sig .tc := ⟨.vmem, 44, rfl⟩
abbrev cc0_scratch0 : Ref sig .scVector := ⟨.vmem, 0, rfl⟩
abbrev cc0_scratch1 : Ref sig .scVector := ⟨.vmem, 1, rfl⟩
abbrev cc1_sem0_0 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem15_0 : DmaSem sig := 32
abbrev cc1_sem16_0 : DmaSem sig := 33
abbrev cc1_sem17_0 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem3_1 : DmaSem sig := 42
abbrev cc2_sem4_0 : DmaSem sig := 43
abbrev cc2_sem4_1 : DmaSem sig := 44
abbrev cc2_sem5_0 : DmaSem sig := 45
abbrev cc2_sem5_1 : DmaSem sig := 46
abbrev cc2_sem6_0 : DmaSem sig := 47
abbrev cc2_sem6_1 : DmaSem sig := 48
abbrev cc2_sem7_0 : DmaSem sig := 49
abbrev cc2_sem7_1 : DmaSem sig := 50
abbrev cc2_sem8_0 : DmaSem sig := 51
abbrev cc2_sem9_0 : DmaSem sig := 52
abbrev cc2_sem10_0 : DmaSem sig := 53
abbrev cc2_sem11_0 : DmaSem sig := 54
abbrev cc2_sem12_0 : DmaSem sig := 55
abbrev cc2_sem13_0 : DmaSem sig := 56
abbrev cc2_sem14_0 : DmaSem sig := 57
abbrev cc2_sem15_0 : DmaSem sig := 58
abbrev cc2_sem16_0 : DmaSem sig := 59
abbrev cc2_sem17_0 : DmaSem sig := 60
abbrev cc2_sem17_1 : DmaSem sig := 61
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c0_i32_4 : BitVec 32 := 0#32
  ![v1.toNat, 0, 0]
def k0_off2 (i : grid0.Coords) (c0_i32_108 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v102 : BitVec 32 := Scalar.addi v2 c0_i32_108
  let c0_i32_113 : BitVec 32 := 0#32
  ![v102.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc1_transform_6 (i : grid1.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc1_transform_7 (i : grid1.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc1_transform_8 (i : grid1.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S400x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S16x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S400x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S4x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S64x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x64 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x64 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc2_transform_9 (i : grid2.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc2_transform_10 (i : grid2.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x1 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2048x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S16x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S400x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S4x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S2048x64 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S32x4x128 : S16384.ShapeCasts S32x4x128
  bcast_S_S100000x64 : S_.BroadcastsInDim S100000x64 (![] : Fin 0 → Fin S100000x64.rank)
  concatenates_S100000x64_S100000x64_S100000x128_d1 : Shape.Concatenates [S100000x64, S100000x64] S100000x128 1
  inb_S3x4x128_S1x4x128_0_0_0 : ∀ a, (![0, 0, 0] : Fin 3 → Nat) a + S1x4x128.size a ≤ S3x4x128.size a
  squeezes_S1x4x128_S4x128 : S1x4x128.Squeezes S4x128
  inb_S3_S1_0 : ∀ a, (![0] : Fin 1 → Nat) a + S1.size a ≤ S3.size a
  squeezes_S1_S_ : S1.Squeezes S_
  inb_S3x4x128_S1x4x128_1_0_0 : ∀ a, (![1, 0, 0] : Fin 3 → Nat) a + S1x4x128.size a ≤ S3x4x128.size a
  inb_S3_S1_1 : ∀ a, (![1] : Fin 1 → Nat) a + S1.size a ≤ S3.size a
  inb_S3x4x128_S1x4x128_2_0_0 : ∀ a, (![2, 0, 0] : Fin 3 → Nat) a + S1x4x128.size a ≤ S3x4x128.size a
  inb_S3_S1_2 : ∀ a, (![2] : Fin 1 → Nat) a + S1.size a ≤ S3.size a
  inb_S7x128x128_S1x128x128_0_0_0 : ∀ a, (![0, 0, 0] : Fin 3 → Nat) a + S1x128x128.size a ≤ S7x128x128.size a
  squeezes_S1x128x128_S128x128 : S1x128x128.Squeezes S128x128
  inb_S3x4x128_S1x1x128_0_0_0 : ∀ a, (![0, 0, 0] : Fin 3 → Nat) a + S1x1x128.size a ≤ S3x4x128.size a
  squeezes_S1x1x128_S128 : S1x1x128.Squeezes S128
  inb_S100000x128_S100000x128_0_0 : ∀ a, (![0, 0] : Fin 2 → Nat) a + S100000x128.size a ≤ S100000x128.size a
  inb_S7_S1_0 : ∀ a, (![0] : Fin 1 → Nat) a + S1.size a ≤ S7.size a
  gathers_S100000x128_S128x128 : S100000x128.Gathers 0 S128x128
  inb_S7x128x128_S1x128x128_1_0_0 : ∀ a, (![1, 0, 0] : Fin 3 → Nat) a + S1x128x128.size a ≤ S7x128x128.size a
  inb_S3x4x128_S1x1x128_0_1_0 : ∀ a, (![0, 1, 0] : Fin 3 → Nat) a + S1x1x128.size a ≤ S3x4x128.size a
  inb_S7_S1_1 : ∀ a, (![1] : Fin 1 → Nat) a + S1.size a ≤ S7.size a
  inb_S7x128x128_S1x128x128_2_0_0 : ∀ a, (![2, 0, 0] : Fin 3 → Nat) a + S1x128x128.size a ≤ S7x128x128.size a
  inb_S3x4x128_S1x1x128_0_2_0 : ∀ a, (![0, 2, 0] : Fin 3 → Nat) a + S1x1x128.size a ≤ S3x4x128.size a
  inb_S7_S1_2 : ∀ a, (![2] : Fin 1 → Nat) a + S1.size a ≤ S7.size a
  inb_S7x128x128_S1x128x128_3_0_0 : ∀ a, (![3, 0, 0] : Fin 3 → Nat) a + S1x128x128.size a ≤ S7x128x128.size a
  inb_S3x4x128_S1x1x128_0_3_0 : ∀ a, (![0, 3, 0] : Fin 3 → Nat) a + S1x1x128.size a ≤ S3x4x128.size a
  inb_S7_S1_3 : ∀ a, (![3] : Fin 1 → Nat) a + S1.size a ≤ S7.size a
  inb_S7x128x128_S1x128x128_4_0_0 : ∀ a, (![4, 0, 0] : Fin 3 → Nat) a + S1x128x128.size a ≤ S7x128x128.size a
  inb_S3x4x128_S1x1x128_1_0_0 : ∀ a, (![1, 0, 0] : Fin 3 → Nat) a + S1x1x128.size a ≤ S3x4x128.size a
  inb_S7_S1_4 : ∀ a, (![4] : Fin 1 → Nat) a + S1.size a ≤ S7.size a
  inb_S7x128x128_S1x128x128_5_0_0 : ∀ a, (![5, 0, 0] : Fin 3 → Nat) a + S1x128x128.size a ≤ S7x128x128.size a
  inb_S3x4x128_S1x1x128_1_1_0 : ∀ a, (![1, 1, 0] : Fin 3 → Nat) a + S1x1x128.size a ≤ S3x4x128.size a
  inb_S7_S1_5 : ∀ a, (![5] : Fin 1 → Nat) a + S1.size a ≤ S7.size a
  inb_S7x128x128_S1x128x128_6_0_0 : ∀ a, (![6, 0, 0] : Fin 3 → Nat) a + S1x128x128.size a ≤ S7x128x128.size a
  inb_S3x4x128_S1x1x128_1_2_0 : ∀ a, (![1, 2, 0] : Fin 3 → Nat) a + S1x1x128.size a ≤ S3x4x128.size a
  inb_S7_S1_6 : ∀ a, (![6] : Fin 1 → Nat) a + S1.size a ≤ S7.size a
  inb_S3x4x128_S1x1x128_1_3_0 : ∀ a, (![1, 3, 0] : Fin 3 → Nat) a + S1x1x128.size a ≤ S3x4x128.size a
  inb_S3x4x128_S1x1x128_2_0_0 : ∀ a, (![2, 0, 0] : Fin 3 → Nat) a + S1x1x128.size a ≤ S3x4x128.size a
  inb_S3x4x128_S1x1x128_2_1_0 : ∀ a, (![2, 1, 0] : Fin 3 → Nat) a + S1x1x128.size a ≤ S3x4x128.size a
  inb_S3x4x128_S1x1x128_2_2_0 : ∀ a, (![2, 2, 0] : Fin 3 → Nat) a + S1x1x128.size a ≤ S3x4x128.size a
  inb_S3x4x128_S1x1x128_2_3_0 : ∀ a, (![2, 3, 0] : Fin 3 → Nat) a + S1x1x128.size a ≤ S3x4x128.size a
  shapeCasts_S64_S1x64 : S64.ShapeCasts S1x64
  inb_S16x64_S16x64_0_0 : ∀ a, (![0, 0] : Fin 2 → Nat) a + S16x64.size a ≤ S16x64.size a
  h_S16x64 : 0 < S16x64.numel
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S16384_S16384x1 : S16384.ShapeCasts S16384x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  broadcasts_S1x64_S2048x64 : S1x64.Broadcasts S2048x64
  concatenates_S64x64_S64x64_S128x64_d0 : Shape.Concatenates [S64x64, S64x64] S128x64 0
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S16x64_S16x64 : S16x64.ShapeCasts S16x64
  iota_S2048x16_d1_w32 : S2048x16.Iotas .tc 32 [1]
  broadcasts_S2048x1_S2048x16 : S2048x1.Broadcasts S2048x16
  natLt_1_32 : 1 < 32
  shapeCasts_S400x64_S400x64 : S400x64.ShapeCasts S400x64
  iota_S2048x400_d1_w32 : S2048x400.Iotas .tc 32 [1]
  broadcasts_S2048x1_S2048x400 : S2048x1.Broadcasts S2048x400
  shapeCasts_S4x64_S4x64 : S4x64.ShapeCasts S4x64
  iota_S2048x4_d1_w32 : S2048x4.Iotas .tc 32 [1]
  broadcasts_S2048x1_S2048x4 : S2048x1.Broadcasts S2048x4
  shapeCasts_S64x64_S64x64 : S64x64.ShapeCasts S64x64
  iota_S2048x64_d1_w32 : S2048x64.Iotas .tc 32 [1]
  inb_S2048x64_S2048x64_0_0 : ∀ a, (![0, 0] : Fin 2 → Nat) a + S2048x64.size a ≤ S2048x64.size a
  h_S2048x64 : 0 < S2048x64.numel
  dot_S16x64_S64x64_S16x64_1_0_0_1_n_n_wf : DotDims.WF S16x64 S64x64 S16x64 [1] [0] [0] [1] [] []
  dot_S400x64_S64x64_S400x64_1_0_0_1_n_n_wf : DotDims.WF S400x64 S64x64 S400x64 [1] [0] [0] [1] [] []
  dot_S4x64_S64x64_S4x64_1_0_0_1_n_n_wf : DotDims.WF S4x64 S64x64 S4x64 [1] [0] [0] [1] [] []
  dot_S64x64_S64x64_S64x64_1_0_0_1_n_n_wf : DotDims.WF S64x64 S64x64 S64x64 [1] [0] [0] [1] [] []
  dot_S1x64_S64x64_S1x64_1_0_0_1_n_n_wf : DotDims.WF S1x64 S64x64 S1x64 [1] [0] [0] [1] [] []
  dot_S2048x128_S128x64_S2048x64_1_0_0_1_n_n_wf : DotDims.WF S2048x128 S128x64 S2048x64 [1] [0] [0] [1] [] []
  dot_S2048x16_S16x64_S2048x64_1_0_0_1_n_n_wf : DotDims.WF S2048x16 S16x64 S2048x64 [1] [0] [0] [1] [] []
  dot_S2048x400_S400x64_S2048x64_1_0_0_1_n_n_wf : DotDims.WF S2048x400 S400x64 S2048x64 [1] [0] [0] [1] [] []
  dot_S2048x4_S4x64_S2048x64_1_0_0_1_n_n_wf : DotDims.WF S2048x4 S4x64 S2048x64 [1] [0] [0] [1] [] []
  dot_S2048x64_S64x64_S2048x64_1_0_0_1_n_n_wf : DotDims.WF S2048x64 S64x64 S2048x64 [1] [0] [0] [1] [] []
  hcc0_scratch2 : 0 + S3.numel ≤ 62
  hcc0_scratch3 : 3 + S7.numel ≤ 62
  hcc0_scratch4 : 10 + S7.numel ≤ 62
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x4x128.size a ≤ S32x4x128.size a
  k0_off2_inb : ∀ i : grid0.Coords, ∀ (r : Fin 4), ∀ a, (k0_off2 i (BitVec.ofNat 32 (128 * r.val))) a + S128x128.size a ≤ S16384x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x64.size a ≤ S16x64.size a
  hwx1_0 : ∀ i : grid1.Coords, EltTy.bits .f32 = 32 ∨ (Rect.block (s := S16x64) S16x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S400x64.size a ≤ S400x64.size a
  hwx1_1 : ∀ i : grid1.Coords, EltTy.bits .f32 = 32 ∨ (Rect.block (s := S400x64) S400x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x64.size a ≤ S4x64.size a
  hwx1_2 : ∀ i : grid1.Coords, EltTy.bits .f32 = 32 ∨ (Rect.block (s := S4x64) S4x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S512x64.size a
  hwx1_4 : ∀ i : grid1.Coords, EltTy.bits .f32 = 32 ∨ (Rect.block (s := S512x64) S64x64.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S512x64.size a
  hwx1_5 : ∀ i : grid1.Coords, EltTy.bits .f32 = 32 ∨ (Rect.block (s := S512x64) S64x64.size (cc1_transform_5 i) (hinb1_5 i)).WholeWords (EltTy.packing .f32)
  hstage1_6 : ∀ j, (stage1_6 j).IsWhole
  nbuf1_6 : grid1.bufCount reads1_6 false = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S512x64.size a
  hwx1_6 : ∀ i : grid1.Coords, EltTy.bits .f32 = 32 ∨ (Rect.block (s := S512x64) S64x64.size (cc1_transform_6 i) (hinb1_6 i)).WholeWords (EltTy.packing .f32)
  hstage1_7 : ∀ j, (stage1_7 j).IsWhole
  nbuf1_7 : grid1.bufCount reads1_7 false = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S512x64.size a
  hwx1_7 : ∀ i : grid1.Coords, EltTy.bits .f32 = 32 ∨ (Rect.block (s := S512x64) S64x64.size (cc1_transform_7 i) (hinb1_7 i)).WholeWords (EltTy.packing .f32)
  hstage1_8 : ∀ j, (stage1_8 j).IsWhole
  nbuf1_8 : grid1.bufCount reads1_8 false = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S512x64.size a
  hwx1_8 : ∀ i : grid1.Coords, EltTy.bits .f32 = 32 ∨ (Rect.block (s := S512x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S16x64.size a ≤ S16x64.size a
  hwx1_12 : ∀ i : grid1.Coords, EltTy.bits .f32 = 32 ∨ (Rect.block (s := S16x64) S16x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S400x64.size a ≤ S400x64.size a
  hwx1_13 : ∀ i : grid1.Coords, EltTy.bits .f32 = 32 ∨ (Rect.block (s := S400x64) S400x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S4x64.size a ≤ S4x64.size a
  hwx1_14 : ∀ i : grid1.Coords, EltTy.bits .f32 = 32 ∨ (Rect.block (s := S4x64) S4x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S64x64.size a ≤ S64x64.size a
  hwx1_15 : ∀ i : grid1.Coords, EltTy.bits .f32 = 32 ∨ (Rect.block (s := S64x64) S64x64.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x64.size a ≤ S1x64.size a
  hwx1_16 : ∀ i : grid1.Coords, EltTy.bits .f32 = 32 ∨ (Rect.block (s := S1x64) S1x64.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x64.size a ≤ S1x64.size a
  hwx1_17 : ∀ i : grid1.Coords, EltTy.bits .f32 = 32 ∨ (Rect.block (s := S1x64) S1x64.size (cc1_transform_17 i) (hinb1_17 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S16384x128.size a
  hwx2_2 : ∀ i : grid2.Coords, EltTy.bits .f32 = 32 ∨ (Rect.block (s := S16384x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S16384x1.size a
  hwx2_3 : ∀ i : grid2.Coords, EltTy.bits .i32 = 32 ∨ (Rect.block (s := S16384x1) S2048x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S16384x1.size a
  hwx2_4 : ∀ i : grid2.Coords, EltTy.bits .i32 = 32 ∨ (Rect.block (s := S16384x1) S2048x1.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1.size a ≤ S16384x1.size a
  hwx2_5 : ∀ i : grid2.Coords, EltTy.bits .i32 = 32 ∨ (Rect.block (s := S16384x1) S2048x1.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x1.size a ≤ S16384x1.size a
  hwx2_6 : ∀ i : grid2.Coords, EltTy.bits .i32 = 32 ∨ (Rect.block (s := S16384x1) S2048x1.size (cc2_transform_6 i) (hinb2_6 i)).WholeWords (EltTy.packing .i32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x1.size a ≤ S16384x1.size a
  hwx2_7 : ∀ i : grid2.Coords, EltTy.bits .f32 = 32 ∨ (Rect.block (s := S16384x1) S2048x1.size (cc2_transform_7 i) (hinb2_7 i)).WholeWords (EltTy.packing .f32)
  hstage2_8 : ∀ j, (stage2_8 j).IsWhole
  nbuf2_8 : grid2.bufCount reads2_8 false = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S512x64.size a
  hwx2_8 : ∀ i : grid2.Coords, EltTy.bits .f32 = 32 ∨ (Rect.block (s := S512x64) S64x64.size (cc2_transform_8 i) (hinb2_8 i)).WholeWords (EltTy.packing .f32)
  hstage2_9 : ∀ j, (stage2_9 j).IsWhole
  nbuf2_9 : grid2.bufCount reads2_9 false = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S512x64.size a
  hwx2_9 : ∀ i : grid2.Coords, EltTy.bits .f32 = 32 ∨ (Rect.block (s := S512x64) S64x64.size (cc2_transform_9 i) (hinb2_9 i)).WholeWords (EltTy.packing .f32)
  hstage2_10 : ∀ j, (stage2_10 j).IsWhole
  nbuf2_10 : grid2.bufCount reads2_10 false = 1
  hreads2_10 : ∀ i i' : grid2.Coords, (∀ a, reads2_10 a = true → i a = i' a) → cc2_transform_10 i = cc2_transform_10 i'
  hinb2_10 : ∀ (i : grid2.Coords) a, (cc2_transform_10 i a + 1) * S64x64.size a ≤ S512x64.size a
  hwx2_10 : ∀ i : grid2.Coords, EltTy.bits .f32 = 32 ∨ (Rect.block (s := S512x64) S64x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S16x64.size a ≤ S16x64.size a
  hwx2_11 : ∀ i : grid2.Coords, EltTy.bits .f32 = 32 ∨ (Rect.block (s := S16x64) S16x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S400x64.size a ≤ S400x64.size a
  hwx2_12 : ∀ i : grid2.Coords, EltTy.bits .f32 = 32 ∨ (Rect.block (s := S400x64) S400x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S4x64.size a ≤ S4x64.size a
  hwx2_13 : ∀ i : grid2.Coords, EltTy.bits .f32 = 32 ∨ (Rect.block (s := S4x64) S4x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S64x64.size a ≤ S64x64.size a
  hwx2_14 : ∀ i : grid2.Coords, EltTy.bits .f32 = 32 ∨ (Rect.block (s := S64x64) S64x64.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x64.size a ≤ S1x64.size a
  hwx2_15 : ∀ i : grid2.Coords, EltTy.bits .f32 = 32 ∨ (Rect.block (s := S1x64) S1x64.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x64.size a ≤ S1x64.size a
  hwx2_16 : ∀ i : grid2.Coords, EltTy.bits .f32 = 32 ∨ (Rect.block (s := S1x64) S1x64.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S2048x64.size a ≤ S16384x64.size a
  hwx2_17 : ∀ i : grid2.Coords, EltTy.bits .f32 = 32 ∨ (Rect.block (s := S16384x64) S2048x64.size (cc2_transform_17 i) (hinb2_17 i)).WholeWords (EltTy.packing .f32)

variable [Facts₀]

abbrev cc0_scratch2 : DmaSems sig S3 := SemArray.consecutive 0 S3 hcc0_scratch2
abbrev cc0_scratch3 : DmaSems sig S7 := SemArray.consecutive 3 S7 hcc0_scratch3
abbrev cc0_scratch4 : DmaSems sig S7 := SemArray.consecutive 10 S7 hcc0_scratch4
def dot_S16x64_S64x64_S16x64_1_0_0_1_n_n : DotDims S16x64 S64x64 S16x64 where
  lhsContracting := [1]
  rhsContracting := [0]
  lhsNonContracting := [0]
  rhsNonContracting := [1]
  lhsBatch := []
  rhsBatch := []
  wf := dot_S16x64_S64x64_S16x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S4x64_S64x64_S4x64_1_0_0_1_n_n : DotDims S4x64 S64x64 S4x64 where
  lhsContracting := [1]
  rhsContracting := [0]
  lhsNonContracting := [0]
  rhsNonContracting := [1]
  lhsBatch := []
  rhsBatch := []
  wf := dot_S4x64_S64x64_S4x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def dot_S2048x400_S400x64_S2048x64_1_0_0_1_n_n : DotDims S2048x400 S400x64 S2048x64 where
  lhsContracting := [1]
  rhsContracting := [0]
  lhsNonContracting := [0]
  rhsNonContracting := [1]
  lhsBatch := []
  rhsBatch := []
  wf := dot_S2048x400_S400x64_S2048x64_1_0_0_1_n_n_wf
def dot_S2048x4_S4x64_S2048x64_1_0_0_1_n_n : DotDims S2048x4 S4x64 S2048x64 where
  lhsContracting := [1]
  rhsContracting := [0]
  lhsNonContracting := [0]
  rhsNonContracting := [1]
  lhsBatch := []
  rhsBatch := []
  wf := dot_S2048x4_S4x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win1_0 : Pipeline.Window sig grid1 :=
  Pipeline.Window.ofSpec (Memref.whole main_arg8) S16x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S400x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S4x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S64x64.size cc1_transform_4 reads1_4 false false 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S64x64.size cc1_transform_5 reads1_5 false false 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S64x64.size cc1_transform_6 reads1_6 false false 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S64x64.size cc1_transform_7 reads1_7 false false 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S64x64.size cc1_transform_8 reads1_8 false false 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v11) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v12_0) S16x64.size cc1_transform_12 reads1_12 true true 1 stage1_12 sem1_12
    hrank1 hreads1_12 hinb1_12 nbuf1_12 (Memref.isWhole_whole _) hwx1_12 hstage1_12

abbrev win1_13 : Pipeline.Window sig grid1 :=
  Pipeline.Window.ofSpec (Memref.whole main_v12_1) S400x64.size cc1_transform_13 reads1_13 true true 1 stage1_13 sem1_13
    hrank1 hreads1_13 hinb1_13 nbuf1_13 (Memref.isWhole_whole _) hwx1_13 hstage1_13

abbrev win1_14 : Pipeline.Window sig grid1 :=
  Pipeline.Window.ofSpec (Memref.whole main_v12_2) S4x64.size cc1_transform_14 reads1_14 true true 1 stage1_14 sem1_14
    hrank1 hreads1_14 hinb1_14 nbuf1_14 (Memref.isWhole_whole _) hwx1_14 hstage1_14

abbrev win1_15 : Pipeline.Window sig grid1 :=
  Pipeline.Window.ofSpec (Memref.whole main_v12_3) S64x64.size cc1_transform_15 reads1_15 true true 1 stage1_15 sem1_15
    hrank1 hreads1_15 hinb1_15 nbuf1_15 (Memref.isWhole_whole _) hwx1_15 hstage1_15

abbrev win1_16 : Pipeline.Window sig grid1 :=
  Pipeline.Window.ofSpec (Memref.whole main_v12_4) S1x64.size cc1_transform_16 reads1_16 true true 1 stage1_16 sem1_16
    hrank1 hreads1_16 hinb1_16 nbuf1_16 (Memref.isWhole_whole _) hwx1_16 hstage1_16

abbrev win1_17 : Pipeline.Window sig grid1 :=
  Pipeline.Window.ofSpec (Memref.whole main_v12_5) S1x64.size cc1_transform_17 reads1_17 true true 1 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

abbrev win2_0 : Pipeline.Window sig grid2 :=
  Pipeline.Window.ofSpec (Memref.whole main_v9_0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9_1) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9_2) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S2048x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15) S2048x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v16) S2048x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v17) S2048x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S64x64.size cc2_transform_8 reads2_8 false false 1 stage2_8 sem2_8
    hrank2 hreads2_8 hinb2_8 nbuf2_8 (Memref.isWhole_whole _) hwx2_8 hstage2_8

abbrev win2_9 : Pipeline.Window sig grid2 :=
  Pipeline.Window.ofSpec (Memref.whole main_arg17) S64x64.size cc2_transform_9 reads2_9 false false 1 stage2_9 sem2_9
    hrank2 hreads2_9 hinb2_9 nbuf2_9 (Memref.isWhole_whole _) hwx2_9 hstage2_9

abbrev win2_10 : Pipeline.Window sig grid2 :=
  Pipeline.Window.ofSpec (Memref.whole main_arg17) S64x64.size cc2_transform_10 reads2_10 false false 1 stage2_10 sem2_10
    hrank2 hreads2_10 hinb2_10 nbuf2_10 (Memref.isWhole_whole _) hwx2_10 hstage2_10

abbrev win2_11 : Pipeline.Window sig grid2 :=
  Pipeline.Window.ofSpec (Memref.whole main_v12_0) S16x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v12_1) S400x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v12_2) S4x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v12_3) S64x64.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v12_4) S1x64.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v12_5) S1x64.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v18) S2048x64.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

class Facts : Prop extends Facts₀ where

variable [Facts]
-- ==== ReferenceIdeal.lean ====
abbrev S16384 : Shape := ⟨1, ![16384]⟩
abbrev S16x64 : Shape := ⟨2, ![16, 64]⟩
abbrev S100000x64 : Shape := ⟨2, ![100000, 64]⟩
abbrev S400x64 : Shape := ⟨2, ![400, 64]⟩
abbrev S4x64 : Shape := ⟨2, ![4, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x512 : Shape := ⟨2, ![16384, 512]⟩

abbrev nBuf : Space → Nat
  | .hbm => 190
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384, .i32⟩
  | 6 => ⟨S16384, .i32⟩
  | 7 => ⟨S16384, .f32⟩
  | 8 => ⟨S16x64, .f32⟩
  | 9 => ⟨S100000x64, .f32⟩
  | 10 => ⟨S400x64, .f32⟩
  | 11 => ⟨S100000x64, .f32⟩
  | 12 => ⟨S4x64, .f32⟩
  | 13 => ⟨S64x64, .f32⟩
  | 14 => ⟨S100000x64, .f32⟩
  | 15 => ⟨S1x64, .f32⟩
  | 16 => ⟨S64, .f32⟩
  | 17 => ⟨S512x64, .f32⟩
  | 18 => ⟨S64, .f32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384x64, .f32⟩
  | 38 => ⟨S16384x64, .i1⟩
  | 39 => ⟨S_, .f32⟩
  | 40 => ⟨S16384x64, .f32⟩
  | 41 => ⟨S16384x64, .f32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x64, .f32⟩
  | 61 => ⟨S16384x64, .i1⟩
  | 62 => ⟨S_, .f32⟩
  | 63 => ⟨S16384x64, .f32⟩
  | 64 => ⟨S16384x64, .f32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S1, .i32⟩
  | 74 => ⟨S_, .i32⟩
  | 75 => ⟨S16384x1, .i32⟩
  | 76 => ⟨S16384x1, .i1⟩
  | 77 => ⟨S1x1, .i32⟩
  | 78 => ⟨S16384x1, .i32⟩
  | 79 => ⟨S16384x1, .i1⟩
  | 80 => ⟨S16384x1, .i1⟩
  | 81 => ⟨S_, .i1⟩
  | 82 => ⟨S16384, .i1⟩
  | 83 => ⟨S16384x64, .f32⟩
  | 84 => ⟨S16384x64, .i1⟩
  | 85 => ⟨S_, .f32⟩
  | 86 => ⟨S16384x64, .f32⟩
  | 87 => ⟨S16384x64, .f32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384x64, .f32⟩
  | 107 => ⟨S16384x64, .i1⟩
  | 108 => ⟨S_, .f32⟩
  | 109 => ⟨S16384x64, .f32⟩
  | 110 => ⟨S16384x64, .f32⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S16384x1, .i32⟩
  | 119 => ⟨S1, .i32⟩
  | 120 => ⟨S_, .i32⟩
  | 121 => ⟨S16384x1, .i32⟩
  | 122 => ⟨S16384x1, .i1⟩
  | 123 => ⟨S1x1, .i32⟩
  | 124 => ⟨S16384x1, .i32⟩
  | 125 => ⟨S16384x1, .i1⟩
  | 126 => ⟨S16384x1, .i1⟩
  | 127 => ⟨S_, .i1⟩
  | _ => ⟨S16384, .i32⟩

abbrev hbmTy0_1 (i : Nat) : BufTy := match i % 128 with
  | 0 => ⟨S16384, .i1⟩
  | 1 => ⟨S16384x64, .f32⟩
  | 2 => ⟨S16384x64, .i1⟩
  | 3 => ⟨S_, .f32⟩
  | 4 => ⟨S16384x64, .f32⟩
  | 5 => ⟨S16384x64, .f32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x64, .f32⟩
  | 25 => ⟨S16384x64, .i1⟩
  | 26 => ⟨S_, .f32⟩
  | 27 => ⟨S16384x64, .f32⟩
  | 28 => ⟨S16384x64, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S1, .i32⟩
  | 38 => ⟨S_, .i32⟩
  | 39 => ⟨S16384x1, .i32⟩
  | 40 => ⟨S16384x1, .i1⟩
  | 41 => ⟨S1x1, .i32⟩
  | 42 => ⟨S16384x1, .i32⟩
  | 43 => ⟨S16384x1, .i1⟩
  | 44 => ⟨S16384x1, .i1⟩
  | 45 => ⟨S_, .i1⟩
  | 46 => ⟨S16384, .i1⟩
  | 47 => ⟨S16384x64, .f32⟩
  | 48 => ⟨S16384x64, .i1⟩
  | 49 => ⟨S_, .f32⟩
  | 50 => ⟨S16384x64, .f32⟩
  | 51 => ⟨S16384x64, .f32⟩
  | 52 => ⟨S16384x1, .f32⟩
  | 53 => ⟨S16384x64, .f32⟩
  | 54 => ⟨S1x64, .f32⟩
  | 55 => ⟨S16384x64, .f32⟩
  | 56 => ⟨S16384x64, .f32⟩
  | 57 => ⟨S16384x512, .f32⟩
  | 58 => ⟨S16384x64, .f32⟩
  | 59 => ⟨S1x64, .f32⟩
  | 60 => ⟨S16384x64, .f32⟩
  | 61 => ⟨S16384x64, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v0 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v1 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v2 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v3 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_call4_cst : Ref sig .tc := ⟨.hbm, 131, rfl⟩
abbrev main_call4_v15 : Ref sig .tc := ⟨.hbm, 132, rfl⟩
abbrev main_v4 : Ref sig .tc := ⟨.hbm, 133, rfl⟩
abbrev main_call5_c : Ref sig .tc := ⟨.hbm, 134, rfl⟩
abbrev main_call5_v0 : Ref sig .tc := ⟨.hbm, 135, rfl⟩
abbrev main_call5_v1 : Ref sig .tc := ⟨.hbm, 136, rfl⟩
abbrev main_call5_c_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_c_1 : Ref sig .tc := ⟨.hbm, 142, rfl⟩
abbrev main_call5_c_2 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_c_3 : Ref sig .tc := ⟨.hbm, 150, rfl⟩
abbrev main_call5_v12 : Ref sig .tc := ⟨.hbm, 151, rfl⟩
abbrev main_call5_v13 : Ref sig .tc := ⟨.hbm, 152, rfl⟩
abbrev main_call5_v14 : Ref sig .tc := ⟨.hbm, 153, rfl⟩
abbrev main_call5_cst : Ref sig .tc := ⟨.hbm, 154, rfl⟩
abbrev main_call5_v15 : Ref sig .tc := ⟨.hbm, 155, rfl⟩
abbrev main_v5 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_v14 : Ref sig .tc := ⟨.hbm, 176, rfl⟩
abbrev main_call6_cst : Ref sig .tc := ⟨.hbm, 177, rfl⟩
abbrev main_call6_v15 : Ref sig .tc := ⟨.hbm, 178, rfl⟩
abbrev main_v6 : Ref sig .tc := ⟨.hbm, 179, rfl⟩
abbrev main_v7 : Ref sig .tc := ⟨.hbm, 180, rfl⟩
abbrev main_v8 : Ref sig .tc := ⟨.hbm, 181, rfl⟩
abbrev main_v9 : Ref sig .tc := ⟨.hbm, 182, rfl⟩
abbrev main_v10 : Ref sig .tc := ⟨.hbm, 183, rfl⟩
abbrev main_v11 : Ref sig .tc := ⟨.hbm, 184, rfl⟩
abbrev main_v12 : Ref sig .tc := ⟨.hbm, 185, rfl⟩
abbrev main_v13 : Ref sig .tc := ⟨.hbm, 186, rfl⟩
abbrev main_v14 : Ref sig .tc := ⟨.hbm, 187, rfl⟩
abbrev main_v15 : Ref sig .tc := ⟨.hbm, 188, rfl⟩
abbrev main_v16 : Ref sig .tc := ⟨.hbm, 189, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  concatenates_S16384x64_S16384x64_S16384x64_S16384x64_S16384x64_S16384x64_S16384x64_S16384x64_S16384x512_d1 : Shape.Concatenates [S16384x64, S16384x64, S16384x64, S16384x64, S16384x64, S16384x64, S16384x64, S16384x64] S16384x512 1
  gather_S16x64_S16384x1_S16384x64_1_0_n_n_0_1_164_wf : GatherDims.WF S16x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]
  gather_S400x64_S16384x1_S16384x64_1_0_n_n_0_1_164_wf : GatherDims.WF S400x64 S16384x1 S16384x64 [1] [0] [] [0] [] 1 ![1, 64]
  gather_S4x64_S16384x1_S16384x64_1_0_n_n_0_1_164_wf : GatherDims.WF S4x64 S16384x1 S16384x64 [1] [0] [] [0] [] 1 ![1, 64]
  gather_S64x64_S16384x1_S16384x64_1_0_n_n_0_1_164_wf : GatherDims.WF S64x64 S16384x1 S16384x64 [1] [0] [] [0] [] 1 ![1, 64]
  dot_S16384x1_S1x64_S16384x64_1_0_0_1_n_n_wf : DotDims.WF S16384x1 S1x64 S16384x64 [1] [0] [0] [1] [] []
  dot_S16384x512_S512x64_S16384x64_1_0_0_1_n_n_wf : DotDims.WF S16384x512 S512x64 S16384x64 [1] [0] [0] [1] [] []

variable [Facts₀]

def gather_S16x64_S16384x1_S16384x64_1_0_n_n_0_1_164 : GatherDims S16x64 S16384x1 S16384x64 where
  offsetDims := [1]
  collapsedSliceDims := [0]
  operandBatchingDims := []
  startIndicesBatchingDims := []
  startIndexMap := [0]
  indexVectorDim := 1
  sliceSizes := ![1, 64]
  wf := gather_S16x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S400x64_S16384x1_S16384x64_1_0_n_n_0_1_164 : GatherDims S400x64 S16384x1 S16384x64 where
  offsetDims := [1]
  collapsedSliceDims := [0]
  operandBatchingDims := []
  startIndicesBatchingDims := []
  startIndexMap := [0]
  indexVectorDim := 1
  sliceSizes := ![1, 64]
  wf := gather_S400x64_S16384x1_S16384x64_1_0_n_n_0_1_164_wf
def gather_S4x64_S16384x1_S16384x64_1_0_n_n_0_1_164 : GatherDims S4x64 S16384x1 S16384x64 where
  offsetDims := [1]
  collapsedSliceDims := [0]
  operandBatchingDims := []
  startIndicesBatchingDims := []
  startIndexMap := [0]
  indexVectorDim := 1
  sliceSizes := ![1, 64]
  wf := gather_S4x64_S16384x1_S16384x64_1_0_n_n_0_1_164_wf
def gather_S64x64_S16384x1_S16384x64_1_0_n_n_0_1_164 : GatherDims S64x64 S16384x1 S16384x64 where
  offsetDims := [1]
  collapsedSliceDims := [0]
  operandBatchingDims := []
  startIndicesBatchingDims := []
  startIndexMap := [0]
  indexVectorDim := 1
  sliceSizes := ![1, 64]
  wf := gather_S64x64_S16384x1_S16384x64_1_0_n_n_0_1_164_wf
def dot_S16384x1_S1x64_S16384x64_1_0_0_1_n_n : DotDims S16384x1 S1x64 S16384x64 where
  lhsContracting := [1]
  rhsContracting := [0]
  lhsNonContracting := [0]
  rhsNonContracting := [1]
  lhsBatch := []
  rhsBatch := []
  wf := dot_S16384x1_S1x64_S16384x64_1_0_0_1_n_n_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf

class Facts : Prop extends Facts₀ where

variable [Facts]
-- ==== Proof.TaskViews.lean ====
/-
  The gather task of one vector subcore, as views of the arrays it touches.

  The SparseCore kernel runs once on each of the 2 × 16 vector subcores. The subcore at grid coordinates `L` has
  number `2 * L 1 + L 0`. It copies slab `number` (4 × 128 words) of each of the three index arrays into a plane
  of its index scratch, and then, for each table `t` and each of the four chunks `j`, gathers the 128 rows of the
  widened table `t` that row `j` of plane `t` lists into one of seven slots of its row scratch and copies that
  slot out to rows `[512 * number + 128 * j, 512 * number + 128 * j + 128)` of output `t`. The twelve
  (table, chunk) items go round the seven slots, item `i` on slot `i % 7`; every transfer completes on a semaphore
  of its own plane or slot, one transfer at a time per semaphore.

  This module only names the pieces, each spelt exactly as the kernel slices it, so that the symbolic run finds them.
-/
import proofs.«211833_g48473000902786_cont_8to1_c_597_31_alg».proof.Proof.Gen.KernelIdeal
import Idealize.ShloMosaic.Lib.SparseCore.Launch

noncomputable section

namespace Cert.Proof.KI

open Cert.KernelIdeal Cert.KernelIdeal.Gen
open Idealize.ShloMosaic
open Idealize.ShloMosaic.SparseCore (S V T)
open Idealize.SL.Sem

/-! ## The task's views, spelt as the kernel slices them

A task is one vector subcore at grid coordinates `L`; its number is `2 * L 1 + L 0`. It reads slab number
`2 * L 1 + L 0` of each index array, any row of each widened table, and writes rows
`[512 * number, 512 * number + 512)` of each output, in four chunks of 128 rows. -/

abbrev cV (L : grid0.Coords) : Fin τ.nSC := (L 0).castLE hcore0
abbrev jV (L : grid0.Coords) : Fin τ.nSub := (L 1).castLE hsub0
/-- The task's slab of index array 0, in HBM. -/
abbrev iSlab0 (L : grid0.Coords) : Memref sig .scVector .hbm S4x128 .i32 :=
  ((Memref.whole main_v0_scv).slice (Rect.unit (s := S32x4x128) (k0_off1 L) S1x4x128.size (k0_off1_inb L)) (fun _ => rfl)).squeeze S4x128 squeezes_S1x4x128_S4x128
/-- Widened table 0, whole, as the gather names its source. -/
abbrev tab0 : Memref sig .scVector .hbm S100000x128 .f32 :=
  (Memref.whole main_v4_scv).slice (Rect.unit (s := S100000x128) ![0, 0] S100000x128.size inb_S100000x128_S100000x128_0_0) (fun _ => rfl)
/-- The index scratch's plane 0: where slab 0 lands. -/
abbrev iv0 : Memref sig .scVector .vmem S4x128 .i32 :=
  ((Memref.whole cc0_scratch0).slice (Rect.unit (s := S3x4x128) ![0, 0, 0] S1x4x128.size inb_S3x4x128_S1x4x128_0_0_0) (fun _ => rfl)).squeeze S4x128 squeezes_S1x4x128_S4x128
/-- Row 0 of plane 0 of the index scratch: the offset list of chunk 0 of table 0. -/
abbrev ivr0_0 : Memref sig .scVector .vmem S128 .i32 :=
  ((Memref.whole cc0_scratch0).slice (Rect.unit (s := S3x4x128) ![0, 0, 0] S1x1x128.size inb_S3x4x128_S1x1x128_0_0_0) (fun _ => rfl)).squeeze S128 squeezes_S1x1x128_S128
/-- Chunk 0 of the task's rows of output 0. -/
abbrev oCh0_0 (L : grid0.Coords) : Memref sig .scVector .hbm S128x128 .f32 :=
  (Memref.whole main_v9_0_scv).slice (Rect.unit (s := S16384x128) (k0_off2 L 0#32) S128x128.size (k0_off2_inb L 0)) (fun _ => rfl)
/-- Row 1 of plane 0 of the index scratch: the offset list of chunk 1 of table 0. -/
abbrev ivr0_1 : Memref sig .scVector .vmem S128 .i32 :=
  ((Memref.whole cc0_scratch0).slice (Rect.unit (s := S3x4x128) ![0, 1, 0] S1x1x128.size inb_S3x4x128_S1x1x128_0_1_0) (fun _ => rfl)).squeeze S128 squeezes_S1x1x128_S128
/-- Chunk 1 of the task's rows of output 0. -/
abbrev oCh0_1 (L : grid0.Coords) : Memref sig .scVector .hbm S128x128 .f32 :=
  (Memref.whole main_v9_0_scv).slice (Rect.unit (s := S16384x128) (k0_off2 L 128#32) S128x128.size (k0_off2_inb L 1)) (fun _ => rfl)
/-- Row 2 of plane 0 of the index scratch: the offset list of chunk 2 of table 0. -/
abbrev ivr0_2 : Memref sig .scVector .vmem S128 .i32 :=
  ((Memref.whole cc0_scratch0).slice (Rect.unit (s := S3x4x128) ![0, 2, 0] S1x1x128.size inb_S3x4x128_S1x1x128_0_2_0) (fun _ => rfl)).squeeze S128 squeezes_S1x1x128_S128
/-- Chunk 2 of the task's rows of output 0. -/
abbrev oCh0_2 (L : grid0.Coords) : Memref sig .scVector .hbm S128x128 .f32 :=
  (Memref.whole main_v9_0_scv).slice (Rect.unit (s := S16384x128) (k0_off2 L 256#32) S128x128.size (k0_off2_inb L 2)) (fun _ => rfl)
/-- Row 3 of plane 0 of the index scratch: the offset list of chunk 3 of table 0. -/
abbrev ivr0_3 : Memref sig .scVector .vmem S128 .i32 :=
  ((Memref.whole cc0_scratch0).slice (Rect.unit (s := S3x4x128) ![0, 3, 0] S1x1x128.size inb_S3x4x128_S1x1x128_0_3_0) (fun _ => rfl)).squeeze S128 squeezes_S1x1x128_S128
/-- Chunk 3 of the task's rows of output 0. -/
abbrev oCh0_3 (L : grid0.Coords) : Memref sig .scVector .hbm S128x128 .f32 :=
  (Memref.whole main_v9_0_scv).slice (Rect.unit (s := S16384x128) (k0_off2 L 384#32) S128x128.size (k0_off2_inb L 3)) (fun _ => rfl)
/-- The task's slab of index array 1, in HBM. -/
abbrev iSlab1 (L : grid0.Coords) : Memref sig .scVector .hbm S4x128 .i32 :=
  ((Memref.whole main_v1_scv).slice (Rect.unit (s := S32x4x128) (k0_off1 L) S1x4x128.size (k0_off1_inb L)) (fun _ => rfl)).squeeze S4x128 squeezes_S1x4x128_S4x128
/-- Widened table 1, whole, as the gather names its source. -/
abbrev tab1 : Memref sig .scVector .hbm S100000x128 .f32 :=
  (Memref.whole main_v6_scv).slice (Rect.unit (s := S100000x128) ![0, 0] S100000x128.size inb_S100000x128_S100000x128_0_0) (fun _ => rfl)
/-- The index scratch's plane 1: where slab 1 lands. -/
abbrev iv1 : Memref sig .scVector .vmem S4x128 .i32 :=
  ((Memref.whole cc0_scratch0).slice (Rect.unit (s := S3x4x128) ![1, 0, 0] S1x4x128.size inb_S3x4x128_S1x4x128_1_0_0) (fun _ => rfl)).squeeze S4x128 squeezes_S1x4x128_S4x128
/-- Row 0 of plane 1 of the index scratch: the offset list of chunk 0 of table 1. -/
abbrev ivr1_0 : Memref sig .scVector .vmem S128 .i32 :=
  ((Memref.whole cc0_scratch0).slice (Rect.unit (s := S3x4x128) ![1, 0, 0] S1x1x128.size inb_S3x4x128_S1x1x128_1_0_0) (fun _ => rfl)).squeeze S128 squeezes_S1x1x128_S128
/-- Chunk 0 of the task's rows of output 1. -/
abbrev oCh1_0 (L : grid0.Coords) : Memref sig .scVector .hbm S128x128 .f32 :=
  (Memref.whole main_v9_1_scv).slice (Rect.unit (s := S16384x128) (k0_off2 L 0#32) S128x128.size (k0_off2_inb L 0)) (fun _ => rfl)
/-- Row 1 of plane 1 of the index scratch: the offset list of chunk 1 of table 1. -/
abbrev ivr1_1 : Memref sig .scVector .vmem S128 .i32 :=
  ((Memref.whole cc0_scratch0).slice (Rect.unit (s := S3x4x128) ![1, 1, 0] S1x1x128.size inb_S3x4x128_S1x1x128_1_1_0) (fun _ => rfl)).squeeze S128 squeezes_S1x1x128_S128
/-- Chunk 1 of the task's rows of output 1. -/
abbrev oCh1_1 (L : grid0.Coords) : Memref sig .scVector .hbm S128x128 .f32 :=
  (Memref.whole main_v9_1_scv).slice (Rect.unit (s := S16384x128) (k0_off2 L 128#32) S128x128.size (k0_off2_inb L 1)) (fun _ => rfl)
/-- Row 2 of plane 1 of the index scratch: the offset list of chunk 2 of table 1. -/
abbrev ivr1_2 : Memref sig .scVector .vmem S128 .i32 :=
  ((Memref.whole cc0_scratch0).slice (Rect.unit (s := S3x4x128) ![1, 2, 0] S1x1x128.size inb_S3x4x128_S1x1x128_1_2_0) (fun _ => rfl)).squeeze S128 squeezes_S1x1x128_S128
/-- Chunk 2 of the task's rows of output 1. -/
abbrev oCh1_2 (L : grid0.Coords) : Memref sig .scVector .hbm S128x128 .f32 :=
  (Memref.whole main_v9_1_scv).slice (Rect.unit (s := S16384x128) (k0_off2 L 256#32) S128x128.size (k0_off2_inb L 2)) (fun _ => rfl)
/-- Row 3 of plane 1 of the index scratch: the offset list of chunk 3 of table 1. -/
abbrev ivr1_3 : Memref sig .scVector .vmem S128 .i32 :=
  ((Memref.whole cc0_scratch0).slice (Rect.unit (s := S3x4x128) ![1, 3, 0] S1x1x128.size inb_S3x4x128_S1x1x128_1_3_0) (fun _ => rfl)).squeeze S128 squeezes_S1x1x128_S128
/-- Chunk 3 of the task's rows of output 1. -/
abbrev oCh1_3 (L : grid0.Coords) : Memref sig .scVector .hbm S128x128 .f32 :=
  (Memref.whole main_v9_1_scv).slice (Rect.unit (s := S16384x128) (k0_off2 L 384#32) S128x128.size (k0_off2_inb L 3)) (fun _ => rfl)
/-- The task's slab of index array 2, in HBM. -/
abbrev iSlab2 (L : grid0.Coords) : Memref sig .scVector .hbm S4x128 .i32 :=
  ((Memref.whole main_v2_scv).slice (Rect.unit (s := S32x4x128) (k0_off1 L) S1x4x128.size (k0_off1_inb L)) (fun _ => rfl)).squeeze S4x128 squeezes_S1x4x128_S4x128
/-- Widened table 2, whole, as the gather names its source. -/
abbrev tab2 : Memref sig .scVector .hbm S100000x128 .f32 :=
  (Memref.whole main_v8_scv).slice (Rect.unit (s := S100000x128) ![0, 0] S100000x128.size inb_S100000x128_S100000x128_0_0) (fun _ => rfl)
/-- The index scratch's plane 2: where slab 2 lands. -/
abbrev iv2 : Memref sig .scVector .vmem S4x128 .i32 :=
  ((Memref.whole cc0_scratch0).slice (Rect.unit (s := S3x4x128) ![2, 0, 0] S1x4x128.size inb_S3x4x128_S1x4x128_2_0_0) (fun _ => rfl)).squeeze S4x128 squeezes_S1x4x128_S4x128
/-- Row 0 of plane 2 of the index scratch: the offset list of chunk 0 of table 2. -/
abbrev ivr2_0 : Memref sig .scVector .vmem S128 .i32 :=
  ((Memref.whole cc0_scratch0).slice (Rect.unit (s := S3x4x128) ![2, 0, 0] S1x1x128.size inb_S3x4x128_S1x1x128_2_0_0) (fun _ => rfl)).squeeze S128 squeezes_S1x1x128_S128
/-- Chunk 0 of the task's rows of output 2. -/
abbrev oCh2_0 (L : grid0.Coords) : Memref sig .scVector .hbm S128x128 .f32 :=
  (Memref.whole main_v9_2_scv).slice (Rect.unit (s := S16384x128) (k0_off2 L 0#32) S128x128.size (k0_off2_inb L 0)) (fun _ => rfl)
/-- Row 1 of plane 2 of the index scratch: the offset list of chunk 1 of table 2. -/
abbrev ivr2_1 : Memref sig .scVector .vmem S128 .i32 :=
  ((Memref.whole cc0_scratch0).slice (Rect.unit (s := S3x4x128) ![2, 1, 0] S1x1x128.size inb_S3x4x128_S1x1x128_2_1_0) (fun _ => rfl)).squeeze S128 squeezes_S1x1x128_S128
/-- Chunk 1 of the task's rows of output 2. -/
abbrev oCh2_1 (L : grid0.Coords) : Memref sig .scVector .hbm S128x128 .f32 :=
  (Memref.whole main_v9_2_scv).slice (Rect.unit (s := S16384x128) (k0_off2 L 128#32) S128x128.size (k0_off2_inb L 1)) (fun _ => rfl)
/-- Row 2 of plane 2 of the index scratch: the offset list of chunk 2 of table 2. -/
abbrev ivr2_2 : Memref sig .scVector .vmem S128 .i32 :=
  ((Memref.whole cc0_scratch0).slice (Rect.unit (s := S3x4x128) ![2, 2, 0] S1x1x128.size inb_S3x4x128_S1x1x128_2_2_0) (fun _ => rfl)).squeeze S128 squeezes_S1x1x128_S128
/-- Chunk 2 of the task's rows of output 2. -/
abbrev oCh2_2 (L : grid0.Coords) : Memref sig .scVector .hbm S128x128 .f32 :=
  (Memref.whole main_v9_2_scv).slice (Rect.unit (s := S16384x128) (k0_off2 L 256#32) S128x128.size (k0_off2_inb L 2)) (fun _ => rfl)
/-- Row 3 of plane 2 of the index scratch: the offset list of chunk 3 of table 2. -/
abbrev ivr2_3 : Memref sig .scVector .vmem S128 .i32 :=
  ((Memref.whole cc0_scratch0).slice (Rect.unit (s := S3x4x128) ![2, 3, 0] S1x1x128.size inb_S3x4x128_S1x1x128_2_3_0) (fun _ => rfl)).squeeze S128 squeezes_S1x1x128_S128
/-- Chunk 3 of the task's rows of output 2. -/
abbrev oCh2_3 (L : grid0.Coords) : Memref sig .scVector .hbm S128x128 .f32 :=
  (Memref.whole main_v9_2_scv).slice (Rect.unit (s := S16384x128) (k0_off2 L 384#32) S128x128.size (k0_off2_inb L 3)) (fun _ => rfl)
/-- Slot 0 of the row scratch. -/
abbrev slot0 : Memref sig .scVector .vmem S128x128 .f32 :=
  ((Memref.whole cc0_scratch1).slice (Rect.unit (s := S7x128x128) ![0, 0, 0] S1x128x128.size inb_S7x128x128_S1x128x128_0_0_0) (fun _ => rfl)).squeeze S128x128 squeezes_S1x128x128_S128x128
/-- Slot 1 of the row scratch. -/
abbrev slot1 : Memref sig .scVector .vmem S128x128 .f32 :=
  ((Memref.whole cc0_scratch1).slice (Rect.unit (s := S7x128x128) ![1, 0, 0] S1x128x128.size inb_S7x128x128_S1x128x128_1_0_0) (fun _ => rfl)).squeeze S128x128 squeezes_S1x128x128_S128x128
/-- Slot 2 of the row scratch. -/
abbrev slot2 : Memref sig .scVector .vmem S128x128 .f32 :=
  ((Memref.whole cc0_scratch1).slice (Rect.unit (s := S7x128x128) ![2, 0, 0] S1x128x128.size inb_S7x128x128_S1x128x128_2_0_0) (fun _ => rfl)).squeeze S128x128 squeezes_S1x128x128_S128x128
/-- Slot 3 of the row scratch. -/
abbrev slot3 : Memref sig .scVector .vmem S128x128 .f32 :=
  ((Memref.whole cc0_scratch1).slice (Rect.unit (s := S7x128x128) ![3, 0, 0] S1x128x128.size inb_S7x128x128_S1x128x128_3_0_0) (fun _ => rfl)).squeeze S128x128 squeezes_S1x128x128_S128x128
/-- Slot 4 of the row scratch. -/
abbrev slot4 : Memref sig .scVector .vmem S128x128 .f32 :=
  ((Memref.whole cc0_scratch1).slice (Rect.unit (s := S7x128x128) ![4, 0, 0] S1x128x128.size inb_S7x128x128_S1x128x128_4_0_0) (fun _ => rfl)).squeeze S128x128 squeezes_S1x128x128_S128x128
/-- Slot 5 of the row scratch. -/
abbrev slot5 : Memref sig .scVector .vmem S128x128 .f32 :=
  ((Memref.whole cc0_scratch1).slice (Rect.unit (s := S7x128x128) ![5, 0, 0] S1x128x128.size inb_S7x128x128_S1x128x128_5_0_0) (fun _ => rfl)).squeeze S128x128 squeezes_S1x128x128_S128x128
/-- Slot 6 of the row scratch. -/
abbrev slot6 : Memref sig .scVector .vmem S128x128 .f32 :=
  ((Memref.whole cc0_scratch1).slice (Rect.unit (s := S7x128x128) ![6, 0, 0] S1x128x128.size inb_S7x128x128_S1x128x128_6_0_0) (fun _ => rfl)).squeeze S128x128 squeezes_S1x128x128_S128x128
abbrev isem0 : DmaSem sig := ((cc0_scratch2.slice (Rect.unit (s := S3) ![0] S1.size inb_S3_S1_0)).squeeze S_ squeezes_S1_S_).sem
abbrev isem1 : DmaSem sig := ((cc0_scratch2.slice (Rect.unit (s := S3) ![1] S1.size inb_S3_S1_1)).squeeze S_ squeezes_S1_S_).sem
abbrev isem2 : DmaSem sig := ((cc0_scratch2.slice (Rect.unit (s := S3) ![2] S1.size inb_S3_S1_2)).squeeze S_ squeezes_S1_S_).sem
abbrev gsem0 : DmaSem sig := ((cc0_scratch3.slice (Rect.unit (s := S7) ![0] S1.size inb_S7_S1_0)).squeeze S_ squeezes_S1_S_).sem
abbrev wsem0 : DmaSem sig := ((cc0_scratch4.slice (Rect.unit (s := S7) ![0] S1.size inb_S7_S1_0)).squeeze S_ squeezes_S1_S_).sem
abbrev gsem1 : DmaSem sig := ((cc0_scratch3.slice (Rect.unit (s := S7) ![1] S1.size inb_S7_S1_1)).squeeze S_ squeezes_S1_S_).sem
abbrev wsem1 : DmaSem sig := ((cc0_scratch4.slice (Rect.unit (s := S7) ![1] S1.size inb_S7_S1_1)).squeeze S_ squeezes_S1_S_).sem
abbrev gsem2 : DmaSem sig := ((cc0_scratch3.slice (Rect.unit (s := S7) ![2] S1.size inb_S7_S1_2)).squeeze S_ squeezes_S1_S_).sem
abbrev wsem2 : DmaSem sig := ((cc0_scratch4.slice (Rect.unit (s := S7) ![2] S1.size inb_S7_S1_2)).squeeze S_ squeezes_S1_S_).sem
abbrev gsem3 : DmaSem sig := ((cc0_scratch3.slice (Rect.unit (s := S7) ![3] S1.size inb_S7_S1_3)).squeeze S_ squeezes_S1_S_).sem
abbrev wsem3 : DmaSem sig := ((cc0_scratch4.slice (Rect.unit (s := S7) ![3] S1.size inb_S7_S1_3)).squeeze S_ squeezes_S1_S_).sem
abbrev gsem4 : DmaSem sig := ((cc0_scratch3.slice (Rect.unit (s := S7) ![4] S1.size inb_S7_S1_4)).squeeze S_ squeezes_S1_S_).sem
abbrev wsem4 : DmaSem sig := ((cc0_scratch4.slice (Rect.unit (s := S7) ![4] S1.size inb_S7_S1_4)).squeeze S_ squeezes_S1_S_).sem
abbrev gsem5 : DmaSem sig := ((cc0_scratch3.slice (Rect.unit (s := S7) ![5] S1.size inb_S7_S1_5)).squeeze S_ squeezes_S1_S_).sem
abbrev wsem5 : DmaSem sig := ((cc0_scratch4.slice (Rect.unit (s := S7) ![5] S1.size inb_S7_S1_5)).squeeze S_ squeezes_S1_S_).sem
abbrev gsem6 : DmaSem sig := ((cc0_scratch3.slice (Rect.unit (s := S7) ![6] S1.size inb_S7_S1_6)).squeeze S_ squeezes_S1_S_).sem
abbrev wsem6 : DmaSem sig := ((cc0_scratch4.slice (Rect.unit (s := S7) ![6] S1.size inb_S7_S1_6)).squeeze S_ squeezes_S1_S_).sem

/-- The vector subcore at grid coordinates `L` of device `d`, as a thread. -/
abbrev thr (d : Dev nD) (L : grid0.Coords) : Thread nD τ := V d (cV L) (jV L)

end Cert.Proof.KI

end
-- ==== Proof.RegionSetup.lean ====
/-
  The two TensorCore regions of the program, set-up: the labels, configuration and body table the launch is stated
  over, the resource algebra (the handshakes' rounds, the pipelines' staging cells' rounds, the transfers' counters),
  the embeddings, and the staging cells' ghost state a region is entered with, dealt from the launch element.
-/
import proofs.«211833_g48473000902786_cont_8to1_c_597_31_alg».proof.Proof.Gen.KernelIdeal
import proofs.«211833_g48473000902786_cont_8to1_c_597_31_alg».proof.Proof.Gen.KernelIdeal.Launch
import Idealize.ShloMosaic.Lib.SparseCore.Launch
import Idealize.ShloMosaic.Lib.Pipeline.Regions
import Idealize.ShloMosaic.Lib.Pipeline.Kit
import Idealize.ShloMosaic.Lib.Transfers
import Idealize.ShloMosaic.Lib.Pipeline.Frame
import Idealize.ShloMosaic.Lib.StableHlo.Run

noncomputable section

namespace Cert.Proof.Region

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

/-- The handshakes' rounds (duties named by a number), -/
abbrev UH : Type := URounds (GSem nD τ sig) ℕ
/-- the pipelines' staging cells' rounds (duties unnamed), -/
abbrev UP : Type := URounds (GSem nD τ sig) Unit
/-- side by side with the transfers' counters. -/
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The pipelines at their (empty) prefetched tables; their staging cells' ghost state -/

abbrev adm : (p : Fin 2) → (pcfgs (F := F) p).Adm := fun p => (cfgs p).toPCfg_adm

/-- What region `p` of core `d` is entered with beside the machine's resources: its staging cells' launch ghost
    state and the duty tokens of its transfers. -/
def Gp (p : Fin 2) (d : Dev nD) : sProp 𝕄 :=
  iprop(Pipeline.cellsGhost (Pipeline.pin (pcfgs (F := F)) adm) EP p d ∗ Pipeline.toksInit (Pipeline.pin (pcfgs (F := F)) adm) EP p d)

/-- Both regions'. -/
def G (d : Dev nD) : sProp 𝕄 := iprop(Gp (F := F) 0 d ∗ Gp (F := F) 1 d)

set_option backward.isDefEq.respectTransparency.types false in
/-- The program's staging cells are pairwise distinct (the pipelines at their tables are the printed configurations). -/
theorem phinj : Function.Injective (Pipeline.cellOf (nD := nD) (τ := τ) (Pipeline.pin (pcfgs (F := F)) adm)) := cellOf_inj

/-- The pipelines' component of the launch element. -/
abbrev uP : UP := initOf (Pipeline.cells (nD := nD) (τ := τ) (Pipeline.pin (pcfgs (F := F)) adm) phinj) (Pipeline.launchToks (nD := nD) (τ := τ) (Pipeline.pin (pcfgs (F := F)) adm) phinj)

set_option backward.isDefEq.respectTransparency.types false in
/-- The staging cells' ghost state of every core, from the pipelines' component of the launch element. -/
theorem fundG : (BI.own ((EP (F := F)) (uP (F := F))) : sProp 𝕄) ⊢ iprop(|==> bigSep Finset.univ fun d : Dev nD => G (F := F) d) := by
  have h := Pipeline.fund_ghost (nD := nD) (τ := τ) (Ix := HIx 1) (Val := Elt F) (Name := ℕ) (U := UU) (Lvl := ℕ)
    (Pipeline.pin (pcfgs (F := F)) adm) (EP (F := F)) phinj
  have hd : ∀ d : Dev nD, iprop((bigSep Finset.univ fun p : Fin 2 => Pipeline.cellsGhost (Pipeline.pin (pcfgs (F := F)) adm) EP p d)
        ∗ (bigSep Finset.univ fun p : Fin 2 => (Pipeline.toksInit (Pipeline.pin (pcfgs (F := F)) adm) EP p d : sProp 𝕄)))
      ⊢ (G (F := F) d : sProp 𝕄) := fun d => by
    unfold G Gp
    rw [show (Finset.univ : Finset (Fin 2)) = {0, 1} by decide, SparseCore.bigSep_insert' (by decide), bigSep_singleton,
      SparseCore.bigSep_insert' (by decide), bigSep_singleton]
    iintro ⟨⟨Hg0, Hg1⟩, Ht0, Ht1⟩
    isplitl [Hg0 Ht0]
    · isplitl [Hg0] <;> iassumption
    · isplitl [Hg1] <;> iassumption
  refine h.trans (BI.bupd_mono ?_)
  rw [← bigSep_sep']
  exact bigSep_mono fun d _ => hd d

/-- The launch element's three components, each owned through its embedding. -/
theorem ownU_split (a : UH) (b : UP) (c : Counters) :
    (ownU ((a, (b, c)) : UU) : sProp 𝕄)
      ⊢ iprop(BI.own ((EH (F := F)) a) ∗ BI.own ((EP (F := F)) b)
          ∗ BI.own (((Emb.inr : Emb Counters (UP × Counters)).trans (embR : Emb (UP × Counters) (MT nD τ sig (HIx 1) (Elt F) ℕ UU ℕ))) c)) := by
  iintro Hu
  ihave H := (ownU_pair a (b, c)) $$ Hu
  icases H with ⟨HH, HR⟩
  ihave H2 := (own_pair_emb (embR : Emb (UP × Counters) (MT nD τ sig (HIx 1) (Elt F) ℕ UU ℕ)) b c) $$ HR
  icases H2 with ⟨HP, HC⟩
  isplitl [HH]; · iexact HH
  isplitl [HP] <;> iassumption

/-! ## A TensorCore memref's buffer, held whole -/

section Held
variable [FloatOps F]
open Idealize.ShloMosaic.TcCoe

/-- Memref `M`'s buffer on core `c`: its contents type; it held whole at `f`; held whole at something. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
abbrev ptE (c : Dev nD) {sp : Space} {S : Shape} {e : EltTy} (M : Memref sig .tc sp S e) : sProp 𝕄 := iprop(∃ f, pt (F := F) c M f)

/-- An unscoped TensorCore reference is among the unscoped buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Reference `b`'s buffer on core `d`, whole, at share `q`, at the valuation's contents. -/
abbrev pr (d : Dev nD) (W : Valuation τ sig (Elt F)) (q : PosShare TreeShare) (b : Ref sig .tc) : sProp 𝕄 :=
  ((d : Thread nD τ).loc b) ↦{q} W (Proc.devRef .tc b)

/-- What the TensorCore owes after its last SparseCore call: nothing; its recorded pairs below the first call's levels. -/
abbrev owesT (d : Dev nD) : sProp 𝕄 :=
  iprop(∃ Wt, ⌜(K (F := F)).WBelow (T d) Wt (8 * 1)⌝ ∗ owes (T d) (0 : CellTallies nD τ sig (HIx 1)) Wt)

/-- A whole buffer at the full share is its share halved 2 times and the 2 halves split off. -/
theorem pt_split2 {ℓ : Loc nD τ sig} {f : Buf (Elt F) ℓ} :
    (ℓ ↦{fullShare} f : sProp 𝕄) ⊣⊢ iprop((ℓ ↦{Transfers.shareDrop fullShare 2} f) ∗ (ℓ ↦{Transfers.shareTokN fullShare 0} f) ∗ (ℓ ↦{Transfers.shareTokN fullShare 1} f)) := by
  have h := Transfers.pointsTo_toks_range (Ix := HIx 1) (Name := ℕ) (U := UU) (Lvl := ℕ) (ℓ := ℓ) (S := Finset.univ) (f := f) fullShare 2
  rw [show Finset.range 2 = {0, 1} by decide, SparseCore.bigSep_insert' (by decide), bigSep_singleton] at h
  exact h

/-- A whole buffer at the full share is its share halved 4 times and the 4 halves split off. -/
theorem pt_split4 {ℓ : Loc nD τ sig} {f : Buf (Elt F) ℓ} :
    (ℓ ↦{fullShare} f : sProp 𝕄) ⊣⊢ iprop((ℓ ↦{Transfers.shareDrop fullShare 4} f) ∗ (ℓ ↦{Transfers.shareTokN fullShare 0} f) ∗ (ℓ ↦{Transfers.shareTokN fullShare 1} f) ∗ (ℓ ↦{Transfers.shareTokN fullShare 2} f) ∗ (ℓ ↦{Transfers.shareTokN fullShare 3} f)) := by
  have h := Transfers.pointsTo_toks_range (Ix := HIx 1) (Name := ℕ) (U := UU) (Lvl := ℕ) (ℓ := ℓ) (S := Finset.univ) (f := f) fullShare 4
  rw [show Finset.range 4 = {0, 1, 2, 3} by decide, SparseCore.bigSep_insert' (by decide), SparseCore.bigSep_insert' (by decide), SparseCore.bigSep_insert' (by decide), bigSep_singleton] at h
  exact h

end Held

end Cert.Proof.Region

end
-- ==== Proof.TaskPay.lean ====
/-
  What the SparseCore call's handshakes carry.

  The call gathers rows of three widened tables into three outputs. Vector subcore `i` of SparseCore `c` is task
  number `2 * i + c` of 32. It is handed, and hands back: slab `number` of each of the three index arrays at
  the contents they have when the call starts (`W`), a read token of each table (token `number` of 32 of the full
  share), and rows `[512 * number, 512 * number + 512)` of each output at whatever they hold. What a SparseCore is
  handed is its sixteen tasks' parts side by side, so splitting a SparseCore's part among its tasks is the identity.
  The tasks need every offset they read to name a table row: `PreOK`.
-/
import proofs.«211833_g48473000902786_cont_8to1_c_597_31_alg».proof.Proof.TaskViews
import proofs.«211833_g48473000902786_cont_8to1_c_597_31_alg».proof.Proof.RegionSetup

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem nCore_zero : (K (F := F)).nCore 0 = 2 := rfl
theorem nSub_zero : (K (F := F)).nSub 0 = 16 := rfl

/-- The number of vector subcore `i` of SparseCore `c`: the kernel's `s * 2 + c`. -/
def taskNo (c : Fin 2) (i : Fin 16) : Fin 32 := ⟨2 * i.val + c.val, by omega⟩

theorem idiv : 32 ∣ S32x4x128.size 0 := ⟨1, rfl⟩
theorem odiv : 32 ∣ S16384x128.size 0 := ⟨512, rfl⟩
/-- Slab `n` of an index array; rows `[512 n, 512 n + 512)` of an output. -/
abbrev iBox (n : Fin 32) : Rect S32x4x128 := Rect.part (s := S32x4x128) (a₀ := 0) idiv n
abbrev oBox (n : Fin 32) : Rect S16384x128 := Rect.part (s := S16384x128) (a₀ := 0) odiv n

/-- The nine arrays of the call, as the TensorCore names them. -/
abbrev i0Loc (d : Dev nD) : Loc nD τ sig := (SparseCore.T d).loc main_v0
abbrev i1Loc (d : Dev nD) : Loc nD τ sig := (SparseCore.T d).loc main_v1
abbrev i2Loc (d : Dev nD) : Loc nD τ sig := (SparseCore.T d).loc main_v2
abbrev t0Loc (d : Dev nD) : Loc nD τ sig := (SparseCore.T d).loc main_v4
abbrev t1Loc (d : Dev nD) : Loc nD τ sig := (SparseCore.T d).loc main_v6
abbrev t2Loc (d : Dev nD) : Loc nD τ sig := (SparseCore.T d).loc main_v8
abbrev o0Loc (d : Dev nD) : Loc nD τ sig := (SparseCore.T d).loc main_v9_0
abbrev o1Loc (d : Dev nD) : Loc nD τ sig := (SparseCore.T d).loc main_v9_1
abbrev o2Loc (d : Dev nD) : Loc nD τ sig := (SparseCore.T d).loc main_v9_2

-- The arrays' contents when the call starts, per device: a valuation of the TensorCore's buffers.
variable (W : Dev nD → Valuation τ sig (Elt F))

abbrev wI0 (d : Dev nD) : Buf (Elt F) (i0Loc d) := W d (Proc.devRef .tc (main_v0 : Ref sig .tc))
abbrev wI1 (d : Dev nD) : Buf (Elt F) (i1Loc d) := W d (Proc.devRef .tc (main_v1 : Ref sig .tc))
abbrev wI2 (d : Dev nD) : Buf (Elt F) (i2Loc d) := W d (Proc.devRef .tc (main_v2 : Ref sig .tc))
abbrev wT0 (d : Dev nD) : Buf (Elt F) (t0Loc d) := W d (Proc.devRef .tc (main_v4 : Ref sig .tc))
abbrev wT1 (d : Dev nD) : Buf (Elt F) (t1Loc d) := W d (Proc.devRef .tc (main_v6 : Ref sig .tc))
abbrev wT2 (d : Dev nD) : Buf (Elt F) (t2Loc d) := W d (Proc.devRef .tc (main_v8 : Ref sig .tc))

/-- The share of a table task `n` reads it through. -/
abbrev tq (n : Fin 32) : PosShare TreeShare := Transfers.shareTok fullShare 32 n

/-- Task `n`'s part of the call's arrays. -/
def taskRes (d : Dev nD) (n : Fin 32) : sProp 𝕄 :=
  iprop((i0Loc d ↦[(iBox n).set]{fullShare} wI0 W d) ∗ (i1Loc d ↦[(iBox n).set]{fullShare} wI1 W d) ∗ (i2Loc d ↦[(iBox n).set]{fullShare} wI2 W d)
    ∗ (t0Loc d ↦{tq n} wT0 W d) ∗ (t1Loc d ↦{tq n} wT1 W d) ∗ (t2Loc d ↦{tq n} wT2 W d)
    ∗ (∃ f, o0Loc d ↦[(oBox n).set]{fullShare} f) ∗ (∃ f, o1Loc d ↦[(oBox n).set]{fullShare} f) ∗ (∃ f, o2Loc d ↦[(oBox n).set]{fullShare} f))

/-- A SparseCore's part: its sixteen tasks'. -/
def coreRes (d : Dev nD) (c : Fin 2) : sProp 𝕄 := bigSep Finset.univ fun i : Fin 16 => taskRes W d (taskNo c i)

/-- The handshakes' payloads: a SparseCore's part to and fro, a task's part to and fro; nothing of the launch's own. -/
def P : (K (F := F)).Pay (nD := nD) (Val := Elt F) (Name := ℕ) (U := UU) where
  st := fun q d c => match q with | 0 => coreRes W d (Fin.cast nCore_zero c)
  dn := fun q d c => match q with | 0 => coreRes W d (Fin.cast nCore_zero c)
  go := fun q d c i => match q with | 0 => taskRes W d (taskNo (Fin.cast nCore_zero c) (Fin.cast nSub_zero i))
  td := fun q d c i => match q with | 0 => taskRes W d (taskNo (Fin.cast nCore_zero c) (Fin.cast nSub_zero i))
  x := fun _ _ => iprop(emp)

set_option synthInstance.maxHeartbeats 400000 in
set_option synthInstance.maxSize 4096 in
instance taskRes_storable (d : Dev nD) (n : Fin 32) : BI.Storable (upEmb : UEmb _ 𝕄) (taskRes W d n) := by
  unfold taskRes; infer_instance
instance coreRes_storable (d : Dev nD) (c : Fin 2) : BI.Storable (upEmb : UEmb _ 𝕄) (coreRes W d c) := by
  unfold coreRes; infer_instance

instance P_storable : (P (F := F) W).IsStorable where
  st q d c := match q with | 0 => (inferInstance : BI.Storable (upEmb : UEmb _ 𝕄) (coreRes W d (Fin.cast nCore_zero c)))
  dn q d c := match q with | 0 => (inferInstance : BI.Storable (upEmb : UEmb _ 𝕄) (coreRes W d (Fin.cast nCore_zero c)))
  go q d c i := match q with
    | 0 => (inferInstance : BI.Storable (upEmb : UEmb _ 𝕄) (taskRes W d (taskNo (Fin.cast nCore_zero c) (Fin.cast nSub_zero i))))
  td q d c i := match q with
    | 0 => (inferInstance : BI.Storable (upEmb : UEmb _ 𝕄) (taskRes W d (taskNo (Fin.cast nCore_zero c) (Fin.cast nSub_zero i))))

/-- What the tasks ask of the contents `W`: every word of the three index arrays names a row of a 100000-row table. -/
def PreOK : Prop :=
  ∀ (d : Dev nD), (∀ j : S32x4x128.Idx, (wI0 W d j).toNat < 100000) ∧ (∀ j : S32x4x128.Idx, (wI1 W d j).toNat < 100000)
    ∧ (∀ j : S32x4x128.Idx, (wI2 W d j).toNat < 100000)

/-- A SparseCore's part splits into its tasks' parts and is their parts again: by definition. -/
theorem vecSplit : (K (F := F)).VecSplit' (P W) 0 := by
  intro d c
  show coreRes W d (Fin.cast nCore_zero c) ⊢ |={Set.univ}=> iprop(
      (bigSep Finset.univ fun i : Fin ((K (F := F)).nSub 0) => taskRes W d (taskNo (Fin.cast nCore_zero c) (Fin.cast nSub_zero i)))
      ∗ ((bigSep Finset.univ fun i : Fin ((K (F := F)).nSub 0) => taskRes W d (taskNo (Fin.cast nCore_zero c) (Fin.cast nSub_zero i)))
          -∗ coreRes W d (Fin.cast nCore_zero c)))
  have e : (bigSep Finset.univ fun i : Fin ((K (F := F)).nSub 0) => taskRes W d (taskNo (Fin.cast nCore_zero c) (Fin.cast nSub_zero i)))
      = coreRes W d (Fin.cast nCore_zero c) := by
    unfold coreRes
    exact bigSep_congr fun _ _ => congrArg (fun i => taskRes W d (taskNo (Fin.cast nCore_zero c) i)) (Fin.ext rfl)
  rw [e]
  iintro H; imodintro
  isplitl [H]; · iexact H
  iintro H; iexact H

end Cert.Proof.KI

end
-- ==== Proof.LaunchPre.lean ====
/-
  The precondition, decoded: where the domain function is one, every word of the three index arrays that name rows
  of the 100000-row tables is below 100000.

  The function is a conjunction of per-array tests, each reduced by `and` over the whole array; a conjunction that is
  one has every conjunct one, a reduction by `and` that is one had a one at every index, and a word between 0 and
  99999 as a signed number is below 100000 as an unsigned one.
-/
import proofs.«211833_g48473000902786_cont_8to1_c_597_31_alg».proof.Proof.Gen.Pre_input_domain
import Idealize.ShloMosaic.Lib.ReduceAll
import Idealize.ShloMosaic.Lib.Affine

noncomputable section

namespace Cert.Proof.PreDecode

open Idealize.ShloMosaic Cert.Pre_input_domain Cert.Pre_input_domain.Facts

instance subsingleton_S_ : Subsingleton S_.Idx := ⟨fun a b => funext fun d => d.elim0⟩

/-- A word in [0, 99999] signed is below 100000 unsigned. -/
theorem word_lt (w : BitVec 32) (h0 : IntOp.cmpi .sge w 0#32 = 1#1) (h1 : IntOp.cmpi .sle w 99999#32 = 1#1) : w.toNat < 100000 := by
  have e0 : (0#32 : BitVec 32).toInt = 0 := by decide
  have e1 : (99999#32 : BitVec 32).toInt = 99999 := by decide
  rw [IntOp.cmpi_sge, e0] at h0
  rw [IntOp.cmpi_sle, e1] at h1
  rw [BitVec.toInt_eq_toNat_cond] at h0 h1
  have := w.isLt
  by_cases hc : 2 * w.toNat < 2 ^ 32
  · rw [if_pos hc] at h0 h1; omega
  · rw [if_neg hc] at h0 h1; omega

variable {F : FTy → Type} [FloatOps F]

/-- The range test of one array, reduced: every word in range. -/
theorem range_of_reduce (a : IVec S16384 32) (i0 : S_.Idx)
    (h : Host.reduce IntOp.andi (andi (cmpi .sge a (broadcastInDim S16384 ![] bcast_S_S16384 (constantI S_ 32 0#32)))
        (cmpi .sle a (broadcastInDim S16384 ![] bcast_S_S16384 (constantI S_ 32 99999#32)))) (constantI S_ 1 1#1) reducesTo_S16384_S_d0 h_S_ i0 = 1#1)
    (j : S16384.Idx) : (a j).toNat < 100000 := by
  have e := Host.reduce_andi_all _ _ _ _ i0 h j
  obtain ⟨e0, e1⟩ := IntOp.andi_eq_one.mp e
  exact word_lt _ e0 e1

/-- The domain function all ones: the words of arguments 1, 3 and 6 are below 100000. -/
theorem decode {a0 a1 a2 a3 a4 a5 a6 : IVec S16384 32} {a7 : FVec F S16384 .f32} {a8 : FVec F S16x64 .f32} {a9 : FVec F S100000x64 .f32}
    {a10 : FVec F S400x64 .f32} {a11 : FVec F S100000x64 .f32} {a12 : FVec F S4x64 .f32} {a13 : FVec F S64x64 .f32} {a14 : FVec F S100000x64 .f32}
    {a15 : FVec F S1x64 .f32} {a16 : FVec F S64 .f32} {a17 : FVec F S512x64 .f32} {a18 : FVec F S64 .f32}
    (h : fn (F := F) a0 a1 a2 a3 a4 a5 a6 a7 a8 a9 a10 a11 a12 a13 a14 a15 a16 a17 a18 = fun _ => 1#1) :
    (∀ j, (a1 j).toNat < 100000) ∧ (∀ j, (a3 j).toNat < 100000) ∧ (∀ j, (a6 j).toNat < 100000) := by
  have e := congrFun h (fun d => d.elim0)
  unfold fn fn_part1 fn_part2 fn_part3 fn_part4 fn_part5 fn_part6 at e
  dsimp only at e
  simp only [show ∀ (x y : IVec S_ 1) (i : S_.Idx), andi x y i = IntOp.andi (x i) (y i) from fun _ _ _ => rfl, IntOp.andi_eq_one] at e
  obtain ⟨⟨⟨⟨⟨⟨⟨_, h0⟩, h1⟩, h2⟩, h3⟩, h4⟩, h5⟩, h6⟩ := e
  exact ⟨fun j => range_of_reduce a1 _ h1 j, fun j => range_of_reduce a3 _ h3 j, fun j => range_of_reduce a6 _ h6 j⟩

end Cert.Proof.PreDecode

end
-- ==== Proof.LaunchVal.lean ====
/-
  The contents of the TensorCore's arrays when the SparseCore call starts.

  Twelve host operations stand before the call: the three index arrays reshaped to [32, 4, 128], and three times a
  zero constant, its broadcast, and a table concatenated with it along the columns. What each array holds when the
  call starts is the launch contents folded through those operations. A reshape keeps every element, so the
  reshaped index arrays hold only words of the arguments they reshape: where the precondition bounds those by
  100000, it bounds these.
-/
import proofs.«211833_g48473000902786_cont_8to1_c_597_31_alg».proof.Defs
import proofs.«211833_g48473000902786_cont_8to1_c_597_31_alg».proof.Proof.TaskPay
import proofs.«211833_g48473000902786_cont_8to1_c_597_31_alg».proof.Proof.LaunchPre
import Idealize.ShloMosaic.Lib.StableHlo.Run

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

/-! ## The host operations of @main, in its three straight lines -/

/-- Before the SparseCore call. -/
def pre12 : List (HloOp τ sig (Elt F)) :=
  [StableHlo.reshape main_arg1 main_v0 rfl Facts₀.shapeCasts_S16384_S32x4x128,
   StableHlo.reshape main_arg3 main_v1 rfl Facts₀.shapeCasts_S16384_S32x4x128,
   StableHlo.reshape main_arg6 main_v2 rfl Facts₀.shapeCasts_S16384_S32x4x128,
   StableHlo.nullary main_cst (constant S_ .f32 0x00000000#32),
   StableHlo.unary main_cst main_v3 (broadcastInDim S100000x64 ![] Facts₀.bcast_S_S100000x64 : (⟨S_, .f32⟩ : BufTy).Contents (Elt F) → (⟨S100000x64, .f32⟩ : BufTy).Contents (Elt F)),
   StableHlo.binary main_arg9 main_v3 main_v4 ((fun a b => concatenate S100000x128 1 [⟨S100000x64, a⟩, ⟨S100000x64, b⟩] Facts₀.concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
   StableHlo.nullary main_cst_0 (constant S_ .f32 0x00000000#32),
   StableHlo.unary main_cst_0 main_v5 (broadcastInDim S100000x64 ![] Facts₀.bcast_S_S100000x64 : (⟨S_, .f32⟩ : BufTy).Contents (Elt F) → (⟨S100000x64, .f32⟩ : BufTy).Contents (Elt F)),
   StableHlo.binary main_arg11 main_v5 main_v6 ((fun a b => concatenate S100000x128 1 [⟨S100000x64, a⟩, ⟨S100000x64, b⟩] Facts₀.concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
   StableHlo.nullary main_cst_1 (constant S_ .f32 0x00000000#32),
   StableHlo.unary main_cst_1 main_v7 (broadcastInDim S100000x64 ![] Facts₀.bcast_S_S100000x64 : (⟨S_, .f32⟩ : BufTy).Contents (Elt F) → (⟨S100000x64, .f32⟩ : BufTy).Contents (Elt F)),
   StableHlo.binary main_arg14 main_v7 main_v8 ((fun a b => concatenate S100000x128 1 [⟨S100000x64, a⟩, ⟨S100000x64, b⟩] Facts₀.concatenates_S100000x64_S100000x64_S100000x128_d1) : (⟨S100000x64, .f32⟩ : BufTy).Contents (Elt F) → (⟨S100000x64, .f32⟩ : BufTy).Contents (Elt F) → (⟨S100000x128, .f32⟩ : BufTy).Contents (Elt F))]

/-- Between the SparseCore call and the first TensorCore region. -/
def mid2 : List (HloOp τ sig (Elt F)) :=
  [StableHlo.reshape main_arg16 main_v10 rfl Facts₀.shapeCasts_S64_S1x64,
   StableHlo.reshape main_arg18 main_v11 rfl Facts₀.shapeCasts_S64_S1x64]

/-- Between the two TensorCore regions. -/
def mid5 : List (HloOp τ sig (Elt F)) :=
  [StableHlo.reshape main_arg0 main_v13 rfl Facts₀.shapeCasts_S16384_S16384x1,
   StableHlo.reshape main_arg2 main_v14 rfl Facts₀.shapeCasts_S16384_S16384x1,
   StableHlo.reshape main_arg4 main_v15 rfl Facts₀.shapeCasts_S16384_S16384x1,
   StableHlo.reshape main_arg5 main_v16 rfl Facts₀.shapeCasts_S16384_S16384x1,
   StableHlo.reshape main_arg7 main_v17 rfl Facts₀.shapeCasts_S16384_S16384x1]

/-- @main is those three lines around the SparseCore call and the two regions. -/
theorem main_eq (d : Dev nD) :
    main (F := F) d = (seq pre12 >>= fun _ => (sc (F := F)).run d 0 >>= fun _ => seq mid2 >>= fun _ =>
      Prog.lift (.customCall (SparseCore.inner (Pipeline.entry 0)) ()) >>= fun _ => seq mid5 >>= fun _ =>
      Prog.lift (.customCall (SparseCore.inner (Pipeline.entry 1)) ()) >>= fun _ => pure ⟨⟩) := rfl

/-! ## The contents when the call starts -/

variable (m : (ℓ : Loc nD τ sig) → Buf (Elt F) ℓ)

/-- The launch contents of device `d`'s buffers. -/
def V0 (d : Dev nD) : Valuation τ sig (Elt F) := fun b => m (d, b)

/-- The contents when the SparseCore call starts. -/
def Wc (d : Dev nD) : Valuation τ sig (Elt F) := after pre12 (V0 m d)

theorem Wc_v0 (d : Dev nD) : Wc m d (Proc.devRef .tc (main_v0 : Ref sig .tc))
    = fun i => shapeCast S32x4x128 (m ((SparseCore.T d).loc main_arg1)) Facts₀.shapeCasts_S16384_S32x4x128 i := by
  unfold Wc pre12; after_results; rfl
theorem Wc_v1 (d : Dev nD) : Wc m d (Proc.devRef .tc (main_v1 : Ref sig .tc))
    = fun i => shapeCast S32x4x128 (m ((SparseCore.T d).loc main_arg3)) Facts₀.shapeCasts_S16384_S32x4x128 i := by
  unfold Wc pre12; after_results; rfl
theorem Wc_v2 (d : Dev nD) : Wc m d (Proc.devRef .tc (main_v2 : Ref sig .tc))
    = fun i => shapeCast S32x4x128 (m ((SparseCore.T d).loc main_arg6)) Facts₀.shapeCasts_S16384_S32x4x128 i := by
  unfold Wc pre12; after_results; rfl

/-- Where the domain function is one at the launch memory, the tasks' index words name table rows. -/
theorem preOK_of_fn
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) (m ((c.tc : Thread nD τ).loc main_arg15)) (m ((c.tc : Thread nD τ).loc main_arg16))
      (m ((c.tc : Thread nD τ).loc main_arg17)) (m ((c.tc : Thread nD τ).loc main_arg18)) = (fun _ => 1#1)) :
    PreOK (Wc m) := by
  intro d
  obtain ⟨h1, h3, h6⟩ := Cert.Proof.PreDecode.decode (h d)
  refine ⟨fun j => ?_, fun j => ?_, fun j => ?_⟩
  · show (Wc m d (Proc.devRef .tc (main_v0 : Ref sig .tc)) j).toNat < 100000
    rw [Wc_v0]; exact h1 _
  · show (Wc m d (Proc.devRef .tc (main_v1 : Ref sig .tc)) j).toNat < 100000
    rw [Wc_v1]; exact h3 _
  · show (Wc m d (Proc.devRef .tc (main_v2 : Ref sig .tc)) j).toNat < 100000
    rw [Wc_v2]; exact h6 _

end Cert.Proof.KI

namespace Cert.Proof.KI

open Cert.KernelIdeal Idealize.ShloMosaic Idealize.SL.Sem

/-- The precondition gives what the tasks ask of the contents when the call starts. -/
theorem preOK_of_pre (m : (ℓ : Loc nD τ sig) → Buf (Elt Idealize.ShloMosaic.Ideal) ℓ) (h : Cert.Pre_KernelIdeal m) :
    PreOK (F := Idealize.ShloMosaic.Ideal) (Wc m) :=
  preOK_of_fn m h

end Cert.Proof.KI

end
-- ==== Proof.LaunchSplit.lean ====
/-
  The SparseCore call's operands, split among the 32 tasks and joined back.

  The TensorCore holds the nine arrays of the call whole. Each index array is the disjoint union of its 32 slabs,
  each output of its 32 blocks of 512 rows (the parts of axis 0 in 32), so a whole array at the full share is its 32
  parts at once; a table, read by every task, goes out as 32 read tokens of the full share, the remainder staying
  with @main across the call. Task numbers `2 i + c` over SparseCores `c` and vector subcores `i` run through
  0..31 once each, which regroups the per-SparseCore families into one family over the 32 tasks.
-/
import proofs.«211833_g48473000902786_cont_8to1_c_597_31_alg».proof.Proof.TaskPay

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

local notation "𝕄" => MT nD τ sig (HIx 1) (Elt F) ℕ UU ℕ

/-! ## The task numbers -/

/-- (SparseCore, vector subcore) to task number is a bijection onto 0..31. -/
def taskEquiv : Fin 2 × Fin 16 ≃ Fin 32 where
  toFun p := taskNo p.1 p.2
  invFun n := (⟨n.val % 2, Nat.mod_lt _ (by decide)⟩, ⟨n.val / 2, by have := n.isLt; omega⟩)
  left_inv := by
    rintro ⟨c, i⟩
    refine Prod.ext (Fin.ext ?_) (Fin.ext ?_)
    · show (2 * i.val + c.val) % 2 = c.val
      have := c.isLt; omega
    · show (2 * i.val + c.val) / 2 = i.val
      have := c.isLt; omega
  right_inv := by
    intro n
    refine Fin.ext ?_
    show 2 * (n.val / 2) + n.val % 2 = n.val
    omega

/-- A family over the tasks of each SparseCore in turn is the family over the 32 tasks. -/
theorem bigSep_tasks32 (Φ : Fin 32 → sProp 𝕄) :
    (bigSep Finset.univ fun c : Fin 2 => bigSep Finset.univ fun i : Fin 16 => Φ (taskNo c i)) = bigSep Finset.univ Φ := by
  rw [← BI.bigSep_univ_prod (fun p : Fin 2 × Fin 16 => Φ (taskNo p.1 p.2)), BI.bigSep_univ_equiv taskEquiv Φ]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (W : Dev nD → Valuation τ sig (Elt F))

/-- What the call takes for the two SparseCores, and what it hands back: the 32 tasks' parts. -/
theorem st0_eq (d : Dev nD) :
    (bigSep Finset.univ fun c : Fin ((K (F := F)).nCore 0) => (P W).st 0 d c) = bigSep Finset.univ fun n : Fin 32 => taskRes W d n := by
  show (bigSep Finset.univ fun c : Fin ((K (F := F)).nCore 0) => coreRes W d (Fin.cast nCore_zero c)) = _
  rw [bigSep_cores (F := F) (fun c => coreRes W d c)]
  unfold coreRes
  exact bigSep_tasks32 (fun n => taskRes W d n)
theorem dn0_eq (d : Dev nD) :
    (bigSep Finset.univ fun c : Fin ((K (F := F)).nCore 0) => (P W).dn 0 d c) = bigSep Finset.univ fun n : Fin 32 => taskRes W d n := by
  show (bigSep Finset.univ fun c : Fin ((K (F := F)).nCore 0) => coreRes W d (Fin.cast nCore_zero c)) = _
  rw [bigSep_cores (F := F) (fun c => coreRes W d c)]
  unfold coreRes
  exact bigSep_tasks32 (fun n => taskRes W d n)

/-- The 32 tasks' parts, array by array. -/
theorem tasks_eq (d : Dev nD) :
    (bigSep Finset.univ fun n : Fin 32 => taskRes W d n) = iprop(
      (bigSep Finset.univ fun n : Fin 32 => i0Loc d ↦[(iBox n).set]{fullShare} wI0 W d)
      ∗ (bigSep Finset.univ fun n : Fin 32 => i1Loc d ↦[(iBox n).set]{fullShare} wI1 W d)
      ∗ (bigSep Finset.univ fun n : Fin 32 => i2Loc d ↦[(iBox n).set]{fullShare} wI2 W d)
      ∗ (bigSep Finset.univ fun n : Fin 32 => t0Loc d ↦{tq n} wT0 W d)
      ∗ (bigSep Finset.univ fun n : Fin 32 => t1Loc d ↦{tq n} wT1 W d)
      ∗ (bigSep Finset.univ fun n : Fin 32 => t2Loc d ↦{tq n} wT2 W d)
      ∗ (bigSep Finset.univ fun n : Fin 32 => iprop(∃ f, o0Loc d ↦[(oBox n).set]{fullShare} f))
      ∗ (bigSep Finset.univ fun n : Fin 32 => iprop(∃ f, o1Loc d ↦[(oBox n).set]{fullShare} f))
      ∗ (bigSep Finset.univ fun n : Fin 32 => iprop(∃ f, o2Loc d ↦[(oBox n).set]{fullShare} f))) := by
  unfold taskRes
  rw [bigSep_sep', bigSep_sep', bigSep_sep', bigSep_sep', bigSep_sep', bigSep_sep', bigSep_sep', bigSep_sep']

/-! ## A whole array is its 32 parts -/

theorem iBox_disjoint : ∀ i ∈ (Finset.univ : Finset (Fin 32)), ∀ j ∈ (Finset.univ : Finset (Fin 32)), i ≠ j → Disjoint (iBox i).set (iBox j).set :=
  fun i _ j _ h => Rect.part_disjoint idiv h
theorem oBox_disjoint : ∀ i ∈ (Finset.univ : Finset (Fin 32)), ∀ j ∈ (Finset.univ : Finset (Fin 32)), i ≠ j → Disjoint (oBox i).set (oBox j).set :=
  fun i _ j _ h => Rect.part_disjoint odiv h
theorem iBox_cover : (Finset.univ : Finset (Fin 32)).biUnion (fun n => (iBox n).set) = Finset.univ := Rect.biUnion_part idiv
theorem oBox_cover : (Finset.univ : Finset (Fin 32)).biUnion (fun n => (oBox n).set) = Finset.univ := Rect.biUnion_part odiv

theorem i0_rows (d : Dev nD) (f : Buf (Elt F) (i0Loc d)) :
    (i0Loc d ↦{fullShare} f : sProp 𝕄) = bigSep Finset.univ fun n : Fin 32 => i0Loc d ↦[(iBox n).set]{fullShare} f := by
  rw [← pointsTo_biUnion Finset.univ (ℓ := i0Loc d) (fun n : Fin 32 => (iBox n).set) iBox_disjoint, iBox_cover]; try rfl
theorem i1_rows (d : Dev nD) (f : Buf (Elt F) (i1Loc d)) :
    (i1Loc d ↦{fullShare} f : sProp 𝕄) = bigSep Finset.univ fun n : Fin 32 => i1Loc d ↦[(iBox n).set]{fullShare} f := by
  rw [← pointsTo_biUnion Finset.univ (ℓ := i1Loc d) (fun n : Fin 32 => (iBox n).set) iBox_disjoint, iBox_cover]; try rfl
theorem i2_rows (d : Dev nD) (f : Buf (Elt F) (i2Loc d)) :
    (i2Loc d ↦{fullShare} f : sProp 𝕄) = bigSep Finset.univ fun n : Fin 32 => i2Loc d ↦[(iBox n).set]{fullShare} f := by
  rw [← pointsTo_biUnion Finset.univ (ℓ := i2Loc d) (fun n : Fin 32 => (iBox n).set) iBox_disjoint, iBox_cover]; try rfl
theorem o0_rows (d : Dev nD) (f : Buf (Elt F) (o0Loc d)) :
    (o0Loc d ↦{fullShare} f : sProp 𝕄) = bigSep Finset.univ fun n : Fin 32 => o0Loc d ↦[(oBox n).set]{fullShare} f := by
  rw [← pointsTo_biUnion Finset.univ (ℓ := o0Loc d) (fun n : Fin 32 => (oBox n).set) oBox_disjoint, oBox_cover]; try rfl
theorem o1_rows (d : Dev nD) (f : Buf (Elt F) (o1Loc d)) :
    (o1Loc d ↦{fullShare} f : sProp 𝕄) = bigSep Finset.univ fun n : Fin 32 => o1Loc d ↦[(oBox n).set]{fullShare} f := by
  rw [← pointsTo_biUnion Finset.univ (ℓ := o1Loc d) (fun n : Fin 32 => (oBox n).set) oBox_disjoint, oBox_cover]; try rfl
theorem o2_rows (d : Dev nD) (f : Buf (Elt F) (o2Loc d)) :
    (o2Loc d ↦{fullShare} f : sProp 𝕄) = bigSep Finset.univ fun n : Fin 32 => o2Loc d ↦[(oBox n).set]{fullShare} f := by
  rw [← pointsTo_biUnion Finset.univ (ℓ := o2Loc d) (fun n : Fin 32 => (oBox n).set) oBox_disjoint, oBox_cover]; try rfl

/-- An output whole at something is its 32 blocks each at something, -/
theorem o0_split (d : Dev nD) : (iprop(∃ f, o0Loc d ↦{fullShare} f) : sProp 𝕄) ⊢ bigSep Finset.univ fun n : Fin 32 => iprop(∃ f, o0Loc d ↦[(oBox n).set]{fullShare} f) := by
  have h : ∀ f : Buf (Elt F) (o0Loc d), (o0Loc d ↦{fullShare} f : sProp 𝕄)
      ⊢ bigSep Finset.univ fun n : Fin 32 => iprop(∃ f, o0Loc d ↦[(oBox n).set]{fullShare} f) := fun f => by
    have hn : ∀ n : Fin 32, (o0Loc d ↦[(oBox n).set]{fullShare} f : sProp 𝕄) ⊢ iprop(∃ f, o0Loc d ↦[(oBox n).set]{fullShare} f) := fun n => by
      iintro H; iexists f; iexact H
    rw [o0_rows]
    exact bigSep_mono fun n _ => hn n
  iintro ⟨%f, H⟩
  iapply (h f); iexact H
theorem o1_split (d : Dev nD) : (iprop(∃ f, o1Loc d ↦{fullShare} f) : sProp 𝕄) ⊢ bigSep Finset.univ fun n : Fin 32 => iprop(∃ f, o1Loc d ↦[(oBox n).set]{fullShare} f) := by
  have h : ∀ f : Buf (Elt F) (o1Loc d), (o1Loc d ↦{fullShare} f : sProp 𝕄)
      ⊢ bigSep Finset.univ fun n : Fin 32 => iprop(∃ f, o1Loc d ↦[(oBox n).set]{fullShare} f) := fun f => by
    have hn : ∀ n : Fin 32, (o1Loc d ↦[(oBox n).set]{fullShare} f : sProp 𝕄) ⊢ iprop(∃ f, o1Loc d ↦[(oBox n).set]{fullShare} f) := fun n => by
      iintro H; iexists f; iexact H
    rw [o1_rows]
    exact bigSep_mono fun n _ => hn n
  iintro ⟨%f, H⟩
  iapply (h f); iexact H
theorem o2_split (d : Dev nD) : (iprop(∃ f, o2Loc d ↦{fullShare} f) : sProp 𝕄) ⊢ bigSep Finset.univ fun n : Fin 32 => iprop(∃ f, o2Loc d ↦[(oBox n).set]{fullShare} f) := by
  have h : ∀ f : Buf (Elt F) (o2Loc d), (o2Loc d ↦{fullShare} f : sProp 𝕄)
      ⊢ bigSep Finset.univ fun n : Fin 32 => iprop(∃ f, o2Loc d ↦[(oBox n).set]{fullShare} f) := fun f => by
    have hn : ∀ n : Fin 32, (o2Loc d ↦[(oBox n).set]{fullShare} f : sProp 𝕄) ⊢ iprop(∃ f, o2Loc d ↦[(oBox n).set]{fullShare} f) := fun n => by
      iintro H; iexists f; iexact H
    rw [o2_rows]
    exact bigSep_mono fun n _ => hn n
  iintro ⟨%f, H⟩
  iapply (h f); iexact H

set_option maxRecDepth 4096 in
/-- and back: the blocks' contents agree with one array's, block by block. -/
theorem o0_join (d : Dev nD) : (bigSep Finset.univ fun n : Fin 32 => iprop(∃ f, o0Loc d ↦[(oBox n).set]{fullShare} f)) ⊢ (iprop(∃ f, o0Loc d ↦{fullShare} f) : sProp 𝕄) := by
  refine (bigSep_exists_pi Finset.univ (fun (n : Fin 32) (f : Buf (Elt F) (o0Loc d)) => (o0Loc d ↦[(oBox n).set]{fullShare} f : sProp 𝕄))).trans ?_
  iintro ⟨%fs, H⟩
  have : Nonempty (Buf (Elt F) (o0Loc d)) := ⟨fs 0⟩
  ihave H' := (pointsTo_biUnion_join (ℓ := o0Loc d) (q := fullShare) (Val := Elt F) Finset.univ (fun n : Fin 32 => (oBox n).set) fs (fs 0) oBox_disjoint) $$ H
  icases H' with ⟨%g, -, Hg⟩
  rw [oBox_cover]
  iexists g; iexact Hg
set_option maxRecDepth 4096 in
theorem o1_join (d : Dev nD) : (bigSep Finset.univ fun n : Fin 32 => iprop(∃ f, o1Loc d ↦[(oBox n).set]{fullShare} f)) ⊢ (iprop(∃ f, o1Loc d ↦{fullShare} f) : sProp 𝕄) := by
  refine (bigSep_exists_pi Finset.univ (fun (n : Fin 32) (f : Buf (Elt F) (o1Loc d)) => (o1Loc d ↦[(oBox n).set]{fullShare} f : sProp 𝕄))).trans ?_
  iintro ⟨%fs, H⟩
  have : Nonempty (Buf (Elt F) (o1Loc d)) := ⟨fs 0⟩
  ihave H' := (pointsTo_biUnion_join (ℓ := o1Loc d) (q := fullShare) (Val := Elt F) Finset.univ (fun n : Fin 32 => (oBox n).set) fs (fs 0) oBox_disjoint) $$ H
  icases H' with ⟨%g, -, Hg⟩
  rw [oBox_cover]
  iexists g; iexact Hg
set_option maxRecDepth 4096 in
theorem o2_join (d : Dev nD) : (bigSep Finset.univ fun n : Fin 32 => iprop(∃ f, o2Loc d ↦[(oBox n).set]{fullShare} f)) ⊢ (iprop(∃ f, o2Loc d ↦{fullShare} f) : sProp 𝕄) := by
  refine (bigSep_exists_pi Finset.univ (fun (n : Fin 32) (f : Buf (Elt F) (o2Loc d)) => (o2Loc d ↦[(oBox n).set]{fullShare} f : sProp 𝕄))).trans ?_
  iintro ⟨%fs, H⟩
  have : Nonempty (Buf (Elt F) (o2Loc d)) := ⟨fs 0⟩
  ihave H' := (pointsTo_biUnion_join (ℓ := o2Loc d) (q := fullShare) (Val := Elt F) Finset.univ (fun n : Fin 32 => (oBox n).set) fs (fs 0) oBox_disjoint) $$ H
  icases H' with ⟨%g, -, Hg⟩
  rw [oBox_cover]
  iexists g; iexact Hg

/-! ## The call's operands out and back -/

/-- The nine arrays whole, as the TensorCore holds them: the index arrays and the tables at `W`, the outputs at
    whatever they hold. -/
def wholeNine (d : Dev nD) : sProp 𝕄 :=
  iprop((i0Loc d ↦{fullShare} wI0 W d) ∗ (i1Loc d ↦{fullShare} wI1 W d) ∗ (i2Loc d ↦{fullShare} wI2 W d)
    ∗ (t0Loc d ↦{fullShare} wT0 W d) ∗ (t1Loc d ↦{fullShare} wT1 W d) ∗ (t2Loc d ↦{fullShare} wT2 W d)
    ∗ (∃ f, o0Loc d ↦{fullShare} f) ∗ (∃ f, o1Loc d ↦{fullShare} f) ∗ (∃ f, o2Loc d ↦{fullShare} f))

/-- What @main keeps of the tables across the call: the full share less the 32 read tokens. -/
def tabRest (d : Dev nD) : sProp 𝕄 :=
  iprop((t0Loc d ↦{Transfers.shareDrop fullShare 32} wT0 W d) ∗ (t1Loc d ↦{Transfers.shareDrop fullShare 32} wT1 W d)
    ∗ (t2Loc d ↦{Transfers.shareDrop fullShare 32} wT2 W d))

theorem st_split (d : Dev nD) :
    wholeNine W d ⊢ iprop((bigSep Finset.univ fun c : Fin ((K (F := F)).nCore 0) => (P W).st 0 d c) ∗ tabRest W d) := by
  rw [st0_eq, tasks_eq]
  unfold wholeNine tabRest
  rw [i0_rows, i1_rows, i2_rows]
  iintro ⟨Hi0, Hi1, Hi2, Ht0, Ht1, Ht2, Ho0, Ho1, Ho2⟩
  ihave H0 := (Transfers.pointsTo_toks_split (Ix := HIx 1) (Name := ℕ) (U := UU) (Lvl := ℕ) (ℓ := t0Loc d) (S := Finset.univ) (f := wT0 W d) fullShare 32) $$ Ht0
  icases H0 with ⟨Hr0, Hk0⟩
  ihave H1 := (Transfers.pointsTo_toks_split (Ix := HIx 1) (Name := ℕ) (U := UU) (Lvl := ℕ) (ℓ := t1Loc d) (S := Finset.univ) (f := wT1 W d) fullShare 32) $$ Ht1
  icases H1 with ⟨Hr1, Hk1⟩
  ihave H2 := (Transfers.pointsTo_toks_split (Ix := HIx 1) (Name := ℕ) (U := UU) (Lvl := ℕ) (ℓ := t2Loc d) (S := Finset.univ) (f := wT2 W d) fullShare 32) $$ Ht2
  icases H2 with ⟨Hr2, Hk2⟩
  ihave Hs0 := (o0_split d) $$ Ho0
  ihave Hs1 := (o1_split d) $$ Ho1
  ihave Hs2 := (o2_split d) $$ Ho2
  isplitr [Hr0 Hr1 Hr2]
  · isplitl [Hi0]; · iexact Hi0
    isplitl [Hi1]; · iexact Hi1
    isplitl [Hi2]; · iexact Hi2
    isplitl [Hk0]; · iexact Hk0
    isplitl [Hk1]; · iexact Hk1
    isplitl [Hk2]; · iexact Hk2
    isplitl [Hs0]; · iexact Hs0
    isplitl [Hs1]; · iexact Hs1
    iexact Hs2
  · isplitl [Hr0]; · iexact Hr0
    isplitl [Hr1]; · iexact Hr1
    iexact Hr2

theorem dn_join (d : Dev nD) :
    iprop((bigSep Finset.univ fun c : Fin ((K (F := F)).nCore 0) => (P W).dn 0 d c) ∗ tabRest W d) ⊢ wholeNine W d := by
  rw [dn0_eq, tasks_eq]
  unfold wholeNine tabRest
  rw [i0_rows, i1_rows, i2_rows]
  iintro ⟨⟨Hi0, Hi1, Hi2, Hk0, Hk1, Hk2, Hs0, Hs1, Hs2⟩, Hr0, Hr1, Hr2⟩
  isplitl [Hi0]; · iexact Hi0
  isplitl [Hi1]; · iexact Hi1
  isplitl [Hi2]; · iexact Hi2
  isplitl [Hr0 Hk0]
  · iapply (Transfers.pointsTo_toks_join (Ix := HIx 1) (Name := ℕ) (U := UU) (Lvl := ℕ) (ℓ := t0Loc d) (S := Finset.univ) (f := wT0 W d) fullShare 32)
    isplitl [Hr0] <;> iassumption
  isplitl [Hr1 Hk1]
  · iapply (Transfers.pointsTo_toks_join (Ix := HIx 1) (Name := ℕ) (U := UU) (Lvl := ℕ) (ℓ := t1Loc d) (S := Finset.univ) (f := wT1 W d) fullShare 32)
    isplitl [Hr1] <;> iassumption
  isplitl [Hr2 Hk2]
  · iapply (Transfers.pointsTo_toks_join (Ix := HIx 1) (Name := ℕ) (U := UU) (Lvl := ℕ) (ℓ := t2Loc d) (S := Finset.univ) (f := wT2 W d) fullShare 32)
    isplitl [Hr2] <;> iassumption
  isplitl [Hs0]; · iapply (o0_join d); iexact Hs0
  isplitl [Hs1]; · iapply (o1_join d); iexact Hs1
  iapply (o2_join d); iexact Hs2

end Cert.Proof.KI

end
-- ==== Proof.LaunchMain.lean ====
/-
  The launch: @main on the TensorCore, the launch element of the ghost state, the final reading, the run.

  @main is three straight lines of host operations around the SparseCore call and the two TensorCore regions. The
  TensorCore holds every unscoped array whole throughout; a host operation rewrites the array it writes and no
  other; the call takes the nine arrays it names, split among the tasks, and hands them back with the three outputs
  at contents not named here; a region changes its results only. None of these writes an argument array, so the
  nineteen arguments end at their launch contents, which the final memory then shows.
-/
import proofs.«211833_g48473000902786_cont_8to1_c_597_31_alg».proof.Proof.LaunchVal
import proofs.«211833_g48473000902786_cont_8to1_c_597_31_alg».proof.Proof.LaunchSplit
import Idealize.ShloMosaic.Lib.Pipeline.Frame

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays by name -/

/-- The nine arrays of the SparseCore call, -/
abbrev nine : Finset (DevRef τ sig) := {(Proc.devRef .tc (main_v0 : Ref sig .tc) : DevRef τ sig), (Proc.devRef .tc (main_v1 : Ref sig .tc) : DevRef τ sig), (Proc.devRef .tc (main_v2 : Ref sig .tc) : DevRef τ sig), (Proc.devRef .tc (main_v4 : Ref sig .tc) : DevRef τ sig), (Proc.devRef .tc (main_v6 : Ref sig .tc) : DevRef τ sig), (Proc.devRef .tc (main_v8 : Ref sig .tc) : DevRef τ sig), (Proc.devRef .tc (main_v9_0 : Ref sig .tc) : DevRef τ sig), (Proc.devRef .tc (main_v9_1 : Ref sig .tc) : DevRef τ sig), (Proc.devRef .tc (main_v9_2 : Ref sig .tc) : DevRef τ sig)}
/-- the nineteen arguments, -/
abbrev args19 : Finset (DevRef τ sig) := {(Proc.devRef .tc (main_arg0 : Ref sig .tc) : DevRef τ sig), (Proc.devRef .tc (main_arg1 : Ref sig .tc) : DevRef τ sig), (Proc.devRef .tc (main_arg2 : Ref sig .tc) : DevRef τ sig), (Proc.devRef .tc (main_arg3 : Ref sig .tc) : DevRef τ sig), (Proc.devRef .tc (main_arg4 : Ref sig .tc) : DevRef τ sig), (Proc.devRef .tc (main_arg5 : Ref sig .tc) : DevRef τ sig), (Proc.devRef .tc (main_arg6 : Ref sig .tc) : DevRef τ sig), (Proc.devRef .tc (main_arg7 : Ref sig .tc) : DevRef τ sig), (Proc.devRef .tc (main_arg8 : Ref sig .tc) : DevRef τ sig), (Proc.devRef .tc (main_arg9 : Ref sig .tc) : DevRef τ sig), (Proc.devRef .tc (main_arg10 : Ref sig .tc) : DevRef τ sig), (Proc.devRef .tc (main_arg11 : Ref sig .tc) : DevRef τ sig), (Proc.devRef .tc (main_arg12 : Ref sig .tc) : DevRef τ sig), (Proc.devRef .tc (main_arg13 : Ref sig .tc) : DevRef τ sig), (Proc.devRef .tc (main_arg14 : Ref sig .tc) : DevRef τ sig), (Proc.devRef .tc (main_arg15 : Ref sig .tc) : DevRef τ sig), (Proc.devRef .tc (main_arg16 : Ref sig .tc) : DevRef τ sig), (Proc.devRef .tc (main_arg17 : Ref sig .tc) : DevRef τ sig), (Proc.devRef .tc (main_arg18 : Ref sig .tc) : DevRef τ sig)}
/-- and every array a host operation or the SparseCore call writes. -/
abbrev written : Finset (DevRef τ sig) := {(Proc.devRef .tc (main_v0 : Ref sig .tc) : DevRef τ sig), (Proc.devRef .tc (main_v1 : Ref sig .tc) : DevRef τ sig), (Proc.devRef .tc (main_v2 : Ref sig .tc) : DevRef τ sig), (Proc.devRef .tc (main_cst : Ref sig .tc) : DevRef τ sig), (Proc.devRef .tc (main_v3 : Ref sig .tc) : DevRef τ sig), (Proc.devRef .tc (main_v4 : Ref sig .tc) : DevRef τ sig), (Proc.devRef .tc (main_cst_0 : Ref sig .tc) : DevRef τ sig), (Proc.devRef .tc (main_v5 : Ref sig .tc) : DevRef τ sig), (Proc.devRef .tc (main_v6 : Ref sig .tc) : DevRef τ sig), (Proc.devRef .tc (main_cst_1 : Ref sig .tc) : DevRef τ sig), (Proc.devRef .tc (main_v7 : Ref sig .tc) : DevRef τ sig), (Proc.devRef .tc (main_v8 : Ref sig .tc) : DevRef τ sig), (Proc.devRef .tc (main_v9_0 : Ref sig .tc) : DevRef τ sig), (Proc.devRef .tc (main_v9_1 : Ref sig .tc) : DevRef τ sig), (Proc.devRef .tc (main_v9_2 : Ref sig .tc) : DevRef τ sig), (Proc.devRef .tc (main_v10 : Ref sig .tc) : DevRef τ sig), (Proc.devRef .tc (main_v11 : Ref sig .tc) : DevRef τ sig), (Proc.devRef .tc (main_v13 : Ref sig .tc) : DevRef τ sig), (Proc.devRef .tc (main_v14 : Ref sig .tc) : DevRef τ sig), (Proc.devRef .tc (main_v15 : Ref sig .tc) : DevRef τ sig), (Proc.devRef .tc (main_v16 : Ref sig .tc) : DevRef τ sig), (Proc.devRef .tc (main_v17 : Ref sig .tc) : DevRef τ sig)}

theorem nine_sub : nine ⊆ Pipeline.ucRefs τ sig := fun b hb => by
  unfold nine at hb
  simp only [Finset.mem_insert, Finset.mem_singleton] at hb
  rcases hb with rfl | rfl | rfl | rfl | rfl | rfl | rfl | rfl | rfl <;> exact Cert.Proof.Region.mem_uc _ (by decide)

theorem args_sub : args19 ⊆ Pipeline.ucRefs τ sig := fun b hb => by
  unfold args19 at hb
  simp only [Finset.mem_insert, Finset.mem_singleton] at hb
  rcases hb with rfl | rfl | rfl | rfl | rfl | rfl | rfl | rfl | rfl | rfl | rfl | rfl | rfl | rfl | rfl | rfl | rfl | rfl | rfl <;> exact Cert.Proof.Region.mem_uc _ (by decide)

theorem args_not_written : ∀ b ∈ args19, b ∉ written := by decide
theorem args_not_nine : ∀ b ∈ args19, b ∉ nine := by decide

theorem held_nine (d : Dev nD) (V : Valuation τ sig (Elt F)) :
    (held (SparseCore.T d) nine V : sProp 𝕄) = iprop((((SparseCore.T d).loc main_v0) ↦{fullShare} V (Proc.devRef .tc (main_v0 : Ref sig .tc) : DevRef τ sig)) ∗ (((SparseCore.T d).loc main_v1) ↦{fullShare} V (Proc.devRef .tc (main_v1 : Ref sig .tc) : DevRef τ sig)) ∗ (((SparseCore.T d).loc main_v2) ↦{fullShare} V (Proc.devRef .tc (main_v2 : Ref sig .tc) : DevRef τ sig)) ∗ (((SparseCore.T d).loc main_v4) ↦{fullShare} V (Proc.devRef .tc (main_v4 : Ref sig .tc) : DevRef τ sig)) ∗ (((SparseCore.T d).loc main_v6) ↦{fullShare} V (Proc.devRef .tc (main_v6 : Ref sig .tc) : DevRef τ sig)) ∗ (((SparseCore.T d).loc main_v8) ↦{fullShare} V (Proc.devRef .tc (main_v8 : Ref sig .tc) : DevRef τ sig)) ∗ (((SparseCore.T d).loc main_v9_0) ↦{fullShare} V (Proc.devRef .tc (main_v9_0 : Ref sig .tc) : DevRef τ sig)) ∗ (((SparseCore.T d).loc main_v9_1) ↦{fullShare} V (Proc.devRef .tc (main_v9_1 : Ref sig .tc) : DevRef τ sig)) ∗ (((SparseCore.T d).loc main_v9_2) ↦{fullShare} V (Proc.devRef .tc (main_v9_2 : Ref sig .tc) : DevRef τ sig))) := by
  unfold held nine
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The host lines: what they touch, what they keep -/

theorem sub_pre12 : ∀ op ∈ pre12 (F := F), op.bufs ⊆ Pipeline.ucRefs τ sig := by
  intro op hop
  refine Pipeline.sub_ucRefs op ?_
  simp only [pre12, List.mem_cons, List.mem_nil_iff, or_false] at hop
  rcases hop with rfl | rfl | rfl | rfl | rfl | rfl | rfl | rfl | rfl | rfl | rfl | rfl <;>
    first | exact StableHlo.reshape_bufs_sub _ _ _ _ _ _ | exact StableHlo.nullary_bufs_sub _ _ _ | exact StableHlo.unary_bufs_sub _ _ _ _ _ | exact StableHlo.binary_bufs_sub _ _ _ _ _ _ _
theorem sub_mid2 : ∀ op ∈ mid2 (F := F), op.bufs ⊆ Pipeline.ucRefs τ sig := by
  intro op hop
  refine Pipeline.sub_ucRefs op ?_
  simp only [mid2, List.mem_cons, List.mem_nil_iff, or_false] at hop
  rcases hop with rfl | rfl <;> exact StableHlo.reshape_bufs_sub _ _ _ _ _ _
theorem sub_mid5 : ∀ op ∈ mid5 (F := F), op.bufs ⊆ Pipeline.ucRefs τ sig := by
  intro op hop
  refine Pipeline.sub_ucRefs op ?_
  simp only [mid5, List.mem_cons, List.mem_nil_iff, or_false] at hop
  rcases hop with rfl | rfl | rfl | rfl | rfl <;> exact StableHlo.reshape_bufs_sub _ _ _ _ _ _

theorem fresh_pre12 : ∀ op ∈ pre12 (F := F), op.fresh = ∅ := by
  intro op hop
  simp only [pre12, List.mem_cons, List.mem_nil_iff, or_false] at hop
  rcases hop with rfl | rfl | rfl | rfl | rfl | rfl | rfl | rfl | rfl | rfl | rfl | rfl <;> rfl
theorem fresh_mid2 : ∀ op ∈ mid2 (F := F), op.fresh = ∅ := by
  intro op hop
  simp only [mid2, List.mem_cons, List.mem_nil_iff, or_false] at hop
  rcases hop with rfl | rfl <;> rfl
theorem fresh_mid5 : ∀ op ∈ mid5 (F := F), op.fresh = ∅ := by
  intro op hop
  simp only [mid5, List.mem_cons, List.mem_nil_iff, or_false] at hop
  rcases hop with rfl | rfl | rfl | rfl | rfl <;> rfl

theorem writes_pre12 : ∀ op ∈ pre12 (F := F), op.writes ⊆ written := by
  intro op hop
  simp only [pre12, List.mem_cons, List.mem_nil_iff, or_false] at hop
  rcases hop with rfl | rfl | rfl | rfl | rfl | rfl | rfl | rfl | rfl | rfl | rfl | rfl <;>
    simp only [StableHlo.reshape_writes, StableHlo.nullary_writes, StableHlo.unary_writes, StableHlo.binary_writes] <;> decide
theorem writes_mid2 : ∀ op ∈ mid2 (F := F), op.writes ⊆ written := by
  intro op hop
  simp only [mid2, List.mem_cons, List.mem_nil_iff, or_false] at hop
  rcases hop with rfl | rfl <;>
    simp only [StableHlo.reshape_writes, StableHlo.nullary_writes, StableHlo.unary_writes, StableHlo.binary_writes] <;> decide
theorem writes_mid5 : ∀ op ∈ mid5 (F := F), op.writes ⊆ written := by
  intro op hop
  simp only [mid5, List.mem_cons, List.mem_nil_iff, or_false] at hop
  rcases hop with rfl | rfl | rfl | rfl | rfl <;>
    simp only [StableHlo.reshape_writes, StableHlo.nullary_writes, StableHlo.unary_writes, StableHlo.binary_writes] <;> decide

/-- A line keeps every array it does not write. -/
theorem after_keep {ops : List (HloOp τ sig (Elt F))} {Wr : Finset (DevRef τ sig)} (hW : ∀ op ∈ ops, op.writes ⊆ Wr)
    (V : Valuation τ sig (Elt F)) {b : DevRef τ sig} (hb : b ∉ Wr) : after ops V b = V b :=
  StableHlo.after_of_forall_not_mem ops V fun op hop hw => hb (hW op hop hw)

/-! ## The call's outputs, at what came back -/

abbrev o0' : DevRef τ sig := Proc.devRef .tc (main_v9_0 : Ref sig .tc)
abbrev o1' : DevRef τ sig := Proc.devRef .tc (main_v9_1 : Ref sig .tc)
abbrev o2' : DevRef τ sig := Proc.devRef .tc (main_v9_2 : Ref sig .tc)

/-- The contents after the call: the three outputs at what the call left, everything else as before. -/
def V1 (d : Dev nD) (V : Valuation τ sig (Elt F)) (f0 : Buf (Elt F) (o0Loc d)) (f1 : Buf (Elt F) (o1Loc d)) (f2 : Buf (Elt F) (o2Loc d)) :
    Valuation τ sig (Elt F) :=
  Function.update (Function.update (Function.update V o0' f0) o1' f1) o2' f2

section V1
variable (d : Dev nD) (V : Valuation τ sig (Elt F)) (f0 : Buf (Elt F) (o0Loc d)) (f1 : Buf (Elt F) (o1Loc d)) (f2 : Buf (Elt F) (o2Loc d))

theorem V1_ne {b : DevRef τ sig} (h0 : b ≠ o0') (h1 : b ≠ o1') (h2 : b ≠ o2') : V1 d V f0 f1 f2 b = V b := by
  unfold V1
  rw [Function.update_of_ne h2, Function.update_of_ne h1, Function.update_of_ne h0]
theorem V1_o0 : V1 d V f0 f1 f2 o0' = f0 := by
  unfold V1
  rw [Function.update_of_ne (show o0' ≠ o2' by decide), Function.update_of_ne (show o0' ≠ o1' by decide), Function.update_self]
theorem V1_o1 : V1 d V f0 f1 f2 o1' = f1 := by
  unfold V1
  rw [Function.update_of_ne (show o1' ≠ o2' by decide), Function.update_self]
theorem V1_o2 : V1 d V f0 f1 f2 o2' = f2 := by
  unfold V1
  rw [Function.update_self]

theorem V1_off {b : DevRef τ sig} (hb : b ∉ nine) : V1 d V f0 f1 f2 b = V b :=
  V1_ne d V f0 f1 f2 (fun h => hb (h ▸ by decide)) (fun h => hb (h ▸ by decide)) (fun h => hb (h ▸ by decide))

end V1

variable (W : Dev nD → Valuation τ sig (Elt F))

/-- The nine arrays as held by name are the call's operands whole, -/
theorem nine_out (d : Dev nD) : (held (SparseCore.T d) nine (W d) : sProp 𝕄) ⊢ wholeNine W d := by
  rw [held_nine]
  unfold wholeNine
  iintro ⟨H0, H1, H2, H4, H6, H8, Ho0, Ho1, Ho2⟩
  isplitl [H0]; · iexact H0
  isplitl [H1]; · iexact H1
  isplitl [H2]; · iexact H2
  isplitl [H4]; · iexact H4
  isplitl [H6]; · iexact H6
  isplitl [H8]; · iexact H8
  isplitl [Ho0]; · iexists _; iexact Ho0
  isplitl [Ho1]; · iexists _; iexact Ho1
  iexists _; iexact Ho2

/-- and back, the outputs at what the call left. -/
theorem nine_back (d : Dev nD) : wholeNine W d ⊢ (iprop(∃ f0 f1 f2, held (SparseCore.T d) nine (V1 d (W d) f0 f1 f2)) : sProp 𝕄) := by
  unfold wholeNine
  iintro ⟨H0, H1, H2, H4, H6, H8, ⟨%f0, Ho0⟩, ⟨%f1, Ho1⟩, ⟨%f2, Ho2⟩⟩
  iexists f0; iexists f1; iexists f2
  rw [held_nine, V1_ne d (W d) f0 f1 f2 (b := (Proc.devRef .tc (main_v0 : Ref sig .tc) : DevRef τ sig)) (by decide) (by decide) (by decide),
    V1_ne d (W d) f0 f1 f2 (b := (Proc.devRef .tc (main_v1 : Ref sig .tc) : DevRef τ sig)) (by decide) (by decide) (by decide),
    V1_ne d (W d) f0 f1 f2 (b := (Proc.devRef .tc (main_v2 : Ref sig .tc) : DevRef τ sig)) (by decide) (by decide) (by decide),
    V1_ne d (W d) f0 f1 f2 (b := (Proc.devRef .tc (main_v4 : Ref sig .tc) : DevRef τ sig)) (by decide) (by decide) (by decide),
    V1_ne d (W d) f0 f1 f2 (b := (Proc.devRef .tc (main_v6 : Ref sig .tc) : DevRef τ sig)) (by decide) (by decide) (by decide),
    V1_ne d (W d) f0 f1 f2 (b := (Proc.devRef .tc (main_v8 : Ref sig .tc) : DevRef τ sig)) (by decide) (by decide) (by decide),
    V1_o0, V1_o1, V1_o2]
  isplitl [H0]; · iexact H0
  isplitl [H1]; · iexact H1
  isplitl [H2]; · iexact H2
  isplitl [H4]; · iexact H4
  isplitl [H6]; · iexact H6
  isplitl [H8]; · iexact H8
  isplitl [Ho0]; · iexact Ho0
  isplitl [Ho1]; · iexact Ho1
  iexact Ho2

/-- The nine back among all the unscoped arrays. -/
theorem rebuild (d : Dev nD) (V : Valuation τ sig (Elt F)) (f0 : Buf (Elt F) (o0Loc d)) (f1 : Buf (Elt F) (o1Loc d)) (f2 : Buf (Elt F) (o2Loc d)) :
    iprop(held (SparseCore.T d) nine (V1 d V f0 f1 f2) ∗ held (SparseCore.T d) (Pipeline.ucRefs τ sig \ nine) V)
      ⊢ (held (SparseCore.T d) (Pipeline.ucRefs τ sig) (V1 d V f0 f1 f2) : sProp 𝕄) := by
  rw [held_sub_split (SparseCore.T d) nine_sub (V1 d V f0 f1 f2),
    held_congr (SparseCore.T d) (S := Pipeline.ucRefs τ sig \ nine) (V := V1 d V f0 f1 f2) (V' := V) (fun b hb => V1_off d V f0 f1 f2 (Finset.mem_sdiff.mp hb).2)]

/-! ## The launch element -/

def u₀ : UU := (initOf (K (F := F)).hsCells (K (F := F)).hsToks, (Cert.Proof.Region.uP (F := F), 1))

theorem bigSep_emp' {I : Type} (s : Finset I) : (bigSep s fun _ => iprop(emp)) = (iprop(emp) : sProp 𝕄) := bigSep_emp_const s

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => Cert.Proof.Region.G (F := F) d)
        ∗ bigSep Finset.univ fun thr : Thread nD τ => bigSep Finset.univ fun q : Fin 1 => (P W).x q thr) := by
  unfold u₀
  iintro Hu
  ihave H := (Cert.Proof.Region.ownU_split (F := F) _ _ _) $$ Hu
  icases H with ⟨HH, HP, -⟩
  imod (Cert.Proof.Region.fundG (F := F)) $$ HP with HG
  imodintro
  isplitl [HH]; · iexact HH
  isplitl [HG]; · iexact HG
  rw [show (bigSep Finset.univ fun thr : Thread nD τ => bigSep Finset.univ fun q : Fin 1 => (P (F := F) W).x q thr) = bigSep Finset.univ fun _ => iprop(emp) from
    bigSep_congr fun _ _ => bigSep_univ_of_subsingleton (0 : Fin 1), bigSep_emp']
  iempintro

/-! ## @main on the TensorCore -/

variable (m : (ℓ : Loc nD τ sig) → Buf (Elt F) ℓ) (ρ : Dev nD → PrngReg)

/-- What @main leaves the claim: the nineteen arguments at their launch contents. -/
def FIN (d : Dev nD) : sProp 𝕄 := held (SparseCore.T d) args19 (V0 m d)

set_option backward.isDefEq.respectTransparency.types false in
set_option maxHeartbeats 1600000 in
/-- @main on device `d`'s TensorCore: the twelve host operations, the SparseCore call (its nine arrays out, split among
    the tasks, and back), two reshapes, the first region, five reshapes, the second region; every step keeps the
    arguments. The regions' steps enter as hypotheses, over whatever result sets `O1`, `O2` they change. -/
theorem hmain [∀ e, Nonempty (Elt F e)] (O1 O2 : Finset (DevRef τ sig)) (hO1 : ∀ b ∈ args19, b ∉ O1) (hO2 : ∀ b ∈ args19, b ∉ O2)
    (hreg0 : ∀ (W : Valuation τ sig (Elt F)) (κ : GSem nD τ sig → ℕ) (d : Dev nD),
      iprop((K (F := F)).ctx EH (P (Wc m)) κ ∗ (K (F := F)).tcSt EH d 1 ∗ boundary (SparseCore.T d) ∗ held (SparseCore.T d) (Pipeline.ucRefs τ sig) W ∗ Cert.Proof.Region.Gp (F := F) 0 d)
      ⊢ wp frame (wpE ((K (F := F)).defs (D (F := F))) 𝒱 (SparseCore.T d) none) Set.univ
          (Prog.lift (.customCall (SparseCore.inner (Pipeline.entry 0)) ()))
          fun _ => iprop(∃ W' : Valuation τ sig (Elt F), ⌜∀ b, b ∉ O1 → W' b = W b⌝
            ∗ (K (F := F)).tcSt EH d 1 ∗ boundary (SparseCore.T d) ∗ held (SparseCore.T d) (Pipeline.ucRefs τ sig) W'))
    (hreg1 : ∀ (W : Valuation τ sig (Elt F)) (κ : GSem nD τ sig → ℕ) (d : Dev nD),
      iprop((K (F := F)).ctx EH (P (Wc m)) κ ∗ (K (F := F)).tcSt EH d 1 ∗ boundary (SparseCore.T d) ∗ held (SparseCore.T d) (Pipeline.ucRefs τ sig) W ∗ Cert.Proof.Region.Gp (F := F) 1 d)
      ⊢ wp frame (wpE ((K (F := F)).defs (D (F := F))) 𝒱 (SparseCore.T d) none) Set.univ
          (Prog.lift (.customCall (SparseCore.inner (Pipeline.entry 1)) ()))
          fun _ => iprop(∃ W' : Valuation τ sig (Elt F), ⌜∀ b, b ∉ O2 → W' b = W b⌝
            ∗ (K (F := F)).tcSt EH d 1 ∗ boundary (SparseCore.T d) ∗ held (SparseCore.T d) (Pipeline.ucRefs τ sig) W'))
    (κ : GSem nD τ sig → ℕ) (d : Dev nD) :
    iprop((K (F := F)).ctx EH (P (Wc m)) κ ∗ (K (F := F)).tcSt EH d 0 ∗ (K (F := F)).tcRes m ρ d ∗ Cert.Proof.Region.G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes Cert.Proof.Region.G
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, -, -⟩, Hg0, Hg1⟩
  -- the twelve host operations
  iapply (wp_seq 𝒱 none Set.univ d (Pipeline.ucRefs τ sig) _ pre12 sub_pre12 fresh_pre12 (V0 m d)) $$ [Hb Hheld]
  · isplitl [Hb] <;> iassumption
  iintro ⟨Hb, Hheld⟩
  rw [wp_bind]
  -- the call: the nine arrays out of all the unscoped ones, split among the tasks
  ihave Hh := (Entails.of_eq (show (held (SparseCore.T d) (Pipeline.ucRefs τ sig) (after pre12 (V0 m d)) : sProp 𝕄)
      = iprop(held (SparseCore.T d) nine (Wc m d) ∗ held (SparseCore.T d) (Pipeline.ucRefs τ sig \ nine) (Wc m d)) from held_sub_split (SparseCore.T d) nine_sub (Wc m d))) $$ Hheld
  icases Hh with ⟨Hn, Hrest⟩
  ihave Hw := (nine_out (Wc m) d) $$ Hn
  ihave Hs := (st_split (Wc m) d) $$ Hw
  icases Hs with ⟨Hst0, Htab⟩
  iapply ((K (F := F)).wp_run (D (F := F)) 𝒱 (EH := EH) (P := P (Wc m)) κ d 0) $$ [Hst Hst0 Hb Hrest Htab Hg0 Hg1]
  isplitr; · iexact Hctx
  isplitl [Hst]; · iexact Hst
  isplitl [Hst0]; · iexact Hst0
  iintro ⟨Hst, Hdn⟩
  ihave Hw := (dn_join (Wc m) d) $$ [Hdn Htab]
  · isplitl [Hdn] <;> iassumption
  ihave Hx := (nine_back (Wc m) d) $$ Hw
  icases Hx with ⟨%f0, %f1, %f2, Hn⟩
  ihave Hheld := (rebuild d (Wc m d) f0 f1 f2) $$ [Hn Hrest]
  · isplitl [Hn] <;> iassumption
  -- two reshapes
  iapply (wp_seq 𝒱 none Set.univ d (Pipeline.ucRefs τ sig) _ mid2 sub_mid2 fresh_mid2 (V1 d (Wc m d) f0 f1 f2)) $$ [Hb Hheld]
  · isplitl [Hb] <;> iassumption
  iintro ⟨Hb, Hheld⟩
  rw [wp_bind]
  -- the first region
  iapply (wp_wand_r frame _ Set.univ)
  isplitl [Hst Hb Hheld Hg0]
  · iapply (hreg0 (after mid2 (V1 d (Wc m d) f0 f1 f2)) κ d)
    isplitr; · iexact Hctx
    isplitl [Hst]; · iexact Hst
    isplitl [Hb]; · iexact Hb
    isplitl [Hheld]; · iexact Hheld
    iexact Hg0
  iintro %u ⟨%W1, %hW1, Hst, Hb, Hheld⟩
  -- five reshapes
  iapply (wp_seq 𝒱 none Set.univ d (Pipeline.ucRefs τ sig) _ mid5 sub_mid5 fresh_mid5 W1) $$ [Hb Hheld]
  · isplitl [Hb] <;> iassumption
  iintro ⟨Hb, Hheld⟩
  rw [wp_bind]
  -- the second region
  iapply (wp_wand_r frame _ Set.univ)
  isplitl [Hst Hb Hheld Hg1]
  · iapply (hreg1 (after mid5 W1) κ d)
    isplitr; · iexact Hctx
    isplitl [Hst]; · iexact Hst
    isplitl [Hb]; · iexact Hb
    isplitl [Hheld]; · iexact Hheld
    iexact Hg1
  iintro %u' ⟨%W2, %hW2, Hst, Hb, Hheld⟩
  rw [wp_pure]; imodintro
  isplitl [Hst]; · iexact Hst
  -- the arguments, unchanged all along
  have hkeep : ∀ b ∈ args19, V0 m d b = W2 b := fun b hb => by
    rw [hW2 b (hO2 b hb), after_keep writes_mid5 W1 (args_not_written b hb), hW1 b (hO1 b hb),
      after_keep writes_mid2 _ (args_not_written b hb), V1_off d (Wc m d) f0 f1 f2 (args_not_nine b hb)]
    exact (after_keep writes_pre12 (V0 m d) (args_not_written b hb)).symm
  ihave Hh := (Entails.of_eq (held_sub_split (SparseCore.T d) args_sub W2)) $$ Hheld
  icases Hh with ⟨Ha, -⟩
  unfold FIN
  rw [held_congr (SparseCore.T d) (S := args19) (V := V0 m d) (V' := W2) hkeep]
  iexact Ha

/-! ## The final reading -/

/-- Under the state interpretation, arrays held whole pin the memory's contents of each. -/
theorem held_agree (d : Dev nD) (V : Valuation τ sig (Elt F)) (s' : Phys nD τ sig (Elt F)) (S : Finset (DevRef τ sig)) :
    iprop((held (SparseCore.T d) S V : sProp 𝕄) ∗ SI s') ⊢ (⌜∀ b ∈ S, s'.mem.mem (d, b) = V b⌝ : sProp 𝕄) := by
  induction S using Finset.induction_on with
  | empty =>
    iintro -
    ipureintro
    exact fun b hb => absurd hb (Finset.notMem_empty b)
  | insert a S ha ih =>
    unfold held at ih ⊢
    rw [SparseCore.bigSep_insert' ha]
    iintro ⟨⟨Ha, HS⟩, HSI⟩
    ihave H := (persistent_entails_right (SI_pointsTo_agree (st := s') (ℓ := (d, a)) (I := Finset.univ) (q := fullShare) (f := V a))) $$ [HSI Ha]
    · isplitl [HSI] <;> iassumption
    icases H with ⟨%h1, HSI, -⟩
    ihave H2 := ih $$ [HS HSI]
    · isplitl [HS] <;> iassumption
    icases H2 with %h2
    ipureintro
    intro b hb
    rcases Finset.mem_insert.mp hb with rfl | hb
    · exact funext fun i => h1 i (Finset.mem_univ i)
    · exact h2 b hb

def fq (d : Dev nD) (s' : Phys nD τ sig (Elt F)) : Prop := ∀ b ∈ args19, s'.mem.mem (d, b) = m (d, b)

theorem hfin (d : Dev nD) (s' : Phys nD τ sig (Elt F)) : iprop(FIN m d ∗ SI s') ⊢ (⌜fq m d s'⌝ : sProp 𝕄) := by
  unfold FIN fq
  exact held_agree d (V0 m d) s' args19

/-! ## The program's run -/

/-- Every argument array ends at its launch contents, on every device. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)
  ∧ r.2.mem ((c.tc : Thread nD τ).loc main_arg18) = m ((c.tc : Thread nD τ).loc main_arg18)

theorem hQ (s' : Phys nD τ sig (Elt F)) (h : ∀ d, fq m d s') : QC m (⟨⟩, s'.mem) := fun c =>
  ⟨h c (Proc.devRef .tc (main_arg0 : Ref sig .tc) : DevRef τ sig) (by decide),
   h c (Proc.devRef .tc (main_arg1 : Ref sig .tc) : DevRef τ sig) (by decide),
   h c (Proc.devRef .tc (main_arg2 : Ref sig .tc) : DevRef τ sig) (by decide),
   h c (Proc.devRef .tc (main_arg3 : Ref sig .tc) : DevRef τ sig) (by decide),
   h c (Proc.devRef .tc (main_arg4 : Ref sig .tc) : DevRef τ sig) (by decide),
   h c (Proc.devRef .tc (main_arg5 : Ref sig .tc) : DevRef τ sig) (by decide),
   h c (Proc.devRef .tc (main_arg6 : Ref sig .tc) : DevRef τ sig) (by decide),
   h c (Proc.devRef .tc (main_arg7 : Ref sig .tc) : DevRef τ sig) (by decide),
   h c (Proc.devRef .tc (main_arg8 : Ref sig .tc) : DevRef τ sig) (by decide),
   h c (Proc.devRef .tc (main_arg9 : Ref sig .tc) : DevRef τ sig) (by decide),
   h c (Proc.devRef .tc (main_arg10 : Ref sig .tc) : DevRef τ sig) (by decide),
   h c (Proc.devRef .tc (main_arg11 : Ref sig .tc) : DevRef τ sig) (by decide),
   h c (Proc.devRef .tc (main_arg12 : Ref sig .tc) : DevRef τ sig) (by decide),
   h c (Proc.devRef .tc (main_arg13 : Ref sig .tc) : DevRef τ sig) (by decide),
   h c (Proc.devRef .tc (main_arg14 : Ref sig .tc) : DevRef τ sig) (by decide),
   h c (Proc.devRef .tc (main_arg15 : Ref sig .tc) : DevRef τ sig) (by decide),
   h c (Proc.devRef .tc (main_arg16 : Ref sig .tc) : DevRef τ sig) (by decide),
   h c (Proc.devRef .tc (main_arg17 : Ref sig .tc) : DevRef τ sig) (by decide),
   h c (Proc.devRef .tc (main_arg18 : Ref sig .tc) : DevRef τ sig) (by decide)⟩

theorem run_main [∀ e, Nonempty (Elt F e)] (htile : (K (F := F)).TileObl (D (F := F)) 𝒱 (P (Wc m)) v₀ 0)
    (O1 O2 : Finset (DevRef τ sig)) (hO1 : ∀ b ∈ args19, b ∉ O1) (hO2 : ∀ b ∈ args19, b ∉ O2)
    (hreg0 : ∀ (W : Valuation τ sig (Elt F)) (κ : GSem nD τ sig → ℕ) (d : Dev nD),
      iprop((K (F := F)).ctx EH (P (Wc m)) κ ∗ (K (F := F)).tcSt EH d 1 ∗ boundary (SparseCore.T d) ∗ held (SparseCore.T d) (Pipeline.ucRefs τ sig) W ∗ Cert.Proof.Region.Gp (F := F) 0 d)
      ⊢ wp frame (wpE ((K (F := F)).defs (D (F := F))) 𝒱 (SparseCore.T d) none) Set.univ
          (Prog.lift (.customCall (SparseCore.inner (Pipeline.entry 0)) ()))
          fun _ => iprop(∃ W' : Valuation τ sig (Elt F), ⌜∀ b, b ∉ O1 → W' b = W b⌝
            ∗ (K (F := F)).tcSt EH d 1 ∗ boundary (SparseCore.T d) ∗ held (SparseCore.T d) (Pipeline.ucRefs τ sig) W'))
    (hreg1 : ∀ (W : Valuation τ sig (Elt F)) (κ : GSem nD τ sig → ℕ) (d : Dev nD),
      iprop((K (F := F)).ctx EH (P (Wc m)) κ ∗ (K (F := F)).tcSt EH d 1 ∗ boundary (SparseCore.T d) ∗ held (SparseCore.T d) (Pipeline.ucRefs τ sig) W ∗ Cert.Proof.Region.Gp (F := F) 1 d)
      ⊢ wp frame (wpE ((K (F := F)).defs (D (F := F))) 𝒱 (SparseCore.T d) none) Set.univ
          (Prog.lift (.customCall (SparseCore.inner (Pipeline.entry 1)) ()))
          fun _ => iprop(∃ W' : Valuation τ sig (Elt F), ⌜∀ b, b ∉ O2 → W' b = W b⌝
            ∗ (K (F := F)).tcSt EH d 1 ∗ boundary (SparseCore.T d) ∗ held (SparseCore.T d) (Pipeline.ucRefs τ sig) W')) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Wc m)) facts v₀
    (fun q hq => match q with | 0 => nomatch hq)
    (fun q _ => match q with | 0 => htile)
    (fun q _ => match q with | 0 => SparseCore.Cfg.VecSplit.of_plain (vecSplit (Wc m)))
    m ρ main (fun d => Cert.Proof.Region.G (F := F) d) (FIN m) (u₀ (F := F)) (sep_elim_left.trans (hu₀ (Wc m)))
    (hmain m ρ O1 O2 hO1 hO2 hreg0 hreg1) (fq m) (hfin m) (QC m) (hQ m)

end Cert.Proof.KI

end
-- ==== Proof.TaskPieces.lean ====
/-
  A plane of the index scratch is its four rows.

  Slab `t` of an index array lands in plane `t` of the index scratch as one box of 4 × 128 words; the gather of
  chunk `j` then reads its 128 offsets from row `j` of that plane alone. The plane's elements are the disjoint
  union of its rows' elements, so a points-to of the plane is the four rows' points-tos side by side.
-/
import proofs.«211833_g48473000902786_cont_8to1_c_597_31_alg».proof.Proof.TaskViews
import Idealize.ShloMosaic.Lib.Pipeline.Kit

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- Row `j` of plane `t`, as a box of the scratch's shape. -/
abbrev rowBox (t j : ℕ) (h : ∀ a, (![t, j, 0] : Fin 3 → ℕ) a + S1x1x128.size a ≤ S3x4x128.size a) : Rect S3x4x128 :=
  Rect.unit (s := S3x4x128) ![t, j, 0] S1x1x128.size h
/-- Plane `t`, as a box of the scratch's shape. -/
abbrev planeBox (t : ℕ) (h : ∀ a, (![t, 0, 0] : Fin 3 → ℕ) a + S1x4x128.size a ≤ S3x4x128.size a) : Rect S3x4x128 :=
  Rect.unit (s := S3x4x128) ![t, 0, 0] S1x4x128.size h

theorem mem_rowBox {t j : ℕ} {h} {i : S3x4x128.Idx} : i ∈ (rowBox t j h).set ↔ (i 0 : ℕ) = t ∧ (i 1 : ℕ) = j := by
  rw [Rect.mem_set_unit]
  constructor
  · intro H
    have h0 := H 0; have h1 := H 1
    simp only [Matrix.cons_val_zero, Matrix.cons_val_one] at h0 h1
    exact ⟨by have : S1x1x128.size 0 = 1 := rfl; omega, by have : S1x1x128.size 1 = 1 := rfl; omega⟩
  · rintro ⟨e0, e1⟩ a
    match a with
    | 0 => simp only [Matrix.cons_val_zero]; have : S1x1x128.size 0 = 1 := rfl; omega
    | 1 => simp only [Matrix.cons_val_one, Matrix.cons_val_zero]; have : S1x1x128.size 1 = 1 := rfl; omega
    | 2 => have h2 : (i 2 : ℕ) < 128 := (i 2).isLt
           have : S1x1x128.size 2 = 128 := rfl
           simp only [Matrix.cons_val_two, Matrix.tail_cons, Matrix.head_cons]; omega

theorem mem_planeBox {t : ℕ} {h} {i : S3x4x128.Idx} : i ∈ (planeBox t h).set ↔ (i 0 : ℕ) = t := by
  rw [Rect.mem_set_unit]
  constructor
  · intro H
    have h0 := H 0
    simp only [Matrix.cons_val_zero] at h0
    have : S1x4x128.size 0 = 1 := rfl; omega
  · intro e0 a
    match a with
    | 0 => simp only [Matrix.cons_val_zero]; have : S1x4x128.size 0 = 1 := rfl; omega
    | 1 => have h1 : (i 1 : ℕ) < 4 := (i 1).isLt
           have : S1x4x128.size 1 = 4 := rfl
           simp only [Matrix.cons_val_one, Matrix.cons_val_zero]; omega
    | 2 => have h2 : (i 2 : ℕ) < 128 := (i 2).isLt
           have : S1x4x128.size 2 = 128 := rfl
           simp only [Matrix.cons_val_two, Matrix.tail_cons, Matrix.head_cons]; omega

/-- A plane's elements are its four rows' elements. -/
theorem planeBox_eq_rows {t : ℕ} {h h0 h1 h2 h3} :
    (planeBox t h).set = (rowBox t 0 h0).set ∪ ((rowBox t 1 h1).set ∪ ((rowBox t 2 h2).set ∪ (rowBox t 3 h3).set)) := by
  ext i
  simp only [Finset.mem_union, mem_rowBox, mem_planeBox]
  have h1 : (i 1 : ℕ) < 4 := (i 1).isLt
  constructor
  · intro e; omega
  · rintro (⟨e, _⟩ | ⟨e, _⟩ | ⟨e, _⟩ | ⟨e, _⟩) <;> exact e

/-- Two rows of one plane share no element. -/
theorem rowBox_disjoint {t j j' : ℕ} {h h'} (hj : j ≠ j') : Disjoint (rowBox t j h).set (rowBox t j' h').set := by
  rw [Finset.disjoint_left]
  intro i hi hi'
  rw [mem_rowBox] at hi hi'
  omega

/-! ## The plane's points-to, row by row -/

variable {F : FTy → Type} {UU : Type} [URA UU]

local notation "𝕄" => MT nD τ sig (HIx 1) (Elt F) ℕ UU ℕ

/-- A points-to over four pairwise disjoint element sets, taken apart; -/
theorem pointsTo_split4 {ℓ : Loc nD τ sig} {X A B C D : Finset (Idx ℓ)} {q : PosShare TreeShare} {f : Buf (Elt F) ℓ}
    (hX : X = A ∪ (B ∪ (C ∪ D))) (h1 : Disjoint A (B ∪ (C ∪ D))) (h2 : Disjoint B (C ∪ D)) (h3 : Disjoint C D) :
    (ℓ ↦[X]{q} f : sProp 𝕄) ⊢ iprop((ℓ ↦[A]{q} f) ∗ (ℓ ↦[B]{q} f) ∗ (ℓ ↦[C]{q} f) ∗ ℓ ↦[D]{q} f) := by
  subst hX
  iintro H
  ihave H := (pointsTo_union h1).1 $$ H
  icases H with ⟨HA, H⟩
  ihave H := (pointsTo_union h2).1 $$ H
  icases H with ⟨HB, H⟩
  ihave H := (pointsTo_union h3).1 $$ H
  icases H with ⟨HC, HD⟩
  isplitl [HA]; · iexact HA
  isplitl [HB]; · iexact HB
  isplitl [HC]; · iexact HC
  iexact HD

/-- and put together again. -/
theorem pointsTo_join4 {ℓ : Loc nD τ sig} {X A B C D : Finset (Idx ℓ)} {q : PosShare TreeShare} {f : Buf (Elt F) ℓ}
    (hX : X = A ∪ (B ∪ (C ∪ D))) (h1 : Disjoint A (B ∪ (C ∪ D))) (h2 : Disjoint B (C ∪ D)) (h3 : Disjoint C D) :
    iprop((ℓ ↦[A]{q} f) ∗ (ℓ ↦[B]{q} f) ∗ (ℓ ↦[C]{q} f) ∗ ℓ ↦[D]{q} f) ⊢ (ℓ ↦[X]{q} f : sProp 𝕄) := by
  subst hX
  iintro ⟨HA, HB, HC, HD⟩
  iapply (pointsTo_union h1).2
  isplitl [HA]; · iexact HA
  iapply (pointsTo_union h2).2
  isplitl [HB]; · iexact HB
  iapply (pointsTo_union h3).2
  isplitl [HC]; · iexact HC
  iexact HD

theorem rows_disj1 {t : ℕ} {h0 h1 h2 h3} :
    Disjoint (rowBox t 0 h0).set ((rowBox t 1 h1).set ∪ ((rowBox t 2 h2).set ∪ (rowBox t 3 h3).set)) := by
  rw [Finset.disjoint_union_right, Finset.disjoint_union_right]
  exact ⟨rowBox_disjoint (by decide), rowBox_disjoint (by decide), rowBox_disjoint (by decide)⟩
theorem rows_disj2 {t : ℕ} {h1 h2 h3} :
    Disjoint (rowBox t 1 h1).set ((rowBox t 2 h2).set ∪ (rowBox t 3 h3).set) := by
  rw [Finset.disjoint_union_right]
  exact ⟨rowBox_disjoint (by decide), rowBox_disjoint (by decide)⟩

theorem iv0_set : (iv0).view.set = (planeBox 0 inb_S3x4x128_S1x4x128_0_0_0).set := by
  show (((View.whole cc0_scratch0).slice (planeBox 0 inb_S3x4x128_S1x4x128_0_0_0)).reshape S4x128 squeezes_S1x4x128_S4x128.numel_eq).set = _
  rw [View.set_reshape, View.set_slice_whole]
theorem ivr0_0_set : (ivr0_0).view.set = (rowBox 0 0 inb_S3x4x128_S1x1x128_0_0_0).set := by
  show (((View.whole cc0_scratch0).slice (rowBox 0 0 inb_S3x4x128_S1x1x128_0_0_0)).reshape S128 squeezes_S1x1x128_S128.numel_eq).set = _
  rw [View.set_reshape, View.set_slice_whole]
theorem ivr0_1_set : (ivr0_1).view.set = (rowBox 0 1 inb_S3x4x128_S1x1x128_0_1_0).set := by
  show (((View.whole cc0_scratch0).slice (rowBox 0 1 inb_S3x4x128_S1x1x128_0_1_0)).reshape S128 squeezes_S1x1x128_S128.numel_eq).set = _
  rw [View.set_reshape, View.set_slice_whole]
theorem ivr0_2_set : (ivr0_2).view.set = (rowBox 0 2 inb_S3x4x128_S1x1x128_0_2_0).set := by
  show (((View.whole cc0_scratch0).slice (rowBox 0 2 inb_S3x4x128_S1x1x128_0_2_0)).reshape S128 squeezes_S1x1x128_S128.numel_eq).set = _
  rw [View.set_reshape, View.set_slice_whole]
theorem ivr0_3_set : (ivr0_3).view.set = (rowBox 0 3 inb_S3x4x128_S1x1x128_0_3_0).set := by
  show (((View.whole cc0_scratch0).slice (rowBox 0 3 inb_S3x4x128_S1x1x128_0_3_0)).reshape S128 squeezes_S1x1x128_S128.numel_eq).set = _
  rw [View.set_reshape, View.set_slice_whole]

/-- Plane 0 of the index scratch, held, is its four rows held. -/
theorem plane0_split (d : Dev nD) (L : grid0.Coords) (f : Buf (Elt F) ((iv0).view.loc (thr d L))) :
    ((iv0).view.loc (thr d L) ↦[(iv0).view.set]{fullShare} f : sProp 𝕄)
      ⊢ iprop(((ivr0_0).view.loc (thr d L) ↦[(ivr0_0).view.set]{fullShare} f) ∗ ((ivr0_1).view.loc (thr d L) ↦[(ivr0_1).view.set]{fullShare} f)
          ∗ ((ivr0_2).view.loc (thr d L) ↦[(ivr0_2).view.set]{fullShare} f) ∗ (ivr0_3).view.loc (thr d L) ↦[(ivr0_3).view.set]{fullShare} f) := by
  rw [iv0_set, ivr0_0_set, ivr0_1_set, ivr0_2_set, ivr0_3_set]
  exact pointsTo_split4 planeBox_eq_rows rows_disj1 rows_disj2 (rowBox_disjoint (by decide))
theorem plane0_join (d : Dev nD) (L : grid0.Coords) (f : Buf (Elt F) ((iv0).view.loc (thr d L))) :
    iprop(((ivr0_0).view.loc (thr d L) ↦[(ivr0_0).view.set]{fullShare} f) ∗ ((ivr0_1).view.loc (thr d L) ↦[(ivr0_1).view.set]{fullShare} f)
          ∗ ((ivr0_2).view.loc (thr d L) ↦[(ivr0_2).view.set]{fullShare} f) ∗ (ivr0_3).view.loc (thr d L) ↦[(ivr0_3).view.set]{fullShare} f)
      ⊢ ((iv0).view.loc (thr d L) ↦[(iv0).view.set]{fullShare} f : sProp 𝕄) := by
  rw [iv0_set, ivr0_0_set, ivr0_1_set, ivr0_2_set, ivr0_3_set]
  exact pointsTo_join4 planeBox_eq_rows rows_disj1 rows_disj2 (rowBox_disjoint (by decide))

theorem iv1_set : (iv1).view.set = (planeBox 1 inb_S3x4x128_S1x4x128_1_0_0).set := by
  show (((View.whole cc0_scratch0).slice (planeBox 1 inb_S3x4x128_S1x4x128_1_0_0)).reshape S4x128 squeezes_S1x4x128_S4x128.numel_eq).set = _
  rw [View.set_reshape, View.set_slice_whole]
theorem ivr1_0_set : (ivr1_0).view.set = (rowBox 1 0 inb_S3x4x128_S1x1x128_1_0_0).set := by
  show (((View.whole cc0_scratch0).slice (rowBox 1 0 inb_S3x4x128_S1x1x128_1_0_0)).reshape S128 squeezes_S1x1x128_S128.numel_eq).set = _
  rw [View.set_reshape, View.set_slice_whole]
theorem ivr1_1_set : (ivr1_1).view.set = (rowBox 1 1 inb_S3x4x128_S1x1x128_1_1_0).set := by
  show (((View.whole cc0_scratch0).slice (rowBox 1 1 inb_S3x4x128_S1x1x128_1_1_0)).reshape S128 squeezes_S1x1x128_S128.numel_eq).set = _
  rw [View.set_reshape, View.set_slice_whole]
theorem ivr1_2_set : (ivr1_2).view.set = (rowBox 1 2 inb_S3x4x128_S1x1x128_1_2_0).set := by
  show (((View.whole cc0_scratch0).slice (rowBox 1 2 inb_S3x4x128_S1x1x128_1_2_0)).reshape S128 squeezes_S1x1x128_S128.numel_eq).set = _
  rw [View.set_reshape, View.set_slice_whole]
theorem ivr1_3_set : (ivr1_3).view.set = (rowBox 1 3 inb_S3x4x128_S1x1x128_1_3_0).set := by
  show (((View.whole cc0_scratch0).slice (rowBox 1 3 inb_S3x4x128_S1x1x128_1_3_0)).reshape S128 squeezes_S1x1x128_S128.numel_eq).set = _
  rw [View.set_reshape, View.set_slice_whole]

/-- Plane 1 of the index scratch, held, is its four rows held. -/
theorem plane1_split (d : Dev nD) (L : grid0.Coords) (f : Buf (Elt F) ((iv1).view.loc (thr d L))) :
    ((iv1).view.loc (thr d L) ↦[(iv1).view.set]{fullShare} f : sProp 𝕄)
      ⊢ iprop(((ivr1_0).view.loc (thr d L) ↦[(ivr1_0).view.set]{fullShare} f) ∗ ((ivr1_1).view.loc (thr d L) ↦[(ivr1_1).view.set]{fullShare} f)
          ∗ ((ivr1_2).view.loc (thr d L) ↦[(ivr1_2).view.set]{fullShare} f) ∗ (ivr1_3).view.loc (thr d L) ↦[(ivr1_3).view.set]{fullShare} f) := by
  rw [iv1_set, ivr1_0_set, ivr1_1_set, ivr1_2_set, ivr1_3_set]
  exact pointsTo_split4 planeBox_eq_rows rows_disj1 rows_disj2 (rowBox_disjoint (by decide))
theorem plane1_join (d : Dev nD) (L : grid0.Coords) (f : Buf (Elt F) ((iv1).view.loc (thr d L))) :
    iprop(((ivr1_0).view.loc (thr d L) ↦[(ivr1_0).view.set]{fullShare} f) ∗ ((ivr1_1).view.loc (thr d L) ↦[(ivr1_1).view.set]{fullShare} f)
          ∗ ((ivr1_2).view.loc (thr d L) ↦[(ivr1_2).view.set]{fullShare} f) ∗ (ivr1_3).view.loc (thr d L) ↦[(ivr1_3).view.set]{fullShare} f)
      ⊢ ((iv1).view.loc (thr d L) ↦[(iv1).view.set]{fullShare} f : sProp 𝕄) := by
  rw [iv1_set, ivr1_0_set, ivr1_1_set, ivr1_2_set, ivr1_3_set]
  exact pointsTo_join4 planeBox_eq_rows rows_disj1 rows_disj2 (rowBox_disjoint (by decide))

theorem iv2_set : (iv2).view.set = (planeBox 2 inb_S3x4x128_S1x4x128_2_0_0).set := by
  show (((View.whole cc0_scratch0).slice (planeBox 2 inb_S3x4x128_S1x4x128_2_0_0)).reshape S4x128 squeezes_S1x4x128_S4x128.numel_eq).set = _
  rw [View.set_reshape, View.set_slice_whole]
theorem ivr2_0_set : (ivr2_0).view.set = (rowBox 2 0 inb_S3x4x128_S1x1x128_2_0_0).set := by
  show (((View.whole cc0_scratch0).slice (rowBox 2 0 inb_S3x4x128_S1x1x128_2_0_0)).reshape S128 squeezes_S1x1x128_S128.numel_eq).set = _
  rw [View.set_reshape, View.set_slice_whole]
theorem ivr2_1_set : (ivr2_1).view.set = (rowBox 2 1 inb_S3x4x128_S1x1x128_2_1_0).set := by
  show (((View.whole cc0_scratch0).slice (rowBox 2 1 inb_S3x4x128_S1x1x128_2_1_0)).reshape S128 squeezes_S1x1x128_S128.numel_eq).set = _
  rw [View.set_reshape, View.set_slice_whole]
theorem ivr2_2_set : (ivr2_2).view.set = (rowBox 2 2 inb_S3x4x128_S1x1x128_2_2_0).set := by
  show (((View.whole cc0_scratch0).slice (rowBox 2 2 inb_S3x4x128_S1x1x128_2_2_0)).reshape S128 squeezes_S1x1x128_S128.numel_eq).set = _
  rw [View.set_reshape, View.set_slice_whole]
theorem ivr2_3_set : (ivr2_3).view.set = (rowBox 2 3 inb_S3x4x128_S1x1x128_2_3_0).set := by
  show (((View.whole cc0_scratch0).slice (rowBox 2 3 inb_S3x4x128_S1x1x128_2_3_0)).reshape S128 squeezes_S1x1x128_S128.numel_eq).set = _
  rw [View.set_reshape, View.set_slice_whole]

/-- Plane 2 of the index scratch, held, is its four rows held. -/
theorem plane2_split (d : Dev nD) (L : grid0.Coords) (f : Buf (Elt F) ((iv2).view.loc (thr d L))) :
    ((iv2).view.loc (thr d L) ↦[(iv2).view.set]{fullShare} f : sProp 𝕄)
      ⊢ iprop(((ivr2_0).view.loc (thr d L) ↦[(ivr2_0).view.set]{fullShare} f) ∗ ((ivr2_1).view.loc (thr d L) ↦[(ivr2_1).view.set]{fullShare} f)
          ∗ ((ivr2_2).view.loc (thr d L) ↦[(ivr2_2).view.set]{fullShare} f) ∗ (ivr2_3).view.loc (thr d L) ↦[(ivr2_3).view.set]{fullShare} f) := by
  rw [iv2_set, ivr2_0_set, ivr2_1_set, ivr2_2_set, ivr2_3_set]
  exact pointsTo_split4 planeBox_eq_rows rows_disj1 rows_disj2 (rowBox_disjoint (by decide))
theorem plane2_join (d : Dev nD) (L : grid0.Coords) (f : Buf (Elt F) ((iv2).view.loc (thr d L))) :
    iprop(((ivr2_0).view.loc (thr d L) ↦[(ivr2_0).view.set]{fullShare} f) ∗ ((ivr2_1).view.loc (thr d L) ↦[(ivr2_1).view.set]{fullShare} f)
          ∗ ((ivr2_2).view.loc (thr d L) ↦[(ivr2_2).view.set]{fullShare} f) ∗ (ivr2_3).view.loc (thr d L) ↦[(ivr2_3).view.set]{fullShare} f)
      ⊢ ((iv2).view.loc (thr d L) ↦[(iv2).view.set]{fullShare} f : sProp 𝕄) := by
  rw [iv2_set, ivr2_0_set, ivr2_1_set, ivr2_2_set, ivr2_3_set]
  exact pointsTo_join4 planeBox_eq_rows rows_disj1 rows_disj2 (rowBox_disjoint (by decide))

end Cert.Proof.KI

end
-- ==== Proof.TaskRange.lean ====
/-
  Every offset a gather reads names a table row.

  Slab `t` of an index array lands whole in plane `t` of the index scratch; the gather of chunk `j` reads row `j`
  of that plane. An element of the row is an element of the plane, and after the landing every element of the plane
  holds one word of the slab. So if every word of the slab is below 100000, every offset the gather reads is.
-/
import proofs.«211833_g48473000902786_cont_8to1_c_597_31_alg».proof.Proof.TaskViews
import proofs.«211833_g48473000902786_cont_8to1_c_597_31_alg».proof.Proof.TaskPieces
import Idealize.ShloMosaic.Lib.Writes

noncomputable section

namespace Cert.Proof.KI

open Cert.KernelIdeal Cert.KernelIdeal.Gen
open Idealize.ShloMosaic
open Idealize.ShloMosaic.SparseCore (S V T)
open Idealize.SL.Sem

variable {F : FTy → Type} (d : Dev nD) (L : grid0.Coords)

theorem hin0_0 (fI : Buf (Elt F) ((iSlab0 L).view.loc (thr d L)))
    (hI : ∀ y : S4x128.Idx, ((iSlab0 L).view.read (Elt F) fI y).toNat < 100000) :
    ∀ (fs : Buf (Elt F) ((iv0).view.loc (thr d L))) (x : S128.Idx),
      ((ivr0_0).view.read (Elt F) ((iv0).view.writes (Elt F) fs
        [⟨Rect.whole S4x128, ReadAs.same.apply ((iSlab0 L).view.read (Elt F) fI)⟩]) x).toNat < 100000 := by
  intro fs x
  have hmem : (ivr0_0).view.emb x ∈ (iv0).view.set := by
    have h := (ivr0_0).view.emb_mem_set x
    rw [ivr0_0_set] at h
    rw [iv0_set, mem_planeBox]
    exact (mem_rowBox.mp h).1
  obtain ⟨y, -, hy⟩ := Finset.mem_map.mp hmem
  have hw := View.read_writes_cons_emb (iv0).view (Val := Elt F) fs (Rect.whole S4x128)
    (ReadAs.same.apply ((iSlab0 L).view.read (Elt F) fI)) [] y
  rw [Rect.emb_whole_apply, View.read_apply, hy] at hw
  refine lt_of_eq_of_lt (congrArg BitVec.toNat (?_ : _ = ReadAs.same.apply ((iSlab0 L).view.read (Elt F) fI) y)) (hI y)
  exact hw

theorem hin0_1 (fI : Buf (Elt F) ((iSlab0 L).view.loc (thr d L)))
    (hI : ∀ y : S4x128.Idx, ((iSlab0 L).view.read (Elt F) fI y).toNat < 100000) :
    ∀ (fs : Buf (Elt F) ((iv0).view.loc (thr d L))) (x : S128.Idx),
      ((ivr0_1).view.read (Elt F) ((iv0).view.writes (Elt F) fs
        [⟨Rect.whole S4x128, ReadAs.same.apply ((iSlab0 L).view.read (Elt F) fI)⟩]) x).toNat < 100000 := by
  intro fs x
  have hmem : (ivr0_1).view.emb x ∈ (iv0).view.set := by
    have h := (ivr0_1).view.emb_mem_set x
    rw [ivr0_1_set] at h
    rw [iv0_set, mem_planeBox]
    exact (mem_rowBox.mp h).1
  obtain ⟨y, -, hy⟩ := Finset.mem_map.mp hmem
  have hw := View.read_writes_cons_emb (iv0).view (Val := Elt F) fs (Rect.whole S4x128)
    (ReadAs.same.apply ((iSlab0 L).view.read (Elt F) fI)) [] y
  rw [Rect.emb_whole_apply, View.read_apply, hy] at hw
  refine lt_of_eq_of_lt (congrArg BitVec.toNat (?_ : _ = ReadAs.same.apply ((iSlab0 L).view.read (Elt F) fI) y)) (hI y)
  exact hw

theorem hin0_2 (fI : Buf (Elt F) ((iSlab0 L).view.loc (thr d L)))
    (hI : ∀ y : S4x128.Idx, ((iSlab0 L).view.read (Elt F) fI y).toNat < 100000) :
    ∀ (fs : Buf (Elt F) ((iv0).view.loc (thr d L))) (x : S128.Idx),
      ((ivr0_2).view.read (Elt F) ((iv0).view.writes (Elt F) fs
        [⟨Rect.whole S4x128, ReadAs.same.apply ((iSlab0 L).view.read (Elt F) fI)⟩]) x).toNat < 100000 := by
  intro fs x
  have hmem : (ivr0_2).view.emb x ∈ (iv0).view.set := by
    have h := (ivr0_2).view.emb_mem_set x
    rw [ivr0_2_set] at h
    rw [iv0_set, mem_planeBox]
    exact (mem_rowBox.mp h).1
  obtain ⟨y, -, hy⟩ := Finset.mem_map.mp hmem
  have hw := View.read_writes_cons_emb (iv0).view (Val := Elt F) fs (Rect.whole S4x128)
    (ReadAs.same.apply ((iSlab0 L).view.read (Elt F) fI)) [] y
  rw [Rect.emb_whole_apply, View.read_apply, hy] at hw
  refine lt_of_eq_of_lt (congrArg BitVec.toNat (?_ : _ = ReadAs.same.apply ((iSlab0 L).view.read (Elt F) fI) y)) (hI y)
  exact hw

theorem hin0_3 (fI : Buf (Elt F) ((iSlab0 L).view.loc (thr d L)))
    (hI : ∀ y : S4x128.Idx, ((iSlab0 L).view.read (Elt F) fI y).toNat < 100000) :
    ∀ (fs : Buf (Elt F) ((iv0).view.loc (thr d L))) (x : S128.Idx),
      ((ivr0_3).view.read (Elt F) ((iv0).view.writes (Elt F) fs
        [⟨Rect.whole S4x128, ReadAs.same.apply ((iSlab0 L).view.read (Elt F) fI)⟩]) x).toNat < 100000 := by
  intro fs x
  have hmem : (ivr0_3).view.emb x ∈ (iv0).view.set := by
    have h := (ivr0_3).view.emb_mem_set x
    rw [ivr0_3_set] at h
    rw [iv0_set, mem_planeBox]
    exact (mem_rowBox.mp h).1
  obtain ⟨y, -, hy⟩ := Finset.mem_map.mp hmem
  have hw := View.read_writes_cons_emb (iv0).view (Val := Elt F) fs (Rect.whole S4x128)
    (ReadAs.same.apply ((iSlab0 L).view.read (Elt F) fI)) [] y
  rw [Rect.emb_whole_apply, View.read_apply, hy] at hw
  refine lt_of_eq_of_lt (congrArg BitVec.toNat (?_ : _ = ReadAs.same.apply ((iSlab0 L).view.read (Elt F) fI) y)) (hI y)
  exact hw

theorem hin1_0 (fI : Buf (Elt F) ((iSlab1 L).view.loc (thr d L)))
    (hI : ∀ y : S4x128.Idx, ((iSlab1 L).view.read (Elt F) fI y).toNat < 100000) :
    ∀ (fs : Buf (Elt F) ((iv1).view.loc (thr d L))) (x : S128.Idx),
      ((ivr1_0).view.read (Elt F) ((iv1).view.writes (Elt F) fs
        [⟨Rect.whole S4x128, ReadAs.same.apply ((iSlab1 L).view.read (Elt F) fI)⟩]) x).toNat < 100000 := by
  intro fs x
  have hmem : (ivr1_0).view.emb x ∈ (iv1).view.set := by
    have h := (ivr1_0).view.emb_mem_set x
    rw [ivr1_0_set] at h
    rw [iv1_set, mem_planeBox]
    exact (mem_rowBox.mp h).1
  obtain ⟨y, -, hy⟩ := Finset.mem_map.mp hmem
  have hw := View.read_writes_cons_emb (iv1).view (Val := Elt F) fs (Rect.whole S4x128)
    (ReadAs.same.apply ((iSlab1 L).view.read (Elt F) fI)) [] y
  rw [Rect.emb_whole_apply, View.read_apply, hy] at hw
  refine lt_of_eq_of_lt (congrArg BitVec.toNat (?_ : _ = ReadAs.same.apply ((iSlab1 L).view.read (Elt F) fI) y)) (hI y)
  exact hw

theorem hin1_1 (fI : Buf (Elt F) ((iSlab1 L).view.loc (thr d L)))
    (hI : ∀ y : S4x128.Idx, ((iSlab1 L).view.read (Elt F) fI y).toNat < 100000) :
    ∀ (fs : Buf (Elt F) ((iv1).view.loc (thr d L))) (x : S128.Idx),
      ((ivr1_1).view.read (Elt F) ((iv1).view.writes (Elt F) fs
        [⟨Rect.whole S4x128, ReadAs.same.apply ((iSlab1 L).view.read (Elt F) fI)⟩]) x).toNat < 100000 := by
  intro fs x
  have hmem : (ivr1_1).view.emb x ∈ (iv1).view.set := by
    have h := (ivr1_1).view.emb_mem_set x
    rw [ivr1_1_set] at h
    rw [iv1_set, mem_planeBox]
    exact (mem_rowBox.mp h).1
  obtain ⟨y, -, hy⟩ := Finset.mem_map.mp hmem
  have hw := View.read_writes_cons_emb (iv1).view (Val := Elt F) fs (Rect.whole S4x128)
    (ReadAs.same.apply ((iSlab1 L).view.read (Elt F) fI)) [] y
  rw [Rect.emb_whole_apply, View.read_apply, hy] at hw
  refine lt_of_eq_of_lt (congrArg BitVec.toNat (?_ : _ = ReadAs.same.apply ((iSlab1 L).view.read (Elt F) fI) y)) (hI y)
  exact hw

theorem hin1_2 (fI : Buf (Elt F) ((iSlab1 L).view.loc (thr d L)))
    (hI : ∀ y : S4x128.Idx, ((iSlab1 L).view.read (Elt F) fI y).toNat < 100000) :
    ∀ (fs : Buf (Elt F) ((iv1).view.loc (thr d L))) (x : S128.Idx),
      ((ivr1_2).view.read (Elt F) ((iv1).view.writes (Elt F) fs
        [⟨Rect.whole S4x128, ReadAs.same.apply ((iSlab1 L).view.read (Elt F) fI)⟩]) x).toNat < 100000 := by
  intro fs x
  have hmem : (ivr1_2).view.emb x ∈ (iv1).view.set := by
    have h := (ivr1_2).view.emb_mem_set x
    rw [ivr1_2_set] at h
    rw [iv1_set, mem_planeBox]
    exact (mem_rowBox.mp h).1
  obtain ⟨y, -, hy⟩ := Finset.mem_map.mp hmem
  have hw := View.read_writes_cons_emb (iv1).view (Val := Elt F) fs (Rect.whole S4x128)
    (ReadAs.same.apply ((iSlab1 L).view.read (Elt F) fI)) [] y
  rw [Rect.emb_whole_apply, View.read_apply, hy] at hw
  refine lt_of_eq_of_lt (congrArg BitVec.toNat (?_ : _ = ReadAs.same.apply ((iSlab1 L).view.read (Elt F) fI) y)) (hI y)
  exact hw

theorem hin1_3 (fI : Buf (Elt F) ((iSlab1 L).view.loc (thr d L)))
    (hI : ∀ y : S4x128.Idx, ((iSlab1 L).view.read (Elt F) fI y).toNat < 100000) :
    ∀ (fs : Buf (Elt F) ((iv1).view.loc (thr d L))) (x : S128.Idx),
      ((ivr1_3).view.read (Elt F) ((iv1).view.writes (Elt F) fs
        [⟨Rect.whole S4x128, ReadAs.same.apply ((iSlab1 L).view.read (Elt F) fI)⟩]) x).toNat < 100000 := by
  intro fs x
  have hmem : (ivr1_3).view.emb x ∈ (iv1).view.set := by
    have h := (ivr1_3).view.emb_mem_set x
    rw [ivr1_3_set] at h
    rw [iv1_set, mem_planeBox]
    exact (mem_rowBox.mp h).1
  obtain ⟨y, -, hy⟩ := Finset.mem_map.mp hmem
  have hw := View.read_writes_cons_emb (iv1).view (Val := Elt F) fs (Rect.whole S4x128)
    (ReadAs.same.apply ((iSlab1 L).view.read (Elt F) fI)) [] y
  rw [Rect.emb_whole_apply, View.read_apply, hy] at hw
  refine lt_of_eq_of_lt (congrArg BitVec.toNat (?_ : _ = ReadAs.same.apply ((iSlab1 L).view.read (Elt F) fI) y)) (hI y)
  exact hw

theorem hin2_0 (fI : Buf (Elt F) ((iSlab2 L).view.loc (thr d L)))
    (hI : ∀ y : S4x128.Idx, ((iSlab2 L).view.read (Elt F) fI y).toNat < 100000) :
    ∀ (fs : Buf (Elt F) ((iv2).view.loc (thr d L))) (x : S128.Idx),
      ((ivr2_0).view.read (Elt F) ((iv2).view.writes (Elt F) fs
        [⟨Rect.whole S4x128, ReadAs.same.apply ((iSlab2 L).view.read (Elt F) fI)⟩]) x).toNat < 100000 := by
  intro fs x
  have hmem : (ivr2_0).view.emb x ∈ (iv2).view.set := by
    have h := (ivr2_0).view.emb_mem_set x
    rw [ivr2_0_set] at h
    rw [iv2_set, mem_planeBox]
    exact (mem_rowBox.mp h).1
  obtain ⟨y, -, hy⟩ := Finset.mem_map.mp hmem
  have hw := View.read_writes_cons_emb (iv2).view (Val := Elt F) fs (Rect.whole S4x128)
    (ReadAs.same.apply ((iSlab2 L).view.read (Elt F) fI)) [] y
  rw [Rect.emb_whole_apply, View.read_apply, hy] at hw
  refine lt_of_eq_of_lt (congrArg BitVec.toNat (?_ : _ = ReadAs.same.apply ((iSlab2 L).view.read (Elt F) fI) y)) (hI y)
  exact hw

theorem hin2_1 (fI : Buf (Elt F) ((iSlab2 L).view.loc (thr d L)))
    (hI : ∀ y : S4x128.Idx, ((iSlab2 L).view.read (Elt F) fI y).toNat < 100000) :
    ∀ (fs : Buf (Elt F) ((iv2).view.loc (thr d L))) (x : S128.Idx),
      ((ivr2_1).view.read (Elt F) ((iv2).view.writes (Elt F) fs
        [⟨Rect.whole S4x128, ReadAs.same.apply ((iSlab2 L).view.read (Elt F) fI)⟩]) x).toNat < 100000 := by
  intro fs x
  have hmem : (ivr2_1).view.emb x ∈ (iv2).view.set := by
    have h := (ivr2_1).view.emb_mem_set x
    rw [ivr2_1_set] at h
    rw [iv2_set, mem_planeBox]
    exact (mem_rowBox.mp h).1
  obtain ⟨y, -, hy⟩ := Finset.mem_map.mp hmem
  have hw := View.read_writes_cons_emb (iv2).view (Val := Elt F) fs (Rect.whole S4x128)
    (ReadAs.same.apply ((iSlab2 L).view.read (Elt F) fI)) [] y
  rw [Rect.emb_whole_apply, View.read_apply, hy] at hw
  refine lt_of_eq_of_lt (congrArg BitVec.toNat (?_ : _ = ReadAs.same.apply ((iSlab2 L).view.read (Elt F) fI) y)) (hI y)
  exact hw

theorem hin2_2 (fI : Buf (Elt F) ((iSlab2 L).view.loc (thr d L)))
    (hI : ∀ y : S4x128.Idx, ((iSlab2 L).view.read (Elt F) fI y).toNat < 100000) :
    ∀ (fs : Buf (Elt F) ((iv2).view.loc (thr d L))) (x : S128.Idx),
      ((ivr2_2).view.read (Elt F) ((iv2).view.writes (Elt F) fs
        [⟨Rect.whole S4x128, ReadAs.same.apply ((iSlab2 L).view.read (Elt F) fI)⟩]) x).toNat < 100000 := by
  intro fs x
  have hmem : (ivr2_2).view.emb x ∈ (iv2).view.set := by
    have h := (ivr2_2).view.emb_mem_set x
    rw [ivr2_2_set] at h
    rw [iv2_set, mem_planeBox]
    exact (mem_rowBox.mp h).1
  obtain ⟨y, -, hy⟩ := Finset.mem_map.mp hmem
  have hw := View.read_writes_cons_emb (iv2).view (Val := Elt F) fs (Rect.whole S4x128)
    (ReadAs.same.apply ((iSlab2 L).view.read (Elt F) fI)) [] y
  rw [Rect.emb_whole_apply, View.read_apply, hy] at hw
  refine lt_of_eq_of_lt (congrArg BitVec.toNat (?_ : _ = ReadAs.same.apply ((iSlab2 L).view.read (Elt F) fI) y)) (hI y)
  exact hw

theorem hin2_3 (fI : Buf (Elt F) ((iSlab2 L).view.loc (thr d L)))
    (hI : ∀ y : S4x128.Idx, ((iSlab2 L).view.read (Elt F) fI y).toNat < 100000) :
    ∀ (fs : Buf (Elt F) ((iv2).view.loc (thr d L))) (x : S128.Idx),
      ((ivr2_3).view.read (Elt F) ((iv2).view.writes (Elt F) fs
        [⟨Rect.whole S4x128, ReadAs.same.apply ((iSlab2 L).view.read (Elt F) fI)⟩]) x).toNat < 100000 := by
  intro fs x
  have hmem : (ivr2_3).view.emb x ∈ (iv2).view.set := by
    have h := (ivr2_3).view.emb_mem_set x
    rw [ivr2_3_set] at h
    rw [iv2_set, mem_planeBox]
    exact (mem_rowBox.mp h).1
  obtain ⟨y, -, hy⟩ := Finset.mem_map.mp hmem
  have hw := View.read_writes_cons_emb (iv2).view (Val := Elt F) fs (Rect.whole S4x128)
    (ReadAs.same.apply ((iSlab2 L).view.read (Elt F) fI)) [] y
  rw [Rect.emb_whole_apply, View.read_apply, hy] at hw
  refine lt_of_eq_of_lt (congrArg BitVec.toNat (?_ : _ = ReadAs.same.apply ((iSlab2 L).view.read (Elt F) fI) y)) (hI y)
  exact hw

end Cert.Proof.KI

end
-- ==== Proof.TaskRun.lean ====
/-
  The gather task, run.

  From its pieces — the three index slabs, read tokens of the three tables, the twelve output chunks, the three
  planes of the index scratch, the seven slots of the row scratch, its seventeen semaphores at zero — the task runs to
  its end and leaves them: slabs and tokens as they were, every written piece at some contents, every semaphore at
  zero again, every wait it recorded one on a semaphore of its own. A plane is taken apart into its rows when its slab
  has landed (the gathers read their offsets row by row) and put together at the end. Every offset read names a
  table row because every word of the slabs does.
-/
import proofs.«211833_g48473000902786_cont_8to1_c_597_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«211833_g48473000902786_cont_8to1_c_597_31_alg».proof.Proof.Gen.KernelIdeal
import proofs.«211833_g48473000902786_cont_8to1_c_597_31_alg».proof.Proof.Gen.KernelIdeal.Skeleton
import proofs.«211833_g48473000902786_cont_8to1_c_597_31_alg».proof.Proof.TaskViews
import proofs.«211833_g48473000902786_cont_8to1_c_597_31_alg».proof.Proof.TaskPieces
import proofs.«211833_g48473000902786_cont_8to1_c_597_31_alg».proof.Proof.TaskRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]
local notation "𝕄" => MT nD τ sig (HIx 1) (Elt F) ℕ UU ℕ
variable [FloatOps F] (𝒱₀ : Variants) (d : Dev nD) (L : grid0.Coords)

theorem waits_base {W : Waits sig (HIx 1)} : ∀ p ∈ W, p ∈ W ∨ p.2 = none := fun _ hp => .inl hp
theorem waits_step {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 16000000 in
theorem task_core (O : CellTallies nD τ sig (HIx 1)) (W : Waits sig (HIx 1)) (q : PosShare TreeShare)
    (fI0 : Buf (Elt F) ((iSlab0 L).view.loc (thr d L)))
    (fI1 : Buf (Elt F) ((iSlab1 L).view.loc (thr d L)))
    (fI2 : Buf (Elt F) ((iSlab2 L).view.loc (thr d L)))
    (fT0 : Buf (Elt F) ((tab0).view.loc (thr d L)))
    (fT1 : Buf (Elt F) ((tab1).view.loc (thr d L)))
    (fT2 : Buf (Elt F) ((tab2).view.loc (thr d L)))
    (fO0_0 : Buf (Elt F) ((oCh0_0 L).view.loc (thr d L)))
    (fO0_1 : Buf (Elt F) ((oCh0_1 L).view.loc (thr d L)))
    (fO0_2 : Buf (Elt F) ((oCh0_2 L).view.loc (thr d L)))
    (fO0_3 : Buf (Elt F) ((oCh0_3 L).view.loc (thr d L)))
    (fO1_0 : Buf (Elt F) ((oCh1_0 L).view.loc (thr d L)))
    (fO1_1 : Buf (Elt F) ((oCh1_1 L).view.loc (thr d L)))
    (fO1_2 : Buf (Elt F) ((oCh1_2 L).view.loc (thr d L)))
    (fO1_3 : Buf (Elt F) ((oCh1_3 L).view.loc (thr d L)))
    (fO2_0 : Buf (Elt F) ((oCh2_0 L).view.loc (thr d L)))
    (fO2_1 : Buf (Elt F) ((oCh2_1 L).view.loc (thr d L)))
    (fO2_2 : Buf (Elt F) ((oCh2_2 L).view.loc (thr d L)))
    (fO2_3 : Buf (Elt F) ((oCh2_3 L).view.loc (thr d L)))
    (fV0 : Buf (Elt F) ((iv0).view.loc (thr d L)))
    (fV1 : Buf (Elt F) ((iv1).view.loc (thr d L)))
    (fV2 : Buf (Elt F) ((iv2).view.loc (thr d L)))
    (fS0 : Buf (Elt F) ((slot0).view.loc (thr d L)))
    (fS1 : Buf (Elt F) ((slot1).view.loc (thr d L)))
    (fS2 : Buf (Elt F) ((slot2).view.loc (thr d L)))
    (fS3 : Buf (Elt F) ((slot3).view.loc (thr d L)))
    (fS4 : Buf (Elt F) ((slot4).view.loc (thr d L)))
    (fS5 : Buf (Elt F) ((slot5).view.loc (thr d L)))
    (fS6 : Buf (Elt F) ((slot6).view.loc (thr d L)))
    (hI0 : ∀ y : S4x128.Idx, ((iSlab0 L).view.read (Elt F) fI0 y).toNat < 100000)
    (hI1 : ∀ y : S4x128.Idx, ((iSlab1 L).view.read (Elt F) fI1 y).toNat < 100000)
    (hI2 : ∀ y : S4x128.Idx, ((iSlab2 L).view.read (Elt F) fI2 y).toNat < 100000) :
    (iprop(Transfers.MayWaits (thr d L) (default : HIx 1) O
      ∗ ((iSlab0 L).view.loc (thr d L) ↦[(iSlab0 L).view.set]{fullShare} fI0)
      ∗ ((iSlab1 L).view.loc (thr d L) ↦[(iSlab1 L).view.set]{fullShare} fI1)
      ∗ ((iSlab2 L).view.loc (thr d L) ↦[(iSlab2 L).view.set]{fullShare} fI2)
      ∗ ((tab0).view.loc (thr d L) ↦{Transfers.shareTok q 10 (3 : Fin 10)} fT0)
      ∗ ((tab0).view.loc (thr d L) ↦{Transfers.shareTok q 10 (4 : Fin 10)} fT0)
      ∗ ((tab0).view.loc (thr d L) ↦{Transfers.shareTok q 10 (5 : Fin 10)} fT0)
      ∗ ((tab0).view.loc (thr d L) ↦{Transfers.shareTok q 10 (6 : Fin 10)} fT0)
      ∗ ((tab1).view.loc (thr d L) ↦{Transfers.shareTok q 10 (7 : Fin 10)} fT1)
      ∗ ((tab1).view.loc (thr d L) ↦{Transfers.shareTok q 10 (8 : Fin 10)} fT1)
      ∗ ((tab1).view.loc (thr d L) ↦{Transfers.shareTok q 10 (9 : Fin 10)} fT1)
      ∗ ((tab1).view.loc (thr d L) ↦{Transfers.shareTok q 10 (3 : Fin 10)} fT1)
      ∗ ((tab2).view.loc (thr d L) ↦{Transfers.shareTok q 10 (4 : Fin 10)} fT2)
      ∗ ((tab2).view.loc (thr d L) ↦{Transfers.shareTok q 10 (5 : Fin 10)} fT2)
      ∗ ((tab2).view.loc (thr d L) ↦{Transfers.shareTok q 10 (6 : Fin 10)} fT2)
      ∗ ((tab2).view.loc (thr d L) ↦{Transfers.shareTok q 10 (7 : Fin 10)} fT2)
      ∗ ((oCh0_0 L).view.loc (thr d L) ↦[(oCh0_0 L).view.set]{fullShare} fO0_0)
      ∗ ((oCh0_1 L).view.loc (thr d L) ↦[(oCh0_1 L).view.set]{fullShare} fO0_1)
      ∗ ((oCh0_2 L).view.loc (thr d L) ↦[(oCh0_2 L).view.set]{fullShare} fO0_2)
      ∗ ((oCh0_3 L).view.loc (thr d L) ↦[(oCh0_3 L).view.set]{fullShare} fO0_3)
      ∗ ((oCh1_0 L).view.loc (thr d L) ↦[(oCh1_0 L).view.set]{fullShare} fO1_0)
      ∗ ((oCh1_1 L).view.loc (thr d L) ↦[(oCh1_1 L).view.set]{fullShare} fO1_1)
      ∗ ((oCh1_2 L).view.loc (thr d L) ↦[(oCh1_2 L).view.set]{fullShare} fO1_2)
      ∗ ((oCh1_3 L).view.loc (thr d L) ↦[(oCh1_3 L).view.set]{fullShare} fO1_3)
      ∗ ((oCh2_0 L).view.loc (thr d L) ↦[(oCh2_0 L).view.set]{fullShare} fO2_0)
      ∗ ((oCh2_1 L).view.loc (thr d L) ↦[(oCh2_1 L).view.set]{fullShare} fO2_1)
      ∗ ((oCh2_2 L).view.loc (thr d L) ↦[(oCh2_2 L).view.set]{fullShare} fO2_2)
      ∗ ((oCh2_3 L).view.loc (thr d L) ↦[(oCh2_3 L).view.set]{fullShare} fO2_3)
      ∗ ((iv0).view.loc (thr d L) ↦[(iv0).view.set]{fullShare} fV0)
      ∗ ((iv1).view.loc (thr d L) ↦[(iv1).view.set]{fullShare} fV1)
      ∗ ((iv2).view.loc (thr d L) ↦[(iv2).view.set]{fullShare} fV2)
      ∗ ((slot0).view.loc (thr d L) ↦[(slot0).view.set]{fullShare} fS0)
      ∗ ((slot1).view.loc (thr d L) ↦[(slot1).view.set]{fullShare} fS1)
      ∗ ((slot2).view.loc (thr d L) ↦[(slot2).view.set]{fullShare} fS2)
      ∗ ((slot3).view.loc (thr d L) ↦[(slot3).view.set]{fullShare} fS3)
      ∗ ((slot4).view.loc (thr d L) ↦[(slot4).view.set]{fullShare} fS4)
      ∗ ((slot5).view.loc (thr d L) ↦[(slot5).view.set]{fullShare} fS5)
      ∗ ((slot6).view.loc (thr d L) ↦[(slot6).view.set]{fullShare} fS6)
      ∗ semVal (thr d L, SemLoc.dma isem0) 0
      ∗ semVal (thr d L, SemLoc.dma isem1) 0
      ∗ semVal (thr d L, SemLoc.dma isem2) 0
      ∗ semVal (thr d L, SemLoc.dma gsem0) 0
      ∗ semVal (thr d L, SemLoc.dma gsem1) 0
      ∗ semVal (thr d L, SemLoc.dma gsem2) 0
      ∗ semVal (thr d L, SemLoc.dma gsem3) 0
      ∗ semVal (thr d L, SemLoc.dma gsem4) 0
      ∗ semVal (thr d L, SemLoc.dma gsem5) 0
      ∗ semVal (thr d L, SemLoc.dma gsem6) 0
      ∗ semVal (thr d L, SemLoc.dma wsem0) 0
      ∗ semVal (thr d L, SemLoc.dma wsem1) 0
      ∗ semVal (thr d L, SemLoc.dma wsem2) 0
      ∗ semVal (thr d L, SemLoc.dma wsem3) 0
      ∗ semVal (thr d L, SemLoc.dma wsem4) 0
      ∗ semVal (thr d L, SemLoc.dma wsem5) 0
      ∗ semVal (thr d L, SemLoc.dma wsem6) 0
      ∗ owes (thr d L) O W) : sProp 𝕄)
      ⊢ wp frame (wpE (defs₀ (F := F)) 𝒱₀ (thr d L) none) Set.univ
          (cc0_k L (Memref.whole main_v0_scv) (Memref.isWhole_whole _) (Memref.whole main_v1_scv) (Memref.isWhole_whole _) (Memref.whole main_v2_scv) (Memref.isWhole_whole _) (Memref.whole main_v4_scv) (Memref.isWhole_whole _) (Memref.whole main_v6_scv) (Memref.isWhole_whole _) (Memref.whole main_v8_scv) (Memref.isWhole_whole _) (Memref.whole main_v9_0_scv) (Memref.isWhole_whole _) (Memref.whole main_v9_1_scv) (Memref.isWhole_whole _) (Memref.whole main_v9_2_scv) (Memref.isWhole_whole _) (Memref.whole cc0_scratch0) (Memref.isWhole_whole _) (Memref.whole cc0_scratch1) (Memref.isWhole_whole _) cc0_scratch2 cc0_scratch3 cc0_scratch4)
          fun _ => iprop(((iSlab0 L).view.loc (thr d L) ↦[(iSlab0 L).view.set]{fullShare} fI0)
            ∗ ((iSlab1 L).view.loc (thr d L) ↦[(iSlab1 L).view.set]{fullShare} fI1)
            ∗ ((iSlab2 L).view.loc (thr d L) ↦[(iSlab2 L).view.set]{fullShare} fI2)
            ∗ ((tab0).view.loc (thr d L) ↦{Transfers.shareTok q 10 (3 : Fin 10)} fT0)
            ∗ ((tab0).view.loc (thr d L) ↦{Transfers.shareTok q 10 (4 : Fin 10)} fT0)
            ∗ ((tab0).view.loc (thr d L) ↦{Transfers.shareTok q 10 (5 : Fin 10)} fT0)
            ∗ ((tab0).view.loc (thr d L) ↦{Transfers.shareTok q 10 (6 : Fin 10)} fT0)
            ∗ ((tab1).view.loc (thr d L) ↦{Transfers.shareTok q 10 (7 : Fin 10)} fT1)
            ∗ ((tab1).view.loc (thr d L) ↦{Transfers.shareTok q 10 (8 : Fin 10)} fT1)
            ∗ ((tab1).view.loc (thr d L) ↦{Transfers.shareTok q 10 (9 : Fin 10)} fT1)
            ∗ ((tab1).view.loc (thr d L) ↦{Transfers.shareTok q 10 (3 : Fin 10)} fT1)
            ∗ ((tab2).view.loc (thr d L) ↦{Transfers.shareTok q 10 (4 : Fin 10)} fT2)
            ∗ ((tab2).view.loc (thr d L) ↦{Transfers.shareTok q 10 (5 : Fin 10)} fT2)
            ∗ ((tab2).view.loc (thr d L) ↦{Transfers.shareTok q 10 (6 : Fin 10)} fT2)
            ∗ ((tab2).view.loc (thr d L) ↦{Transfers.shareTok q 10 (7 : Fin 10)} fT2)
            ∗ (∃ f, (oCh0_0 L).view.loc (thr d L) ↦[(oCh0_0 L).view.set]{fullShare} f)
            ∗ (∃ f, (oCh0_1 L).view.loc (thr d L) ↦[(oCh0_1 L).view.set]{fullShare} f)
            ∗ (∃ f, (oCh0_2 L).view.loc (thr d L) ↦[(oCh0_2 L).view.set]{fullShare} f)
            ∗ (∃ f, (oCh0_3 L).view.loc (thr d L) ↦[(oCh0_3 L).view.set]{fullShare} f)
            ∗ (∃ f, (oCh1_0 L).view.loc (thr d L) ↦[(oCh1_0 L).view.set]{fullShare} f)
            ∗ (∃ f, (oCh1_1 L).view.loc (thr d L) ↦[(oCh1_1 L).view.set]{fullShare} f)
            ∗ (∃ f, (oCh1_2 L).view.loc (thr d L) ↦[(oCh1_2 L).view.set]{fullShare} f)
            ∗ (∃ f, (oCh1_3 L).view.loc (thr d L) ↦[(oCh1_3 L).view.set]{fullShare} f)
            ∗ (∃ f, (oCh2_0 L).view.loc (thr d L) ↦[(oCh2_0 L).view.set]{fullShare} f)
            ∗ (∃ f, (oCh2_1 L).view.loc (thr d L) ↦[(oCh2_1 L).view.set]{fullShare} f)
            ∗ (∃ f, (oCh2_2 L).view.loc (thr d L) ↦[(oCh2_2 L).view.set]{fullShare} f)
            ∗ (∃ f, (oCh2_3 L).view.loc (thr d L) ↦[(oCh2_3 L).view.set]{fullShare} f)
            ∗ (∃ f, (iv0).view.loc (thr d L) ↦[(iv0).view.set]{fullShare} f)
            ∗ (∃ f, (iv1).view.loc (thr d L) ↦[(iv1).view.set]{fullShare} f)
            ∗ (∃ f, (iv2).view.loc (thr d L) ↦[(iv2).view.set]{fullShare} f)
            ∗ (∃ f, (slot0).view.loc (thr d L) ↦[(slot0).view.set]{fullShare} f)
            ∗ (∃ f, (slot1).view.loc (thr d L) ↦[(slot1).view.set]{fullShare} f)
            ∗ (∃ f, (slot2).view.loc (thr d L) ↦[(slot2).view.set]{fullShare} f)
            ∗ (∃ f, (slot3).view.loc (thr d L) ↦[(slot3).view.set]{fullShare} f)
            ∗ (∃ f, (slot4).view.loc (thr d L) ↦[(slot4).view.set]{fullShare} f)
            ∗ (∃ f, (slot5).view.loc (thr d L) ↦[(slot5).view.set]{fullShare} f)
            ∗ (∃ f, (slot6).view.loc (thr d L) ↦[(slot6).view.set]{fullShare} f)
            ∗ semVal (thr d L, SemLoc.dma isem0) 0
            ∗ semVal (thr d L, SemLoc.dma isem1) 0
            ∗ semVal (thr d L, SemLoc.dma isem2) 0
            ∗ semVal (thr d L, SemLoc.dma gsem0) 0
            ∗ semVal (thr d L, SemLoc.dma gsem1) 0
            ∗ semVal (thr d L, SemLoc.dma gsem2) 0
            ∗ semVal (thr d L, SemLoc.dma gsem3) 0
            ∗ semVal (thr d L, SemLoc.dma gsem4) 0
            ∗ semVal (thr d L, SemLoc.dma gsem5) 0
            ∗ semVal (thr d L, SemLoc.dma gsem6) 0
            ∗ semVal (thr d L, SemLoc.dma wsem0) 0
            ∗ semVal (thr d L, SemLoc.dma wsem1) 0
            ∗ semVal (thr d L, SemLoc.dma wsem2) 0
            ∗ semVal (thr d L, SemLoc.dma wsem3) 0
            ∗ semVal (thr d L, SemLoc.dma wsem4) 0
            ∗ semVal (thr d L, SemLoc.dma wsem5) 0
            ∗ semVal (thr d L, SemLoc.dma wsem6) 0
            ∗ ∃ W', ⌜∀ p ∈ W', p ∈ W ∨ p.2 = none⌝ ∗ owes (thr d L) O W') := by
  have hin0_0 := hin0_0 (F := F) d L fI0 hI0
  have hin0_1 := hin0_1 (F := F) d L fI0 hI0
  have hin0_2 := hin0_2 (F := F) d L fI0 hI0
  have hin0_3 := hin0_3 (F := F) d L fI0 hI0
  have hin1_0 := hin1_0 (F := F) d L fI1 hI1
  have hin1_1 := hin1_1 (F := F) d L fI1 hI1
  have hin1_2 := hin1_2 (F := F) d L fI1 hI1
  have hin1_3 := hin1_3 (F := F) d L fI1 hI1
  have hin2_0 := hin2_0 (F := F) d L fI2 hI2
  have hin2_1 := hin2_1 (F := F) d L fI2 hI2
  have hin2_2 := hin2_2 (F := F) d L fI2 hI2
  have hin2_3 := hin2_3 (F := F) d L fI2 hI2
  iintro ⟨#Hmw, Hi0, Hi1, Hi2, Ht0_0, Ht0_1, Ht0_2, Ht0_3, Ht1_4, Ht1_5, Ht1_6, Ht1_0, Ht2_1, Ht2_2, Ht2_3, Ht2_4, Ho0_0, Ho0_1, Ho0_2, Ho0_3, Ho1_0, Ho1_1, Ho1_2, Ho1_3, Ho2_0, Ho2_1, Ho2_2, Ho2_3, Hv0, Hv1, Hv2, Hs0, Hs1, Hs2, Hs3, Hs4, Hs5, Hs6, Hc_i0, Hc_i1, Hc_i2, Hc_g0, Hc_g1, Hc_g2, Hc_g3, Hc_g4, Hc_g5, Hc_g6, Hc_w0, Hc_w1, Hc_w2, Hc_w3, Hc_w4, Hc_w5, Hc_w6, HO⟩
  sl_exec_parts
  ihave Hrows := (plane0_split (F := F) (UU := UU) d L _) $$ Hv0
  icases Hrows with ⟨Hr0_0, Hr0_1, Hr0_2, Hr0_3⟩
  generalize hg0 : (iv0).view.writes (Elt F) fV0 _ = g0 at *
  have hin0_0' : ∀ x, (((ivr0_0).view.read (Elt F) g0) x).toNat < 100000 := hg0 ▸ hin0_0 fV0
  have hin0_1' : ∀ x, (((ivr0_1).view.read (Elt F) g0) x).toNat < 100000 := hg0 ▸ hin0_1 fV0
  have hin0_2' : ∀ x, (((ivr0_2).view.read (Elt F) g0) x).toNat < 100000 := hg0 ▸ hin0_2 fV0
  have hin0_3' : ∀ x, (((ivr0_3).view.read (Elt F) g0) x).toNat < 100000 := hg0 ▸ hin0_3 fV0
  sl_exec_parts
  ihave Hrows := (plane1_split (F := F) (UU := UU) d L _) $$ Hv1
  icases Hrows with ⟨Hr1_0, Hr1_1, Hr1_2, Hr1_3⟩
  generalize hg1 : (iv1).view.writes (Elt F) fV1 _ = g1 at *
  have hin1_0' : ∀ x, (((ivr1_0).view.read (Elt F) g1) x).toNat < 100000 := hg1 ▸ hin1_0 fV1
  have hin1_1' : ∀ x, (((ivr1_1).view.read (Elt F) g1) x).toNat < 100000 := hg1 ▸ hin1_1 fV1
  have hin1_2' : ∀ x, (((ivr1_2).view.read (Elt F) g1) x).toNat < 100000 := hg1 ▸ hin1_2 fV1
  have hin1_3' : ∀ x, (((ivr1_3).view.read (Elt F) g1) x).toNat < 100000 := hg1 ▸ hin1_3 fV1
  sl_exec_parts
  ihave Hrows := (plane2_split (F := F) (UU := UU) d L _) $$ Hv2
  icases Hrows with ⟨Hr2_0, Hr2_1, Hr2_2, Hr2_3⟩
  generalize hg2 : (iv2).view.writes (Elt F) fV2 _ = g2 at *
  have hin2_0' : ∀ x, (((ivr2_0).view.read (Elt F) g2) x).toNat < 100000 := hg2 ▸ hin2_0 fV2
  have hin2_1' : ∀ x, (((ivr2_1).view.read (Elt F) g2) x).toNat < 100000 := hg2 ▸ hin2_1 fV2
  have hin2_2' : ∀ x, (((ivr2_2).view.read (Elt F) g2) x).toNat < 100000 := hg2 ▸ hin2_2 fV2
  have hin2_3' : ∀ x, (((ivr2_3).view.read (Elt F) g2) x).toNat < 100000 := hg2 ▸ hin2_3 fV2
  sl_exec_parts
  sl_step
  ihave Hp0 := (plane0_join (F := F) (UU := UU) d L _) $$ [Hr0_0 Hr0_1 Hr0_2 Hr0_3]
  · isplitl [Hr0_0]; · iexact Hr0_0
    isplitl [Hr0_1]; · iexact Hr0_1
    isplitl [Hr0_2]; · iexact Hr0_2
    iexact Hr0_3
  ihave Hp1 := (plane1_join (F := F) (UU := UU) d L _) $$ [Hr1_0 Hr1_1 Hr1_2 Hr1_3]
  · isplitl [Hr1_0]; · iexact Hr1_0
    isplitl [Hr1_1]; · iexact Hr1_1
    isplitl [Hr1_2]; · iexact Hr1_2
    iexact Hr1_3
  ihave Hp2 := (plane2_join (F := F) (UU := UU) d L _) $$ [Hr2_0 Hr2_1 Hr2_2 Hr2_3]
  · isplitl [Hr2_0]; · iexact Hr2_0
    isplitl [Hr2_1]; · iexact Hr2_1
    isplitl [Hr2_2]; · iexact Hr2_2
    iexact Hr2_3
  isplitl [Hi0]; · iexact Hi0
  isplitl [Hi1]; · iexact Hi1
  isplitl [Hi2]; · iexact Hi2
  isplitl [Ht0_0]; · iexact Ht0_0
  isplitl [Ht0_1]; · iexact Ht0_1
  isplitl [Ht0_2]; · iexact Ht0_2
  isplitl [Ht0_3]; · iexact Ht0_3
  isplitl [Ht1_4]; · iexact Ht1_4
  isplitl [Ht1_5]; · iexact Ht1_5
  isplitl [Ht1_6]; · iexact Ht1_6
  isplitl [Ht1_0]; · iexact Ht1_0
  isplitl [Ht2_1]; · iexact Ht2_1
  isplitl [Ht2_2]; · iexact Ht2_2
  isplitl [Ht2_3]; · iexact Ht2_3
  isplitl [Ht2_4]; · iexact Ht2_4
  isplitl [Ho0_0]; · iexists _; iexact Ho0_0
  isplitl [Ho0_1]; · iexists _; iexact Ho0_1
  isplitl [Ho0_2]; · iexists _; iexact Ho0_2
  isplitl [Ho0_3]; · iexists _; iexact Ho0_3
  isplitl [Ho1_0]; · iexists _; iexact Ho1_0
  isplitl [Ho1_1]; · iexists _; iexact Ho1_1
  isplitl [Ho1_2]; · iexists _; iexact Ho1_2
  isplitl [Ho1_3]; · iexists _; iexact Ho1_3
  isplitl [Ho2_0]; · iexists _; iexact Ho2_0
  isplitl [Ho2_1]; · iexists _; iexact Ho2_1
  isplitl [Ho2_2]; · iexists _; iexact Ho2_2
  isplitl [Ho2_3]; · iexists _; iexact Ho2_3
  isplitl [Hp0]; · iexists _; iexact Hp0
  isplitl [Hp1]; · iexists _; iexact Hp1
  isplitl [Hp2]; · iexists _; iexact Hp2
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hc_i0]; · iexact Hc_i0
  isplitl [Hc_i1]; · iexact Hc_i1
  isplitl [Hc_i2]; · iexact Hc_i2
  isplitl [Hc_g0]; · iexact Hc_g0
  isplitl [Hc_g1]; · iexact Hc_g1
  isplitl [Hc_g2]; · iexact Hc_g2
  isplitl [Hc_g3]; · iexact Hc_g3
  isplitl [Hc_g4]; · iexact Hc_g4
  isplitl [Hc_g5]; · iexact Hc_g5
  isplitl [Hc_g6]; · iexact Hc_g6
  isplitl [Hc_w0]; · iexact Hc_w0
  isplitl [Hc_w1]; · iexact Hc_w1
  isplitl [Hc_w2]; · iexact Hc_w2
  isplitl [Hc_w3]; · iexact Hc_w3
  isplitl [Hc_w4]; · iexact Hc_w4
  isplitl [Hc_w5]; · iexact Hc_w5
  isplitl [Hc_w6]; · iexact Hc_w6
  iexists _; isplitr
  swap; · iexact HO
  ipureintro
  repeat' (first | exact waits_base | apply waits_step)

end Cert.Proof.KI

end
-- ==== Proof.TaskOwn.lean ====
/-
  A vector subcore's own storage, taken apart as the gather task uses it.

  Between calls a vector subcore's scoped semaphores all read zero and its scoped buffers hold something. The task uses
  seventeen of the semaphores — one per index plane, one per slot for the gathers, one per slot for the write-outs —
  and two buffers: the index scratch, as three planes, and the row scratch, as seven slots.
-/
import proofs.«211833_g48473000902786_cont_8to1_c_597_31_alg».proof.Proof.TaskViews
import proofs.«211833_g48473000902786_cont_8to1_c_597_31_alg».proof.Proof.TaskPieces
import Idealize.ShloMosaic.Lib.Pipeline.Kit

noncomputable section

namespace Cert.Proof.KI

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} {UU : Type} [URA UU]

local notation "𝕄" => MT nD τ sig (HIx 1) (Elt F) ℕ UU ℕ

variable (d : Dev nD) (L : grid0.Coords)

/-- A DMA semaphore of the task's vector subcore, as a cell. -/
abbrev cell (d : Dev nD) (L : grid0.Coords) (sm : DmaSem sig) : GSem nD τ sig := (thr d L, SemLoc.dma sm)

theorem cell_ne {a b : DmaSem sig} (h : a ≠ b) : cell d L a ≠ cell d L b :=
  fun e => h (SemLoc.dma.inj (Prod.mk.inj e).2)

theorem cell_mem {a : DmaSem sig} (h : (SemLoc.dma a : SemLoc sig).isScoped .scVector = true) : cell d L a ∈ ownCells (thr d L) :=
  mem_ownCells.mpr ⟨rfl, h⟩
theorem own_mem0 : cell d L isem0 ∈ (ownCells (thr d L)) :=
  cell_mem d L (a := isem0) (by decide)
theorem own_mem1 : cell d L isem1 ∈ ((ownCells (thr d L)).erase (cell d L isem0)) :=
  Finset.mem_erase.mpr ⟨cell_ne d L (a := isem1) (b := isem0) (by decide), cell_mem d L (a := isem1) (by decide)⟩
theorem own_mem2 : cell d L isem2 ∈ (((ownCells (thr d L)).erase (cell d L isem0)).erase (cell d L isem1)) :=
  Finset.mem_erase.mpr ⟨cell_ne d L (a := isem2) (b := isem1) (by decide), Finset.mem_erase.mpr ⟨cell_ne d L (a := isem2) (b := isem0) (by decide), cell_mem d L (a := isem2) (by decide)⟩⟩
theorem own_mem3 : cell d L gsem0 ∈ ((((ownCells (thr d L)).erase (cell d L isem0)).erase (cell d L isem1)).erase (cell d L isem2)) :=
  Finset.mem_erase.mpr ⟨cell_ne d L (a := gsem0) (b := isem2) (by decide), Finset.mem_erase.mpr ⟨cell_ne d L (a := gsem0) (b := isem1) (by decide), Finset.mem_erase.mpr ⟨cell_ne d L (a := gsem0) (b := isem0) (by decide), cell_mem d L (a := gsem0) (by decide)⟩⟩⟩
theorem own_mem4 : cell d L gsem1 ∈ (((((ownCells (thr d L)).erase (cell d L isem0)).erase (cell d L isem1)).erase (cell d L isem2)).erase (cell d L gsem0)) :=
  Finset.mem_erase.mpr ⟨cell_ne d L (a := gsem1) (b := gsem0) (by decide), Finset.mem_erase.mpr ⟨cell_ne d L (a := gsem1) (b := isem2) (by decide), Finset.mem_erase.mpr ⟨cell_ne d L (a := gsem1) (b := isem1) (by decide), Finset.mem_erase.mpr ⟨cell_ne d L (a := gsem1) (b := isem0) (by decide), cell_mem d L (a := gsem1) (by decide)⟩⟩⟩⟩
theorem own_mem5 : cell d L gsem2 ∈ ((((((ownCells (thr d L)).erase (cell d L isem0)).erase (cell d L isem1)).erase (cell d L isem2)).erase (cell d L gsem0)).erase (cell d L gsem1)) :=
  Finset.mem_erase.mpr ⟨cell_ne d L (a := gsem2) (b := gsem1) (by decide), Finset.mem_erase.mpr ⟨cell_ne d L (a := gsem2) (b := gsem0) (by decide), Finset.mem_erase.mpr ⟨cell_ne d L (a := gsem2) (b := isem2) (by decide), Finset.mem_erase.mpr ⟨cell_ne d L (a := gsem2) (b := isem1) (by decide), Finset.mem_erase.mpr ⟨cell_ne d L (a := gsem2) (b := isem0) (by decide), cell_mem d L (a := gsem2) (by decide)⟩⟩⟩⟩⟩
theorem own_mem6 : cell d L gsem3 ∈ (((((((ownCells (thr d L)).erase (cell d L isem0)).erase (cell d L isem1)).erase (cell d L isem2)).erase (cell d L gsem0)).erase (cell d L gsem1)).erase (cell d L gsem2)) :=
  Finset.mem_erase.mpr ⟨cell_ne d L (a := gsem3) (b := gsem2) (by decide), Finset.mem_erase.mpr ⟨cell_ne d L (a := gsem3) (b := gsem1) (by decide), Finset.mem_erase.mpr ⟨cell_ne d L (a := gsem3) (b := gsem0) (by decide), Finset.mem_erase.mpr ⟨cell_ne d L (a := gsem3) (b := isem2) (by decide), Finset.mem_erase.mpr ⟨cell_ne d L (a := gsem3) (b := isem1) (by decide), Finset.mem_erase.mpr ⟨cell_ne d L (a := gsem3) (b := isem0) (by decide), cell_mem d L (a := gsem3) (by decide)⟩⟩⟩⟩⟩⟩
theorem own_mem7 : cell d L gsem4 ∈ ((((((((ownCells (thr d L)).erase (cell d L isem0)).erase (cell d L isem1)).erase (cell d L isem2)).erase (cell d L gsem0)).erase (cell d L gsem1)).erase (cell d L gsem2)).erase (cell d L gsem3)) :=
  Finset.mem_erase.mpr ⟨cell_ne d L (a := gsem4) (b := gsem3) (by decide), Finset.mem_erase.mpr ⟨cell_ne d L (a := gsem4) (b := gsem2) (by decide), Finset.mem_erase.mpr ⟨cell_ne d L (a := gsem4) (b := gsem1) (by decide), Finset.mem_erase.mpr ⟨cell_ne d L (a := gsem4) (b := gsem0) (by decide), Finset.mem_erase.mpr ⟨cell_ne d L (a := gsem4) (b := isem2) (by decide), Finset.mem_erase.mpr ⟨cell_ne d L (a := gsem4) (b := isem1) (by decide), Finset.mem_erase.mpr ⟨cell_ne d L (a := gsem4) (b := isem0) (by decide), cell_mem d L (a := gsem4) (by decide)⟩⟩⟩⟩⟩⟩⟩
theorem own_mem8 : cell d L gsem5 ∈ (((((((((ownCells (thr d L)).erase (cell d L isem0)).erase (cell d L isem1)).erase (cell d L isem2)).erase (cell d L gsem0)).erase (cell d L gsem1)).erase (cell d L gsem2)).erase (cell d L gsem3)).erase (cell d L gsem4)) :=
  Finset.mem_erase.mpr ⟨cell_ne d L (a := gsem5) (b := gsem4) (by decide), Finset.mem_erase.mpr ⟨cell_ne d L (a := gsem5) (b := gsem3) (by decide), Finset.mem_erase.mpr ⟨cell_ne d L (a := gsem5) (b := gsem2) (by decide), Finset.mem_erase.mpr ⟨cell_ne d L (a := gsem5) (b := gsem1) (by decide), Finset.mem_erase.mpr ⟨cell_ne d L (a := gsem5) (b := gsem0) (by decide), Finset.mem_erase.mpr ⟨cell_ne d L (a := gsem5) (b := isem2) (by decide), Finset.mem_erase.mpr ⟨cell_ne d L (a := gsem5) (b := isem1) (by decide), Finset.mem_erase.mpr ⟨cell_ne d L (a := gsem5) (b := isem0) (by decide), cell_mem d L (a := gsem5) (by decide)⟩⟩⟩⟩⟩⟩⟩⟩
theorem own_mem9 : cell d L gsem6 ∈ ((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)) :=
  Finset.mem_erase.mpr ⟨cell_ne d L (a := gsem6) (b := gsem5) (by decide), Finset.mem_erase.mpr ⟨cell_ne d L (a := gsem6) (b := gsem4) (by decide), Finset.mem_erase.mpr ⟨cell_ne d L (a := gsem6) (b := gsem3) (by decide), Finset.mem_erase.mpr ⟨cell_ne d L (a := gsem6) (b := gsem2) (by decide), Finset.mem_erase.mpr ⟨cell_ne d L (a := gsem6) (b := gsem1) (by decide), Finset.mem_erase.mpr ⟨cell_ne d L (a := gsem6) (b := gsem0) (by decide), Finset.mem_erase.mpr ⟨cell_ne d L (a := gsem6) (b := isem2) (by decide), Finset.mem_erase.mpr ⟨cell_ne d L (a := gsem6) (b := isem1) (by decide), Finset.mem_erase.mpr ⟨cell_ne d L (a := gsem6) (b := isem0) (by decide), cell_mem d L (a := gsem6) (by decide)⟩⟩⟩⟩⟩⟩⟩⟩⟩
theorem own_mem10 : cell d L wsem0 ∈ (((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)) :=
  Finset.mem_erase.mpr ⟨cell_ne d L (a := wsem0) (b := gsem6) (by decide), Finset.mem_erase.mpr ⟨cell_ne d L (a := wsem0) (b := gsem5) (by decide), Finset.mem_erase.mpr ⟨cell_ne d L (a := wsem0) (b := gsem4) (by decide), Finset.mem_erase.mpr ⟨cell_ne d L (a := wsem0) (b := gsem3) (by decide), Finset.mem_erase.mpr ⟨cell_ne d L (a := wsem0) (b := gsem2) (by decide), Finset.mem_erase.mpr ⟨cell_ne d L (a := wsem0) (b := gsem1) (by decide), Finset.mem_erase.mpr ⟨cell_ne d L (a := wsem0) (b := gsem0) (by decide), Finset.mem_erase.mpr ⟨cell_ne d L (a := wsem0) (b := isem2) (by decide), Finset.mem_erase.mpr ⟨cell_ne d L (a := wsem0) (b := isem1) (by decide), Finset.mem_erase.mpr ⟨cell_ne d L (a := wsem0) (b := isem0) (by decide), cell_mem d L (a := wsem0) (by decide)⟩⟩⟩⟩⟩⟩⟩⟩⟩⟩
theorem own_mem11 : cell d L wsem1 ∈ ((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)) :=
  Finset.mem_erase.mpr ⟨cell_ne d L (a := wsem1) (b := wsem0) (by decide), Finset.mem_erase.mpr ⟨cell_ne d L (a := wsem1) (b := gsem6) (by decide), Finset.mem_erase.mpr ⟨cell_ne d L (a := wsem1) (b := gsem5) (by decide), Finset.mem_erase.mpr ⟨cell_ne d L (a := wsem1) (b := gsem4) (by decide), Finset.mem_erase.mpr ⟨cell_ne d L (a := wsem1) (b := gsem3) (by decide), Finset.mem_erase.mpr ⟨cell_ne d L (a := wsem1) (b := gsem2) (by decide), Finset.mem_erase.mpr ⟨cell_ne d L (a := wsem1) (b := gsem1) (by decide), Finset.mem_erase.mpr ⟨cell_ne d L (a := wsem1) (b := gsem0) (by decide), Finset.mem_erase.mpr ⟨cell_ne d L (a := wsem1) (b := isem2) (by decide), Finset.mem_erase.mpr ⟨cell_ne d L (a := wsem1) (b := isem1) (by decide), Finset.mem_erase.mpr ⟨cell_ne d L (a := wsem1) (b := isem0) (by decide), cell_mem d L (a := wsem1) (by decide)⟩⟩⟩⟩⟩⟩⟩⟩⟩⟩⟩
theorem own_mem12 : cell d L wsem2 ∈ (((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)) :=
  Finset.mem_erase.mpr ⟨cell_ne d L (a := wsem2) (b := wsem1) (by decide), Finset.mem_erase.mpr ⟨cell_ne d L (a := wsem2) (b := wsem0) (by decide), Finset.mem_erase.mpr ⟨cell_ne d L (a := wsem2) (b := gsem6) (by decide), Finset.mem_erase.mpr ⟨cell_ne d L (a := wsem2) (b := gsem5) (by decide), Finset.mem_erase.mpr ⟨cell_ne d L (a := wsem2) (b := gsem4) (by decide), Finset.mem_erase.mpr ⟨cell_ne d L (a := wsem2) (b := gsem3) (by decide), Finset.mem_erase.mpr ⟨cell_ne d L (a := wsem2) (b := gsem2) (by decide), Finset.mem_erase.mpr ⟨cell_ne d L (a := wsem2) (b := gsem1) (by decide), Finset.mem_erase.mpr ⟨cell_ne d L (a := wsem2) (b := gsem0) (by decide), Finset.mem_erase.mpr ⟨cell_ne d L (a := wsem2) (b := isem2) (by decide), Finset.mem_erase.mpr ⟨cell_ne d L (a := wsem2) (b := isem1) (by decide), Finset.mem_erase.mpr ⟨cell_ne d L (a := wsem2) (b := isem0) (by decide), cell_mem d L (a := wsem2) (by decide)⟩⟩⟩⟩⟩⟩⟩⟩⟩⟩⟩⟩
theorem own_mem13 : cell d L wsem3 ∈ ((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)) :=
  Finset.mem_erase.mpr ⟨cell_ne d L (a := wsem3) (b := wsem2) (by decide), Finset.mem_erase.mpr ⟨cell_ne d L (a := wsem3) (b := wsem1) (by decide), Finset.mem_erase.mpr ⟨cell_ne d L (a := wsem3) (b := wsem0) (by decide), Finset.mem_erase.mpr ⟨cell_ne d L (a := wsem3) (b := gsem6) (by decide), Finset.mem_erase.mpr ⟨cell_ne d L (a := wsem3) (b := gsem5) (by decide), Finset.mem_erase.mpr ⟨cell_ne d L (a := wsem3) (b := gsem4) (by decide), Finset.mem_erase.mpr ⟨cell_ne d L (a := wsem3) (b := gsem3) (by decide), Finset.mem_erase.mpr ⟨cell_ne d L (a := wsem3) (b := gsem2) (by decide), Finset.mem_erase.mpr ⟨cell_ne d L (a := wsem3) (b := gsem1) (by decide), Finset.mem_erase.mpr ⟨cell_ne d L (a := wsem3) (b := gsem0) (by decide), Finset.mem_erase.mpr ⟨cell_ne d L (a := wsem3) (b := isem2) (by decide), Finset.mem_erase.mpr ⟨cell_ne d L (a := wsem3) (b := isem1) (by decide), Finset.mem_erase.mpr ⟨cell_ne d L (a := wsem3) (b := isem0) (by decide), cell_mem d L (a := wsem3) (by decide)⟩⟩⟩⟩⟩⟩⟩⟩⟩⟩⟩⟩⟩
theorem own_mem14 : cell d L wsem4 ∈ (((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)).erase (cell d L wsem3)) :=
  Finset.mem_erase.mpr ⟨cell_ne d L (a := wsem4) (b := wsem3) (by decide), Finset.mem_erase.mpr ⟨cell_ne d L (a := wsem4) (b := wsem2) (by decide), Finset.mem_erase.mpr ⟨cell_ne d L (a := wsem4) (b := wsem1) (by decide), Finset.mem_erase.mpr ⟨cell_ne d L (a := wsem4) (b := wsem0) (by decide), Finset.mem_erase.mpr ⟨cell_ne d L (a := wsem4) (b := gsem6) (by decide), Finset.mem_erase.mpr ⟨cell_ne d L (a := wsem4) (b := gsem5) (by decide), Finset.mem_erase.mpr ⟨cell_ne d L (a := wsem4) (b := gsem4) (by decide), Finset.mem_erase.mpr ⟨cell_ne d L (a := wsem4) (b := gsem3) (by decide), Finset.mem_erase.mpr ⟨cell_ne d L (a := wsem4) (b := gsem2) (by decide), Finset.mem_erase.mpr ⟨cell_ne d L (a := wsem4) (b := gsem1) (by decide), Finset.mem_erase.mpr ⟨cell_ne d L (a := wsem4) (b := gsem0) (by decide), Finset.mem_erase.mpr ⟨cell_ne d L (a := wsem4) (b := isem2) (by decide), Finset.mem_erase.mpr ⟨cell_ne d L (a := wsem4) (b := isem1) (by decide), Finset.mem_erase.mpr ⟨cell_ne d L (a := wsem4) (b := isem0) (by decide), cell_mem d L (a := wsem4) (by decide)⟩⟩⟩⟩⟩⟩⟩⟩⟩⟩⟩⟩⟩⟩
theorem own_mem15 : cell d L wsem5 ∈ ((((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)).erase (cell d L wsem3)).erase (cell d L wsem4)) :=
  Finset.mem_erase.mpr ⟨cell_ne d L (a := wsem5) (b := wsem4) (by decide), Finset.mem_erase.mpr ⟨cell_ne d L (a := wsem5) (b := wsem3) (by decide), Finset.mem_erase.mpr ⟨cell_ne d L (a := wsem5) (b := wsem2) (by decide), Finset.mem_erase.mpr ⟨cell_ne d L (a := wsem5) (b := wsem1) (by decide), Finset.mem_erase.mpr ⟨cell_ne d L (a := wsem5) (b := wsem0) (by decide), Finset.mem_erase.mpr ⟨cell_ne d L (a := wsem5) (b := gsem6) (by decide), Finset.mem_erase.mpr ⟨cell_ne d L (a := wsem5) (b := gsem5) (by decide), Finset.mem_erase.mpr ⟨cell_ne d L (a := wsem5) (b := gsem4) (by decide), Finset.mem_erase.mpr ⟨cell_ne d L (a := wsem5) (b := gsem3) (by decide), Finset.mem_erase.mpr ⟨cell_ne d L (a := wsem5) (b := gsem2) (by decide), Finset.mem_erase.mpr ⟨cell_ne d L (a := wsem5) (b := gsem1) (by decide), Finset.mem_erase.mpr ⟨cell_ne d L (a := wsem5) (b := gsem0) (by decide), Finset.mem_erase.mpr ⟨cell_ne d L (a := wsem5) (b := isem2) (by decide), Finset.mem_erase.mpr ⟨cell_ne d L (a := wsem5) (b := isem1) (by decide), Finset.mem_erase.mpr ⟨cell_ne d L (a := wsem5) (b := isem0) (by decide), cell_mem d L (a := wsem5) (by decide)⟩⟩⟩⟩⟩⟩⟩⟩⟩⟩⟩⟩⟩⟩⟩
theorem own_mem16 : cell d L wsem6 ∈ (((((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)).erase (cell d L wsem3)).erase (cell d L wsem4)).erase (cell d L wsem5)) :=
  Finset.mem_erase.mpr ⟨cell_ne d L (a := wsem6) (b := wsem5) (by decide), Finset.mem_erase.mpr ⟨cell_ne d L (a := wsem6) (b := wsem4) (by decide), Finset.mem_erase.mpr ⟨cell_ne d L (a := wsem6) (b := wsem3) (by decide), Finset.mem_erase.mpr ⟨cell_ne d L (a := wsem6) (b := wsem2) (by decide), Finset.mem_erase.mpr ⟨cell_ne d L (a := wsem6) (b := wsem1) (by decide), Finset.mem_erase.mpr ⟨cell_ne d L (a := wsem6) (b := wsem0) (by decide), Finset.mem_erase.mpr ⟨cell_ne d L (a := wsem6) (b := gsem6) (by decide), Finset.mem_erase.mpr ⟨cell_ne d L (a := wsem6) (b := gsem5) (by decide), Finset.mem_erase.mpr ⟨cell_ne d L (a := wsem6) (b := gsem4) (by decide), Finset.mem_erase.mpr ⟨cell_ne d L (a := wsem6) (b := gsem3) (by decide), Finset.mem_erase.mpr ⟨cell_ne d L (a := wsem6) (b := gsem2) (by decide), Finset.mem_erase.mpr ⟨cell_ne d L (a := wsem6) (b := gsem1) (by decide), Finset.mem_erase.mpr ⟨cell_ne d L (a := wsem6) (b := gsem0) (by decide), Finset.mem_erase.mpr ⟨cell_ne d L (a := wsem6) (b := isem2) (by decide), Finset.mem_erase.mpr ⟨cell_ne d L (a := wsem6) (b := isem1) (by decide), Finset.mem_erase.mpr ⟨cell_ne d L (a := wsem6) (b := isem0) (by decide), cell_mem d L (a := wsem6) (by decide)⟩⟩⟩⟩⟩⟩⟩⟩⟩⟩⟩⟩⟩⟩⟩⟩

/-- The vector subcore's scoped semaphores at zero: the task's seventeen, and the rest. -/
theorem ownSems0_task :
    (ownSems0 (thr d L) : sProp 𝕄)
      = iprop(semVal (cell d L isem0) 0
          ∗ semVal (cell d L isem1) 0
          ∗ semVal (cell d L isem2) 0
          ∗ semVal (cell d L gsem0) 0
          ∗ semVal (cell d L gsem1) 0
          ∗ semVal (cell d L gsem2) 0
          ∗ semVal (cell d L gsem3) 0
          ∗ semVal (cell d L gsem4) 0
          ∗ semVal (cell d L gsem5) 0
          ∗ semVal (cell d L gsem6) 0
          ∗ semVal (cell d L wsem0) 0
          ∗ semVal (cell d L wsem1) 0
          ∗ semVal (cell d L wsem2) 0
          ∗ semVal (cell d L wsem3) 0
          ∗ semVal (cell d L wsem4) 0
          ∗ semVal (cell d L wsem5) 0
          ∗ semVal (cell d L wsem6) 0
          ∗ bigSep ((((((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)).erase (cell d L wsem3)).erase (cell d L wsem4)).erase (cell d L wsem5)).erase (cell d L wsem6)) fun g => semVal g 0) := by
  unfold SparseCore.Cfg.ownSems0
  rw [SparseCore.bigSep_erase' (own_mem0 d L),
    SparseCore.bigSep_erase' (own_mem1 d L),
    SparseCore.bigSep_erase' (own_mem2 d L),
    SparseCore.bigSep_erase' (own_mem3 d L),
    SparseCore.bigSep_erase' (own_mem4 d L),
    SparseCore.bigSep_erase' (own_mem5 d L),
    SparseCore.bigSep_erase' (own_mem6 d L),
    SparseCore.bigSep_erase' (own_mem7 d L),
    SparseCore.bigSep_erase' (own_mem8 d L),
    SparseCore.bigSep_erase' (own_mem9 d L),
    SparseCore.bigSep_erase' (own_mem10 d L),
    SparseCore.bigSep_erase' (own_mem11 d L),
    SparseCore.bigSep_erase' (own_mem12 d L),
    SparseCore.bigSep_erase' (own_mem13 d L),
    SparseCore.bigSep_erase' (own_mem14 d L),
    SparseCore.bigSep_erase' (own_mem15 d L),
    SparseCore.bigSep_erase' (own_mem16 d L)]

/-! ## The two scratch buffers -/

/-- The index scratch and the row scratch are among the vector subcore's own buffers: they, at some contents, and the rest. -/
theorem ownBufs_task :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Two disjoint element sets held at some contents each are their union held at some contents. -/
theorem join_ex {ℓ : Loc nD τ sig} {I J : Finset (Idx ℓ)} {q : PosShare TreeShare} (h : Disjoint I J) :
    iprop((∃ f : Buf (Elt F) ℓ, ℓ ↦[I]{q} f) ∗ ∃ g : Buf (Elt F) ℓ, ℓ ↦[J]{q} g) ⊢ (iprop(∃ k : Buf (Elt F) ℓ, ℓ ↦[I ∪ J]{q} k) : sProp 𝕄) := by
  iintro ⟨⟨%f, Hf⟩, %g, Hg⟩
  iexists (J.piecewise g f)
  iapply (pointsTo_join h)
  isplitl [Hf] <;> iassumption

/-- Slot `s` of the row scratch, as a box of its shape. -/
abbrev slotBox (s : ℕ) (h : ∀ a, (![s, 0, 0] : Fin 3 → ℕ) a + S1x128x128.size a ≤ S7x128x128.size a) : Rect S7x128x128 :=
  Rect.unit (s := S7x128x128) ![s, 0, 0] S1x128x128.size h

theorem mem_slotBox {s : ℕ} {h} {i : S7x128x128.Idx} : i ∈ (slotBox s h).set ↔ (i 0 : ℕ) = s := by
  rw [Rect.mem_set_unit]
  constructor
  · intro H
    have h0 := H 0
    simp only [Matrix.cons_val_zero] at h0
    have : S1x128x128.size 0 = 1 := rfl; omega
  · intro e0 a
    match a with
    | 0 => simp only [Matrix.cons_val_zero]; have : S1x128x128.size 0 = 1 := rfl; omega
    | 1 => have h1 : (i 1 : ℕ) < 128 := (i 1).isLt
           have : S1x128x128.size 1 = 128 := rfl
           simp only [Matrix.cons_val_one, Matrix.cons_val_zero]; omega
    | 2 => have h2 : (i 2 : ℕ) < 128 := (i 2).isLt
           have : S1x128x128.size 2 = 128 := rfl
           simp only [Matrix.cons_val_two, Matrix.tail_cons, Matrix.head_cons]; omega

/-- The elements of the row scratch whose slot is `s`; of the index scratch whose plane is `t`. -/
def slotSet (s : Fin 7) : Finset S7x128x128.Idx := Finset.univ.filter fun i => (i 0 : ℕ) = s.val
def planeSet (t : Fin 3) : Finset S3x4x128.Idx := Finset.univ.filter fun i => (i 0 : ℕ) = t.val

theorem slotSet_disjoint : ∀ s ∈ (Finset.univ : Finset (Fin 7)), ∀ s' ∈ (Finset.univ : Finset (Fin 7)), s ≠ s' → Disjoint (slotSet s) (slotSet s') := by
  intro s _ s' _ hne
  rw [Finset.disjoint_left]
  intro i hi hi'
  simp only [slotSet, Finset.mem_filter, Finset.mem_univ, true_and] at hi hi'
  exact hne (Fin.ext (hi.symm.trans hi'))
theorem planeSet_disjoint : ∀ t ∈ (Finset.univ : Finset (Fin 3)), ∀ t' ∈ (Finset.univ : Finset (Fin 3)), t ≠ t' → Disjoint (planeSet t) (planeSet t') := by
  intro t _ t' _ hne
  rw [Finset.disjoint_left]
  intro i hi hi'
  simp only [planeSet, Finset.mem_filter, Finset.mem_univ, true_and] at hi hi'
  exact hne (Fin.ext (hi.symm.trans hi'))
theorem slotSet_cover : (Finset.univ : Finset (Fin 7)).biUnion slotSet = Finset.univ := by
  ext i
  simp only [Finset.mem_biUnion, Finset.mem_univ, true_and, iff_true, slotSet, Finset.mem_filter]
  exact ⟨⟨(i 0 : ℕ), (i 0).isLt⟩, rfl⟩
theorem planeSet_cover : (Finset.univ : Finset (Fin 3)).biUnion planeSet = Finset.univ := by
  ext i
  simp only [Finset.mem_biUnion, Finset.mem_univ, true_and, iff_true, planeSet, Finset.mem_filter]
  exact ⟨⟨(i 0 : ℕ), (i 0).isLt⟩, rfl⟩
theorem slot0_set : (slot0).view.set = slotSet 0 := by
  show (((View.whole cc0_scratch1).slice (slotBox 0 inb_S7x128x128_S1x128x128_0_0_0)).reshape S128x128 squeezes_S1x128x128_S128x128.numel_eq).set = _
  rw [View.set_reshape, View.set_slice_whole]
  ext i; rw [mem_slotBox]; simp [slotSet]
theorem slot1_set : (slot1).view.set = slotSet 1 := by
  show (((View.whole cc0_scratch1).slice (slotBox 1 inb_S7x128x128_S1x128x128_1_0_0)).reshape S128x128 squeezes_S1x128x128_S128x128.numel_eq).set = _
  rw [View.set_reshape, View.set_slice_whole]
  ext i; rw [mem_slotBox]; simp [slotSet]
theorem slot2_set : (slot2).view.set = slotSet 2 := by
  show (((View.whole cc0_scratch1).slice (slotBox 2 inb_S7x128x128_S1x128x128_2_0_0)).reshape S128x128 squeezes_S1x128x128_S128x128.numel_eq).set = _
  rw [View.set_reshape, View.set_slice_whole]
  ext i; rw [mem_slotBox]; simp [slotSet]
theorem slot3_set : (slot3).view.set = slotSet 3 := by
  show (((View.whole cc0_scratch1).slice (slotBox 3 inb_S7x128x128_S1x128x128_3_0_0)).reshape S128x128 squeezes_S1x128x128_S128x128.numel_eq).set = _
  rw [View.set_reshape, View.set_slice_whole]
  ext i; rw [mem_slotBox]; simp [slotSet]
theorem slot4_set : (slot4).view.set = slotSet 4 := by
  show (((View.whole cc0_scratch1).slice (slotBox 4 inb_S7x128x128_S1x128x128_4_0_0)).reshape S128x128 squeezes_S1x128x128_S128x128.numel_eq).set = _
  rw [View.set_reshape, View.set_slice_whole]
  ext i; rw [mem_slotBox]; simp [slotSet]
theorem slot5_set : (slot5).view.set = slotSet 5 := by
  show (((View.whole cc0_scratch1).slice (slotBox 5 inb_S7x128x128_S1x128x128_5_0_0)).reshape S128x128 squeezes_S1x128x128_S128x128.numel_eq).set = _
  rw [View.set_reshape, View.set_slice_whole]
  ext i; rw [mem_slotBox]; simp [slotSet]
theorem slot6_set : (slot6).view.set = slotSet 6 := by
  show (((View.whole cc0_scratch1).slice (slotBox 6 inb_S7x128x128_S1x128x128_6_0_0)).reshape S128x128 squeezes_S1x128x128_S128x128.numel_eq).set = _
  rw [View.set_reshape, View.set_slice_whole]
  ext i; rw [mem_slotBox]; simp [slotSet]
theorem iv0_planeSet : (iv0).view.set = planeSet 0 := by
  rw [iv0_set]
  ext i; rw [mem_planeBox]; simp [planeSet]
theorem iv1_planeSet : (iv1).view.set = planeSet 1 := by
  rw [iv1_set]
  ext i; rw [mem_planeBox]; simp [planeSet]
theorem iv2_planeSet : (iv2).view.set = planeSet 2 := by
  rw [iv2_set]
  ext i; rw [mem_planeBox]; simp [planeSet]

theorem slots_union : slotSet 0 ∪ (slotSet 1 ∪ (slotSet 2 ∪ (slotSet 3 ∪ (slotSet 4 ∪ (slotSet 5 ∪ (slotSet 6)))))) = Finset.univ := by
  ext i
  have h : (i 0 : ℕ) < 7 := (i 0).isLt
  simp only [Finset.mem_union, slotSet, Finset.mem_filter, Finset.mem_univ, true_and, iff_true, Fin.val_zero, Fin.val_one, Fin.val_two,
    show ((3 : Fin 7) : ℕ) = 3 from rfl, show ((4 : Fin 7) : ℕ) = 4 from rfl, show ((5 : Fin 7) : ℕ) = 5 from rfl, show ((6 : Fin 7) : ℕ) = 6 from rfl]
  omega
theorem planes_union : planeSet 0 ∪ (planeSet 1 ∪ (planeSet 2)) = Finset.univ := by
  ext i
  have h : (i 0 : ℕ) < 3 := (i 0).isLt
  simp only [Finset.mem_union, planeSet, Finset.mem_filter, Finset.mem_univ, true_and, iff_true, Fin.val_zero, Fin.val_one, Fin.val_two]
  omega
theorem slot_disj (s s' : Fin 7) (h : s ≠ s') : Disjoint (slotSet s) (slotSet s') :=
  slotSet_disjoint s (Finset.mem_univ _) s' (Finset.mem_univ _) h
theorem plane_disj (t t' : Fin 3) (h : t ≠ t') : Disjoint (planeSet t) (planeSet t') :=
  planeSet_disjoint t (Finset.mem_univ _) t' (Finset.mem_univ _) h
theorem slots_d5 : Disjoint (slotSet 5) (slotSet 6) := by
  exact slot_disj 5 6 (by decide)
theorem slots_d4 : Disjoint (slotSet 4) (slotSet 5 ∪ (slotSet 6)) := by
  rw [Finset.disjoint_union_right]
  exact ⟨slot_disj 4 5 (by decide), slot_disj 4 6 (by decide)⟩
theorem slots_d3 : Disjoint (slotSet 3) (slotSet 4 ∪ (slotSet 5 ∪ (slotSet 6))) := by
  rw [Finset.disjoint_union_right, Finset.disjoint_union_right]
  exact ⟨slot_disj 3 4 (by decide), slot_disj 3 5 (by decide), slot_disj 3 6 (by decide)⟩
theorem slots_d2 : Disjoint (slotSet 2) (slotSet 3 ∪ (slotSet 4 ∪ (slotSet 5 ∪ (slotSet 6)))) := by
  rw [Finset.disjoint_union_right, Finset.disjoint_union_right, Finset.disjoint_union_right]
  exact ⟨slot_disj 2 3 (by decide), slot_disj 2 4 (by decide), slot_disj 2 5 (by decide), slot_disj 2 6 (by decide)⟩
theorem slots_d1 : Disjoint (slotSet 1) (slotSet 2 ∪ (slotSet 3 ∪ (slotSet 4 ∪ (slotSet 5 ∪ (slotSet 6))))) := by
  rw [Finset.disjoint_union_right, Finset.disjoint_union_right, Finset.disjoint_union_right, Finset.disjoint_union_right]
  exact ⟨slot_disj 1 2 (by decide), slot_disj 1 3 (by decide), slot_disj 1 4 (by decide), slot_disj 1 5 (by decide), slot_disj 1 6 (by decide)⟩
theorem slots_d0 : Disjoint (slotSet 0) (slotSet 1 ∪ (slotSet 2 ∪ (slotSet 3 ∪ (slotSet 4 ∪ (slotSet 5 ∪ (slotSet 6)))))) := by
  rw [Finset.disjoint_union_right, Finset.disjoint_union_right, Finset.disjoint_union_right, Finset.disjoint_union_right, Finset.disjoint_union_right]
  exact ⟨slot_disj 0 1 (by decide), slot_disj 0 2 (by decide), slot_disj 0 3 (by decide), slot_disj 0 4 (by decide), slot_disj 0 5 (by decide), slot_disj 0 6 (by decide)⟩
theorem planes_d1 : Disjoint (planeSet 1) (planeSet 2) := plane_disj 1 2 (by decide)
theorem planes_d0 : Disjoint (planeSet 0) (planeSet 1 ∪ (planeSet 2)) := by
  rw [Finset.disjoint_union_right]
  exact ⟨plane_disj 0 1 (by decide), plane_disj 0 2 (by decide)⟩

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
theorem bigSep_fin3 (Φ : Fin 3 → sProp 𝕄) : bigSep Finset.univ Φ = iprop(Φ 0 ∗ Φ 1 ∗ Φ 2) := by
  rw [show (Finset.univ : Finset (Fin 3)) = {0, 1, 2} by decide,
    SparseCore.bigSep_insert' (by decide), SparseCore.bigSep_insert' (by decide), bigSep_singleton]

attribute [local irreducible] slotSet planeSet

/-- The row scratch held whole is its seven slots held; -/
theorem scratch1_slots (f : Buf (Elt F) ((thr d L).loc cc0_scratch1)) :
    ((thr d L).loc cc0_scratch1 ↦{fullShare} f : sProp 𝕄)
      = iprop(((slot0).view.loc (thr d L) ↦[(slot0).view.set]{fullShare} f)
          ∗ ((slot1).view.loc (thr d L) ↦[(slot1).view.set]{fullShare} f)
          ∗ ((slot2).view.loc (thr d L) ↦[(slot2).view.set]{fullShare} f)
          ∗ ((slot3).view.loc (thr d L) ↦[(slot3).view.set]{fullShare} f)
          ∗ ((slot4).view.loc (thr d L) ↦[(slot4).view.set]{fullShare} f)
          ∗ ((slot5).view.loc (thr d L) ↦[(slot5).view.set]{fullShare} f)
          ∗ ((slot6).view.loc (thr d L) ↦[(slot6).view.set]{fullShare} f)) := by
  rw [slot0_set, slot1_set, slot2_set, slot3_set, slot4_set, slot5_set, slot6_set]
  have hU : ((thr d L).loc cc0_scratch1 ↦{fullShare} f : sProp 𝕄)
      = bigSep Finset.univ fun s : Fin 7 => (thr d L).loc cc0_scratch1 ↦[slotSet s]{fullShare} f := by
    rw [← pointsTo_biUnion Finset.univ (ℓ := (thr d L).loc cc0_scratch1) slotSet slotSet_disjoint, slotSet_cover]
  exact hU.trans (bigSep_fin7 _)

/-- the index scratch held whole is its three planes held. -/
theorem scratch0_planes (f : Buf (Elt F) ((thr d L).loc cc0_scratch0)) :
    ((thr d L).loc cc0_scratch0 ↦{fullShare} f : sProp 𝕄)
      = iprop(((iv0).view.loc (thr d L) ↦[(iv0).view.set]{fullShare} f)
          ∗ ((iv1).view.loc (thr d L) ↦[(iv1).view.set]{fullShare} f)
          ∗ ((iv2).view.loc (thr d L) ↦[(iv2).view.set]{fullShare} f)) := by
  rw [iv0_planeSet, iv1_planeSet, iv2_planeSet]
  have hU : ((thr d L).loc cc0_scratch0 ↦{fullShare} f : sProp 𝕄)
      = bigSep Finset.univ fun t : Fin 3 => (thr d L).loc cc0_scratch0 ↦[planeSet t]{fullShare} f := by
    rw [← pointsTo_biUnion Finset.univ (ℓ := (thr d L).loc cc0_scratch0) planeSet planeSet_disjoint, planeSet_cover]
  exact hU.trans (bigSep_fin3 _)

/-- Seven slots at some contents each are the row scratch at some contents; -/
theorem slots_join :
    iprop((∃ f, (slot0).view.loc (thr d L) ↦[(slot0).view.set]{fullShare} f)
          ∗ (∃ f, (slot1).view.loc (thr d L) ↦[(slot1).view.set]{fullShare} f)
          ∗ (∃ f, (slot2).view.loc (thr d L) ↦[(slot2).view.set]{fullShare} f)
          ∗ (∃ f, (slot3).view.loc (thr d L) ↦[(slot3).view.set]{fullShare} f)
          ∗ (∃ f, (slot4).view.loc (thr d L) ↦[(slot4).view.set]{fullShare} f)
          ∗ (∃ f, (slot5).view.loc (thr d L) ↦[(slot5).view.set]{fullShare} f)
          ∗ (∃ f, (slot6).view.loc (thr d L) ↦[(slot6).view.set]{fullShare} f))
      ⊢ (iprop(∃ f, (thr d L).loc cc0_scratch1 ↦{fullShare} f) : sProp 𝕄) := by
  rw [slot0_set, slot1_set, slot2_set, slot3_set, slot4_set, slot5_set, slot6_set]
  iintro ⟨H0, H1, H2, H3, H4, H5, H6⟩
  ihave J5 := (join_ex (F := F) (UU := UU) (ℓ := (thr d L).loc cc0_scratch1) (q := fullShare) slots_d5) $$ [H5 H6]
  · isplitl [H5] <;> iassumption
  ihave J4 := (join_ex (F := F) (UU := UU) (ℓ := (thr d L).loc cc0_scratch1) (q := fullShare) slots_d4) $$ [H4 J5]
  · isplitl [H4] <;> iassumption
  ihave J3 := (join_ex (F := F) (UU := UU) (ℓ := (thr d L).loc cc0_scratch1) (q := fullShare) slots_d3) $$ [H3 J4]
  · isplitl [H3] <;> iassumption
  ihave J2 := (join_ex (F := F) (UU := UU) (ℓ := (thr d L).loc cc0_scratch1) (q := fullShare) slots_d2) $$ [H2 J3]
  · isplitl [H2] <;> iassumption
  ihave J1 := (join_ex (F := F) (UU := UU) (ℓ := (thr d L).loc cc0_scratch1) (q := fullShare) slots_d1) $$ [H1 J2]
  · isplitl [H1] <;> iassumption
  ihave J0 := (join_ex (F := F) (UU := UU) (ℓ := (thr d L).loc cc0_scratch1) (q := fullShare) slots_d0) $$ [H0 J1]
  · isplitl [H0] <;> iassumption
  rw [slots_union]
  iexact J0

/-- three planes at some contents each are the index scratch at some contents. -/
theorem planes_join :
    iprop((∃ f, (iv0).view.loc (thr d L) ↦[(iv0).view.set]{fullShare} f)
          ∗ (∃ f, (iv1).view.loc (thr d L) ↦[(iv1).view.set]{fullShare} f)
          ∗ (∃ f, (iv2).view.loc (thr d L) ↦[(iv2).view.set]{fullShare} f))
      ⊢ (iprop(∃ f, (thr d L).loc cc0_scratch0 ↦{fullShare} f) : sProp 𝕄) := by
  rw [iv0_planeSet, iv1_planeSet, iv2_planeSet]
  iintro ⟨H0, H1, H2⟩
  ihave J1 := (join_ex (F := F) (UU := UU) (ℓ := (thr d L).loc cc0_scratch0) (q := fullShare) planes_d1) $$ [H1 H2]
  · isplitl [H1] <;> iassumption
  ihave J0 := (join_ex (F := F) (UU := UU) (ℓ := (thr d L).loc cc0_scratch0) (q := fullShare) planes_d0) $$ [H0 J1]
  · isplitl [H0] <;> iassumption
  rw [planes_union]
  iexact J0

end Cert.Proof.KI

end
-- ==== Proof.TaskGeom.lean ====
/-
  The task's pieces against the 32-way cuts of the call's arrays.

  Task number `n = 2 * L 1 + L 0` reads slab `n` of each index array — the `n`-th of the 32 parts along the first
  axis — and writes rows `[512 n, 512 n + 512)` of each output — the `n`-th of 32 parts of 512 rows —, in four
  chunks of 128 rows at offsets `512 n + 128 j`. In elements: a slab is the elements whose first coordinate is
  `n`; an output part is the disjoint union of its four chunks.
-/
import proofs.«211833_g48473000902786_cont_8to1_c_597_31_alg».proof.Proof.TaskViews
import proofs.«211833_g48473000902786_cont_8to1_c_597_31_alg».proof.Proof.TaskPieces

noncomputable section

namespace Cert.Proof.KI

open Cert.KernelIdeal Cert.KernelIdeal.Gen
open Idealize.ShloMosaic
open Idealize.ShloMosaic.SparseCore (S V T)
open Idealize.SL.Sem

variable (L : grid0.Coords)

theorem div32_i : 32 ∣ S32x4x128.size 0 := ⟨1, rfl⟩
theorem div32_o : 32 ∣ S16384x128.size 0 := ⟨512, rfl⟩

/-- The task's number, from its grid coordinates. -/
def numL (L : grid0.Coords) : Fin 32 := ⟨2 * (L 1).val + (L 0).val, by
  have h0 : (L 0).val < 2 := (L 0).isLt
  have h1 : (L 1).val < 16 := (L 1).isLt
  omega⟩

theorem mem_iPart {n : Fin 32} {i : S32x4x128.Idx} :
    i ∈ (Rect.part (s := S32x4x128) (a₀ := 0) div32_i n).set ↔ (i 0 : ℕ) = n.val := by
  rw [Rect.mem_set_unit]
  have hi1 : (i 1 : ℕ) < 4 := (i 1).isLt
  have hi2 : (i 2 : ℕ) < 128 := (i 2).isLt
  constructor
  · intro H
    have h0 := H 0
    simp [Shape.partIx, Shape.partSize] at h0
    omega
  · intro e a
    match a with
    | 0 => simp [Shape.partIx, Shape.partSize]; omega
    | 1 => simp [Shape.partIx, Shape.partSize]; omega
    | 2 => simp [Shape.partIx, Shape.partSize]; omega

theorem mem_oPart {n : Fin 32} {i : S16384x128.Idx} :
    i ∈ (Rect.part (s := S16384x128) (a₀ := 0) div32_o n).set ↔ 512 * n.val ≤ (i 0 : ℕ) ∧ (i 0 : ℕ) < 512 * n.val + 512 := by
  rw [Rect.mem_set_unit]
  have hi1 : (i 1 : ℕ) < 128 := (i 1).isLt
  constructor
  · intro H
    have h0 := H 0
    simp [Shape.partIx, Shape.partSize] at h0
    omega
  · intro e a
    match a with
    | 0 => simp [Shape.partIx, Shape.partSize]; omega
    | 1 => simp [Shape.partIx, Shape.partSize]; omega

theorem mem_slabRect {i : S32x4x128.Idx} :
    i ∈ (Rect.unit (s := S32x4x128) (k0_off1 L) S1x4x128.size (k0_off1_inb L)).set ↔ (i 0 : ℕ) = (numL L).val := by
  rw [Rect.mem_set_unit, k0_off1_eq]
  have hi1 : (i 1 : ℕ) < 4 := (i 1).isLt
  have hi2 : (i 2 : ℕ) < 128 := (i 2).isLt
  have hs0 : S1x4x128.size 0 = 1 := rfl
  have hs1 : S1x4x128.size 1 = 4 := rfl
  have hs2 : S1x4x128.size 2 = 128 := rfl
  show (∀ a, _) ↔ (i 0 : ℕ) = 2 * (L 1).val + (L 0).val
  constructor
  · intro H
    have h0 := H 0
    simp only [Matrix.cons_val_zero] at h0
    omega
  · intro e a
    match a with
    | 0 => simp only [Matrix.cons_val_zero]; omega
    | 1 => simp only [Matrix.cons_val_one, Matrix.cons_val_zero]; omega
    | 2 => simp only [Matrix.cons_val_two, Matrix.tail_cons, Matrix.head_cons]; omega

/-- The slab the task copies is part `numL L` of the index array. -/
theorem slabRect_set :
    (Rect.unit (s := S32x4x128) (k0_off1 L) S1x4x128.size (k0_off1_inb L)).set = (Rect.part (s := S32x4x128) (a₀ := 0) div32_i (numL L)).set := by
  ext i; rw [mem_slabRect, mem_iPart]

theorem mem_chunkRect (j : Fin 4) {w : BitVec 32} (hw : w = BitVec.ofNat 32 (128 * j.val)) {h} {i : S16384x128.Idx} :
    i ∈ (Rect.unit (s := S16384x128) (k0_off2 L w) S128x128.size h).set
      ↔ 512 * (numL L).val + 128 * j.val ≤ (i 0 : ℕ) ∧ (i 0 : ℕ) < 512 * (numL L).val + 128 * j.val + 128 := by
  subst hw
  rw [Rect.mem_set_unit, k0_off2_eq]
  have hi1 : (i 1 : ℕ) < 128 := (i 1).isLt
  have hs0 : S128x128.size 0 = 128 := rfl
  have hs1 : S128x128.size 1 = 128 := rfl
  show (∀ a, _) ↔ 512 * (2 * (L 1).val + (L 0).val) + 128 * j.val ≤ (i 0 : ℕ) ∧ (i 0 : ℕ) < 512 * (2 * (L 1).val + (L 0).val) + 128 * j.val + 128
  constructor
  · intro H
    have h0 := H 0
    simp only [Matrix.cons_val_zero] at h0
    omega
  · intro e a
    match a with
    | 0 => simp only [Matrix.cons_val_zero]; omega
    | 1 => simp only [Matrix.cons_val_one, Matrix.cons_val_zero]; omega

/-- The task's output part is its four chunks, -/
theorem oPart_eq_chunks {h0 h1 h2 h3} :
    (Rect.part (s := S16384x128) (a₀ := 0) div32_o (numL L)).set
      = (Rect.unit (s := S16384x128) (k0_off2 L 0#32) S128x128.size h0).set
        ∪ ((Rect.unit (s := S16384x128) (k0_off2 L 128#32) S128x128.size h1).set
          ∪ ((Rect.unit (s := S16384x128) (k0_off2 L 256#32) S128x128.size h2).set
            ∪ (Rect.unit (s := S16384x128) (k0_off2 L 384#32) S128x128.size h3).set)) := by
  ext i
  simp only [Finset.mem_union, mem_oPart, mem_chunkRect L 0 (w := 0#32) rfl, mem_chunkRect L 1 (w := 128#32) rfl, mem_chunkRect L 2 (w := 256#32) rfl, mem_chunkRect L 3 (w := 384#32) rfl]
  have e3 : ((3 : Fin 4) : ℕ) = 3 := rfl
  have e2 : ((2 : Fin 4) : ℕ) = 2 := rfl
  have e1 : ((1 : Fin 4) : ℕ) = 1 := rfl
  have e0 : ((0 : Fin 4) : ℕ) = 0 := rfl
  omega

/-- pairwise disjoint. -/
theorem chunk_disjoint (j j' : Fin 4) (hne : j ≠ j') {w w' : BitVec 32} (hw : w = BitVec.ofNat 32 (128 * j.val)) (hw' : w' = BitVec.ofNat 32 (128 * j'.val)) {h h'} :
    Disjoint (Rect.unit (s := S16384x128) (k0_off2 L w) S128x128.size h).set (Rect.unit (s := S16384x128) (k0_off2 L w') S128x128.size h').set := by
  rw [Finset.disjoint_left]
  intro i hi hi'
  rw [mem_chunkRect L j hw] at hi
  rw [mem_chunkRect L j' hw'] at hi'
  have : j.val ≠ j'.val := fun e => hne (Fin.ext e)
  omega

end Cert.Proof.KI

end
-- ==== Proof.TaskShares.lean ====
/-
  A table is read by several gathers in flight at once, each completing on its own semaphore: the task holds its share
  of the table as ten read tokens, token `k` for the transfers completing on DMA semaphore number `k`, beside a
  remainder; the tokens and the remainder compose to the share again.
-/
import proofs.«211833_g48473000902786_cont_8to1_c_597_31_alg».proof.Proof.TaskViews
import Idealize.ShloMosaic.Lib.Transfers
import Idealize.ShloMosaic.Lib.Pipeline.Kit

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} {UU : Type} [URA UU]

local notation "𝕄" => MT nD τ sig (HIx 1) (Elt F) ℕ UU ℕ

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable {ℓ : Loc nD τ sig} {X : Finset (Idx ℓ)} {f : Buf (Elt F) ℓ}

/-- A share as ten read tokens and a remainder; -/
theorem toks10_split (q : PosShare TreeShare) :
    (ℓ ↦[X]{q} f : sProp 𝕄) ⊢ iprop((ℓ ↦[X]{Transfers.shareDrop q 10} f)
      ∗ (ℓ ↦[X]{Transfers.shareTok q 10 (0 : Fin 10)} f) ∗ (ℓ ↦[X]{Transfers.shareTok q 10 (1 : Fin 10)} f) ∗ (ℓ ↦[X]{Transfers.shareTok q 10 (2 : Fin 10)} f) ∗ (ℓ ↦[X]{Transfers.shareTok q 10 (3 : Fin 10)} f) ∗ (ℓ ↦[X]{Transfers.shareTok q 10 (4 : Fin 10)} f) ∗ (ℓ ↦[X]{Transfers.shareTok q 10 (5 : Fin 10)} f) ∗ (ℓ ↦[X]{Transfers.shareTok q 10 (6 : Fin 10)} f) ∗ (ℓ ↦[X]{Transfers.shareTok q 10 (7 : Fin 10)} f) ∗ (ℓ ↦[X]{Transfers.shareTok q 10 (8 : Fin 10)} f) ∗ (ℓ ↦[X]{Transfers.shareTok q 10 (9 : Fin 10)} f)) := by
  refine (Transfers.pointsTo_toks_split (ℓ := ℓ) (S := X) (f := f) q 10).trans ?_
  rw [bigSep_fin10]

/-- and back. -/
theorem toks10_join (q : PosShare TreeShare) :
    iprop((ℓ ↦[X]{Transfers.shareDrop q 10} f)
      ∗ (ℓ ↦[X]{Transfers.shareTok q 10 (0 : Fin 10)} f) ∗ (ℓ ↦[X]{Transfers.shareTok q 10 (1 : Fin 10)} f) ∗ (ℓ ↦[X]{Transfers.shareTok q 10 (2 : Fin 10)} f) ∗ (ℓ ↦[X]{Transfers.shareTok q 10 (3 : Fin 10)} f) ∗ (ℓ ↦[X]{Transfers.shareTok q 10 (4 : Fin 10)} f) ∗ (ℓ ↦[X]{Transfers.shareTok q 10 (5 : Fin 10)} f) ∗ (ℓ ↦[X]{Transfers.shareTok q 10 (6 : Fin 10)} f) ∗ (ℓ ↦[X]{Transfers.shareTok q 10 (7 : Fin 10)} f) ∗ (ℓ ↦[X]{Transfers.shareTok q 10 (8 : Fin 10)} f) ∗ (ℓ ↦[X]{Transfers.shareTok q 10 (9 : Fin 10)} f)) ⊢ (ℓ ↦[X]{q} f : sProp 𝕄) := by
  refine BI.Entails.trans ?_ (Transfers.pointsTo_toks_join (ℓ := ℓ) (S := X) (f := f) q 10)
  rw [bigSep_fin10]
  exact BI.Entails.refl _

end Cert.Proof.KI

end
-- ==== Proof.TaskObl.lean ====
/-
  The gather task as the launch theorem's obligation for a vector subcore.

  The launch hands vector subcore `i` of SparseCore `c` its part of the call's arrays (in the TensorCore's names, cut
  along the 32-way parts) and its own scoped storage. Here the parts are respelt as the kernel's views — a slab is a
  part of an index array, an output part is its four chunks, a table's token is ten finer tokens and a remainder, the
  index scratch is three planes, the row scratch seven slots —, the task is run on them, and everything is put back.
-/
import proofs.«211833_g48473000902786_cont_8to1_c_597_31_alg».proof.Proof.TaskRun
import proofs.«211833_g48473000902786_cont_8to1_c_597_31_alg».proof.Proof.TaskOwn
import proofs.«211833_g48473000902786_cont_8to1_c_597_31_alg».proof.Proof.TaskGeom
import proofs.«211833_g48473000902786_cont_8to1_c_597_31_alg».proof.Proof.TaskShares
import proofs.«211833_g48473000902786_cont_8to1_c_597_31_alg».proof.Proof.TaskPay

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (W : Dev nD → Valuation τ sig (Elt F)) (d : Dev nD) (L : grid0.Coords)

/-- The four chunks of a task's output part are pairwise disjoint. -/
theorem chunks_d3 : Disjoint (Rect.unit (s := S16384x128) (k0_off2 L 256#32) S128x128.size (k0_off2_inb L 2)).set (Rect.unit (s := S16384x128) (k0_off2 L 384#32) S128x128.size (k0_off2_inb L 3)).set := chunk_disjoint L 2 3 (by decide) (w := 256#32) (w' := 384#32) rfl rfl
theorem chunks_d2 : Disjoint (Rect.unit (s := S16384x128) (k0_off2 L 128#32) S128x128.size (k0_off2_inb L 1)).set ((Rect.unit (s := S16384x128) (k0_off2 L 256#32) S128x128.size (k0_off2_inb L 2)).set ∪ (Rect.unit (s := S16384x128) (k0_off2 L 384#32) S128x128.size (k0_off2_inb L 3)).set) := by
  rw [Finset.disjoint_union_right]
  exact ⟨chunk_disjoint L 1 2 (by decide) (w := 128#32) (w' := 256#32) rfl rfl, chunk_disjoint L 1 3 (by decide) (w := 128#32) (w' := 384#32) rfl rfl⟩
theorem chunks_d1 : Disjoint (Rect.unit (s := S16384x128) (k0_off2 L 0#32) S128x128.size (k0_off2_inb L 0)).set ((Rect.unit (s := S16384x128) (k0_off2 L 128#32) S128x128.size (k0_off2_inb L 1)).set ∪ ((Rect.unit (s := S16384x128) (k0_off2 L 256#32) S128x128.size (k0_off2_inb L 2)).set ∪ (Rect.unit (s := S16384x128) (k0_off2 L 384#32) S128x128.size (k0_off2_inb L 3)).set)) := by
  rw [Finset.disjoint_union_right, Finset.disjoint_union_right]
  exact ⟨chunk_disjoint L 0 1 (by decide) (w := 0#32) (w' := 128#32) rfl rfl, chunk_disjoint L 0 2 (by decide) (w := 0#32) (w' := 256#32) rfl rfl, chunk_disjoint L 0 3 (by decide) (w := 0#32) (w' := 384#32) rfl rfl⟩

/-! ## The views' element sets against the parts -/
theorem iSlab0_set : (iSlab0 L).view.set = (iBox (numL L)).set := by
  show (((View.whole main_v0_scv).slice (Rect.unit (s := S32x4x128) (k0_off1 L) S1x4x128.size (k0_off1_inb L))).reshape S4x128 squeezes_S1x4x128_S4x128.numel_eq).set = _
  rw [View.set_reshape, View.set_slice_whole]; exact slabRect_set L
theorem pts_i0 (f : Buf (Elt F) (i0Loc d)) :
    ((iSlab0 L).view.loc (thr d L) ↦[(iSlab0 L).view.set]{fullShare} f : sProp 𝕄) = i0Loc d ↦[(iBox (numL L)).set]{fullShare} f := by
  rw [iSlab0_set]
theorem pts_t0 (q : PosShare TreeShare) (f : Buf (Elt F) (t0Loc d)) :
    ((tab0).view.loc (thr d L) ↦{q} f : sProp 𝕄) = t0Loc d ↦{q} f := rfl
theorem oCh0_0_set : (oCh0_0 L).view.set = (Rect.unit (s := S16384x128) (k0_off2 L 0#32) S128x128.size (k0_off2_inb L 0)).set := by
  show ((View.whole main_v9_0_scv).slice _).set = _
  rw [View.set_slice_whole]
theorem oCh0_1_set : (oCh0_1 L).view.set = (Rect.unit (s := S16384x128) (k0_off2 L 128#32) S128x128.size (k0_off2_inb L 1)).set := by
  show ((View.whole main_v9_0_scv).slice _).set = _
  rw [View.set_slice_whole]
theorem oCh0_2_set : (oCh0_2 L).view.set = (Rect.unit (s := S16384x128) (k0_off2 L 256#32) S128x128.size (k0_off2_inb L 2)).set := by
  show ((View.whole main_v9_0_scv).slice _).set = _
  rw [View.set_slice_whole]
theorem oCh0_3_set : (oCh0_3 L).view.set = (Rect.unit (s := S16384x128) (k0_off2 L 384#32) S128x128.size (k0_off2_inb L 3)).set := by
  show ((View.whole main_v9_0_scv).slice _).set = _
  rw [View.set_slice_whole]

/-- Output 0's part of the task is its four chunks; -/
theorem oPart0_split (f : Buf (Elt F) (o0Loc d)) :
    (o0Loc d ↦[(oBox (numL L)).set]{fullShare} f : sProp 𝕄)
      ⊢ iprop(((oCh0_0 L).view.loc (thr d L) ↦[(oCh0_0 L).view.set]{fullShare} f)
          ∗ ((oCh0_1 L).view.loc (thr d L) ↦[(oCh0_1 L).view.set]{fullShare} f)
          ∗ ((oCh0_2 L).view.loc (thr d L) ↦[(oCh0_2 L).view.set]{fullShare} f)
          ∗ ((oCh0_3 L).view.loc (thr d L) ↦[(oCh0_3 L).view.set]{fullShare} f)) := by
  rw [oCh0_0_set, oCh0_1_set, oCh0_2_set, oCh0_3_set]
  exact pointsTo_split4 (oPart_eq_chunks L) (chunks_d1 L) (chunks_d2 L) (chunks_d3 L)

/-- and four chunks at some contents each are the part at some contents. -/
theorem oPart0_join :
    iprop((∃ f, (oCh0_0 L).view.loc (thr d L) ↦[(oCh0_0 L).view.set]{fullShare} f)
          ∗ (∃ f, (oCh0_1 L).view.loc (thr d L) ↦[(oCh0_1 L).view.set]{fullShare} f)
          ∗ (∃ f, (oCh0_2 L).view.loc (thr d L) ↦[(oCh0_2 L).view.set]{fullShare} f)
          ∗ (∃ f, (oCh0_3 L).view.loc (thr d L) ↦[(oCh0_3 L).view.set]{fullShare} f))
      ⊢ (iprop(∃ f, o0Loc d ↦[(oBox (numL L)).set]{fullShare} f) : sProp 𝕄) := by
  rw [oCh0_0_set, oCh0_1_set, oCh0_2_set, oCh0_3_set, show (oBox (numL L)).set = _ from oPart_eq_chunks L (h0 := k0_off2_inb L 0) (h1 := k0_off2_inb L 1) (h2 := k0_off2_inb L 2) (h3 := k0_off2_inb L 3)]
  iintro ⟨H0, H1, H2, H3⟩
  ihave H23 := (join_ex (F := F) (UU := UU) (ℓ := o0Loc d) (q := fullShare) (chunks_d3 L)) $$ [H2 H3]
  · isplitl [H2] <;> iassumption
  ihave H123 := (join_ex (F := F) (UU := UU) (ℓ := o0Loc d) (q := fullShare) (chunks_d2 L)) $$ [H1 H23]
  · isplitl [H1] <;> iassumption
  iapply (join_ex (F := F) (UU := UU) (ℓ := o0Loc d) (q := fullShare) (chunks_d1 L))
  isplitl [H0] <;> iassumption
theorem iSlab1_set : (iSlab1 L).view.set = (iBox (numL L)).set := by
  show (((View.whole main_v1_scv).slice (Rect.unit (s := S32x4x128) (k0_off1 L) S1x4x128.size (k0_off1_inb L))).reshape S4x128 squeezes_S1x4x128_S4x128.numel_eq).set = _
  rw [View.set_reshape, View.set_slice_whole]; exact slabRect_set L
theorem pts_i1 (f : Buf (Elt F) (i1Loc d)) :
    ((iSlab1 L).view.loc (thr d L) ↦[(iSlab1 L).view.set]{fullShare} f : sProp 𝕄) = i1Loc d ↦[(iBox (numL L)).set]{fullShare} f := by
  rw [iSlab1_set]
theorem pts_t1 (q : PosShare TreeShare) (f : Buf (Elt F) (t1Loc d)) :
    ((tab1).view.loc (thr d L) ↦{q} f : sProp 𝕄) = t1Loc d ↦{q} f := rfl
theorem oCh1_0_set : (oCh1_0 L).view.set = (Rect.unit (s := S16384x128) (k0_off2 L 0#32) S128x128.size (k0_off2_inb L 0)).set := by
  show ((View.whole main_v9_1_scv).slice _).set = _
  rw [View.set_slice_whole]
theorem oCh1_1_set : (oCh1_1 L).view.set = (Rect.unit (s := S16384x128) (k0_off2 L 128#32) S128x128.size (k0_off2_inb L 1)).set := by
  show ((View.whole main_v9_1_scv).slice _).set = _
  rw [View.set_slice_whole]
theorem oCh1_2_set : (oCh1_2 L).view.set = (Rect.unit (s := S16384x128) (k0_off2 L 256#32) S128x128.size (k0_off2_inb L 2)).set := by
  show ((View.whole main_v9_1_scv).slice _).set = _
  rw [View.set_slice_whole]
theorem oCh1_3_set : (oCh1_3 L).view.set = (Rect.unit (s := S16384x128) (k0_off2 L 384#32) S128x128.size (k0_off2_inb L 3)).set := by
  show ((View.whole main_v9_1_scv).slice _).set = _
  rw [View.set_slice_whole]

/-- Output 1's part of the task is its four chunks; -/
theorem oPart1_split (f : Buf (Elt F) (o1Loc d)) :
    (o1Loc d ↦[(oBox (numL L)).set]{fullShare} f : sProp 𝕄)
      ⊢ iprop(((oCh1_0 L).view.loc (thr d L) ↦[(oCh1_0 L).view.set]{fullShare} f)
          ∗ ((oCh1_1 L).view.loc (thr d L) ↦[(oCh1_1 L).view.set]{fullShare} f)
          ∗ ((oCh1_2 L).view.loc (thr d L) ↦[(oCh1_2 L).view.set]{fullShare} f)
          ∗ ((oCh1_3 L).view.loc (thr d L) ↦[(oCh1_3 L).view.set]{fullShare} f)) := by
  rw [oCh1_0_set, oCh1_1_set, oCh1_2_set, oCh1_3_set]
  exact pointsTo_split4 (oPart_eq_chunks L) (chunks_d1 L) (chunks_d2 L) (chunks_d3 L)

/-- and four chunks at some contents each are the part at some contents. -/
theorem oPart1_join :
    iprop((∃ f, (oCh1_0 L).view.loc (thr d L) ↦[(oCh1_0 L).view.set]{fullShare} f)
          ∗ (∃ f, (oCh1_1 L).view.loc (thr d L) ↦[(oCh1_1 L).view.set]{fullShare} f)
          ∗ (∃ f, (oCh1_2 L).view.loc (thr d L) ↦[(oCh1_2 L).view.set]{fullShare} f)
          ∗ (∃ f, (oCh1_3 L).view.loc (thr d L) ↦[(oCh1_3 L).view.set]{fullShare} f))
      ⊢ (iprop(∃ f, o1Loc d ↦[(oBox (numL L)).set]{fullShare} f) : sProp 𝕄) := by
  rw [oCh1_0_set, oCh1_1_set, oCh1_2_set, oCh1_3_set, show (oBox (numL L)).set = _ from oPart_eq_chunks L (h0 := k0_off2_inb L 0) (h1 := k0_off2_inb L 1) (h2 := k0_off2_inb L 2) (h3 := k0_off2_inb L 3)]
  iintro ⟨H0, H1, H2, H3⟩
  ihave H23 := (join_ex (F := F) (UU := UU) (ℓ := o1Loc d) (q := fullShare) (chunks_d3 L)) $$ [H2 H3]
  · isplitl [H2] <;> iassumption
  ihave H123 := (join_ex (F := F) (UU := UU) (ℓ := o1Loc d) (q := fullShare) (chunks_d2 L)) $$ [H1 H23]
  · isplitl [H1] <;> iassumption
  iapply (join_ex (F := F) (UU := UU) (ℓ := o1Loc d) (q := fullShare) (chunks_d1 L))
  isplitl [H0] <;> iassumption
theorem iSlab2_set : (iSlab2 L).view.set = (iBox (numL L)).set := by
  show (((View.whole main_v2_scv).slice (Rect.unit (s := S32x4x128) (k0_off1 L) S1x4x128.size (k0_off1_inb L))).reshape S4x128 squeezes_S1x4x128_S4x128.numel_eq).set = _
  rw [View.set_reshape, View.set_slice_whole]; exact slabRect_set L
theorem pts_i2 (f : Buf (Elt F) (i2Loc d)) :
    ((iSlab2 L).view.loc (thr d L) ↦[(iSlab2 L).view.set]{fullShare} f : sProp 𝕄) = i2Loc d ↦[(iBox (numL L)).set]{fullShare} f := by
  rw [iSlab2_set]
theorem pts_t2 (q : PosShare TreeShare) (f : Buf (Elt F) (t2Loc d)) :
    ((tab2).view.loc (thr d L) ↦{q} f : sProp 𝕄) = t2Loc d ↦{q} f := rfl
theorem oCh2_0_set : (oCh2_0 L).view.set = (Rect.unit (s := S16384x128) (k0_off2 L 0#32) S128x128.size (k0_off2_inb L 0)).set := by
  show ((View.whole main_v9_2_scv).slice _).set = _
  rw [View.set_slice_whole]
theorem oCh2_1_set : (oCh2_1 L).view.set = (Rect.unit (s := S16384x128) (k0_off2 L 128#32) S128x128.size (k0_off2_inb L 1)).set := by
  show ((View.whole main_v9_2_scv).slice _).set = _
  rw [View.set_slice_whole]
theorem oCh2_2_set : (oCh2_2 L).view.set = (Rect.unit (s := S16384x128) (k0_off2 L 256#32) S128x128.size (k0_off2_inb L 2)).set := by
  show ((View.whole main_v9_2_scv).slice _).set = _
  rw [View.set_slice_whole]
theorem oCh2_3_set : (oCh2_3 L).view.set = (Rect.unit (s := S16384x128) (k0_off2 L 384#32) S128x128.size (k0_off2_inb L 3)).set := by
  show ((View.whole main_v9_2_scv).slice _).set = _
  rw [View.set_slice_whole]

/-- Output 2's part of the task is its four chunks; -/
theorem oPart2_split (f : Buf (Elt F) (o2Loc d)) :
    (o2Loc d ↦[(oBox (numL L)).set]{fullShare} f : sProp 𝕄)
      ⊢ iprop(((oCh2_0 L).view.loc (thr d L) ↦[(oCh2_0 L).view.set]{fullShare} f)
          ∗ ((oCh2_1 L).view.loc (thr d L) ↦[(oCh2_1 L).view.set]{fullShare} f)
          ∗ ((oCh2_2 L).view.loc (thr d L) ↦[(oCh2_2 L).view.set]{fullShare} f)
          ∗ ((oCh2_3 L).view.loc (thr d L) ↦[(oCh2_3 L).view.set]{fullShare} f)) := by
  rw [oCh2_0_set, oCh2_1_set, oCh2_2_set, oCh2_3_set]
  exact pointsTo_split4 (oPart_eq_chunks L) (chunks_d1 L) (chunks_d2 L) (chunks_d3 L)

/-- and four chunks at some contents each are the part at some contents. -/
theorem oPart2_join :
    iprop((∃ f, (oCh2_0 L).view.loc (thr d L) ↦[(oCh2_0 L).view.set]{fullShare} f)
          ∗ (∃ f, (oCh2_1 L).view.loc (thr d L) ↦[(oCh2_1 L).view.set]{fullShare} f)
          ∗ (∃ f, (oCh2_2 L).view.loc (thr d L) ↦[(oCh2_2 L).view.set]{fullShare} f)
          ∗ (∃ f, (oCh2_3 L).view.loc (thr d L) ↦[(oCh2_3 L).view.set]{fullShare} f))
      ⊢ (iprop(∃ f, o2Loc d ↦[(oBox (numL L)).set]{fullShare} f) : sProp 𝕄) := by
  rw [oCh2_0_set, oCh2_1_set, oCh2_2_set, oCh2_3_set, show (oBox (numL L)).set = _ from oPart_eq_chunks L (h0 := k0_off2_inb L 0) (h1 := k0_off2_inb L 1) (h2 := k0_off2_inb L 2) (h3 := k0_off2_inb L 3)]
  iintro ⟨H0, H1, H2, H3⟩
  ihave H23 := (join_ex (F := F) (UU := UU) (ℓ := o2Loc d) (q := fullShare) (chunks_d3 L)) $$ [H2 H3]
  · isplitl [H2] <;> iassumption
  ihave H123 := (join_ex (F := F) (UU := UU) (ℓ := o2Loc d) (q := fullShare) (chunks_d2 L)) $$ [H1 H23]
  · isplitl [H1] <;> iassumption
  iapply (join_ex (F := F) (UU := UU) (ℓ := o2Loc d) (q := fullShare) (chunks_d1 L))
  isplitl [H0] <;> iassumption

/-! ## The task on its parts -/

variable [FloatOps F]

theorem slab0_in_range (hpre : PreOK W) : ∀ y : S4x128.Idx, ((iSlab0 L).view.read (Elt F) (wI0 W d) y).toNat < 100000 := by
  intro y
  rw [show (iSlab0 L).view.read (Elt F) (wI0 W d) y = wI0 W d ((iSlab0 L).view.emb y) from (View.read_apply _ _).trans (cast_eq _ _)]
  exact (hpre d).1 _
theorem slab1_in_range (hpre : PreOK W) : ∀ y : S4x128.Idx, ((iSlab1 L).view.read (Elt F) (wI1 W d) y).toNat < 100000 := by
  intro y
  rw [show (iSlab1 L).view.read (Elt F) (wI1 W d) y = wI1 W d ((iSlab1 L).view.emb y) from (View.read_apply _ _).trans (cast_eq _ _)]
  exact (hpre d).2.1 _
theorem slab2_in_range (hpre : PreOK W) : ∀ y : S4x128.Idx, ((iSlab2 L).view.read (Elt F) (wI2 W d) y).toNat < 100000 := by
  intro y
  rw [show (iSlab2 L).view.read (Elt F) (wI2 W d) y = wI2 W d ((iSlab2 L).view.emb y) from (View.read_apply _ _).trans (cast_eq _ _)]
  exact (hpre d).2.2 _

set_option maxHeartbeats 4000000 in
set_option maxRecDepth 16384 in
/-- The task on vector subcore `L` of device `d`, from its part of the call's arrays and its own scoped storage, back
    to them. -/
theorem tile_body (hF : (K (F := F)).Facts) (hpre : PreOK W) (O : CellTallies nD τ sig (HIx 1)) (W0 : Waits sig (HIx 1)) (hO : ∀ g, O g none = 0) :
    iprop(levAts (K (F := F)).L (K (F := F)).lev ∗ emp ∗ taskRes W d (numL L)
        ∗ scopedBufs (thr d L) ∗ scopedSems0 (thr d L) ∗ owes (thr d L) O W0)
      ⊢ wp frame (wpE (defs₀ (F := F)) 𝒱₀ (thr d L) none) Set.univ
          (cc0_k L (Memref.whole main_v0_scv) (Memref.isWhole_whole _) (Memref.whole main_v1_scv) (Memref.isWhole_whole _) (Memref.whole main_v2_scv) (Memref.isWhole_whole _) (Memref.whole main_v4_scv) (Memref.isWhole_whole _) (Memref.whole main_v6_scv) (Memref.isWhole_whole _) (Memref.whole main_v8_scv) (Memref.isWhole_whole _) (Memref.whole main_v9_0_scv) (Memref.isWhole_whole _) (Memref.whole main_v9_1_scv) (Memref.isWhole_whole _) (Memref.whole main_v9_2_scv) (Memref.isWhole_whole _) (Memref.whole cc0_scratch0) (Memref.isWhole_whole _) (Memref.whole cc0_scratch1) (Memref.isWhole_whole _) cc0_scratch2 cc0_scratch3 cc0_scratch4)
          fun _ => iprop(taskRes W d (numL L) ∗ scopedBufs (thr d L) ∗ scopedSems0 (thr d L)
            ∗ ∃ W', ⌜∀ p ∈ W', p ∈ W0 ∨ p.2 = none⌝ ∗ owes (thr d L) O W') := by
  rw [(K (F := F)).scopedBufs_V hF d (cV L) (jV L), SparseCore.Cfg.scopedSems0_V (Val := Elt F) d (cV L) (jV L),
    ownSems0_task (F := F) (UU := UU) d L, ownBufs_task (F := F) (UU := UU) d L]
  unfold taskRes
  iintro ⟨#Hlv, -, ⟨Hi0, Hi1, Hi2, Ht0, Ht1, Ht2, ⟨%fo0, Ho0⟩, ⟨%fo1, Ho1⟩, ⟨%fo2, Ho2⟩⟩, ⟨⟨%fs0, Hsc0⟩, ⟨%fs1, Hsc1⟩, Hbufs⟩,
    ⟨Hc_i0, Hc_i1, Hc_i2, Hc_g0, Hc_g1, Hc_g2, Hc_g3, Hc_g4, Hc_g5, Hc_g6, Hc_w0, Hc_w1, Hc_w2, Hc_w3, Hc_w4, Hc_w5, Hc_w6, Hsems⟩, HO⟩
  ihave Hmw := (show levAts (K (F := F)).L (K (F := F)).lev ⊢ Transfers.MayWaits (thr d L) (default : HIx 1) O from
    (K (F := F)).mayWaits_none (thr := thr d L) hO) $$ Hlv
  ihave Hi0' := (Entails.of_eq (pts_i0 (F := F) d L _).symm) $$ Hi0
  ihave Hi1' := (Entails.of_eq (pts_i1 (F := F) d L _).symm) $$ Hi1
  ihave Hi2' := (Entails.of_eq (pts_i2 (F := F) d L _).symm) $$ Hi2
  ihave Hk0 := (toks10_split (F := F) (UU := UU) (X := Finset.univ) (tq (numL L))) $$ Ht0
  icases Hk0 with ⟨Hd0, Hk0_0, Hk0_1, Hk0_2, Hk0_3, Hk0_4, Hk0_5, Hk0_6, Hk0_7, Hk0_8, Hk0_9⟩
  ihave Hk1 := (toks10_split (F := F) (UU := UU) (X := Finset.univ) (tq (numL L))) $$ Ht1
  icases Hk1 with ⟨Hd1, Hk1_0, Hk1_1, Hk1_2, Hk1_3, Hk1_4, Hk1_5, Hk1_6, Hk1_7, Hk1_8, Hk1_9⟩
  ihave Hk2 := (toks10_split (F := F) (UU := UU) (X := Finset.univ) (tq (numL L))) $$ Ht2
  icases Hk2 with ⟨Hd2, Hk2_0, Hk2_1, Hk2_2, Hk2_3, Hk2_4, Hk2_5, Hk2_6, Hk2_7, Hk2_8, Hk2_9⟩
  ihave Hq0 := (oPart0_split (F := F) d L fo0) $$ Ho0
  icases Hq0 with ⟨Ho0_0, Ho0_1, Ho0_2, Ho0_3⟩
  ihave Hq1 := (oPart1_split (F := F) d L fo1) $$ Ho1
  icases Hq1 with ⟨Ho1_0, Ho1_1, Ho1_2, Ho1_3⟩
  ihave Hq2 := (oPart2_split (F := F) d L fo2) $$ Ho2
  icases Hq2 with ⟨Ho2_0, Ho2_1, Ho2_2, Ho2_3⟩
  ihave Hp := (Entails.of_eq (scratch0_planes (F := F) (UU := UU) d L fs0)) $$ Hsc0
  icases Hp with ⟨Hv0, Hv1, Hv2⟩
  ihave Hq := (Entails.of_eq (scratch1_slots (F := F) (UU := UU) d L fs1)) $$ Hsc1
  icases Hq with ⟨Hs0, Hs1, Hs2, Hs3, Hs4, Hs5, Hs6⟩
  iapply (wp_wand_r frame _ _)
  isplitl [Hmw Hi0' Hi1' Hi2' Hk0_3 Hk0_4 Hk0_5 Hk0_6 Hk1_7 Hk1_8 Hk1_9 Hk1_3 Hk2_4 Hk2_5 Hk2_6 Hk2_7 Ho0_0 Ho0_1 Ho0_2 Ho0_3 Ho1_0 Ho1_1 Ho1_2 Ho1_3 Ho2_0 Ho2_1 Ho2_2 Ho2_3 Hv0 Hv1 Hv2 Hs0 Hs1 Hs2 Hs3 Hs4 Hs5 Hs6 Hc_i0 Hc_i1 Hc_i2 Hc_g0 Hc_g1 Hc_g2 Hc_g3 Hc_g4 Hc_g5 Hc_g6 Hc_w0 Hc_w1 Hc_w2 Hc_w3 Hc_w4 Hc_w5 Hc_w6 HO]
  · iapply (task_core (F := F) (UU := UU) 𝒱₀ d L O W0 (tq (numL L)) (wI0 W d) (wI1 W d) (wI2 W d) (wT0 W d) (wT1 W d) (wT2 W d) fo0 fo0 fo0 fo0 fo1 fo1 fo1 fo1 fo2 fo2 fo2 fo2 fs0 fs0 fs0 fs1 fs1 fs1 fs1 fs1 fs1 fs1
      (slab0_in_range W d L hpre) (slab1_in_range W d L hpre) (slab2_in_range W d L hpre))
    isplitl [Hmw]; · iexact Hmw
    isplitl [Hi0']; · iexact Hi0'
    isplitl [Hi1']; · iexact Hi1'
    isplitl [Hi2']; · iexact Hi2'
    isplitl [Hk0_3]; · iexact Hk0_3
    isplitl [Hk0_4]; · iexact Hk0_4
    isplitl [Hk0_5]; · iexact Hk0_5
    isplitl [Hk0_6]; · iexact Hk0_6
    isplitl [Hk1_7]; · iexact Hk1_7
    isplitl [Hk1_8]; · iexact Hk1_8
    isplitl [Hk1_9]; · iexact Hk1_9
    isplitl [Hk1_3]; · iexact Hk1_3
    isplitl [Hk2_4]; · iexact Hk2_4
    isplitl [Hk2_5]; · iexact Hk2_5
    isplitl [Hk2_6]; · iexact Hk2_6
    isplitl [Hk2_7]; · iexact Hk2_7
    isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Hv0]; · iexact Hv0
    isplitl [Hv1]; · iexact Hv1
    isplitl [Hv2]; · iexact Hv2
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hc_i0]; · iexact Hc_i0
    isplitl [Hc_i1]; · iexact Hc_i1
    isplitl [Hc_i2]; · iexact Hc_i2
    isplitl [Hc_g0]; · iexact Hc_g0
    isplitl [Hc_g1]; · iexact Hc_g1
    isplitl [Hc_g2]; · iexact Hc_g2
    isplitl [Hc_g3]; · iexact Hc_g3
    isplitl [Hc_g4]; · iexact Hc_g4
    isplitl [Hc_g5]; · iexact Hc_g5
    isplitl [Hc_g6]; · iexact Hc_g6
    isplitl [Hc_w0]; · iexact Hc_w0
    isplitl [Hc_w1]; · iexact Hc_w1
    isplitl [Hc_w2]; · iexact Hc_w2
    isplitl [Hc_w3]; · iexact Hc_w3
    isplitl [Hc_w4]; · iexact Hc_w4
    isplitl [Hc_w5]; · iexact Hc_w5
    isplitl [Hc_w6]; · iexact Hc_w6
    iexact HO
  iintro %_ Hpost
  icases Hpost with ⟨Hi0', Hi1', Hi2', Hk0_3, Hk0_4, Hk0_5, Hk0_6, Hk1_7, Hk1_8, Hk1_9, Hk1_3, Hk2_4, Hk2_5, Hk2_6, Hk2_7, Ho0_0, Ho0_1, Ho0_2, Ho0_3, Ho1_0, Ho1_1, Ho1_2, Ho1_3, Ho2_0, Ho2_1, Ho2_2, Ho2_3, Hv0, Hv1, Hv2, Hs0, Hs1, Hs2, Hs3, Hs4, Hs5, Hs6, Hc_i0, Hc_i1, Hc_i2, Hc_g0, Hc_g1, Hc_g2, Hc_g3, Hc_g4, Hc_g5, Hc_g6, Hc_w0, Hc_w1, Hc_w2, Hc_w3, Hc_w4, Hc_w5, Hc_w6, ⟨%W', %hW', HO⟩⟩
  -- the call's arrays
  isplitl [Hi0' Hi1' Hi2' Hd0 Hk0_0 Hk0_1 Hk0_2 Hk0_3 Hk0_4 Hk0_5 Hk0_6 Hk0_7 Hk0_8 Hk0_9 Hd1 Hk1_0 Hk1_1 Hk1_2 Hk1_3 Hk1_4 Hk1_5 Hk1_6 Hk1_7 Hk1_8 Hk1_9 Hd2 Hk2_0 Hk2_1 Hk2_2 Hk2_3 Hk2_4 Hk2_5 Hk2_6 Hk2_7 Hk2_8 Hk2_9 Ho0_0 Ho0_1 Ho0_2 Ho0_3 Ho1_0 Ho1_1 Ho1_2 Ho1_3 Ho2_0 Ho2_1 Ho2_2 Ho2_3]
  · isplitl [Hi0']; · iapply (Entails.of_eq (pts_i0 (F := F) d L _)); iexact Hi0'
    isplitl [Hi1']; · iapply (Entails.of_eq (pts_i1 (F := F) d L _)); iexact Hi1'
    isplitl [Hi2']; · iapply (Entails.of_eq (pts_i2 (F := F) d L _)); iexact Hi2'
    isplitl [Hd0 Hk0_0 Hk0_1 Hk0_2 Hk0_3 Hk0_4 Hk0_5 Hk0_6 Hk0_7 Hk0_8 Hk0_9]
    · iapply (toks10_join (F := F) (UU := UU) (X := Finset.univ) (tq (numL L)))
      isplitl [Hd0]; · iexact Hd0
      isplitl [Hk0_0]; · iexact Hk0_0
      isplitl [Hk0_1]; · iexact Hk0_1
      isplitl [Hk0_2]; · iexact Hk0_2
      isplitl [Hk0_3]; · iexact Hk0_3
      isplitl [Hk0_4]; · iexact Hk0_4
      isplitl [Hk0_5]; · iexact Hk0_5
      isplitl [Hk0_6]; · iexact Hk0_6
      isplitl [Hk0_7]; · iexact Hk0_7
      isplitl [Hk0_8]; · iexact Hk0_8
      iexact Hk0_9
    isplitl [Hd1 Hk1_0 Hk1_1 Hk1_2 Hk1_3 Hk1_4 Hk1_5 Hk1_6 Hk1_7 Hk1_8 Hk1_9]
    · iapply (toks10_join (F := F) (UU := UU) (X := Finset.univ) (tq (numL L)))
      isplitl [Hd1]; · iexact Hd1
      isplitl [Hk1_0]; · iexact Hk1_0
      isplitl [Hk1_1]; · iexact Hk1_1
      isplitl [Hk1_2]; · iexact Hk1_2
      isplitl [Hk1_3]; · iexact Hk1_3
      isplitl [Hk1_4]; · iexact Hk1_4
      isplitl [Hk1_5]; · iexact Hk1_5
      isplitl [Hk1_6]; · iexact Hk1_6
      isplitl [Hk1_7]; · iexact Hk1_7
      isplitl [Hk1_8]; · iexact Hk1_8
      iexact Hk1_9
    isplitl [Hd2 Hk2_0 Hk2_1 Hk2_2 Hk2_3 Hk2_4 Hk2_5 Hk2_6 Hk2_7 Hk2_8 Hk2_9]
    · iapply (toks10_join (F := F) (UU := UU) (X := Finset.univ) (tq (numL L)))
      isplitl [Hd2]; · iexact Hd2
      isplitl [Hk2_0]; · iexact Hk2_0
      isplitl [Hk2_1]; · iexact Hk2_1
      isplitl [Hk2_2]; · iexact Hk2_2
      isplitl [Hk2_3]; · iexact Hk2_3
      isplitl [Hk2_4]; · iexact Hk2_4
      isplitl [Hk2_5]; · iexact Hk2_5
      isplitl [Hk2_6]; · iexact Hk2_6
      isplitl [Hk2_7]; · iexact Hk2_7
      isplitl [Hk2_8]; · iexact Hk2_8
      iexact Hk2_9
    isplitl [Ho0_0 Ho0_1 Ho0_2 Ho0_3]
    · iapply (oPart0_join (F := F) d L)
      isplitl [Ho0_0]; · iexact Ho0_0
      isplitl [Ho0_1]; · iexact Ho0_1
      isplitl [Ho0_2]; · iexact Ho0_2
      iexact Ho0_3
    isplitl [Ho1_0 Ho1_1 Ho1_2 Ho1_3]
    · iapply (oPart1_join (F := F) d L)
      isplitl [Ho1_0]; · iexact Ho1_0
      isplitl [Ho1_1]; · iexact Ho1_1
      isplitl [Ho1_2]; · iexact Ho1_2
      iexact Ho1_3
    iapply (oPart2_join (F := F) d L)
    isplitl [Ho2_0]; · iexact Ho2_0
    isplitl [Ho2_1]; · iexact Ho2_1
    isplitl [Ho2_2]; · iexact Ho2_2
    iexact Ho2_3
  -- the subcore's own buffers
  isplitl [Hv0 Hv1 Hv2 Hs0 Hs1 Hs2 Hs3 Hs4 Hs5 Hs6 Hbufs]
  · isplitl [Hv0 Hv1 Hv2]
    · iapply (planes_join (F := F) (UU := UU) d L)
      isplitl [Hv0]; · iexact Hv0
      isplitl [Hv1]; · iexact Hv1
      iexact Hv2
    isplitl [Hs0 Hs1 Hs2 Hs3 Hs4 Hs5 Hs6]
    · iapply (slots_join (F := F) (UU := UU) d L)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    iexact Hbufs
  -- its semaphores
  isplitl [Hc_i0 Hc_i1 Hc_i2 Hc_g0 Hc_g1 Hc_g2 Hc_g3 Hc_g4 Hc_g5 Hc_g6 Hc_w0 Hc_w1 Hc_w2 Hc_w3 Hc_w4 Hc_w5 Hc_w6 Hsems]
  · isplitl [Hc_i0]; · iexact Hc_i0
    isplitl [Hc_i1]; · iexact Hc_i1
    isplitl [Hc_i2]; · iexact Hc_i2
    isplitl [Hc_g0]; · iexact Hc_g0
    isplitl [Hc_g1]; · iexact Hc_g1
    isplitl [Hc_g2]; · iexact Hc_g2
    isplitl [Hc_g3]; · iexact Hc_g3
    isplitl [Hc_g4]; · iexact Hc_g4
    isplitl [Hc_g5]; · iexact Hc_g5
    isplitl [Hc_g6]; · iexact Hc_g6
    isplitl [Hc_w0]; · iexact Hc_w0
    isplitl [Hc_w1]; · iexact Hc_w1
    isplitl [Hc_w2]; · iexact Hc_w2
    isplitl [Hc_w3]; · iexact Hc_w3
    isplitl [Hc_w4]; · iexact Hc_w4
    isplitl [Hc_w5]; · iexact Hc_w5
    isplitl [Hc_w6]; · iexact Hc_w6
    iexact Hsems
  iexists W'; isplitr
  · ipureintro; exact hW'
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_v0_scv) (Memref.isWhole_whole _) (Memref.whole main_v1_scv) (Memref.isWhole_whole _) (Memref.whole main_v2_scv) (Memref.isWhole_whole _) (Memref.whole main_v4_scv) (Memref.isWhole_whole _) (Memref.whole main_v6_scv) (Memref.isWhole_whole _) (Memref.whole main_v8_scv) (Memref.isWhole_whole _) (Memref.whole main_v9_0_scv) (Memref.isWhole_whole _) (Memref.whole main_v9_1_scv) (Memref.isWhole_whole _) (Memref.whole main_v9_2_scv) (Memref.isWhole_whole _) (Memref.whole cc0_scratch0) (Memref.isWhole_whole _) (Memref.whole cc0_scratch1) (Memref.isWhole_whole _) cc0_scratch2 cc0_scratch3 cc0_scratch4) ⟨⟩ c s := rfl

omit [FloatOps F] in
theorem obl_post {t : Thread nD τ} {A B C : sProp 𝕄} {O : CellTallies nD τ sig (HIx 1)} {W0 : Waits sig (HIx 1)} {q : Fin 1} :
    iprop(A ∗ B ∗ C ∗ ∃ W', ⌜∀ p ∈ W', p ∈ W0 ∨ p.2 = none⌝ ∗ owes t O W')
      ⊢ iprop(A ∗ B ∗ C ∗ ∃ W', ⌜∀ p ∈ W', p ∈ W0 ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem numL_coordsV (c : Fin (grid0.bound 0)) (s : Fin (grid0.bound 1)) :
    numL (coordsV c s) = taskNo ⟨c.val, c.isLt⟩ ⟨s.val, s.isLt⟩ := rfl

set_option maxRecDepth 16384 in
/-- The launch theorem's obligation for the call's vector subcores. -/
theorem tileObl (hF : (K (F := F)).Facts) (hpre : PreOK W) : (K (F := F)).TileObl (D (F := F)) 𝒱 (P W) v₀ 0 := by
  intro d c i O W0 hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body W d (coordsV ⟨_, hci.1⟩ ⟨_, hci.2⟩) hF hpre O W0 hO).trans (wp_mono frame _ _ fun _ => obl_post)

end Cert.Proof.KI

end
-- ==== Proof.RegionBody1.lean ====
/-
  The first TensorCore region (the precomputation of the small products): its kernel body run on any staging buffers.
-/
import proofs.«211833_g48473000902786_cont_8to1_c_597_31_alg».proof.Proof.RegionSetup
import proofs.«211833_g48473000902786_cont_8to1_c_597_31_alg».proof.Proof.Gen.KernelIdeal.Skeleton
import Idealize.ShloMosaic.Lib.Tactic

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- The body of the first region (the small products) on any eighteen whole staging buffers, each held whole at any contents: it runs to its
    return — loads of the operand buffers, stores into the result buffers, nothing else — and hands every buffer back,
    held whole at some contents. -/
theorem run1 (c : Dev nD) (i : grid1.Coords) (a1 : Memref sig .tc .vmem S16x64 .f32) (h1 : a1.IsWhole) (a2 : Memref sig .tc .vmem S400x64 .f32) (h2 : a2.IsWhole) (a3 : Memref sig .tc .vmem S4x64 .f32) (h3 : a3.IsWhole) (a4 : Memref sig .tc .vmem S64x64 .f32) (h4 : a4.IsWhole) (a5 : Memref sig .tc .vmem S64x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S64x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S16x64 .f32) (h13 : a13.IsWhole) (a14 : Memref sig .tc .vmem S400x64 .f32) (h14 : a14.IsWhole) (a15 : Memref sig .tc .vmem S4x64 .f32) (h15 : a15.IsWhole) (a16 : Memref sig .tc .vmem S64x64 .f32) (h16 : a16.IsWhole) (a17 : Memref sig .tc .vmem S1x64 .f32) (h17 : a17.IsWhole) (a18 : Memref sig .tc .vmem S1x64 .f32) (h18 : a18.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18
        ∗ (iprop(ptE (F := F) c a1 ∗ ptE (F := F) c a2 ∗ ptE (F := F) c a3 ∗ ptE (F := F) c a4 ∗ ptE (F := F) c a5 ∗ ptE (F := F) c a6 ∗ ptE (F := F) c a7 ∗ ptE (F := F) c a8 ∗ ptE (F := F) c a9 ∗ ptE (F := F) c a10 ∗ ptE (F := F) c a11 ∗ ptE (F := F) c a12 ∗ ptE (F := F) c a13 ∗ ptE (F := F) c a14 ∗ ptE (F := F) c a15 ∗ ptE (F := F) c a16 ∗ ptE (F := F) c a17 ∗ ptE (F := F) c a18) -∗ Q ⟨⟩))
      ⊢ wp frame (wpE (defs₀ (F := F)) 𝒱₀ (c : Thread nD τ) none) Set.univ (cc1__pre_body i a1 h1 a2 h2 a3 h3 a4 h4 a5 h5 a6 h6 a7 h7 a8 h8 a9 h9 a10 h10 a11 h11 a12 h12 a13 h13 a14 h14 a15 h15 a16 h16 a17 h17 a18 h18) Q := by
  iintro ⟨H1, H2, H3, H4, H5, H6, H7, H8, H9, H10, H11, H12, H13, H14, H15, H16, H17, H18, Hk⟩
  sl_unfold [cc1__pre_body]
  sl_exec
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.Region

end
-- ==== Proof.RegionPre.lean ====
/-
  The first TensorCore region (the precomputation of the small products) inside @main of the whole program: its
  proof data (nothing said of what the body leaves), its body obligation, the region as a segment over the thread state
  "every unscoped buffer whole at a valuation", and its step under the program's full body table.
-/
import proofs.«211833_g48473000902786_cont_8to1_c_597_31_alg».proof.Proof.RegionBody1
import proofs.«211833_g48473000902786_cont_8to1_c_597_31_alg».proof.Proof.Gen.KernelIdeal.Points
import Idealize.ShloMosaic.Lib.Pipeline.Regions
import Idealize.ShloMosaic.Lib.StableHlo.Run

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

section Region1

variable (W : Valuation τ sig (Elt F))

/-! ## The windows' arrays -/

/-- The distinct buffers behind the windows' arrays, -/
abbrev arrs1 : Finset (DevRef τ sig) := {(Proc.devRef .tc (main_arg8 : Ref sig .tc) : DevRef τ sig), (Proc.devRef .tc (main_arg10 : Ref sig .tc) : DevRef τ sig), (Proc.devRef .tc (main_arg12 : Ref sig .tc) : DevRef τ sig), (Proc.devRef .tc (main_arg13 : Ref sig .tc) : DevRef τ sig), (Proc.devRef .tc (main_arg17 : Ref sig .tc) : DevRef τ sig), (Proc.devRef .tc (main_arg15 : Ref sig .tc) : DevRef τ sig), (Proc.devRef .tc (main_v10 : Ref sig .tc) : DevRef τ sig), (Proc.devRef .tc (main_v11 : Ref sig .tc) : DevRef τ sig), (Proc.devRef .tc (main_v12_0 : Ref sig .tc) : DevRef τ sig), (Proc.devRef .tc (main_v12_1 : Ref sig .tc) : DevRef τ sig), (Proc.devRef .tc (main_v12_2 : Ref sig .tc) : DevRef τ sig), (Proc.devRef .tc (main_v12_3 : Ref sig .tc) : DevRef τ sig), (Proc.devRef .tc (main_v12_4 : Ref sig .tc) : DevRef τ sig), (Proc.devRef .tc (main_v12_5 : Ref sig .tc) : DevRef τ sig)}
/-- and the results among them. -/
abbrev outs1 : Finset (DevRef τ sig) := {(Proc.devRef .tc (main_v12_0 : Ref sig .tc) : DevRef τ sig), (Proc.devRef .tc (main_v12_1 : Ref sig .tc) : DevRef τ sig), (Proc.devRef .tc (main_v12_2 : Ref sig .tc) : DevRef τ sig), (Proc.devRef .tc (main_v12_3 : Ref sig .tc) : DevRef τ sig), (Proc.devRef .tc (main_v12_4 : Ref sig .tc) : DevRef τ sig), (Proc.devRef .tc (main_v12_5 : Ref sig .tc) : DevRef τ sig)}

theorem arrs1_sub : arrs1 ⊆ Pipeline.ucRefs τ sig := fun b hb => by
  unfold arrs1 at hb
  simp only [Finset.mem_insert, Finset.mem_singleton] at hb
  rcases hb with rfl | rfl | rfl | rfl | rfl | rfl | rfl | rfl | rfl | rfl | rfl | rfl | rfl | rfl <;> exact mem_uc _ (by decide)

theorem outs1_sub : outs1 ⊆ arrs1 := by decide

theorem held_arrs1 (d : Dev nD) (W : Valuation τ sig (Elt F)) :
    (StableHlo.held (T d) arrs1 W : sProp 𝕄) = iprop(pr d W fullShare main_arg8 ∗ pr d W fullShare main_arg10 ∗ pr d W fullShare main_arg12 ∗ pr d W fullShare main_arg13 ∗ pr d W fullShare main_arg17 ∗ pr d W fullShare main_arg15 ∗ pr d W fullShare main_v10 ∗ pr d W fullShare main_v11 ∗ pr d W fullShare main_v12_0 ∗ pr d W fullShare main_v12_1 ∗ pr d W fullShare main_v12_2 ∗ pr d W fullShare main_v12_3 ∗ pr d W fullShare main_v12_4 ∗ pr d W fullShare main_v12_5) := by
  unfold StableHlo.held arrs1
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The share each window holds its array at: the full share, but for the windows on one array, which hold it at
    disjoint shares composing to the full one. -/
def q1 : Fin 18 → PosShare TreeShare := fun
  | 4 => Transfers.shareDrop fullShare 4
  | 5 => Transfers.shareTokN fullShare 0
  | 6 => Transfers.shareTokN fullShare 1
  | 7 => Transfers.shareTokN fullShare 2
  | 8 => Transfers.shareTokN fullShare 3
  | _ => fullShare

/-! ## The proof data: nothing is said of what the body leaves in a buffer -/

/-- The invariant between the region's ends: the scoped buffers the pipeline does not stage. -/
abbrev Φc1 (d : Dev nD) : sProp 𝕄 := Pipeline.scopedRest (Ix := HIx 1) (Name := ℕ) (U := UU) (Lvl := ℕ) (Val := Elt F) spec1 d

def rdat1 (d : Dev nD) : RDat τ (Elt F) (HIx 1) ℕ UU ℕ cfg1 d where
  A w := W (Pipeline.arrRef spec1 w)
  after _ _ _ _ := True
  Φ _ := Φc1 d
  q w := q1 w
  owed _ := 0
  recorded _ := {p | (K (F := F)).lev ((T d), p.1) p.2 ≤ 8 * 1}

/-- The other pipeline's proof data, which this region's entry does not read: its arrays at the valuation, nothing else. -/
def rdatO1 (d : Dev nD) : RDat τ (Elt F) (HIx 1) ℕ UU ℕ cfg2 d where
  A w := W (Pipeline.arrRef spec2 w)
  after _ _ _ _ := True
  Φ _ := BI.emp
  q _ := fullShare
  owed _ := 0

/-- The proof data family, a literal match on the pipeline. -/
def rdats1 : (p : Fin 2) → (c : Dev nD) → RDat τ (Elt F) (HIx 1) ℕ UU ℕ (Pipeline.pin (pcfgs (F := F)) adm p) c
  | ⟨0, _⟩ => fun c => rdat1 W c
  | ⟨1, _⟩ => fun c => rdatO1 W c

theorem share1 (d : Dev nD) (w : Fin 18) : (rdat1 W d).share w = q1 w := by
  fin_cases w <;> rfl

theorem arrays1_eq (d : Dev nD) (Fs : (w : Fin 18) → Buf (Elt F) ((cfg1.win w).arr.view.loc (d : Thread nD τ))) :
    ((rdat1 W d).arrays Fs : sProp 𝕄)
      = bigSep Finset.univ fun w => (((d : Thread nD τ).loc (Pipeline.arrRef spec1 w)) ↦{q1 w} Fs w : sProp 𝕄) := by
  have harr : ∀ w, (cfg1.win w).arr.IsWhole := arr_whole1
  unfold RDat.arrays
  exact bigSep_congr fun w _ => by rw [(harr w).set_eq_univ, share1]

theorem arraysAt1_eq (d : Dev nD) (k : ℕ) :
    ((rdat1 W d).arraysAt k : sProp 𝕄)
      = bigSep Finset.univ fun w => iprop(∃ Fw, ⌜(rdat1 W d).ArrAt w k Fw⌝ ∗ (((d : Thread nD τ).loc (Pipeline.arrRef spec1 w)) ↦{q1 w} Fw : sProp 𝕄)) := by
  have harr : ∀ w, (cfg1.win w).arr.IsWhole := arr_whole1
  unfold RDat.arraysAt
  exact bigSep_congr fun w _ => by rw [(harr w).set_eq_univ, share1]

/-- ENTRY: the buffers behind the arrays, whole at the valuation, are the windows' arrays at the entry contents. -/
theorem arrays1_entry (d : Dev nD) : (StableHlo.held (T d) arrs1 W : sProp 𝕄) ⊢ (rdat1 W d).arrays (rdat1 W d).A := by
  rw [held_arrs1, arrays1_eq, bigSep_W1]
  iintro ⟨H0, H1, H2, H3, H4, H5, H6, H7, H8, H9, H10, H11, H12, H13⟩
  ihave Hs4 := (pt_split4 (F := F)).1 $$ H4
  icases Hs4 with ⟨S4_0, S4_1, S4_2, S4_3, S4_4⟩
  isplitl [H0]; · iexact H0
  isplitl [H1]; · iexact H1
  isplitl [H2]; · iexact H2
  isplitl [H3]; · iexact H3
  isplitl [S4_0]; · iexact S4_0
  isplitl [S4_1]; · iexact S4_1
  isplitl [S4_2]; · iexact S4_2
  isplitl [S4_3]; · iexact S4_3
  isplitl [S4_4]; · iexact S4_4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A valuation that takes given contents at the results and agrees with `W` elsewhere. -/
theorem upd_facts1 (G0 : (Proc.devRef .tc (main_v12_0 : Ref sig .tc) : DevRef τ sig).ty.Contents (Elt F)) (G1 : (Proc.devRef .tc (main_v12_1 : Ref sig .tc) : DevRef τ sig).ty.Contents (Elt F)) (G2 : (Proc.devRef .tc (main_v12_2 : Ref sig .tc) : DevRef τ sig).ty.Contents (Elt F)) (G3 : (Proc.devRef .tc (main_v12_3 : Ref sig .tc) : DevRef τ sig).ty.Contents (Elt F)) (G4 : (Proc.devRef .tc (main_v12_4 : Ref sig .tc) : DevRef τ sig).ty.Contents (Elt F)) (G5 : (Proc.devRef .tc (main_v12_5 : Ref sig .tc) : DevRef τ sig).ty.Contents (Elt F)) :
    ∃ W' : Valuation τ sig (Elt F), (∀ b, b ∉ outs1 → W' b = W b) ∧ W' (Proc.devRef .tc (main_v12_0 : Ref sig .tc) : DevRef τ sig) = G0 ∧ W' (Proc.devRef .tc (main_v12_1 : Ref sig .tc) : DevRef τ sig) = G1 ∧ W' (Proc.devRef .tc (main_v12_2 : Ref sig .tc) : DevRef τ sig) = G2 ∧ W' (Proc.devRef .tc (main_v12_3 : Ref sig .tc) : DevRef τ sig) = G3 ∧ W' (Proc.devRef .tc (main_v12_4 : Ref sig .tc) : DevRef τ sig) = G4 ∧ W' (Proc.devRef .tc (main_v12_5 : Ref sig .tc) : DevRef τ sig) = G5 := by
  refine ⟨(Function.update (Function.update (Function.update (Function.update (Function.update (Function.update W (Proc.devRef .tc (main_v12_0 : Ref sig .tc) : DevRef τ sig) G0) (Proc.devRef .tc (main_v12_1 : Ref sig .tc) : DevRef τ sig) G1) (Proc.devRef .tc (main_v12_2 : Ref sig .tc) : DevRef τ sig) G2) (Proc.devRef .tc (main_v12_3 : Ref sig .tc) : DevRef τ sig) G3) (Proc.devRef .tc (main_v12_4 : Ref sig .tc) : DevRef τ sig) G4) (Proc.devRef .tc (main_v12_5 : Ref sig .tc) : DevRef τ sig) G5), ?_, ?_, ?_, ?_, ?_, ?_, ?_⟩
  · intro b hb
    unfold outs1 at hb
    simp only [Finset.mem_insert, Finset.mem_singleton, not_or] at hb
    rw [Function.update_of_ne hb.2.2.2.2.2, Function.update_of_ne hb.2.2.2.2.1, Function.update_of_ne hb.2.2.2.1, Function.update_of_ne hb.2.2.1, Function.update_of_ne hb.2.1, Function.update_of_ne hb.1]
  · rw [Function.update_of_ne (show (Proc.devRef .tc (main_v12_0 : Ref sig .tc) : DevRef τ sig) ≠ (Proc.devRef .tc (main_v12_5 : Ref sig .tc) : DevRef τ sig) by decide), Function.update_of_ne (show (Proc.devRef .tc (main_v12_0 : Ref sig .tc) : DevRef τ sig) ≠ (Proc.devRef .tc (main_v12_4 : Ref sig .tc) : DevRef τ sig) by decide), Function.update_of_ne (show (Proc.devRef .tc (main_v12_0 : Ref sig .tc) : DevRef τ sig) ≠ (Proc.devRef .tc (main_v12_3 : Ref sig .tc) : DevRef τ sig) by decide), Function.update_of_ne (show (Proc.devRef .tc (main_v12_0 : Ref sig .tc) : DevRef τ sig) ≠ (Proc.devRef .tc (main_v12_2 : Ref sig .tc) : DevRef τ sig) by decide), Function.update_of_ne (show (Proc.devRef .tc (main_v12_0 : Ref sig .tc) : DevRef τ sig) ≠ (Proc.devRef .tc (main_v12_1 : Ref sig .tc) : DevRef τ sig) by decide), Function.update_self]
  · rw [Function.update_of_ne (show (Proc.devRef .tc (main_v12_1 : Ref sig .tc) : DevRef τ sig) ≠ (Proc.devRef .tc (main_v12_5 : Ref sig .tc) : DevRef τ sig) by decide), Function.update_of_ne (show (Proc.devRef .tc (main_v12_1 : Ref sig .tc) : DevRef τ sig) ≠ (Proc.devRef .tc (main_v12_4 : Ref sig .tc) : DevRef τ sig) by decide), Function.update_of_ne (show (Proc.devRef .tc (main_v12_1 : Ref sig .tc) : DevRef τ sig) ≠ (Proc.devRef .tc (main_v12_3 : Ref sig .tc) : DevRef τ sig) by decide), Function.update_of_ne (show (Proc.devRef .tc (main_v12_1 : Ref sig .tc) : DevRef τ sig) ≠ (Proc.devRef .tc (main_v12_2 : Ref sig .tc) : DevRef τ sig) by decide), Function.update_self]
  · rw [Function.update_of_ne (show (Proc.devRef .tc (main_v12_2 : Ref sig .tc) : DevRef τ sig) ≠ (Proc.devRef .tc (main_v12_5 : Ref sig .tc) : DevRef τ sig) by decide), Function.update_of_ne (show (Proc.devRef .tc (main_v12_2 : Ref sig .tc) : DevRef τ sig) ≠ (Proc.devRef .tc (main_v12_4 : Ref sig .tc) : DevRef τ sig) by decide), Function.update_of_ne (show (Proc.devRef .tc (main_v12_2 : Ref sig .tc) : DevRef τ sig) ≠ (Proc.devRef .tc (main_v12_3 : Ref sig .tc) : DevRef τ sig) by decide), Function.update_self]
  · rw [Function.update_of_ne (show (Proc.devRef .tc (main_v12_3 : Ref sig .tc) : DevRef τ sig) ≠ (Proc.devRef .tc (main_v12_5 : Ref sig .tc) : DevRef τ sig) by decide), Function.update_of_ne (show (Proc.devRef .tc (main_v12_3 : Ref sig .tc) : DevRef τ sig) ≠ (Proc.devRef .tc (main_v12_4 : Ref sig .tc) : DevRef τ sig) by decide), Function.update_self]
  · rw [Function.update_of_ne (show (Proc.devRef .tc (main_v12_4 : Ref sig .tc) : DevRef τ sig) ≠ (Proc.devRef .tc (main_v12_5 : Ref sig .tc) : DevRef τ sig) by decide), Function.update_self]
  · rw [Function.update_self]

set_option maxHeartbeats 4000000 in
/-- EXIT: the windows' arrays after every write-back are those buffers whole at a valuation that differs from the
    entry's at the results only. -/
theorem arrays1_exit (d : Dev nD) (k : ℕ) : ((rdat1 W d).arraysAt k : sProp 𝕄)
    ⊢ iprop(∃ W' : Valuation τ sig (Elt F), ⌜∀ b, b ∉ outs1 → W' b = W b⌝ ∗ StableHlo.held (T d) arrs1 W') := by
  rw [arraysAt1_eq, bigSep_W1]
  iintro ⟨⟨%F0, %h0, A0⟩, ⟨%F1, %h1, A1⟩, ⟨%F2, %h2, A2⟩, ⟨%F3, %h3, A3⟩, ⟨%F4, %h4, A4⟩, ⟨%F5, %h5, A5⟩, ⟨%F6, %h6, A6⟩, ⟨%F7, %h7, A7⟩, ⟨%F8, %h8, A8⟩, ⟨%F9, %h9, A9⟩, ⟨%F10, %h10, A10⟩, ⟨%F11, %h11, A11⟩, ⟨%F12, -, A12⟩, ⟨%F13, -, A13⟩, ⟨%F14, -, A14⟩, ⟨%F15, -, A15⟩, ⟨%F16, -, A16⟩, ⟨%F17, -, A17⟩⟩
  rw [(rdat1 W d).ArrAt_in 0 rfl] at h0; subst h0
  rw [(rdat1 W d).ArrAt_in 1 rfl] at h1; subst h1
  rw [(rdat1 W d).ArrAt_in 2 rfl] at h2; subst h2
  rw [(rdat1 W d).ArrAt_in 3 rfl] at h3; subst h3
  rw [(rdat1 W d).ArrAt_in 4 rfl] at h4; subst h4
  rw [(rdat1 W d).ArrAt_in 5 rfl] at h5; subst h5
  rw [(rdat1 W d).ArrAt_in 6 rfl] at h6; subst h6
  rw [(rdat1 W d).ArrAt_in 7 rfl] at h7; subst h7
  rw [(rdat1 W d).ArrAt_in 8 rfl] at h8; subst h8
  rw [(rdat1 W d).ArrAt_in 9 rfl] at h9; subst h9
  rw [(rdat1 W d).ArrAt_in 10 rfl] at h10; subst h10
  rw [(rdat1 W d).ArrAt_in 11 rfl] at h11; subst h11
  ihave J4 := (pt_split4 (F := F)).2 $$ [A4 A5 A6 A7 A8]
  · isplitl [A4]; · iexact A4
    isplitl [A5]; · iexact A5
    isplitl [A6]; · iexact A6
    isplitl [A7]; · iexact A7
    iexact A8
  obtain ⟨W', hoff, e0, e1, e2, e3, e4, e5⟩ := upd_facts1 W F12 F13 F14 F15 F16 F17
  iexists W'
  isplitr; · ipureintro; exact hoff
  rw [held_arrs1]
  dsimp only [pr]
  rw [hoff (Proc.devRef .tc (main_arg8 : Ref sig .tc) : DevRef τ sig) (by decide),
    hoff (Proc.devRef .tc (main_arg10 : Ref sig .tc) : DevRef τ sig) (by decide),
    hoff (Proc.devRef .tc (main_arg12 : Ref sig .tc) : DevRef τ sig) (by decide),
    hoff (Proc.devRef .tc (main_arg13 : Ref sig .tc) : DevRef τ sig) (by decide),
    hoff (Proc.devRef .tc (main_arg17 : Ref sig .tc) : DevRef τ sig) (by decide),
    hoff (Proc.devRef .tc (main_arg15 : Ref sig .tc) : DevRef τ sig) (by decide),
    hoff (Proc.devRef .tc (main_v10 : Ref sig .tc) : DevRef τ sig) (by decide),
    hoff (Proc.devRef .tc (main_v11 : Ref sig .tc) : DevRef τ sig) (by decide),
    e0,
    e1,
    e2,
    e3,
    e4,
    e5]
  isplitl [A0]; · iexact A0
  isplitl [A1]; · iexact A1
  isplitl [A2]; · iexact A2
  isplitl [A3]; · iexact A3
  isplitl [J4]; · iexact J4
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  iexact A17

end Region1

section Seg1

variable (W : Valuation τ sig (Elt F))

/-! ## The body obligation -/

set_option maxHeartbeats 2000000 in
theorem body_obligation1 (d : Dev nD) : (rdat1 W d).BodyObligation (defs₀ (F := F)) 𝒱₀ (none : HIx 1) Set.univ := fun t Y _ => by
  rw [bigSep_W1, bigSep_W1]
  rw [show (rdat1 W d).Φ t.castSucc = Φc1 d from rfl, show (rdat1 W d).Φ t.succ = Φc1 d from rfl,
    show (rdat1 W d).owesAt (none : HIx 1) t.succ = (rdat1 W d).owesAt (none : HIx 1) t.castSucc from rfl]
  show _ ⊢ wp frame (wpE (defs₀ (F := F)) 𝒱₀ (d : Thread nD τ) none) Set.univ (bodyAt1 t) _
  unfold owns
  iintro ⟨HΦ, HO, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩, ⟨%f10, -, H10⟩, ⟨%f11, -, H11⟩, ⟨%f12, -, H12⟩, ⟨%f13, -, H13⟩, ⟨%f14, -, H14⟩, ⟨%f15, -, H15⟩, ⟨%f16, -, H16⟩, ⟨%f17, -, H17⟩⟩
  iapply (run1 (F := F) d _ _ _ _ _ _ _ _ _ _ _ _ _ _ _ _ _ _ _ _ _ _ _ _ _ _ _ _ _ _ _ _ _ _ _ _ _ f0 f1 f2 f3 f4 f5 f6 f7 f8 f9 f10 f11 f12 f13 f14 f15 f16 f17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩, ⟨%g12, G12⟩, ⟨%g13, G13⟩, ⟨%g14, G14⟩, ⟨%g15, G15⟩, ⟨%g16, G16⟩, ⟨%g17, G17⟩⟩
  isplitl [HΦ]; · iexact HΦ
  isplitl [HO]; · iexact HO
  isplitl [G0]
  · iexists ((st1_0 t).view.read (Elt F) g0); isplitr; · ipureintro; trivial
    iexists g0; isplitr; · ipureintro; rfl
    iexact G0
  isplitl [G1]
  · iexists ((st1_1 t).view.read (Elt F) g1); isplitr; · ipureintro; trivial
    iexists g1; isplitr; · ipureintro; rfl
    iexact G1
  isplitl [G2]
  · iexists ((st1_2 t).view.read (Elt F) g2); isplitr; · ipureintro; trivial
    iexists g2; isplitr; · ipureintro; rfl
    iexact G2
  isplitl [G3]
  · iexists ((st1_3 t).view.read (Elt F) g3); isplitr; · ipureintro; trivial
    iexists g3; isplitr; · ipureintro; rfl
    iexact G3
  isplitl [G4]
  · iexists ((st1_4 t).view.read (Elt F) g4); isplitr; · ipureintro; trivial
    iexists g4; isplitr; · ipureintro; rfl
    iexact G4
  isplitl [G5]
  · iexists ((st1_5 t).view.read (Elt F) g5); isplitr; · ipureintro; trivial
    iexists g5; isplitr; · ipureintro; rfl
    iexact G5
  isplitl [G6]
  · iexists ((st1_6 t).view.read (Elt F) g6); isplitr; · ipureintro; trivial
    iexists g6; isplitr; · ipureintro; rfl
    iexact G6
  isplitl [G7]
  · iexists ((st1_7 t).view.read (Elt F) g7); isplitr; · ipureintro; trivial
    iexists g7; isplitr; · ipureintro; rfl
    iexact G7
  isplitl [G8]
  · iexists ((st1_8 t).view.read (Elt F) g8); isplitr; · ipureintro; trivial
    iexists g8; isplitr; · ipureintro; rfl
    iexact G8
  isplitl [G9]
  · iexists ((st1_9 t).view.read (Elt F) g9); isplitr; · ipureintro; trivial
    iexists g9; isplitr; · ipureintro; rfl
    iexact G9
  isplitl [G10]
  · iexists ((st1_10 t).view.read (Elt F) g10); isplitr; · ipureintro; trivial
    iexists g10; isplitr; · ipureintro; rfl
    iexact G10
  isplitl [G11]
  · iexists ((st1_11 t).view.read (Elt F) g11); isplitr; · ipureintro; trivial
    iexists g11; isplitr; · ipureintro; rfl
    iexact G11
  isplitl [G12]
  · iexists ((st1_12 t).view.read (Elt F) g12); isplitr; · ipureintro; trivial
    iexists g12; isplitr; · ipureintro; rfl
    iexact G12
  isplitl [G13]
  · iexists ((st1_13 t).view.read (Elt F) g13); isplitr; · ipureintro; trivial
    iexists g13; isplitr; · ipureintro; rfl
    iexact G13
  isplitl [G14]
  · iexists ((st1_14 t).view.read (Elt F) g14); isplitr; · ipureintro; trivial
    iexists g14; isplitr; · ipureintro; rfl
    iexact G14
  isplitl [G15]
  · iexists ((st1_15 t).view.read (Elt F) g15); isplitr; · ipureintro; trivial
    iexists g15; isplitr; · ipureintro; rfl
    iexact G15
  isplitl [G16]
  · iexists ((st1_16 t).view.read (Elt F) g16); isplitr; · ipureintro; trivial
    iexists g16; isplitr; · ipureintro; rfl
    iexact G16
  iexists ((st1_17 t).view.read (Elt F) g17); isplitr; · ipureintro; trivial
  iexists g17; isplitr; · ipureintro; rfl
  iexact G17

/-! ## The region over the thread state -/

set_option backward.isDefEq.respectTransparency.types false in
/-- The region as a segment of @main: entered from every unscoped buffer of the TensorCore whole at `W` and the core
    owing nothing; left with them at a valuation that differs from `W` at the region's results only. Nothing enters
    the invariant but the scoped buffers the pipeline does not stage; the kernel has no semaphore of its own. -/
def reg1 : Pipeline.RDat.RegionSeg (pcfgs (F := F)) adm (rdats1 W) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody d := body_obligation1 W d
  hwaits := Pipeline.RDat.hwaits_of_owed_zero _ _ _ _ _ _ 0 fun _ _ => rfl
  pre d := iprop(StableHlo.held (T d) (Pipeline.ucRefs τ sig) W ∗ owesT (F := F) d)
  post d := iprop(∃ W' : Valuation τ sig (Elt F), ⌜∀ b, b ∉ outs1 → W' b = W b⌝ ∗ StableHlo.held (T d) (Pipeline.ucRefs τ sig) W' ∗ owesT (F := F) d)
  X _ := BI.emp
  Y _ := BI.emp
  Z d := StableHlo.held (T d) (Pipeline.ucRefs τ sig \ arrs1) W
  hentry d := by
    rw [Pipeline.ownSems0_none, StableHlo.held_sub_split (T d) arrs1_sub W]
    iintro ⟨⟨⟨Ha, Hrest⟩, HO⟩, -, -⟩
    imodintro
    isplitl [Ha]; · iapply (arrays1_entry W d); iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%Wt, %hWt, HO⟩; iexists Wt; isplitr
      · ipureintro; exact fun q hq => Or.inl (hWt q (Finset.mem_coe.mp hq))
      iexact HO
    isplitr; · iempintro
    iexact Hrest
  hin d := by
    rw [show (rdats1 W 0 d).Φ 0 = Φc1 d from rfl]
    iintro ⟨-, -, Hr⟩; iexact Hr
  hout d := by
    rw [Pipeline.ownSems0_none, show (rdats1 W 0 d).Φ (Fin.last _) = Φc1 d from rfl]
    iintro Hr
    isplitr; · iempintro
    isplitr; · iempintro
    iexact Hr
  hexit d := by
    have hx : ((rdats1 W 0 d).arraysAt (Pipeline.pin (pcfgs (F := F)) adm 0).N : sProp 𝕄)
        ⊢ iprop(∃ W' : Valuation τ sig (Elt F), ⌜∀ b, b ∉ outs1 → W' b = W b⌝ ∗ StableHlo.held (T d) arrs1 W') := arrays1_exit W d _
    iintro ⟨Ha, HO, -, Hrest⟩
    ihave Ha' := hx $$ Ha
    icases Ha' with ⟨%W', %hW', Ha⟩
    imodintro
    iexists W'
    isplitr; · ipureintro; exact hW'
    isplitl [Ha Hrest]
    · rw [StableHlo.held_sub_split (T d) arrs1_sub W',
        StableHlo.held_congr (T d) (V := W') (V' := W) fun b hb => hW' b fun h => (Finset.mem_sdiff.mp hb).2 (outs1_sub h)]
      isplitl [Ha] <;> iassumption
    unfold RDat.owesAt Pipeline.owesWithin
    icases HO with ⟨%Wt, %hWt, HO⟩; iexists Wt; isplitr
    · ipureintro; intro q hq
      rcases hWt (Finset.mem_coe.mpr hq) with h | ⟨w, s, rfl⟩
      · exact h
      · exact Nat.zero_le _
    iexact HO

/-! ## The region's step inside @main of the whole program -/

/-- The region's call in the whole program's labels is the call in the pipelines' labels, lifted. -/
theorem entry_lift0 :
    (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ())) := rfl

/-- What the region's step leaves: the TensorCore's state, the boundary, the buffers at a valuation that differs from
    `W` at the region's results only. -/
abbrev postR1 (d : Dev nD) : PUnit → sProp 𝕄 := fun _ =>
  iprop(∃ W' : Valuation τ sig (Elt F), ⌜∀ b, b ∉ outs1 → W' b = W b⌝
    ∗ (K (F := F)).tcSt EH d 1 ∗ boundary (T d) ∗ StableHlo.held (T d) (Pipeline.ucRefs τ sig) W')

set_option backward.isDefEq.respectTransparency.types false in
/-- Region 0 on device `d`'s TensorCore, after the SparseCore call: from the handshakes' records, the TensorCore's
    state after the call, the region boundary, every unscoped buffer whole at `W` and the region's staging cells' ghost
    state, the region's call runs to the same with the buffers at a valuation that differs from `W` at its results only. -/
theorem region_wp0 (P : (K (F := F)).Pay (nD := nD) (Val := Elt F) (Name := ℕ) (U := UU)) (κ : GSem nD τ sig → ℕ) (d : Dev nD)
    [∀ e, Nonempty (Elt F e)] :
    iprop((K (F := F)).ctx EH P κ ∗ (K (F := F)).tcSt EH d 1 ∗ boundary (T d) ∗ StableHlo.held (T d) (Pipeline.ucRefs τ sig) W ∗ Gp (F := F) 0 d)
      ⊢ wp frame (wpE ((K (F := F)).defs (D (F := F))) 𝒱 (T d) none) Set.univ
          (Prog.lift (.customCall (SparseCore.inner (Pipeline.entry 0)) ()))
          (postR1 W d) := by
  rw [entry_lift0]
  refine BIBase.Entails.trans ?_ ((K (F := F)).wp_liftProg (D (F := F)) 𝒱 (T d) Set.univ none
    (Prog.lift (.customCall (Pipeline.entry 0) ())) (postR1 W d))
  unfold postR1 SparseCore.Cfg.tcSt Gp
  rw [(K (F := F)).Otc_end d (le_refl 1)]
  iintro ⟨#Hctx, ⟨HO, Hst⟩, Hb, Hheld, Hg, Ht⟩
  ihave #Hla := (SparseCore.Cfg.ctx_levAts κ) $$ Hctx
  iapply (Pipeline.RDat.RegionSeg.wp (pcfgs (F := F)) adm (rdats1 W) (none : HIx 1) phinj EP defs₀ 𝒱₀ (K (F := F)).L (K (F := F)).lev
    (reg1 W) d none (fun u h => nomatch h) (fun x => .ret x) _)
  rw [show (reg1 W).pre d = iprop(StableHlo.held (T d) (Pipeline.ucRefs τ sig) W ∗ owesT (F := F) d) from rfl,
    show (reg1 W).post d = iprop(∃ W' : Valuation τ sig (Elt F), ⌜∀ b, b ∉ outs1 → W' b = W b⌝
      ∗ StableHlo.held (T d) (Pipeline.ucRefs τ sig) W' ∗ owesT (F := F) d) from rfl]
  isplitl [Hst]
  · iintro ⟨Hb, %W', %hW', Hheld, HO⟩
    rw [wp_ret]; imodintro
    iexists W'
    isplitr; · ipureintro; exact hW'
    isplitl [HO Hst]; · isplitl [HO] <;> iassumption
    isplitl [Hb] <;> iassumption
  isplitl [Hb]; · iexact Hb
  isplitl [Hheld HO]; · isplitl [Hheld] <;> iassumption
  isplitr; · iexact Hla
  isplitl [Hg] <;> iassumption

end Seg1

end Cert.Proof.Region

end
-- ==== Proof.RegionBody2.lean ====
/-
  The second TensorCore region (the sum over blocks of 2048 rows): its kernel body run on any staging buffers.
-/
import proofs.«211833_g48473000902786_cont_8to1_c_597_31_alg».proof.Proof.RegionSetup
import proofs.«211833_g48473000902786_cont_8to1_c_597_31_alg».proof.Proof.Gen.KernelIdeal.Skeleton
import Idealize.ShloMosaic.Lib.Tactic

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- The body of the second region (the sum, a block of 2048 rows at a time) on any eighteen whole staging buffers, each held whole at any contents: it runs to its
    return — loads of the operand buffers, stores into the result buffers, nothing else — and hands every buffer back,
    held whole at some contents. -/
theorem run2 (c : Dev nD) (i : grid2.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S2048x1 .i32) (h4 : a4.IsWhole) (a5 : Memref sig .tc .vmem S2048x1 .i32) (h5 : a5.IsWhole) (a6 : Memref sig .tc .vmem S2048x1 .i32) (h6 : a6.IsWhole) (a7 : Memref sig .tc .vmem S2048x1 .i32) (h7 : a7.IsWhole) (a8 : Memref sig .tc .vmem S2048x1 .f32) (h8 : a8.IsWhole) (a9 : Memref sig .tc .vmem S64x64 .f32) (h9 : a9.IsWhole) (a10 : Memref sig .tc .vmem S64x64 .f32) (h10 : a10.IsWhole) (a11 : Memref sig .tc .vmem S64x64 .f32) (h11 : a11.IsWhole) (a12 : Memref sig .tc .vmem S16x64 .f32) (h12 : a12.IsWhole) (a13 : Memref sig .tc .vmem S400x64 .f32) (h13 : a13.IsWhole) (a14 : Memref sig .tc .vmem S4x64 .f32) (h14 : a14.IsWhole) (a15 : Memref sig .tc .vmem S64x64 .f32) (h15 : a15.IsWhole) (a16 : Memref sig .tc .vmem S1x64 .f32) (h16 : a16.IsWhole) (a17 : Memref sig .tc .vmem S1x64 .f32) (h17 : a17.IsWhole) (a18 : Memref sig .tc .vmem S2048x64 .f32) (h18 : a18.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18
        ∗ (iprop(ptE (F := F) c a1 ∗ ptE (F := F) c a2 ∗ ptE (F := F) c a3 ∗ ptE (F := F) c a4 ∗ ptE (F := F) c a5 ∗ ptE (F := F) c a6 ∗ ptE (F := F) c a7 ∗ ptE (F := F) c a8 ∗ ptE (F := F) c a9 ∗ ptE (F := F) c a10 ∗ ptE (F := F) c a11 ∗ ptE (F := F) c a12 ∗ ptE (F := F) c a13 ∗ ptE (F := F) c a14 ∗ ptE (F := F) c a15 ∗ ptE (F := F) c a16 ∗ ptE (F := F) c a17 ∗ ptE (F := F) c a18) -∗ Q ⟨⟩))
      ⊢ wp frame (wpE (defs₀ (F := F)) 𝒱₀ (c : Thread nD τ) none) Set.univ (cc2__tc_body i a1 h1 a2 h2 a3 h3 a4 h4 a5 h5 a6 h6 a7 h7 a8 h8 a9 h9 a10 h10 a11 h11 a12 h12 a13 h13 a14 h14 a15 h15 a16 h16 a17 h17 a18 h18) Q := by
  iintro ⟨H1, H2, H3, H4, H5, H6, H7, H8, H9, H10, H11, H12, H13, H14, H15, H16, H17, H18, Hk⟩
  sl_unfold [cc2__tc_body]
  sl_exec
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.Region

end
-- ==== Proof.RegionProject.lean ====
/-
  The second TensorCore region (the sum, a block of 2048 rows at a time) inside @main of the whole program: its
  proof data (nothing said of what the body leaves), its body obligation, the region as a segment over the thread state
  "every unscoped buffer whole at a valuation", and its step under the program's full body table.
-/
import proofs.«211833_g48473000902786_cont_8to1_c_597_31_alg».proof.Proof.RegionBody2
import proofs.«211833_g48473000902786_cont_8to1_c_597_31_alg».proof.Proof.Gen.KernelIdeal.Points
import Idealize.ShloMosaic.Lib.Pipeline.Regions
import Idealize.ShloMosaic.Lib.StableHlo.Run

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

section Region2

variable (W : Valuation τ sig (Elt F))

/-! ## The windows' arrays -/

/-- The distinct buffers behind the windows' arrays, -/
abbrev arrs2 : Finset (DevRef τ sig) := {(Proc.devRef .tc (main_v9_0 : Ref sig .tc) : DevRef τ sig), (Proc.devRef .tc (main_v9_1 : Ref sig .tc) : DevRef τ sig), (Proc.devRef .tc (main_v9_2 : Ref sig .tc) : DevRef τ sig), (Proc.devRef .tc (main_v13 : Ref sig .tc) : DevRef τ sig), (Proc.devRef .tc (main_v14 : Ref sig .tc) : DevRef τ sig), (Proc.devRef .tc (main_v15 : Ref sig .tc) : DevRef τ sig), (Proc.devRef .tc (main_v16 : Ref sig .tc) : DevRef τ sig), (Proc.devRef .tc (main_v17 : Ref sig .tc) : DevRef τ sig), (Proc.devRef .tc (main_arg17 : Ref sig .tc) : DevRef τ sig), (Proc.devRef .tc (main_v12_0 : Ref sig .tc) : DevRef τ sig), (Proc.devRef .tc (main_v12_1 : Ref sig .tc) : DevRef τ sig), (Proc.devRef .tc (main_v12_2 : Ref sig .tc) : DevRef τ sig), (Proc.devRef .tc (main_v12_3 : Ref sig .tc) : DevRef τ sig), (Proc.devRef .tc (main_v12_4 : Ref sig .tc) : DevRef τ sig), (Proc.devRef .tc (main_v12_5 : Ref sig .tc) : DevRef τ sig), (Proc.devRef .tc (main_v18 : Ref sig .tc) : DevRef τ sig)}
/-- and the results among them. -/
abbrev outs2 : Finset (DevRef τ sig) := {(Proc.devRef .tc (main_v18 : Ref sig .tc) : DevRef τ sig)}

theorem arrs2_sub : arrs2 ⊆ Pipeline.ucRefs τ sig := fun b hb => by
  unfold arrs2 at hb
  simp only [Finset.mem_insert, Finset.mem_singleton] at hb
  rcases hb with rfl | rfl | rfl | rfl | rfl | rfl | rfl | rfl | rfl | rfl | rfl | rfl | rfl | rfl | rfl | rfl <;> exact mem_uc _ (by decide)

theorem outs2_sub : outs2 ⊆ arrs2 := by decide

theorem held_arrs2 (d : Dev nD) (W : Valuation τ sig (Elt F)) :
    (StableHlo.held (T d) arrs2 W : sProp 𝕄) = iprop(pr d W fullShare main_v9_0 ∗ pr d W fullShare main_v9_1 ∗ pr d W fullShare main_v9_2 ∗ pr d W fullShare main_v13 ∗ pr d W fullShare main_v14 ∗ pr d W fullShare main_v15 ∗ pr d W fullShare main_v16 ∗ pr d W fullShare main_v17 ∗ pr d W fullShare main_arg17 ∗ pr d W fullShare main_v12_0 ∗ pr d W fullShare main_v12_1 ∗ pr d W fullShare main_v12_2 ∗ pr d W fullShare main_v12_3 ∗ pr d W fullShare main_v12_4 ∗ pr d W fullShare main_v12_5 ∗ pr d W fullShare main_v18) := by
  unfold StableHlo.held arrs2
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The share each window holds its array at: the full share, but for the windows on one array, which hold it at
    disjoint shares composing to the full one. -/
def q2 : Fin 18 → PosShare TreeShare := fun
  | 8 => Transfers.shareDrop fullShare 2
  | 9 => Transfers.shareTokN fullShare 0
  | 10 => Transfers.shareTokN fullShare 1
  | _ => fullShare

/-! ## The proof data: nothing is said of what the body leaves in a buffer -/

/-- The invariant between the region's ends: the scoped buffers the pipeline does not stage. -/
abbrev Φc2 (d : Dev nD) : sProp 𝕄 := Pipeline.scopedRest (Ix := HIx 1) (Name := ℕ) (U := UU) (Lvl := ℕ) (Val := Elt F) spec2 d

def rdat2 (d : Dev nD) : RDat τ (Elt F) (HIx 1) ℕ UU ℕ cfg2 d where
  A w := W (Pipeline.arrRef spec2 w)
  after _ _ _ _ := True
  Φ _ := Φc2 d
  q w := q2 w
  owed _ := 0
  recorded _ := {p | (K (F := F)).lev ((T d), p.1) p.2 ≤ 8 * 1}

/-- The other pipeline's proof data, which this region's entry does not read: its arrays at the valuation, nothing else. -/
def rdatO2 (d : Dev nD) : RDat τ (Elt F) (HIx 1) ℕ UU ℕ cfg1 d where
  A w := W (Pipeline.arrRef spec1 w)
  after _ _ _ _ := True
  Φ _ := BI.emp
  q _ := fullShare
  owed _ := 0

/-- The proof data family, a literal match on the pipeline. -/
def rdats2 : (p : Fin 2) → (c : Dev nD) → RDat τ (Elt F) (HIx 1) ℕ UU ℕ (Pipeline.pin (pcfgs (F := F)) adm p) c
  | ⟨1, _⟩ => fun c => rdat2 W c
  | ⟨0, _⟩ => fun c => rdatO2 W c

theorem share2 (d : Dev nD) (w : Fin 18) : (rdat2 W d).share w = q2 w := by
  fin_cases w <;> rfl

theorem arrays2_eq (d : Dev nD) (Fs : (w : Fin 18) → Buf (Elt F) ((cfg2.win w).arr.view.loc (d : Thread nD τ))) :
    ((rdat2 W d).arrays Fs : sProp 𝕄)
      = bigSep Finset.univ fun w => (((d : Thread nD τ).loc (Pipeline.arrRef spec2 w)) ↦{q2 w} Fs w : sProp 𝕄) := by
  have harr : ∀ w, (cfg2.win w).arr.IsWhole := arr_whole2
  unfold RDat.arrays
  exact bigSep_congr fun w _ => by rw [(harr w).set_eq_univ, share2]

theorem arraysAt2_eq (d : Dev nD) (k : ℕ) :
    ((rdat2 W d).arraysAt k : sProp 𝕄)
      = bigSep Finset.univ fun w => iprop(∃ Fw, ⌜(rdat2 W d).ArrAt w k Fw⌝ ∗ (((d : Thread nD τ).loc (Pipeline.arrRef spec2 w)) ↦{q2 w} Fw : sProp 𝕄)) := by
  have harr : ∀ w, (cfg2.win w).arr.IsWhole := arr_whole2
  unfold RDat.arraysAt
  exact bigSep_congr fun w _ => by rw [(harr w).set_eq_univ, share2]

/-- ENTRY: the buffers behind the arrays, whole at the valuation, are the windows' arrays at the entry contents. -/
theorem arrays2_entry (d : Dev nD) : (StableHlo.held (T d) arrs2 W : sProp 𝕄) ⊢ (rdat2 W d).arrays (rdat2 W d).A := by
  rw [held_arrs2, arrays2_eq, bigSep_W2]
  iintro ⟨H0, H1, H2, H3, H4, H5, H6, H7, H8, H9, H10, H11, H12, H13, H14, H15⟩
  ihave Hs8 := (pt_split2 (F := F)).1 $$ H8
  icases Hs8 with ⟨S8_0, S8_1, S8_2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S8_0]; · iexact S8_0
  isplitl [S8_1]; · iexact S8_1
  isplitl [S8_2]; · iexact S8_2
  isplitl [H9]; · iexact H9
  isplitl [H10]; · iexact H10
  isplitl [H11]; · iexact H11
  isplitl [H12]; · iexact H12
  isplitl [H13]; · iexact H13
  isplitl [H14]; · iexact H14
  iexact H15

/-- A valuation that takes given contents at the results and agrees with `W` elsewhere. -/
theorem upd_facts2 (G0 : (Proc.devRef .tc (main_v18 : Ref sig .tc) : DevRef τ sig).ty.Contents (Elt F)) :
    ∃ W' : Valuation τ sig (Elt F), (∀ b, b ∉ outs2 → W' b = W b) ∧ W' (Proc.devRef .tc (main_v18 : Ref sig .tc) : DevRef τ sig) = G0 := by
  refine ⟨(Function.update W (Proc.devRef .tc (main_v18 : Ref sig .tc) : DevRef τ sig) G0), ?_, ?_⟩
  · intro b hb
    unfold outs2 at hb
    simp only [Finset.mem_insert, Finset.mem_singleton, not_or] at hb
    rw [Function.update_of_ne hb]
  · rw [Function.update_self]

set_option maxHeartbeats 4000000 in
/-- EXIT: the windows' arrays after every write-back are those buffers whole at a valuation that differs from the
    entry's at the results only. -/
theorem arrays2_exit (d : Dev nD) (k : ℕ) : ((rdat2 W d).arraysAt k : sProp 𝕄)
    ⊢ iprop(∃ W' : Valuation τ sig (Elt F), ⌜∀ b, b ∉ outs2 → W' b = W b⌝ ∗ StableHlo.held (T d) arrs2 W') := by
  rw [arraysAt2_eq, bigSep_W2]
  iintro ⟨⟨%F0, %h0, A0⟩, ⟨%F1, %h1, A1⟩, ⟨%F2, %h2, A2⟩, ⟨%F3, %h3, A3⟩, ⟨%F4, %h4, A4⟩, ⟨%F5, %h5, A5⟩, ⟨%F6, %h6, A6⟩, ⟨%F7, %h7, A7⟩, ⟨%F8, %h8, A8⟩, ⟨%F9, %h9, A9⟩, ⟨%F10, %h10, A10⟩, ⟨%F11, %h11, A11⟩, ⟨%F12, %h12, A12⟩, ⟨%F13, %h13, A13⟩, ⟨%F14, %h14, A14⟩, ⟨%F15, %h15, A15⟩, ⟨%F16, %h16, A16⟩, ⟨%F17, -, A17⟩⟩
  rw [(rdat2 W d).ArrAt_in 0 rfl] at h0; subst h0
  rw [(rdat2 W d).ArrAt_in 1 rfl] at h1; subst h1
  rw [(rdat2 W d).ArrAt_in 2 rfl] at h2; subst h2
  rw [(rdat2 W d).ArrAt_in 3 rfl] at h3; subst h3
  rw [(rdat2 W d).ArrAt_in 4 rfl] at h4; subst h4
  rw [(rdat2 W d).ArrAt_in 5 rfl] at h5; subst h5
  rw [(rdat2 W d).ArrAt_in 6 rfl] at h6; subst h6
  rw [(rdat2 W d).ArrAt_in 7 rfl] at h7; subst h7
  rw [(rdat2 W d).ArrAt_in 8 rfl] at h8; subst h8
  rw [(rdat2 W d).ArrAt_in 9 rfl] at h9; subst h9
  rw [(rdat2 W d).ArrAt_in 10 rfl] at h10; subst h10
  rw [(rdat2 W d).ArrAt_in 11 rfl] at h11; subst h11
  rw [(rdat2 W d).ArrAt_in 12 rfl] at h12; subst h12
  rw [(rdat2 W d).ArrAt_in 13 rfl] at h13; subst h13
  rw [(rdat2 W d).ArrAt_in 14 rfl] at h14; subst h14
  rw [(rdat2 W d).ArrAt_in 15 rfl] at h15; subst h15
  rw [(rdat2 W d).ArrAt_in 16 rfl] at h16; subst h16
  ihave J8 := (pt_split2 (F := F)).2 $$ [A8 A9 A10]
  · isplitl [A8]; · iexact A8
    isplitl [A9]; · iexact A9
    iexact A10
  obtain ⟨W', hoff, e0⟩ := upd_facts2 W F17
  iexists W'
  isplitr; · ipureintro; exact hoff
  rw [held_arrs2]
  dsimp only [pr]
  rw [hoff (Proc.devRef .tc (main_v9_0 : Ref sig .tc) : DevRef τ sig) (by decide),
    hoff (Proc.devRef .tc (main_v9_1 : Ref sig .tc) : DevRef τ sig) (by decide),
    hoff (Proc.devRef .tc (main_v9_2 : Ref sig .tc) : DevRef τ sig) (by decide),
    hoff (Proc.devRef .tc (main_v13 : Ref sig .tc) : DevRef τ sig) (by decide),
    hoff (Proc.devRef .tc (main_v14 : Ref sig .tc) : DevRef τ sig) (by decide),
    hoff (Proc.devRef .tc (main_v15 : Ref sig .tc) : DevRef τ sig) (by decide),
    hoff (Proc.devRef .tc (main_v16 : Ref sig .tc) : DevRef τ sig) (by decide),
    hoff (Proc.devRef .tc (main_v17 : Ref sig .tc) : DevRef τ sig) (by decide),
    hoff (Proc.devRef .tc (main_arg17 : Ref sig .tc) : DevRef τ sig) (by decide),
    hoff (Proc.devRef .tc (main_v12_0 : Ref sig .tc) : DevRef τ sig) (by decide),
    hoff (Proc.devRef .tc (main_v12_1 : Ref sig .tc) : DevRef τ sig) (by decide),
    hoff (Proc.devRef .tc (main_v12_2 : Ref sig .tc) : DevRef τ sig) (by decide),
    hoff (Proc.devRef .tc (main_v12_3 : Ref sig .tc) : DevRef τ sig) (by decide),
    hoff (Proc.devRef .tc (main_v12_4 : Ref sig .tc) : DevRef τ sig) (by decide),
    hoff (Proc.devRef .tc (main_v12_5 : Ref sig .tc) : DevRef τ sig) (by decide),
    e0]
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [J8]; · iexact J8
  isplitl [A11]; · iexact A11
  isplitl [A12]; · iexact A12
  isplitl [A13]; · iexact A13
  isplitl [A14]; · iexact A14
  isplitl [A15]; · iexact A15
  isplitl [A16]; · iexact A16
  iexact A17

end Region2

section Seg2

variable (W : Valuation τ sig (Elt F))

/-! ## The body obligation -/

set_option maxHeartbeats 2000000 in
theorem body_obligation2 (d : Dev nD) : (rdat2 W d).BodyObligation (defs₀ (F := F)) 𝒱₀ (none : HIx 1) Set.univ := fun t Y _ => by
  rw [bigSep_W2, bigSep_W2]
  rw [show (rdat2 W d).Φ t.castSucc = Φc2 d from rfl, show (rdat2 W d).Φ t.succ = Φc2 d from rfl,
    show (rdat2 W d).owesAt (none : HIx 1) t.succ = (rdat2 W d).owesAt (none : HIx 1) t.castSucc from rfl]
  show _ ⊢ wp frame (wpE (defs₀ (F := F)) 𝒱₀ (d : Thread nD τ) none) Set.univ (bodyAt2 t) _
  unfold owns
  iintro ⟨HΦ, HO, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩, ⟨%f10, -, H10⟩, ⟨%f11, -, H11⟩, ⟨%f12, -, H12⟩, ⟨%f13, -, H13⟩, ⟨%f14, -, H14⟩, ⟨%f15, -, H15⟩, ⟨%f16, -, H16⟩, ⟨%f17, -, H17⟩⟩
  iapply (run2 (F := F) d _ _ _ _ _ _ _ _ _ _ _ _ _ _ _ _ _ _ _ _ _ _ _ _ _ _ _ _ _ _ _ _ _ _ _ _ _ f0 f1 f2 f3 f4 f5 f6 f7 f8 f9 f10 f11 f12 f13 f14 f15 f16 f17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩, ⟨%g12, G12⟩, ⟨%g13, G13⟩, ⟨%g14, G14⟩, ⟨%g15, G15⟩, ⟨%g16, G16⟩, ⟨%g17, G17⟩⟩
  isplitl [HΦ]; · iexact HΦ
  isplitl [HO]; · iexact HO
  isplitl [G0]
  · iexists ((st2_0 t).view.read (Elt F) g0); isplitr; · ipureintro; trivial
    iexists g0; isplitr; · ipureintro; rfl
    iexact G0
  isplitl [G1]
  · iexists ((st2_1 t).view.read (Elt F) g1); isplitr; · ipureintro; trivial
    iexists g1; isplitr; · ipureintro; rfl
    iexact G1
  isplitl [G2]
  · iexists ((st2_2 t).view.read (Elt F) g2); isplitr; · ipureintro; trivial
    iexists g2; isplitr; · ipureintro; rfl
    iexact G2
  isplitl [G3]
  · iexists ((st2_3 t).view.read (Elt F) g3); isplitr; · ipureintro; trivial
    iexists g3; isplitr; · ipureintro; rfl
    iexact G3
  isplitl [G4]
  · iexists ((st2_4 t).view.read (Elt F) g4); isplitr; · ipureintro; trivial
    iexists g4; isplitr; · ipureintro; rfl
    iexact G4
  isplitl [G5]
  · iexists ((st2_5 t).view.read (Elt F) g5); isplitr; · ipureintro; trivial
    iexists g5; isplitr; · ipureintro; rfl
    iexact G5
  isplitl [G6]
  · iexists ((st2_6 t).view.read (Elt F) g6); isplitr; · ipureintro; trivial
    iexists g6; isplitr; · ipureintro; rfl
    iexact G6
  isplitl [G7]
  · iexists ((st2_7 t).view.read (Elt F) g7); isplitr; · ipureintro; trivial
    iexists g7; isplitr; · ipureintro; rfl
    iexact G7
  isplitl [G8]
  · iexists ((st2_8 t).view.read (Elt F) g8); isplitr; · ipureintro; trivial
    iexists g8; isplitr; · ipureintro; rfl
    iexact G8
  isplitl [G9]
  · iexists ((st2_9 t).view.read (Elt F) g9); isplitr; · ipureintro; trivial
    iexists g9; isplitr; · ipureintro; rfl
    iexact G9
  isplitl [G10]
  · iexists ((st2_10 t).view.read (Elt F) g10); isplitr; · ipureintro; trivial
    iexists g10; isplitr; · ipureintro; rfl
    iexact G10
  isplitl [G11]
  · iexists ((st2_11 t).view.read (Elt F) g11); isplitr; · ipureintro; trivial
    iexists g11; isplitr; · ipureintro; rfl
    iexact G11
  isplitl [G12]
  · iexists ((st2_12 t).view.read (Elt F) g12); isplitr; · ipureintro; trivial
    iexists g12; isplitr; · ipureintro; rfl
    iexact G12
  isplitl [G13]
  · iexists ((st2_13 t).view.read (Elt F) g13); isplitr; · ipureintro; trivial
    iexists g13; isplitr; · ipureintro; rfl
    iexact G13
  isplitl [G14]
  · iexists ((st2_14 t).view.read (Elt F) g14); isplitr; · ipureintro; trivial
    iexists g14; isplitr; · ipureintro; rfl
    iexact G14
  isplitl [G15]
  · iexists ((st2_15 t).view.read (Elt F) g15); isplitr; · ipureintro; trivial
    iexists g15; isplitr; · ipureintro; rfl
    iexact G15
  isplitl [G16]
  · iexists ((st2_16 t).view.read (Elt F) g16); isplitr; · ipureintro; trivial
    iexists g16; isplitr; · ipureintro; rfl
    iexact G16
  iexists ((st2_17 t).view.read (Elt F) g17); isplitr; · ipureintro; trivial
  iexists g17; isplitr; · ipureintro; rfl
  iexact G17

/-! ## The region over the thread state -/

set_option backward.isDefEq.respectTransparency.types false in
/-- The region as a segment of @main: entered from every unscoped buffer of the TensorCore whole at `W` and the core
    owing nothing; left with them at a valuation that differs from `W` at the region's results only. Nothing enters
    the invariant but the scoped buffers the pipeline does not stage; the kernel has no semaphore of its own. -/
def reg2 : Pipeline.RDat.RegionSeg (pcfgs (F := F)) adm (rdats2 W) (none : HIx 1) defs₀ 𝒱₀ (K (F := F)).L (K (F := F)).lev 1 where
  win := winFacts₀2
  block_pos := block_pos2
  stage_whole := stage_whole2
  K := PEmpty
  osem k := k.elim
  ho := Pipeline.OwnSemFacts.none _
  hbody d := body_obligation2 W d
  hwaits := Pipeline.RDat.hwaits_of_owed_zero _ _ _ _ _ _ 1 fun _ _ => rfl
  pre d := iprop(StableHlo.held (T d) (Pipeline.ucRefs τ sig) W ∗ owesT (F := F) d)
  post d := iprop(∃ W' : Valuation τ sig (Elt F), ⌜∀ b, b ∉ outs2 → W' b = W b⌝ ∗ StableHlo.held (T d) (Pipeline.ucRefs τ sig) W' ∗ owesT (F := F) d)
  X _ := BI.emp
  Y _ := BI.emp
  Z d := StableHlo.held (T d) (Pipeline.ucRefs τ sig \ arrs2) W
  hentry d := by
    rw [Pipeline.ownSems0_none, StableHlo.held_sub_split (T d) arrs2_sub W]
    iintro ⟨⟨⟨Ha, Hrest⟩, HO⟩, -, -⟩
    imodintro
    isplitl [Ha]; · iapply (arrays2_entry W d); iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%Wt, %hWt, HO⟩; iexists Wt; isplitr
      · ipureintro; exact fun q hq => Or.inl (hWt q (Finset.mem_coe.mp hq))
      iexact HO
    isplitr; · iempintro
    iexact Hrest
  hin d := by
    rw [show (rdats2 W 1 d).Φ 0 = Φc2 d from rfl]
    iintro ⟨-, -, Hr⟩; iexact Hr
  hout d := by
    rw [Pipeline.ownSems0_none, show (rdats2 W 1 d).Φ (Fin.last _) = Φc2 d from rfl]
    iintro Hr
    isplitr; · iempintro
    isplitr; · iempintro
    iexact Hr
  hexit d := by
    have hx : ((rdats2 W 1 d).arraysAt (Pipeline.pin (pcfgs (F := F)) adm 1).N : sProp 𝕄)
        ⊢ iprop(∃ W' : Valuation τ sig (Elt F), ⌜∀ b, b ∉ outs2 → W' b = W b⌝ ∗ StableHlo.held (T d) arrs2 W') := arrays2_exit W d _
    iintro ⟨Ha, HO, -, Hrest⟩
    ihave Ha' := hx $$ Ha
    icases Ha' with ⟨%W', %hW', Ha⟩
    imodintro
    iexists W'
    isplitr; · ipureintro; exact hW'
    isplitl [Ha Hrest]
    · rw [StableHlo.held_sub_split (T d) arrs2_sub W',
        StableHlo.held_congr (T d) (V := W') (V' := W) fun b hb => hW' b fun h => (Finset.mem_sdiff.mp hb).2 (outs2_sub h)]
      isplitl [Ha] <;> iassumption
    unfold RDat.owesAt Pipeline.owesWithin
    icases HO with ⟨%Wt, %hWt, HO⟩; iexists Wt; isplitr
    · ipureintro; intro q hq
      rcases hWt (Finset.mem_coe.mpr hq) with h | ⟨w, s, rfl⟩
      · exact h
      · exact Nat.zero_le _
    iexact HO

/-! ## The region's step inside @main of the whole program -/

/-- The region's call in the whole program's labels is the call in the pipelines' labels, lifted. -/
theorem entry_lift1 :
    (Prog.lift (.customCall (SparseCore.inner (Pipeline.entry 1)) ()) : Prog (TpuEff nD τ sig (Elt F) (SparseCore.Sig (ΛP (F := F)) 1) .tc) PUnit)
      = SparseCore.liftProg (Prog.lift (.customCall (Pipeline.entry 1) ())) := rfl

/-- What the region's step leaves: the TensorCore's state, the boundary, the buffers at a valuation that differs from
    `W` at the region's results only. -/
abbrev postR2 (d : Dev nD) : PUnit → sProp 𝕄 := fun _ =>
  iprop(∃ W' : Valuation τ sig (Elt F), ⌜∀ b, b ∉ outs2 → W' b = W b⌝
    ∗ (K (F := F)).tcSt EH d 1 ∗ boundary (T d) ∗ StableHlo.held (T d) (Pipeline.ucRefs τ sig) W')

set_option backward.isDefEq.respectTransparency.types false in
/-- Region 1 on device `d`'s TensorCore, after the SparseCore call: from the handshakes' records, the TensorCore's
    state after the call, the region boundary, every unscoped buffer whole at `W` and the region's staging cells' ghost
    state, the region's call runs to the same with the buffers at a valuation that differs from `W` at its results only. -/
theorem region_wp1 (P : (K (F := F)).Pay (nD := nD) (Val := Elt F) (Name := ℕ) (U := UU)) (κ : GSem nD τ sig → ℕ) (d : Dev nD)
    [∀ e, Nonempty (Elt F e)] :
    iprop((K (F := F)).ctx EH P κ ∗ (K (F := F)).tcSt EH d 1 ∗ boundary (T d) ∗ StableHlo.held (T d) (Pipeline.ucRefs τ sig) W ∗ Gp (F := F) 1 d)
      ⊢ wp frame (wpE ((K (F := F)).defs (D (F := F))) 𝒱 (T d) none) Set.univ
          (Prog.lift (.customCall (SparseCore.inner (Pipeline.entry 1)) ()))
          (postR2 W d) := by
  rw [entry_lift1]
  refine BIBase.Entails.trans ?_ ((K (F := F)).wp_liftProg (D (F := F)) 𝒱 (T d) Set.univ none
    (Prog.lift (.customCall (Pipeline.entry 1) ())) (postR2 W d))
  unfold postR2 SparseCore.Cfg.tcSt Gp
  rw [(K (F := F)).Otc_end d (le_refl 1)]
  iintro ⟨#Hctx, ⟨HO, Hst⟩, Hb, Hheld, Hg, Ht⟩
  ihave #Hla := (SparseCore.Cfg.ctx_levAts κ) $$ Hctx
  iapply (Pipeline.RDat.RegionSeg.wp (pcfgs (F := F)) adm (rdats2 W) (none : HIx 1) phinj EP defs₀ 𝒱₀ (K (F := F)).L (K (F := F)).lev
    (reg2 W) d none (fun u h => nomatch h) (fun x => .ret x) _)
  rw [show (reg2 W).pre d = iprop(StableHlo.held (T d) (Pipeline.ucRefs τ sig) W ∗ owesT (F := F) d) from rfl,
    show (reg2 W).post d = iprop(∃ W' : Valuation τ sig (Elt F), ⌜∀ b, b ∉ outs2 → W' b = W b⌝
      ∗ StableHlo.held (T d) (Pipeline.ucRefs τ sig) W' ∗ owesT (F := F) d) from rfl]
  isplitl [Hst]
  · iintro ⟨Hb, %W', %hW', Hheld, HO⟩
    rw [wp_ret]; imodintro
    iexists W'
    isplitr; · ipureintro; exact hW'
    isplitl [HO Hst]; · isplitl [HO] <;> iassumption
    isplitl [Hb] <;> iassumption
  isplitl [Hb]; · iexact Hb
  isplitl [Hheld HO]; · isplitl [Hheld] <;> iassumption
  isplitr; · iexact Hla
  isplitl [Hg] <;> iassumption

end Seg2

end Cert.Proof.Region

end
-- ==== Proof.LaunchRun.lean ====
/-
  The launch assembled with the vector subcores' task and the two TensorCore regions' steps: the program's run, and
  the frame it gives under the precondition.
-/
import proofs.«211833_g48473000902786_cont_8to1_c_597_31_alg».proof.Proof.LaunchMain
import proofs.«211833_g48473000902786_cont_8to1_c_597_31_alg».proof.Proof.TaskObl
import proofs.«211833_g48473000902786_cont_8to1_c_597_31_alg».proof.Proof.RegionPre
import proofs.«211833_g48473000902786_cont_8to1_c_597_31_alg».proof.Proof.RegionProject

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

/-- No region writes an argument array. -/
theorem args_not_outs1 : ∀ b ∈ args19, b ∉ Cert.Proof.Region.outs1 := by decide
theorem args_not_outs2 : ∀ b ∈ args19, b ∉ Cert.Proof.Region.outs2 := by decide

/-- The program runs to its end and every argument array ends at its launch contents, given the vector subcores' task. -/
theorem run [∀ e, Nonempty (Elt F e)] (m : (ℓ : Loc nD τ sig) → Buf (Elt F) ℓ) (ρ : Dev nD → PrngReg)
    (htile : (K (F := F)).TileObl (D (F := F)) 𝒱 (P (Wc m)) v₀ 0) :
    θ_run (Cert.KernelIdeal.defs (F := F)) (Cert.KernelIdeal.threads (F := F)) ⟨m, fun _ => 0, ρ⟩ (QC m) :=
  run_main m ρ htile Cert.Proof.Region.outs1 Cert.Proof.Region.outs2 args_not_outs1 args_not_outs2
    (fun W κ d => Cert.Proof.Region.region_wp0 W (P (Wc m)) κ d) (fun W κ d => Cert.Proof.Region.region_wp1 W (P (Wc m)) κ d)

/-- The same from the domain function being one at the launch memory: the index words then name table rows, which is
    what the vector subcores' task asks. -/
theorem frame_of_pre [∀ e, Nonempty (Elt F e)] (m : (ℓ : Loc nD τ sig) → Buf (Elt F) ℓ) (ρ : Dev nD → PrngReg)
    (h : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) = (fun _ => 1#1)) :
    θ_run (Cert.KernelIdeal.defs (F := F)) (Cert.KernelIdeal.threads (F := F)) ⟨m, fun _ => 0, ρ⟩ (QC m) :=
  run m ρ (tileObl (Wc m) facts (preOK_of_fn m h))

end Cert.Proof.KI

namespace Cert.Proof.KI

open Cert.KernelIdeal Idealize.ShloMosaic Idealize.SL.Sem

/-- The program's frame under its precondition. -/
theorem frame : Cert.frame_KernelIdeal := fun m ρ hpre =>
  (θ_run Cert.KernelIdeal.defs _ _).mono (fun _ h c => h c) (frame_of_pre (F := Idealize.ShloMosaic.Ideal) m ρ hpre)

end Cert.Proof.KI

end
-- ==== Proof.KTaskViews.lean ====
/-
  The gather task of one vector subcore, as views of the arrays it touches.

  The SparseCore kernel runs once on each of the 2 × 16 vector subcores. The subcore at grid coordinates `L` has
  number `2 * L 1 + L 0`. It copies slab `number` (4 × 128 words) of each of the three index arrays into a plane
  of its index scratch, and then, for each table `t` and each of the four chunks `j`, gathers the 128 rows of the
  widened table `t` that row `j` of plane `t` lists into one of seven slots of its row scratch and copies that
  slot out to rows `[512 * number + 128 * j, 512 * number + 128 * j + 128)` of output `t`. The twelve
  (table, chunk) items go round the seven slots, item `i` on slot `i % 7`; every transfer completes on a semaphore
  of its own plane or slot, one transfer at a time per semaphore.

  This module only names the pieces, each spelt exactly as the kernel slices it, so that the symbolic run finds them.
-/
import proofs.«211833_g48473000902786_cont_8to1_c_597_31_alg».proof.Proof.Gen.Kernel
import Idealize.ShloMosaic.Lib.SparseCore.Launch

noncomputable section

namespace Cert.Proof.KB

open Cert.Kernel Cert.Kernel.Gen
open Idealize.ShloMosaic
open Idealize.ShloMosaic.SparseCore (S V T)
open Idealize.SL.Sem

/-! ## The task's views, spelt as the kernel slices them

A task is one vector subcore at grid coordinates `L`; its number is `2 * L 1 + L 0`. It reads slab number
`2 * L 1 + L 0` of each index array, any row of each widened table, and writes rows
`[512 * number, 512 * number + 512)` of each output, in four chunks of 128 rows. -/

abbrev cV (L : grid0.Coords) : Fin τ.nSC := (L 0).castLE hcore0
abbrev jV (L : grid0.Coords) : Fin τ.nSub := (L 1).castLE hsub0
/-- The task's slab of index array 0, in HBM. -/
abbrev iSlab0 (L : grid0.Coords) : Memref sig .scVector .hbm S4x128 .i32 :=
  ((Memref.whole main_v0_scv).slice (Rect.unit (s := S32x4x128) (k0_off1 L) S1x4x128.size (k0_off1_inb L)) (fun _ => rfl)).squeeze S4x128 squeezes_S1x4x128_S4x128
/-- Widened table 0, whole, as the gather names its source. -/
abbrev tab0 : Memref sig .scVector .hbm S100000x128 .f32 :=
  (Memref.whole main_v4_scv).slice (Rect.unit (s := S100000x128) ![0, 0] S100000x128.size inb_S100000x128_S100000x128_0_0) (fun _ => rfl)
/-- The index scratch's plane 0: where slab 0 lands. -/
abbrev iv0 : Memref sig .scVector .vmem S4x128 .i32 :=
  ((Memref.whole cc0_scratch0).slice (Rect.unit (s := S3x4x128) ![0, 0, 0] S1x4x128.size inb_S3x4x128_S1x4x128_0_0_0) (fun _ => rfl)).squeeze S4x128 squeezes_S1x4x128_S4x128
/-- Row 0 of plane 0 of the index scratch: the offset list of chunk 0 of table 0. -/
abbrev ivr0_0 : Memref sig .scVector .vmem S128 .i32 :=
  ((Memref.whole cc0_scratch0).slice (Rect.unit (s := S3x4x128) ![0, 0, 0] S1x1x128.size inb_S3x4x128_S1x1x128_0_0_0) (fun _ => rfl)).squeeze S128 squeezes_S1x1x128_S128
/-- Chunk 0 of the task's rows of output 0. -/
abbrev oCh0_0 (L : grid0.Coords) : Memref sig .scVector .hbm S128x128 .f32 :=
  (Memref.whole main_v9_0_scv).slice (Rect.unit (s := S16384x128) (k0_off2 L 0#32) S128x128.size (k0_off2_inb L 0)) (fun _ => rfl)
/-- Row 1 of plane 0 of the index scratch: the offset list of chunk 1 of table 0. -/
abbrev ivr0_1 : Memref sig .scVector .vmem S128 .i32 :=
  ((Memref.whole cc0_scratch0).slice (Rect.unit (s := S3x4x128) ![0, 1, 0] S1x1x128.size inb_S3x4x128_S1x1x128_0_1_0) (fun _ => rfl)).squeeze S128 squeezes_S1x1x128_S128
/-- Chunk 1 of the task's rows of output 0. -/
abbrev oCh0_1 (L : grid0.Coords) : Memref sig .scVector .hbm S128x128 .f32 :=
  (Memref.whole main_v9_0_scv).slice (Rect.unit (s := S16384x128) (k0_off2 L 128#32) S128x128.size (k0_off2_inb L 1)) (fun _ => rfl)
/-- Row 2 of plane 0 of the index scratch: the offset list of chunk 2 of table 0. -/
abbrev ivr0_2 : Memref sig .scVector .vmem S128 .i32 :=
  ((Memref.whole cc0_scratch0).slice (Rect.unit (s := S3x4x128) ![0, 2, 0] S1x1x128.size inb_S3x4x128_S1x1x128_0_2_0) (fun _ => rfl)).squeeze S128 squeezes_S1x1x128_S128
/-- Chunk 2 of the task's rows of output 0. -/
abbrev oCh0_2 (L : grid0.Coords) : Memref sig .scVector .hbm S128x128 .f32 :=
  (Memref.whole main_v9_0_scv).slice (Rect.unit (s := S16384x128) (k0_off2 L 256#32) S128x128.size (k0_off2_inb L 2)) (fun _ => rfl)
/-- Row 3 of plane 0 of the index scratch: the offset list of chunk 3 of table 0. -/
abbrev ivr0_3 : Memref sig .scVector .vmem S128 .i32 :=
  ((Memref.whole cc0_scratch0).slice (Rect.unit (s := S3x4x128) ![0, 3, 0] S1x1x128.size inb_S3x4x128_S1x1x128_0_3_0) (fun _ => rfl)).squeeze S128 squeezes_S1x1x128_S128
/-- Chunk 3 of the task's rows of output 0. -/
abbrev oCh0_3 (L : grid0.Coords) : Memref sig .scVector .hbm S128x128 .f32 :=
  (Memref.whole main_v9_0_scv).slice (Rect.unit (s := S16384x128) (k0_off2 L 384#32) S128x128.size (k0_off2_inb L 3)) (fun _ => rfl)
/-- The task's slab of index array 1, in HBM. -/
abbrev iSlab1 (L : grid0.Coords) : Memref sig .scVector .hbm S4x128 .i32 :=
  ((Memref.whole main_v1_scv).slice (Rect.unit (s := S32x4x128) (k0_off1 L) S1x4x128.size (k0_off1_inb L)) (fun _ => rfl)).squeeze S4x128 squeezes_S1x4x128_S4x128
/-- Widened table 1, whole, as the gather names its source. -/
abbrev tab1 : Memref sig .scVector .hbm S100000x128 .f32 :=
  (Memref.whole main_v6_scv).slice (Rect.unit (s := S100000x128) ![0, 0] S100000x128.size inb_S100000x128_S100000x128_0_0) (fun _ => rfl)
/-- The index scratch's plane 1: where slab 1 lands. -/
abbrev iv1 : Memref sig .scVector .vmem S4x128 .i32 :=
  ((Memref.whole cc0_scratch0).slice (Rect.unit (s := S3x4x128) ![1, 0, 0] S1x4x128.size inb_S3x4x128_S1x4x128_1_0_0) (fun _ => rfl)).squeeze S4x128 squeezes_S1x4x128_S4x128
/-- Row 0 of plane 1 of the index scratch: the offset list of chunk 0 of table 1. -/
abbrev ivr1_0 : Memref sig .scVector .vmem S128 .i32 :=
  ((Memref.whole cc0_scratch0).slice (Rect.unit (s := S3x4x128) ![1, 0, 0] S1x1x128.size inb_S3x4x128_S1x1x128_1_0_0) (fun _ => rfl)).squeeze S128 squeezes_S1x1x128_S128
/-- Chunk 0 of the task's rows of output 1. -/
abbrev oCh1_0 (L : grid0.Coords) : Memref sig .scVector .hbm S128x128 .f32 :=
  (Memref.whole main_v9_1_scv).slice (Rect.unit (s := S16384x128) (k0_off2 L 0#32) S128x128.size (k0_off2_inb L 0)) (fun _ => rfl)
/-- Row 1 of plane 1 of the index scratch: the offset list of chunk 1 of table 1. -/
abbrev ivr1_1 : Memref sig .scVector .vmem S128 .i32 :=
  ((Memref.whole cc0_scratch0).slice (Rect.unit (s := S3x4x128) ![1, 1, 0] S1x1x128.size inb_S3x4x128_S1x1x128_1_1_0) (fun _ => rfl)).squeeze S128 squeezes_S1x1x128_S128
/-- Chunk 1 of the task's rows of output 1. -/
abbrev oCh1_1 (L : grid0.Coords) : Memref sig .scVector .hbm S128x128 .f32 :=
  (Memref.whole main_v9_1_scv).slice (Rect.unit (s := S16384x128) (k0_off2 L 128#32) S128x128.size (k0_off2_inb L 1)) (fun _ => rfl)
/-- Row 2 of plane 1 of the index scratch: the offset list of chunk 2 of table 1. -/
abbrev ivr1_2 : Memref sig .scVector .vmem S128 .i32 :=
  ((Memref.whole cc0_scratch0).slice (Rect.unit (s := S3x4x128) ![1, 2, 0] S1x1x128.size inb_S3x4x128_S1x1x128_1_2_0) (fun _ => rfl)).squeeze S128 squeezes_S1x1x128_S128
/-- Chunk 2 of the task's rows of output 1. -/
abbrev oCh1_2 (L : grid0.Coords) : Memref sig .scVector .hbm S128x128 .f32 :=
  (Memref.whole main_v9_1_scv).slice (Rect.unit (s := S16384x128) (k0_off2 L 256#32) S128x128.size (k0_off2_inb L 2)) (fun _ => rfl)
/-- Row 3 of plane 1 of the index scratch: the offset list of chunk 3 of table 1. -/
abbrev ivr1_3 : Memref sig .scVector .vmem S128 .i32 :=
  ((Memref.whole cc0_scratch0).slice (Rect.unit (s := S3x4x128) ![1, 3, 0] S1x1x128.size inb_S3x4x128_S1x1x128_1_3_0) (fun _ => rfl)).squeeze S128 squeezes_S1x1x128_S128
/-- Chunk 3 of the task's rows of output 1. -/
abbrev oCh1_3 (L : grid0.Coords) : Memref sig .scVector .hbm S128x128 .f32 :=
  (Memref.whole main_v9_1_scv).slice (Rect.unit (s := S16384x128) (k0_off2 L 384#32) S128x128.size (k0_off2_inb L 3)) (fun _ => rfl)
/-- The task's slab of index array 2, in HBM. -/
abbrev iSlab2 (L : grid0.Coords) : Memref sig .scVector .hbm S4x128 .i32 :=
  ((Memref.whole main_v2_scv).slice (Rect.unit (s := S32x4x128) (k0_off1 L) S1x4x128.size (k0_off1_inb L)) (fun _ => rfl)).squeeze S4x128 squeezes_S1x4x128_S4x128
/-- Widened table 2, whole, as the gather names its source. -/
abbrev tab2 : Memref sig .scVector .hbm S100000x128 .f32 :=
  (Memref.whole main_v8_scv).slice (Rect.unit (s := S100000x128) ![0, 0] S100000x128.size inb_S100000x128_S100000x128_0_0) (fun _ => rfl)
/-- The index scratch's plane 2: where slab 2 lands. -/
abbrev iv2 : Memref sig .scVector .vmem S4x128 .i32 :=
  ((Memref.whole cc0_scratch0).slice (Rect.unit (s := S3x4x128) ![2, 0, 0] S1x4x128.size inb_S3x4x128_S1x4x128_2_0_0) (fun _ => rfl)).squeeze S4x128 squeezes_S1x4x128_S4x128
/-- Row 0 of plane 2 of the index scratch: the offset list of chunk 0 of table 2. -/
abbrev ivr2_0 : Memref sig .scVector .vmem S128 .i32 :=
  ((Memref.whole cc0_scratch0).slice (Rect.unit (s := S3x4x128) ![2, 0, 0] S1x1x128.size inb_S3x4x128_S1x1x128_2_0_0) (fun _ => rfl)).squeeze S128 squeezes_S1x1x128_S128
/-- Chunk 0 of the task's rows of output 2. -/
abbrev oCh2_0 (L : grid0.Coords) : Memref sig .scVector .hbm S128x128 .f32 :=
  (Memref.whole main_v9_2_scv).slice (Rect.unit (s := S16384x128) (k0_off2 L 0#32) S128x128.size (k0_off2_inb L 0)) (fun _ => rfl)
/-- Row 1 of plane 2 of the index scratch: the offset list of chunk 1 of table 2. -/
abbrev ivr2_1 : Memref sig .scVector .vmem S128 .i32 :=
  ((Memref.whole cc0_scratch0).slice (Rect.unit (s := S3x4x128) ![2, 1, 0] S1x1x128.size inb_S3x4x128_S1x1x128_2_1_0) (fun _ => rfl)).squeeze S128 squeezes_S1x1x128_S128
/-- Chunk 1 of the task's rows of output 2. -/
abbrev oCh2_1 (L : grid0.Coords) : Memref sig .scVector .hbm S128x128 .f32 :=
  (Memref.whole main_v9_2_scv).slice (Rect.unit (s := S16384x128) (k0_off2 L 128#32) S128x128.size (k0_off2_inb L 1)) (fun _ => rfl)
/-- Row 2 of plane 2 of the index scratch: the offset list of chunk 2 of table 2. -/
abbrev ivr2_2 : Memref sig .scVector .vmem S128 .i32 :=
  ((Memref.whole cc0_scratch0).slice (Rect.unit (s := S3x4x128) ![2, 2, 0] S1x1x128.size inb_S3x4x128_S1x1x128_2_2_0) (fun _ => rfl)).squeeze S128 squeezes_S1x1x128_S128
/-- Chunk 2 of the task's rows of output 2. -/
abbrev oCh2_2 (L : grid0.Coords) : Memref sig .scVector .hbm S128x128 .f32 :=
  (Memref.whole main_v9_2_scv).slice (Rect.unit (s := S16384x128) (k0_off2 L 256#32) S128x128.size (k0_off2_inb L 2)) (fun _ => rfl)
/-- Row 3 of plane 2 of the index scratch: the offset list of chunk 3 of table 2. -/
abbrev ivr2_3 : Memref sig .scVector .vmem S128 .i32 :=
  ((Memref.whole cc0_scratch0).slice (Rect.unit (s := S3x4x128) ![2, 3, 0] S1x1x128.size inb_S3x4x128_S1x1x128_2_3_0) (fun _ => rfl)).squeeze S128 squeezes_S1x1x128_S128
/-- Chunk 3 of the task's rows of output 2. -/
abbrev oCh2_3 (L : grid0.Coords) : Memref sig .scVector .hbm S128x128 .f32 :=
  (Memref.whole main_v9_2_scv).slice (Rect.unit (s := S16384x128) (k0_off2 L 384#32) S128x128.size (k0_off2_inb L 3)) (fun _ => rfl)
/-- Slot 0 of the row scratch. -/
abbrev slot0 : Memref sig .scVector .vmem S128x128 .f32 :=
  ((Memref.whole cc0_scratch1).slice (Rect.unit (s := S7x128x128) ![0, 0, 0] S1x128x128.size inb_S7x128x128_S1x128x128_0_0_0) (fun _ => rfl)).squeeze S128x128 squeezes_S1x128x128_S128x128
/-- Slot 1 of the row scratch. -/
abbrev slot1 : Memref sig .scVector .vmem S128x128 .f32 :=
  ((Memref.whole cc0_scratch1).slice (Rect.unit (s := S7x128x128) ![1, 0, 0] S1x128x128.size inb_S7x128x128_S1x128x128_1_0_0) (fun _ => rfl)).squeeze S128x128 squeezes_S1x128x128_S128x128
/-- Slot 2 of the row scratch. -/
abbrev slot2 : Memref sig .scVector .vmem S128x128 .f32 :=
  ((Memref.whole cc0_scratch1).slice (Rect.unit (s := S7x128x128) ![2, 0, 0] S1x128x128.size inb_S7x128x128_S1x128x128_2_0_0) (fun _ => rfl)).squeeze S128x128 squeezes_S1x128x128_S128x128
/-- Slot 3 of the row scratch. -/
abbrev slot3 : Memref sig .scVector .vmem S128x128 .f32 :=
  ((Memref.whole cc0_scratch1).slice (Rect.unit (s := S7x128x128) ![3, 0, 0] S1x128x128.size inb_S7x128x128_S1x128x128_3_0_0) (fun _ => rfl)).squeeze S128x128 squeezes_S1x128x128_S128x128
/-- Slot 4 of the row scratch. -/
abbrev slot4 : Memref sig .scVector .vmem S128x128 .f32 :=
  ((Memref.whole cc0_scratch1).slice (Rect.unit (s := S7x128x128) ![4, 0, 0] S1x128x128.size inb_S7x128x128_S1x128x128_4_0_0) (fun _ => rfl)).squeeze S128x128 squeezes_S1x128x128_S128x128
/-- Slot 5 of the row scratch. -/
abbrev slot5 : Memref sig .scVector .vmem S128x128 .f32 :=
  ((Memref.whole cc0_scratch1).slice (Rect.unit (s := S7x128x128) ![5, 0, 0] S1x128x128.size inb_S7x128x128_S1x128x128_5_0_0) (fun _ => rfl)).squeeze S128x128 squeezes_S1x128x128_S128x128
/-- Slot 6 of the row scratch. -/
abbrev slot6 : Memref sig .scVector .vmem S128x128 .f32 :=
  ((Memref.whole cc0_scratch1).slice (Rect.unit (s := S7x128x128) ![6, 0, 0] S1x128x128.size inb_S7x128x128_S1x128x128_6_0_0) (fun _ => rfl)).squeeze S128x128 squeezes_S1x128x128_S128x128
abbrev isem0 : DmaSem sig := ((cc0_scratch2.slice (Rect.unit (s := S3) ![0] S1.size inb_S3_S1_0)).squeeze S_ squeezes_S1_S_).sem
abbrev isem1 : DmaSem sig := ((cc0_scratch2.slice (Rect.unit (s := S3) ![1] S1.size inb_S3_S1_1)).squeeze S_ squeezes_S1_S_).sem
abbrev isem2 : DmaSem sig := ((cc0_scratch2.slice (Rect.unit (s := S3) ![2] S1.size inb_S3_S1_2)).squeeze S_ squeezes_S1_S_).sem
abbrev gsem0 : DmaSem sig := ((cc0_scratch3.slice (Rect.unit (s := S7) ![0] S1.size inb_S7_S1_0)).squeeze S_ squeezes_S1_S_).sem
abbrev wsem0 : DmaSem sig := ((cc0_scratch4.slice (Rect.unit (s := S7) ![0] S1.size inb_S7_S1_0)).squeeze S_ squeezes_S1_S_).sem
abbrev gsem1 : DmaSem sig := ((cc0_scratch3.slice (Rect.unit (s := S7) ![1] S1.size inb_S7_S1_1)).squeeze S_ squeezes_S1_S_).sem
abbrev wsem1 : DmaSem sig := ((cc0_scratch4.slice (Rect.unit (s := S7) ![1] S1.size inb_S7_S1_1)).squeeze S_ squeezes_S1_S_).sem
abbrev gsem2 : DmaSem sig := ((cc0_scratch3.slice (Rect.unit (s := S7) ![2] S1.size inb_S7_S1_2)).squeeze S_ squeezes_S1_S_).sem
abbrev wsem2 : DmaSem sig := ((cc0_scratch4.slice (Rect.unit (s := S7) ![2] S1.size inb_S7_S1_2)).squeeze S_ squeezes_S1_S_).sem
abbrev gsem3 : DmaSem sig := ((cc0_scratch3.slice (Rect.unit (s := S7) ![3] S1.size inb_S7_S1_3)).squeeze S_ squeezes_S1_S_).sem
abbrev wsem3 : DmaSem sig := ((cc0_scratch4.slice (Rect.unit (s := S7) ![3] S1.size inb_S7_S1_3)).squeeze S_ squeezes_S1_S_).sem
abbrev gsem4 : DmaSem sig := ((cc0_scratch3.slice (Rect.unit (s := S7) ![4] S1.size inb_S7_S1_4)).squeeze S_ squeezes_S1_S_).sem
abbrev wsem4 : DmaSem sig := ((cc0_scratch4.slice (Rect.unit (s := S7) ![4] S1.size inb_S7_S1_4)).squeeze S_ squeezes_S1_S_).sem
abbrev gsem5 : DmaSem sig := ((cc0_scratch3.slice (Rect.unit (s := S7) ![5] S1.size inb_S7_S1_5)).squeeze S_ squeezes_S1_S_).sem
abbrev wsem5 : DmaSem sig := ((cc0_scratch4.slice (Rect.unit (s := S7) ![5] S1.size inb_S7_S1_5)).squeeze S_ squeezes_S1_S_).sem
abbrev gsem6 : DmaSem sig := ((cc0_scratch3.slice (Rect.unit (s := S7) ![6] S1.size inb_S7_S1_6)).squeeze S_ squeezes_S1_S_).sem
abbrev wsem6 : DmaSem sig := ((cc0_scratch4.slice (Rect.unit (s := S7) ![6] S1.size inb_S7_S1_6)).squeeze S_ squeezes_S1_S_).sem

/-- The vector subcore at grid coordinates `L` of device `d`, as a thread. -/
abbrev thr (d : Dev nD) (L : grid0.Coords) : Thread nD τ := V d (cV L) (jV L)

end Cert.Proof.KB

end
-- ==== Proof.KRegionSetup.lean ====
/-
  The two TensorCore regions of the program, set-up: the labels, configuration and body table the launch is stated
  over, the resource algebra (the handshakes' rounds, the pipelines' staging cells' rounds, the transfers' counters),
  the embeddings, and the staging cells' ghost state a region is entered with, dealt from the launch element.
-/
import proofs.«211833_g48473000902786_cont_8to1_c_597_31_alg».proof.Proof.Gen.Kernel
import proofs.«211833_g48473000902786_cont_8to1_c_597_31_alg».proof.Proof.Gen.Kernel.Launch
import Idealize.ShloMosaic.Lib.SparseCore.Launch
import Idealize.ShloMosaic.Lib.Pipeline.Regions
import Idealize.ShloMosaic.Lib.Pipeline.Kit
import Idealize.ShloMosaic.Lib.Transfers
import Idealize.ShloMosaic.Lib.Pipeline.Frame
import Idealize.ShloMosaic.Lib.StableHlo.Run

noncomputable section

namespace Cert.Proof.RegionB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

/-- The handshakes' rounds (duties named by a number), -/
abbrev UH : Type := URounds (GSem nD τ sig) ℕ
/-- the pipelines' staging cells' rounds (duties unnamed), -/
abbrev UP : Type := URounds (GSem nD τ sig) Unit
/-- side by side with the transfers' counters. -/
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The pipelines at their (empty) prefetched tables; their staging cells' ghost state -/

abbrev adm : (p : Fin 2) → (pcfgs (F := F) p).Adm := fun p => (cfgs p).toPCfg_adm

/-- What region `p` of core `d` is entered with beside the machine's resources: its staging cells' launch ghost
    state and the duty tokens of its transfers. -/
def Gp (p : Fin 2) (d : Dev nD) : sProp 𝕄 :=
  iprop(Pipeline.cellsGhost (Pipeline.pin (pcfgs (F := F)) adm) EP p d ∗ Pipeline.toksInit (Pipeline.pin (pcfgs (F := F)) adm) EP p d)

/-- Both regions'. -/
def G (d : Dev nD) : sProp 𝕄 := iprop(Gp (F := F) 0 d ∗ Gp (F := F) 1 d)

set_option backward.isDefEq.respectTransparency.types false in
/-- The program's staging cells are pairwise distinct (the pipelines at their tables are the printed configurations). -/
theorem phinj : Function.Injective (Pipeline.cellOf (nD := nD) (τ := τ) (Pipeline.pin (pcfgs (F := F)) adm)) := cellOf_inj

/-- The pipelines' component of the launch element. -/
abbrev uP : UP := initOf (Pipeline.cells (nD := nD) (τ := τ) (Pipeline.pin (pcfgs (F := F)) adm) phinj) (Pipeline.launchToks (nD := nD) (τ := τ) (Pipeline.pin (pcfgs (F := F)) adm) phinj)

set_option backward.isDefEq.respectTransparency.types false in
/-- The staging cells' ghost state of every core, from the pipelines' component of the launch element. -/
theorem fundG : (BI.own ((EP (F := F)) (uP (F := F))) : sProp 𝕄) ⊢ iprop(|==> bigSep Finset.univ fun d : Dev nD => G (F := F) d) := by
  have h := Pipeline.fund_ghost (nD := nD) (τ := τ) (Ix := HIx 1) (Val := Elt F) (Name := ℕ) (U := UU) (Lvl := ℕ)
    (Pipeline.pin (pcfgs (F := F)) adm) (EP (F := F)) phinj
  have hd : ∀ d : Dev nD, iprop((bigSep Finset.univ fun p : Fin 2 => Pipeline.cellsGhost (Pipeline.pin (pcfgs (F := F)) adm) EP p d)
        ∗ (bigSep Finset.univ fun p : Fin 2 => (Pipeline.toksInit (Pipeline.pin (pcfgs (F := F)) adm) EP p d : sProp 𝕄)))
      ⊢ (G (F := F) d : sProp 𝕄) := fun d => by
    unfold G Gp
    rw [show (Finset.univ : Finset (Fin 2)) = {0, 1} by decide, SparseCore.bigSep_insert' (by decide), bigSep_singleton,
      SparseCore.bigSep_insert' (by decide), bigSep_singleton]
    iintro ⟨⟨Hg0, Hg1⟩, Ht0, Ht1⟩
    isplitl [Hg0 Ht0]
    · isplitl [Hg0] <;> iassumption
    · isplitl [Hg1] <;> iassumption
  refine h.trans (BI.bupd_mono ?_)
  rw [← bigSep_sep']
  exact bigSep_mono fun d _ => hd d

/-- The launch element's three components, each owned through its embedding. -/
theorem ownU_split (a : UH) (b : UP) (c : Counters) :
    (ownU ((a, (b, c)) : UU) : sProp 𝕄)
      ⊢ iprop(BI.own ((EH (F := F)) a) ∗ BI.own ((EP (F := F)) b)
          ∗ BI.own (((Emb.inr : Emb Counters (UP × Counters)).trans (embR : Emb (UP × Counters) (MT nD τ sig (HIx 1) (Elt F) ℕ UU ℕ))) c)) := by
  iintro Hu
  ihave H := (ownU_pair a (b, c)) $$ Hu
  icases H with ⟨HH, HR⟩
  ihave H2 := (own_pair_emb (embR : Emb (UP × Counters) (MT nD τ sig (HIx 1) (Elt F) ℕ UU ℕ)) b c) $$ HR
  icases H2 with ⟨HP, HC⟩
  isplitl [HH]; · iexact HH
  isplitl [HP] <;> iassumption

/-! ## A TensorCore memref's buffer, held whole -/

section Held
variable [FloatOps F]
open Idealize.ShloMosaic.TcCoe

/-- Memref `M`'s buffer on core `c`: its contents type; it held whole at `f`; held whole at something. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
abbrev ptE (c : Dev nD) {sp : Space} {S : Shape} {e : EltTy} (M : Memref sig .tc sp S e) : sProp 𝕄 := iprop(∃ f, pt (F := F) c M f)

/-- An unscoped TensorCore reference is among the unscoped buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Reference `b`'s buffer on core `d`, whole, at share `q`, at the valuation's contents. -/
abbrev pr (d : Dev nD) (W : Valuation τ sig (Elt F)) (q : PosShare TreeShare) (b : Ref sig .tc) : sProp 𝕄 :=
  ((d : Thread nD τ).loc b) ↦{q} W (Proc.devRef .tc b)

/-- What the TensorCore owes after its last SparseCore call: nothing; its recorded pairs below the first call's levels. -/
abbrev owesT (d : Dev nD) : sProp 𝕄 :=
  iprop(∃ Wt, ⌜(K (F := F)).WBelow (T d) Wt (8 * 1)⌝ ∗ owes (T d) (0 : CellTallies nD τ sig (HIx 1)) Wt)

/-- A whole buffer at the full share is its share halved 2 times and the 2 halves split off. -/
theorem pt_split2 {ℓ : Loc nD τ sig} {f : Buf (Elt F) ℓ} :
    (ℓ ↦{fullShare} f : sProp 𝕄) ⊣⊢ iprop((ℓ ↦{Transfers.shareDrop fullShare 2} f) ∗ (ℓ ↦{Transfers.shareTokN fullShare 0} f) ∗ (ℓ ↦{Transfers.shareTokN fullShare 1} f)) := by
  have h := Transfers.pointsTo_toks_range (Ix := HIx 1) (Name := ℕ) (U := UU) (Lvl := ℕ) (ℓ := ℓ) (S := Finset.univ) (f := f) fullShare 2
  rw [show Finset.range 2 = {0, 1} by decide, SparseCore.bigSep_insert' (by decide), bigSep_singleton] at h
  exact h

/-- A whole buffer at the full share is its share halved 4 times and the 4 halves split off. -/
theorem pt_split4 {ℓ : Loc nD τ sig} {f : Buf (Elt F) ℓ} :
    (ℓ ↦{fullShare} f : sProp 𝕄) ⊣⊢ iprop((ℓ ↦{Transfers.shareDrop fullShare 4} f) ∗ (ℓ ↦{Transfers.shareTokN fullShare 0} f) ∗ (ℓ ↦{Transfers.shareTokN fullShare 1} f) ∗ (ℓ ↦{Transfers.shareTokN fullShare 2} f) ∗ (ℓ ↦{Transfers.shareTokN fullShare 3} f)) := by
  have h := Transfers.pointsTo_toks_range (Ix := HIx 1) (Name := ℕ) (U := UU) (Lvl := ℕ) (ℓ := ℓ) (S := Finset.univ) (f := f) fullShare 4
  rw [show Finset.range 4 = {0, 1, 2, 3} by decide, SparseCore.bigSep_insert' (by decide), SparseCore.bigSep_insert' (by decide), SparseCore.bigSep_insert' (by decide), bigSep_singleton] at h
  exact h

end Held

end Cert.Proof.RegionB

end
-- ==== Proof.KTaskPay.lean ====
/-
  What the SparseCore call's handshakes carry.

  The call gathers rows of three widened tables into three outputs. Vector subcore `i` of SparseCore `c` is task
  number `2 * i + c` of 32. It is handed, and hands back: slab `number` of each of the three index arrays at
  the contents they have when the call starts (`W`), a read token of each table (token `number` of 32 of the full
  share), and rows `[512 * number, 512 * number + 512)` of each output at whatever they hold. What a SparseCore is
  handed is its sixteen tasks' parts side by side, so splitting a SparseCore's part among its tasks is the identity.
  The tasks need every offset they read to name a table row: `PreOK`.
-/
import proofs.«211833_g48473000902786_cont_8to1_c_597_31_alg».proof.Proof.KTaskViews
import proofs.«211833_g48473000902786_cont_8to1_c_597_31_alg».proof.Proof.KRegionSetup

noncomputable section

namespace Cert.Proof.KB

open Cert.Kernel Cert.Kernel.Gen
open Cert.Proof.RegionB (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem nCore_zero : (K (F := F)).nCore 0 = 2 := rfl
theorem nSub_zero : (K (F := F)).nSub 0 = 16 := rfl

/-- The number of vector subcore `i` of SparseCore `c`: the kernel's `s * 2 + c`. -/
def taskNo (c : Fin 2) (i : Fin 16) : Fin 32 := ⟨2 * i.val + c.val, by omega⟩

theorem idiv : 32 ∣ S32x4x128.size 0 := ⟨1, rfl⟩
theorem odiv : 32 ∣ S16384x128.size 0 := ⟨512, rfl⟩
/-- Slab `n` of an index array; rows `[512 n, 512 n + 512)` of an output. -/
abbrev iBox (n : Fin 32) : Rect S32x4x128 := Rect.part (s := S32x4x128) (a₀ := 0) idiv n
abbrev oBox (n : Fin 32) : Rect S16384x128 := Rect.part (s := S16384x128) (a₀ := 0) odiv n

/-- The nine arrays of the call, as the TensorCore names them. -/
abbrev i0Loc (d : Dev nD) : Loc nD τ sig := (SparseCore.T d).loc main_v0
abbrev i1Loc (d : Dev nD) : Loc nD τ sig := (SparseCore.T d).loc main_v1
abbrev i2Loc (d : Dev nD) : Loc nD τ sig := (SparseCore.T d).loc main_v2
abbrev t0Loc (d : Dev nD) : Loc nD τ sig := (SparseCore.T d).loc main_v4
abbrev t1Loc (d : Dev nD) : Loc nD τ sig := (SparseCore.T d).loc main_v6
abbrev t2Loc (d : Dev nD) : Loc nD τ sig := (SparseCore.T d).loc main_v8
abbrev o0Loc (d : Dev nD) : Loc nD τ sig := (SparseCore.T d).loc main_v9_0
abbrev o1Loc (d : Dev nD) : Loc nD τ sig := (SparseCore.T d).loc main_v9_1
abbrev o2Loc (d : Dev nD) : Loc nD τ sig := (SparseCore.T d).loc main_v9_2

-- The arrays' contents when the call starts, per device: a valuation of the TensorCore's buffers.
variable (W : Dev nD → Valuation τ sig (Elt F))

abbrev wI0 (d : Dev nD) : Buf (Elt F) (i0Loc d) := W d (Proc.devRef .tc (main_v0 : Ref sig .tc))
abbrev wI1 (d : Dev nD) : Buf (Elt F) (i1Loc d) := W d (Proc.devRef .tc (main_v1 : Ref sig .tc))
abbrev wI2 (d : Dev nD) : Buf (Elt F) (i2Loc d) := W d (Proc.devRef .tc (main_v2 : Ref sig .tc))
abbrev wT0 (d : Dev nD) : Buf (Elt F) (t0Loc d) := W d (Proc.devRef .tc (main_v4 : Ref sig .tc))
abbrev wT1 (d : Dev nD) : Buf (Elt F) (t1Loc d) := W d (Proc.devRef .tc (main_v6 : Ref sig .tc))
abbrev wT2 (d : Dev nD) : Buf (Elt F) (t2Loc d) := W d (Proc.devRef .tc (main_v8 : Ref sig .tc))

/-- The share of a table task `n` reads it through. -/
abbrev tq (n : Fin 32) : PosShare TreeShare := Transfers.shareTok fullShare 32 n

/-- Task `n`'s part of the call's arrays. -/
def taskRes (d : Dev nD) (n : Fin 32) : sProp 𝕄 :=
  iprop((i0Loc d ↦[(iBox n).set]{fullShare} wI0 W d) ∗ (i1Loc d ↦[(iBox n).set]{fullShare} wI1 W d) ∗ (i2Loc d ↦[(iBox n).set]{fullShare} wI2 W d)
    ∗ (t0Loc d ↦{tq n} wT0 W d) ∗ (t1Loc d ↦{tq n} wT1 W d) ∗ (t2Loc d ↦{tq n} wT2 W d)
    ∗ (∃ f, o0Loc d ↦[(oBox n).set]{fullShare} f) ∗ (∃ f, o1Loc d ↦[(oBox n).set]{fullShare} f) ∗ (∃ f, o2Loc d ↦[(oBox n).set]{fullShare} f))

/-- A SparseCore's part: its sixteen tasks'. -/
def coreRes (d : Dev nD) (c : Fin 2) : sProp 𝕄 := bigSep Finset.univ fun i : Fin 16 => taskRes W d (taskNo c i)

/-- The handshakes' payloads: a SparseCore's part to and fro, a task's part to and fro; nothing of the launch's own. -/
def P : (K (F := F)).Pay (nD := nD) (Val := Elt F) (Name := ℕ) (U := UU) where
  st := fun q d c => match q with | 0 => coreRes W d (Fin.cast nCore_zero c)
  dn := fun q d c => match q with | 0 => coreRes W d (Fin.cast nCore_zero c)
  go := fun q d c i => match q with | 0 => taskRes W d (taskNo (Fin.cast nCore_zero c) (Fin.cast nSub_zero i))
  td := fun q d c i => match q with | 0 => taskRes W d (taskNo (Fin.cast nCore_zero c) (Fin.cast nSub_zero i))
  x := fun _ _ => iprop(emp)

set_option synthInstance.maxHeartbeats 400000 in
set_option synthInstance.maxSize 4096 in
instance taskRes_storable (d : Dev nD) (n : Fin 32) : BI.Storable (upEmb : UEmb _ 𝕄) (taskRes W d n) := by
  unfold taskRes; infer_instance
instance coreRes_storable (d : Dev nD) (c : Fin 2) : BI.Storable (upEmb : UEmb _ 𝕄) (coreRes W d c) := by
  unfold coreRes; infer_instance

instance P_storable : (P (F := F) W).IsStorable where
  st q d c := match q with | 0 => (inferInstance : BI.Storable (upEmb : UEmb _ 𝕄) (coreRes W d (Fin.cast nCore_zero c)))
  dn q d c := match q with | 0 => (inferInstance : BI.Storable (upEmb : UEmb _ 𝕄) (coreRes W d (Fin.cast nCore_zero c)))
  go q d c i := match q with
    | 0 => (inferInstance : BI.Storable (upEmb : UEmb _ 𝕄) (taskRes W d (taskNo (Fin.cast nCore_zero c) (Fin.cast nSub_zero i))))
  td q d c i := match q with
    | 0 => (inferInstance : BI.Storable (upEmb : UEmb _ 𝕄) (taskRes W d (taskNo (Fin.cast nCore_zero c) (Fin.cast nSub_zero i))))

/-- What the tasks ask of the contents `W`: every word of the three index arrays names a row of a 100000-row table. -/
def PreOK : Prop :=
  ∀ (d : Dev nD), (∀ j : S32x4x128.Idx, (wI0 W d j).toNat < 100000) ∧ (∀ j : S32x4x128.Idx, (wI1 W d j).toNat < 100000)
    ∧ (∀ j : S32x4x128.Idx, (wI2 W d j).toNat < 100000)

/-- A SparseCore's part splits into its tasks' parts and is their parts again: by definition. -/
theorem vecSplit : (K (F := F)).VecSplit' (P W) 0 := by
  intro d c
  show coreRes W d (Fin.cast nCore_zero c) ⊢ |={Set.univ}=> iprop(
      (bigSep Finset.univ fun i : Fin ((K (F := F)).nSub 0) => taskRes W d (taskNo (Fin.cast nCore_zero c) (Fin.cast nSub_zero i)))
      ∗ ((bigSep Finset.univ fun i : Fin ((K (F := F)).nSub 0) => taskRes W d (taskNo (Fin.cast nCore_zero c) (Fin.cast nSub_zero i)))
          -∗ coreRes W d (Fin.cast nCore_zero c)))
  have e : (bigSep Finset.univ fun i : Fin ((K (F := F)).nSub 0) => taskRes W d (taskNo (Fin.cast nCore_zero c) (Fin.cast nSub_zero i)))
      = coreRes W d (Fin.cast nCore_zero c) := by
    unfold coreRes
    exact bigSep_congr fun _ _ => congrArg (fun i => taskRes W d (taskNo (Fin.cast nCore_zero c) i)) (Fin.ext rfl)
  rw [e]
  iintro H; imodintro
  isplitl [H]; · iexact H
  iintro H; iexact H

end Cert.Proof.KB

end
-- ==== Proof.KLaunchVal.lean ====
/-
  The contents of the TensorCore's arrays when the SparseCore call starts.

  Twelve host operations stand before the call: the three index arrays reshaped to [32, 4, 128], and three times a
  zero constant, its broadcast, and a table concatenated with it along the columns. What each array holds when the
  call starts is the launch contents folded through those operations. A reshape keeps every element, so the
  reshaped index arrays hold only words of the arguments they reshape: where the precondition bounds those by
  100000, it bounds these.
-/
import proofs.«211833_g48473000902786_cont_8to1_c_597_31_alg».proof.Defs
import proofs.«211833_g48473000902786_cont_8to1_c_597_31_alg».proof.Proof.KTaskPay
import proofs.«211833_g48473000902786_cont_8to1_c_597_31_alg».proof.Proof.LaunchPre
import Idealize.ShloMosaic.Lib.StableHlo.Run

noncomputable section

namespace Cert.Proof.KB

open Cert.Kernel Cert.Kernel.Gen
open Cert.Proof.RegionB (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

/-! ## The host operations of @main, in its three straight lines -/

/-- Before the SparseCore call. -/
def pre12 : List (HloOp τ sig (Elt F)) :=
  [StableHlo.reshape main_arg1 main_v0 rfl Facts₀.shapeCasts_S16384_S32x4x128,
   StableHlo.reshape main_arg3 main_v1 rfl Facts₀.shapeCasts_S16384_S32x4x128,
   StableHlo.reshape main_arg6 main_v2 rfl Facts₀.shapeCasts_S16384_S32x4x128,
   StableHlo.nullary main_cst (constant S_ .f32 0x00000000#32),
   StableHlo.unary main_cst main_v3 (broadcastInDim S100000x64 ![] Facts₀.bcast_S_S100000x64 : (⟨S_, .f32⟩ : BufTy).Contents (Elt F) → (⟨S100000x64, .f32⟩ : BufTy).Contents (Elt F)),
   StableHlo.binary main_arg9 main_v3 main_v4 ((fun a b => concatenate S100000x128 1 [⟨S100000x64, a⟩, ⟨S100000x64, b⟩] Facts₀.concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
   StableHlo.nullary main_cst_0 (constant S_ .f32 0x00000000#32),
   StableHlo.unary main_cst_0 main_v5 (broadcastInDim S100000x64 ![] Facts₀.bcast_S_S100000x64 : (⟨S_, .f32⟩ : BufTy).Contents (Elt F) → (⟨S100000x64, .f32⟩ : BufTy).Contents (Elt F)),
   StableHlo.binary main_arg11 main_v5 main_v6 ((fun a b => concatenate S100000x128 1 [⟨S100000x64, a⟩, ⟨S100000x64, b⟩] Facts₀.concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
   StableHlo.nullary main_cst_1 (constant S_ .f32 0x00000000#32),
   StableHlo.unary main_cst_1 main_v7 (broadcastInDim S100000x64 ![] Facts₀.bcast_S_S100000x64 : (⟨S_, .f32⟩ : BufTy).Contents (Elt F) → (⟨S100000x64, .f32⟩ : BufTy).Contents (Elt F)),
   StableHlo.binary main_arg14 main_v7 main_v8 ((fun a b => concatenate S100000x128 1 [⟨S100000x64, a⟩, ⟨S100000x64, b⟩] Facts₀.concatenates_S100000x64_S100000x64_S100000x128_d1) : (⟨S100000x64, .f32⟩ : BufTy).Contents (Elt F) → (⟨S100000x64, .f32⟩ : BufTy).Contents (Elt F) → (⟨S100000x128, .f32⟩ : BufTy).Contents (Elt F))]

/-- Between the SparseCore call and the first TensorCore region. -/
def mid2 : List (HloOp τ sig (Elt F)) :=
  [StableHlo.reshape main_arg16 main_v10 rfl Facts₀.shapeCasts_S64_S1x64,
   StableHlo.reshape main_arg18 main_v11 rfl Facts₀.shapeCasts_S64_S1x64]

/-- Between the two TensorCore regions. -/
def mid5 : List (HloOp τ sig (Elt F)) :=
  [StableHlo.reshape main_arg0 main_v13 rfl Facts₀.shapeCasts_S16384_S16384x1,
   StableHlo.reshape main_arg2 main_v14 rfl Facts₀.shapeCasts_S16384_S16384x1,
   StableHlo.reshape main_arg4 main_v15 rfl Facts₀.shapeCasts_S16384_S16384x1,
   StableHlo.reshape main_arg5 main_v16 rfl Facts₀.shapeCasts_S16384_S16384x1,
   StableHlo.reshape main_arg7 main_v17 rfl Facts₀.shapeCasts_S16384_S16384x1]

/-- @main is those three lines around the SparseCore call and the two regions. -/
theorem main_eq (d : Dev nD) :
    main (F := F) d = (seq pre12 >>= fun _ => (sc (F := F)).run d 0 >>= fun _ => seq mid2 >>= fun _ =>
      Prog.lift (.customCall (SparseCore.inner (Pipeline.entry 0)) ()) >>= fun _ => seq mid5 >>= fun _ =>
      Prog.lift (.customCall (SparseCore.inner (Pipeline.entry 1)) ()) >>= fun _ => pure ⟨⟩) := rfl

/-! ## The contents when the call starts -/

variable (m : (ℓ : Loc nD τ sig) → Buf (Elt F) ℓ)

/-- The launch contents of device `d`'s buffers. -/
def V0 (d : Dev nD) : Valuation τ sig (Elt F) := fun b => m (d, b)

/-- The contents when the SparseCore call starts. -/
def Wc (d : Dev nD) : Valuation τ sig (Elt F) := after pre12 (V0 m d)

theorem Wc_v0 (d : Dev nD) : Wc m d (Proc.devRef .tc (main_v0 : Ref sig .tc))
    = fun i => shapeCast S32x4x128 (m ((SparseCore.T d).loc main_arg1)) Facts₀.shapeCasts_S16384_S32x4x128 i := by
  unfold Wc pre12; after_results; rfl
theorem Wc_v1 (d : Dev nD) : Wc m d (Proc.devRef .tc (main_v1 : Ref sig .tc))
    = fun i => shapeCast S32x4x128 (m ((SparseCore.T d).loc main_arg3)) Facts₀.shapeCasts_S16384_S32x4x128 i := by
  unfold Wc pre12; after_results; rfl
theorem Wc_v2 (d : Dev nD) : Wc m d (Proc.devRef .tc (main_v2 : Ref sig .tc))
    = fun i => shapeCast S32x4x128 (m ((SparseCore.T d).loc main_arg6)) Facts₀.shapeCasts_S16384_S32x4x128 i := by
  unfold Wc pre12; after_results; rfl

/-- Where the domain function is one at the launch memory, the tasks' index words name table rows. -/
theorem preOK_of_fn
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) (m ((c.tc : Thread nD τ).loc main_arg15)) (m ((c.tc : Thread nD τ).loc main_arg16))
      (m ((c.tc : Thread nD τ).loc main_arg17)) (m ((c.tc : Thread nD τ).loc main_arg18)) = (fun _ => 1#1)) :
    PreOK (Wc m) := by
  intro d
  obtain ⟨h1, h3, h6⟩ := Cert.Proof.PreDecode.decode (h d)
  refine ⟨fun j => ?_, fun j => ?_, fun j => ?_⟩
  · show (Wc m d (Proc.devRef .tc (main_v0 : Ref sig .tc)) j).toNat < 100000
    rw [Wc_v0]; exact h1 _
  · show (Wc m d (Proc.devRef .tc (main_v1 : Ref sig .tc)) j).toNat < 100000
    rw [Wc_v1]; exact h3 _
  · show (Wc m d (Proc.devRef .tc (main_v2 : Ref sig .tc)) j).toNat < 100000
    rw [Wc_v2]; exact h6 _

end Cert.Proof.KB

namespace Cert.Proof.KB

open Cert.Kernel Idealize.ShloMosaic Idealize.SL.Sem

/-- The precondition gives what the tasks ask of the contents when the call starts. -/
theorem preOK_of_pre (m : (ℓ : Loc nD τ sig) → Buf (Elt Bits) ℓ) (h : Cert.Pre_Kernel m) :
    PreOK (F := Bits) (Wc m) :=
  preOK_of_fn m h

end Cert.Proof.KB

end
-- ==== Proof.KLaunchSplit.lean ====
/-
  The SparseCore call's operands, split among the 32 tasks and joined back.

  The TensorCore holds the nine arrays of the call whole. Each index array is the disjoint union of its 32 slabs,
  each output of its 32 blocks of 512 rows (the parts of axis 0 in 32), so a whole array at the full share is its 32
  parts at once; a table, read by every task, goes out as 32 read tokens of the full share, the remainder staying
  with @main across the call. Task numbers `2 i + c` over SparseCores `c` and vector subcores `i` run through
  0..31 once each, which regroups the per-SparseCore families into one family over the 32 tasks.
-/
import proofs.«211833_g48473000902786_cont_8to1_c_597_31_alg».proof.Proof.KTaskPay

noncomputable section

namespace Cert.Proof.KB

open Cert.Kernel Cert.Kernel.Gen
open Cert.Proof.RegionB (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

local notation "𝕄" => MT nD τ sig (HIx 1) (Elt F) ℕ UU ℕ

/-! ## The task numbers -/

/-- (SparseCore, vector subcore) to task number is a bijection onto 0..31. -/
def taskEquiv : Fin 2 × Fin 16 ≃ Fin 32 where
  toFun p := taskNo p.1 p.2
  invFun n := (⟨n.val % 2, Nat.mod_lt _ (by decide)⟩, ⟨n.val / 2, by have := n.isLt; omega⟩)
  left_inv := by
    rintro ⟨c, i⟩
    refine Prod.ext (Fin.ext ?_) (Fin.ext ?_)
    · show (2 * i.val + c.val) % 2 = c.val
      have := c.isLt; omega
    · show (2 * i.val + c.val) / 2 = i.val
      have := c.isLt; omega
  right_inv := by
    intro n
    refine Fin.ext ?_
    show 2 * (n.val / 2) + n.val % 2 = n.val
    omega

/-- A family over the tasks of each SparseCore in turn is the family over the 32 tasks. -/
theorem bigSep_tasks32 (Φ : Fin 32 → sProp 𝕄) :
    (bigSep Finset.univ fun c : Fin 2 => bigSep Finset.univ fun i : Fin 16 => Φ (taskNo c i)) = bigSep Finset.univ Φ := by
  rw [← BI.bigSep_univ_prod (fun p : Fin 2 × Fin 16 => Φ (taskNo p.1 p.2)), BI.bigSep_univ_equiv taskEquiv Φ]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (W : Dev nD → Valuation τ sig (Elt F))

/-- What the call takes for the two SparseCores, and what it hands back: the 32 tasks' parts. -/
theorem st0_eq (d : Dev nD) :
    (bigSep Finset.univ fun c : Fin ((K (F := F)).nCore 0) => (P W).st 0 d c) = bigSep Finset.univ fun n : Fin 32 => taskRes W d n := by
  show (bigSep Finset.univ fun c : Fin ((K (F := F)).nCore 0) => coreRes W d (Fin.cast nCore_zero c)) = _
  rw [bigSep_cores (F := F) (fun c => coreRes W d c)]
  unfold coreRes
  exact bigSep_tasks32 (fun n => taskRes W d n)
theorem dn0_eq (d : Dev nD) :
    (bigSep Finset.univ fun c : Fin ((K (F := F)).nCore 0) => (P W).dn 0 d c) = bigSep Finset.univ fun n : Fin 32 => taskRes W d n := by
  show (bigSep Finset.univ fun c : Fin ((K (F := F)).nCore 0) => coreRes W d (Fin.cast nCore_zero c)) = _
  rw [bigSep_cores (F := F) (fun c => coreRes W d c)]
  unfold coreRes
  exact bigSep_tasks32 (fun n => taskRes W d n)

/-- The 32 tasks' parts, array by array. -/
theorem tasks_eq (d : Dev nD) :
    (bigSep Finset.univ fun n : Fin 32 => taskRes W d n) = iprop(
      (bigSep Finset.univ fun n : Fin 32 => i0Loc d ↦[(iBox n).set]{fullShare} wI0 W d)
      ∗ (bigSep Finset.univ fun n : Fin 32 => i1Loc d ↦[(iBox n).set]{fullShare} wI1 W d)
      ∗ (bigSep Finset.univ fun n : Fin 32 => i2Loc d ↦[(iBox n).set]{fullShare} wI2 W d)
      ∗ (bigSep Finset.univ fun n : Fin 32 => t0Loc d ↦{tq n} wT0 W d)
      ∗ (bigSep Finset.univ fun n : Fin 32 => t1Loc d ↦{tq n} wT1 W d)
      ∗ (bigSep Finset.univ fun n : Fin 32 => t2Loc d ↦{tq n} wT2 W d)
      ∗ (bigSep Finset.univ fun n : Fin 32 => iprop(∃ f, o0Loc d ↦[(oBox n).set]{fullShare} f))
      ∗ (bigSep Finset.univ fun n : Fin 32 => iprop(∃ f, o1Loc d ↦[(oBox n).set]{fullShare} f))
      ∗ (bigSep Finset.univ fun n : Fin 32 => iprop(∃ f, o2Loc d ↦[(oBox n).set]{fullShare} f))) := by
  unfold taskRes
  rw [bigSep_sep', bigSep_sep', bigSep_sep', bigSep_sep', bigSep_sep', bigSep_sep', bigSep_sep', bigSep_sep']

/-! ## A whole array is its 32 parts -/

theorem iBox_disjoint : ∀ i ∈ (Finset.univ : Finset (Fin 32)), ∀ j ∈ (Finset.univ : Finset (Fin 32)), i ≠ j → Disjoint (iBox i).set (iBox j).set :=
  fun i _ j _ h => Rect.part_disjoint idiv h
theorem oBox_disjoint : ∀ i ∈ (Finset.univ : Finset (Fin 32)), ∀ j ∈ (Finset.univ : Finset (Fin 32)), i ≠ j → Disjoint (oBox i).set (oBox j).set :=
  fun i _ j _ h => Rect.part_disjoint odiv h
theorem iBox_cover : (Finset.univ : Finset (Fin 32)).biUnion (fun n => (iBox n).set) = Finset.univ := Rect.biUnion_part idiv
theorem oBox_cover : (Finset.univ : Finset (Fin 32)).biUnion (fun n => (oBox n).set) = Finset.univ := Rect.biUnion_part odiv

theorem i0_rows (d : Dev nD) (f : Buf (Elt F) (i0Loc d)) :
    (i0Loc d ↦{fullShare} f : sProp 𝕄) = bigSep Finset.univ fun n : Fin 32 => i0Loc d ↦[(iBox n).set]{fullShare} f := by
  rw [← pointsTo_biUnion Finset.univ (ℓ := i0Loc d) (fun n : Fin 32 => (iBox n).set) iBox_disjoint, iBox_cover]; try rfl
theorem i1_rows (d : Dev nD) (f : Buf (Elt F) (i1Loc d)) :
    (i1Loc d ↦{fullShare} f : sProp 𝕄) = bigSep Finset.univ fun n : Fin 32 => i1Loc d ↦[(iBox n).set]{fullShare} f := by
  rw [← pointsTo_biUnion Finset.univ (ℓ := i1Loc d) (fun n : Fin 32 => (iBox n).set) iBox_disjoint, iBox_cover]; try rfl
theorem i2_rows (d : Dev nD) (f : Buf (Elt F) (i2Loc d)) :
    (i2Loc d ↦{fullShare} f : sProp 𝕄) = bigSep Finset.univ fun n : Fin 32 => i2Loc d ↦[(iBox n).set]{fullShare} f := by
  rw [← pointsTo_biUnion Finset.univ (ℓ := i2Loc d) (fun n : Fin 32 => (iBox n).set) iBox_disjoint, iBox_cover]; try rfl
theorem o0_rows (d : Dev nD) (f : Buf (Elt F) (o0Loc d)) :
    (o0Loc d ↦{fullShare} f : sProp 𝕄) = bigSep Finset.univ fun n : Fin 32 => o0Loc d ↦[(oBox n).set]{fullShare} f := by
  rw [← pointsTo_biUnion Finset.univ (ℓ := o0Loc d) (fun n : Fin 32 => (oBox n).set) oBox_disjoint, oBox_cover]; try rfl
theorem o1_rows (d : Dev nD) (f : Buf (Elt F) (o1Loc d)) :
    (o1Loc d ↦{fullShare} f : sProp 𝕄) = bigSep Finset.univ fun n : Fin 32 => o1Loc d ↦[(oBox n).set]{fullShare} f := by
  rw [← pointsTo_biUnion Finset.univ (ℓ := o1Loc d) (fun n : Fin 32 => (oBox n).set) oBox_disjoint, oBox_cover]; try rfl
theorem o2_rows (d : Dev nD) (f : Buf (Elt F) (o2Loc d)) :
    (o2Loc d ↦{fullShare} f : sProp 𝕄) = bigSep Finset.univ fun n : Fin 32 => o2Loc d ↦[(oBox n).set]{fullShare} f := by
  rw [← pointsTo_biUnion Finset.univ (ℓ := o2Loc d) (fun n : Fin 32 => (oBox n).set) oBox_disjoint, oBox_cover]; try rfl

/-- An output whole at something is its 32 blocks each at something, -/
theorem o0_split (d : Dev nD) : (iprop(∃ f, o0Loc d ↦{fullShare} f) : sProp 𝕄) ⊢ bigSep Finset.univ fun n : Fin 32 => iprop(∃ f, o0Loc d ↦[(oBox n).set]{fullShare} f) := by
  have h : ∀ f : Buf (Elt F) (o0Loc d), (o0Loc d ↦{fullShare} f : sProp 𝕄)
      ⊢ bigSep Finset.univ fun n : Fin 32 => iprop(∃ f, o0Loc d ↦[(oBox n).set]{fullShare} f) := fun f => by
    have hn : ∀ n : Fin 32, (o0Loc d ↦[(oBox n).set]{fullShare} f : sProp 𝕄) ⊢ iprop(∃ f, o0Loc d ↦[(oBox n).set]{fullShare} f) := fun n => by
      iintro H; iexists f; iexact H
    rw [o0_rows]
    exact bigSep_mono fun n _ => hn n
  iintro ⟨%f, H⟩
  iapply (h f); iexact H
theorem o1_split (d : Dev nD) : (iprop(∃ f, o1Loc d ↦{fullShare} f) : sProp 𝕄) ⊢ bigSep Finset.univ fun n : Fin 32 => iprop(∃ f, o1Loc d ↦[(oBox n).set]{fullShare} f) := by
  have h : ∀ f : Buf (Elt F) (o1Loc d), (o1Loc d ↦{fullShare} f : sProp 𝕄)
      ⊢ bigSep Finset.univ fun n : Fin 32 => iprop(∃ f, o1Loc d ↦[(oBox n).set]{fullShare} f) := fun f => by
    have hn : ∀ n : Fin 32, (o1Loc d ↦[(oBox n).set]{fullShare} f : sProp 𝕄) ⊢ iprop(∃ f, o1Loc d ↦[(oBox n).set]{fullShare} f) := fun n => by
      iintro H; iexists f; iexact H
    rw [o1_rows]
    exact bigSep_mono fun n _ => hn n
  iintro ⟨%f, H⟩
  iapply (h f); iexact H
theorem o2_split (d : Dev nD) : (iprop(∃ f, o2Loc d ↦{fullShare} f) : sProp 𝕄) ⊢ bigSep Finset.univ fun n : Fin 32 => iprop(∃ f, o2Loc d ↦[(oBox n).set]{fullShare} f) := by
  have h : ∀ f : Buf (Elt F) (o2Loc d), (o2Loc d ↦{fullShare} f : sProp 𝕄)
      ⊢ bigSep Finset.univ fun n : Fin 32 => iprop(∃ f, o2Loc d ↦[(oBox n).set]{fullShare} f) := fun f => by
    have hn : ∀ n : Fin 32, (o2Loc d ↦[(oBox n).set]{fullShare} f : sProp 𝕄) ⊢ iprop(∃ f, o2Loc d ↦[(oBox n).set]{fullShare} f) := fun n => by
      iintro H; iexists f; iexact H
    rw [o2_rows]
    exact bigSep_mono fun n _ => hn n
  iintro ⟨%f, H⟩
  iapply (h f); iexact H

set_option maxRecDepth 4096 in
/-- and back: the blocks' contents agree with one array's, block by block. -/
theorem o0_join (d : Dev nD) : (bigSep Finset.univ fun n : Fin 32 => iprop(∃ f, o0Loc d ↦[(oBox n).set]{fullShare} f)) ⊢ (iprop(∃ f, o0Loc d ↦{fullShare} f) : sProp 𝕄) := by
  refine (bigSep_exists_pi Finset.univ (fun (n : Fin 32) (f : Buf (Elt F) (o0Loc d)) => (o0Loc d ↦[(oBox n).set]{fullShare} f : sProp 𝕄))).trans ?_
  iintro ⟨%fs, H⟩
  have : Nonempty (Buf (Elt F) (o0Loc d)) := ⟨fs 0⟩
  ihave H' := (pointsTo_biUnion_join (ℓ := o0Loc d) (q := fullShare) (Val := Elt F) Finset.univ (fun n : Fin 32 => (oBox n).set) fs (fs 0) oBox_disjoint) $$ H
  icases H' with ⟨%g, -, Hg⟩
  rw [oBox_cover]
  iexists g; iexact Hg
set_option maxRecDepth 4096 in
theorem o1_join (d : Dev nD) : (bigSep Finset.univ fun n : Fin 32 => iprop(∃ f, o1Loc d ↦[(oBox n).set]{fullShare} f)) ⊢ (iprop(∃ f, o1Loc d ↦{fullShare} f) : sProp 𝕄) := by
  refine (bigSep_exists_pi Finset.univ (fun (n : Fin 32) (f : Buf (Elt F) (o1Loc d)) => (o1Loc d ↦[(oBox n).set]{fullShare} f : sProp 𝕄))).trans ?_
  iintro ⟨%fs, H⟩
  have : Nonempty (Buf (Elt F) (o1Loc d)) := ⟨fs 0⟩
  ihave H' := (pointsTo_biUnion_join (ℓ := o1Loc d) (q := fullShare) (Val := Elt F) Finset.univ (fun n : Fin 32 => (oBox n).set) fs (fs 0) oBox_disjoint) $$ H
  icases H' with ⟨%g, -, Hg⟩
  rw [oBox_cover]
  iexists g; iexact Hg
set_option maxRecDepth 4096 in
theorem o2_join (d : Dev nD) : (bigSep Finset.univ fun n : Fin 32 => iprop(∃ f, o2Loc d ↦[(oBox n).set]{fullShare} f)) ⊢ (iprop(∃ f, o2Loc d ↦{fullShare} f) : sProp 𝕄) := by
  refine (bigSep_exists_pi Finset.univ (fun (n : Fin 32) (f : Buf (Elt F) (o2Loc d)) => (o2Loc d ↦[(oBox n).set]{fullShare} f : sProp 𝕄))).trans ?_
  iintro ⟨%fs, H⟩
  have : Nonempty (Buf (Elt F) (o2Loc d)) := ⟨fs 0⟩
  ihave H' := (pointsTo_biUnion_join (ℓ := o2Loc d) (q := fullShare) (Val := Elt F) Finset.univ (fun n : Fin 32 => (oBox n).set) fs (fs 0) oBox_disjoint) $$ H
  icases H' with ⟨%g, -, Hg⟩
  rw [oBox_cover]
  iexists g; iexact Hg

/-! ## The call's operands out and back -/

/-- The nine arrays whole, as the TensorCore holds them: the index arrays and the tables at `W`, the outputs at
    whatever they hold. -/
def wholeNine (d : Dev nD) : sProp 𝕄 :=
  iprop((i0Loc d ↦{fullShare} wI0 W d) ∗ (i1Loc d ↦{fullShare} wI1 W d) ∗ (i2Loc d ↦{fullShare} wI2 W d)
    ∗ (t0Loc d ↦{fullShare} wT0 W d) ∗ (t1Loc d ↦{fullShare} wT1 W d) ∗ (t2Loc d ↦{fullShare} wT2 W d)
    ∗ (∃ f, o0Loc d ↦{fullShare} f) ∗ (∃ f, o1Loc d ↦{fullShare} f) ∗ (∃ f, o2Loc d ↦{fullShare} f))

/-- What @main keeps of the tables across the call: the full share less the 32 read tokens. -/
def tabRest (d : Dev nD) : sProp 𝕄 :=
  iprop((t0Loc d ↦{Transfers.shareDrop fullShare 32} wT0 W d) ∗ (t1Loc d ↦{Transfers.shareDrop fullShare 32} wT1 W d)
    ∗ (t2Loc d ↦{Transfers.shareDrop fullShare 32} wT2 W d))

theorem st_split (d : Dev nD) :
    wholeNine W d ⊢ iprop((bigSep Finset.univ fun c : Fin ((K (F := F)).nCore 0) => (P W).st 0 d c) ∗ tabRest W d) := by
  rw [st0_eq, tasks_eq]
  unfold wholeNine tabRest
  rw [i0_rows, i1_rows, i2_rows]
  iintro ⟨Hi0, Hi1, Hi2, Ht0, Ht1, Ht2, Ho0, Ho1, Ho2⟩
  ihave H0 := (Transfers.pointsTo_toks_split (Ix := HIx 1) (Name := ℕ) (U := UU) (Lvl := ℕ) (ℓ := t0Loc d) (S := Finset.univ) (f := wT0 W d) fullShare 32) $$ Ht0
  icases H0 with ⟨Hr0, Hk0⟩
  ihave H1 := (Transfers.pointsTo_toks_split (Ix := HIx 1) (Name := ℕ) (U := UU) (Lvl := ℕ) (ℓ := t1Loc d) (S := Finset.univ) (f := wT1 W d) fullShare 32) $$ Ht1
  icases H1 with ⟨Hr1, Hk1⟩
  ihave H2 := (Transfers.pointsTo_toks_split (Ix := HIx 1) (Name := ℕ) (U := UU) (Lvl := ℕ) (ℓ := t2Loc d) (S := Finset.univ) (f := wT2 W d) fullShare 32) $$ Ht2
  icases H2 with ⟨Hr2, Hk2⟩
  ihave Hs0 := (o0_split d) $$ Ho0
  ihave Hs1 := (o1_split d) $$ Ho1
  ihave Hs2 := (o2_split d) $$ Ho2
  isplitr [Hr0 Hr1 Hr2]
  · isplitl [Hi0]; · iexact Hi0
    isplitl [Hi1]; · iexact Hi1
    isplitl [Hi2]; · iexact Hi2
    isplitl [Hk0]; · iexact Hk0
    isplitl [Hk1]; · iexact Hk1
    isplitl [Hk2]; · iexact Hk2
    isplitl [Hs0]; · iexact Hs0
    isplitl [Hs1]; · iexact Hs1
    iexact Hs2
  · isplitl [Hr0]; · iexact Hr0
    isplitl [Hr1]; · iexact Hr1
    iexact Hr2

theorem dn_join (d : Dev nD) :
    iprop((bigSep Finset.univ fun c : Fin ((K (F := F)).nCore 0) => (P W).dn 0 d c) ∗ tabRest W d) ⊢ wholeNine W d := by
  rw [dn0_eq, tasks_eq]
  unfold wholeNine tabRest
  rw [i0_rows, i1_rows, i2_rows]
  iintro ⟨⟨Hi0, Hi1, Hi2, Hk0, Hk1, Hk2, Hs0, Hs1, Hs2⟩, Hr0, Hr1, Hr2⟩
  isplitl [Hi0]; · iexact Hi0
  isplitl [Hi1]; · iexact Hi1
  isplitl [Hi2]; · iexact Hi2
  isplitl [Hr0 Hk0]
  · iapply (Transfers.pointsTo_toks_join (Ix := HIx 1) (Name := ℕ) (U := UU) (Lvl := ℕ) (ℓ := t0Loc d) (S := Finset.univ) (f := wT0 W d) fullShare 32)
    isplitl [Hr0] <;> iassumption
  isplitl [Hr1 Hk1]
  · iapply (Transfers.pointsTo_toks_join (Ix := HIx 1) (Name := ℕ) (U := UU) (Lvl := ℕ) (ℓ := t1Loc d) (S := Finset.univ) (f := wT1 W d) fullShare 32)
    isplitl [Hr1] <;> iassumption
  isplitl [Hr2 Hk2]
  · iapply (Transfers.pointsTo_toks_join (Ix := HIx 1) (Name := ℕ) (U := UU) (Lvl := ℕ) (ℓ := t2Loc d) (S := Finset.univ) (f := wT2 W d) fullShare 32)
    isplitl [Hr2] <;> iassumption
  isplitl [Hs0]; · iapply (o0_join d); iexact Hs0
  isplitl [Hs1]; · iapply (o1_join d); iexact Hs1
  iapply (o2_join d); iexact Hs2

end Cert.Proof.KB

end
-- ==== Proof.KLaunchMain.lean ====
/-
  The launch: @main on the TensorCore, the launch element of the ghost state, the final reading, the run.

  @main is three straight lines of host operations around the SparseCore call and the two TensorCore regions. The
  TensorCore holds every unscoped array whole throughout; a host operation rewrites the array it writes and no
  other; the call takes the nine arrays it names, split among the tasks, and hands them back with the three outputs
  at contents not named here; a region changes its results only. None of these writes an argument array, so the
  nineteen arguments end at their launch contents, which the final memory then shows.
-/
import proofs.«211833_g48473000902786_cont_8to1_c_597_31_alg».proof.Proof.KLaunchVal
import proofs.«211833_g48473000902786_cont_8to1_c_597_31_alg».proof.Proof.KLaunchSplit
import Idealize.ShloMosaic.Lib.Pipeline.Frame

noncomputable section

namespace Cert.Proof.KB

open Cert.Kernel Cert.Kernel.Gen
open Cert.Proof.RegionB (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays by name -/

/-- The nine arrays of the SparseCore call, -/
abbrev nine : Finset (DevRef τ sig) := {(Proc.devRef .tc (main_v0 : Ref sig .tc) : DevRef τ sig), (Proc.devRef .tc (main_v1 : Ref sig .tc) : DevRef τ sig), (Proc.devRef .tc (main_v2 : Ref sig .tc) : DevRef τ sig), (Proc.devRef .tc (main_v4 : Ref sig .tc) : DevRef τ sig), (Proc.devRef .tc (main_v6 : Ref sig .tc) : DevRef τ sig), (Proc.devRef .tc (main_v8 : Ref sig .tc) : DevRef τ sig), (Proc.devRef .tc (main_v9_0 : Ref sig .tc) : DevRef τ sig), (Proc.devRef .tc (main_v9_1 : Ref sig .tc) : DevRef τ sig), (Proc.devRef .tc (main_v9_2 : Ref sig .tc) : DevRef τ sig)}
/-- the nineteen arguments, -/
abbrev args19 : Finset (DevRef τ sig) := {(Proc.devRef .tc (main_arg0 : Ref sig .tc) : DevRef τ sig), (Proc.devRef .tc (main_arg1 : Ref sig .tc) : DevRef τ sig), (Proc.devRef .tc (main_arg2 : Ref sig .tc) : DevRef τ sig), (Proc.devRef .tc (main_arg3 : Ref sig .tc) : DevRef τ sig), (Proc.devRef .tc (main_arg4 : Ref sig .tc) : DevRef τ sig), (Proc.devRef .tc (main_arg5 : Ref sig .tc) : DevRef τ sig), (Proc.devRef .tc (main_arg6 : Ref sig .tc) : DevRef τ sig), (Proc.devRef .tc (main_arg7 : Ref sig .tc) : DevRef τ sig), (Proc.devRef .tc (main_arg8 : Ref sig .tc) : DevRef τ sig), (Proc.devRef .tc (main_arg9 : Ref sig .tc) : DevRef τ sig), (Proc.devRef .tc (main_arg10 : Ref sig .tc) : DevRef τ sig), (Proc.devRef .tc (main_arg11 : Ref sig .tc) : DevRef τ sig), (Proc.devRef .tc (main_arg12 : Ref sig .tc) : DevRef τ sig), (Proc.devRef .tc (main_arg13 : Ref sig .tc) : DevRef τ sig), (Proc.devRef .tc (main_arg14 : Ref sig .tc) : DevRef τ sig), (Proc.devRef .tc (main_arg15 : Ref sig .tc) : DevRef τ sig), (Proc.devRef .tc (main_arg16 : Ref sig .tc) : DevRef τ sig), (Proc.devRef .tc (main_arg17 : Ref sig .tc) : DevRef τ sig), (Proc.devRef .tc (main_arg18 : Ref sig .tc) : DevRef τ sig)}
/-- and every array a host operation or the SparseCore call writes. -/
abbrev written : Finset (DevRef τ sig) := {(Proc.devRef .tc (main_v0 : Ref sig .tc) : DevRef τ sig), (Proc.devRef .tc (main_v1 : Ref sig .tc) : DevRef τ sig), (Proc.devRef .tc (main_v2 : Ref sig .tc) : DevRef τ sig), (Proc.devRef .tc (main_cst : Ref sig .tc) : DevRef τ sig), (Proc.devRef .tc (main_v3 : Ref sig .tc) : DevRef τ sig), (Proc.devRef .tc (main_v4 : Ref sig .tc) : DevRef τ sig), (Proc.devRef .tc (main_cst_0 : Ref sig .tc) : DevRef τ sig), (Proc.devRef .tc (main_v5 : Ref sig .tc) : DevRef τ sig), (Proc.devRef .tc (main_v6 : Ref sig .tc) : DevRef τ sig), (Proc.devRef .tc (main_cst_1 : Ref sig .tc) : DevRef τ sig), (Proc.devRef .tc (main_v7 : Ref sig .tc) : DevRef τ sig), (Proc.devRef .tc (main_v8 : Ref sig .tc) : DevRef τ sig), (Proc.devRef .tc (main_v9_0 : Ref sig .tc) : DevRef τ sig), (Proc.devRef .tc (main_v9_1 : Ref sig .tc) : DevRef τ sig), (Proc.devRef .tc (main_v9_2 : Ref sig .tc) : DevRef τ sig), (Proc.devRef .tc (main_v10 : Ref sig .tc) : DevRef τ sig), (Proc.devRef .tc (main_v11 : Ref sig .tc) : DevRef τ sig), (Proc.devRef .tc (main_v13 : Ref sig .tc) : DevRef τ sig), (Proc.devRef .tc (main_v14 : Ref sig .tc) : DevRef τ sig), (Proc.devRef .tc (main_v15 : Ref sig .tc) : DevRef τ sig), (Proc.devRef .tc (main_v16 : Ref sig .tc) : DevRef τ sig), (Proc.devRef .tc (main_v17 : Ref sig .tc) : DevRef τ sig)}

theorem nine_sub : nine ⊆ Pipeline.ucRefs τ sig := fun b hb => by
  unfold nine at hb
  simp only [Finset.mem_insert, Finset.mem_singleton] at hb
  rcases hb with rfl | rfl | rfl | rfl | rfl | rfl | rfl | rfl | rfl <;> exact Cert.Proof.RegionB.mem_uc _ (by decide)

theorem args_sub : args19 ⊆ Pipeline.ucRefs τ sig := fun b hb => by
  unfold args19 at hb
  simp only [Finset.mem_insert, Finset.mem_singleton] at hb
  rcases hb with rfl | rfl | rfl | rfl | rfl | rfl | rfl | rfl | rfl | rfl | rfl | rfl | rfl | rfl | rfl | rfl | rfl | rfl | rfl <;> exact Cert.Proof.RegionB.mem_uc _ (by decide)

theorem args_not_written : ∀ b ∈ args19, b ∉ written := by decide
theorem args_not_nine : ∀ b ∈ args19, b ∉ nine := by decide

theorem held_nine (d : Dev nD) (V : Valuation τ sig (Elt F)) :
    (held (SparseCore.T d) nine V : sProp 𝕄) = iprop((((SparseCore.T d).loc main_v0) ↦{fullShare} V (Proc.devRef .tc (main_v0 : Ref sig .tc) : DevRef τ sig)) ∗ (((SparseCore.T d).loc main_v1) ↦{fullShare} V (Proc.devRef .tc (main_v1 : Ref sig .tc) : DevRef τ sig)) ∗ (((SparseCore.T d).loc main_v2) ↦{fullShare} V (Proc.devRef .tc (main_v2 : Ref sig .tc) : DevRef τ sig)) ∗ (((SparseCore.T d).loc main_v4) ↦{fullShare} V (Proc.devRef .tc (main_v4 : Ref sig .tc) : DevRef τ sig)) ∗ (((SparseCore.T d).loc main_v6) ↦{fullShare} V (Proc.devRef .tc (main_v6 : Ref sig .tc) : DevRef τ sig)) ∗ (((SparseCore.T d).loc main_v8) ↦{fullShare} V (Proc.devRef .tc (main_v8 : Ref sig .tc) : DevRef τ sig)) ∗ (((SparseCore.T d).loc main_v9_0) ↦{fullShare} V (Proc.devRef .tc (main_v9_0 : Ref sig .tc) : DevRef τ sig)) ∗ (((SparseCore.T d).loc main_v9_1) ↦{fullShare} V (Proc.devRef .tc (main_v9_1 : Ref sig .tc) : DevRef τ sig)) ∗ (((SparseCore.T d).loc main_v9_2) ↦{fullShare} V (Proc.devRef .tc (main_v9_2 : Ref sig .tc) : DevRef τ sig))) := by
  unfold held nine
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The host lines: what they touch, what they keep -/

theorem sub_pre12 : ∀ op ∈ pre12 (F := F), op.bufs ⊆ Pipeline.ucRefs τ sig := by
  intro op hop
  refine Pipeline.sub_ucRefs op ?_
  simp only [pre12, List.mem_cons, List.mem_nil_iff, or_false] at hop
  rcases hop with rfl | rfl | rfl | rfl | rfl | rfl | rfl | rfl | rfl | rfl | rfl | rfl <;>
    first | exact StableHlo.reshape_bufs_sub _ _ _ _ _ _ | exact StableHlo.nullary_bufs_sub _ _ _ | exact StableHlo.unary_bufs_sub _ _ _ _ _ | exact StableHlo.binary_bufs_sub _ _ _ _ _ _ _
theorem sub_mid2 : ∀ op ∈ mid2 (F := F), op.bufs ⊆ Pipeline.ucRefs τ sig := by
  intro op hop
  refine Pipeline.sub_ucRefs op ?_
  simp only [mid2, List.mem_cons, List.mem_nil_iff, or_false] at hop
  rcases hop with rfl | rfl <;> exact StableHlo.reshape_bufs_sub _ _ _ _ _ _
theorem sub_mid5 : ∀ op ∈ mid5 (F := F), op.bufs ⊆ Pipeline.ucRefs τ sig := by
  intro op hop
  refine Pipeline.sub_ucRefs op ?_
  simp only [mid5, List.mem_cons, List.mem_nil_iff, or_false] at hop
  rcases hop with rfl | rfl | rfl | rfl | rfl <;> exact StableHlo.reshape_bufs_sub _ _ _ _ _ _

theorem fresh_pre12 : ∀ op ∈ pre12 (F := F), op.fresh = ∅ := by
  intro op hop
  simp only [pre12, List.mem_cons, List.mem_nil_iff, or_false] at hop
  rcases hop with rfl | rfl | rfl | rfl | rfl | rfl | rfl | rfl | rfl | rfl | rfl | rfl <;> rfl
theorem fresh_mid2 : ∀ op ∈ mid2 (F := F), op.fresh = ∅ := by
  intro op hop
  simp only [mid2, List.mem_cons, List.mem_nil_iff, or_false] at hop
  rcases hop with rfl | rfl <;> rfl
theorem fresh_mid5 : ∀ op ∈ mid5 (F := F), op.fresh = ∅ := by
  intro op hop
  simp only [mid5, List.mem_cons, List.mem_nil_iff, or_false] at hop
  rcases hop with rfl | rfl | rfl | rfl | rfl <;> rfl

theorem writes_pre12 : ∀ op ∈ pre12 (F := F), op.writes ⊆ written := by
  intro op hop
  simp only [pre12, List.mem_cons, List.mem_nil_iff, or_false] at hop
  rcases hop with rfl | rfl | rfl | rfl | rfl | rfl | rfl | rfl | rfl | rfl | rfl | rfl <;>
    simp only [StableHlo.reshape_writes, StableHlo.nullary_writes, StableHlo.unary_writes, StableHlo.binary_writes] <;> decide
theorem writes_mid2 : ∀ op ∈ mid2 (F := F), op.writes ⊆ written := by
  intro op hop
  simp only [mid2, List.mem_cons, List.mem_nil_iff, or_false] at hop
  rcases hop with rfl | rfl <;>
    simp only [StableHlo.reshape_writes, StableHlo.nullary_writes, StableHlo.unary_writes, StableHlo.binary_writes] <;> decide
theorem writes_mid5 : ∀ op ∈ mid5 (F := F), op.writes ⊆ written := by
  intro op hop
  simp only [mid5, List.mem_cons, List.mem_nil_iff, or_false] at hop
  rcases hop with rfl | rfl | rfl | rfl | rfl <;>
    simp only [StableHlo.reshape_writes, StableHlo.nullary_writes, StableHlo.unary_writes, StableHlo.binary_writes] <;> decide

/-- A line keeps every array it does not write. -/
theorem after_keep {ops : List (HloOp τ sig (Elt F))} {Wr : Finset (DevRef τ sig)} (hW : ∀ op ∈ ops, op.writes ⊆ Wr)
    (V : Valuation τ sig (Elt F)) {b : DevRef τ sig} (hb : b ∉ Wr) : after ops V b = V b :=
  StableHlo.after_of_forall_not_mem ops V fun op hop hw => hb (hW op hop hw)

/-! ## The call's outputs, at what came back -/

abbrev o0' : DevRef τ sig := Proc.devRef .tc (main_v9_0 : Ref sig .tc)
abbrev o1' : DevRef τ sig := Proc.devRef .tc (main_v9_1 : Ref sig .tc)
abbrev o2' : DevRef τ sig := Proc.devRef .tc (main_v9_2 : Ref sig .tc)

/-- The contents after the call: the three outputs at what the call left, everything else as before. -/
def V1 (d : Dev nD) (V : Valuation τ sig (Elt F)) (f0 : Buf (Elt F) (o0Loc d)) (f1 : Buf (Elt F) (o1Loc d)) (f2 : Buf (Elt F) (o2Loc d)) :
    Valuation τ sig (Elt F) :=
  Function.update (Function.update (Function.update V o0' f0) o1' f1) o2' f2

section V1
variable (d : Dev nD) (V : Valuation τ sig (Elt F)) (f0 : Buf (Elt F) (o0Loc d)) (f1 : Buf (Elt F) (o1Loc d)) (f2 : Buf (Elt F) (o2Loc d))

theorem V1_ne {b : DevRef τ sig} (h0 : b ≠ o0') (h1 : b ≠ o1') (h2 : b ≠ o2') : V1 d V f0 f1 f2 b = V b := by
  unfold V1
  rw [Function.update_of_ne h2, Function.update_of_ne h1, Function.update_of_ne h0]
theorem V1_o0 : V1 d V f0 f1 f2 o0' = f0 := by
  unfold V1
  rw [Function.update_of_ne (show o0' ≠ o2' by decide), Function.update_of_ne (show o0' ≠ o1' by decide), Function.update_self]
theorem V1_o1 : V1 d V f0 f1 f2 o1' = f1 := by
  unfold V1
  rw [Function.update_of_ne (show o1' ≠ o2' by decide), Function.update_self]
theorem V1_o2 : V1 d V f0 f1 f2 o2' = f2 := by
  unfold V1
  rw [Function.update_self]

theorem V1_off {b : DevRef τ sig} (hb : b ∉ nine) : V1 d V f0 f1 f2 b = V b :=
  V1_ne d V f0 f1 f2 (fun h => hb (h ▸ by decide)) (fun h => hb (h ▸ by decide)) (fun h => hb (h ▸ by decide))

end V1

variable (W : Dev nD → Valuation τ sig (Elt F))

/-- The nine arrays as held by name are the call's operands whole, -/
theorem nine_out (d : Dev nD) : (held (SparseCore.T d) nine (W d) : sProp 𝕄) ⊢ wholeNine W d := by
  rw [held_nine]
  unfold wholeNine
  iintro ⟨H0, H1, H2, H4, H6, H8, Ho0, Ho1, Ho2⟩
  isplitl [H0]; · iexact H0
  isplitl [H1]; · iexact H1
  isplitl [H2]; · iexact H2
  isplitl [H4]; · iexact H4
  isplitl [H6]; · iexact H6
  isplitl [H8]; · iexact H8
  isplitl [Ho0]; · iexists _; iexact Ho0
  isplitl [Ho1]; · iexists _; iexact Ho1
  iexists _; iexact Ho2

/-- and back, the outputs at what the call left. -/
theorem nine_back (d : Dev nD) : wholeNine W d ⊢ (iprop(∃ f0 f1 f2, held (SparseCore.T d) nine (V1 d (W d) f0 f1 f2)) : sProp 𝕄) := by
  unfold wholeNine
  iintro ⟨H0, H1, H2, H4, H6, H8, ⟨%f0, Ho0⟩, ⟨%f1, Ho1⟩, ⟨%f2, Ho2⟩⟩
  iexists f0; iexists f1; iexists f2
  rw [held_nine, V1_ne d (W d) f0 f1 f2 (b := (Proc.devRef .tc (main_v0 : Ref sig .tc) : DevRef τ sig)) (by decide) (by decide) (by decide),
    V1_ne d (W d) f0 f1 f2 (b := (Proc.devRef .tc (main_v1 : Ref sig .tc) : DevRef τ sig)) (by decide) (by decide) (by decide),
    V1_ne d (W d) f0 f1 f2 (b := (Proc.devRef .tc (main_v2 : Ref sig .tc) : DevRef τ sig)) (by decide) (by decide) (by decide),
    V1_ne d (W d) f0 f1 f2 (b := (Proc.devRef .tc (main_v4 : Ref sig .tc) : DevRef τ sig)) (by decide) (by decide) (by decide),
    V1_ne d (W d) f0 f1 f2 (b := (Proc.devRef .tc (main_v6 : Ref sig .tc) : DevRef τ sig)) (by decide) (by decide) (by decide),
    V1_ne d (W d) f0 f1 f2 (b := (Proc.devRef .tc (main_v8 : Ref sig .tc) : DevRef τ sig)) (by decide) (by decide) (by decide),
    V1_o0, V1_o1, V1_o2]
  isplitl [H0]; · iexact H0
  isplitl [H1]; · iexact H1
  isplitl [H2]; · iexact H2
  isplitl [H4]; · iexact H4
  isplitl [H6]; · iexact H6
  isplitl [H8]; · iexact H8
  isplitl [Ho0]; · iexact Ho0
  isplitl [Ho1]; · iexact Ho1
  iexact Ho2

/-- The nine back among all the unscoped arrays. -/
theorem rebuild (d : Dev nD) (V : Valuation τ sig (Elt F)) (f0 : Buf (Elt F) (o0Loc d)) (f1 : Buf (Elt F) (o1Loc d)) (f2 : Buf (Elt F) (o2Loc d)) :
    iprop(held (SparseCore.T d) nine (V1 d V f0 f1 f2) ∗ held (SparseCore.T d) (Pipeline.ucRefs τ sig \ nine) V)
      ⊢ (held (SparseCore.T d) (Pipeline.ucRefs τ sig) (V1 d V f0 f1 f2) : sProp 𝕄) := by
  rw [held_sub_split (SparseCore.T d) nine_sub (V1 d V f0 f1 f2),
    held_congr (SparseCore.T d) (S := Pipeline.ucRefs τ sig \ nine) (V := V1 d V f0 f1 f2) (V' := V) (fun b hb => V1_off d V f0 f1 f2 (Finset.mem_sdiff.mp hb).2)]

/-! ## The launch element -/

def u₀ : UU := (initOf (K (F := F)).hsCells (K (F := F)).hsToks, (Cert.Proof.RegionB.uP (F := F), 1))

theorem bigSep_emp' {I : Type} (s : Finset I) : (bigSep s fun _ => iprop(emp)) = (iprop(emp) : sProp 𝕄) := bigSep_emp_const s

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => Cert.Proof.RegionB.G (F := F) d)
        ∗ bigSep Finset.univ fun thr : Thread nD τ => bigSep Finset.univ fun q : Fin 1 => (P W).x q thr) := by
  unfold u₀
  iintro Hu
  ihave H := (Cert.Proof.RegionB.ownU_split (F := F) _ _ _) $$ Hu
  icases H with ⟨HH, HP, -⟩
  imod (Cert.Proof.RegionB.fundG (F := F)) $$ HP with HG
  imodintro
  isplitl [HH]; · iexact HH
  isplitl [HG]; · iexact HG
  rw [show (bigSep Finset.univ fun thr : Thread nD τ => bigSep Finset.univ fun q : Fin 1 => (P (F := F) W).x q thr) = bigSep Finset.univ fun _ => iprop(emp) from
    bigSep_congr fun _ _ => bigSep_univ_of_subsingleton (0 : Fin 1), bigSep_emp']
  iempintro

/-! ## @main on the TensorCore -/

variable (m : (ℓ : Loc nD τ sig) → Buf (Elt F) ℓ) (ρ : Dev nD → PrngReg)

/-- What @main leaves the claim: the nineteen arguments at their launch contents. -/
def FIN (d : Dev nD) : sProp 𝕄 := held (SparseCore.T d) args19 (V0 m d)

set_option backward.isDefEq.respectTransparency.types false in
set_option maxHeartbeats 1600000 in
/-- @main on device `d`'s TensorCore: the twelve host operations, the SparseCore call (its nine arrays out, split among
    the tasks, and back), two reshapes, the first region, five reshapes, the second region; every step keeps the
    arguments. The regions' steps enter as hypotheses, over whatever result sets `O1`, `O2` they change. -/
theorem hmain [∀ e, Nonempty (Elt F e)] (O1 O2 : Finset (DevRef τ sig)) (hO1 : ∀ b ∈ args19, b ∉ O1) (hO2 : ∀ b ∈ args19, b ∉ O2)
    (hreg0 : ∀ (W : Valuation τ sig (Elt F)) (κ : GSem nD τ sig → ℕ) (d : Dev nD),
      iprop((K (F := F)).ctx EH (P (Wc m)) κ ∗ (K (F := F)).tcSt EH d 1 ∗ boundary (SparseCore.T d) ∗ held (SparseCore.T d) (Pipeline.ucRefs τ sig) W ∗ Cert.Proof.RegionB.Gp (F := F) 0 d)
      ⊢ wp frame (wpE ((K (F := F)).defs (D (F := F))) 𝒱 (SparseCore.T d) none) Set.univ
          (Prog.lift (.customCall (SparseCore.inner (Pipeline.entry 0)) ()))
          fun _ => iprop(∃ W' : Valuation τ sig (Elt F), ⌜∀ b, b ∉ O1 → W' b = W b⌝
            ∗ (K (F := F)).tcSt EH d 1 ∗ boundary (SparseCore.T d) ∗ held (SparseCore.T d) (Pipeline.ucRefs τ sig) W'))
    (hreg1 : ∀ (W : Valuation τ sig (Elt F)) (κ : GSem nD τ sig → ℕ) (d : Dev nD),
      iprop((K (F := F)).ctx EH (P (Wc m)) κ ∗ (K (F := F)).tcSt EH d 1 ∗ boundary (SparseCore.T d) ∗ held (SparseCore.T d) (Pipeline.ucRefs τ sig) W ∗ Cert.Proof.RegionB.Gp (F := F) 1 d)
      ⊢ wp frame (wpE ((K (F := F)).defs (D (F := F))) 𝒱 (SparseCore.T d) none) Set.univ
          (Prog.lift (.customCall (SparseCore.inner (Pipeline.entry 1)) ()))
          fun _ => iprop(∃ W' : Valuation τ sig (Elt F), ⌜∀ b, b ∉ O2 → W' b = W b⌝
            ∗ (K (F := F)).tcSt EH d 1 ∗ boundary (SparseCore.T d) ∗ held (SparseCore.T d) (Pipeline.ucRefs τ sig) W'))
    (κ : GSem nD τ sig → ℕ) (d : Dev nD) :
    iprop((K (F := F)).ctx EH (P (Wc m)) κ ∗ (K (F := F)).tcSt EH d 0 ∗ (K (F := F)).tcRes m ρ d ∗ Cert.Proof.RegionB.G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes Cert.Proof.RegionB.G
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, -, -⟩, Hg0, Hg1⟩
  -- the twelve host operations
  iapply (wp_seq 𝒱 none Set.univ d (Pipeline.ucRefs τ sig) _ pre12 sub_pre12 fresh_pre12 (V0 m d)) $$ [Hb Hheld]
  · isplitl [Hb] <;> iassumption
  iintro ⟨Hb, Hheld⟩
  rw [wp_bind]
  -- the call: the nine arrays out of all the unscoped ones, split among the tasks
  ihave Hh := (Entails.of_eq (show (held (SparseCore.T d) (Pipeline.ucRefs τ sig) (after pre12 (V0 m d)) : sProp 𝕄)
      = iprop(held (SparseCore.T d) nine (Wc m d) ∗ held (SparseCore.T d) (Pipeline.ucRefs τ sig \ nine) (Wc m d)) from held_sub_split (SparseCore.T d) nine_sub (Wc m d))) $$ Hheld
  icases Hh with ⟨Hn, Hrest⟩
  ihave Hw := (nine_out (Wc m) d) $$ Hn
  ihave Hs := (st_split (Wc m) d) $$ Hw
  icases Hs with ⟨Hst0, Htab⟩
  iapply ((K (F := F)).wp_run (D (F := F)) 𝒱 (EH := EH) (P := P (Wc m)) κ d 0) $$ [Hst Hst0 Hb Hrest Htab Hg0 Hg1]
  isplitr; · iexact Hctx
  isplitl [Hst]; · iexact Hst
  isplitl [Hst0]; · iexact Hst0
  iintro ⟨Hst, Hdn⟩
  ihave Hw := (dn_join (Wc m) d) $$ [Hdn Htab]
  · isplitl [Hdn] <;> iassumption
  ihave Hx := (nine_back (Wc m) d) $$ Hw
  icases Hx with ⟨%f0, %f1, %f2, Hn⟩
  ihave Hheld := (rebuild d (Wc m d) f0 f1 f2) $$ [Hn Hrest]
  · isplitl [Hn] <;> iassumption
  -- two reshapes
  iapply (wp_seq 𝒱 none Set.univ d (Pipeline.ucRefs τ sig) _ mid2 sub_mid2 fresh_mid2 (V1 d (Wc m d) f0 f1 f2)) $$ [Hb Hheld]
  · isplitl [Hb] <;> iassumption
  iintro ⟨Hb, Hheld⟩
  rw [wp_bind]
  -- the first region
  iapply (wp_wand_r frame _ Set.univ)
  isplitl [Hst Hb Hheld Hg0]
  · iapply (hreg0 (after mid2 (V1 d (Wc m d) f0 f1 f2)) κ d)
    isplitr; · iexact Hctx
    isplitl [Hst]; · iexact Hst
    isplitl [Hb]; · iexact Hb
    isplitl [Hheld]; · iexact Hheld
    iexact Hg0
  iintro %u ⟨%W1, %hW1, Hst, Hb, Hheld⟩
  -- five reshapes
  iapply (wp_seq 𝒱 none Set.univ d (Pipeline.ucRefs τ sig) _ mid5 sub_mid5 fresh_mid5 W1) $$ [Hb Hheld]
  · isplitl [Hb] <;> iassumption
  iintro ⟨Hb, Hheld⟩
  rw [wp_bind]
  -- the second region
  iapply (wp_wand_r frame _ Set.univ)
  isplitl [Hst Hb Hheld Hg1]
  · iapply (hreg1 (after mid5 W1) κ d)
    isplitr; · iexact Hctx
    isplitl [Hst]; · iexact Hst
    isplitl [Hb]; · iexact Hb
    isplitl [Hheld]; · iexact Hheld
    iexact Hg1
  iintro %u' ⟨%W2, %hW2, Hst, Hb, Hheld⟩
  rw [wp_pure]; imodintro
  isplitl [Hst]; · iexact Hst
  -- the arguments, unchanged all along
  have hkeep : ∀ b ∈ args19, V0 m d b = W2 b := fun b hb => by
    rw [hW2 b (hO2 b hb), after_keep writes_mid5 W1 (args_not_written b hb), hW1 b (hO1 b hb),
      after_keep writes_mid2 _ (args_not_written b hb), V1_off d (Wc m d) f0 f1 f2 (args_not_nine b hb)]
    exact (after_keep writes_pre12 (V0 m d) (args_not_written b hb)).symm
  ihave Hh := (Entails.of_eq (held_sub_split (SparseCore.T d) args_sub W2)) $$ Hheld
  icases Hh with ⟨Ha, -⟩
  unfold FIN
  rw [held_congr (SparseCore.T d) (S := args19) (V := V0 m d) (V' := W2) hkeep]
  iexact Ha

/-! ## The final reading -/

/-- Under the state interpretation, arrays held whole pin the memory's contents of each. -/
theorem held_agree (d : Dev nD) (V : Valuation τ sig (Elt F)) (s' : Phys nD τ sig (Elt F)) (S : Finset (DevRef τ sig)) :
    iprop((held (SparseCore.T d) S V : sProp 𝕄) ∗ SI s') ⊢ (⌜∀ b ∈ S, s'.mem.mem (d, b) = V b⌝ : sProp 𝕄) := by
  induction S using Finset.induction_on with
  | empty =>
    iintro -
    ipureintro
    exact fun b hb => absurd hb (Finset.notMem_empty b)
  | insert a S ha ih =>
    unfold held at ih ⊢
    rw [SparseCore.bigSep_insert' ha]
    iintro ⟨⟨Ha, HS⟩, HSI⟩
    ihave H := (persistent_entails_right (SI_pointsTo_agree (st := s') (ℓ := (d, a)) (I := Finset.univ) (q := fullShare) (f := V a))) $$ [HSI Ha]
    · isplitl [HSI] <;> iassumption
    icases H with ⟨%h1, HSI, -⟩
    ihave H2 := ih $$ [HS HSI]
    · isplitl [HS] <;> iassumption
    icases H2 with %h2
    ipureintro
    intro b hb
    rcases Finset.mem_insert.mp hb with rfl | hb
    · exact funext fun i => h1 i (Finset.mem_univ i)
    · exact h2 b hb

def fq (d : Dev nD) (s' : Phys nD τ sig (Elt F)) : Prop := ∀ b ∈ args19, s'.mem.mem (d, b) = m (d, b)

theorem hfin (d : Dev nD) (s' : Phys nD τ sig (Elt F)) : iprop(FIN m d ∗ SI s') ⊢ (⌜fq m d s'⌝ : sProp 𝕄) := by
  unfold FIN fq
  exact held_agree d (V0 m d) s' args19

/-! ## The program's run -/

/-- Every argument array ends at its launch contents, on every device. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)
  ∧ r.2.mem ((c.tc : Thread nD τ).loc main_arg18) = m ((c.tc : Thread nD τ).loc main_arg18)

theorem hQ (s' : Phys nD τ sig (Elt F)) (h : ∀ d, fq m d s') : QC m (⟨⟩, s'.mem) := fun c =>
  ⟨h c (Proc.devRef .tc (main_arg0 : Ref sig .tc) : DevRef τ sig) (by decide),
   h c (Proc.devRef .tc (main_arg1 : Ref sig .tc) : DevRef τ sig) (by decide),
   h c (Proc.devRef .tc (main_arg2 : Ref sig .tc) : DevRef τ sig) (by decide),
   h c (Proc.devRef .tc (main_arg3 : Ref sig .tc) : DevRef τ sig) (by decide),
   h c (Proc.devRef .tc (main_arg4 : Ref sig .tc) : DevRef τ sig) (by decide),
   h c (Proc.devRef .tc (main_arg5 : Ref sig .tc) : DevRef τ sig) (by decide),
   h c (Proc.devRef .tc (main_arg6 : Ref sig .tc) : DevRef τ sig) (by decide),
   h c (Proc.devRef .tc (main_arg7 : Ref sig .tc) : DevRef τ sig) (by decide),
   h c (Proc.devRef .tc (main_arg8 : Ref sig .tc) : DevRef τ sig) (by decide),
   h c (Proc.devRef .tc (main_arg9 : Ref sig .tc) : DevRef τ sig) (by decide),
   h c (Proc.devRef .tc (main_arg10 : Ref sig .tc) : DevRef τ sig) (by decide),
   h c (Proc.devRef .tc (main_arg11 : Ref sig .tc) : DevRef τ sig) (by decide),
   h c (Proc.devRef .tc (main_arg12 : Ref sig .tc) : DevRef τ sig) (by decide),
   h c (Proc.devRef .tc (main_arg13 : Ref sig .tc) : DevRef τ sig) (by decide),
   h c (Proc.devRef .tc (main_arg14 : Ref sig .tc) : DevRef τ sig) (by decide),
   h c (Proc.devRef .tc (main_arg15 : Ref sig .tc) : DevRef τ sig) (by decide),
   h c (Proc.devRef .tc (main_arg16 : Ref sig .tc) : DevRef τ sig) (by decide),
   h c (Proc.devRef .tc (main_arg17 : Ref sig .tc) : DevRef τ sig) (by decide),
   h c (Proc.devRef .tc (main_arg18 : Ref sig .tc) : DevRef τ sig) (by decide)⟩

theorem run_main [∀ e, Nonempty (Elt F e)] (htile : (K (F := F)).TileObl (D (F := F)) 𝒱 (P (Wc m)) v₀ 0)
    (O1 O2 : Finset (DevRef τ sig)) (hO1 : ∀ b ∈ args19, b ∉ O1) (hO2 : ∀ b ∈ args19, b ∉ O2)
    (hreg0 : ∀ (W : Valuation τ sig (Elt F)) (κ : GSem nD τ sig → ℕ) (d : Dev nD),
      iprop((K (F := F)).ctx EH (P (Wc m)) κ ∗ (K (F := F)).tcSt EH d 1 ∗ boundary (SparseCore.T d) ∗ held (SparseCore.T d) (Pipeline.ucRefs τ sig) W ∗ Cert.Proof.RegionB.Gp (F := F) 0 d)
      ⊢ wp frame (wpE ((K (F := F)).defs (D (F := F))) 𝒱 (SparseCore.T d) none) Set.univ
          (Prog.lift (.customCall (SparseCore.inner (Pipeline.entry 0)) ()))
          fun _ => iprop(∃ W' : Valuation τ sig (Elt F), ⌜∀ b, b ∉ O1 → W' b = W b⌝
            ∗ (K (F := F)).tcSt EH d 1 ∗ boundary (SparseCore.T d) ∗ held (SparseCore.T d) (Pipeline.ucRefs τ sig) W'))
    (hreg1 : ∀ (W : Valuation τ sig (Elt F)) (κ : GSem nD τ sig → ℕ) (d : Dev nD),
      iprop((K (F := F)).ctx EH (P (Wc m)) κ ∗ (K (F := F)).tcSt EH d 1 ∗ boundary (SparseCore.T d) ∗ held (SparseCore.T d) (Pipeline.ucRefs τ sig) W ∗ Cert.Proof.RegionB.Gp (F := F) 1 d)
      ⊢ wp frame (wpE ((K (F := F)).defs (D (F := F))) 𝒱 (SparseCore.T d) none) Set.univ
          (Prog.lift (.customCall (SparseCore.inner (Pipeline.entry 1)) ()))
          fun _ => iprop(∃ W' : Valuation τ sig (Elt F), ⌜∀ b, b ∉ O2 → W' b = W b⌝
            ∗ (K (F := F)).tcSt EH d 1 ∗ boundary (SparseCore.T d) ∗ held (SparseCore.T d) (Pipeline.ucRefs τ sig) W')) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Wc m)) facts v₀
    (fun q hq => match q with | 0 => nomatch hq)
    (fun q _ => match q with | 0 => htile)
    (fun q _ => match q with | 0 => SparseCore.Cfg.VecSplit.of_plain (vecSplit (Wc m)))
    m ρ main (fun d => Cert.Proof.RegionB.G (F := F) d) (FIN m) (u₀ (F := F)) (sep_elim_left.trans (hu₀ (Wc m)))
    (hmain m ρ O1 O2 hO1 hO2 hreg0 hreg1) (fq m) (hfin m) (QC m) (hQ m)

end Cert.Proof.KB

end
-- ==== Proof.KTaskPieces.lean ====
/-
  A plane of the index scratch is its four rows.

  Slab `t` of an index array lands in plane `t` of the index scratch as one box of 4 × 128 words; the gather of
  chunk `j` then reads its 128 offsets from row `j` of that plane alone. The plane's elements are the disjoint
  union of its rows' elements, so a points-to of the plane is the four rows' points-tos side by side.
-/
import proofs.«211833_g48473000902786_cont_8to1_c_597_31_alg».proof.Proof.KTaskViews
import Idealize.ShloMosaic.Lib.Pipeline.Kit

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- Row `j` of plane `t`, as a box of the scratch's shape. -/
abbrev rowBox (t j : ℕ) (h : ∀ a, (![t, j, 0] : Fin 3 → ℕ) a + S1x1x128.size a ≤ S3x4x128.size a) : Rect S3x4x128 :=
  Rect.unit (s := S3x4x128) ![t, j, 0] S1x1x128.size h
/-- Plane `t`, as a box of the scratch's shape. -/
abbrev planeBox (t : ℕ) (h : ∀ a, (![t, 0, 0] : Fin 3 → ℕ) a + S1x4x128.size a ≤ S3x4x128.size a) : Rect S3x4x128 :=
  Rect.unit (s := S3x4x128) ![t, 0, 0] S1x4x128.size h

theorem mem_rowBox {t j : ℕ} {h} {i : S3x4x128.Idx} : i ∈ (rowBox t j h).set ↔ (i 0 : ℕ) = t ∧ (i 1 : ℕ) = j := by
  rw [Rect.mem_set_unit]
  constructor
  · intro H
    have h0 := H 0; have h1 := H 1
    simp only [Matrix.cons_val_zero, Matrix.cons_val_one] at h0 h1
    exact ⟨by have : S1x1x128.size 0 = 1 := rfl; omega, by have : S1x1x128.size 1 = 1 := rfl; omega⟩
  · rintro ⟨e0, e1⟩ a
    match a with
    | 0 => simp only [Matrix.cons_val_zero]; have : S1x1x128.size 0 = 1 := rfl; omega
    | 1 => simp only [Matrix.cons_val_one, Matrix.cons_val_zero]; have : S1x1x128.size 1 = 1 := rfl; omega
    | 2 => have h2 : (i 2 : ℕ) < 128 := (i 2).isLt
           have : S1x1x128.size 2 = 128 := rfl
           simp only [Matrix.cons_val_two, Matrix.tail_cons, Matrix.head_cons]; omega

theorem mem_planeBox {t : ℕ} {h} {i : S3x4x128.Idx} : i ∈ (planeBox t h).set ↔ (i 0 : ℕ) = t := by
  rw [Rect.mem_set_unit]
  constructor
  · intro H
    have h0 := H 0
    simp only [Matrix.cons_val_zero] at h0
    have : S1x4x128.size 0 = 1 := rfl; omega
  · intro e0 a
    match a with
    | 0 => simp only [Matrix.cons_val_zero]; have : S1x4x128.size 0 = 1 := rfl; omega
    | 1 => have h1 : (i 1 : ℕ) < 4 := (i 1).isLt
           have : S1x4x128.size 1 = 4 := rfl
           simp only [Matrix.cons_val_one, Matrix.cons_val_zero]; omega
    | 2 => have h2 : (i 2 : ℕ) < 128 := (i 2).isLt
           have : S1x4x128.size 2 = 128 := rfl
           simp only [Matrix.cons_val_two, Matrix.tail_cons, Matrix.head_cons]; omega

/-- A plane's elements are its four rows' elements. -/
theorem planeBox_eq_rows {t : ℕ} {h h0 h1 h2 h3} :
    (planeBox t h).set = (rowBox t 0 h0).set ∪ ((rowBox t 1 h1).set ∪ ((rowBox t 2 h2).set ∪ (rowBox t 3 h3).set)) := by
  ext i
  simp only [Finset.mem_union, mem_rowBox, mem_planeBox]
  have h1 : (i 1 : ℕ) < 4 := (i 1).isLt
  constructor
  · intro e; omega
  · rintro (⟨e, _⟩ | ⟨e, _⟩ | ⟨e, _⟩ | ⟨e, _⟩) <;> exact e

/-- Two rows of one plane share no element. -/
theorem rowBox_disjoint {t j j' : ℕ} {h h'} (hj : j ≠ j') : Disjoint (rowBox t j h).set (rowBox t j' h').set := by
  rw [Finset.disjoint_left]
  intro i hi hi'
  rw [mem_rowBox] at hi hi'
  omega

/-! ## The plane's points-to, row by row -/

variable {F : FTy → Type} {UU : Type} [URA UU]

local notation "𝕄" => MT nD τ sig (HIx 1) (Elt F) ℕ UU ℕ

/-- A points-to over four pairwise disjoint element sets, taken apart; -/
theorem pointsTo_split4 {ℓ : Loc nD τ sig} {X A B C D : Finset (Idx ℓ)} {q : PosShare TreeShare} {f : Buf (Elt F) ℓ}
    (hX : X = A ∪ (B ∪ (C ∪ D))) (h1 : Disjoint A (B ∪ (C ∪ D))) (h2 : Disjoint B (C ∪ D)) (h3 : Disjoint C D) :
    (ℓ ↦[X]{q} f : sProp 𝕄) ⊢ iprop((ℓ ↦[A]{q} f) ∗ (ℓ ↦[B]{q} f) ∗ (ℓ ↦[C]{q} f) ∗ ℓ ↦[D]{q} f) := by
  subst hX
  iintro H
  ihave H := (pointsTo_union h1).1 $$ H
  icases H with ⟨HA, H⟩
  ihave H := (pointsTo_union h2).1 $$ H
  icases H with ⟨HB, H⟩
  ihave H := (pointsTo_union h3).1 $$ H
  icases H with ⟨HC, HD⟩
  isplitl [HA]; · iexact HA
  isplitl [HB]; · iexact HB
  isplitl [HC]; · iexact HC
  iexact HD

/-- and put together again. -/
theorem pointsTo_join4 {ℓ : Loc nD τ sig} {X A B C D : Finset (Idx ℓ)} {q : PosShare TreeShare} {f : Buf (Elt F) ℓ}
    (hX : X = A ∪ (B ∪ (C ∪ D))) (h1 : Disjoint A (B ∪ (C ∪ D))) (h2 : Disjoint B (C ∪ D)) (h3 : Disjoint C D) :
    iprop((ℓ ↦[A]{q} f) ∗ (ℓ ↦[B]{q} f) ∗ (ℓ ↦[C]{q} f) ∗ ℓ ↦[D]{q} f) ⊢ (ℓ ↦[X]{q} f : sProp 𝕄) := by
  subst hX
  iintro ⟨HA, HB, HC, HD⟩
  iapply (pointsTo_union h1).2
  isplitl [HA]; · iexact HA
  iapply (pointsTo_union h2).2
  isplitl [HB]; · iexact HB
  iapply (pointsTo_union h3).2
  isplitl [HC]; · iexact HC
  iexact HD

theorem rows_disj1 {t : ℕ} {h0 h1 h2 h3} :
    Disjoint (rowBox t 0 h0).set ((rowBox t 1 h1).set ∪ ((rowBox t 2 h2).set ∪ (rowBox t 3 h3).set)) := by
  rw [Finset.disjoint_union_right, Finset.disjoint_union_right]
  exact ⟨rowBox_disjoint (by decide), rowBox_disjoint (by decide), rowBox_disjoint (by decide)⟩
theorem rows_disj2 {t : ℕ} {h1 h2 h3} :
    Disjoint (rowBox t 1 h1).set ((rowBox t 2 h2).set ∪ (rowBox t 3 h3).set) := by
  rw [Finset.disjoint_union_right]
  exact ⟨rowBox_disjoint (by decide), rowBox_disjoint (by decide)⟩

theorem iv0_set : (iv0).view.set = (planeBox 0 inb_S3x4x128_S1x4x128_0_0_0).set := by
  show (((View.whole cc0_scratch0).slice (planeBox 0 inb_S3x4x128_S1x4x128_0_0_0)).reshape S4x128 squeezes_S1x4x128_S4x128.numel_eq).set = _
  rw [View.set_reshape, View.set_slice_whole]
theorem ivr0_0_set : (ivr0_0).view.set = (rowBox 0 0 inb_S3x4x128_S1x1x128_0_0_0).set := by
  show (((View.whole cc0_scratch0).slice (rowBox 0 0 inb_S3x4x128_S1x1x128_0_0_0)).reshape S128 squeezes_S1x1x128_S128.numel_eq).set = _
  rw [View.set_reshape, View.set_slice_whole]
theorem ivr0_1_set : (ivr0_1).view.set = (rowBox 0 1 inb_S3x4x128_S1x1x128_0_1_0).set := by
  show (((View.whole cc0_scratch0).slice (rowBox 0 1 inb_S3x4x128_S1x1x128_0_1_0)).reshape S128 squeezes_S1x1x128_S128.numel_eq).set = _
  rw [View.set_reshape, View.set_slice_whole]
theorem ivr0_2_set : (ivr0_2).view.set = (rowBox 0 2 inb_S3x4x128_S1x1x128_0_2_0).set := by
  show (((View.whole cc0_scratch0).slice (rowBox 0 2 inb_S3x4x128_S1x1x128_0_2_0)).reshape S128 squeezes_S1x1x128_S128.numel_eq).set = _
  rw [View.set_reshape, View.set_slice_whole]
theorem ivr0_3_set : (ivr0_3).view.set = (rowBox 0 3 inb_S3x4x128_S1x1x128_0_3_0).set := by
  show (((View.whole cc0_scratch0).slice (rowBox 0 3 inb_S3x4x128_S1x1x128_0_3_0)).reshape S128 squeezes_S1x1x128_S128.numel_eq).set = _
  rw [View.set_reshape, View.set_slice_whole]

/-- Plane 0 of the index scratch, held, is its four rows held. -/
theorem plane0_split (d : Dev nD) (L : grid0.Coords) (f : Buf (Elt F) ((iv0).view.loc (thr d L))) :
    ((iv0).view.loc (thr d L) ↦[(iv0).view.set]{fullShare} f : sProp 𝕄)
      ⊢ iprop(((ivr0_0).view.loc (thr d L) ↦[(ivr0_0).view.set]{fullShare} f) ∗ ((ivr0_1).view.loc (thr d L) ↦[(ivr0_1).view.set]{fullShare} f)
          ∗ ((ivr0_2).view.loc (thr d L) ↦[(ivr0_2).view.set]{fullShare} f) ∗ (ivr0_3).view.loc (thr d L) ↦[(ivr0_3).view.set]{fullShare} f) := by
  rw [iv0_set, ivr0_0_set, ivr0_1_set, ivr0_2_set, ivr0_3_set]
  exact pointsTo_split4 planeBox_eq_rows rows_disj1 rows_disj2 (rowBox_disjoint (by decide))
theorem plane0_join (d : Dev nD) (L : grid0.Coords) (f : Buf (Elt F) ((iv0).view.loc (thr d L))) :
    iprop(((ivr0_0).view.loc (thr d L) ↦[(ivr0_0).view.set]{fullShare} f) ∗ ((ivr0_1).view.loc (thr d L) ↦[(ivr0_1).view.set]{fullShare} f)
          ∗ ((ivr0_2).view.loc (thr d L) ↦[(ivr0_2).view.set]{fullShare} f) ∗ (ivr0_3).view.loc (thr d L) ↦[(ivr0_3).view.set]{fullShare} f)
      ⊢ ((iv0).view.loc (thr d L) ↦[(iv0).view.set]{fullShare} f : sProp 𝕄) := by
  rw [iv0_set, ivr0_0_set, ivr0_1_set, ivr0_2_set, ivr0_3_set]
  exact pointsTo_join4 planeBox_eq_rows rows_disj1 rows_disj2 (rowBox_disjoint (by decide))

theorem iv1_set : (iv1).view.set = (planeBox 1 inb_S3x4x128_S1x4x128_1_0_0).set := by
  show (((View.whole cc0_scratch0).slice (planeBox 1 inb_S3x4x128_S1x4x128_1_0_0)).reshape S4x128 squeezes_S1x4x128_S4x128.numel_eq).set = _
  rw [View.set_reshape, View.set_slice_whole]
theorem ivr1_0_set : (ivr1_0).view.set = (rowBox 1 0 inb_S3x4x128_S1x1x128_1_0_0).set := by
  show (((View.whole cc0_scratch0).slice (rowBox 1 0 inb_S3x4x128_S1x1x128_1_0_0)).reshape S128 squeezes_S1x1x128_S128.numel_eq).set = _
  rw [View.set_reshape, View.set_slice_whole]
theorem ivr1_1_set : (ivr1_1).view.set = (rowBox 1 1 inb_S3x4x128_S1x1x128_1_1_0).set := by
  show (((View.whole cc0_scratch0).slice (rowBox 1 1 inb_S3x4x128_S1x1x128_1_1_0)).reshape S128 squeezes_S1x1x128_S128.numel_eq).set = _
  rw [View.set_reshape, View.set_slice_whole]
theorem ivr1_2_set : (ivr1_2).view.set = (rowBox 1 2 inb_S3x4x128_S1x1x128_1_2_0).set := by
  show (((View.whole cc0_scratch0).slice (rowBox 1 2 inb_S3x4x128_S1x1x128_1_2_0)).reshape S128 squeezes_S1x1x128_S128.numel_eq).set = _
  rw [View.set_reshape, View.set_slice_whole]
theorem ivr1_3_set : (ivr1_3).view.set = (rowBox 1 3 inb_S3x4x128_S1x1x128_1_3_0).set := by
  show (((View.whole cc0_scratch0).slice (rowBox 1 3 inb_S3x4x128_S1x1x128_1_3_0)).reshape S128 squeezes_S1x1x128_S128.numel_eq).set = _
  rw [View.set_reshape, View.set_slice_whole]

/-- Plane 1 of the index scratch, held, is its four rows held. -/
theorem plane1_split (d : Dev nD) (L : grid0.Coords) (f : Buf (Elt F) ((iv1).view.loc (thr d L))) :
    ((iv1).view.loc (thr d L) ↦[(iv1).view.set]{fullShare} f : sProp 𝕄)
      ⊢ iprop(((ivr1_0).view.loc (thr d L) ↦[(ivr1_0).view.set]{fullShare} f) ∗ ((ivr1_1).view.loc (thr d L) ↦[(ivr1_1).view.set]{fullShare} f)
          ∗ ((ivr1_2).view.loc (thr d L) ↦[(ivr1_2).view.set]{fullShare} f) ∗ (ivr1_3).view.loc (thr d L) ↦[(ivr1_3).view.set]{fullShare} f) := by
  rw [iv1_set, ivr1_0_set, ivr1_1_set, ivr1_2_set, ivr1_3_set]
  exact pointsTo_split4 planeBox_eq_rows rows_disj1 rows_disj2 (rowBox_disjoint (by decide))
theorem plane1_join (d : Dev nD) (L : grid0.Coords) (f : Buf (Elt F) ((iv1).view.loc (thr d L))) :
    iprop(((ivr1_0).view.loc (thr d L) ↦[(ivr1_0).view.set]{fullShare} f) ∗ ((ivr1_1).view.loc (thr d L) ↦[(ivr1_1).view.set]{fullShare} f)
          ∗ ((ivr1_2).view.loc (thr d L) ↦[(ivr1_2).view.set]{fullShare} f) ∗ (ivr1_3).view.loc (thr d L) ↦[(ivr1_3).view.set]{fullShare} f)
      ⊢ ((iv1).view.loc (thr d L) ↦[(iv1).view.set]{fullShare} f : sProp 𝕄) := by
  rw [iv1_set, ivr1_0_set, ivr1_1_set, ivr1_2_set, ivr1_3_set]
  exact pointsTo_join4 planeBox_eq_rows rows_disj1 rows_disj2 (rowBox_disjoint (by decide))

theorem iv2_set : (iv2).view.set = (planeBox 2 inb_S3x4x128_S1x4x128_2_0_0).set := by
  show (((View.whole cc0_scratch0).slice (planeBox 2 inb_S3x4x128_S1x4x128_2_0_0)).reshape S4x128 squeezes_S1x4x128_S4x128.numel_eq).set = _
  rw [View.set_reshape, View.set_slice_whole]
theorem ivr2_0_set : (ivr2_0).view.set = (rowBox 2 0 inb_S3x4x128_S1x1x128_2_0_0).set := by
  show (((View.whole cc0_scratch0).slice (rowBox 2 0 inb_S3x4x128_S1x1x128_2_0_0)).reshape S128 squeezes_S1x1x128_S128.numel_eq).set = _
  rw [View.set_reshape, View.set_slice_whole]
theorem ivr2_1_set : (ivr2_1).view.set = (rowBox 2 1 inb_S3x4x128_S1x1x128_2_1_0).set := by
  show (((View.whole cc0_scratch0).slice (rowBox 2 1 inb_S3x4x128_S1x1x128_2_1_0)).reshape S128 squeezes_S1x1x128_S128.numel_eq).set = _
  rw [View.set_reshape, View.set_slice_whole]
theorem ivr2_2_set : (ivr2_2).view.set = (rowBox 2 2 inb_S3x4x128_S1x1x128_2_2_0).set := by
  show (((View.whole cc0_scratch0).slice (rowBox 2 2 inb_S3x4x128_S1x1x128_2_2_0)).reshape S128 squeezes_S1x1x128_S128.numel_eq).set = _
  rw [View.set_reshape, View.set_slice_whole]
theorem ivr2_3_set : (ivr2_3).view.set = (rowBox 2 3 inb_S3x4x128_S1x1x128_2_3_0).set := by
  show (((View.whole cc0_scratch0).slice (rowBox 2 3 inb_S3x4x128_S1x1x128_2_3_0)).reshape S128 squeezes_S1x1x128_S128.numel_eq).set = _
  rw [View.set_reshape, View.set_slice_whole]

/-- Plane 2 of the index scratch, held, is its four rows held. -/
theorem plane2_split (d : Dev nD) (L : grid0.Coords) (f : Buf (Elt F) ((iv2).view.loc (thr d L))) :
    ((iv2).view.loc (thr d L) ↦[(iv2).view.set]{fullShare} f : sProp 𝕄)
      ⊢ iprop(((ivr2_0).view.loc (thr d L) ↦[(ivr2_0).view.set]{fullShare} f) ∗ ((ivr2_1).view.loc (thr d L) ↦[(ivr2_1).view.set]{fullShare} f)
          ∗ ((ivr2_2).view.loc (thr d L) ↦[(ivr2_2).view.set]{fullShare} f) ∗ (ivr2_3).view.loc (thr d L) ↦[(ivr2_3).view.set]{fullShare} f) := by
  rw [iv2_set, ivr2_0_set, ivr2_1_set, ivr2_2_set, ivr2_3_set]
  exact pointsTo_split4 planeBox_eq_rows rows_disj1 rows_disj2 (rowBox_disjoint (by decide))
theorem plane2_join (d : Dev nD) (L : grid0.Coords) (f : Buf (Elt F) ((iv2).view.loc (thr d L))) :
    iprop(((ivr2_0).view.loc (thr d L) ↦[(ivr2_0).view.set]{fullShare} f) ∗ ((ivr2_1).view.loc (thr d L) ↦[(ivr2_1).view.set]{fullShare} f)
          ∗ ((ivr2_2).view.loc (thr d L) ↦[(ivr2_2).view.set]{fullShare} f) ∗ (ivr2_3).view.loc (thr d L) ↦[(ivr2_3).view.set]{fullShare} f)
      ⊢ ((iv2).view.loc (thr d L) ↦[(iv2).view.set]{fullShare} f : sProp 𝕄) := by
  rw [iv2_set, ivr2_0_set, ivr2_1_set, ivr2_2_set, ivr2_3_set]
  exact pointsTo_join4 planeBox_eq_rows rows_disj1 rows_disj2 (rowBox_disjoint (by decide))

end Cert.Proof.KB

end
-- ==== Proof.KTaskRange.lean ====
/-
  Every offset a gather reads names a table row.

  Slab `t` of an index array lands whole in plane `t` of the index scratch; the gather of chunk `j` reads row `j`
  of that plane. An element of the row is an element of the plane, and after the landing every element of the plane
  holds one word of the slab. So if every word of the slab is below 100000, every offset the gather reads is.
-/
import proofs.«211833_g48473000902786_cont_8to1_c_597_31_alg».proof.Proof.KTaskViews
import proofs.«211833_g48473000902786_cont_8to1_c_597_31_alg».proof.Proof.KTaskPieces
import Idealize.ShloMosaic.Lib.Writes

noncomputable section

namespace Cert.Proof.KB

open Cert.Kernel Cert.Kernel.Gen
open Idealize.ShloMosaic
open Idealize.ShloMosaic.SparseCore (S V T)
open Idealize.SL.Sem

variable {F : FTy → Type} (d : Dev nD) (L : grid0.Coords)

theorem hin0_0 (fI : Buf (Elt F) ((iSlab0 L).view.loc (thr d L)))
    (hI : ∀ y : S4x128.Idx, ((iSlab0 L).view.read (Elt F) fI y).toNat < 100000) :
    ∀ (fs : Buf (Elt F) ((iv0).view.loc (thr d L))) (x : S128.Idx),
      ((ivr0_0).view.read (Elt F) ((iv0).view.writes (Elt F) fs
        [⟨Rect.whole S4x128, ReadAs.same.apply ((iSlab0 L).view.read (Elt F) fI)⟩]) x).toNat < 100000 := by
  intro fs x
  have hmem : (ivr0_0).view.emb x ∈ (iv0).view.set := by
    have h := (ivr0_0).view.emb_mem_set x
    rw [ivr0_0_set] at h
    rw [iv0_set, mem_planeBox]
    exact (mem_rowBox.mp h).1
  obtain ⟨y, -, hy⟩ := Finset.mem_map.mp hmem
  have hw := View.read_writes_cons_emb (iv0).view (Val := Elt F) fs (Rect.whole S4x128)
    (ReadAs.same.apply ((iSlab0 L).view.read (Elt F) fI)) [] y
  rw [Rect.emb_whole_apply, View.read_apply, hy] at hw
  refine lt_of_eq_of_lt (congrArg BitVec.toNat (?_ : _ = ReadAs.same.apply ((iSlab0 L).view.read (Elt F) fI) y)) (hI y)
  exact hw

theorem hin0_1 (fI : Buf (Elt F) ((iSlab0 L).view.loc (thr d L)))
    (hI : ∀ y : S4x128.Idx, ((iSlab0 L).view.read (Elt F) fI y).toNat < 100000) :
    ∀ (fs : Buf (Elt F) ((iv0).view.loc (thr d L))) (x : S128.Idx),
      ((ivr0_1).view.read (Elt F) ((iv0).view.writes (Elt F) fs
        [⟨Rect.whole S4x128, ReadAs.same.apply ((iSlab0 L).view.read (Elt F) fI)⟩]) x).toNat < 100000 := by
  intro fs x
  have hmem : (ivr0_1).view.emb x ∈ (iv0).view.set := by
    have h := (ivr0_1).view.emb_mem_set x
    rw [ivr0_1_set] at h
    rw [iv0_set, mem_planeBox]
    exact (mem_rowBox.mp h).1
  obtain ⟨y, -, hy⟩ := Finset.mem_map.mp hmem
  have hw := View.read_writes_cons_emb (iv0).view (Val := Elt F) fs (Rect.whole S4x128)
    (ReadAs.same.apply ((iSlab0 L).view.read (Elt F) fI)) [] y
  rw [Rect.emb_whole_apply, View.read_apply, hy] at hw
  refine lt_of_eq_of_lt (congrArg BitVec.toNat (?_ : _ = ReadAs.same.apply ((iSlab0 L).view.read (Elt F) fI) y)) (hI y)
  exact hw

theorem hin0_2 (fI : Buf (Elt F) ((iSlab0 L).view.loc (thr d L)))
    (hI : ∀ y : S4x128.Idx, ((iSlab0 L).view.read (Elt F) fI y).toNat < 100000) :
    ∀ (fs : Buf (Elt F) ((iv0).view.loc (thr d L))) (x : S128.Idx),
      ((ivr0_2).view.read (Elt F) ((iv0).view.writes (Elt F) fs
        [⟨Rect.whole S4x128, ReadAs.same.apply ((iSlab0 L).view.read (Elt F) fI)⟩]) x).toNat < 100000 := by
  intro fs x
  have hmem : (ivr0_2).view.emb x ∈ (iv0).view.set := by
    have h := (ivr0_2).view.emb_mem_set x
    rw [ivr0_2_set] at h
    rw [iv0_set, mem_planeBox]
    exact (mem_rowBox.mp h).1
  obtain ⟨y, -, hy⟩ := Finset.mem_map.mp hmem
  have hw := View.read_writes_cons_emb (iv0).view (Val := Elt F) fs (Rect.whole S4x128)
    (ReadAs.same.apply ((iSlab0 L).view.read (Elt F) fI)) [] y
  rw [Rect.emb_whole_apply, View.read_apply, hy] at hw
  refine lt_of_eq_of_lt (congrArg BitVec.toNat (?_ : _ = ReadAs.same.apply ((iSlab0 L).view.read (Elt F) fI) y)) (hI y)
  exact hw

theorem hin0_3 (fI : Buf (Elt F) ((iSlab0 L).view.loc (thr d L)))
    (hI : ∀ y : S4x128.Idx, ((iSlab0 L).view.read (Elt F) fI y).toNat < 100000) :
    ∀ (fs : Buf (Elt F) ((iv0).view.loc (thr d L))) (x : S128.Idx),
      ((ivr0_3).view.read (Elt F) ((iv0).view.writes (Elt F) fs
        [⟨Rect.whole S4x128, ReadAs.same.apply ((iSlab0 L).view.read (Elt F) fI)⟩]) x).toNat < 100000 := by
  intro fs x
  have hmem : (ivr0_3).view.emb x ∈ (iv0).view.set := by
    have h := (ivr0_3).view.emb_mem_set x
    rw [ivr0_3_set] at h
    rw [iv0_set, mem_planeBox]
    exact (mem_rowBox.mp h).1
  obtain ⟨y, -, hy⟩ := Finset.mem_map.mp hmem
  have hw := View.read_writes_cons_emb (iv0).view (Val := Elt F) fs (Rect.whole S4x128)
    (ReadAs.same.apply ((iSlab0 L).view.read (Elt F) fI)) [] y
  rw [Rect.emb_whole_apply, View.read_apply, hy] at hw
  refine lt_of_eq_of_lt (congrArg BitVec.toNat (?_ : _ = ReadAs.same.apply ((iSlab0 L).view.read (Elt F) fI) y)) (hI y)
  exact hw

theorem hin1_0 (fI : Buf (Elt F) ((iSlab1 L).view.loc (thr d L)))
    (hI : ∀ y : S4x128.Idx, ((iSlab1 L).view.read (Elt F) fI y).toNat < 100000) :
    ∀ (fs : Buf (Elt F) ((iv1).view.loc (thr d L))) (x : S128.Idx),
      ((ivr1_0).view.read (Elt F) ((iv1).view.writes (Elt F) fs
        [⟨Rect.whole S4x128, ReadAs.same.apply ((iSlab1 L).view.read (Elt F) fI)⟩]) x).toNat < 100000 := by
  intro fs x
  have hmem : (ivr1_0).view.emb x ∈ (iv1).view.set := by
    have h := (ivr1_0).view.emb_mem_set x
    rw [ivr1_0_set] at h
    rw [iv1_set, mem_planeBox]
    exact (mem_rowBox.mp h).1
  obtain ⟨y, -, hy⟩ := Finset.mem_map.mp hmem
  have hw := View.read_writes_cons_emb (iv1).view (Val := Elt F) fs (Rect.whole S4x128)
    (ReadAs.same.apply ((iSlab1 L).view.read (Elt F) fI)) [] y
  rw [Rect.emb_whole_apply, View.read_apply, hy] at hw
  refine lt_of_eq_of_lt (congrArg BitVec.toNat (?_ : _ = ReadAs.same.apply ((iSlab1 L).view.read (Elt F) fI) y)) (hI y)
  exact hw

theorem hin1_1 (fI : Buf (Elt F) ((iSlab1 L).view.loc (thr d L)))
    (hI : ∀ y : S4x128.Idx, ((iSlab1 L).view.read (Elt F) fI y).toNat < 100000) :
    ∀ (fs : Buf (Elt F) ((iv1).view.loc (thr d L))) (x : S128.Idx),
      ((ivr1_1).view.read (Elt F) ((iv1).view.writes (Elt F) fs
        [⟨Rect.whole S4x128, ReadAs.same.apply ((iSlab1 L).view.read (Elt F) fI)⟩]) x).toNat < 100000 := by
  intro fs x
  have hmem : (ivr1_1).view.emb x ∈ (iv1).view.set := by
    have h := (ivr1_1).view.emb_mem_set x
    rw [ivr1_1_set] at h
    rw [iv1_set, mem_planeBox]
    exact (mem_rowBox.mp h).1
  obtain ⟨y, -, hy⟩ := Finset.mem_map.mp hmem
  have hw := View.read_writes_cons_emb (iv1).view (Val := Elt F) fs (Rect.whole S4x128)
    (ReadAs.same.apply ((iSlab1 L).view.read (Elt F) fI)) [] y
  rw [Rect.emb_whole_apply, View.read_apply, hy] at hw
  refine lt_of_eq_of_lt (congrArg BitVec.toNat (?_ : _ = ReadAs.same.apply ((iSlab1 L).view.read (Elt F) fI) y)) (hI y)
  exact hw

theorem hin1_2 (fI : Buf (Elt F) ((iSlab1 L).view.loc (thr d L)))
    (hI : ∀ y : S4x128.Idx, ((iSlab1 L).view.read (Elt F) fI y).toNat < 100000) :
    ∀ (fs : Buf (Elt F) ((iv1).view.loc (thr d L))) (x : S128.Idx),
      ((ivr1_2).view.read (Elt F) ((iv1).view.writes (Elt F) fs
        [⟨Rect.whole S4x128, ReadAs.same.apply ((iSlab1 L).view.read (Elt F) fI)⟩]) x).toNat < 100000 := by
  intro fs x
  have hmem : (ivr1_2).view.emb x ∈ (iv1).view.set := by
    have h := (ivr1_2).view.emb_mem_set x
    rw [ivr1_2_set] at h
    rw [iv1_set, mem_planeBox]
    exact (mem_rowBox.mp h).1
  obtain ⟨y, -, hy⟩ := Finset.mem_map.mp hmem
  have hw := View.read_writes_cons_emb (iv1).view (Val := Elt F) fs (Rect.whole S4x128)
    (ReadAs.same.apply ((iSlab1 L).view.read (Elt F) fI)) [] y
  rw [Rect.emb_whole_apply, View.read_apply, hy] at hw
  refine lt_of_eq_of_lt (congrArg BitVec.toNat (?_ : _ = ReadAs.same.apply ((iSlab1 L).view.read (Elt F) fI) y)) (hI y)
  exact hw

theorem hin1_3 (fI : Buf (Elt F) ((iSlab1 L).view.loc (thr d L)))
    (hI : ∀ y : S4x128.Idx, ((iSlab1 L).view.read (Elt F) fI y).toNat < 100000) :
    ∀ (fs : Buf (Elt F) ((iv1).view.loc (thr d L))) (x : S128.Idx),
      ((ivr1_3).view.read (Elt F) ((iv1).view.writes (Elt F) fs
        [⟨Rect.whole S4x128, ReadAs.same.apply ((iSlab1 L).view.read (Elt F) fI)⟩]) x).toNat < 100000 := by
  intro fs x
  have hmem : (ivr1_3).view.emb x ∈ (iv1).view.set := by
    have h := (ivr1_3).view.emb_mem_set x
    rw [ivr1_3_set] at h
    rw [iv1_set, mem_planeBox]
    exact (mem_rowBox.mp h).1
  obtain ⟨y, -, hy⟩ := Finset.mem_map.mp hmem
  have hw := View.read_writes_cons_emb (iv1).view (Val := Elt F) fs (Rect.whole S4x128)
    (ReadAs.same.apply ((iSlab1 L).view.read (Elt F) fI)) [] y
  rw [Rect.emb_whole_apply, View.read_apply, hy] at hw
  refine lt_of_eq_of_lt (congrArg BitVec.toNat (?_ : _ = ReadAs.same.apply ((iSlab1 L).view.read (Elt F) fI) y)) (hI y)
  exact hw

theorem hin2_0 (fI : Buf (Elt F) ((iSlab2 L).view.loc (thr d L)))
    (hI : ∀ y : S4x128.Idx, ((iSlab2 L).view.read (Elt F) fI y).toNat < 100000) :
    ∀ (fs : Buf (Elt F) ((iv2).view.loc (thr d L))) (x : S128.Idx),
      ((ivr2_0).view.read (Elt F) ((iv2).view.writes (Elt F) fs
        [⟨Rect.whole S4x128, ReadAs.same.apply ((iSlab2 L).view.read (Elt F) fI)⟩]) x).toNat < 100000 := by
  intro fs x
  have hmem : (ivr2_0).view.emb x ∈ (iv2).view.set := by
    have h := (ivr2_0).view.emb_mem_set x
    rw [ivr2_0_set] at h
    rw [iv2_set, mem_planeBox]
    exact (mem_rowBox.mp h).1
  obtain ⟨y, -, hy⟩ := Finset.mem_map.mp hmem
  have hw := View.read_writes_cons_emb (iv2).view (Val := Elt F) fs (Rect.whole S4x128)
    (ReadAs.same.apply ((iSlab2 L).view.read (Elt F) fI)) [] y
  rw [Rect.emb_whole_apply, View.read_apply, hy] at hw
  refine lt_of_eq_of_lt (congrArg BitVec.toNat (?_ : _ = ReadAs.same.apply ((iSlab2 L).view.read (Elt F) fI) y)) (hI y)
  exact hw

theorem hin2_1 (fI : Buf (Elt F) ((iSlab2 L).view.loc (thr d L)))
    (hI : ∀ y : S4x128.Idx, ((iSlab2 L).view.read (Elt F) fI y).toNat < 100000) :
    ∀ (fs : Buf (Elt F) ((iv2).view.loc (thr d L))) (x : S128.Idx),
      ((ivr2_1).view.read (Elt F) ((iv2).view.writes (Elt F) fs
        [⟨Rect.whole S4x128, ReadAs.same.apply ((iSlab2 L).view.read (Elt F) fI)⟩]) x).toNat < 100000 := by
  intro fs x
  have hmem : (ivr2_1).view.emb x ∈ (iv2).view.set := by
    have h := (ivr2_1).view.emb_mem_set x
    rw [ivr2_1_set] at h
    rw [iv2_set, mem_planeBox]
    exact (mem_rowBox.mp h).1
  obtain ⟨y, -, hy⟩ := Finset.mem_map.mp hmem
  have hw := View.read_writes_cons_emb (iv2).view (Val := Elt F) fs (Rect.whole S4x128)
    (ReadAs.same.apply ((iSlab2 L).view.read (Elt F) fI)) [] y
  rw [Rect.emb_whole_apply, View.read_apply, hy] at hw
  refine lt_of_eq_of_lt (congrArg BitVec.toNat (?_ : _ = ReadAs.same.apply ((iSlab2 L).view.read (Elt F) fI) y)) (hI y)
  exact hw

theorem hin2_2 (fI : Buf (Elt F) ((iSlab2 L).view.loc (thr d L)))
    (hI : ∀ y : S4x128.Idx, ((iSlab2 L).view.read (Elt F) fI y).toNat < 100000) :
    ∀ (fs : Buf (Elt F) ((iv2).view.loc (thr d L))) (x : S128.Idx),
      ((ivr2_2).view.read (Elt F) ((iv2).view.writes (Elt F) fs
        [⟨Rect.whole S4x128, ReadAs.same.apply ((iSlab2 L).view.read (Elt F) fI)⟩]) x).toNat < 100000 := by
  intro fs x
  have hmem : (ivr2_2).view.emb x ∈ (iv2).view.set := by
    have h := (ivr2_2).view.emb_mem_set x
    rw [ivr2_2_set] at h
    rw [iv2_set, mem_planeBox]
    exact (mem_rowBox.mp h).1
  obtain ⟨y, -, hy⟩ := Finset.mem_map.mp hmem
  have hw := View.read_writes_cons_emb (iv2).view (Val := Elt F) fs (Rect.whole S4x128)
    (ReadAs.same.apply ((iSlab2 L).view.read (Elt F) fI)) [] y
  rw [Rect.emb_whole_apply, View.read_apply, hy] at hw
  refine lt_of_eq_of_lt (congrArg BitVec.toNat (?_ : _ = ReadAs.same.apply ((iSlab2 L).view.read (Elt F) fI) y)) (hI y)
  exact hw

theorem hin2_3 (fI : Buf (Elt F) ((iSlab2 L).view.loc (thr d L)))
    (hI : ∀ y : S4x128.Idx, ((iSlab2 L).view.read (Elt F) fI y).toNat < 100000) :
    ∀ (fs : Buf (Elt F) ((iv2).view.loc (thr d L))) (x : S128.Idx),
      ((ivr2_3).view.read (Elt F) ((iv2).view.writes (Elt F) fs
        [⟨Rect.whole S4x128, ReadAs.same.apply ((iSlab2 L).view.read (Elt F) fI)⟩]) x).toNat < 100000 := by
  intro fs x
  have hmem : (ivr2_3).view.emb x ∈ (iv2).view.set := by
    have h := (ivr2_3).view.emb_mem_set x
    rw [ivr2_3_set] at h
    rw [iv2_set, mem_planeBox]
    exact (mem_rowBox.mp h).1
  obtain ⟨y, -, hy⟩ := Finset.mem_map.mp hmem
  have hw := View.read_writes_cons_emb (iv2).view (Val := Elt F) fs (Rect.whole S4x128)
    (ReadAs.same.apply ((iSlab2 L).view.read (Elt F) fI)) [] y
  rw [Rect.emb_whole_apply, View.read_apply, hy] at hw
  refine lt_of_eq_of_lt (congrArg BitVec.toNat (?_ : _ = ReadAs.same.apply ((iSlab2 L).view.read (Elt F) fI) y)) (hI y)
  exact hw

end Cert.Proof.KB

end
-- ==== Proof.KTaskRun.lean ====
/-
  The gather task, run.

  From its pieces — the three index slabs, read tokens of the three tables, the twelve output chunks, the three
  planes of the index scratch, the seven slots of the row scratch, its seventeen semaphores at zero — the task runs to
  its end and leaves them: slabs and tokens as they were, every written piece at some contents, every semaphore at
  zero again, every wait it recorded one on a semaphore of its own. A plane is taken apart into its rows when its slab
  has landed (the gathers read their offsets row by row) and put together at the end. Every offset read names a
  table row because every word of the slabs does.
-/
import proofs.«211833_g48473000902786_cont_8to1_c_597_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«211833_g48473000902786_cont_8to1_c_597_31_alg».proof.Proof.Gen.Kernel
import proofs.«211833_g48473000902786_cont_8to1_c_597_31_alg».proof.Proof.Gen.Kernel.Skeleton
import proofs.«211833_g48473000902786_cont_8to1_c_597_31_alg».proof.Proof.KTaskViews
import proofs.«211833_g48473000902786_cont_8to1_c_597_31_alg».proof.Proof.KTaskPieces
import proofs.«211833_g48473000902786_cont_8to1_c_597_31_alg».proof.Proof.KTaskRange

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]
local notation "𝕄" => MT nD τ sig (HIx 1) (Elt F) ℕ UU ℕ
variable [FloatOps F] (𝒱₀ : Variants) (d : Dev nD) (L : grid0.Coords)

theorem waits_base {W : Waits sig (HIx 1)} : ∀ p ∈ W, p ∈ W ∨ p.2 = none := fun _ hp => .inl hp
theorem waits_step {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 16000000 in
theorem task_core (O : CellTallies nD τ sig (HIx 1)) (W : Waits sig (HIx 1)) (q : PosShare TreeShare)
    (fI0 : Buf (Elt F) ((iSlab0 L).view.loc (thr d L)))
    (fI1 : Buf (Elt F) ((iSlab1 L).view.loc (thr d L)))
    (fI2 : Buf (Elt F) ((iSlab2 L).view.loc (thr d L)))
    (fT0 : Buf (Elt F) ((tab0).view.loc (thr d L)))
    (fT1 : Buf (Elt F) ((tab1).view.loc (thr d L)))
    (fT2 : Buf (Elt F) ((tab2).view.loc (thr d L)))
    (fO0_0 : Buf (Elt F) ((oCh0_0 L).view.loc (thr d L)))
    (fO0_1 : Buf (Elt F) ((oCh0_1 L).view.loc (thr d L)))
    (fO0_2 : Buf (Elt F) ((oCh0_2 L).view.loc (thr d L)))
    (fO0_3 : Buf (Elt F) ((oCh0_3 L).view.loc (thr d L)))
    (fO1_0 : Buf (Elt F) ((oCh1_0 L).view.loc (thr d L)))
    (fO1_1 : Buf (Elt F) ((oCh1_1 L).view.loc (thr d L)))
    (fO1_2 : Buf (Elt F) ((oCh1_2 L).view.loc (thr d L)))
    (fO1_3 : Buf (Elt F) ((oCh1_3 L).view.loc (thr d L)))
    (fO2_0 : Buf (Elt F) ((oCh2_0 L).view.loc (thr d L)))
    (fO2_1 : Buf (Elt F) ((oCh2_1 L).view.loc (thr d L)))
    (fO2_2 : Buf (Elt F) ((oCh2_2 L).view.loc (thr d L)))
    (fO2_3 : Buf (Elt F) ((oCh2_3 L).view.loc (thr d L)))
    (fV0 : Buf (Elt F) ((iv0).view.loc (thr d L)))
    (fV1 : Buf (Elt F) ((iv1).view.loc (thr d L)))
    (fV2 : Buf (Elt F) ((iv2).view.loc (thr d L)))
    (fS0 : Buf (Elt F) ((slot0).view.loc (thr d L)))
    (fS1 : Buf (Elt F) ((slot1).view.loc (thr d L)))
    (fS2 : Buf (Elt F) ((slot2).view.loc (thr d L)))
    (fS3 : Buf (Elt F) ((slot3).view.loc (thr d L)))
    (fS4 : Buf (Elt F) ((slot4).view.loc (thr d L)))
    (fS5 : Buf (Elt F) ((slot5).view.loc (thr d L)))
    (fS6 : Buf (Elt F) ((slot6).view.loc (thr d L)))
    (hI0 : ∀ y : S4x128.Idx, ((iSlab0 L).view.read (Elt F) fI0 y).toNat < 100000)
    (hI1 : ∀ y : S4x128.Idx, ((iSlab1 L).view.read (Elt F) fI1 y).toNat < 100000)
    (hI2 : ∀ y : S4x128.Idx, ((iSlab2 L).view.read (Elt F) fI2 y).toNat < 100000) :
    (iprop(Transfers.MayWaits (thr d L) (default : HIx 1) O
      ∗ ((iSlab0 L).view.loc (thr d L) ↦[(iSlab0 L).view.set]{fullShare} fI0)
      ∗ ((iSlab1 L).view.loc (thr d L) ↦[(iSlab1 L).view.set]{fullShare} fI1)
      ∗ ((iSlab2 L).view.loc (thr d L) ↦[(iSlab2 L).view.set]{fullShare} fI2)
      ∗ ((tab0).view.loc (thr d L) ↦{Transfers.shareTok q 10 (3 : Fin 10)} fT0)
      ∗ ((tab0).view.loc (thr d L) ↦{Transfers.shareTok q 10 (4 : Fin 10)} fT0)
      ∗ ((tab0).view.loc (thr d L) ↦{Transfers.shareTok q 10 (5 : Fin 10)} fT0)
      ∗ ((tab0).view.loc (thr d L) ↦{Transfers.shareTok q 10 (6 : Fin 10)} fT0)
      ∗ ((tab1).view.loc (thr d L) ↦{Transfers.shareTok q 10 (7 : Fin 10)} fT1)
      ∗ ((tab1).view.loc (thr d L) ↦{Transfers.shareTok q 10 (8 : Fin 10)} fT1)
      ∗ ((tab1).view.loc (thr d L) ↦{Transfers.shareTok q 10 (9 : Fin 10)} fT1)
      ∗ ((tab1).view.loc (thr d L) ↦{Transfers.shareTok q 10 (3 : Fin 10)} fT1)
      ∗ ((tab2).view.loc (thr d L) ↦{Transfers.shareTok q 10 (4 : Fin 10)} fT2)
      ∗ ((tab2).view.loc (thr d L) ↦{Transfers.shareTok q 10 (5 : Fin 10)} fT2)
      ∗ ((tab2).view.loc (thr d L) ↦{Transfers.shareTok q 10 (6 : Fin 10)} fT2)
      ∗ ((tab2).view.loc (thr d L) ↦{Transfers.shareTok q 10 (7 : Fin 10)} fT2)
      ∗ ((oCh0_0 L).view.loc (thr d L) ↦[(oCh0_0 L).view.set]{fullShare} fO0_0)
      ∗ ((oCh0_1 L).view.loc (thr d L) ↦[(oCh0_1 L).view.set]{fullShare} fO0_1)
      ∗ ((oCh0_2 L).view.loc (thr d L) ↦[(oCh0_2 L).view.set]{fullShare} fO0_2)
      ∗ ((oCh0_3 L).view.loc (thr d L) ↦[(oCh0_3 L).view.set]{fullShare} fO0_3)
      ∗ ((oCh1_0 L).view.loc (thr d L) ↦[(oCh1_0 L).view.set]{fullShare} fO1_0)
      ∗ ((oCh1_1 L).view.loc (thr d L) ↦[(oCh1_1 L).view.set]{fullShare} fO1_1)
      ∗ ((oCh1_2 L).view.loc (thr d L) ↦[(oCh1_2 L).view.set]{fullShare} fO1_2)
      ∗ ((oCh1_3 L).view.loc (thr d L) ↦[(oCh1_3 L).view.set]{fullShare} fO1_3)
      ∗ ((oCh2_0 L).view.loc (thr d L) ↦[(oCh2_0 L).view.set]{fullShare} fO2_0)
      ∗ ((oCh2_1 L).view.loc (thr d L) ↦[(oCh2_1 L).view.set]{fullShare} fO2_1)
      ∗ ((oCh2_2 L).view.loc (thr d L) ↦[(oCh2_2 L).view.set]{fullShare} fO2_2)
      ∗ ((oCh2_3 L).view.loc (thr d L) ↦[(oCh2_3 L).view.set]{fullShare} fO2_3)
      ∗ ((iv0).view.loc (thr d L) ↦[(iv0).view.set]{fullShare} fV0)
      ∗ ((iv1).view.loc (thr d L) ↦[(iv1).view.set]{fullShare} fV1)
      ∗ ((iv2).view.loc (thr d L) ↦[(iv2).view.set]{fullShare} fV2)
      ∗ ((slot0).view.loc (thr d L) ↦[(slot0).view.set]{fullShare} fS0)
      ∗ ((slot1).view.loc (thr d L) ↦[(slot1).view.set]{fullShare} fS1)
      ∗ ((slot2).view.loc (thr d L) ↦[(slot2).view.set]{fullShare} fS2)
      ∗ ((slot3).view.loc (thr d L) ↦[(slot3).view.set]{fullShare} fS3)
      ∗ ((slot4).view.loc (thr d L) ↦[(slot4).view.set]{fullShare} fS4)
      ∗ ((slot5).view.loc (thr d L) ↦[(slot5).view.set]{fullShare} fS5)
      ∗ ((slot6).view.loc (thr d L) ↦[(slot6).view.set]{fullShare} fS6)
      ∗ semVal (thr d L, SemLoc.dma isem0) 0
      ∗ semVal (thr d L, SemLoc.dma isem1) 0
      ∗ semVal (thr d L, SemLoc.dma isem2) 0
      ∗ semVal (thr d L, SemLoc.dma gsem0) 0
      ∗ semVal (thr d L, SemLoc.dma gsem1) 0
      ∗ semVal (thr d L, SemLoc.dma gsem2) 0
      ∗ semVal (thr d L, SemLoc.dma gsem3) 0
      ∗ semVal (thr d L, SemLoc.dma gsem4) 0
      ∗ semVal (thr d L, SemLoc.dma gsem5) 0
      ∗ semVal (thr d L, SemLoc.dma gsem6) 0
      ∗ semVal (thr d L, SemLoc.dma wsem0) 0
      ∗ semVal (thr d L, SemLoc.dma wsem1) 0
      ∗ semVal (thr d L, SemLoc.dma wsem2) 0
      ∗ semVal (thr d L, SemLoc.dma wsem3) 0
      ∗ semVal (thr d L, SemLoc.dma wsem4) 0
      ∗ semVal (thr d L, SemLoc.dma wsem5) 0
      ∗ semVal (thr d L, SemLoc.dma wsem6) 0
      ∗ owes (thr d L) O W) : sProp 𝕄)
      ⊢ wp frame (wpE (defs₀ (F := F)) 𝒱₀ (thr d L) none) Set.univ
          (cc0_k L (Memref.whole main_v0_scv) (Memref.isWhole_whole _) (Memref.whole main_v1_scv) (Memref.isWhole_whole _) (Memref.whole main_v2_scv) (Memref.isWhole_whole _) (Memref.whole main_v4_scv) (Memref.isWhole_whole _) (Memref.whole main_v6_scv) (Memref.isWhole_whole _) (Memref.whole main_v8_scv) (Memref.isWhole_whole _) (Memref.whole main_v9_0_scv) (Memref.isWhole_whole _) (Memref.whole main_v9_1_scv) (Memref.isWhole_whole _) (Memref.whole main_v9_2_scv) (Memref.isWhole_whole _) (Memref.whole cc0_scratch0) (Memref.isWhole_whole _) (Memref.whole cc0_scratch1) (Memref.isWhole_whole _) cc0_scratch2 cc0_scratch3 cc0_scratch4)
          fun _ => iprop(((iSlab0 L).view.loc (thr d L) ↦[(iSlab0 L).view.set]{fullShare} fI0)
            ∗ ((iSlab1 L).view.loc (thr d L) ↦[(iSlab1 L).view.set]{fullShare} fI1)
            ∗ ((iSlab2 L).view.loc (thr d L) ↦[(iSlab2 L).view.set]{fullShare} fI2)
            ∗ ((tab0).view.loc (thr d L) ↦{Transfers.shareTok q 10 (3 : Fin 10)} fT0)
            ∗ ((tab0).view.loc (thr d L) ↦{Transfers.shareTok q 10 (4 : Fin 10)} fT0)
            ∗ ((tab0).view.loc (thr d L) ↦{Transfers.shareTok q 10 (5 : Fin 10)} fT0)
            ∗ ((tab0).view.loc (thr d L) ↦{Transfers.shareTok q 10 (6 : Fin 10)} fT0)
            ∗ ((tab1).view.loc (thr d L) ↦{Transfers.shareTok q 10 (7 : Fin 10)} fT1)
            ∗ ((tab1).view.loc (thr d L) ↦{Transfers.shareTok q 10 (8 : Fin 10)} fT1)
            ∗ ((tab1).view.loc (thr d L) ↦{Transfers.shareTok q 10 (9 : Fin 10)} fT1)
            ∗ ((tab1).view.loc (thr d L) ↦{Transfers.shareTok q 10 (3 : Fin 10)} fT1)
            ∗ ((tab2).view.loc (thr d L) ↦{Transfers.shareTok q 10 (4 : Fin 10)} fT2)
            ∗ ((tab2).view.loc (thr d L) ↦{Transfers.shareTok q 10 (5 : Fin 10)} fT2)
            ∗ ((tab2).view.loc (thr d L) ↦{Transfers.shareTok q 10 (6 : Fin 10)} fT2)
            ∗ ((tab2).view.loc (thr d L) ↦{Transfers.shareTok q 10 (7 : Fin 10)} fT2)
            ∗ (∃ f, (oCh0_0 L).view.loc (thr d L) ↦[(oCh0_0 L).view.set]{fullShare} f)
            ∗ (∃ f, (oCh0_1 L).view.loc (thr d L) ↦[(oCh0_1 L).view.set]{fullShare} f)
            ∗ (∃ f, (oCh0_2 L).view.loc (thr d L) ↦[(oCh0_2 L).view.set]{fullShare} f)
            ∗ (∃ f, (oCh0_3 L).view.loc (thr d L) ↦[(oCh0_3 L).view.set]{fullShare} f)
            ∗ (∃ f, (oCh1_0 L).view.loc (thr d L) ↦[(oCh1_0 L).view.set]{fullShare} f)
            ∗ (∃ f, (oCh1_1 L).view.loc (thr d L) ↦[(oCh1_1 L).view.set]{fullShare} f)
            ∗ (∃ f, (oCh1_2 L).view.loc (thr d L) ↦[(oCh1_2 L).view.set]{fullShare} f)
            ∗ (∃ f, (oCh1_3 L).view.loc (thr d L) ↦[(oCh1_3 L).view.set]{fullShare} f)
            ∗ (∃ f, (oCh2_0 L).view.loc (thr d L) ↦[(oCh2_0 L).view.set]{fullShare} f)
            ∗ (∃ f, (oCh2_1 L).view.loc (thr d L) ↦[(oCh2_1 L).view.set]{fullShare} f)
            ∗ (∃ f, (oCh2_2 L).view.loc (thr d L) ↦[(oCh2_2 L).view.set]{fullShare} f)
            ∗ (∃ f, (oCh2_3 L).view.loc (thr d L) ↦[(oCh2_3 L).view.set]{fullShare} f)
            ∗ (∃ f, (iv0).view.loc (thr d L) ↦[(iv0).view.set]{fullShare} f)
            ∗ (∃ f, (iv1).view.loc (thr d L) ↦[(iv1).view.set]{fullShare} f)
            ∗ (∃ f, (iv2).view.loc (thr d L) ↦[(iv2).view.set]{fullShare} f)
            ∗ (∃ f, (slot0).view.loc (thr d L) ↦[(slot0).view.set]{fullShare} f)
            ∗ (∃ f, (slot1).view.loc (thr d L) ↦[(slot1).view.set]{fullShare} f)
            ∗ (∃ f, (slot2).view.loc (thr d L) ↦[(slot2).view.set]{fullShare} f)
            ∗ (∃ f, (slot3).view.loc (thr d L) ↦[(slot3).view.set]{fullShare} f)
            ∗ (∃ f, (slot4).view.loc (thr d L) ↦[(slot4).view.set]{fullShare} f)
            ∗ (∃ f, (slot5).view.loc (thr d L) ↦[(slot5).view.set]{fullShare} f)
            ∗ (∃ f, (slot6).view.loc (thr d L) ↦[(slot6).view.set]{fullShare} f)
            ∗ semVal (thr d L, SemLoc.dma isem0) 0
            ∗ semVal (thr d L, SemLoc.dma isem1) 0
            ∗ semVal (thr d L, SemLoc.dma isem2) 0
            ∗ semVal (thr d L, SemLoc.dma gsem0) 0
            ∗ semVal (thr d L, SemLoc.dma gsem1) 0
            ∗ semVal (thr d L, SemLoc.dma gsem2) 0
            ∗ semVal (thr d L, SemLoc.dma gsem3) 0
            ∗ semVal (thr d L, SemLoc.dma gsem4) 0
            ∗ semVal (thr d L, SemLoc.dma gsem5) 0
            ∗ semVal (thr d L, SemLoc.dma gsem6) 0
            ∗ semVal (thr d L, SemLoc.dma wsem0) 0
            ∗ semVal (thr d L, SemLoc.dma wsem1) 0
            ∗ semVal (thr d L, SemLoc.dma wsem2) 0
            ∗ semVal (thr d L, SemLoc.dma wsem3) 0
            ∗ semVal (thr d L, SemLoc.dma wsem4) 0
            ∗ semVal (thr d L, SemLoc.dma wsem5) 0
            ∗ semVal (thr d L, SemLoc.dma wsem6) 0
            ∗ ∃ W', ⌜∀ p ∈ W', p ∈ W ∨ p.2 = none⌝ ∗ owes (thr d L) O W') := by
  have hin0_0 := hin0_0 (F := F) d L fI0 hI0
  have hin0_1 := hin0_1 (F := F) d L fI0 hI0
  have hin0_2 := hin0_2 (F := F) d L fI0 hI0
  have hin0_3 := hin0_3 (F := F) d L fI0 hI0
  have hin1_0 := hin1_0 (F := F) d L fI1 hI1
  have hin1_1 := hin1_1 (F := F) d L fI1 hI1
  have hin1_2 := hin1_2 (F := F) d L fI1 hI1
  have hin1_3 := hin1_3 (F := F) d L fI1 hI1
  have hin2_0 := hin2_0 (F := F) d L fI2 hI2
  have hin2_1 := hin2_1 (F := F) d L fI2 hI2
  have hin2_2 := hin2_2 (F := F) d L fI2 hI2
  have hin2_3 := hin2_3 (F := F) d L fI2 hI2
  iintro ⟨#Hmw, Hi0, Hi1, Hi2, Ht0_0, Ht0_1, Ht0_2, Ht0_3, Ht1_4, Ht1_5, Ht1_6, Ht1_0, Ht2_1, Ht2_2, Ht2_3, Ht2_4, Ho0_0, Ho0_1, Ho0_2, Ho0_3, Ho1_0, Ho1_1, Ho1_2, Ho1_3, Ho2_0, Ho2_1, Ho2_2, Ho2_3, Hv0, Hv1, Hv2, Hs0, Hs1, Hs2, Hs3, Hs4, Hs5, Hs6, Hc_i0, Hc_i1, Hc_i2, Hc_g0, Hc_g1, Hc_g2, Hc_g3, Hc_g4, Hc_g5, Hc_g6, Hc_w0, Hc_w1, Hc_w2, Hc_w3, Hc_w4, Hc_w5, Hc_w6, HO⟩
  sl_exec_parts
  ihave Hrows := (plane0_split (F := F) (UU := UU) d L _) $$ Hv0
  icases Hrows with ⟨Hr0_0, Hr0_1, Hr0_2, Hr0_3⟩
  generalize hg0 : (iv0).view.writes (Elt F) fV0 _ = g0 at *
  have hin0_0' : ∀ x, (((ivr0_0).view.read (Elt F) g0) x).toNat < 100000 := hg0 ▸ hin0_0 fV0
  have hin0_1' : ∀ x, (((ivr0_1).view.read (Elt F) g0) x).toNat < 100000 := hg0 ▸ hin0_1 fV0
  have hin0_2' : ∀ x, (((ivr0_2).view.read (Elt F) g0) x).toNat < 100000 := hg0 ▸ hin0_2 fV0
  have hin0_3' : ∀ x, (((ivr0_3).view.read (Elt F) g0) x).toNat < 100000 := hg0 ▸ hin0_3 fV0
  sl_exec_parts
  ihave Hrows := (plane1_split (F := F) (UU := UU) d L _) $$ Hv1
  icases Hrows with ⟨Hr1_0, Hr1_1, Hr1_2, Hr1_3⟩
  generalize hg1 : (iv1).view.writes (Elt F) fV1 _ = g1 at *
  have hin1_0' : ∀ x, (((ivr1_0).view.read (Elt F) g1) x).toNat < 100000 := hg1 ▸ hin1_0 fV1
  have hin1_1' : ∀ x, (((ivr1_1).view.read (Elt F) g1) x).toNat < 100000 := hg1 ▸ hin1_1 fV1
  have hin1_2' : ∀ x, (((ivr1_2).view.read (Elt F) g1) x).toNat < 100000 := hg1 ▸ hin1_2 fV1
  have hin1_3' : ∀ x, (((ivr1_3).view.read (Elt F) g1) x).toNat < 100000 := hg1 ▸ hin1_3 fV1
  sl_exec_parts
  ihave Hrows := (plane2_split (F := F) (UU := UU) d L _) $$ Hv2
  icases Hrows with ⟨Hr2_0, Hr2_1, Hr2_2, Hr2_3⟩
  generalize hg2 : (iv2).view.writes (Elt F) fV2 _ = g2 at *
  have hin2_0' : ∀ x, (((ivr2_0).view.read (Elt F) g2) x).toNat < 100000 := hg2 ▸ hin2_0 fV2
  have hin2_1' : ∀ x, (((ivr2_1).view.read (Elt F) g2) x).toNat < 100000 := hg2 ▸ hin2_1 fV2
  have hin2_2' : ∀ x, (((ivr2_2).view.read (Elt F) g2) x).toNat < 100000 := hg2 ▸ hin2_2 fV2
  have hin2_3' : ∀ x, (((ivr2_3).view.read (Elt F) g2) x).toNat < 100000 := hg2 ▸ hin2_3 fV2
  sl_exec_parts
  sl_step
  ihave Hp0 := (plane0_join (F := F) (UU := UU) d L _) $$ [Hr0_0 Hr0_1 Hr0_2 Hr0_3]
  · isplitl [Hr0_0]; · iexact Hr0_0
    isplitl [Hr0_1]; · iexact Hr0_1
    isplitl [Hr0_2]; · iexact Hr0_2
    iexact Hr0_3
  ihave Hp1 := (plane1_join (F := F) (UU := UU) d L _) $$ [Hr1_0 Hr1_1 Hr1_2 Hr1_3]
  · isplitl [Hr1_0]; · iexact Hr1_0
    isplitl [Hr1_1]; · iexact Hr1_1
    isplitl [Hr1_2]; · iexact Hr1_2
    iexact Hr1_3
  ihave Hp2 := (plane2_join (F := F) (UU := UU) d L _) $$ [Hr2_0 Hr2_1 Hr2_2 Hr2_3]
  · isplitl [Hr2_0]; · iexact Hr2_0
    isplitl [Hr2_1]; · iexact Hr2_1
    isplitl [Hr2_2]; · iexact Hr2_2
    iexact Hr2_3
  isplitl [Hi0]; · iexact Hi0
  isplitl [Hi1]; · iexact Hi1
  isplitl [Hi2]; · iexact Hi2
  isplitl [Ht0_0]; · iexact Ht0_0
  isplitl [Ht0_1]; · iexact Ht0_1
  isplitl [Ht0_2]; · iexact Ht0_2
  isplitl [Ht0_3]; · iexact Ht0_3
  isplitl [Ht1_4]; · iexact Ht1_4
  isplitl [Ht1_5]; · iexact Ht1_5
  isplitl [Ht1_6]; · iexact Ht1_6
  isplitl [Ht1_0]; · iexact Ht1_0
  isplitl [Ht2_1]; · iexact Ht2_1
  isplitl [Ht2_2]; · iexact Ht2_2
  isplitl [Ht2_3]; · iexact Ht2_3
  isplitl [Ht2_4]; · iexact Ht2_4
  isplitl [Ho0_0]; · iexists _; iexact Ho0_0
  isplitl [Ho0_1]; · iexists _; iexact Ho0_1
  isplitl [Ho0_2]; · iexists _; iexact Ho0_2
  isplitl [Ho0_3]; · iexists _; iexact Ho0_3
  isplitl [Ho1_0]; · iexists _; iexact Ho1_0
  isplitl [Ho1_1]; · iexists _; iexact Ho1_1
  isplitl [Ho1_2]; · iexists _; iexact Ho1_2
  isplitl [Ho1_3]; · iexists _; iexact Ho1_3
  isplitl [Ho2_0]; · iexists _; iexact Ho2_0
  isplitl [Ho2_1]; · iexists _; iexact Ho2_1
  isplitl [Ho2_2]; · iexists _; iexact Ho2_2
  isplitl [Ho2_3]; · iexists _; iexact Ho2_3
  isplitl [Hp0]; · iexists _; iexact Hp0
  isplitl [Hp1]; · iexists _; iexact Hp1
  isplitl [Hp2]; · iexists _; iexact Hp2
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hc_i0]; · iexact Hc_i0
  isplitl [Hc_i1]; · iexact Hc_i1
  isplitl [Hc_i2]; · iexact Hc_i2
  isplitl [Hc_g0]; · iexact Hc_g0
  isplitl [Hc_g1]; · iexact Hc_g1
  isplitl [Hc_g2]; · iexact Hc_g2
  isplitl [Hc_g3]; · iexact Hc_g3
  isplitl [Hc_g4]; · iexact Hc_g4
  isplitl [Hc_g5]; · iexact Hc_g5
  isplitl [Hc_g6]; · iexact Hc_g6
  isplitl [Hc_w0]; · iexact Hc_w0
  isplitl [Hc_w1]; · iexact Hc_w1
  isplitl [Hc_w2]; · iexact Hc_w2
  isplitl [Hc_w3]; · iexact Hc_w3
  isplitl [Hc_w4]; · iexact Hc_w4
  isplitl [Hc_w5]; · iexact Hc_w5
  isplitl [Hc_w6]; · iexact Hc_w6
  iexists _; isplitr
  swap; · iexact HO
  ipureintro
  repeat' (first | exact waits_base | apply waits_step)

end Cert.Proof.KB

end
-- ==== Proof.KTaskOwn.lean ====
/-
  A vector subcore's own storage, taken apart as the gather task uses it.

  Between calls a vector subcore's scoped semaphores all read zero and its scoped buffers hold something. The task uses
  seventeen of the semaphores — one per index plane, one per slot for the gathers, one per slot for the write-outs —
  and two buffers: the index scratch, as three planes, and the row scratch, as seven slots.
-/
import proofs.«211833_g48473000902786_cont_8to1_c_597_31_alg».proof.Proof.KTaskViews
import proofs.«211833_g48473000902786_cont_8to1_c_597_31_alg».proof.Proof.KTaskPieces
import Idealize.ShloMosaic.Lib.Pipeline.Kit

noncomputable section

namespace Cert.Proof.KB

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} {UU : Type} [URA UU]

local notation "𝕄" => MT nD τ sig (HIx 1) (Elt F) ℕ UU ℕ

variable (d : Dev nD) (L : grid0.Coords)

/-- A DMA semaphore of the task's vector subcore, as a cell. -/
abbrev cell (d : Dev nD) (L : grid0.Coords) (sm : DmaSem sig) : GSem nD τ sig := (thr d L, SemLoc.dma sm)

theorem cell_ne {a b : DmaSem sig} (h : a ≠ b) : cell d L a ≠ cell d L b :=
  fun e => h (SemLoc.dma.inj (Prod.mk.inj e).2)

theorem cell_mem {a : DmaSem sig} (h : (SemLoc.dma a : SemLoc sig).isScoped .scVector = true) : cell d L a ∈ ownCells (thr d L) :=
  mem_ownCells.mpr ⟨rfl, h⟩
theorem own_mem0 : cell d L isem0 ∈ (ownCells (thr d L)) :=
  cell_mem d L (a := isem0) (by decide)
theorem own_mem1 : cell d L isem1 ∈ ((ownCells (thr d L)).erase (cell d L isem0)) :=
  Finset.mem_erase.mpr ⟨cell_ne d L (a := isem1) (b := isem0) (by decide), cell_mem d L (a := isem1) (by decide)⟩
theorem own_mem2 : cell d L isem2 ∈ (((ownCells (thr d L)).erase (cell d L isem0)).erase (cell d L isem1)) :=
  Finset.mem_erase.mpr ⟨cell_ne d L (a := isem2) (b := isem1) (by decide), Finset.mem_erase.mpr ⟨cell_ne d L (a := isem2) (b := isem0) (by decide), cell_mem d L (a := isem2) (by decide)⟩⟩
theorem own_mem3 : cell d L gsem0 ∈ ((((ownCells (thr d L)).erase (cell d L isem0)).erase (cell d L isem1)).erase (cell d L isem2)) :=
  Finset.mem_erase.mpr ⟨cell_ne d L (a := gsem0) (b := isem2) (by decide), Finset.mem_erase.mpr ⟨cell_ne d L (a := gsem0) (b := isem1) (by decide), Finset.mem_erase.mpr ⟨cell_ne d L (a := gsem0) (b := isem0) (by decide), cell_mem d L (a := gsem0) (by decide)⟩⟩⟩
theorem own_mem4 : cell d L gsem1 ∈ (((((ownCells (thr d L)).erase (cell d L isem0)).erase (cell d L isem1)).erase (cell d L isem2)).erase (cell d L gsem0)) :=
  Finset.mem_erase.mpr ⟨cell_ne d L (a := gsem1) (b := gsem0) (by decide), Finset.mem_erase.mpr ⟨cell_ne d L (a := gsem1) (b := isem2) (by decide), Finset.mem_erase.mpr ⟨cell_ne d L (a := gsem1) (b := isem1) (by decide), Finset.mem_erase.mpr ⟨cell_ne d L (a := gsem1) (b := isem0) (by decide), cell_mem d L (a := gsem1) (by decide)⟩⟩⟩⟩
theorem own_mem5 : cell d L gsem2 ∈ ((((((ownCells (thr d L)).erase (cell d L isem0)).erase (cell d L isem1)).erase (cell d L isem2)).erase (cell d L gsem0)).erase (cell d L gsem1)) :=
  Finset.mem_erase.mpr ⟨cell_ne d L (a := gsem2) (b := gsem1) (by decide), Finset.mem_erase.mpr ⟨cell_ne d L (a := gsem2) (b := gsem0) (by decide), Finset.mem_erase.mpr ⟨cell_ne d L (a := gsem2) (b := isem2) (by decide), Finset.mem_erase.mpr ⟨cell_ne d L (a := gsem2) (b := isem1) (by decide), Finset.mem_erase.mpr ⟨cell_ne d L (a := gsem2) (b := isem0) (by decide), cell_mem d L (a := gsem2) (by decide)⟩⟩⟩⟩⟩
theorem own_mem6 : cell d L gsem3 ∈ (((((((ownCells (thr d L)).erase (cell d L isem0)).erase (cell d L isem1)).erase (cell d L isem2)).erase (cell d L gsem0)).erase (cell d L gsem1)).erase (cell d L gsem2)) :=
  Finset.mem_erase.mpr ⟨cell_ne d L (a := gsem3) (b := gsem2) (by decide), Finset.mem_erase.mpr ⟨cell_ne d L (a := gsem3) (b := gsem1) (by decide), Finset.mem_erase.mpr ⟨cell_ne d L (a := gsem3) (b := gsem0) (by decide), Finset.mem_erase.mpr ⟨cell_ne d L (a := gsem3) (b := isem2) (by decide), Finset.mem_erase.mpr ⟨cell_ne d L (a := gsem3) (b := isem1) (by decide), Finset.mem_erase.mpr ⟨cell_ne d L (a := gsem3) (b := isem0) (by decide), cell_mem d L (a := gsem3) (by decide)⟩⟩⟩⟩⟩⟩
theorem own_mem7 : cell d L gsem4 ∈ ((((((((ownCells (thr d L)).erase (cell d L isem0)).erase (cell d L isem1)).erase (cell d L isem2)).erase (cell d L gsem0)).erase (cell d L gsem1)).erase (cell d L gsem2)).erase (cell d L gsem3)) :=
  Finset.mem_erase.mpr ⟨cell_ne d L (a := gsem4) (b := gsem3) (by decide), Finset.mem_erase.mpr ⟨cell_ne d L (a := gsem4) (b := gsem2) (by decide), Finset.mem_erase.mpr ⟨cell_ne d L (a := gsem4) (b := gsem1) (by decide), Finset.mem_erase.mpr ⟨cell_ne d L (a := gsem4) (b := gsem0) (by decide), Finset.mem_erase.mpr ⟨cell_ne d L (a := gsem4) (b := isem2) (by decide), Finset.mem_erase.mpr ⟨cell_ne d L (a := gsem4) (b := isem1) (by decide), Finset.mem_erase.mpr ⟨cell_ne d L (a := gsem4) (b := isem0) (by decide), cell_mem d L (a := gsem4) (by decide)⟩⟩⟩⟩⟩⟩⟩
theorem own_mem8 : cell d L gsem5 ∈ (((((((((ownCells (thr d L)).erase (cell d L isem0)).erase (cell d L isem1)).erase (cell d L isem2)).erase (cell d L gsem0)).erase (cell d L gsem1)).erase (cell d L gsem2)).erase (cell d L gsem3)).erase (cell d L gsem4)) :=
  Finset.mem_erase.mpr ⟨cell_ne d L (a := gsem5) (b := gsem4) (by decide), Finset.mem_erase.mpr ⟨cell_ne d L (a := gsem5) (b := gsem3) (by decide), Finset.mem_erase.mpr ⟨cell_ne d L (a := gsem5) (b := gsem2) (by decide), Finset.mem_erase.mpr ⟨cell_ne d L (a := gsem5) (b := gsem1) (by decide), Finset.mem_erase.mpr ⟨cell_ne d L (a := gsem5) (b := gsem0) (by decide), Finset.mem_erase.mpr ⟨cell_ne d L (a := gsem5) (b := isem2) (by decide), Finset.mem_erase.mpr ⟨cell_ne d L (a := gsem5) (b := isem1) (by decide), Finset.mem_erase.mpr ⟨cell_ne d L (a := gsem5) (b := isem0) (by decide), cell_mem d L (a := gsem5) (by decide)⟩⟩⟩⟩⟩⟩⟩⟩
theorem own_mem9 : cell d L gsem6 ∈ ((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)) :=
  Finset.mem_erase.mpr ⟨cell_ne d L (a := gsem6) (b := gsem5) (by decide), Finset.mem_erase.mpr ⟨cell_ne d L (a := gsem6) (b := gsem4) (by decide), Finset.mem_erase.mpr ⟨cell_ne d L (a := gsem6) (b := gsem3) (by decide), Finset.mem_erase.mpr ⟨cell_ne d L (a := gsem6) (b := gsem2) (by decide), Finset.mem_erase.mpr ⟨cell_ne d L (a := gsem6) (b := gsem1) (by decide), Finset.mem_erase.mpr ⟨cell_ne d L (a := gsem6) (b := gsem0) (by decide), Finset.mem_erase.mpr ⟨cell_ne d L (a := gsem6) (b := isem2) (by decide), Finset.mem_erase.mpr ⟨cell_ne d L (a := gsem6) (b := isem1) (by decide), Finset.mem_erase.mpr ⟨cell_ne d L (a := gsem6) (b := isem0) (by decide), cell_mem d L (a := gsem6) (by decide)⟩⟩⟩⟩⟩⟩⟩⟩⟩
theorem own_mem10 : cell d L wsem0 ∈ (((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)) :=
  Finset.mem_erase.mpr ⟨cell_ne d L (a := wsem0) (b := gsem6) (by decide), Finset.mem_erase.mpr ⟨cell_ne d L (a := wsem0) (b := gsem5) (by decide), Finset.mem_erase.mpr ⟨cell_ne d L (a := wsem0) (b := gsem4) (by decide), Finset.mem_erase.mpr ⟨cell_ne d L (a := wsem0) (b := gsem3) (by decide), Finset.mem_erase.mpr ⟨cell_ne d L (a := wsem0) (b := gsem2) (by decide), Finset.mem_erase.mpr ⟨cell_ne d L (a := wsem0) (b := gsem1) (by decide), Finset.mem_erase.mpr ⟨cell_ne d L (a := wsem0) (b := gsem0) (by decide), Finset.mem_erase.mpr ⟨cell_ne d L (a := wsem0) (b := isem2) (by decide), Finset.mem_erase.mpr ⟨cell_ne d L (a := wsem0) (b := isem1) (by decide), Finset.mem_erase.mpr ⟨cell_ne d L (a := wsem0) (b := isem0) (by decide), cell_mem d L (a := wsem0) (by decide)⟩⟩⟩⟩⟩⟩⟩⟩⟩⟩
theorem own_mem11 : cell d L wsem1 ∈ ((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)) :=
  Finset.mem_erase.mpr ⟨cell_ne d L (a := wsem1) (b := wsem0) (by decide), Finset.mem_erase.mpr ⟨cell_ne d L (a := wsem1) (b := gsem6) (by decide), Finset.mem_erase.mpr ⟨cell_ne d L (a := wsem1) (b := gsem5) (by decide), Finset.mem_erase.mpr ⟨cell_ne d L (a := wsem1) (b := gsem4) (by decide), Finset.mem_erase.mpr ⟨cell_ne d L (a := wsem1) (b := gsem3) (by decide), Finset.mem_erase.mpr ⟨cell_ne d L (a := wsem1) (b := gsem2) (by decide), Finset.mem_erase.mpr ⟨cell_ne d L (a := wsem1) (b := gsem1) (by decide), Finset.mem_erase.mpr ⟨cell_ne d L (a := wsem1) (b := gsem0) (by decide), Finset.mem_erase.mpr ⟨cell_ne d L (a := wsem1) (b := isem2) (by decide), Finset.mem_erase.mpr ⟨cell_ne d L (a := wsem1) (b := isem1) (by decide), Finset.mem_erase.mpr ⟨cell_ne d L (a := wsem1) (b := isem0) (by decide), cell_mem d L (a := wsem1) (by decide)⟩⟩⟩⟩⟩⟩⟩⟩⟩⟩⟩
theorem own_mem12 : cell d L wsem2 ∈ (((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)) :=
  Finset.mem_erase.mpr ⟨cell_ne d L (a := wsem2) (b := wsem1) (by decide), Finset.mem_erase.mpr ⟨cell_ne d L (a := wsem2) (b := wsem0) (by decide), Finset.mem_erase.mpr ⟨cell_ne d L (a := wsem2) (b := gsem6) (by decide), Finset.mem_erase.mpr ⟨cell_ne d L (a := wsem2) (b := gsem5) (by decide), Finset.mem_erase.mpr ⟨cell_ne d L (a := wsem2) (b := gsem4) (by decide), Finset.mem_erase.mpr ⟨cell_ne d L (a := wsem2) (b := gsem3) (by decide), Finset.mem_erase.mpr ⟨cell_ne d L (a := wsem2) (b := gsem2) (by decide), Finset.mem_erase.mpr ⟨cell_ne d L (a := wsem2) (b := gsem1) (by decide), Finset.mem_erase.mpr ⟨cell_ne d L (a := wsem2) (b := gsem0) (by decide), Finset.mem_erase.mpr ⟨cell_ne d L (a := wsem2) (b := isem2) (by decide), Finset.mem_erase.mpr ⟨cell_ne d L (a := wsem2) (b := isem1) (by decide), Finset.mem_erase.mpr ⟨cell_ne d L (a := wsem2) (b := isem0) (by decide), cell_mem d L (a := wsem2) (by decide)⟩⟩⟩⟩⟩⟩⟩⟩⟩⟩⟩⟩
theorem own_mem13 : cell d L wsem3 ∈ ((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)) :=
  Finset.mem_erase.mpr ⟨cell_ne d L (a := wsem3) (b := wsem2) (by decide), Finset.mem_erase.mpr ⟨cell_ne d L (a := wsem3) (b := wsem1) (by decide), Finset.mem_erase.mpr ⟨cell_ne d L (a := wsem3) (b := wsem0) (by decide), Finset.mem_erase.mpr ⟨cell_ne d L (a := wsem3) (b := gsem6) (by decide), Finset.mem_erase.mpr ⟨cell_ne d L (a := wsem3) (b := gsem5) (by decide), Finset.mem_erase.mpr ⟨cell_ne d L (a := wsem3) (b := gsem4) (by decide), Finset.mem_erase.mpr ⟨cell_ne d L (a := wsem3) (b := gsem3) (by decide), Finset.mem_erase.mpr ⟨cell_ne d L (a := wsem3) (b := gsem2) (by decide), Finset.mem_erase.mpr ⟨cell_ne d L (a := wsem3) (b := gsem1) (by decide), Finset.mem_erase.mpr ⟨cell_ne d L (a := wsem3) (b := gsem0) (by decide), Finset.mem_erase.mpr ⟨cell_ne d L (a := wsem3) (b := isem2) (by decide), Finset.mem_erase.mpr ⟨cell_ne d L (a := wsem3) (b := isem1) (by decide), Finset.mem_erase.mpr ⟨cell_ne d L (a := wsem3) (b := isem0) (by decide), cell_mem d L (a := wsem3) (by decide)⟩⟩⟩⟩⟩⟩⟩⟩⟩⟩⟩⟩⟩
theorem own_mem14 : cell d L wsem4 ∈ (((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)).erase (cell d L wsem3)) :=
  Finset.mem_erase.mpr ⟨cell_ne d L (a := wsem4) (b := wsem3) (by decide), Finset.mem_erase.mpr ⟨cell_ne d L (a := wsem4) (b := wsem2) (by decide), Finset.mem_erase.mpr ⟨cell_ne d L (a := wsem4) (b := wsem1) (by decide), Finset.mem_erase.mpr ⟨cell_ne d L (a := wsem4) (b := wsem0) (by decide), Finset.mem_erase.mpr ⟨cell_ne d L (a := wsem4) (b := gsem6) (by decide), Finset.mem_erase.mpr ⟨cell_ne d L (a := wsem4) (b := gsem5) (by decide), Finset.mem_erase.mpr ⟨cell_ne d L (a := wsem4) (b := gsem4) (by decide), Finset.mem_erase.mpr ⟨cell_ne d L (a := wsem4) (b := gsem3) (by decide), Finset.mem_erase.mpr ⟨cell_ne d L (a := wsem4) (b := gsem2) (by decide), Finset.mem_erase.mpr ⟨cell_ne d L (a := wsem4) (b := gsem1) (by decide), Finset.mem_erase.mpr ⟨cell_ne d L (a := wsem4) (b := gsem0) (by decide), Finset.mem_erase.mpr ⟨cell_ne d L (a := wsem4) (b := isem2) (by decide), Finset.mem_erase.mpr ⟨cell_ne d L (a := wsem4) (b := isem1) (by decide), Finset.mem_erase.mpr ⟨cell_ne d L (a := wsem4) (b := isem0) (by decide), cell_mem d L (a := wsem4) (by decide)⟩⟩⟩⟩⟩⟩⟩⟩⟩⟩⟩⟩⟩⟩
theorem own_mem15 : cell d L wsem5 ∈ ((((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)).erase (cell d L wsem3)).erase (cell d L wsem4)) :=
  Finset.mem_erase.mpr ⟨cell_ne d L (a := wsem5) (b := wsem4) (by decide), Finset.mem_erase.mpr ⟨cell_ne d L (a := wsem5) (b := wsem3) (by decide), Finset.mem_erase.mpr ⟨cell_ne d L (a := wsem5) (b := wsem2) (by decide), Finset.mem_erase.mpr ⟨cell_ne d L (a := wsem5) (b := wsem1) (by decide), Finset.mem_erase.mpr ⟨cell_ne d L (a := wsem5) (b := wsem0) (by decide), Finset.mem_erase.mpr ⟨cell_ne d L (a := wsem5) (b := gsem6) (by decide), Finset.mem_erase.mpr ⟨cell_ne d L (a := wsem5) (b := gsem5) (by decide), Finset.mem_erase.mpr ⟨cell_ne d L (a := wsem5) (b := gsem4) (by decide), Finset.mem_erase.mpr ⟨cell_ne d L (a := wsem5) (b := gsem3) (by decide), Finset.mem_erase.mpr ⟨cell_ne d L (a := wsem5) (b := gsem2) (by decide), Finset.mem_erase.mpr ⟨cell_ne d L (a := wsem5) (b := gsem1) (by decide), Finset.mem_erase.mpr ⟨cell_ne d L (a := wsem5) (b := gsem0) (by decide), Finset.mem_erase.mpr ⟨cell_ne d L (a := wsem5) (b := isem2) (by decide), Finset.mem_erase.mpr ⟨cell_ne d L (a := wsem5) (b := isem1) (by decide), Finset.mem_erase.mpr ⟨cell_ne d L (a := wsem5) (b := isem0) (by decide), cell_mem d L (a := wsem5) (by decide)⟩⟩⟩⟩⟩⟩⟩⟩⟩⟩⟩⟩⟩⟩⟩
theorem own_mem16 : cell d L wsem6 ∈ (((((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)).erase (cell d L wsem3)).erase (cell d L wsem4)).erase (cell d L wsem5)) :=
  Finset.mem_erase.mpr ⟨cell_ne d L (a := wsem6) (b := wsem5) (by decide), Finset.mem_erase.mpr ⟨cell_ne d L (a := wsem6) (b := wsem4) (by decide), Finset.mem_erase.mpr ⟨cell_ne d L (a := wsem6) (b := wsem3) (by decide), Finset.mem_erase.mpr ⟨cell_ne d L (a := wsem6) (b := wsem2) (by decide), Finset.mem_erase.mpr ⟨cell_ne d L (a := wsem6) (b := wsem1) (by decide), Finset.mem_erase.mpr ⟨cell_ne d L (a := wsem6) (b := wsem0) (by decide), Finset.mem_erase.mpr ⟨cell_ne d L (a := wsem6) (b := gsem6) (by decide), Finset.mem_erase.mpr ⟨cell_ne d L (a := wsem6) (b := gsem5) (by decide), Finset.mem_erase.mpr ⟨cell_ne d L (a := wsem6) (b := gsem4) (by decide), Finset.mem_erase.mpr ⟨cell_ne d L (a := wsem6) (b := gsem3) (by decide), Finset.mem_erase.mpr ⟨cell_ne d L (a := wsem6) (b := gsem2) (by decide), Finset.mem_erase.mpr ⟨cell_ne d L (a := wsem6) (b := gsem1) (by decide), Finset.mem_erase.mpr ⟨cell_ne d L (a := wsem6) (b := gsem0) (by decide), Finset.mem_erase.mpr ⟨cell_ne d L (a := wsem6) (b := isem2) (by decide), Finset.mem_erase.mpr ⟨cell_ne d L (a := wsem6) (b := isem1) (by decide), Finset.mem_erase.mpr ⟨cell_ne d L (a := wsem6) (b := isem0) (by decide), cell_mem d L (a := wsem6) (by decide)⟩⟩⟩⟩⟩⟩⟩⟩⟩⟩⟩⟩⟩⟩⟩⟩

/-- The vector subcore's scoped semaphores at zero: the task's seventeen, and the rest. -/
theorem ownSems0_task :
    (ownSems0 (thr d L) : sProp 𝕄)
      = iprop(semVal (cell d L isem0) 0
          ∗ semVal (cell d L isem1) 0
          ∗ semVal (cell d L isem2) 0
          ∗ semVal (cell d L gsem0) 0
          ∗ semVal (cell d L gsem1) 0
          ∗ semVal (cell d L gsem2) 0
          ∗ semVal (cell d L gsem3) 0
          ∗ semVal (cell d L gsem4) 0
          ∗ semVal (cell d L gsem5) 0
          ∗ semVal (cell d L gsem6) 0
          ∗ semVal (cell d L wsem0) 0
          ∗ semVal (cell d L wsem1) 0
          ∗ semVal (cell d L wsem2) 0
          ∗ semVal (cell d L wsem3) 0
          ∗ semVal (cell d L wsem4) 0
          ∗ semVal (cell d L wsem5) 0
          ∗ semVal (cell d L wsem6) 0
          ∗ bigSep ((((((((((((((((((ownCells (thr d L)).erase (cell d L isem0)).erase (cell d L isem1)).erase (cell d L isem2)).erase (cell d L gsem0)).erase (cell d L gsem1)).erase (cell d L gsem2)).erase (cell d L gsem3)).erase (cell d L gsem4)).erase (cell d L gsem5)).erase (cell d L gsem6)).erase (cell d L wsem0)).erase (cell d L wsem1)).erase (cell d L wsem2)).erase (cell d L wsem3)).erase (cell d L wsem4)).erase (cell d L wsem5)).erase (cell d L wsem6)) fun g => semVal g 0) := by
  unfold SparseCore.Cfg.ownSems0
  rw [SparseCore.bigSep_erase' (own_mem0 d L),
    SparseCore.bigSep_erase' (own_mem1 d L),
    SparseCore.bigSep_erase' (own_mem2 d L),
    SparseCore.bigSep_erase' (own_mem3 d L),
    SparseCore.bigSep_erase' (own_mem4 d L),
    SparseCore.bigSep_erase' (own_mem5 d L),
    SparseCore.bigSep_erase' (own_mem6 d L),
    SparseCore.bigSep_erase' (own_mem7 d L),
    SparseCore.bigSep_erase' (own_mem8 d L),
    SparseCore.bigSep_erase' (own_mem9 d L),
    SparseCore.bigSep_erase' (own_mem10 d L),
    SparseCore.bigSep_erase' (own_mem11 d L),
    SparseCore.bigSep_erase' (own_mem12 d L),
    SparseCore.bigSep_erase' (own_mem13 d L),
    SparseCore.bigSep_erase' (own_mem14 d L),
    SparseCore.bigSep_erase' (own_mem15 d L),
    SparseCore.bigSep_erase' (own_mem16 d L)]

/-! ## The two scratch buffers -/

/-- The index scratch and the row scratch are among the vector subcore's own buffers: they, at some contents, and the rest. -/
theorem ownBufs_task :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Two disjoint element sets held at some contents each are their union held at some contents. -/
theorem join_ex {ℓ : Loc nD τ sig} {I J : Finset (Idx ℓ)} {q : PosShare TreeShare} (h : Disjoint I J) :
    iprop((∃ f : Buf (Elt F) ℓ, ℓ ↦[I]{q} f) ∗ ∃ g : Buf (Elt F) ℓ, ℓ ↦[J]{q} g) ⊢ (iprop(∃ k : Buf (Elt F) ℓ, ℓ ↦[I ∪ J]{q} k) : sProp 𝕄) := by
  iintro ⟨⟨%f, Hf⟩, %g, Hg⟩
  iexists (J.piecewise g f)
  iapply (pointsTo_join h)
  isplitl [Hf] <;> iassumption

/-- Slot `s` of the row scratch, as a box of its shape. -/
abbrev slotBox (s : ℕ) (h : ∀ a, (![s, 0, 0] : Fin 3 → ℕ) a + S1x128x128.size a ≤ S7x128x128.size a) : Rect S7x128x128 :=
  Rect.unit (s := S7x128x128) ![s, 0, 0] S1x128x128.size h

theorem mem_slotBox {s : ℕ} {h} {i : S7x128x128.Idx} : i ∈ (slotBox s h).set ↔ (i 0 : ℕ) = s := by
  rw [Rect.mem_set_unit]
  constructor
  · intro H
    have h0 := H 0
    simp only [Matrix.cons_val_zero] at h0
    have : S1x128x128.size 0 = 1 := rfl; omega
  · intro e0 a
    match a with
    | 0 => simp only [Matrix.cons_val_zero]; have : S1x128x128.size 0 = 1 := rfl; omega
    | 1 => have h1 : (i 1 : ℕ) < 128 := (i 1).isLt
           have : S1x128x128.size 1 = 128 := rfl
           simp only [Matrix.cons_val_one, Matrix.cons_val_zero]; omega
    | 2 => have h2 : (i 2 : ℕ) < 128 := (i 2).isLt
           have : S1x128x128.size 2 = 128 := rfl
           simp only [Matrix.cons_val_two, Matrix.tail_cons, Matrix.head_cons]; omega

/-- The elements of the row scratch whose slot is `s`; of the index scratch whose plane is `t`. -/
def slotSet (s : Fin 7) : Finset S7x128x128.Idx := Finset.univ.filter fun i => (i 0 : ℕ) = s.val
def planeSet (t : Fin 3) : Finset S3x4x128.Idx := Finset.univ.filter fun i => (i 0 : ℕ) = t.val

theorem slotSet_disjoint : ∀ s ∈ (Finset.univ : Finset (Fin 7)), ∀ s' ∈ (Finset.univ : Finset (Fin 7)), s ≠ s' → Disjoint (slotSet s) (slotSet s') := by
  intro s _ s' _ hne
  rw [Finset.disjoint_left]
  intro i hi hi'
  simp only [slotSet, Finset.mem_filter, Finset.mem_univ, true_and] at hi hi'
  exact hne (Fin.ext (hi.symm.trans hi'))
theorem planeSet_disjoint : ∀ t ∈ (Finset.univ : Finset (Fin 3)), ∀ t' ∈ (Finset.univ : Finset (Fin 3)), t ≠ t' → Disjoint (planeSet t) (planeSet t') := by
  intro t _ t' _ hne
  rw [Finset.disjoint_left]
  intro i hi hi'
  simp only [planeSet, Finset.mem_filter, Finset.mem_univ, true_and] at hi hi'
  exact hne (Fin.ext (hi.symm.trans hi'))
theorem slotSet_cover : (Finset.univ : Finset (Fin 7)).biUnion slotSet = Finset.univ := by
  ext i
  simp only [Finset.mem_biUnion, Finset.mem_univ, true_and, iff_true, slotSet, Finset.mem_filter]
  exact ⟨⟨(i 0 : ℕ), (i 0).isLt⟩, rfl⟩
theorem planeSet_cover : (Finset.univ : Finset (Fin 3)).biUnion planeSet = Finset.univ := by
  ext i
  simp only [Finset.mem_biUnion, Finset.mem_univ, true_and, iff_true, planeSet, Finset.mem_filter]
  exact ⟨⟨(i 0 : ℕ), (i 0).isLt⟩, rfl⟩
theorem slot0_set : (slot0).view.set = slotSet 0 := by
  show (((View.whole cc0_scratch1).slice (slotBox 0 inb_S7x128x128_S1x128x128_0_0_0)).reshape S128x128 squeezes_S1x128x128_S128x128.numel_eq).set = _
  rw [View.set_reshape, View.set_slice_whole]
  ext i; rw [mem_slotBox]; simp [slotSet]
theorem slot1_set : (slot1).view.set = slotSet 1 := by
  show (((View.whole cc0_scratch1).slice (slotBox 1 inb_S7x128x128_S1x128x128_1_0_0)).reshape S128x128 squeezes_S1x128x128_S128x128.numel_eq).set = _
  rw [View.set_reshape, View.set_slice_whole]
  ext i; rw [mem_slotBox]; simp [slotSet]
theorem slot2_set : (slot2).view.set = slotSet 2 := by
  show (((View.whole cc0_scratch1).slice (slotBox 2 inb_S7x128x128_S1x128x128_2_0_0)).reshape S128x128 squeezes_S1x128x128_S128x128.numel_eq).set = _
  rw [View.set_reshape, View.set_slice_whole]
  ext i; rw [mem_slotBox]; simp [slotSet]
theorem slot3_set : (slot3).view.set = slotSet 3 := by
  show (((View.whole cc0_scratch1).slice (slotBox 3 inb_S7x128x128_S1x128x128_3_0_0)).reshape S128x128 squeezes_S1x128x128_S128x128.numel_eq).set = _
  rw [View.set_reshape, View.set_slice_whole]
  ext i; rw [mem_slotBox]; simp [slotSet]
theorem slot4_set : (slot4).view.set = slotSet 4 := by
  show (((View.whole cc0_scratch1).slice (slotBox 4 inb_S7x128x128_S1x128x128_4_0_0)).reshape S128x128 squeezes_S1x128x128_S128x128.numel_eq).set = _
  rw [View.set_reshape, View.set_slice_whole]
  ext i; rw [mem_slotBox]; simp [slotSet]
theorem slot5_set : (slot5).view.set = slotSet 5 := by
  show (((View.whole cc0_scratch1).slice (slotBox 5 inb_S7x128x128_S1x128x128_5_0_0)).reshape S128x128 squeezes_S1x128x128_S128x128.numel_eq).set = _
  rw [View.set_reshape, View.set_slice_whole]
  ext i; rw [mem_slotBox]; simp [slotSet]
theorem slot6_set : (slot6).view.set = slotSet 6 := by
  show (((View.whole cc0_scratch1).slice (slotBox 6 inb_S7x128x128_S1x128x128_6_0_0)).reshape S128x128 squeezes_S1x128x128_S128x128.numel_eq).set = _
  rw [View.set_reshape, View.set_slice_whole]
  ext i; rw [mem_slotBox]; simp [slotSet]
theorem iv0_planeSet : (iv0).view.set = planeSet 0 := by
  rw [iv0_set]
  ext i; rw [mem_planeBox]; simp [planeSet]
theorem iv1_planeSet : (iv1).view.set = planeSet 1 := by
  rw [iv1_set]
  ext i; rw [mem_planeBox]; simp [planeSet]
theorem iv2_planeSet : (iv2).view.set = planeSet 2 := by
  rw [iv2_set]
  ext i; rw [mem_planeBox]; simp [planeSet]

theorem slots_union : slotSet 0 ∪ (slotSet 1 ∪ (slotSet 2 ∪ (slotSet 3 ∪ (slotSet 4 ∪ (slotSet 5 ∪ (slotSet 6)))))) = Finset.univ := by
  ext i
  have h : (i 0 : ℕ) < 7 := (i 0).isLt
  simp only [Finset.mem_union, slotSet, Finset.mem_filter, Finset.mem_univ, true_and, iff_true, Fin.val_zero, Fin.val_one, Fin.val_two,
    show ((3 : Fin 7) : ℕ) = 3 from rfl, show ((4 : Fin 7) : ℕ) = 4 from rfl, show ((5 : Fin 7) : ℕ) = 5 from rfl, show ((6 : Fin 7) : ℕ) = 6 from rfl]
  omega
theorem planes_union : planeSet 0 ∪ (planeSet 1 ∪ (planeSet 2)) = Finset.univ := by
  ext i
  have h : (i 0 : ℕ) < 3 := (i 0).isLt
  simp only [Finset.mem_union, planeSet, Finset.mem_filter, Finset.mem_univ, true_and, iff_true, Fin.val_zero, Fin.val_one, Fin.val_two]
  omega
theorem slot_disj (s s' : Fin 7) (h : s ≠ s') : Disjoint (slotSet s) (slotSet s') :=
  slotSet_disjoint s (Finset.mem_univ _) s' (Finset.mem_univ _) h
theorem plane_disj (t t' : Fin 3) (h : t ≠ t') : Disjoint (planeSet t) (planeSet t') :=
  planeSet_disjoint t (Finset.mem_univ _) t' (Finset.mem_univ _) h
theorem slots_d5 : Disjoint (slotSet 5) (slotSet 6) := by
  exact slot_disj 5 6 (by decide)
theorem slots_d4 : Disjoint (slotSet 4) (slotSet 5 ∪ (slotSet 6)) := by
  rw [Finset.disjoint_union_right]
  exact ⟨slot_disj 4 5 (by decide), slot_disj 4 6 (by decide)⟩
theorem slots_d3 : Disjoint (slotSet 3) (slotSet 4 ∪ (slotSet 5 ∪ (slotSet 6))) := by
  rw [Finset.disjoint_union_right, Finset.disjoint_union_right]
  exact ⟨slot_disj 3 4 (by decide), slot_disj 3 5 (by decide), slot_disj 3 6 (by decide)⟩
theorem slots_d2 : Disjoint (slotSet 2) (slotSet 3 ∪ (slotSet 4 ∪ (slotSet 5 ∪ (slotSet 6)))) := by
  rw [Finset.disjoint_union_right, Finset.disjoint_union_right, Finset.disjoint_union_right]
  exact ⟨slot_disj 2 3 (by decide), slot_disj 2 4 (by decide), slot_disj 2 5 (by decide), slot_disj 2 6 (by decide)⟩
theorem slots_d1 : Disjoint (slotSet 1) (slotSet 2 ∪ (slotSet 3 ∪ (slotSet 4 ∪ (slotSet 5 ∪ (slotSet 6))))) := by
  rw [Finset.disjoint_union_right, Finset.disjoint_union_right, Finset.disjoint_union_right, Finset.disjoint_union_right]
  exact ⟨slot_disj 1 2 (by decide), slot_disj 1 3 (by decide), slot_disj 1 4 (by decide), slot_disj 1 5 (by decide), slot_disj 1 6 (by decide)⟩
theorem slots_d0 : Disjoint (slotSet 0) (slotSet 1 ∪ (slotSet 2 ∪ (slotSet 3 ∪ (slotSet 4 ∪ (slotSet 5 ∪ (slotSet 6)))))) := by
  rw [Finset.disjoint_union_right, Finset.disjoint_union_right, Finset.disjoint_union_right, Finset.disjoint_union_right, Finset.disjoint_union_right]
  exact ⟨slot_disj 0 1 (by decide), slot_disj 0 2 (by decide), slot_disj 0 3 (by decide), slot_disj 0 4 (by decide), slot_disj 0 5 (by decide), slot_disj 0 6 (by decide)⟩
theorem planes_d1 : Disjoint (planeSet 1) (planeSet 2) := plane_disj 1 2 (by decide)
theorem planes_d0 : Disjoint (planeSet 0) (planeSet 1 ∪ (planeSet 2)) := by
  rw [Finset.disjoint_union_right]
  exact ⟨plane_disj 0 1 (by decide), plane_disj 0 2 (by decide)⟩

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
theorem bigSep_fin3 (Φ : Fin 3 → sProp 𝕄) : bigSep Finset.univ Φ = iprop(Φ 0 ∗ Φ 1 ∗ Φ 2) := by
  rw [show (Finset.univ : Finset (Fin 3)) = {0, 1, 2} by decide,
    SparseCore.bigSep_insert' (by decide), SparseCore.bigSep_insert' (by decide), bigSep_singleton]

attribute [local irreducible] slotSet planeSet

/-- The row scratch held whole is its seven slots held; -/
theorem scratch1_slots (f : Buf (Elt F) ((thr d L).loc cc0_scratch1)) :
    ((thr d L).loc cc0_scratch1 ↦{fullShare} f : sProp 𝕄)
      = iprop(((slot0).view.loc (thr d L) ↦[(slot0).view.set]{fullShare} f)
          ∗ ((slot1).view.loc (thr d L) ↦[(slot1).view.set]{fullShare} f)
          ∗ ((slot2).view.loc (thr d L) ↦[(slot2).view.set]{fullShare} f)
          ∗ ((slot3).view.loc (thr d L) ↦[(slot3).view.set]{fullShare} f)
          ∗ ((slot4).view.loc (thr d L) ↦[(slot4).view.set]{fullShare} f)
          ∗ ((slot5).view.loc (thr d L) ↦[(slot5).view.set]{fullShare} f)
          ∗ ((slot6).view.loc (thr d L) ↦[(slot6).view.set]{fullShare} f)) := by
  rw [slot0_set, slot1_set, slot2_set, slot3_set, slot4_set, slot5_set, slot6_set]
  have hU : ((thr d L).loc cc0_scratch1 ↦{fullShare} f : sProp 𝕄)
      = bigSep Finset.univ fun s : Fin 7 => (thr d L).loc cc0_scratch1 ↦[slotSet s]{fullShare} f := by
    rw [← pointsTo_biUnion Finset.univ (ℓ := (thr d L).loc cc0_scratch1) slotSet slotSet_disjoint, slotSet_cover]
  exact hU.trans (bigSep_fin7 _)

/-- the index scratch held whole is its three planes held. -/
theorem scratch0_planes (f : Buf (Elt F) ((thr d L).loc cc0_scratch0)) :
    ((thr d L).loc cc0_scratch0 ↦{fullShare} f : sProp 𝕄)
      = iprop(((iv0).view.loc (thr d L) ↦[(iv0).view.set]{fullShare} f)
          ∗ ((iv1).view.loc (thr d L) ↦[(iv1).view.set]{fullShare} f)
          ∗ ((iv2).view.loc (thr d L) ↦[(iv2).view.set]{fullShare} f)) := by
  rw [iv0_planeSet, iv1_planeSet, iv2_planeSet]
  have hU : ((thr d L).loc cc0_scratch0 ↦{fullShare} f : sProp 𝕄)
      = bigSep Finset.univ fun t : Fin 3 => (thr d L).loc cc0_scratch0 ↦[planeSet t]{fullShare} f := by
    rw [← pointsTo_biUnion Finset.univ (ℓ := (thr d L).loc cc0_scratch0) planeSet planeSet_disjoint, planeSet_cover]
  exact hU.trans (bigSep_fin3 _)

/-- Seven slots at some contents each are the row scratch at some contents; -/
theorem slots_join :
    iprop((∃ f, (slot0).view.loc (thr d L) ↦[(slot0).view.set]{fullShare} f)
          ∗ (∃ f, (slot1).view.loc (thr d L) ↦[(slot1).view.set]{fullShare} f)
          ∗ (∃ f, (slot2).view.loc (thr d L) ↦[(slot2).view.set]{fullShare} f)
          ∗ (∃ f, (slot3).view.loc (thr d L) ↦[(slot3).view.set]{fullShare} f)
          ∗ (∃ f, (slot4).view.loc (thr d L) ↦[(slot4).view.set]{fullShare} f)
          ∗ (∃ f, (slot5).view.loc (thr d L) ↦[(slot5).view.set]{fullShare} f)
          ∗ (∃ f, (slot6).view.loc (thr d L) ↦[(slot6).view.set]{fullShare} f))
      ⊢ (iprop(∃ f, (thr d L).loc cc0_scratch1 ↦{fullShare} f) : sProp 𝕄) := by
  rw [slot0_set, slot1_set, slot2_set, slot3_set, slot4_set, slot5_set, slot6_set]
  iintro ⟨H0, H1, H2, H3, H4, H5, H6⟩
  ihave J5 := (join_ex (F := F) (UU := UU) (ℓ := (thr d L).loc cc0_scratch1) (q := fullShare) slots_d5) $$ [H5 H6]
  · isplitl [H5] <;> iassumption
  ihave J4 := (join_ex (F := F) (UU := UU) (ℓ := (thr d L).loc cc0_scratch1) (q := fullShare) slots_d4) $$ [H4 J5]
  · isplitl [H4] <;> iassumption
  ihave J3 := (join_ex (F := F) (UU := UU) (ℓ := (thr d L).loc cc0_scratch1) (q := fullShare) slots_d3) $$ [H3 J4]
  · isplitl [H3] <;> iassumption
  ihave J2 := (join_ex (F := F) (UU := UU) (ℓ := (thr d L).loc cc0_scratch1) (q := fullShare) slots_d2) $$ [H2 J3]
  · isplitl [H2] <;> iassumption
  ihave J1 := (join_ex (F := F) (UU := UU) (ℓ := (thr d L).loc cc0_scratch1) (q := fullShare) slots_d1) $$ [H1 J2]
  · isplitl [H1] <;> iassumption
  ihave J0 := (join_ex (F := F) (UU := UU) (ℓ := (thr d L).loc cc0_scratch1) (q := fullShare) slots_d0) $$ [H0 J1]
  · isplitl [H0] <;> iassumption
  rw [slots_union]
  iexact J0

/-- three planes at some contents each are the index scratch at some contents. -/
theorem planes_join :
    iprop((∃ f, (iv0).view.loc (thr d L) ↦[(iv0).view.set]{fullShare} f)
          ∗ (∃ f, (iv1).view.loc (thr d L) ↦[(iv1).view.set]{fullShare} f)
          ∗ (∃ f, (iv2).view.loc (thr d L) ↦[(iv2).view.set]{fullShare} f))
      ⊢ (iprop(∃ f, (thr d L).loc cc0_scratch0 ↦{fullShare} f) : sProp 𝕄) := by
  rw [iv0_planeSet, iv1_planeSet, iv2_planeSet]
  iintro ⟨H0, H1, H2⟩
  ihave J1 := (join_ex (F := F) (UU := UU) (ℓ := (thr d L).loc cc0_scratch0) (q := fullShare) planes_d1) $$ [H1 H2]
  · isplitl [H1] <;> iassumption
  ihave J0 := (join_ex (F := F) (UU := UU) (ℓ := (thr d L).loc cc0_scratch0) (q := fullShare) planes_d0) $$ [H0 J1]
  · isplitl [H0] <;> iassumption
  rw [planes_union]
  iexact J0

end Cert.Proof.KB

end
-- ==== Proof.KTaskGeom.lean ====
/-
  The task's pieces against the 32-way cuts of the call's arrays.

  Task number `n = 2 * L 1 + L 0` reads slab `n` of each index array — the `n`-th of the 32 parts along the first
  axis — and writes rows `[512 n, 512 n + 512)` of each output — the `n`-th of 32 parts of 512 rows —, in four
  chunks of 128 rows at offsets `512 n + 128 j`. In elements: a slab is the elements whose first coordinate is
  `n`; an output part is the disjoint union of its four chunks.
-/
import proofs.«211833_g48473000902786_cont_8to1_c_597_31_alg».proof.Proof.KTaskViews
import proofs.«211833_g48473000902786_cont_8to1_c_597_31_alg».proof.Proof.KTaskPieces

noncomputable section

namespace Cert.Proof.KB

open Cert.Kernel Cert.Kernel.Gen
open Idealize.ShloMosaic
open Idealize.ShloMosaic.SparseCore (S V T)
open Idealize.SL.Sem

variable (L : grid0.Coords)

theorem div32_i : 32 ∣ S32x4x128.size 0 := ⟨1, rfl⟩
theorem div32_o : 32 ∣ S16384x128.size 0 := ⟨512, rfl⟩

/-- The task's number, from its grid coordinates. -/
def numL (L : grid0.Coords) : Fin 32 := ⟨2 * (L 1).val + (L 0).val, by
  have h0 : (L 0).val < 2 := (L 0).isLt
  have h1 : (L 1).val < 16 := (L 1).isLt
  omega⟩

theorem mem_iPart {n : Fin 32} {i : S32x4x128.Idx} :
    i ∈ (Rect.part (s := S32x4x128) (a₀ := 0) div32_i n).set ↔ (i 0 : ℕ) = n.val := by
  rw [Rect.mem_set_unit]
  have hi1 : (i 1 : ℕ) < 4 := (i 1).isLt
  have hi2 : (i 2 : ℕ) < 128 := (i 2).isLt
  constructor
  · intro H
    have h0 := H 0
    simp [Shape.partIx, Shape.partSize] at h0
    omega
  · intro e a
    match a with
    | 0 => simp [Shape.partIx, Shape.partSize]; omega
    | 1 => simp [Shape.partIx, Shape.partSize]; omega
    | 2 => simp [Shape.partIx, Shape.partSize]; omega

theorem mem_oPart {n : Fin 32} {i : S16384x128.Idx} :
    i ∈ (Rect.part (s := S16384x128) (a₀ := 0) div32_o n).set ↔ 512 * n.val ≤ (i 0 : ℕ) ∧ (i 0 : ℕ) < 512 * n.val + 512 := by
  rw [Rect.mem_set_unit]
  have hi1 : (i 1 : ℕ) < 128 := (i 1).isLt
  constructor
  · intro H
    have h0 := H 0
    simp [Shape.partIx, Shape.partSize] at h0
    omega
  · intro e a
    match a with
    | 0 => simp [Shape.partIx, Shape.partSize]; omega
    | 1 => simp [Shape.partIx, Shape.partSize]; omega

theorem mem_slabRect {i : S32x4x128.Idx} :
    i ∈ (Rect.unit (s := S32x4x128) (k0_off1 L) S1x4x128.size (k0_off1_inb L)).set ↔ (i 0 : ℕ) = (numL L).val := by
  rw [Rect.mem_set_unit, k0_off1_eq]
  have hi1 : (i 1 : ℕ) < 4 := (i 1).isLt
  have hi2 : (i 2 : ℕ) < 128 := (i 2).isLt
  have hs0 : S1x4x128.size 0 = 1 := rfl
  have hs1 : S1x4x128.size 1 = 4 := rfl
  have hs2 : S1x4x128.size 2 = 128 := rfl
  show (∀ a, _) ↔ (i 0 : ℕ) = 2 * (L 1).val + (L 0).val
  constructor
  · intro H
    have h0 := H 0
    simp only [Matrix.cons_val_zero] at h0
    omega
  · intro e a
    match a with
    | 0 => simp only [Matrix.cons_val_zero]; omega
    | 1 => simp only [Matrix.cons_val_one, Matrix.cons_val_zero]; omega
    | 2 => simp only [Matrix.cons_val_two, Matrix.tail_cons, Matrix.head_cons]; omega

/-- The slab the task copies is part `numL L` of the index array. -/
theorem slabRect_set :
    (Rect.unit (s := S32x4x128) (k0_off1 L) S1x4x128.size (k0_off1_inb L)).set = (Rect.part (s := S32x4x128) (a₀ := 0) div32_i (numL L)).set := by
  ext i; rw [mem_slabRect, mem_iPart]

theorem mem_chunkRect (j : Fin 4) {w : BitVec 32} (hw : w = BitVec.ofNat 32 (128 * j.val)) {h} {i : S16384x128.Idx} :
    i ∈ (Rect.unit (s := S16384x128) (k0_off2 L w) S128x128.size h).set
      ↔ 512 * (numL L).val + 128 * j.val ≤ (i 0 : ℕ) ∧ (i 0 : ℕ) < 512 * (numL L).val + 128 * j.val + 128 := by
  subst hw
  rw [Rect.mem_set_unit, k0_off2_eq]
  have hi1 : (i 1 : ℕ) < 128 := (i 1).isLt
  have hs0 : S128x128.size 0 = 128 := rfl
  have hs1 : S128x128.size 1 = 128 := rfl
  show (∀ a, _) ↔ 512 * (2 * (L 1).val + (L 0).val) + 128 * j.val ≤ (i 0 : ℕ) ∧ (i 0 : ℕ) < 512 * (2 * (L 1).val + (L 0).val) + 128 * j.val + 128
  constructor
  · intro H
    have h0 := H 0
    simp only [Matrix.cons_val_zero] at h0
    omega
  · intro e a
    match a with
    | 0 => simp only [Matrix.cons_val_zero]; omega
    | 1 => simp only [Matrix.cons_val_one, Matrix.cons_val_zero]; omega

/-- The task's output part is its four chunks, -/
theorem oPart_eq_chunks {h0 h1 h2 h3} :
    (Rect.part (s := S16384x128) (a₀ := 0) div32_o (numL L)).set
      = (Rect.unit (s := S16384x128) (k0_off2 L 0#32) S128x128.size h0).set
        ∪ ((Rect.unit (s := S16384x128) (k0_off2 L 128#32) S128x128.size h1).set
          ∪ ((Rect.unit (s := S16384x128) (k0_off2 L 256#32) S128x128.size h2).set
            ∪ (Rect.unit (s := S16384x128) (k0_off2 L 384#32) S128x128.size h3).set)) := by
  ext i
  simp only [Finset.mem_union, mem_oPart, mem_chunkRect L 0 (w := 0#32) rfl, mem_chunkRect L 1 (w := 128#32) rfl, mem_chunkRect L 2 (w := 256#32) rfl, mem_chunkRect L 3 (w := 384#32) rfl]
  have e3 : ((3 : Fin 4) : ℕ) = 3 := rfl
  have e2 : ((2 : Fin 4) : ℕ) = 2 := rfl
  have e1 : ((1 : Fin 4) : ℕ) = 1 := rfl
  have e0 : ((0 : Fin 4) : ℕ) = 0 := rfl
  omega

/-- pairwise disjoint. -/
theorem chunk_disjoint (j j' : Fin 4) (hne : j ≠ j') {w w' : BitVec 32} (hw : w = BitVec.ofNat 32 (128 * j.val)) (hw' : w' = BitVec.ofNat 32 (128 * j'.val)) {h h'} :
    Disjoint (Rect.unit (s := S16384x128) (k0_off2 L w) S128x128.size h).set (Rect.unit (s := S16384x128) (k0_off2 L w') S128x128.size h').set := by
  rw [Finset.disjoint_left]
  intro i hi hi'
  rw [mem_chunkRect L j hw] at hi
  rw [mem_chunkRect L j' hw'] at hi'
  have : j.val ≠ j'.val := fun e => hne (Fin.ext e)
  omega

end Cert.Proof.KB

end
-- ==== Proof.KTaskShares.lean ====
/-
  A table is read by several gathers in flight at once, each completing on its own semaphore: the task holds its share
  of the table as ten read tokens, token `k` for the transfers completing on DMA semaphore number `k`, beside a
  remainder; the tokens and the remainder compose to the share again.
-/
import proofs.«211833_g48473000902786_cont_8to1_c_597_31_alg».proof.Proof.KTaskViews
import Idealize.ShloMosaic.Lib.Transfers
import Idealize.ShloMosaic.Lib.Pipeline.Kit

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} {UU : Type} [URA UU]

local notation "𝕄" => MT nD τ sig (HIx 1) (Elt F) ℕ UU ℕ

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable {ℓ : Loc nD τ sig} {X : Finset (Idx ℓ)} {f : Buf (Elt F) ℓ}

/-- A share as ten read tokens and a remainder; -/
theorem toks10_split (q : PosShare TreeShare) :
    (ℓ ↦[X]{q} f : sProp 𝕄) ⊢ iprop((ℓ ↦[X]{Transfers.shareDrop q 10} f)
      ∗ (ℓ ↦[X]{Transfers.shareTok q 10 (0 : Fin 10)} f) ∗ (ℓ ↦[X]{Transfers.shareTok q 10 (1 : Fin 10)} f) ∗ (ℓ ↦[X]{Transfers.shareTok q 10 (2 : Fin 10)} f) ∗ (ℓ ↦[X]{Transfers.shareTok q 10 (3 : Fin 10)} f) ∗ (ℓ ↦[X]{Transfers.shareTok q 10 (4 : Fin 10)} f) ∗ (ℓ ↦[X]{Transfers.shareTok q 10 (5 : Fin 10)} f) ∗ (ℓ ↦[X]{Transfers.shareTok q 10 (6 : Fin 10)} f) ∗ (ℓ ↦[X]{Transfers.shareTok q 10 (7 : Fin 10)} f) ∗ (ℓ ↦[X]{Transfers.shareTok q 10 (8 : Fin 10)} f) ∗ (ℓ ↦[X]{Transfers.shareTok q 10 (9 : Fin 10)} f)) := by
  refine (Transfers.pointsTo_toks_split (ℓ := ℓ) (S := X) (f := f) q 10).trans ?_
  rw [bigSep_fin10]

/-- and back. -/
theorem toks10_join (q : PosShare TreeShare) :
    iprop((ℓ ↦[X]{Transfers.shareDrop q 10} f)
      ∗ (ℓ ↦[X]{Transfers.shareTok q 10 (0 : Fin 10)} f) ∗ (ℓ ↦[X]{Transfers.shareTok q 10 (1 : Fin 10)} f) ∗ (ℓ ↦[X]{Transfers.shareTok q 10 (2 : Fin 10)} f) ∗ (ℓ ↦[X]{Transfers.shareTok q 10 (3 : Fin 10)} f) ∗ (ℓ ↦[X]{Transfers.shareTok q 10 (4 : Fin 10)} f) ∗ (ℓ ↦[X]{Transfers.shareTok q 10 (5 : Fin 10)} f) ∗ (ℓ ↦[X]{Transfers.shareTok q 10 (6 : Fin 10)} f) ∗ (ℓ ↦[X]{Transfers.shareTok q 10 (7 : Fin 10)} f) ∗ (ℓ ↦[X]{Transfers.shareTok q 10 (8 : Fin 10)} f) ∗ (ℓ ↦[X]{Transfers.shareTok q 10 (9 : Fin 10)} f)) ⊢ (ℓ ↦[X]{q} f : sProp 𝕄) := by
  refine BI.Entails.trans ?_ (Transfers.pointsTo_toks_join (ℓ := ℓ) (S := X) (f := f) q 10)
  rw [bigSep_fin10]
  exact BI.Entails.refl _

end Cert.Proof.KB

end
-- ==== Proof.KTaskObl.lean ====
/-
  The gather task as the launch theorem's obligation for a vector subcore.

  The launch hands vector subcore `i` of SparseCore `c` its part of the call's arrays (in the TensorCore's names, cut
  along the 32-way parts) and its own scoped storage. Here the parts are respelt as the kernel's views — a slab is a
  part of an index array, an output part is its four chunks, a table's token is ten finer tokens and a remainder, the
  index scratch is three planes, the row scratch seven slots —, the task is run on them, and everything is put back.
-/
import proofs.«211833_g48473000902786_cont_8to1_c_597_31_alg».proof.Proof.KTaskRun
import proofs.«211833_g48473000902786_cont_8to1_c_597_31_alg».proof.Proof.KTaskOwn
import proofs.«211833_g48473000902786_cont_8to1_c_597_31_alg».proof.Proof.KTaskGeom
import proofs.«211833_g48473000902786_cont_8to1_c_597_31_alg».proof.Proof.KTaskShares
import proofs.«211833_g48473000902786_cont_8to1_c_597_31_alg».proof.Proof.KTaskPay

noncomputable section

namespace Cert.Proof.KB

open Cert.Kernel Cert.Kernel.Gen
open Cert.Proof.RegionB (ΛP K D 𝒱₀ 𝒱 v₀ UH UP UU EH EP)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (W : Dev nD → Valuation τ sig (Elt F)) (d : Dev nD) (L : grid0.Coords)

/-- The four chunks of a task's output part are pairwise disjoint. -/
theorem chunks_d3 : Disjoint (Rect.unit (s := S16384x128) (k0_off2 L 256#32) S128x128.size (k0_off2_inb L 2)).set (Rect.unit (s := S16384x128) (k0_off2 L 384#32) S128x128.size (k0_off2_inb L 3)).set := chunk_disjoint L 2 3 (by decide) (w := 256#32) (w' := 384#32) rfl rfl
theorem chunks_d2 : Disjoint (Rect.unit (s := S16384x128) (k0_off2 L 128#32) S128x128.size (k0_off2_inb L 1)).set ((Rect.unit (s := S16384x128) (k0_off2 L 256#32) S128x128.size (k0_off2_inb L 2)).set ∪ (Rect.unit (s := S16384x128) (k0_off2 L 384#32) S128x128.size (k0_off2_inb L 3)).set) := by
  rw [Finset.disjoint_union_right]
  exact ⟨chunk_disjoint L 1 2 (by decide) (w := 128#32) (w' := 256#32) rfl rfl, chunk_disjoint L 1 3 (by decide) (w := 128#32) (w' := 384#32) rfl rfl⟩
theorem chunks_d1 : Disjoint (Rect.unit (s := S16384x128) (k0_off2 L 0#32) S128x128.size (k0_off2_inb L 0)).set ((Rect.unit (s := S16384x128) (k0_off2 L 128#32) S128x128.size (k0_off2_inb L 1)).set ∪ ((Rect.unit (s := S16384x128) (k0_off2 L 256#32) S128x128.size (k0_off2_inb L 2)).set ∪ (Rect.unit (s := S16384x128) (k0_off2 L 384#32) S128x128.size (k0_off2_inb L 3)).set)) := by
  rw [Finset.disjoint_union_right, Finset.disjoint_union_right]
  exact ⟨chunk_disjoint L 0 1 (by decide) (w := 0#32) (w' := 128#32) rfl rfl, chunk_disjoint L 0 2 (by decide) (w := 0#32) (w' := 256#32) rfl rfl, chunk_disjoint L 0 3 (by decide) (w := 0#32) (w' := 384#32) rfl rfl⟩

/-! ## The views' element sets against the parts -/
theorem iSlab0_set : (iSlab0 L).view.set = (iBox (numL L)).set := by
  show (((View.whole main_v0_scv).slice (Rect.unit (s := S32x4x128) (k0_off1 L) S1x4x128.size (k0_off1_inb L))).reshape S4x128 squeezes_S1x4x128_S4x128.numel_eq).set = _
  rw [View.set_reshape, View.set_slice_whole]; exact slabRect_set L
theorem pts_i0 (f : Buf (Elt F) (i0Loc d)) :
    ((iSlab0 L).view.loc (thr d L) ↦[(iSlab0 L).view.set]{fullShare} f : sProp 𝕄) = i0Loc d ↦[(iBox (numL L)).set]{fullShare} f := by
  rw [iSlab0_set]
theorem pts_t0 (q : PosShare TreeShare) (f : Buf (Elt F) (t0Loc d)) :
    ((tab0).view.loc (thr d L) ↦{q} f : sProp 𝕄) = t0Loc d ↦{q} f := rfl
theorem oCh0_0_set : (oCh0_0 L).view.set = (Rect.unit (s := S16384x128) (k0_off2 L 0#32) S128x128.size (k0_off2_inb L 0)).set := by
  show ((View.whole main_v9_0_scv).slice _).set = _
  rw [View.set_slice_whole]
theorem oCh0_1_set : (oCh0_1 L).view.set = (Rect.unit (s := S16384x128) (k0_off2 L 128#32) S128x128.size (k0_off2_inb L 1)).set := by
  show ((View.whole main_v9_0_scv).slice _).set = _
  rw [View.set_slice_whole]
theorem oCh0_2_set : (oCh0_2 L).view.set = (Rect.unit (s := S16384x128) (k0_off2 L 256#32) S128x128.size (k0_off2_inb L 2)).set := by
  show ((View.whole main_v9_0_scv).slice _).set = _
  rw [View.set_slice_whole]
theorem oCh0_3_set : (oCh0_3 L).view.set = (Rect.unit (s := S16384x128) (k0_off2 L 384#32) S128x128.size (k0_off2_inb L 3)).set := by
  show ((View.whole main_v9_0_scv).slice _).set = _
  rw [View.set_slice_whole]

/-- Output 0's part of the task is its four chunks; -/
theorem oPart0_split (f : Buf (Elt F) (o0Loc d)) :
    (o0Loc d ↦[(oBox (numL L)).set]{fullShare} f : sProp 𝕄)
      ⊢ iprop(((oCh0_0 L).view.loc (thr d L) ↦[(oCh0_0 L).view.set]{fullShare} f)
          ∗ ((oCh0_1 L).view.loc (thr d L) ↦[(oCh0_1 L).view.set]{fullShare} f)
          ∗ ((oCh0_2 L).view.loc (thr d L) ↦[(oCh0_2 L).view.set]{fullShare} f)
          ∗ ((oCh0_3 L).view.loc (thr d L) ↦[(oCh0_3 L).view.set]{fullShare} f)) := by
  rw [oCh0_0_set, oCh0_1_set, oCh0_2_set, oCh0_3_set]
  exact pointsTo_split4 (oPart_eq_chunks L) (chunks_d1 L) (chunks_d2 L) (chunks_d3 L)

/-- and four chunks at some contents each are the part at some contents. -/
theorem oPart0_join :
    iprop((∃ f, (oCh0_0 L).view.loc (thr d L) ↦[(oCh0_0 L).view.set]{fullShare} f)
          ∗ (∃ f, (oCh0_1 L).view.loc (thr d L) ↦[(oCh0_1 L).view.set]{fullShare} f)
          ∗ (∃ f, (oCh0_2 L).view.loc (thr d L) ↦[(oCh0_2 L).view.set]{fullShare} f)
          ∗ (∃ f, (oCh0_3 L).view.loc (thr d L) ↦[(oCh0_3 L).view.set]{fullShare} f))
      ⊢ (iprop(∃ f, o0Loc d ↦[(oBox (numL L)).set]{fullShare} f) : sProp 𝕄) := by
  rw [oCh0_0_set, oCh0_1_set, oCh0_2_set, oCh0_3_set, show (oBox (numL L)).set = _ from oPart_eq_chunks L (h0 := k0_off2_inb L 0) (h1 := k0_off2_inb L 1) (h2 := k0_off2_inb L 2) (h3 := k0_off2_inb L 3)]
  iintro ⟨H0, H1, H2, H3⟩
  ihave H23 := (join_ex (F := F) (UU := UU) (ℓ := o0Loc d) (q := fullShare) (chunks_d3 L)) $$ [H2 H3]
  · isplitl [H2] <;> iassumption
  ihave H123 := (join_ex (F := F) (UU := UU) (ℓ := o0Loc d) (q := fullShare) (chunks_d2 L)) $$ [H1 H23]
  · isplitl [H1] <;> iassumption
  iapply (join_ex (F := F) (UU := UU) (ℓ := o0Loc d) (q := fullShare) (chunks_d1 L))
  isplitl [H0] <;> iassumption
theorem iSlab1_set : (iSlab1 L).view.set = (iBox (numL L)).set := by
  show (((View.whole main_v1_scv).slice (Rect.unit (s := S32x4x128) (k0_off1 L) S1x4x128.size (k0_off1_inb L))).reshape S4x128 squeezes_S1x4x128_S4x128.numel_eq).set = _
  rw [View.set_reshape, View.set_slice_whole]; exact slabRect_set L
theorem pts_i1 (f : Buf (Elt F) (i1Loc d)) :
    ((iSlab1 L).view.loc (thr d L) ↦[(iSlab1 L).view.set]{fullShare} f : sProp 𝕄) = i1Loc d ↦[(iBox (numL L)).set]{fullShare} f := by
  rw [iSlab1_set]
theorem pts_t1 (q : PosShare TreeShare) (f : Buf (Elt F) (t1Loc d)) :
    ((tab1).view.loc (thr d L) ↦{q} f : sProp 𝕄) = t1Loc d ↦{q} f := rfl
theorem oCh1_0_set : (oCh1_0 L).view.set = (Rect.unit (s := S16384x128) (k0_off2 L 0#32) S128x128.size (k0_off2_inb L 0)).set := by
  show ((View.whole main_v9_1_scv).slice _).set = _
  rw [View.set_slice_whole]
theorem oCh1_1_set : (oCh1_1 L).view.set = (Rect.unit (s := S16384x128) (k0_off2 L 128#32) S128x128.size (k0_off2_inb L 1)).set := by
  show ((View.whole main_v9_1_scv).slice _).set = _
  rw [View.set_slice_whole]
theorem oCh1_2_set : (oCh1_2 L).view.set = (Rect.unit (s := S16384x128) (k0_off2 L 256#32) S128x128.size (k0_off2_inb L 2)).set := by
  show ((View.whole main_v9_1_scv).slice _).set = _
  rw [View.set_slice_whole]
theorem oCh1_3_set : (oCh1_3 L).view.set = (Rect.unit (s := S16384x128) (k0_off2 L 384#32) S128x128.size (k0_off2_inb L 3)).set := by
  show ((View.whole main_v9_1_scv).slice _).set = _
  rw [View.set_slice_whole]

/-- Output 1's part of the task is its four chunks; -/
theorem oPart1_split (f : Buf (Elt F) (o1Loc d)) :
    (o1Loc d ↦[(oBox (numL L)).set]{fullShare} f : sProp 𝕄)
      ⊢ iprop(((oCh1_0 L).view.loc (thr d L) ↦[(oCh1_0 L).view.set]{fullShare} f)
          ∗ ((oCh1_1 L).view.loc (thr d L) ↦[(oCh1_1 L).view.set]{fullShare} f)
          ∗ ((oCh1_2 L).view.loc (thr d L) ↦[(oCh1_2 L).view.set]{fullShare} f)
          ∗ ((oCh1_3 L).view.loc (thr d L) ↦[(oCh1_3 L).view.set]{fullShare} f)) := by
  rw [oCh1_0_set, oCh1_1_set, oCh1_2_set, oCh1_3_set]
  exact pointsTo_split4 (oPart_eq_chunks L) (chunks_d1 L) (chunks_d2 L) (chunks_d3 L)

/-- and four chunks at some contents each are the part at some contents. -/
theorem oPart1_join :
    iprop((∃ f, (oCh1_0 L).view.loc (thr d L) ↦[(oCh1_0 L).view.set]{fullShare} f)
          ∗ (∃ f, (oCh1_1 L).view.loc (thr d L) ↦[(oCh1_1 L).view.set]{fullShare} f)
          ∗ (∃ f, (oCh1_2 L).view.loc (thr d L) ↦[(oCh1_2 L).view.set]{fullShare} f)
          ∗ (∃ f, (oCh1_3 L).view.loc (thr d L) ↦[(oCh1_3 L).view.set]{fullShare} f))
      ⊢ (iprop(∃ f, o1Loc d ↦[(oBox (numL L)).set]{fullShare} f) : sProp 𝕄) := by
  rw [oCh1_0_set, oCh1_1_set, oCh1_2_set, oCh1_3_set, show (oBox (numL L)).set = _ from oPart_eq_chunks L (h0 := k0_off2_inb L 0) (h1 := k0_off2_inb L 1) (h2 := k0_off2_inb L 2) (h3 := k0_off2_inb L 3)]
  iintro ⟨H0, H1, H2, H3⟩
  ihave H23 := (join_ex (F := F) (UU := UU) (ℓ := o1Loc d) (q := fullShare) (chunks_d3 L)) $$ [H2 H3]
  · isplitl [H2] <;> iassumption
  ihave H123 := (join_ex (F := F) (UU := UU) (ℓ := o1Loc d) (q := fullShare) (chunks_d2 L)) $$ [H1 H23]
  · isplitl [H1] <;> iassumption
  iapply (join_ex (F := F) (UU := UU) (ℓ := o1Loc d) (q := fullShare) (chunks_d1 L))
  isplitl [H0] <;> iassumption
theorem iSlab2_set : (iSlab2 L).view.set = (iBox (numL L)).set := by
  show (((View.whole main_v2_scv).slice (Rect.unit (s := S32x4x128) (k0_off1 L) S1x4x128.size (k0_off1_inb L))).reshape S4x128 squeezes_S1x4x128_S4x128.numel_eq).set = _
  rw [View.set_reshape, View.set_slice_whole]; exact slabRect_set L
theorem pts_i2 (f : Buf (Elt F) (i2Loc d)) :
    ((iSlab2 L).view.loc (thr d L) ↦[(iSlab2 L).view.set]{fullShare} f : sProp 𝕄) = i2Loc d ↦[(iBox (numL L)).set]{fullShare} f := by
  rw [iSlab2_set]
theorem pts_t2 (q : PosShare TreeShare) (f : Buf (Elt F) (t2Loc d)) :
    ((tab2).view.loc (thr d L) ↦{q} f : sProp 𝕄) = t2Loc d ↦{q} f := rfl
theorem oCh2_0_set : (oCh2_0 L).view.set = (Rect.unit (s := S16384x128) (k0_off2 L 0#32) S128x128.size (k0_off2_inb L 0)).set := by
  show ((View.whole main_v9_2_scv).slice _).set = _
  rw [View.set_slice_whole]
theorem oCh2_1_set : (oCh2_1 L).view.set = (Rect.unit (s := S16384x128) (k0_off2 L 128#32) S128x128.size (k0_off2_inb L 1)).set := by
  show ((View.whole main_v9_2_scv).slice _).set = _
  rw [View.set_slice_whole]
theorem oCh2_2_set : (oCh2_2 L).view.set = (Rect.unit (s := S16384x128) (k0_off2 L 256#32) S128x128.size (k0_off2_inb L 2)).set := by
  show ((View.whole main_v9_2_scv).slice _).set = _
  rw [View.set_slice_whole]
theorem oCh2_3_set : (oCh2_3 L).view.set = (Rect.unit (s := S16384x128) (k0_off2 L 384#32) S128x128.size (k0_off2_inb L 3)).set := by
  show ((View.whole main_v9_2_scv).slice _).set = _
  rw [View.set_slice_whole]

/-- Output 2's part of the task is its four chunks; -/
theorem oPart2_split (f : Buf (Elt F) (o2Loc d)) :
    (o2Loc d ↦[(oBox (numL L)).set]{fullShare} f : sProp 𝕄)
      ⊢ iprop(((oCh2_0 L).view.loc (thr d L) ↦[(oCh2_0 L).view.set]{fullShare} f)
          ∗ ((oCh2_1 L).view.loc (thr d L) ↦[(oCh2_1 L).view.set]{fullShare} f)
          ∗ ((oCh2_2 L).view.loc (thr d L) ↦[(oCh2_2 L).view.set]{fullShare} f)
          ∗ ((oCh2_3 L).view.loc (thr d L) ↦[(oCh2_3 L).view.set]{fullShare} f)) := by
  rw [oCh2_0_set, oCh2_1_set, oCh2_2_set, oCh2_3_set]
  exact pointsTo_split4 (oPart_eq_chunks L) (chunks_d1 L) (chunks_d2 L) (chunks_d3 L)

/-- and four chunks at some contents each are the part at some contents. -/
theorem oPart2_join :
    iprop((∃ f, (oCh2_0 L).view.loc (thr d L) ↦[(oCh2_0 L).view.set]{fullShare} f)
          ∗ (∃ f, (oCh2_1 L).view.loc (thr d L) ↦[(oCh2_1 L).view.set]{fullShare} f)
          ∗ (∃ f, (oCh2_2 L).view.loc (thr d L) ↦[(oCh2_2 L).view.set]{fullShare} f)
          ∗ (∃ f, (oCh2_3 L).view.loc (thr d L) ↦[(oCh2_3 L).view.set]{fullShare} f))
      ⊢ (iprop(∃ f, o2Loc d ↦[(oBox (numL L)).set]{fullShare} f) : sProp 𝕄) := by
  rw [oCh2_0_set, oCh2_1_set, oCh2_2_set, oCh2_3_set, show (oBox (numL L)).set = _ from oPart_eq_chunks L (h0 := k0_off2_inb L 0) (h1 := k0_off2_inb L 1) (h2 := k0_off2_inb L 2) (h3 := k0_off2_inb L 3)]
  iintro ⟨H0, H1, H2, H3⟩
  ihave H23 := (join_ex (F := F) (UU := UU) (ℓ := o2Loc d) (q := fullShare) (chunks_d3 L)) $$ [H2 H3]
  · isplitl [H2] <;> iassumption
  ihave H123 := (join_ex (F := F) (UU := UU) (ℓ := o2Loc d) (q := fullShare) (chunks_d2 L)) $$ [H1 H23]
  · isplitl [H1] <;> iassumption
  iapply (join_ex (F := F) (UU := UU) (ℓ := o2Loc d) (q := fullShare) (chunks_d1 L))
  isplitl [H0] <;> iassumption

/-! ## The task on its parts -/

variable [FloatOps F]

theorem slab0_in_range (hpre : PreOK W) : ∀ y : S4x128.Idx, ((iSlab0 L).view.read (Elt F) (wI0 W d) y).toNat < 100000 := by
  intro y
  rw [show (iSlab0 L).view.read (Elt F) (wI0 W d) y = wI0 W d ((iSlab0 L).view.emb y) from (View.read_apply _ _).trans (cast_eq _ _)]
  exact (hpre d).1 _
theorem slab1_in_range (hpre : PreOK W) : ∀ y : S4x128.Idx, ((iSlab1 L).view.read (Elt F) (wI1 W d) y).toNat < 100000 := by
  intro y
  rw [show (iSlab1 L).view.read (Elt F) (wI1 W d) y = wI1 W d ((iSlab1 L).view.emb y) from (View.read_apply _ _).trans (cast_eq _ _)]
  exact (hpre d).2.1 _
theorem slab2_in_range (hpre : PreOK W) : ∀ y : S4x128.Idx, ((iSlab2 L).view.read (Elt F) (wI2 W d) y).toNat < 100000 := by
  intro y
  rw [show (iSlab2 L).view.read (Elt F) (wI2 W d) y = wI2 W d ((iSlab2 L).view.emb y) from (View.read_apply _ _).trans (cast_eq _ _)]
  exact (hpre d).2.2 _

set_option maxHeartbeats 4000000 in
set_option maxRecDepth 16384 in
/-- The task on vector subcore `L` of device `d`, from its part of the call's arrays and its own scoped storage, back
    to them. -/
theorem tile_body (hF : (K (F := F)).Facts) (hpre : PreOK W) (O : CellTallies nD τ sig (HIx 1)) (W0 : Waits sig (HIx 1)) (hO : ∀ g, O g none = 0) :
    iprop(levAts (K (F := F)).L (K (F := F)).lev ∗ emp ∗ taskRes W d (numL L)
        ∗ scopedBufs (thr d L) ∗ scopedSems0 (thr d L) ∗ owes (thr d L) O W0)
      ⊢ wp frame (wpE (defs₀ (F := F)) 𝒱₀ (thr d L) none) Set.univ
          (cc0_k L (Memref.whole main_v0_scv) (Memref.isWhole_whole _) (Memref.whole main_v1_scv) (Memref.isWhole_whole _) (Memref.whole main_v2_scv) (Memref.isWhole_whole _) (Memref.whole main_v4_scv) (Memref.isWhole_whole _) (Memref.whole main_v6_scv) (Memref.isWhole_whole _) (Memref.whole main_v8_scv) (Memref.isWhole_whole _) (Memref.whole main_v9_0_scv) (Memref.isWhole_whole _) (Memref.whole main_v9_1_scv) (Memref.isWhole_whole _) (Memref.whole main_v9_2_scv) (Memref.isWhole_whole _) (Memref.whole cc0_scratch0) (Memref.isWhole_whole _) (Memref.whole cc0_scratch1) (Memref.isWhole_whole _) cc0_scratch2 cc0_scratch3 cc0_scratch4)
          fun _ => iprop(taskRes W d (numL L) ∗ scopedBufs (thr d L) ∗ scopedSems0 (thr d L)
            ∗ ∃ W', ⌜∀ p ∈ W', p ∈ W0 ∨ p.2 = none⌝ ∗ owes (thr d L) O W') := by
  rw [(K (F := F)).scopedBufs_V hF d (cV L) (jV L), SparseCore.Cfg.scopedSems0_V (Val := Elt F) d (cV L) (jV L),
    ownSems0_task (F := F) (UU := UU) d L, ownBufs_task (F := F) (UU := UU) d L]
  unfold taskRes
  iintro ⟨#Hlv, -, ⟨Hi0, Hi1, Hi2, Ht0, Ht1, Ht2, ⟨%fo0, Ho0⟩, ⟨%fo1, Ho1⟩, ⟨%fo2, Ho2⟩⟩, ⟨⟨%fs0, Hsc0⟩, ⟨%fs1, Hsc1⟩, Hbufs⟩,
    ⟨Hc_i0, Hc_i1, Hc_i2, Hc_g0, Hc_g1, Hc_g2, Hc_g3, Hc_g4, Hc_g5, Hc_g6, Hc_w0, Hc_w1, Hc_w2, Hc_w3, Hc_w4, Hc_w5, Hc_w6, Hsems⟩, HO⟩
  ihave Hmw := (show levAts (K (F := F)).L (K (F := F)).lev ⊢ Transfers.MayWaits (thr d L) (default : HIx 1) O from
    (K (F := F)).mayWaits_none (thr := thr d L) hO) $$ Hlv
  ihave Hi0' := (Entails.of_eq (pts_i0 (F := F) d L _).symm) $$ Hi0
  ihave Hi1' := (Entails.of_eq (pts_i1 (F := F) d L _).symm) $$ Hi1
  ihave Hi2' := (Entails.of_eq (pts_i2 (F := F) d L _).symm) $$ Hi2
  ihave Hk0 := (toks10_split (F := F) (UU := UU) (X := Finset.univ) (tq (numL L))) $$ Ht0
  icases Hk0 with ⟨Hd0, Hk0_0, Hk0_1, Hk0_2, Hk0_3, Hk0_4, Hk0_5, Hk0_6, Hk0_7, Hk0_8, Hk0_9⟩
  ihave Hk1 := (toks10_split (F := F) (UU := UU) (X := Finset.univ) (tq (numL L))) $$ Ht1
  icases Hk1 with ⟨Hd1, Hk1_0, Hk1_1, Hk1_2, Hk1_3, Hk1_4, Hk1_5, Hk1_6, Hk1_7, Hk1_8, Hk1_9⟩
  ihave Hk2 := (toks10_split (F := F) (UU := UU) (X := Finset.univ) (tq (numL L))) $$ Ht2
  icases Hk2 with ⟨Hd2, Hk2_0, Hk2_1, Hk2_2, Hk2_3, Hk2_4, Hk2_5, Hk2_6, Hk2_7, Hk2_8, Hk2_9⟩
  ihave Hq0 := (oPart0_split (F := F) d L fo0) $$ Ho0
  icases Hq0 with ⟨Ho0_0, Ho0_1, Ho0_2, Ho0_3⟩
  ihave Hq1 := (oPart1_split (F := F) d L fo1) $$ Ho1
  icases Hq1 with ⟨Ho1_0, Ho1_1, Ho1_2, Ho1_3⟩
  ihave Hq2 := (oPart2_split (F := F) d L fo2) $$ Ho2
  icases Hq2 with ⟨Ho2_0, Ho2_1, Ho2_2, Ho2_3⟩
  ihave Hp := (Entails.of_eq (scratch0_planes (F := F) (UU := UU) d L fs0)) $$ Hsc0
  icases Hp with ⟨Hv0, Hv1, Hv2⟩
  ihave Hq := (Entails.of_eq (scratch1_slots (F := F) (UU := UU) d L fs1)) $$ Hsc1
  icases Hq with ⟨Hs0, Hs1, Hs2, Hs3, Hs4, Hs5, Hs6⟩
  iapply (wp_wand_r frame _ _)
  isplitl [Hmw Hi0' Hi1' Hi2' Hk0_3 Hk0_4 Hk0_5 Hk0_6 Hk1_7 Hk1_8 Hk1_9 Hk1_3 Hk2_4 Hk2_5 Hk2_6 Hk2_7 Ho0_0 Ho0_1 Ho0_2 Ho0_3 Ho1_0 Ho1_1 Ho1_2 Ho1_3 Ho2_0 Ho2_1 Ho2_2 Ho2_3 Hv0 Hv1 Hv2 Hs0 Hs1 Hs2 Hs3 Hs4 Hs5 Hs6 Hc_i0 Hc_i1 Hc_i2 Hc_g0 Hc_g1 Hc_g2 Hc_g3 Hc_g4 Hc_g5 Hc_g6 Hc_w0 Hc_w1 Hc_w2 Hc_w3 Hc_w4 Hc_w5 Hc_w6 HO]
  · iapply (task_core (F := F) (UU := UU) 𝒱₀ d L O W0 (tq (numL L)) (wI0 W d) (wI1 W d) (wI2 W d) (wT0 W d) (wT1 W d) (wT2 W d) fo0 fo0 fo0 fo0 fo1 fo1 fo1 fo1 fo2 fo2 fo2 fo2 fs0 fs0 fs0 fs1 fs1 fs1 fs1 fs1 fs1 fs1
      (slab0_in_range W d L hpre) (slab1_in_range W d L hpre) (slab2_in_range W d L hpre))
    isplitl [Hmw]; · iexact Hmw
    isplitl [Hi0']; · iexact Hi0'
    isplitl [Hi1']; · iexact Hi1'
    isplitl [Hi2']; · iexact Hi2'
    isplitl [Hk0_3]; · iexact Hk0_3
    isplitl [Hk0_4]; · iexact Hk0_4
    isplitl [Hk0_5]; · iexact Hk0_5
    isplitl [Hk0_6]; · iexact Hk0_6
    isplitl [Hk1_7]; · iexact Hk1_7
    isplitl [Hk1_8]; · iexact Hk1_8
    isplitl [Hk1_9]; · iexact Hk1_9
    isplitl [Hk1_3]; · iexact Hk1_3
    isplitl [Hk2_4]; · iexact Hk2_4
    isplitl [Hk2_5]; · iexact Hk2_5
    isplitl [Hk2_6]; · iexact Hk2_6
    isplitl [Hk2_7]; · iexact Hk2_7
    isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Hv0]; · iexact Hv0
    isplitl [Hv1]; · iexact Hv1
    isplitl [Hv2]; · iexact Hv2
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hc_i0]; · iexact Hc_i0
    isplitl [Hc_i1]; · iexact Hc_i1
    isplitl [Hc_i2]; · iexact Hc_i2
    isplitl [Hc_g0]; · iexact Hc_g0
    isplitl [Hc_g1]; · iexact Hc_g1
    isplitl [Hc_g2]; · iexact Hc_g2
    isplitl [Hc_g3]; · iexact Hc_g3
    isplitl [Hc_g4]; · iexact Hc_g4
    isplitl [Hc_g5]; · iexact Hc_g5
    isplitl [Hc_g6]; · iexact Hc_g6
    isplitl [Hc_w0]; · iexact Hc_w0
    isplitl [Hc_w1]; · iexact Hc_w1
    isplitl [Hc_w2]; · iexact Hc_w2
    isplitl [Hc_w3]; · iexact Hc_w3
    isplitl [Hc_w4]; · iexact Hc_w4
    isplitl [Hc_w5]; · iexact Hc_w5
    isplitl [Hc_w6]; · iexact Hc_w6
    iexact HO
  iintro %_ Hpost
  icases Hpost with ⟨Hi0', Hi1', Hi2', Hk0_3, Hk0_4, Hk0_5, Hk0_6, Hk1_7, Hk1_8, Hk1_9, Hk1_3, Hk2_4, Hk2_5, Hk2_6, Hk2_7, Ho0_0, Ho0_1, Ho0_2, Ho0_3, Ho1_0, Ho1_1, Ho1_2, Ho1_3, Ho2_0, Ho2_1, Ho2_2, Ho2_3, Hv0, Hv1, Hv2, Hs0, Hs1, Hs2, Hs3, Hs4, Hs5, Hs6, Hc_i0, Hc_i1, Hc_i2, Hc_g0, Hc_g1, Hc_g2, Hc_g3, Hc_g4, Hc_g5, Hc_g6, Hc_w0, Hc_w1, Hc_w2, Hc_w3, Hc_w4, Hc_w5, Hc_w6, ⟨%W', %hW', HO⟩⟩
  -- the call's arrays
  isplitl [Hi0' Hi1' Hi2' Hd0 Hk0_0 Hk0_1 Hk0_2 Hk0_3 Hk0_4 Hk0_5 Hk0_6 Hk0_7 Hk0_8 Hk0_9 Hd1 Hk1_0 Hk1_1 Hk1_2 Hk1_3 Hk1_4 Hk1_5 Hk1_6 Hk1_7 Hk1_8 Hk1_9 Hd2 Hk2_0 Hk2_1 Hk2_2 Hk2_3 Hk2_4 Hk2_5 Hk2_6 Hk2_7 Hk2_8 Hk2_9 Ho0_0 Ho0_1 Ho0_2 Ho0_3 Ho1_0 Ho1_1 Ho1_2 Ho1_3 Ho2_0 Ho2_1 Ho2_2 Ho2_3]
  · isplitl [Hi0']; · iapply (Entails.of_eq (pts_i0 (F := F) d L _)); iexact Hi0'
    isplitl [Hi1']; · iapply (Entails.of_eq (pts_i1 (F := F) d L _)); iexact Hi1'
    isplitl [Hi2']; · iapply (Entails.of_eq (pts_i2 (F := F) d L _)); iexact Hi2'
    isplitl [Hd0 Hk0_0 Hk0_1 Hk0_2 Hk0_3 Hk0_4 Hk0_5 Hk0_6 Hk0_7 Hk0_8 Hk0_9]
    · iapply (toks10_join (F := F) (UU := UU) (X := Finset.univ) (tq (numL L)))
      isplitl [Hd0]; · iexact Hd0
      isplitl [Hk0_0]; · iexact Hk0_0
      isplitl [Hk0_1]; · iexact Hk0_1
      isplitl [Hk0_2]; · iexact Hk0_2
      isplitl [Hk0_3]; · iexact Hk0_3
      isplitl [Hk0_4]; · iexact Hk0_4
      isplitl [Hk0_5]; · iexact Hk0_5
      isplitl [Hk0_6]; · iexact Hk0_6
      isplitl [Hk0_7]; · iexact Hk0_7
      isplitl [Hk0_8]; · iexact Hk0_8
      iexact Hk0_9
    isplitl [Hd1 Hk1_0 Hk1_1 Hk1_2 Hk1_3 Hk1_4 Hk1_5 Hk1_6 Hk1_7 Hk1_8 Hk1_9]
    · iapply (toks10_join (F := F) (UU := UU) (X := Finset.univ) (tq (numL L)))
      isplitl [Hd1]; · iexact Hd1
      isplitl [Hk1_0]; · iexact Hk1_0
      isplitl [Hk1_1]; · iexact Hk1_1
      isplitl [Hk1_2]; · iexact Hk1_2
      isplitl [Hk1_3]; · iexact Hk1_3
      isplitl [Hk1_4]; · iexact Hk1_4
      isplitl [Hk1_5]; · iexact Hk1_5
      isplitl [Hk1_6]; · iexact Hk1_6
      isplitl [Hk1_7]; · iexact Hk1_7
      isplitl [Hk1_8]; · iexact Hk1_8
      iexact Hk1_9
    isplitl [Hd2 Hk2_0 Hk2_1 Hk2_2 Hk2_3 Hk2_4 Hk2_5 Hk2_6 Hk2_7 Hk2_8 Hk2_9]
    · iapply (toks10_join (F := F) (UU := UU) (X := Finset.univ) (tq (numL L)))
      isplitl [Hd2]; · iexact Hd2
      isplitl [Hk2_0]; · iexact Hk2_0
      isplitl [Hk2_1]; · iexact Hk2_1
      isplitl [Hk2_2]; · iexact Hk2_2
      isplitl [Hk2_3]; · iexact Hk2_3
      isplitl [Hk2_4]; · iexact Hk2_4
      isplitl [Hk2_5]; · iexact Hk2_5
      isplitl [Hk2_6]; · iexact Hk2_6
      isplitl [Hk2_7]; · iexact Hk2_7
      isplitl [Hk2_8]; · iexact Hk2_8
      iexact Hk2_9
    isplitl [Ho0_0 Ho0_1 Ho0_2 Ho0_3]
    · iapply (oPart0_join (F := F) d L)
      isplitl [Ho0_0]; · iexact Ho0_0
      isplitl [Ho0_1]; · iexact Ho0_1
      isplitl [Ho0_2]; · iexact Ho0_2
      iexact Ho0_3
    isplitl [Ho1_0 Ho1_1 Ho1_2 Ho1_3]
    · iapply (oPart1_join (F := F) d L)
      isplitl [Ho1_0]; · iexact Ho1_0
      isplitl [Ho1_1]; · iexact Ho1_1
      isplitl [Ho1_2]; · iexact Ho1_2
      iexact Ho1_3
    iapply (oPart2_join (F := F) d L)
    isplitl [Ho2_0]; · iexact Ho2_0
    isplitl [Ho2_1]; · iexact Ho2_1
    isplitl [Ho2_2]; · iexact Ho2_2
    iexact Ho2_3
  -- the subcore's own buffers
  isplitl [Hv0 Hv1 Hv2 Hs0 Hs1 Hs2 Hs3 Hs4 Hs5 Hs6 Hbufs]
  · isplitl [Hv0 Hv1 Hv2]
    · iapply (planes_join (F := F) (UU := UU) d L)
      isplitl [Hv0]; · iexact Hv0
      isplitl [Hv1]; · iexact Hv1
      iexact Hv2
    isplitl [Hs0 Hs1 Hs2 Hs3 Hs4 Hs5 Hs6]
    · iapply (slots_join (F := F) (UU := UU) d L)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    iexact Hbufs
  -- its semaphores
  isplitl [Hc_i0 Hc_i1 Hc_i2 Hc_g0 Hc_g1 Hc_g2 Hc_g3 Hc_g4 Hc_g5 Hc_g6 Hc_w0 Hc_w1 Hc_w2 Hc_w3 Hc_w4 Hc_w5 Hc_w6 Hsems]
  · isplitl [Hc_i0]; · iexact Hc_i0
    isplitl [Hc_i1]; · iexact Hc_i1
    isplitl [Hc_i2]; · iexact Hc_i2
    isplitl [Hc_g0]; · iexact Hc_g0
    isplitl [Hc_g1]; · iexact Hc_g1
    isplitl [Hc_g2]; · iexact Hc_g2
    isplitl [Hc_g3]; · iexact Hc_g3
    isplitl [Hc_g4]; · iexact Hc_g4
    isplitl [Hc_g5]; · iexact Hc_g5
    isplitl [Hc_g6]; · iexact Hc_g6
    isplitl [Hc_w0]; · iexact Hc_w0
    isplitl [Hc_w1]; · iexact Hc_w1
    isplitl [Hc_w2]; · iexact Hc_w2
    isplitl [Hc_w3]; · iexact Hc_w3
    isplitl [Hc_w4]; · iexact Hc_w4
    isplitl [Hc_w5]; · iexact Hc_w5
    isplitl [Hc_w6]; · iexact Hc_w6
    iexact Hsems
  iexists W'; isplitr
  · ipureintro; exact hW'
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_v0_scv) (Memref.isWhole_whole _) (Memref.whole main_v1_scv) (Memref.isWhole_whole _) (Memref.whole main_v2_scv) (Memref.isWhole_whole _) (Memref.whole main_v4_scv) (Memref.isWhole_whole _) (Memref.whole main_v6_scv) (Memref.isWhole_whole _) (Memref.whole main_v8_scv) (Memref.isWhole_whole _) (Memref.whole main_v9_0_scv) (Memref.isWhole_whole _) (Memref.whole main_v9_1_scv) (Memref.isWhole_whole _) (Memref.whole main_v9_2_scv) (Memref.isWhole_whole _) (Memref.whole cc0_scratch0) (Memref.isWhole_whole _) (Memref.whole cc0_scratch1) (Memref.isWhole_whole _) cc0_scratch2 cc0_scratch3 cc0_scratch4) ⟨⟩ c s := rfl

omit [FloatOps F] in
theorem obl_post {t : Thread nD τ} {A B C : sProp 𝕄} {O : CellTallies nD τ sig (HIx 1)} {W0 : Waits sig (HIx 1)} {q : Fin 1} :
    iprop(A ∗ B ∗ C ∗ ∃ W', ⌜∀ p ∈ W', p ∈ W0 ∨ p.2 = none⌝ ∗ owes t O W')
      ⊢ iprop(A ∗ B ∗ C ∗ ∃ W', ⌜∀ p ∈ W', p ∈ W0 ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem numL_coordsV (c : Fin (grid0.bound 0)) (s : Fin (grid0.bound 1)) :
    numL (coordsV c s) = taskNo ⟨c.val, c.isLt⟩ ⟨s.val, s.isLt⟩ := rfl

set_option maxRecDepth 16384 in
/-- The launch theorem's obligation for the call's vector subcores. -/
theorem tileObl (hF : (K (F := F)).Facts) (hpre : PreOK W) : (K (F := F)).TileObl (D (F := F)) 𝒱 (P W) v₀ 0 := by
  intro d c i O W0 hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body W d (coordsV ⟨_, hci.1⟩ ⟨_, hci.2⟩) hF hpre O W0 hO).trans (wp_mono frame _ _ fun _ => obl_post)

end Cert.Proof.KB

end
-- ==== Proof.KRegionBody1.lean ====
/-
  The first TensorCore region (the precomputation of the small products): its kernel body run on any staging buffers.
-/
import proofs.«211833_g48473000902786_cont_8to1_c_597_31_alg».proof.Proof.KRegionSetup
import proofs.«211833_g48473000902786_cont_8to1_c_597_31_alg».proof.Proof.Gen.Kernel.Skeleton
import Idealize.ShloMosaic.Lib.Tactic

noncomputable section

namespace Cert.Proof.RegionB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- The body of the first region (the small products) on any eighteen whole staging buffers, each held whole at any contents: it runs to its
    return — loads of the operand buffers, stores into the result buffers, nothing else — and hands every buffer back,
    held whole at some contents. -/
theorem run1 (c : Dev nD) (i : grid1.Coords) (a1 : Memref sig .tc .vmem S16x64 .f32) (h1 : a1.IsWhole) (a2 : Memref sig .tc .vmem S400x64 .f32) (h2 : a2.IsWhole) (a3 : Memref sig .tc .vmem S4x64 .f32) (h3 : a3.IsWhole) (a4 : Memref sig .tc .vmem S64x64 .f32) (h4 : a4.IsWhole) (a5 : Memref sig .tc .vmem S64x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S64x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S16x64 .f32) (h13 : a13.IsWhole) (a14 : Memref sig .tc .vmem S400x64 .f32) (h14 : a14.IsWhole) (a15 : Memref sig .tc .vmem S4x64 .f32) (h15 : a15.IsWhole) (a16 : Memref sig .tc .vmem S64x64 .f32) (h16 : a16.IsWhole) (a17 : Memref sig .tc .vmem S1x64 .f32) (h17 : a17.IsWhole) (a18 : Memref sig .tc .vmem S1x64 .f32) (h18 : a18.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18
        ∗ (iprop(ptE (F := F) c a1 ∗ ptE (F := F) c a2 ∗ ptE (F := F) c a3 ∗ ptE (F := F) c a4 ∗ ptE (F := F) c a5 ∗ ptE (F := F) c a6 ∗ ptE (F := F) c a7 ∗ ptE (F := F) c a8 ∗ ptE (F := F) c a9 ∗ ptE (F := F) c a10 ∗ ptE (F := F) c a11 ∗ ptE (F := F) c a12 ∗ ptE (F := F) c a13 ∗ ptE (F := F) c a14 ∗ ptE (F := F) c a15 ∗ ptE (F := F) c a16 ∗ ptE (F := F) c a17 ∗ ptE (F := F) c a18) -∗ Q ⟨⟩))
      ⊢ wp frame (wpE (defs₀ (F := F)) 𝒱₀ (c : Thread nD τ) none) Set.univ (cc1__pre_body i a1 h1 a2 h2 a3 h3 a4 h4 a5 h5 a6 h6 a7 h7 a8 h8 a9 h9 a10 h10 a11 h11 a12 h12 a13 h13 a14 h14 a15 h15 a16 h16 a17 h17 a18 h18) Q := by
  iintro ⟨H1, H2, H3, H4, H5, H6, H7, H8, H9, H10, H11, H12, H13, H14, H15, H16, H17, H18, Hk⟩
  sl_unfold [cc1__pre_body]
  sl_exec
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.RegionB

end
-- ==== Proof.KRegionPre.lean ====
/-
  The first TensorCore region (the precomputation of the small products) inside @main of the whole program: its
  proof data (nothing said of what the body leaves), its body obligation, the region as a segment over the thread state
  "every unscoped buffer whole at a valuation", and its step under the program's full body table.
-/
import proofs.«211833_g48473000902786_cont_8to1_c_597_31_alg».proof.Proof.KRegionBody1
import proofs.«211833_g48473000902786_cont_8to1_c_597_31_alg».proof.Proof.Gen.Kernel.Points
import Idealize.ShloMosaic.Lib.Pipeline.Regions
import Idealize.ShloMosaic.Lib.StableHlo.Run

noncomputable section

namespace Cert.Proof.RegionB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

section Region1

variable (W : Valuation τ sig (Elt F))

/-! ## The windows' arrays -/

/-- The distinct buffers behind the windows' arrays, -/
abbrev arrs1 : Finset (DevRef τ sig) := {(Proc.devRef .tc (main_arg8 : Ref sig .tc) : DevRef τ sig), (Proc.devRef .tc (main_arg10 : Ref sig .tc) : DevRef τ sig), (Proc.devRef .tc (main_arg12 : Ref sig .tc) : DevRef τ sig), (Proc.devRef .tc (main_arg13 : Ref sig .tc) : DevRef τ sig), (Proc.devRef .tc (main_arg17 : Ref sig .tc) : DevRef τ sig), (Proc.devRef .tc (main_arg15 : Ref sig .tc) : DevRef τ sig), (Proc.devRef .tc (main_v10 : Ref sig .tc) : DevRef τ sig), (Proc.devRef .tc (main_v11 : Ref sig .tc) : DevRef τ sig), (Proc.devRef .tc (main_v12_0 : Ref sig .tc) : DevRef τ sig), (Proc.devRef .tc (main_v12_1 : Ref sig .tc) : DevRef τ sig), (Proc.devRef .tc (main_v12_2 : Ref sig .tc) : DevRef τ sig), (Proc.devRef .tc (main_v12_3 : Ref sig .tc) : DevRef τ sig), (Proc.devRef .tc (main_v12_4 : Ref sig .tc) : DevRef τ sig), (Proc.devRef .tc (main_v12_5 : Ref sig .tc) : DevRef τ sig)}
/-- and the results among them. -/
abbrev outs1 : Finset (DevRef τ sig) := {(Proc.devRef .tc (main_v12_0 : Ref sig .tc) : DevRef τ sig), (Proc.devRef .tc (main_v12_1 : Ref sig .tc) : DevRef τ sig), (Proc.devRef .tc (main_v12_2 : Ref sig .tc) : DevRef τ sig), (Proc.devRef .tc (main_v12_3 : Ref sig .tc) : DevRef τ sig), (Proc.devRef .tc (main_v12_4 : Ref sig .tc) : DevRef τ sig), (Proc.devRef .tc (main_v12_5 : Ref sig .tc) : DevRef τ sig)}

theorem arrs1_sub : arrs1 ⊆ Pipeline.ucRefs τ sig := fun b hb => by
  unfold arrs1 at hb
  simp only [Finset.mem_insert, Finset.mem_singleton] at hb
  rcases hb with rfl | rfl | rfl | rfl | rfl | rfl | rfl | rfl | rfl | rfl | rfl | rfl | rfl | rfl <;> exact mem_uc _ (by decide)

theorem outs1_sub : outs1 ⊆ arrs1 := by decide

theorem held_arrs1 (d : Dev nD) (W : Valuation τ sig (Elt F)) :
    (StableHlo.held (T d) arrs1 W : sProp 𝕄) = iprop(pr d W fullShare main_arg8 ∗ pr d W fullShare main_arg10 ∗ pr d W fullShare main_arg12 ∗ pr d W fullShare main_arg13 ∗ pr d W fullShare main_arg17 ∗ pr d W fullShare main_arg15 ∗ pr d W fullShare main_v10 ∗ pr d W fullShare main_v11 ∗ pr d W fullShare main_v12_0 ∗ pr d W fullShare main_v12_1 ∗ pr d W fullShare main_v12_2 ∗ pr d W fullShare main_v12_3 ∗ pr d W fullShare main_v12_4 ∗ pr d W fullShare main_v12_5) := by
  unfold StableHlo.held arrs1
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The share each window holds its array at: the full share, but for the windows on one array, which hold it at
    disjoint shares composing to the full one. -/
def q1 : Fin 18 → PosShare TreeShare := fun
  | 4 => Transfers.shareDrop fullShare 4
  | 5 => Transfers.shareTokN fullShare 0
  | 6 => Transfers.shareTokN fullShare 1
  | 7 => Transfers.shareTokN fullShare 2
  | 8 => Transfers.shareTokN fullShare 3
  | _ => fullShare

/-! ## The proof data: nothing is said of what the body leaves in a buffer -/

/-- The invariant between the region's ends: the scoped buffers the pipeline does not stage. -/
abbrev Φc1 (d : Dev nD) : sProp 𝕄 := Pipeline.scopedRest (Ix := HIx 1) (Name := ℕ) (U := UU) (Lvl := ℕ) (Val := Elt F) spec1 d

def rdat1 (d : Dev nD) : RDat τ (Elt F) (HIx 1) ℕ UU ℕ cfg1 d where
  A w := W (Pipeline.arrRef spec1 w)
  after _ _ _ _ := True
  Φ _ := Φc1 d
  q w := q1 w
  owed _ := 0
  recorded _ := {p | (K (F := F)).lev ((T d), p.1) p.2 ≤ 8 * 1}

/-- The other pipeline's proof data, which this region's entry does not read: its arrays at the valuation, nothing else. -/
def rdatO1 (d : Dev nD) : RDat τ (Elt F) (HIx 1) ℕ UU ℕ cfg2 d where
  A w := W (Pipeline.arrRef spec2 w)
  after _ _ _ _ := True
  Φ _ := BI.emp
  q _ := fullShare
  owed _ := 0

/-- The proof data family, a literal match on the pipeline. -/
def rdats1 : (p : Fin 2) → (c : Dev nD) → RDat τ (Elt F) (HIx 1) ℕ UU ℕ (Pipeline.pin (pcfgs (F := F)) adm p) c
  | ⟨0, _⟩ => fun c => rdat1 W c
  | ⟨1, _⟩ => fun c => rdatO1 W c

theorem share1 (d : Dev nD) (w : Fin 18) : (rdat1 W d).share w = q1 w := by
  fin_cases w <;> rfl

theorem arrays1_eq (d : Dev nD) (Fs : (w : Fin 18) → Buf (Elt F) ((cfg1.win w).arr.view.loc (d : Thread nD τ))) :
    ((rdat1 W d).arrays Fs : sProp 𝕄)
      = bigSep Finset.univ fun w => (((d : Thread nD τ).loc (Pipeline.arrRef spec1 w)) ↦{q1 w} Fs w : sProp 𝕄) := by
  have harr : ∀ w, (cfg1.win w).arr.IsWhole := arr_whole1
  unfold RDat.arrays
  exact bigSep_congr fun w _ => by rw [(harr w).set_eq_univ, share1]

theorem arraysAt1_eq (d : Dev nD) (k : ℕ) :
    ((rdat1 W d).arraysAt k : sProp 𝕄)
      = bigSep Finset.univ fun w => iprop(∃ Fw, ⌜(rdat1 W d).ArrAt w k Fw⌝ ∗ (((d : Thread nD τ).loc (Pipeline.arrRef spec1 w)) ↦{q1 w} Fw : sProp 𝕄)) := by
  have harr : ∀ w, (cfg1.win w).arr.IsWhole := arr_whole1
  unfold RDat.arraysAt
  exact bigSep_congr fun w _ => by rw [(harr w).set_eq_univ, share1]

/-- ENTRY: the buffers behind the arrays, whole at the valuation, are the windows' arrays at the entry contents. -/
theorem arrays1_entry (d : Dev nD) : (StableHlo.held (T d) arrs1 W : sProp 𝕄) ⊢ (rdat1 W d).arrays (rdat1 W d).A := by
  rw [held_arrs1, arrays1_eq, bigSep_W1]
  iintro ⟨H0, H1, H2, H3, H4, H5, H6, H7, H8, H9, H10, H11, H12, H13⟩
  ihave Hs4 := (pt_split4 (F := F)).1 $$ H4
  icases Hs4 with ⟨S4_0, S4_1, S4_2, S4_3, S4_4⟩
  isplitl [H0]; · iexact H0
  isplitl [H1]; · iexact H1
  isplitl [H2]; · iexact H2
  isplitl [H3]; · iexact H3
  isplitl [S4_0]; · iexact S4_0
  isplitl [S4_1]; · iexact S4_1
  isplitl [S4_2]; · iexact S4_2
  isplitl [S4_3]; · iexact S4_3
  isplitl [S4_4]; · iexact S4_4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A valuation that takes given contents at the results and agrees with `W` elsewhere. -/
theorem upd_facts1 (G0 : (Proc.devRef .tc (main_v12_0 : Ref sig .tc) : DevRef τ sig).ty.Contents (Elt F)) (G1 : (Proc.devRef .tc (main_v12_1 : Ref sig .tc) : DevRef τ sig).ty.Contents (Elt F)) (G2 : (Proc.devRef .tc (main_v12_2 : Ref sig .tc) : DevRef τ sig).ty.Contents (Elt F)) (G3 : (Proc.devRef .tc (main_v12_3 : Ref sig .tc) : DevRef τ sig).ty.Contents (Elt F)) (G4 : (Proc.devRef .tc (main_v12_4 : Ref sig .tc) : DevRef τ sig).ty.Contents (Elt F)) (G5 : (Proc.devRef .tc (main_v12_5 : Ref sig .tc) : DevRef τ sig).ty.Contents (Elt F)) :
    ∃ W' : Valuation τ sig (Elt F), (∀ b, b ∉ outs1 → W' b = W b) ∧ W' (Proc.devRef .tc (main_v12_0 : Ref sig .tc) : DevRef τ sig) = G0 ∧ W' (Proc.devRef .tc (main_v12_1 : Ref sig .tc) : DevRef τ sig) = G1 ∧ W' (Proc.devRef .tc (main_v12_2 : Ref sig .tc) : DevRef τ sig) = G2 ∧ W' (Proc.devRef .tc (main_v12_3 : Ref sig .tc) : DevRef τ sig) = G3 ∧ W' (Proc.devRef .tc (main_v12_4 : Ref sig .tc) : DevRef τ sig) = G4 ∧ W' (Proc.devRef .tc (main_v12_5 : Ref sig .tc) : DevRef τ sig) = G5 := by
  refine ⟨(Function.update (Function.update (Function.update (Function.update (Function.update (Function.update W (Proc.devRef .tc (main_v12_0 : Ref sig .tc) : DevRef τ sig) G0) (Proc.devRef .tc (main_v12_1 : Ref sig .tc) : DevRef τ sig) G1) (Proc.devRef .tc (main_v12_2 : Ref sig .tc) : DevRef τ sig) G2) (Proc.devRef .tc (main_v12_3 : Ref sig .tc) : DevRef τ sig) G3) (Proc.devRef .tc (main_v12_4 : Ref sig .tc) : DevRef τ sig) G4) (Proc.devRef .tc (main_v12_5 : Ref sig .tc) : DevRef τ sig) G5), ?_, ?_, ?_, ?_, ?_, ?_, ?_⟩
  · intro b hb
    unfold outs1 at hb
    simp only [Finset.mem_insert, Finset.mem_singleton, not_or] at hb
    rw [Function.update_of_ne hb.2.2.2.2.2, Function.update_of_ne hb.2.2.2.2.1, Function.update_of_ne hb.2.2.2.1, Function.update_of_ne hb.2.2.1, Function.update_of_ne hb.2.1, Function.update_of_ne hb.1]
  · rw [Function.update_of_ne (show (Proc.devRef .tc (main_v12_0 : Ref sig .tc) : DevRef τ sig) ≠ (Proc.devRef .tc (main_v12_5 : Ref sig .tc) : DevRef τ sig) by decide), Function.update_of_ne (show (Proc.devRef .tc (main_v12_0 : Ref sig .tc) : DevRef τ sig) ≠ (Proc.devRef .tc (main_v12_4 : Ref sig .tc) : DevRef τ sig) by decide), Function.update_of_ne (show (Proc.devRef .tc (main_v12_0 : Ref sig .tc) : DevRef τ sig) ≠ (Proc.devRef .tc (main_v12_3 : Ref sig .tc) : DevRef τ sig) by decide), Function.update_of_ne (show (Proc.devRef .tc (main_v12_0 : Ref sig .tc) : DevRef τ sig) ≠ (Proc.devRef .tc (main_v12_2 : Ref sig .tc) : DevRef τ sig) by decide), Function.update_of_ne (show (Proc.devRef .tc (main_v12_0 : Ref sig .tc) : DevRef τ sig) ≠ (Proc.devRef .tc (main_v12_1 : Ref sig .tc) : DevRef τ sig) by decide), Function.update_self]
  · rw [Function.update_of_ne (show (Proc.devRef .tc (main_v12_1 : Ref sig .tc) : DevRef τ sig) ≠ (Proc.devRef .tc (main_v12_5 : Ref sig .tc) : DevRef τ sig) by decide), Function.update_of_ne (show (Proc.devRef .tc (main_v12_1 : Ref sig .tc) : DevRef τ sig) ≠ (Proc.devRef .tc (main_v12_4 : Ref sig .tc) : DevRef τ sig) by decide), Function.update_of_ne (show (Proc.devRef .tc (main_v12_1 : Ref sig .tc) : DevRef τ sig) ≠ (Proc.devRef .tc (main_v12_3 : Ref sig .tc) : DevRef τ sig) by decide), Function.update_of_ne (show (Proc.devRef .tc (main_v12_1 : Ref sig .tc) : DevRef τ sig) ≠ (Proc.devRef .tc (main_v12_2 : Ref sig .tc) : DevRef τ sig) by decide), Function.update_self]
  · rw [Function.update_of_ne (show (Proc.devRef .tc (main_v12_2 : Ref sig .tc) : DevRef τ sig) ≠ (Proc.devRef .tc (main_v12_5 : Ref sig .tc) : DevRef τ sig) by decide), Function.update_of_ne (show (Proc.devRef .tc (main_v12_2 : Ref sig .tc) : DevRef τ sig) ≠ (Proc.devRef .tc (main_v12_4 : Ref sig .tc) : DevRef τ sig) by decide), Function.update_of_ne (show (Proc.devRef .tc (main_v12_2 : Ref sig .tc) : DevRef τ sig) ≠ (Proc.devRef .tc (main_v12_3 : Ref sig .tc) : DevRef τ sig) by decide), Function.update_self]
  · rw [Function.update_of_ne (show (Proc.devRef .tc (main_v12_3 : Ref sig .tc) : DevRef τ sig) ≠ (Proc.devRef .tc (main_v12_5 : Ref sig .tc) : DevRef τ sig) by decide), Function.update_of_ne (show (Proc.devRef .tc (main_v12_3 : Ref sig .tc) : DevRef τ sig) ≠ (Proc.devRef .tc (main_v12_4 : Ref sig .tc) : DevRef τ sig) by decide), Function.update_self]
  · rw [Function.update_of_ne (show (Proc.devRef .tc (main_v12_4 : Ref sig .tc) : DevRef τ sig) ≠ (Proc.devRef .tc (main_v12_5 : Ref sig .tc) : DevRef τ sig) by decide), Function.update_self]
  · rw [Function.update_self]

set_option maxHeartbeats 4000000 in
/-- EXIT: the windows' arrays after every write-back are those buffers whole at a valuation that differs from the
    entry's at the results only. -/
theorem arrays1_exit (d : Dev nD) (k : ℕ) : ((rdat1 W d).arraysAt k : sProp 𝕄)
    ⊢ iprop(∃ W' : Valuation τ sig (Elt F), ⌜∀ b, b ∉ outs1 → W' b = W b⌝ ∗ StableHlo.held (T d) arrs1 W') := by
  rw [arraysAt1_eq, bigSep_W1]
  iintro ⟨⟨%F0, %h0, A0⟩, ⟨%F1, %h1, A1⟩, ⟨%F2, %h2, A2⟩, ⟨%F3, %h3, A3⟩, ⟨%F4, %h4, A4⟩, ⟨%F5, %h5, A5⟩, ⟨%F6, %h6, A6⟩, ⟨%F7, %h7, A7⟩, ⟨%F8, %h8, A8⟩, ⟨%F9, %h9, A9⟩, ⟨%F10, %h10, A10⟩, ⟨%F11, %h11, A11⟩, ⟨%F12, -, A12⟩, ⟨%F13, -, A13⟩, ⟨%F14, -, A14⟩, ⟨%F15, -, A15⟩, ⟨%F16, -, A16⟩, ⟨%F17, -, A17⟩⟩
  rw [(rdat1 W d).ArrAt_in 0 rfl] at h0; subst h0
  rw [(rdat1 W d).ArrAt_in 1 rfl] at h1; subst h1
  rw [(rdat1 W d).ArrAt_in 2 rfl] at h2; subst h2
  rw [(rdat1 W d).ArrAt_in 3 rfl] at h3; subst h3
  rw [(rdat1 W d).ArrAt_in 4 rfl] at h4; subst h4
  rw [(rdat1 W d).ArrAt_in 5 rfl] at h5; subst h5
  rw [(rdat1 W d).ArrAt_in 6 rfl] at h6; subst h6
  rw [(rdat1 W d).ArrAt_in 7 rfl] at h7; subst h7
  rw [(rdat1 W d).ArrAt_in 8 rfl] at h8; subst h8
  rw [(rdat1 W d).ArrAt_in 9 rfl] at h9; subst h9
  rw [(rdat1 W d).ArrAt_in 10 rfl] at h10; subst h10
  rw [(rdat1 W d).ArrAt_in 11 rfl] at h11; subst h11
  ihave J4 := (pt_split4 (F := F)).2 $$ [A4 A5 A6 A7 A8]
  · isplitl [A4]; · iexact A4
    isplitl [A5]; · iexact A5
    isplitl [A6]; · iexact A6
    isplitl [A7]; · iexact A7
    iexact A8
  obtain ⟨W', hoff, e0, e1, e2, e3, e4, e5⟩ := upd_facts1 W F12 F13 F14 F15 F16 F17
  iexists W'
  isplitr; · ipureintro; exact hoff
  rw [held_arrs1]
  dsimp only [pr]
  rw [hoff (Proc.devRef .tc (main_arg8 : Ref sig .tc) : DevRef τ sig) (by decide),
    hoff (Proc.devRef .tc (main_arg10 : Ref sig .tc) : DevRef τ sig) (by decide),
    hoff (Proc.devRef .tc (main_arg12 : Ref sig .tc) : DevRef τ sig) (by decide),
    hoff (Proc.devRef .tc (main_arg13 : Ref sig .tc) : DevRef τ sig) (by decide),
    hoff (Proc.devRef .tc (main_arg17 : Ref sig .tc) : DevRef τ sig) (by decide),
    hoff (Proc.devRef .tc (main_arg15 : Ref sig .tc) : DevRef τ sig) (by decide),
    hoff (Proc.devRef .tc (main_v10 : Ref sig .tc) : DevRef τ sig) (by decide),
    hoff (Proc.devRef .tc (main_v11 : Ref sig .tc) : DevRef τ sig) (by decide),
    e0,
    e1,
    e2,
    e3,
    e4,
    e5]
  isplitl [A0]; · iexact A0
  isplitl [A1]; · iexact A1
  isplitl [A2]; · iexact A2
  isplitl [A3]; · iexact A3
  isplitl [J4]; · iexact J4
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  iexact A17

end Region1

section Seg1

variable (W : Valuation τ sig (Elt F))

/-! ## The body obligation -/

set_option maxHeartbeats 2000000 in
theorem body_obligation1 (d : Dev nD) : (rdat1 W d).BodyObligation (defs₀ (F := F)) 𝒱₀ (none : HIx 1) Set.univ := fun t Y _ => by
  rw [bigSep_W1, bigSep_W1]
  rw [show (rdat1 W d).Φ t.castSucc = Φc1 d from rfl, show (rdat1 W d).Φ t.succ = Φc1 d from rfl,
    show (rdat1 W d).owesAt (none : HIx 1) t.succ = (rdat1 W d).owesAt (none : HIx 1) t.castSucc from rfl]
  show _ ⊢ wp frame (wpE (defs₀ (F := F)) 𝒱₀ (d : Thread nD τ) none) Set.univ (bodyAt1 t) _
  unfold owns
  iintro ⟨HΦ, HO, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩, ⟨%f10, -, H10⟩, ⟨%f11, -, H11⟩, ⟨%f12, -, H12⟩, ⟨%f13, -, H13⟩, ⟨%f14, -, H14⟩, ⟨%f15, -, H15⟩, ⟨%f16, -, H16⟩, ⟨%f17, -, H17⟩⟩
  iapply (run1 (F := F) d _ _ _ _ _ _ _ _ _ _ _ _ _ _ _ _ _ _ _ _ _ _ _ _ _ _ _ _ _ _ _ _ _ _ _ _ _ f0 f1 f2 f3 f4 f5 f6 f7 f8 f9 f10 f11 f12 f13 f14 f15 f16 f17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩, ⟨%g12, G12⟩, ⟨%g13, G13⟩, ⟨%g14, G14⟩, ⟨%g15, G15⟩, ⟨%g16, G16⟩, ⟨%g17, G17⟩⟩
  isplitl [HΦ]; · iexact HΦ
  isplitl [HO]; · iexact HO
  isplitl [G0]
  · iexists ((st1_0 t).view.read (Elt F) g0); isplitr; · ipureintro; trivial
    iexists g0; isplitr; · ipureintro; rfl
    iexact G0
  isplitl [G1]
  · iexists ((st1_1 t).view.read (Elt F) g1); isplitr; · ipureintro; trivial
    iexists g1; isplitr; · ipureintro; rfl
    iexact G1
  isplitl [G2]
  · iexists ((st1_2 t).view.read (Elt F) g2); isplitr; · ipureintro; trivial
    iexists g2; isplitr; · ipureintro; rfl
    iexact G2
  isplitl [G3]
  · iexists ((st1_3 t).view.read (Elt F) g3); isplitr; · ipureintro; trivial
    iexists g3; isplitr; · ipureintro; rfl
    iexact G3
  isplitl [G4]
  · iexists ((st1_4 t).view.read (Elt F) g4); isplitr; · ipureintro; trivial
    iexists g4; isplitr; · ipureintro; rfl
    iexact G4
  isplitl [G5]
  · iexists ((st1_5 t).view.read (Elt F) g5); isplitr; · ipureintro; trivial
    iexists g5; isplitr; · ipureintro; rfl
    iexact G5
  isplitl [G6]
  · iexists ((st1_6 t).view.read (Elt F) g6); isplitr; · ipureintro; trivial
    iexists g6; isplitr; · ipureintro; rfl
    iexact G6
  isplitl [G7]
  · iexists ((st1_7 t).view.read (Elt F) g7); isplitr; · ipureintro; trivial
    iexists g7; isplitr; · ipureintro; rfl
    iexact G7
  isplitl [G8]
  · iexists ((st1_8 t).view.read (Elt F) g8); isplitr; · ipureintro; trivial
    iexists g8; isplitr; · ipureintro; rfl
    iexact G8
  isplitl [G9]
  · iexists ((st1_9 t).view.read (Elt F) g9); isplitr; · ipureintro; trivial
    iexists g9; isplitr; · ipureintro; rfl
    iexact G9
  isplitl [G10]
  · iexists ((st1_10 t).view.read (Elt F) g10); isplitr; · ipureintro; trivial
    iexists g10; isplitr; · ipureintro; rfl
    iexact G10
  isplitl [G11]
  · iexists ((st1_11 t).view.read (Elt F) g11); isplitr; · ipureintro; trivial
    iexists g11; isplitr; · ipureintro; rfl
    iexact G11
  isplitl [G12]
  · iexists ((st1_12 t).view.read (Elt F) g12); isplitr; · ipureintro; trivial
    iexists g12; isplitr; · ipureintro; rfl
    iexact G12
  isplitl [G13]
  · iexists ((st1_13 t).view.read (Elt F) g13); isplitr; · ipureintro; trivial
    iexists g13; isplitr; · ipureintro; rfl
    iexact G13
  isplitl [G14]
  · iexists ((st1_14 t).view.read (Elt F) g14); isplitr; · ipureintro; trivial
    iexists g14; isplitr; · ipureintro; rfl
    iexact G14
  isplitl [G15]
  · iexists ((st1_15 t).view.read (Elt F) g15); isplitr; · ipureintro; trivial
    iexists g15; isplitr; · ipureintro; rfl
    iexact G15
  isplitl [G16]
  · iexists ((st1_16 t).view.read (Elt F) g16); isplitr; · ipureintro; trivial
    iexists g16; isplitr; · ipureintro; rfl
    iexact G16
  iexists ((st1_17 t).view.read (Elt F) g17); isplitr; · ipureintro; trivial
  iexists g17; isplitr; · ipureintro; rfl
  iexact G17

/-! ## The region over the thread state -/

set_option backward.isDefEq.respectTransparency.types false in
/-- The region as a segment of @main: entered from every unscoped buffer of the TensorCore whole at `W` and the core
    owing nothing; left with them at a valuation that differs from `W` at the region's results only. Nothing enters
    the invariant but the scoped buffers the pipeline does not stage; the kernel has no semaphore of its own. -/
def reg1 : Pipeline.RDat.RegionSeg (pcfgs (F := F)) adm (rdats1 W) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody d := body_obligation1 W d
  hwaits := Pipeline.RDat.hwaits_of_owed_zero _ _ _ _ _ _ 0 fun _ _ => rfl
  pre d := iprop(StableHlo.held (T d) (Pipeline.ucRefs τ sig) W ∗ owesT (F := F) d)
  post d := iprop(∃ W' : Valuation τ sig (Elt F), ⌜∀ b, b ∉ outs1 → W' b = W b⌝ ∗ StableHlo.held (T d) (Pipeline.ucRefs τ sig) W' ∗ owesT (F := F) d)
  X _ := BI.emp
  Y _ := BI.emp
  Z d := StableHlo.held (T d) (Pipeline.ucRefs τ sig \ arrs1) W
  hentry d := by
    rw [Pipeline.ownSems0_none, StableHlo.held_sub_split (T d) arrs1_sub W]
    iintro ⟨⟨⟨Ha, Hrest⟩, HO⟩, -, -⟩
    imodintro
    isplitl [Ha]; · iapply (arrays1_entry W d); iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%Wt, %hWt, HO⟩; iexists Wt; isplitr
      · ipureintro; exact fun q hq => Or.inl (hWt q (Finset.mem_coe.mp hq))
      iexact HO
    isplitr; · iempintro
    iexact Hrest
  hin d := by
    rw [show (rdats1 W 0 d).Φ 0 = Φc1 d from rfl]
    iintro ⟨-, -, Hr⟩; iexact Hr
  hout d := by
    rw [Pipeline.ownSems0_none, show (rdats1 W 0 d).Φ (Fin.last _) = Φc1 d from rfl]
    iintro Hr
    isplitr; · iempintro
    isplitr; · iempintro
    iexact Hr
  hexit d := by
    have hx : ((rdats1 W 0 d).arraysAt (Pipeline.pin (pcfgs (F := F)) adm 0).N : sProp 𝕄)
        ⊢ iprop(∃ W' : Valuation τ sig (Elt F), ⌜∀ b, b ∉ outs1 → W' b = W b⌝ ∗ StableHlo.held (T d) arrs1 W') := arrays1_exit W d _
    iintro ⟨Ha, HO, -, Hrest⟩
    ihave Ha' := hx $$ Ha
    icases Ha' with ⟨%W', %hW', Ha⟩
    imodintro
    iexists W'
    isplitr; · ipureintro; exact hW'
    isplitl [Ha Hrest]
    · rw [StableHlo.held_sub_split (T d) arrs1_sub W',
        StableHlo.held_congr (T d) (V := W') (V' := W) fun b hb => hW' b fun h => (Finset.mem_sdiff.mp hb).2 (outs1_sub h)]
      isplitl [Ha] <;> iassumption
    unfold RDat.owesAt Pipeline.owesWithin
    icases HO with ⟨%Wt, %hWt, HO⟩; iexists Wt; isplitr
    · ipureintro; intro q hq
      rcases hWt (Finset.mem_coe.mpr hq) with h | ⟨w, s, rfl⟩
      · exact h
      · exact Nat.zero_le _
    iexact HO

/-! ## The region's step inside @main of the whole program -/

/-- The region's call in the whole program's labels is the call in the pipelines' labels, lifted. -/
theorem entry_lift0 :
    (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ())) := rfl

/-- What the region's step leaves: the TensorCore's state, the boundary, the buffers at a valuation that differs from
    `W` at the region's results only. -/
abbrev postR1 (d : Dev nD) : PUnit → sProp 𝕄 := fun _ =>
  iprop(∃ W' : Valuation τ sig (Elt F), ⌜∀ b, b ∉ outs1 → W' b = W b⌝
    ∗ (K (F := F)).tcSt EH d 1 ∗ boundary (T d) ∗ StableHlo.held (T d) (Pipeline.ucRefs τ sig) W')

set_option backward.isDefEq.respectTransparency.types false in
/-- Region 0 on device `d`'s TensorCore, after the SparseCore call: from the handshakes' records, the TensorCore's
    state after the call, the region boundary, every unscoped buffer whole at `W` and the region's staging cells' ghost
    state, the region's call runs to the same with the buffers at a valuation that differs from `W` at its results only. -/
theorem region_wp0 (P : (K (F := F)).Pay (nD := nD) (Val := Elt F) (Name := ℕ) (U := UU)) (κ : GSem nD τ sig → ℕ) (d : Dev nD)
    [∀ e, Nonempty (Elt F e)] :
    iprop((K (F := F)).ctx EH P κ ∗ (K (F := F)).tcSt EH d 1 ∗ boundary (T d) ∗ StableHlo.held (T d) (Pipeline.ucRefs τ sig) W ∗ Gp (F := F) 0 d)
      ⊢ wp frame (wpE ((K (F := F)).defs (D (F := F))) 𝒱 (T d) none) Set.univ
          (Prog.lift (.customCall (SparseCore.inner (Pipeline.entry 0)) ()))
          (postR1 W d) := by
  rw [entry_lift0]
  refine BIBase.Entails.trans ?_ ((K (F := F)).wp_liftProg (D (F := F)) 𝒱 (T d) Set.univ none
    (Prog.lift (.customCall (Pipeline.entry 0) ())) (postR1 W d))
  unfold postR1 SparseCore.Cfg.tcSt Gp
  rw [(K (F := F)).Otc_end d (le_refl 1)]
  iintro ⟨#Hctx, ⟨HO, Hst⟩, Hb, Hheld, Hg, Ht⟩
  ihave #Hla := (SparseCore.Cfg.ctx_levAts κ) $$ Hctx
  iapply (Pipeline.RDat.RegionSeg.wp (pcfgs (F := F)) adm (rdats1 W) (none : HIx 1) phinj EP defs₀ 𝒱₀ (K (F := F)).L (K (F := F)).lev
    (reg1 W) d none (fun u h => nomatch h) (fun x => .ret x) _)
  rw [show (reg1 W).pre d = iprop(StableHlo.held (T d) (Pipeline.ucRefs τ sig) W ∗ owesT (F := F) d) from rfl,
    show (reg1 W).post d = iprop(∃ W' : Valuation τ sig (Elt F), ⌜∀ b, b ∉ outs1 → W' b = W b⌝
      ∗ StableHlo.held (T d) (Pipeline.ucRefs τ sig) W' ∗ owesT (F := F) d) from rfl]
  isplitl [Hst]
  · iintro ⟨Hb, %W', %hW', Hheld, HO⟩
    rw [wp_ret]; imodintro
    iexists W'
    isplitr; · ipureintro; exact hW'
    isplitl [HO Hst]; · isplitl [HO] <;> iassumption
    isplitl [Hb] <;> iassumption
  isplitl [Hb]; · iexact Hb
  isplitl [Hheld HO]; · isplitl [Hheld] <;> iassumption
  isplitr; · iexact Hla
  isplitl [Hg] <;> iassumption

end Seg1

end Cert.Proof.RegionB

end
-- ==== Proof.KRegionBody2.lean ====
/-
  The second TensorCore region (the sum over blocks of 2048 rows): its kernel body run on any staging buffers.
-/
import proofs.«211833_g48473000902786_cont_8to1_c_597_31_alg».proof.Proof.KRegionSetup
import proofs.«211833_g48473000902786_cont_8to1_c_597_31_alg».proof.Proof.Gen.Kernel.Skeleton
import Idealize.ShloMosaic.Lib.Tactic

noncomputable section

namespace Cert.Proof.RegionB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- The body of the second region (the sum, a block of 2048 rows at a time) on any eighteen whole staging buffers, each held whole at any contents: it runs to its
    return — loads of the operand buffers, stores into the result buffers, nothing else — and hands every buffer back,
    held whole at some contents. -/
theorem run2 (c : Dev nD) (i : grid2.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S2048x1 .i32) (h4 : a4.IsWhole) (a5 : Memref sig .tc .vmem S2048x1 .i32) (h5 : a5.IsWhole) (a6 : Memref sig .tc .vmem S2048x1 .i32) (h6 : a6.IsWhole) (a7 : Memref sig .tc .vmem S2048x1 .i32) (h7 : a7.IsWhole) (a8 : Memref sig .tc .vmem S2048x1 .f32) (h8 : a8.IsWhole) (a9 : Memref sig .tc .vmem S64x64 .f32) (h9 : a9.IsWhole) (a10 : Memref sig .tc .vmem S64x64 .f32) (h10 : a10.IsWhole) (a11 : Memref sig .tc .vmem S64x64 .f32) (h11 : a11.IsWhole) (a12 : Memref sig .tc .vmem S16x64 .f32) (h12 : a12.IsWhole) (a13 : Memref sig .tc .vmem S400x64 .f32) (h13 : a13.IsWhole) (a14 : Memref sig .tc .vmem S4x64 .f32) (h14 : a14.IsWhole) (a15 : Memref sig .tc .vmem S64x64 .f32) (h15 : a15.IsWhole) (a16 : Memref sig .tc .vmem S1x64 .f32) (h16 : a16.IsWhole) (a17 : Memref sig .tc .vmem S1x64 .f32) (h17 : a17.IsWhole) (a18 : Memref sig .tc .vmem S2048x64 .f32) (h18 : a18.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18
        ∗ (iprop(ptE (F := F) c a1 ∗ ptE (F := F) c a2 ∗ ptE (F := F) c a3 ∗ ptE (F := F) c a4 ∗ ptE (F := F) c a5 ∗ ptE (F := F) c a6 ∗ ptE (F := F) c a7 ∗ ptE (F := F) c a8 ∗ ptE (F := F) c a9 ∗ ptE (F := F) c a10 ∗ ptE (F := F) c a11 ∗ ptE (F := F) c a12 ∗ ptE (F := F) c a13 ∗ ptE (F := F) c a14 ∗ ptE (F := F) c a15 ∗ ptE (F := F) c a16 ∗ ptE (F := F) c a17 ∗ ptE (F := F) c a18) -∗ Q ⟨⟩))
      ⊢ wp frame (wpE (defs₀ (F := F)) 𝒱₀ (c : Thread nD τ) none) Set.univ (cc2__tc_body i a1 h1 a2 h2 a3 h3 a4 h4 a5 h5 a6 h6 a7 h7 a8 h8 a9 h9 a10 h10 a11 h11 a12 h12 a13 h13 a14 h14 a15 h15 a16 h16 a17 h17 a18 h18) Q := by
  iintro ⟨H1, H2, H3, H4, H5, H6, H7, H8, H9, H10, H11, H12, H13, H14, H15, H16, H17, H18, Hk⟩
  sl_unfold [cc2__tc_body]
  sl_exec
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.RegionB

end
-- ==== Proof.KRegionProject.lean ====
/-
  The second TensorCore region (the sum, a block of 2048 rows at a time) inside @main of the whole program: its
  proof data (nothing said of what the body leaves), its body obligation, the region as a segment over the thread state
  "every unscoped buffer whole at a valuation", and its step under the program's full body table.
-/
import proofs.«211833_g48473000902786_cont_8to1_c_597_31_alg».proof.Proof.KRegionBody2
import proofs.«211833_g48473000902786_cont_8to1_c_597_31_alg».proof.Proof.Gen.Kernel.Points
import Idealize.ShloMosaic.Lib.Pipeline.Regions
import Idealize.ShloMosaic.Lib.StableHlo.Run

noncomputable section

namespace Cert.Proof.RegionB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

section Region2

variable (W : Valuation τ sig (Elt F))

/-! ## The windows' arrays -/

/-- The distinct buffers behind the windows' arrays, -/
abbrev arrs2 : Finset (DevRef τ sig) := {(Proc.devRef .tc (main_v9_0 : Ref sig .tc) : DevRef τ sig), (Proc.devRef .tc (main_v9_1 : Ref sig .tc) : DevRef τ sig), (Proc.devRef .tc (main_v9_2 : Ref sig .tc) : DevRef τ sig), (Proc.devRef .tc (main_v13 : Ref sig .tc) : DevRef τ sig), (Proc.devRef .tc (main_v14 : Ref sig .tc) : DevRef τ sig), (Proc.devRef .tc (main_v15 : Ref sig .tc) : DevRef τ sig), (Proc.devRef .tc (main_v16 : Ref sig .tc) : DevRef τ sig), (Proc.devRef .tc (main_v17 : Ref sig .tc) : DevRef τ sig), (Proc.devRef .tc (main_arg17 : Ref sig .tc) : DevRef τ sig), (Proc.devRef .tc (main_v12_0 : Ref sig .tc) : DevRef τ sig), (Proc.devRef .tc (main_v12_1 : Ref sig .tc) : DevRef τ sig), (Proc.devRef .tc (main_v12_2 : Ref sig .tc) : DevRef τ sig), (Proc.devRef .tc (main_v12_3 : Ref sig .tc) : DevRef τ sig), (Proc.devRef .tc (main_v12_4 : Ref sig .tc) : DevRef τ sig), (Proc.devRef .tc (main_v12_5 : Ref sig .tc) : DevRef τ sig), (Proc.devRef .tc (main_v18 : Ref sig .tc) : DevRef τ sig)}
/-- and the results among them. -/
abbrev outs2 : Finset (DevRef τ sig) := {(Proc.devRef .tc (main_v18 : Ref sig .tc) : DevRef τ sig)}

theorem arrs2_sub : arrs2 ⊆ Pipeline.ucRefs τ sig := fun b hb => by
  unfold arrs2 at hb
  simp only [Finset.mem_insert, Finset.mem_singleton] at hb
  rcases hb with rfl | rfl | rfl | rfl | rfl | rfl | rfl | rfl | rfl | rfl | rfl | rfl | rfl | rfl | rfl | rfl <;> exact mem_uc _ (by decide)

theorem outs2_sub : outs2 ⊆ arrs2 := by decide

theorem held_arrs2 (d : Dev nD) (W : Valuation τ sig (Elt F)) :
    (StableHlo.held (T d) arrs2 W : sProp 𝕄) = iprop(pr d W fullShare main_v9_0 ∗ pr d W fullShare main_v9_1 ∗ pr d W fullShare main_v9_2 ∗ pr d W fullShare main_v13 ∗ pr d W fullShare main_v14 ∗ pr d W fullShare main_v15 ∗ pr d W fullShare main_v16 ∗ pr d W fullShare main_v17 ∗ pr d W fullShare main_arg17 ∗ pr d W fullShare main_v12_0 ∗ pr d W fullShare main_v12_1 ∗ pr d W fullShare main_v12_2 ∗ pr d W fullShare main_v12_3 ∗ pr d W fullShare main_v12_4 ∗ pr d W fullShare main_v12_5 ∗ pr d W fullShare main_v18) := by
  unfold StableHlo.held arrs2
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The share each window holds its array at: the full share, but for the windows on one array, which hold it at
    disjoint shares composing to the full one. -/
def q2 : Fin 18 → PosShare TreeShare := fun
  | 8 => Transfers.shareDrop fullShare 2
  | 9 => Transfers.shareTokN fullShare 0
  | 10 => Transfers.shareTokN fullShare 1
  | _ => fullShare

/-! ## The proof data: nothing is said of what the body leaves in a buffer -/

/-- The invariant between the region's ends: the scoped buffers the pipeline does not stage. -/
abbrev Φc2 (d : Dev nD) : sProp 𝕄 := Pipeline.scopedRest (Ix := HIx 1) (Name := ℕ) (U := UU) (Lvl := ℕ) (Val := Elt F) spec2 d

def rdat2 (d : Dev nD) : RDat τ (Elt F) (HIx 1) ℕ UU ℕ cfg2 d where
  A w := W (Pipeline.arrRef spec2 w)
  after _ _ _ _ := True
  Φ _ := Φc2 d
  q w := q2 w
  owed _ := 0
  recorded _ := {p | (K (F := F)).lev ((T d), p.1) p.2 ≤ 8 * 1}

/-- The other pipeline's proof data, which this region's entry does not read: its arrays at the valuation, nothing else. -/
def rdatO2 (d : Dev nD) : RDat τ (Elt F) (HIx 1) ℕ UU ℕ cfg1 d where
  A w := W (Pipeline.arrRef spec1 w)
  after _ _ _ _ := True
  Φ _ := BI.emp
  q _ := fullShare
  owed _ := 0

/-- The proof data family, a literal match on the pipeline. -/
def rdats2 : (p : Fin 2) → (c : Dev nD) → RDat τ (Elt F) (HIx 1) ℕ UU ℕ (Pipeline.pin (pcfgs (F := F)) adm p) c
  | ⟨1, _⟩ => fun c => rdat2 W c
  | ⟨0, _⟩ => fun c => rdatO2 W c

theorem share2 (d : Dev nD) (w : Fin 18) : (rdat2 W d).share w = q2 w := by
  fin_cases w <;> rfl

theorem arrays2_eq (d : Dev nD) (Fs : (w : Fin 18) → Buf (Elt F) ((cfg2.win w).arr.view.loc (d : Thread nD τ))) :
    ((rdat2 W d).arrays Fs : sProp 𝕄)
      = bigSep Finset.univ fun w => (((d : Thread nD τ).loc (Pipeline.arrRef spec2 w)) ↦{q2 w} Fs w : sProp 𝕄) := by
  have harr : ∀ w, (cfg2.win w).arr.IsWhole := arr_whole2
  unfold RDat.arrays
  exact bigSep_congr fun w _ => by rw [(harr w).set_eq_univ, share2]

theorem arraysAt2_eq (d : Dev nD) (k : ℕ) :
    ((rdat2 W d).arraysAt k : sProp 𝕄)
      = bigSep Finset.univ fun w => iprop(∃ Fw, ⌜(rdat2 W d).ArrAt w k Fw⌝ ∗ (((d : Thread nD τ).loc (Pipeline.arrRef spec2 w)) ↦{q2 w} Fw : sProp 𝕄)) := by
  have harr : ∀ w, (cfg2.win w).arr.IsWhole := arr_whole2
  unfold RDat.arraysAt
  exact bigSep_congr fun w _ => by rw [(harr w).set_eq_univ, share2]

/-- ENTRY: the buffers behind the arrays, whole at the valuation, are the windows' arrays at the entry contents. -/
theorem arrays2_entry (d : Dev nD) : (StableHlo.held (T d) arrs2 W : sProp 𝕄) ⊢ (rdat2 W d).arrays (rdat2 W d).A := by
  rw [held_arrs2, arrays2_eq, bigSep_W2]
  iintro ⟨H0, H1, H2, H3, H4, H5, H6, H7, H8, H9, H10, H11, H12, H13, H14, H15⟩
  ihave Hs8 := (pt_split2 (F := F)).1 $$ H8
  icases Hs8 with ⟨S8_0, S8_1, S8_2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S8_0]; · iexact S8_0
  isplitl [S8_1]; · iexact S8_1
  isplitl [S8_2]; · iexact S8_2
  isplitl [H9]; · iexact H9
  isplitl [H10]; · iexact H10
  isplitl [H11]; · iexact H11
  isplitl [H12]; · iexact H12
  isplitl [H13]; · iexact H13
  isplitl [H14]; · iexact H14
  iexact H15

/-- A valuation that takes given contents at the results and agrees with `W` elsewhere. -/
theorem upd_facts2 (G0 : (Proc.devRef .tc (main_v18 : Ref sig .tc) : DevRef τ sig).ty.Contents (Elt F)) :
    ∃ W' : Valuation τ sig (Elt F), (∀ b, b ∉ outs2 → W' b = W b) ∧ W' (Proc.devRef .tc (main_v18 : Ref sig .tc) : DevRef τ sig) = G0 := by
  refine ⟨(Function.update W (Proc.devRef .tc (main_v18 : Ref sig .tc) : DevRef τ sig) G0), ?_, ?_⟩
  · intro b hb
    unfold outs2 at hb
    simp only [Finset.mem_insert, Finset.mem_singleton, not_or] at hb
    rw [Function.update_of_ne hb]
  · rw [Function.update_self]

set_option maxHeartbeats 4000000 in
/-- EXIT: the windows' arrays after every write-back are those buffers whole at a valuation that differs from the
    entry's at the results only. -/
theorem arrays2_exit (d : Dev nD) (k : ℕ) : ((rdat2 W d).arraysAt k : sProp 𝕄)
    ⊢ iprop(∃ W' : Valuation τ sig (Elt F), ⌜∀ b, b ∉ outs2 → W' b = W b⌝ ∗ StableHlo.held (T d) arrs2 W') := by
  rw [arraysAt2_eq, bigSep_W2]
  iintro ⟨⟨%F0, %h0, A0⟩, ⟨%F1, %h1, A1⟩, ⟨%F2, %h2, A2⟩, ⟨%F3, %h3, A3⟩, ⟨%F4, %h4, A4⟩, ⟨%F5, %h5, A5⟩, ⟨%F6, %h6, A6⟩, ⟨%F7, %h7, A7⟩, ⟨%F8, %h8, A8⟩, ⟨%F9, %h9, A9⟩, ⟨%F10, %h10, A10⟩, ⟨%F11, %h11, A11⟩, ⟨%F12, %h12, A12⟩, ⟨%F13, %h13, A13⟩, ⟨%F14, %h14, A14⟩, ⟨%F15, %h15, A15⟩, ⟨%F16, %h16, A16⟩, ⟨%F17, -, A17⟩⟩
  rw [(rdat2 W d).ArrAt_in 0 rfl] at h0; subst h0
  rw [(rdat2 W d).ArrAt_in 1 rfl] at h1; subst h1
  rw [(rdat2 W d).ArrAt_in 2 rfl] at h2; subst h2
  rw [(rdat2 W d).ArrAt_in 3 rfl] at h3; subst h3
  rw [(rdat2 W d).ArrAt_in 4 rfl] at h4; subst h4
  rw [(rdat2 W d).ArrAt_in 5 rfl] at h5; subst h5
  rw [(rdat2 W d).ArrAt_in 6 rfl] at h6; subst h6
  rw [(rdat2 W d).ArrAt_in 7 rfl] at h7; subst h7
  rw [(rdat2 W d).ArrAt_in 8 rfl] at h8; subst h8
  rw [(rdat2 W d).ArrAt_in 9 rfl] at h9; subst h9
  rw [(rdat2 W d).ArrAt_in 10 rfl] at h10; subst h10
  rw [(rdat2 W d).ArrAt_in 11 rfl] at h11; subst h11
  rw [(rdat2 W d).ArrAt_in 12 rfl] at h12; subst h12
  rw [(rdat2 W d).ArrAt_in 13 rfl] at h13; subst h13
  rw [(rdat2 W d).ArrAt_in 14 rfl] at h14; subst h14
  rw [(rdat2 W d).ArrAt_in 15 rfl] at h15; subst h15
  rw [(rdat2 W d).ArrAt_in 16 rfl] at h16; subst h16
  ihave J8 := (pt_split2 (F := F)).2 $$ [A8 A9 A10]
  · isplitl [A8]; · iexact A8
    isplitl [A9]; · iexact A9
    iexact A10
  obtain ⟨W', hoff, e0⟩ := upd_facts2 W F17
  iexists W'
  isplitr; · ipureintro; exact hoff
  rw [held_arrs2]
  dsimp only [pr]
  rw [hoff (Proc.devRef .tc (main_v9_0 : Ref sig .tc) : DevRef τ sig) (by decide),
    hoff (Proc.devRef .tc (main_v9_1 : Ref sig .tc) : DevRef τ sig) (by decide),
    hoff (Proc.devRef .tc (main_v9_2 : Ref sig .tc) : DevRef τ sig) (by decide),
    hoff (Proc.devRef .tc (main_v13 : Ref sig .tc) : DevRef τ sig) (by decide),
    hoff (Proc.devRef .tc (main_v14 : Ref sig .tc) : DevRef τ sig) (by decide),
    hoff (Proc.devRef .tc (main_v15 : Ref sig .tc) : DevRef τ sig) (by decide),
    hoff (Proc.devRef .tc (main_v16 : Ref sig .tc) : DevRef τ sig) (by decide),
    hoff (Proc.devRef .tc (main_v17 : Ref sig .tc) : DevRef τ sig) (by decide),
    hoff (Proc.devRef .tc (main_arg17 : Ref sig .tc) : DevRef τ sig) (by decide),
    hoff (Proc.devRef .tc (main_v12_0 : Ref sig .tc) : DevRef τ sig) (by decide),
    hoff (Proc.devRef .tc (main_v12_1 : Ref sig .tc) : DevRef τ sig) (by decide),
    hoff (Proc.devRef .tc (main_v12_2 : Ref sig .tc) : DevRef τ sig) (by decide),
    hoff (Proc.devRef .tc (main_v12_3 : Ref sig .tc) : DevRef τ sig) (by decide),
    hoff (Proc.devRef .tc (main_v12_4 : Ref sig .tc) : DevRef τ sig) (by decide),
    hoff (Proc.devRef .tc (main_v12_5 : Ref sig .tc) : DevRef τ sig) (by decide),
    e0]
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [J8]; · iexact J8
  isplitl [A11]; · iexact A11
  isplitl [A12]; · iexact A12
  isplitl [A13]; · iexact A13
  isplitl [A14]; · iexact A14
  isplitl [A15]; · iexact A15
  isplitl [A16]; · iexact A16
  iexact A17

end Region2

section Seg2

variable (W : Valuation τ sig (Elt F))

/-! ## The body obligation -/

set_option maxHeartbeats 2000000 in
theorem body_obligation2 (d : Dev nD) : (rdat2 W d).BodyObligation (defs₀ (F := F)) 𝒱₀ (none : HIx 1) Set.univ := fun t Y _ => by
  rw [bigSep_W2, bigSep_W2]
  rw [show (rdat2 W d).Φ t.castSucc = Φc2 d from rfl, show (rdat2 W d).Φ t.succ = Φc2 d from rfl,
    show (rdat2 W d).owesAt (none : HIx 1) t.succ = (rdat2 W d).owesAt (none : HIx 1) t.castSucc from rfl]
  show _ ⊢ wp frame (wpE (defs₀ (F := F)) 𝒱₀ (d : Thread nD τ) none) Set.univ (bodyAt2 t) _
  unfold owns
  iintro ⟨HΦ, HO, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩, ⟨%f10, -, H10⟩, ⟨%f11, -, H11⟩, ⟨%f12, -, H12⟩, ⟨%f13, -, H13⟩, ⟨%f14, -, H14⟩, ⟨%f15, -, H15⟩, ⟨%f16, -, H16⟩, ⟨%f17, -, H17⟩⟩
  iapply (run2 (F := F) d _ _ _ _ _ _ _ _ _ _ _ _ _ _ _ _ _ _ _ _ _ _ _ _ _ _ _ _ _ _ _ _ _ _ _ _ _ f0 f1 f2 f3 f4 f5 f6 f7 f8 f9 f10 f11 f12 f13 f14 f15 f16 f17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩, ⟨%g12, G12⟩, ⟨%g13, G13⟩, ⟨%g14, G14⟩, ⟨%g15, G15⟩, ⟨%g16, G16⟩, ⟨%g17, G17⟩⟩
  isplitl [HΦ]; · iexact HΦ
  isplitl [HO]; · iexact HO
  isplitl [G0]
  · iexists ((st2_0 t).view.read (Elt F) g0); isplitr; · ipureintro; trivial
    iexists g0; isplitr; · ipureintro; rfl
    iexact G0
  isplitl [G1]
  · iexists ((st2_1 t).view.read (Elt F) g1); isplitr; · ipureintro; trivial
    iexists g1; isplitr; · ipureintro; rfl
    iexact G1
  isplitl [G2]
  · iexists ((st2_2 t).view.read (Elt F) g2); isplitr; · ipureintro; trivial
    iexists g2; isplitr; · ipureintro; rfl
    iexact G2
  isplitl [G3]
  · iexists ((st2_3 t).view.read (Elt F) g3); isplitr; · ipureintro; trivial
    iexists g3; isplitr; · ipureintro; rfl
    iexact G3
  isplitl [G4]
  · iexists ((st2_4 t).view.read (Elt F) g4); isplitr; · ipureintro; trivial
    iexists g4; isplitr; · ipureintro; rfl
    iexact G4
  isplitl [G5]
  · iexists ((st2_5 t).view.read (Elt F) g5); isplitr; · ipureintro; trivial
    iexists g5; isplitr; · ipureintro; rfl
    iexact G5
  isplitl [G6]
  · iexists ((st2_6 t).view.read (Elt F) g6); isplitr; · ipureintro; trivial
    iexists g6; isplitr; · ipureintro; rfl
    iexact G6
  isplitl [G7]
  · iexists ((st2_7 t).view.read (Elt F) g7); isplitr; · ipureintro; trivial
    iexists g7; isplitr; · ipureintro; rfl
    iexact G7
  isplitl [G8]
  · iexists ((st2_8 t).view.read (Elt F) g8); isplitr; · ipureintro; trivial
    iexists g8; isplitr; · ipureintro; rfl
    iexact G8
  isplitl [G9]
  · iexists ((st2_9 t).view.read (Elt F) g9); isplitr; · ipureintro; trivial
    iexists g9; isplitr; · ipureintro; rfl
    iexact G9
  isplitl [G10]
  · iexists ((st2_10 t).view.read (Elt F) g10); isplitr; · ipureintro; trivial
    iexists g10; isplitr; · ipureintro; rfl
    iexact G10
  isplitl [G11]
  · iexists ((st2_11 t).view.read (Elt F) g11); isplitr; · ipureintro; trivial
    iexists g11; isplitr; · ipureintro; rfl
    iexact G11
  isplitl [G12]
  · iexists ((st2_12 t).view.read (Elt F) g12); isplitr; · ipureintro; trivial
    iexists g12; isplitr; · ipureintro; rfl
    iexact G12
  isplitl [G13]
  · iexists ((st2_13 t).view.read (Elt F) g13); isplitr; · ipureintro; trivial
    iexists g13; isplitr; · ipureintro; rfl
    iexact G13
  isplitl [G14]
  · iexists ((st2_14 t).view.read (Elt F) g14); isplitr; · ipureintro; trivial
    iexists g14; isplitr; · ipureintro; rfl
    iexact G14
  isplitl [G15]
  · iexists ((st2_15 t).view.read (Elt F) g15); isplitr; · ipureintro; trivial
    iexists g15; isplitr; · ipureintro; rfl
    iexact G15
  isplitl [G16]
  · iexists ((st2_16 t).view.read (Elt F) g16); isplitr; · ipureintro; trivial
    iexists g16; isplitr; · ipureintro; rfl
    iexact G16
  iexists ((st2_17 t).view.read (Elt F) g17); isplitr; · ipureintro; trivial
  iexists g17; isplitr; · ipureintro; rfl
  iexact G17

/-! ## The region over the thread state -/

set_option backward.isDefEq.respectTransparency.types false in
/-- The region as a segment of @main: entered from every unscoped buffer of the TensorCore whole at `W` and the core
    owing nothing; left with them at a valuation that differs from `W` at the region's results only. Nothing enters
    the invariant but the scoped buffers the pipeline does not stage; the kernel has no semaphore of its own. -/
def reg2 : Pipeline.RDat.RegionSeg (pcfgs (F := F)) adm (rdats2 W) (none : HIx 1) defs₀ 𝒱₀ (K (F := F)).L (K (F := F)).lev 1 where
  win := winFacts₀2
  block_pos := block_pos2
  stage_whole := stage_whole2
  K := PEmpty
  osem k := k.elim
  ho := Pipeline.OwnSemFacts.none _
  hbody d := body_obligation2 W d
  hwaits := Pipeline.RDat.hwaits_of_owed_zero _ _ _ _ _ _ 1 fun _ _ => rfl
  pre d := iprop(StableHlo.held (T d) (Pipeline.ucRefs τ sig) W ∗ owesT (F := F) d)
  post d := iprop(∃ W' : Valuation τ sig (Elt F), ⌜∀ b, b ∉ outs2 → W' b = W b⌝ ∗ StableHlo.held (T d) (Pipeline.ucRefs τ sig) W' ∗ owesT (F := F) d)
  X _ := BI.emp
  Y _ := BI.emp
  Z d := StableHlo.held (T d) (Pipeline.ucRefs τ sig \ arrs2) W
  hentry d := by
    rw [Pipeline.ownSems0_none, StableHlo.held_sub_split (T d) arrs2_sub W]
    iintro ⟨⟨⟨Ha, Hrest⟩, HO⟩, -, -⟩
    imodintro
    isplitl [Ha]; · iapply (arrays2_entry W d); iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%Wt, %hWt, HO⟩; iexists Wt; isplitr
      · ipureintro; exact fun q hq => Or.inl (hWt q (Finset.mem_coe.mp hq))
      iexact HO
    isplitr; · iempintro
    iexact Hrest
  hin d := by
    rw [show (rdats2 W 1 d).Φ 0 = Φc2 d from rfl]
    iintro ⟨-, -, Hr⟩; iexact Hr
  hout d := by
    rw [Pipeline.ownSems0_none, show (rdats2 W 1 d).Φ (Fin.last _) = Φc2 d from rfl]
    iintro Hr
    isplitr; · iempintro
    isplitr; · iempintro
    iexact Hr
  hexit d := by
    have hx : ((rdats2 W 1 d).arraysAt (Pipeline.pin (pcfgs (F := F)) adm 1).N : sProp 𝕄)
        ⊢ iprop(∃ W' : Valuation τ sig (Elt F), ⌜∀ b, b ∉ outs2 → W' b = W b⌝ ∗ StableHlo.held (T d) arrs2 W') := arrays2_exit W d _
    iintro ⟨Ha, HO, -, Hrest⟩
    ihave Ha' := hx $$ Ha
    icases Ha' with ⟨%W', %hW', Ha⟩
    imodintro
    iexists W'
    isplitr; · ipureintro; exact hW'
    isplitl [Ha Hrest]
    · rw [StableHlo.held_sub_split (T d) arrs2_sub W',
        StableHlo.held_congr (T d) (V := W') (V' := W) fun b hb => hW' b fun h => (Finset.mem_sdiff.mp hb).2 (outs2_sub h)]
      isplitl [Ha] <;> iassumption
    unfold RDat.owesAt Pipeline.owesWithin
    icases HO with ⟨%Wt, %hWt, HO⟩; iexists Wt; isplitr
    · ipureintro; intro q hq
      rcases hWt (Finset.mem_coe.mpr hq) with h | ⟨w, s, rfl⟩
      · exact h
      · exact Nat.zero_le _
    iexact HO

/-! ## The region's step inside @main of the whole program -/

/-- The region's call in the whole program's labels is the call in the pipelines' labels, lifted. -/
theorem entry_lift1 :
    (Prog.lift (.customCall (SparseCore.inner (Pipeline.entry 1)) ()) : Prog (TpuEff nD τ sig (Elt F) (SparseCore.Sig (ΛP (F := F)) 1) .tc) PUnit)
      = SparseCore.liftProg (Prog.lift (.customCall (Pipeline.entry 1) ())) := rfl

/-- What the region's step leaves: the TensorCore's state, the boundary, the buffers at a valuation that differs from
    `W` at the region's results only. -/
abbrev postR2 (d : Dev nD) : PUnit → sProp 𝕄 := fun _ =>
  iprop(∃ W' : Valuation τ sig (Elt F), ⌜∀ b, b ∉ outs2 → W' b = W b⌝
    ∗ (K (F := F)).tcSt EH d 1 ∗ boundary (T d) ∗ StableHlo.held (T d) (Pipeline.ucRefs τ sig) W')

set_option backward.isDefEq.respectTransparency.types false in
/-- Region 1 on device `d`'s TensorCore, after the SparseCore call: from the handshakes' records, the TensorCore's
    state after the call, the region boundary, every unscoped buffer whole at `W` and the region's staging cells' ghost
    state, the region's call runs to the same with the buffers at a valuation that differs from `W` at its results only. -/
theorem region_wp1 (P : (K (F := F)).Pay (nD := nD) (Val := Elt F) (Name := ℕ) (U := UU)) (κ : GSem nD τ sig → ℕ) (d : Dev nD)
    [∀ e, Nonempty (Elt F e)] :
    iprop((K (F := F)).ctx EH P κ ∗ (K (F := F)).tcSt EH d 1 ∗ boundary (T d) ∗ StableHlo.held (T d) (Pipeline.ucRefs τ sig) W ∗ Gp (F := F) 1 d)
      ⊢ wp frame (wpE ((K (F := F)).defs (D (F := F))) 𝒱 (T d) none) Set.univ
          (Prog.lift (.customCall (SparseCore.inner (Pipeline.entry 1)) ()))
          (postR2 W d) := by
  rw [entry_lift1]
  refine BIBase.Entails.trans ?_ ((K (F := F)).wp_liftProg (D (F := F)) 𝒱 (T d) Set.univ none
    (Prog.lift (.customCall (Pipeline.entry 1) ())) (postR2 W d))
  unfold postR2 SparseCore.Cfg.tcSt Gp
  rw [(K (F := F)).Otc_end d (le_refl 1)]
  iintro ⟨#Hctx, ⟨HO, Hst⟩, Hb, Hheld, Hg, Ht⟩
  ihave #Hla := (SparseCore.Cfg.ctx_levAts κ) $$ Hctx
  iapply (Pipeline.RDat.RegionSeg.wp (pcfgs (F := F)) adm (rdats2 W) (none : HIx 1) phinj EP defs₀ 𝒱₀ (K (F := F)).L (K (F := F)).lev
    (reg2 W) d none (fun u h => nomatch h) (fun x => .ret x) _)
  rw [show (reg2 W).pre d = iprop(StableHlo.held (T d) (Pipeline.ucRefs τ sig) W ∗ owesT (F := F) d) from rfl,
    show (reg2 W).post d = iprop(∃ W' : Valuation τ sig (Elt F), ⌜∀ b, b ∉ outs2 → W' b = W b⌝
      ∗ StableHlo.held (T d) (Pipeline.ucRefs τ sig) W' ∗ owesT (F := F) d) from rfl]
  isplitl [Hst]
  · iintro ⟨Hb, %W', %hW', Hheld, HO⟩
    rw [wp_ret]; imodintro
    iexists W'
    isplitr; · ipureintro; exact hW'
    isplitl [HO Hst]; · isplitl [HO] <;> iassumption
    isplitl [Hb] <;> iassumption
  isplitl [Hb]; · iexact Hb
  isplitl [Hheld HO]; · isplitl [Hheld] <;> iassumption
  isplitr; · iexact Hla
  isplitl [Hg] <;> iassumption

end Seg2

end Cert.Proof.RegionB

end
-- ==== Proof.KLaunchRun.lean ====
/-
  The launch assembled with the vector subcores' task and the two TensorCore regions' steps: the program's run, and
  the frame it gives under the precondition.
-/
import proofs.«211833_g48473000902786_cont_8to1_c_597_31_alg».proof.Proof.KLaunchMain
import proofs.«211833_g48473000902786_cont_8to1_c_597_31_alg».proof.Proof.KTaskObl
import proofs.«211833_g48473000902786_cont_8to1_c_597_31_alg».proof.Proof.KRegionPre
import proofs.«211833_g48473000902786_cont_8to1_c_597_31_alg».proof.Proof.KRegionProject

noncomputable section

namespace Cert.Proof.KB

open Cert.Kernel Cert.Kernel.Gen
open Cert.Proof.RegionB (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

/-- No region writes an argument array. -/
theorem args_not_outs1 : ∀ b ∈ args19, b ∉ Cert.Proof.RegionB.outs1 := by decide
theorem args_not_outs2 : ∀ b ∈ args19, b ∉ Cert.Proof.RegionB.outs2 := by decide

/-- The program runs to its end and every argument array ends at its launch contents, given the vector subcores' task. -/
theorem run [∀ e, Nonempty (Elt F e)] (m : (ℓ : Loc nD τ sig) → Buf (Elt F) ℓ) (ρ : Dev nD → PrngReg)
    (htile : (K (F := F)).TileObl (D (F := F)) 𝒱 (P (Wc m)) v₀ 0) :
    θ_run (Cert.Kernel.defs (F := F)) (Cert.Kernel.threads (F := F)) ⟨m, fun _ => 0, ρ⟩ (QC m) :=
  run_main m ρ htile Cert.Proof.RegionB.outs1 Cert.Proof.RegionB.outs2 args_not_outs1 args_not_outs2
    (fun W κ d => Cert.Proof.RegionB.region_wp0 W (P (Wc m)) κ d) (fun W κ d => Cert.Proof.RegionB.region_wp1 W (P (Wc m)) κ d)

/-- The same from the domain function being one at the launch memory: the index words then name table rows, which is
    what the vector subcores' task asks. -/
theorem frame_of_pre [∀ e, Nonempty (Elt F e)] (m : (ℓ : Loc nD τ sig) → Buf (Elt F) ℓ) (ρ : Dev nD → PrngReg)
    (h : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) = (fun _ => 1#1)) :
    θ_run (Cert.Kernel.defs (F := F)) (Cert.Kernel.threads (F := F)) ⟨m, fun _ => 0, ρ⟩ (QC m) :=
  run m ρ (tileObl (Wc m) facts (preOK_of_fn m h))

end Cert.Proof.KB

namespace Cert.Proof.KB

open Cert.Kernel Idealize.ShloMosaic Idealize.SL.Sem

/-- The program's frame under its precondition. -/
theorem frame : Cert.frame_Kernel := fun m ρ hpre =>
  (θ_run Cert.Kernel.defs _ _).mono (fun _ h c => h c) (frame_of_pre (F := Bits) m ρ hpre)

end Cert.Proof.KB

end
-- ==== Proof.RefOps.lean ====
/-
  The reference program's @main as ONE straight line of host operations.

  @main calls seven private functions (one per embedding table: a row lookup, itself calling a
  one-operation select function) and then runs ten operations of its own.  A call executes the
  callee's body on the caller's buffers, so the whole program is the list of the callees' operations,
  written at each call's buffer record, followed by @main's own; `main_eq` says so, and the side
  conditions the run theorem of a straight line asks for (nothing scoped, every operation on
  TensorCore references) are computations over the signature.
-/
import proofs.«211833_g48473000902786_cont_8to1_c_597_31_alg».proof.ReferenceIdeal
import proofs.«211833_g48473000902786_cont_8to1_c_597_31_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The 171 operations of the reference in program order: for each of the seven lookups the
    twenty-three operations of the row lookup (index wrap: compare with zero, add the table height,
    select; the index as a column; the in-range mask: two comparisons, their conjunction, its
    reduction along the unit axis; the gather; the mask broadcast along the row; the fill value and
    its broadcast; the final select), then the numeric feature's projection (broadcast, product,
    bias), the concatenation of the eight blocks, the final product and bias. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 16#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 15#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg8) main_call0.v5 main_call0.v13 (fun x i => Host.gather gather_S16x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg9) main_call1.v5 main_call1.v13 (fun x i => Host.gather gather_S100000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    TRef.nullary main_call2.c (constantI S_ 32 0#32),
    TRef.unary main_call2.c main_call2.v0 (broadcastInDim S16384 ![] bcast_S_S16384),
    TRef.binary (.of main_arg2) main_call2.v0 main_call2.v1 (cmpi .slt),
    TRef.nullary main_call2.c_0 (constantI S_ 32 400#32),
    TRef.unary main_call2.c_0 main_call2.v2 (broadcastInDim S16384 ![] bcast_S_S16384),
    TRef.binary (.of main_arg2) main_call2.v2 main_call2.v3 addi,
    TRef.ternary main_call2.v1 main_call2.v3 (.of main_arg2) main_call2.call0.v0 select,
    TRef.unary main_call2.call0.v0 main_call2.v5 (broadcastInDim S16384x1 ![0] bcast_S16384_S16384x1_0),
    TRef.nullary main_call2.c_1 (constantI S1 32 399#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg10) main_call2.v5 main_call2.v13 (fun x i => Host.gather gather_S400x64_S16384x1_S16384x64_1_0_n_n_0_1_164 x i),
    TRef.unary main_call2.v12 main_call2.v14 (broadcastInDim S16384x64 ![0] bcast_S16384_S16384x64_0),
    TRef.nullary main_call2.cst (constant S_ .f32 0x7FC00000#32),
    TRef.unary main_call2.cst main_call2.v15 (broadcastInDim S16384x64 ![] bcast_S_S16384x64),
    TRef.ternary main_call2.v14 main_call2.v13 main_call2.v15 main_call2.v16 select,
    TRef.nullary main_call3.c (constantI S_ 32 0#32),
    TRef.unary main_call3.c main_call3.v0 (broadcastInDim S16384 ![] bcast_S_S16384),
    TRef.binary (.of main_arg3) main_call3.v0 main_call3.v1 (cmpi .slt),
    TRef.nullary main_call3.c_0 (constantI S_ 32 100000#32),
    TRef.unary main_call3.c_0 main_call3.v2 (broadcastInDim S16384 ![] bcast_S_S16384),
    TRef.binary (.of main_arg3) main_call3.v2 main_call3.v3 addi,
    TRef.ternary main_call3.v1 main_call3.v3 (.of main_arg3) main_call3.call0.v0 select,
    TRef.unary main_call3.call0.v0 main_call3.v5 (broadcastInDim S16384x1 ![0] bcast_S16384_S16384x1_0),
    TRef.nullary main_call3.c_1 (constantI S1 32 99999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg11) main_call3.v5 main_call3.v13 (fun x i => Host.gather gather_S100000x64_S16384x1_S16384x64_1_0_n_n_0_1_164 x i),
    TRef.unary main_call3.v12 main_call3.v14 (broadcastInDim S16384x64 ![0] bcast_S16384_S16384x64_0),
    TRef.nullary main_call3.cst (constant S_ .f32 0x7FC00000#32),
    TRef.unary main_call3.cst main_call3.v15 (broadcastInDim S16384x64 ![] bcast_S_S16384x64),
    TRef.ternary main_call3.v14 main_call3.v13 main_call3.v15 main_call3.v16 select,
    TRef.nullary main_call4.c (constantI S_ 32 0#32),
    TRef.unary main_call4.c main_call4.v0 (broadcastInDim S16384 ![] bcast_S_S16384),
    TRef.binary (.of main_arg4) main_call4.v0 main_call4.v1 (cmpi .slt),
    TRef.nullary main_call4.c_0 (constantI S_ 32 4#32),
    TRef.unary main_call4.c_0 main_call4.v2 (broadcastInDim S16384 ![] bcast_S_S16384),
    TRef.binary (.of main_arg4) main_call4.v2 main_call4.v3 addi,
    TRef.ternary main_call4.v1 main_call4.v3 (.of main_arg4) main_call4.call0.v0 select,
    TRef.unary main_call4.call0.v0 main_call4.v5 (broadcastInDim S16384x1 ![0] bcast_S16384_S16384x1_0),
    TRef.nullary main_call4.c_1 (constantI S1 32 3#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary (.of main_arg12) main_call4.v5 main_call4.v13 (fun x i => Host.gather gather_S4x64_S16384x1_S16384x64_1_0_n_n_0_1_164 x i),
    TRef.unary main_call4.v12 main_call4.v14 (broadcastInDim S16384x64 ![0] bcast_S16384_S16384x64_0),
    TRef.nullary main_call4.cst (constant S_ .f32 0x7FC00000#32),
    TRef.unary main_call4.cst main_call4.v15 (broadcastInDim S16384x64 ![] bcast_S_S16384x64),
    TRef.ternary main_call4.v14 main_call4.v13 main_call4.v15 main_call4.v16 select,
    TRef.nullary main_call5.c (constantI S_ 32 0#32),
    TRef.unary main_call5.c main_call5.v0 (broadcastInDim S16384 ![] bcast_S_S16384),
    TRef.binary (.of main_arg5) main_call5.v0 main_call5.v1 (cmpi .slt),
    TRef.nullary main_call5.c_0 (constantI S_ 32 64#32),
    TRef.unary main_call5.c_0 main_call5.v2 (broadcastInDim S16384 ![] bcast_S_S16384),
    TRef.binary (.of main_arg5) main_call5.v2 main_call5.v3 addi,
    TRef.ternary main_call5.v1 main_call5.v3 (.of main_arg5) main_call5.call0.v0 select,
    TRef.unary main_call5.call0.v0 main_call5.v5 (broadcastInDim S16384x1 ![0] bcast_S16384_S16384x1_0),
    TRef.nullary main_call5.c_1 (constantI S1 32 63#32),
    TRef.nullary main_call5.c_2 (constantI S_ 32 0#32),
    TRef.unary main_call5.c_2 main_call5.v6 (broadcastInDim S16384x1 ![] bcast_S_S16384x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16384x1 ![0, 1] bcast_S1x1_S16384x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16384x1_S16384_d1 h_S_),
    TRef.binary (.of main_arg13) main_call5.v5 main_call5.v13 (fun x i => Host.gather gather_S64x64_S16384x1_S16384x64_1_0_n_n_0_1_164 x i),
    TRef.unary main_call5.v12 main_call5.v14 (broadcastInDim S16384x64 ![0] bcast_S16384_S16384x64_0),
    TRef.nullary main_call5.cst (constant S_ .f32 0x7FC00000#32),
    TRef.unary main_call5.cst main_call5.v15 (broadcastInDim S16384x64 ![] bcast_S_S16384x64),
    TRef.ternary main_call5.v14 main_call5.v13 main_call5.v15 main_call5.v16 select,
    TRef.nullary main_call6.c (constantI S_ 32 0#32),
    TRef.unary main_call6.c main_call6.v0 (broadcastInDim S16384 ![] bcast_S_S16384),
    TRef.binary (.of main_arg6) main_call6.v0 main_call6.v1 (cmpi .slt),
    TRef.nullary main_call6.c_0 (constantI S_ 32 100000#32),
    TRef.unary main_call6.c_0 main_call6.v2 (broadcastInDim S16384 ![] bcast_S_S16384),
    TRef.binary (.of main_arg6) main_call6.v2 main_call6.v3 addi,
    TRef.ternary main_call6.v1 main_call6.v3 (.of main_arg6) main_call6.call0.v0 select,
    TRef.unary main_call6.call0.v0 main_call6.v5 (broadcastInDim S16384x1 ![0] bcast_S16384_S16384x1_0),
    TRef.nullary main_call6.c_1 (constantI S1 32 99999#32),
    TRef.nullary main_call6.c_2 (constantI S_ 32 0#32),
    TRef.unary main_call6.c_2 main_call6.v6 (broadcastInDim S16384x1 ![] bcast_S_S16384x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S16384x1 ![0, 1] bcast_S1x1_S16384x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x1_S16384_d1 h_S_),
    TRef.binary (.of main_arg14) main_call6.v5 main_call6.v13 (fun x i => Host.gather gather_S100000x64_S16384x1_S16384x64_1_0_n_n_0_1_164 x i),
    TRef.unary main_call6.v12 main_call6.v14 (broadcastInDim S16384x64 ![0] bcast_S16384_S16384x64_0),
    TRef.nullary main_call6.cst (constant S_ .f32 0x7FC00000#32),
    TRef.unary main_call6.cst main_call6.v15 (broadcastInDim S16384x64 ![] bcast_S_S16384x64),
    TRef.ternary main_call6.v14 main_call6.v13 main_call6.v15 main_call6.v16 select,
    unary main_arg7 main_v7 (broadcastInDim S16384x1 ![0] bcast_S16384_S16384x1_0 : (⟨S16384, .f32⟩ : BufTy).Contents (Elt F) → (⟨S16384x1, .f32⟩ : BufTy).Contents (Elt F)),
    binary main_v7 main_arg15 main_v8 ((fun l r => Host.dotGeneral dot_S16384x1_S1x64_S16384x64_1_0_0_1_n_n none l r) : (⟨S16384x1, .f32⟩ : BufTy).Contents (Elt F) → (⟨S1x64, .f32⟩ : BufTy).Contents (Elt F) → (⟨S16384x64, .f32⟩ : BufTy).Contents (Elt F)),
    unary main_arg16 main_v9 (broadcastInDim S1x64 ![1] bcast_S64_S1x64_1 : (⟨S64, .f32⟩ : BufTy).Contents (Elt F) → (⟨S1x64, .f32⟩ : BufTy).Contents (Elt F)),
    unary main_v9 main_v10 (broadcastInDim S16384x64 ![0, 1] bcast_S1x64_S16384x64_0_1 : (⟨S1x64, .f32⟩ : BufTy).Contents (Elt F) → (⟨S16384x64, .f32⟩ : BufTy).Contents (Elt F)),
    binary main_v8 main_v10 main_v11 (addf : (⟨S16384x64, .f32⟩ : BufTy).Contents (Elt F) → (⟨S16384x64, .f32⟩ : BufTy).Contents (Elt F) → (⟨S16384x64, .f32⟩ : BufTy).Contents (Elt F)),
    nary ![main_v0, main_v1, main_v2, main_v3, main_v4, main_v5, main_v6, main_v11] main_v12 (fun u => concatenate S16384x512 1 [⟨S16384x64, u 0⟩, ⟨S16384x64, u 1⟩, ⟨S16384x64, u 2⟩, ⟨S16384x64, u 3⟩, ⟨S16384x64, u 4⟩, ⟨S16384x64, u 5⟩, ⟨S16384x64, u 6⟩, ⟨S16384x64, u 7⟩] concatenates_S16384x64_S16384x64_S16384x64_S16384x64_S16384x64_S16384x64_S16384x64_S16384x64_S16384x512_d1),
    binary main_v12 main_arg17 main_v13 ((fun l r => Host.dotGeneral dot_S16384x512_S512x64_S16384x64_1_0_0_1_n_n none l r) : (⟨S16384x512, .f32⟩ : BufTy).Contents (Elt F) → (⟨S512x64, .f32⟩ : BufTy).Contents (Elt F) → (⟨S16384x64, .f32⟩ : BufTy).Contents (Elt F)),
    unary main_arg18 main_v14 (broadcastInDim S1x64 ![1] bcast_S64_S1x64_1 : (⟨S64, .f32⟩ : BufTy).Contents (Elt F) → (⟨S1x64, .f32⟩ : BufTy).Contents (Elt F)),
    unary main_v14 main_v15 (broadcastInDim S16384x64 ![0, 1] bcast_S1x64_S16384x64_0_1 : (⟨S1x64, .f32⟩ : BufTy).Contents (Elt F) → (⟨S16384x64, .f32⟩ : BufTy).Contents (Elt F)),
    binary main_v13 main_v15 main_v16 (addf : (⟨S16384x64, .f32⟩ : BufTy).Contents (Elt F) → (⟨S16384x64, .f32⟩ : BufTy).Contents (Elt F) → (⟨S16384x64, .f32⟩ : BufTy).Contents (Elt F)) ]

set_option maxRecDepth 16384 in
set_option maxHeartbeats 1600000 in
/-- @main is that straight line: each callee's definition unfolded at its call and each record at
    its fields, both sides are one chain of `hlo` steps once sequencing is re-associated. -/
theorem main_eq (c : Dev nD) : main (F := F) c = seq ops := by
  simp only [main, fn_take.body, fn_take_0.body, fn_take_1.body, fn_take_2.body, fn_take_3.body, fn_where.body,
    seq, bind_assoc, pure_bind]

set_option maxRecDepth 16384 in
theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub .., unary_bufs_sub .., unary_bufs_sub .., binary_bufs_sub .., nary_bufs_sub .., binary_bufs_sub ..,
    unary_bufs_sub .., unary_bufs_sub .., binary_bufs_sub ..⟩

end Cert.ReferenceIdeal.RefRun

end
-- ==== Proof.RefOut.lean ====
/-
  The reference's result as one pure term of its nineteen argument arrays.

  Each of the seven categorical features is a row lookup in its embedding table: a negative index is
  first shifted by the table's height, the shifted index is tested against `[0, height)`, the row is
  gathered (the gather clamps the index), and rows whose index failed the test are replaced by the
  fill value.  The numeric feature is the outer product of the frequency column with the `1 × 64`
  weight row plus its bias.  The eight `16384 × 64` blocks are concatenated along the feature axis
  into a `16384 × 512` array, which is multiplied by the `512 × 64` final weight and shifted by the
  final bias.
-/
import proofs.«211833_g48473000902786_cont_8to1_c_597_31_alg».proof.ReferenceIdeal
import proofs.«211833_g48473000902786_cont_8to1_c_597_31_alg».proof.Proof.Gen.ReferenceIdeal

noncomputable section

namespace Cert.ReferenceIdeal.RefRun

open Cert.ReferenceIdeal Cert.ReferenceIdeal.Facts₀ Idealize.ShloMosaic

variable {F : FTy → Type} [FloatOps F]

/-- The wrapped index of a lookup in a table of height `cV`: `idx + cV` where `idx < 0`, else `idx`. -/
def wrapIdx (cV : BitVec 32) (idx : IVec S16384 32) : IVec S16384 32 :=
  select (cmpi .slt idx (broadcastInDim S16384 ![] bcast_S_S16384 (constantI S_ 32 0#32)))
    (addi idx (broadcastInDim S16384 ![] bcast_S_S16384 (constantI S_ 32 cV))) idx

/-- The wrapped index as a `16384 × 1` column: the gather's start indices. -/
def idxCol (cV : BitVec 32) (idx : IVec S16384 32) : IVec S16384x1 32 :=
  broadcastInDim S16384x1 ![0] bcast_S16384_S16384x1_0 (wrapIdx cV idx)

/-- The in-range mask of a lookup: `0 ≤ w ∧ w ≤ cV1` for the wrapped index `w`, per position
    (the conjunction reduced along the column's unit axis). -/
def inRange (cV cV1 : BitVec 32) (idx : IVec S16384 32) : IVec S16384 1 :=
  (fun x v => Host.reduce IntOp.andi x v reducesTo_S16384x1_S16384_d1 h_S_)
    (andi (cmpi .sge (idxCol cV idx) (broadcastInDim S16384x1 ![] bcast_S_S16384x1 (constantI S_ 32 0#32)))
      (cmpi .sle (idxCol cV idx)
        (broadcastInDim S16384x1 ![0, 1] bcast_S1x1_S16384x1_0_1 (broadcastInDim S1x1 ![1] bcast_S1_S1x1_1 (constantI S1 32 cV1)))))
    (constantI S_ 1 1#1)

/-- One lookup: the gathered rows where the index is in range, the fill value elsewhere. -/
def takeT {T : Shape} (g : GatherDims T S16384x1 S16384x64) (cV cV1 : BitVec 32)
    (E : FVec F T .f32) (idx : IVec S16384 32) : FVec F S16384x64 .f32 :=
  select (broadcastInDim S16384x64 ![0] bcast_S16384_S16384x64_0 (inRange cV cV1 idx))
    ((fun x i => Host.gather g x i) E (idxCol cV idx))
    (broadcastInDim S16384x64 ![] bcast_S_S16384x64 (constant S_ .f32 0x7FC00000#32))

/-- The numeric feature's block: `freq[:, None] · W_num + b_num`. -/
def numT (a7 : FVec F S16384 .f32) (a15 : FVec F S1x64 .f32) (a16 : FVec F S64 .f32) : FVec F S16384x64 .f32 :=
  addf ((fun l r => Host.dotGeneral dot_S16384x1_S1x64_S16384x64_1_0_0_1_n_n none l r)
      (broadcastInDim S16384x1 ![0] bcast_S16384_S16384x1_0 a7) a15)
    (broadcastInDim S16384x64 ![0, 1] bcast_S1x64_S16384x64_0_1 (broadcastInDim S1x64 ![1] bcast_S64_S1x64_1 a16))

/-- The eight blocks side by side: the seven lookups in feature order, then the numeric block. -/
def catT (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) :
    FVec F S16384x512 .f32 :=
  concatenate S16384x512 1
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1

/-- The reference's result: `concat · W_final + b_final`. -/
def refOut (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32)
    (a17 : FVec F S512x64 .f32) (a18 : FVec F S64 .f32) : FVec F S16384x64 .f32 :=
  addf ((fun l r => Host.dotGeneral dot_S16384x512_S512x64_S16384x64_1_0_0_1_n_n none l r)
      (catT a0 a1 a2 a3 a4 a5 a6 a7 a8 a9 a10 a11 a12 a13 a14 a15 a16) a17)
    (broadcastInDim S16384x64 ![0, 1] bcast_S1x64_S16384x64_0_1 (broadcastInDim S1x64 ![1] bcast_S64_S1x64_1 a18))

end Cert.ReferenceIdeal.RefRun

end
-- ==== Proof.RefWin.lean ====
/-
  The reference's straight line cut into eight windows — one per lookup, then @main's own ten
  operations — and what each window does to the buffers.

  A window writes a known list of buffers, each once.  Read at a buffer outside that list, the window is
  the identity; read at its result buffer, a lookup window is the lookup's term of the two argument
  buffers it reads, and the last window is the final product over the eight blocks.  The whole line is
  the windows one after the other.
-/
import proofs.«211833_g48473000902786_cont_8to1_c_597_31_alg».proof.Proof.RefOps
import proofs.«211833_g48473000902786_cont_8to1_c_597_31_alg».proof.Proof.RefOut

noncomputable section

namespace Cert.ReferenceIdeal.RefRun

open Cert.ReferenceIdeal Cert.ReferenceIdeal.Facts₀ Idealize.ShloMosaic Idealize.ShloMosaic.TcCoe Idealize.SL.Sem Idealize.ShloMosaic.StableHlo

section Generic

variable {τ' : Topo} {sig' : RefSig} {Val : EltTy → Type}

/-- Two lines one after the other fold as the second over the first's fold. -/
theorem after_append (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- An operation whose one written buffer is in the list writes inside the list. -/
theorem sub_of_mem {W : List (Ref sig' .tc)} {y : Ref sig' .tc} (h : y ∈ W) :
    ({Proc.devRef .tc y} : Finset (DevRef τ' sig')) ⊆ (W.map (Proc.devRef (τ := τ') .tc)).toFinset :=
  Finset.singleton_subset_iff.2 (List.mem_toFinset.2 (List.mem_map_of_mem h))

variable {x0 x1 x2 x3 x4 x5 x6 x7 y : Ref sig' .tc}

/-- An operation over a LITERAL family of eight operand buffers (the concatenation of the eight
    blocks): its result with each operand's contents read at its own buffer. -/
theorem nary8_result
    (f : ((k : Fin 8) → ((![x0, x1, x2, x3, x4, x5, x6, x7] : Fin 8 → Ref sig' .tc) k).ty.Contents Val) → y.ty.Contents Val) (hxs hy)
    (G : Valuation τ' sig' Val) :
    (nary (τ := τ') ![x0, x1, x2, x3, x4, x5, x6, x7] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) := by
  rw [nary_result]; congr 1; funext k; fin_cases k <;> rfl

theorem nary8_result'
    (f : ((k : Fin 8) → ((![x0, x1, x2, x3, x4, x5, x6, x7] : Fin 8 → Ref sig' .tc) k).ty.Contents Val) → y.ty.Contents Val) (hxs hy)
    (G : Valuation τ' sig' Val) :
    (nary (τ := τ') ![x0, x1, x2, x3, x4, x5, x6, x7] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) :=
  nary8_result f hxs hy G

end Generic

/-- A window's fold read at one buffer, as one rewriting pass: each operation's result at its own buffer is its
    function's value, at any other buffer what was there (the two buffers told apart by computation). -/
macro "after_walk" : tactic =>
  `(tactic| (simp (disch := decide) only [after_cons, after_nil,
      nullary_result', unary_result', binary_result', ternary_result', nary8_result',
      nullary_result_ne', unary_result_ne', binary_result_ne', ternary_result_ne', nary_result_ne']))

variable {F : FTy → Type} [FloatOps F]

/-! ## The windows -/

/-- The twenty-three operations of lookup 0. -/
def w0 : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 16#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 15#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg8) main_call0.v5 main_call0.v13 (fun x i => Host.gather gather_S16x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

/-- The twenty-three operations of lookup 1. -/
def w1 : List (HloOp τ sig (Elt F)) :=
  [ TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg9) main_call1.v5 main_call1.v13 (fun x i => Host.gather gather_S100000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select ]

/-- The twenty-three operations of lookup 2. -/
def w2 : List (HloOp τ sig (Elt F)) :=
  [ TRef.nullary main_call2.c (constantI S_ 32 0#32),
    TRef.unary main_call2.c main_call2.v0 (broadcastInDim S16384 ![] bcast_S_S16384),
    TRef.binary (.of main_arg2) main_call2.v0 main_call2.v1 (cmpi .slt),
    TRef.nullary main_call2.c_0 (constantI S_ 32 400#32),
    TRef.unary main_call2.c_0 main_call2.v2 (broadcastInDim S16384 ![] bcast_S_S16384),
    TRef.binary (.of main_arg2) main_call2.v2 main_call2.v3 addi,
    TRef.ternary main_call2.v1 main_call2.v3 (.of main_arg2) main_call2.call0.v0 select,
    TRef.unary main_call2.call0.v0 main_call2.v5 (broadcastInDim S16384x1 ![0] bcast_S16384_S16384x1_0),
    TRef.nullary main_call2.c_1 (constantI S1 32 399#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg10) main_call2.v5 main_call2.v13 (fun x i => Host.gather gather_S400x64_S16384x1_S16384x64_1_0_n_n_0_1_164 x i),
    TRef.unary main_call2.v12 main_call2.v14 (broadcastInDim S16384x64 ![0] bcast_S16384_S16384x64_0),
    TRef.nullary main_call2.cst (constant S_ .f32 0x7FC00000#32),
    TRef.unary main_call2.cst main_call2.v15 (broadcastInDim S16384x64 ![] bcast_S_S16384x64),
    TRef.ternary main_call2.v14 main_call2.v13 main_call2.v15 main_call2.v16 select ]

/-- The twenty-three operations of lookup 3. -/
def w3 : List (HloOp τ sig (Elt F)) :=
  [ TRef.nullary main_call3.c (constantI S_ 32 0#32),
    TRef.unary main_call3.c main_call3.v0 (broadcastInDim S16384 ![] bcast_S_S16384),
    TRef.binary (.of main_arg3) main_call3.v0 main_call3.v1 (cmpi .slt),
    TRef.nullary main_call3.c_0 (constantI S_ 32 100000#32),
    TRef.unary main_call3.c_0 main_call3.v2 (broadcastInDim S16384 ![] bcast_S_S16384),
    TRef.binary (.of main_arg3) main_call3.v2 main_call3.v3 addi,
    TRef.ternary main_call3.v1 main_call3.v3 (.of main_arg3) main_call3.call0.v0 select,
    TRef.unary main_call3.call0.v0 main_call3.v5 (broadcastInDim S16384x1 ![0] bcast_S16384_S16384x1_0),
    TRef.nullary main_call3.c_1 (constantI S1 32 99999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg11) main_call3.v5 main_call3.v13 (fun x i => Host.gather gather_S100000x64_S16384x1_S16384x64_1_0_n_n_0_1_164 x i),
    TRef.unary main_call3.v12 main_call3.v14 (broadcastInDim S16384x64 ![0] bcast_S16384_S16384x64_0),
    TRef.nullary main_call3.cst (constant S_ .f32 0x7FC00000#32),
    TRef.unary main_call3.cst main_call3.v15 (broadcastInDim S16384x64 ![] bcast_S_S16384x64),
    TRef.ternary main_call3.v14 main_call3.v13 main_call3.v15 main_call3.v16 select ]

/-- The twenty-three operations of lookup 4. -/
def w4 : List (HloOp τ sig (Elt F)) :=
  [ TRef.nullary main_call4.c (constantI S_ 32 0#32),
    TRef.unary main_call4.c main_call4.v0 (broadcastInDim S16384 ![] bcast_S_S16384),
    TRef.binary (.of main_arg4) main_call4.v0 main_call4.v1 (cmpi .slt),
    TRef.nullary main_call4.c_0 (constantI S_ 32 4#32),
    TRef.unary main_call4.c_0 main_call4.v2 (broadcastInDim S16384 ![] bcast_S_S16384),
    TRef.binary (.of main_arg4) main_call4.v2 main_call4.v3 addi,
    TRef.ternary main_call4.v1 main_call4.v3 (.of main_arg4) main_call4.call0.v0 select,
    TRef.unary main_call4.call0.v0 main_call4.v5 (broadcastInDim S16384x1 ![0] bcast_S16384_S16384x1_0),
    TRef.nullary main_call4.c_1 (constantI S1 32 3#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary (.of main_arg12) main_call4.v5 main_call4.v13 (fun x i => Host.gather gather_S4x64_S16384x1_S16384x64_1_0_n_n_0_1_164 x i),
    TRef.unary main_call4.v12 main_call4.v14 (broadcastInDim S16384x64 ![0] bcast_S16384_S16384x64_0),
    TRef.nullary main_call4.cst (constant S_ .f32 0x7FC00000#32),
    TRef.unary main_call4.cst main_call4.v15 (broadcastInDim S16384x64 ![] bcast_S_S16384x64),
    TRef.ternary main_call4.v14 main_call4.v13 main_call4.v15 main_call4.v16 select ]

/-- The twenty-three operations of lookup 5. -/
def w5 : List (HloOp τ sig (Elt F)) :=
  [ TRef.nullary main_call5.c (constantI S_ 32 0#32),
    TRef.unary main_call5.c main_call5.v0 (broadcastInDim S16384 ![] bcast_S_S16384),
    TRef.binary (.of main_arg5) main_call5.v0 main_call5.v1 (cmpi .slt),
    TRef.nullary main_call5.c_0 (constantI S_ 32 64#32),
    TRef.unary main_call5.c_0 main_call5.v2 (broadcastInDim S16384 ![] bcast_S_S16384),
    TRef.binary (.of main_arg5) main_call5.v2 main_call5.v3 addi,
    TRef.ternary main_call5.v1 main_call5.v3 (.of main_arg5) main_call5.call0.v0 select,
    TRef.unary main_call5.call0.v0 main_call5.v5 (broadcastInDim S16384x1 ![0] bcast_S16384_S16384x1_0),
    TRef.nullary main_call5.c_1 (constantI S1 32 63#32),
    TRef.nullary main_call5.c_2 (constantI S_ 32 0#32),
    TRef.unary main_call5.c_2 main_call5.v6 (broadcastInDim S16384x1 ![] bcast_S_S16384x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16384x1 ![0, 1] bcast_S1x1_S16384x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16384x1_S16384_d1 h_S_),
    TRef.binary (.of main_arg13) main_call5.v5 main_call5.v13 (fun x i => Host.gather gather_S64x64_S16384x1_S16384x64_1_0_n_n_0_1_164 x i),
    TRef.unary main_call5.v12 main_call5.v14 (broadcastInDim S16384x64 ![0] bcast_S16384_S16384x64_0),
    TRef.nullary main_call5.cst (constant S_ .f32 0x7FC00000#32),
    TRef.unary main_call5.cst main_call5.v15 (broadcastInDim S16384x64 ![] bcast_S_S16384x64),
    TRef.ternary main_call5.v14 main_call5.v13 main_call5.v15 main_call5.v16 select ]

/-- The twenty-three operations of lookup 6. -/
def w6 : List (HloOp τ sig (Elt F)) :=
  [ TRef.nullary main_call6.c (constantI S_ 32 0#32),
    TRef.unary main_call6.c main_call6.v0 (broadcastInDim S16384 ![] bcast_S_S16384),
    TRef.binary (.of main_arg6) main_call6.v0 main_call6.v1 (cmpi .slt),
    TRef.nullary main_call6.c_0 (constantI S_ 32 100000#32),
    TRef.unary main_call6.c_0 main_call6.v2 (broadcastInDim S16384 ![] bcast_S_S16384),
    TRef.binary (.of main_arg6) main_call6.v2 main_call6.v3 addi,
    TRef.ternary main_call6.v1 main_call6.v3 (.of main_arg6) main_call6.call0.v0 select,
    TRef.unary main_call6.call0.v0 main_call6.v5 (broadcastInDim S16384x1 ![0] bcast_S16384_S16384x1_0),
    TRef.nullary main_call6.c_1 (constantI S1 32 99999#32),
    TRef.nullary main_call6.c_2 (constantI S_ 32 0#32),
    TRef.unary main_call6.c_2 main_call6.v6 (broadcastInDim S16384x1 ![] bcast_S_S16384x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S16384x1 ![0, 1] bcast_S1x1_S16384x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x1_S16384_d1 h_S_),
    TRef.binary (.of main_arg14) main_call6.v5 main_call6.v13 (fun x i => Host.gather gather_S100000x64_S16384x1_S16384x64_1_0_n_n_0_1_164 x i),
    TRef.unary main_call6.v12 main_call6.v14 (broadcastInDim S16384x64 ![0] bcast_S16384_S16384x64_0),
    TRef.nullary main_call6.cst (constant S_ .f32 0x7FC00000#32),
    TRef.unary main_call6.cst main_call6.v15 (broadcastInDim S16384x64 ![] bcast_S_S16384x64),
    TRef.ternary main_call6.v14 main_call6.v13 main_call6.v15 main_call6.v16 select ]

/-- @main's own ten operations. -/
def wm : List (HloOp τ sig (Elt F)) :=
  [ unary main_arg7 main_v7 (broadcastInDim S16384x1 ![0] bcast_S16384_S16384x1_0 : (⟨S16384, .f32⟩ : BufTy).Contents (Elt F) → (⟨S16384x1, .f32⟩ : BufTy).Contents (Elt F)),
    binary main_v7 main_arg15 main_v8 ((fun l r => Host.dotGeneral dot_S16384x1_S1x64_S16384x64_1_0_0_1_n_n none l r) : (⟨S16384x1, .f32⟩ : BufTy).Contents (Elt F) → (⟨S1x64, .f32⟩ : BufTy).Contents (Elt F) → (⟨S16384x64, .f32⟩ : BufTy).Contents (Elt F)),
    unary main_arg16 main_v9 (broadcastInDim S1x64 ![1] bcast_S64_S1x64_1 : (⟨S64, .f32⟩ : BufTy).Contents (Elt F) → (⟨S1x64, .f32⟩ : BufTy).Contents (Elt F)),
    unary main_v9 main_v10 (broadcastInDim S16384x64 ![0, 1] bcast_S1x64_S16384x64_0_1 : (⟨S1x64, .f32⟩ : BufTy).Contents (Elt F) → (⟨S16384x64, .f32⟩ : BufTy).Contents (Elt F)),
    binary main_v8 main_v10 main_v11 (addf : (⟨S16384x64, .f32⟩ : BufTy).Contents (Elt F) → (⟨S16384x64, .f32⟩ : BufTy).Contents (Elt F) → (⟨S16384x64, .f32⟩ : BufTy).Contents (Elt F)),
    nary ![main_v0, main_v1, main_v2, main_v3, main_v4, main_v5, main_v6, main_v11] main_v12 (fun u => concatenate S16384x512 1 [⟨S16384x64, u 0⟩, ⟨S16384x64, u 1⟩, ⟨S16384x64, u 2⟩, ⟨S16384x64, u 3⟩, ⟨S16384x64, u 4⟩, ⟨S16384x64, u 5⟩, ⟨S16384x64, u 6⟩, ⟨S16384x64, u 7⟩] concatenates_S16384x64_S16384x64_S16384x64_S16384x64_S16384x64_S16384x64_S16384x64_S16384x64_S16384x512_d1),
    binary main_v12 main_arg17 main_v13 ((fun l r => Host.dotGeneral dot_S16384x512_S512x64_S16384x64_1_0_0_1_n_n none l r) : (⟨S16384x512, .f32⟩ : BufTy).Contents (Elt F) → (⟨S512x64, .f32⟩ : BufTy).Contents (Elt F) → (⟨S16384x64, .f32⟩ : BufTy).Contents (Elt F)),
    unary main_arg18 main_v14 (broadcastInDim S1x64 ![1] bcast_S64_S1x64_1 : (⟨S64, .f32⟩ : BufTy).Contents (Elt F) → (⟨S1x64, .f32⟩ : BufTy).Contents (Elt F)),
    unary main_v14 main_v15 (broadcastInDim S16384x64 ![0, 1] bcast_S1x64_S16384x64_0_1 : (⟨S1x64, .f32⟩ : BufTy).Contents (Elt F) → (⟨S16384x64, .f32⟩ : BufTy).Contents (Elt F)),
    binary main_v13 main_v15 main_v16 (addf : (⟨S16384x64, .f32⟩ : BufTy).Contents (Elt F) → (⟨S16384x64, .f32⟩ : BufTy).Contents (Elt F) → (⟨S16384x64, .f32⟩ : BufTy).Contents (Elt F)) ]

set_option maxRecDepth 16384 in
/-- The line is the windows in order. -/
theorem ops_eq : (ops : List (HloOp τ sig (Elt F))) = w0 ++ w1 ++ w2 ++ w3 ++ w4 ++ w5 ++ w6 ++ wm := rfl

theorem after_ops (V : Valuation τ sig (Elt F)) :
    after ops V = after wm (after w6 (after w5 (after w4 (after w3 (after w2 (after w1 (after w0 V))))))) := by
  rw [ops_eq]; simp only [after_append]

/-! ## What each window writes, and that it leaves every other buffer -/

/-- The buffers window `w0` writes, in order. -/
def W0 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v0]

theorem hW0 : (w0 (F := F)).Forall fun op => op.writes ⊆ (W0.map (Proc.devRef (τ := τ) .tc)).toFinset :=
  ⟨sub_of_mem (y := main_call0_c) (by decide), sub_of_mem (y := main_call0_v0) (by decide), sub_of_mem (y := main_call0_v1) (by decide),
    sub_of_mem (y := main_call0_c_0) (by decide), sub_of_mem (y := main_call0_v2) (by decide), sub_of_mem (y := main_call0_v3) (by decide),
    sub_of_mem (y := main_call0_v4) (by decide), sub_of_mem (y := main_call0_v5) (by decide), sub_of_mem (y := main_call0_c_1) (by decide),
    sub_of_mem (y := main_call0_c_2) (by decide), sub_of_mem (y := main_call0_v6) (by decide), sub_of_mem (y := main_call0_v7) (by decide),
    sub_of_mem (y := main_call0_v8) (by decide), sub_of_mem (y := main_call0_v9) (by decide), sub_of_mem (y := main_call0_v10) (by decide),
    sub_of_mem (y := main_call0_v11) (by decide), sub_of_mem (y := main_call0_c_3) (by decide), sub_of_mem (y := main_call0_v12) (by decide),
    sub_of_mem (y := main_call0_v13) (by decide), sub_of_mem (y := main_call0_v14) (by decide), sub_of_mem (y := main_call0_cst) (by decide),
    sub_of_mem (y := main_call0_v15) (by decide), sub_of_mem (y := main_v0) (by decide)⟩

/-- Outside its written buffers window `w0` is the identity. -/
theorem skip0 (V : Valuation τ sig (Elt F)) {r : Ref sig .tc} (hr : r ∉ W0) :
    after w0 V (Proc.devRef .tc r) = V (Proc.devRef .tc r) :=
  after_of_writes_sub w0 V hW0 hr

/-- The buffers window `w1` writes, in order. -/
def W1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v1]

theorem hW1 : (w1 (F := F)).Forall fun op => op.writes ⊆ (W1.map (Proc.devRef (τ := τ) .tc)).toFinset :=
  ⟨sub_of_mem (y := main_call1_c) (by decide), sub_of_mem (y := main_call1_v0) (by decide), sub_of_mem (y := main_call1_v1) (by decide),
    sub_of_mem (y := main_call1_c_0) (by decide), sub_of_mem (y := main_call1_v2) (by decide), sub_of_mem (y := main_call1_v3) (by decide),
    sub_of_mem (y := main_call1_v4) (by decide), sub_of_mem (y := main_call1_v5) (by decide), sub_of_mem (y := main_call1_c_1) (by decide),
    sub_of_mem (y := main_call1_c_2) (by decide), sub_of_mem (y := main_call1_v6) (by decide), sub_of_mem (y := main_call1_v7) (by decide),
    sub_of_mem (y := main_call1_v8) (by decide), sub_of_mem (y := main_call1_v9) (by decide), sub_of_mem (y := main_call1_v10) (by decide),
    sub_of_mem (y := main_call1_v11) (by decide), sub_of_mem (y := main_call1_c_3) (by decide), sub_of_mem (y := main_call1_v12) (by decide),
    sub_of_mem (y := main_call1_v13) (by decide), sub_of_mem (y := main_call1_v14) (by decide), sub_of_mem (y := main_call1_cst) (by decide),
    sub_of_mem (y := main_call1_v15) (by decide), sub_of_mem (y := main_v1) (by decide)⟩

/-- Outside its written buffers window `w1` is the identity. -/
theorem skip1 (V : Valuation τ sig (Elt F)) {r : Ref sig .tc} (hr : r ∉ W1) :
    after w1 V (Proc.devRef .tc r) = V (Proc.devRef .tc r) :=
  after_of_writes_sub w1 V hW1 hr

/-- The buffers window `w2` writes, in order. -/
def W2 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v2]

theorem hW2 : (w2 (F := F)).Forall fun op => op.writes ⊆ (W2.map (Proc.devRef (τ := τ) .tc)).toFinset :=
  ⟨sub_of_mem (y := main_call2_c) (by decide), sub_of_mem (y := main_call2_v0) (by decide), sub_of_mem (y := main_call2_v1) (by decide),
    sub_of_mem (y := main_call2_c_0) (by decide), sub_of_mem (y := main_call2_v2) (by decide), sub_of_mem (y := main_call2_v3) (by decide),
    sub_of_mem (y := main_call2_v4) (by decide), sub_of_mem (y := main_call2_v5) (by decide), sub_of_mem (y := main_call2_c_1) (by decide),
    sub_of_mem (y := main_call2_c_2) (by decide), sub_of_mem (y := main_call2_v6) (by decide), sub_of_mem (y := main_call2_v7) (by decide),
    sub_of_mem (y := main_call2_v8) (by decide), sub_of_mem (y := main_call2_v9) (by decide), sub_of_mem (y := main_call2_v10) (by decide),
    sub_of_mem (y := main_call2_v11) (by decide), sub_of_mem (y := main_call2_c_3) (by decide), sub_of_mem (y := main_call2_v12) (by decide),
    sub_of_mem (y := main_call2_v13) (by decide), sub_of_mem (y := main_call2_v14) (by decide), sub_of_mem (y := main_call2_cst) (by decide),
    sub_of_mem (y := main_call2_v15) (by decide), sub_of_mem (y := main_v2) (by decide)⟩

/-- Outside its written buffers window `w2` is the identity. -/
theorem skip2 (V : Valuation τ sig (Elt F)) {r : Ref sig .tc} (hr : r ∉ W2) :
    after w2 V (Proc.devRef .tc r) = V (Proc.devRef .tc r) :=
  after_of_writes_sub w2 V hW2 hr

/-- The buffers window `w3` writes, in order. -/
def W3 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v3]

theorem hW3 : (w3 (F := F)).Forall fun op => op.writes ⊆ (W3.map (Proc.devRef (τ := τ) .tc)).toFinset :=
  ⟨sub_of_mem (y := main_call3_c) (by decide), sub_of_mem (y := main_call3_v0) (by decide), sub_of_mem (y := main_call3_v1) (by decide),
    sub_of_mem (y := main_call3_c_0) (by decide), sub_of_mem (y := main_call3_v2) (by decide), sub_of_mem (y := main_call3_v3) (by decide),
    sub_of_mem (y := main_call3_v4) (by decide), sub_of_mem (y := main_call3_v5) (by decide), sub_of_mem (y := main_call3_c_1) (by decide),
    sub_of_mem (y := main_call3_c_2) (by decide), sub_of_mem (y := main_call3_v6) (by decide), sub_of_mem (y := main_call3_v7) (by decide),
    sub_of_mem (y := main_call3_v8) (by decide), sub_of_mem (y := main_call3_v9) (by decide), sub_of_mem (y := main_call3_v10) (by decide),
    sub_of_mem (y := main_call3_v11) (by decide), sub_of_mem (y := main_call3_c_3) (by decide), sub_of_mem (y := main_call3_v12) (by decide),
    sub_of_mem (y := main_call3_v13) (by decide), sub_of_mem (y := main_call3_v14) (by decide), sub_of_mem (y := main_call3_cst) (by decide),
    sub_of_mem (y := main_call3_v15) (by decide), sub_of_mem (y := main_v3) (by decide)⟩

/-- Outside its written buffers window `w3` is the identity. -/
theorem skip3 (V : Valuation τ sig (Elt F)) {r : Ref sig .tc} (hr : r ∉ W3) :
    after w3 V (Proc.devRef .tc r) = V (Proc.devRef .tc r) :=
  after_of_writes_sub w3 V hW3 hr

/-- The buffers window `w4` writes, in order. -/
def W4 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v4]

theorem hW4 : (w4 (F := F)).Forall fun op => op.writes ⊆ (W4.map (Proc.devRef (τ := τ) .tc)).toFinset :=
  ⟨sub_of_mem (y := main_call4_c) (by decide), sub_of_mem (y := main_call4_v0) (by decide), sub_of_mem (y := main_call4_v1) (by decide),
    sub_of_mem (y := main_call4_c_0) (by decide), sub_of_mem (y := main_call4_v2) (by decide), sub_of_mem (y := main_call4_v3) (by decide),
    sub_of_mem (y := main_call4_v4) (by decide), sub_of_mem (y := main_call4_v5) (by decide), sub_of_mem (y := main_call4_c_1) (by decide),
    sub_of_mem (y := main_call4_c_2) (by decide), sub_of_mem (y := main_call4_v6) (by decide), sub_of_mem (y := main_call4_v7) (by decide),
    sub_of_mem (y := main_call4_v8) (by decide), sub_of_mem (y := main_call4_v9) (by decide), sub_of_mem (y := main_call4_v10) (by decide),
    sub_of_mem (y := main_call4_v11) (by decide), sub_of_mem (y := main_call4_c_3) (by decide), sub_of_mem (y := main_call4_v12) (by decide),
    sub_of_mem (y := main_call4_v13) (by decide), sub_of_mem (y := main_call4_v14) (by decide), sub_of_mem (y := main_call4_cst) (by decide),
    sub_of_mem (y := main_call4_v15) (by decide), sub_of_mem (y := main_v4) (by decide)⟩

/-- Outside its written buffers window `w4` is the identity. -/
theorem skip4 (V : Valuation τ sig (Elt F)) {r : Ref sig .tc} (hr : r ∉ W4) :
    after w4 V (Proc.devRef .tc r) = V (Proc.devRef .tc r) :=
  after_of_writes_sub w4 V hW4 hr

/-- The buffers window `w5` writes, in order. -/
def W5 : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v5]

theorem hW5 : (w5 (F := F)).Forall fun op => op.writes ⊆ (W5.map (Proc.devRef (τ := τ) .tc)).toFinset :=
  ⟨sub_of_mem (y := main_call5_c) (by decide), sub_of_mem (y := main_call5_v0) (by decide), sub_of_mem (y := main_call5_v1) (by decide),
    sub_of_mem (y := main_call5_c_0) (by decide), sub_of_mem (y := main_call5_v2) (by decide), sub_of_mem (y := main_call5_v3) (by decide),
    sub_of_mem (y := main_call5_v4) (by decide), sub_of_mem (y := main_call5_v5) (by decide), sub_of_mem (y := main_call5_c_1) (by decide),
    sub_of_mem (y := main_call5_c_2) (by decide), sub_of_mem (y := main_call5_v6) (by decide), sub_of_mem (y := main_call5_v7) (by decide),
    sub_of_mem (y := main_call5_v8) (by decide), sub_of_mem (y := main_call5_v9) (by decide), sub_of_mem (y := main_call5_v10) (by decide),
    sub_of_mem (y := main_call5_v11) (by decide), sub_of_mem (y := main_call5_c_3) (by decide), sub_of_mem (y := main_call5_v12) (by decide),
    sub_of_mem (y := main_call5_v13) (by decide), sub_of_mem (y := main_call5_v14) (by decide), sub_of_mem (y := main_call5_cst) (by decide),
    sub_of_mem (y := main_call5_v15) (by decide), sub_of_mem (y := main_v5) (by decide)⟩

/-- Outside its written buffers window `w5` is the identity. -/
theorem skip5 (V : Valuation τ sig (Elt F)) {r : Ref sig .tc} (hr : r ∉ W5) :
    after w5 V (Proc.devRef .tc r) = V (Proc.devRef .tc r) :=
  after_of_writes_sub w5 V hW5 hr

/-- The buffers window `w6` writes, in order. -/
def W6 : List (Ref sig .tc) :=
  [main_call6_c, main_call6_v0, main_call6_v1, main_call6_c_0, main_call6_v2, main_call6_v3, main_call6_v4, main_call6_v5,
   main_call6_c_1, main_call6_c_2, main_call6_v6, main_call6_v7, main_call6_v8, main_call6_v9, main_call6_v10, main_call6_v11,
   main_call6_c_3, main_call6_v12, main_call6_v13, main_call6_v14, main_call6_cst, main_call6_v15, main_v6]

theorem hW6 : (w6 (F := F)).Forall fun op => op.writes ⊆ (W6.map (Proc.devRef (τ := τ) .tc)).toFinset :=
  ⟨sub_of_mem (y := main_call6_c) (by decide), sub_of_mem (y := main_call6_v0) (by decide), sub_of_mem (y := main_call6_v1) (by decide),
    sub_of_mem (y := main_call6_c_0) (by decide), sub_of_mem (y := main_call6_v2) (by decide), sub_of_mem (y := main_call6_v3) (by decide),
    sub_of_mem (y := main_call6_v4) (by decide), sub_of_mem (y := main_call6_v5) (by decide), sub_of_mem (y := main_call6_c_1) (by decide),
    sub_of_mem (y := main_call6_c_2) (by decide), sub_of_mem (y := main_call6_v6) (by decide), sub_of_mem (y := main_call6_v7) (by decide),
    sub_of_mem (y := main_call6_v8) (by decide), sub_of_mem (y := main_call6_v9) (by decide), sub_of_mem (y := main_call6_v10) (by decide),
    sub_of_mem (y := main_call6_v11) (by decide), sub_of_mem (y := main_call6_c_3) (by decide), sub_of_mem (y := main_call6_v12) (by decide),
    sub_of_mem (y := main_call6_v13) (by decide), sub_of_mem (y := main_call6_v14) (by decide), sub_of_mem (y := main_call6_cst) (by decide),
    sub_of_mem (y := main_call6_v15) (by decide), sub_of_mem (y := main_v6) (by decide)⟩

/-- Outside its written buffers window `w6` is the identity. -/
theorem skip6 (V : Valuation τ sig (Elt F)) {r : Ref sig .tc} (hr : r ∉ W6) :
    after w6 V (Proc.devRef .tc r) = V (Proc.devRef .tc r) :=
  after_of_writes_sub w6 V hW6 hr

/-- The buffers window `wm` writes, in order. -/
def Wm : List (Ref sig .tc) :=
  [main_v7, main_v8, main_v9, main_v10, main_v11, main_v12, main_v13, main_v14,
   main_v15, main_v16]

theorem hWm : (wm (F := F)).Forall fun op => op.writes ⊆ (Wm.map (Proc.devRef (τ := τ) .tc)).toFinset :=
  ⟨sub_of_mem (y := main_v7) (by decide), sub_of_mem (y := main_v8) (by decide), sub_of_mem (y := main_v9) (by decide),
    sub_of_mem (y := main_v10) (by decide), sub_of_mem (y := main_v11) (by decide), sub_of_mem (y := main_v12) (by decide),
    sub_of_mem (y := main_v13) (by decide), sub_of_mem (y := main_v14) (by decide), sub_of_mem (y := main_v15) (by decide),
    sub_of_mem (y := main_v16) (by decide)⟩

/-- Outside its written buffers window `wm` is the identity. -/
theorem skipm (V : Valuation τ sig (Elt F)) {r : Ref sig .tc} (hr : r ∉ Wm) :
    after wm V (Proc.devRef .tc r) = V (Proc.devRef .tc r) :=
  after_of_writes_sub wm V hWm hr

/-! ## What each window computes at its result buffer -/

attribute [local irreducible] Host.reduce Host.gather in
set_option maxRecDepth 16384 in
set_option maxHeartbeats 1600000 in
/-- Lookup 0: the table `main_arg8` at the indices `main_arg0`. -/
theorem take0_eq (V : Valuation τ sig (Elt F)) :
    after w0 V (main_v0 : DevRef τ sig)
      = takeT gather_S16x64_S16384x1_S16384x64_1_0_n_n_0_1_164 16#32 15#32 (V (main_arg8 : DevRef τ sig)) (V (main_arg0 : DevRef τ sig)) := by
  unfold w0
  after_walk
  rfl

attribute [local irreducible] Host.reduce Host.gather in
set_option maxRecDepth 16384 in
set_option maxHeartbeats 1600000 in
/-- Lookup 1: the table `main_arg9` at the indices `main_arg1`. -/
theorem take1_eq (V : Valuation τ sig (Elt F)) :
    after w1 V (main_v1 : DevRef τ sig)
      = takeT gather_S100000x64_S16384x1_S16384x64_1_0_n_n_0_1_164 100000#32 99999#32 (V (main_arg9 : DevRef τ sig)) (V (main_arg1 : DevRef τ sig)) := by
  unfold w1
  after_walk
  rfl

attribute [local irreducible] Host.reduce Host.gather in
set_option maxRecDepth 16384 in
set_option maxHeartbeats 1600000 in
/-- Lookup 2: the table `main_arg10` at the indices `main_arg2`. -/
theorem take2_eq (V : Valuation τ sig (Elt F)) :
    after w2 V (main_v2 : DevRef τ sig)
      = takeT gather_S400x64_S16384x1_S16384x64_1_0_n_n_0_1_164 400#32 399#32 (V (main_arg10 : DevRef τ sig)) (V (main_arg2 : DevRef τ sig)) := by
  unfold w2
  after_walk
  rfl

attribute [local irreducible] Host.reduce Host.gather in
set_option maxRecDepth 16384 in
set_option maxHeartbeats 1600000 in
/-- Lookup 3: the table `main_arg11` at the indices `main_arg3`. -/
theorem take3_eq (V : Valuation τ sig (Elt F)) :
    after w3 V (main_v3 : DevRef τ sig)
      = takeT gather_S100000x64_S16384x1_S16384x64_1_0_n_n_0_1_164 100000#32 99999#32 (V (main_arg11 : DevRef τ sig)) (V (main_arg3 : DevRef τ sig)) := by
  unfold w3
  after_walk
  rfl

attribute [local irreducible] Host.reduce Host.gather in
set_option maxRecDepth 16384 in
set_option maxHeartbeats 1600000 in
/-- Lookup 4: the table `main_arg12` at the indices `main_arg4`. -/
theorem take4_eq (V : Valuation τ sig (Elt F)) :
    after w4 V (main_v4 : DevRef τ sig)
      = takeT gather_S4x64_S16384x1_S16384x64_1_0_n_n_0_1_164 4#32 3#32 (V (main_arg12 : DevRef τ sig)) (V (main_arg4 : DevRef τ sig)) := by
  unfold w4
  after_walk
  rfl

attribute [local irreducible] Host.reduce Host.gather in
set_option maxRecDepth 16384 in
set_option maxHeartbeats 1600000 in
/-- Lookup 5: the table `main_arg13` at the indices `main_arg5`. -/
theorem take5_eq (V : Valuation τ sig (Elt F)) :
    after w5 V (main_v5 : DevRef τ sig)
      = takeT gather_S64x64_S16384x1_S16384x64_1_0_n_n_0_1_164 64#32 63#32 (V (main_arg13 : DevRef τ sig)) (V (main_arg5 : DevRef τ sig)) := by
  unfold w5
  after_walk
  rfl

attribute [local irreducible] Host.reduce Host.gather in
set_option maxRecDepth 16384 in
set_option maxHeartbeats 1600000 in
/-- Lookup 6: the table `main_arg14` at the indices `main_arg6`. -/
theorem take6_eq (V : Valuation τ sig (Elt F)) :
    after w6 V (main_v6 : DevRef τ sig)
      = takeT gather_S100000x64_S16384x1_S16384x64_1_0_n_n_0_1_164 100000#32 99999#32 (V (main_arg14 : DevRef τ sig)) (V (main_arg6 : DevRef τ sig)) := by
  unfold w6
  after_walk
  rfl

attribute [local irreducible] Host.reduce Host.gather concatenate in
set_option maxRecDepth 16384 in
set_option maxHeartbeats 1600000 in
/-- The last window: the numeric block, the concatenation of the eight blocks, the final product and bias. -/
theorem last_eq (V : Valuation τ sig (Elt F)) :
    after wm V (main_v16 : DevRef τ sig)
      = addf ((fun l r => Host.dotGeneral dot_S16384x512_S512x64_S16384x64_1_0_0_1_n_n none l r)
          (concatenate S16384x512 1
            [⟨S16384x64, V (main_v0 : DevRef τ sig)⟩, ⟨S16384x64, V (main_v1 : DevRef τ sig)⟩, ⟨S16384x64, V (main_v2 : DevRef τ sig)⟩, ⟨S16384x64, V (main_v3 : DevRef τ sig)⟩, ⟨S16384x64, V (main_v4 : DevRef τ sig)⟩, ⟨S16384x64, V (main_v5 : DevRef τ sig)⟩, ⟨S16384x64, V (main_v6 : DevRef τ sig)⟩,
             ⟨S16384x64, numT (V (main_arg7 : DevRef τ sig)) (V (main_arg15 : DevRef τ sig)) (V (main_arg16 : DevRef τ sig))⟩]
            concatenates_S16384x64_S16384x64_S16384x64_S16384x64_S16384x64_S16384x64_S16384x64_S16384x64_S16384x512_d1)
          (V (main_arg17 : DevRef τ sig)))
        (broadcastInDim S16384x64 ![0, 1] bcast_S1x64_S16384x64_0_1 (broadcastInDim S1x64 ![1] bcast_S64_S1x64_1 (V (main_arg18 : DevRef τ sig)))) := by
  unfold wm
  after_walk
  rfl

end Cert.ReferenceIdeal.RefRun

end
-- ==== Proof.RefRun.lean ====
/-
  The run of the reference: from any memory with zero counters every weakly fair execution of @main
  terminates with the result buffer at `refOut` of the nineteen argument arrays and every argument
  array unchanged; the frame is that statement with the result dropped.

  The straight line's run leaves each buffer at the fold of the operations' results over the launch
  contents.  The fold is read window by window: at the result buffer the last window gives the final
  product over the eight blocks, each lookup's block is read back to its own window (the windows after it
  do not write it) and there is the lookup's term of two argument buffers, which no earlier window
  writes; at an argument buffer every window is the identity.
-/
import proofs.«211833_g48473000902786_cont_8to1_c_597_31_alg».proof.Defs
import proofs.«211833_g48473000902786_cont_8to1_c_597_31_alg».proof.Proof.Gen.Pre_input_domain
import proofs.«211833_g48473000902786_cont_8to1_c_597_31_alg».proof.Proof.RefWin

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 16384 in
set_option maxHeartbeats 1600000 in
/-- The fold at the result buffer is `refOut` of the launch contents of the argument buffers. -/
theorem out_eq (V : Valuation τ sig (Elt F)) :
    after ops V (main_v16 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [after_ops, last_eq]
  rw [take6_eq, skip6 _ (r := main_v0) (by decide), skip6 _ (r := main_v1) (by decide),
    skip6 _ (r := main_v2) (by decide), skip6 _ (r := main_v3) (by decide), skip6 _ (r := main_v4) (by decide),
    skip6 _ (r := main_v5) (by decide), skip6 _ (r := main_arg7) (by decide), skip6 _ (r := main_arg15) (by decide),
    skip6 _ (r := main_arg16) (by decide), skip6 _ (r := main_arg17) (by decide), skip6 _ (r := main_arg18) (by decide),
    take5_eq, skip5 _ (r := main_v0) (by decide), skip5 _ (r := main_v1) (by decide),
    skip5 _ (r := main_v2) (by decide), skip5 _ (r := main_v3) (by decide), skip5 _ (r := main_v4) (by decide),
    skip5 _ (r := main_arg7) (by decide), skip5 _ (r := main_arg15) (by decide), skip5 _ (r := main_arg16) (by decide),
    skip5 _ (r := main_arg17) (by decide), skip5 _ (r := main_arg18) (by decide), skip5 _ (r := main_arg14) (by decide),
    skip5 _ (r := main_arg6) (by decide), take4_eq, skip4 _ (r := main_v0) (by decide),
    skip4 _ (r := main_v1) (by decide), skip4 _ (r := main_v2) (by decide), skip4 _ (r := main_v3) (by decide),
    skip4 _ (r := main_arg7) (by decide), skip4 _ (r := main_arg15) (by decide), skip4 _ (r := main_arg16) (by decide),
    skip4 _ (r := main_arg17) (by decide), skip4 _ (r := main_arg18) (by decide), skip4 _ (r := main_arg14) (by decide),
    skip4 _ (r := main_arg6) (by decide), skip4 _ (r := main_arg13) (by decide), skip4 _ (r := main_arg5) (by decide),
    take3_eq, skip3 _ (r := main_v0) (by decide), skip3 _ (r := main_v1) (by decide),
    skip3 _ (r := main_v2) (by decide), skip3 _ (r := main_arg7) (by decide), skip3 _ (r := main_arg15) (by decide),
    skip3 _ (r := main_arg16) (by decide), skip3 _ (r := main_arg17) (by decide), skip3 _ (r := main_arg18) (by decide),
    skip3 _ (r := main_arg14) (by decide), skip3 _ (r := main_arg6) (by decide), skip3 _ (r := main_arg13) (by decide),
    skip3 _ (r := main_arg5) (by decide), skip3 _ (r := main_arg12) (by decide), skip3 _ (r := main_arg4) (by decide),
    take2_eq, skip2 _ (r := main_v0) (by decide), skip2 _ (r := main_v1) (by decide),
    skip2 _ (r := main_arg7) (by decide), skip2 _ (r := main_arg15) (by decide), skip2 _ (r := main_arg16) (by decide),
    skip2 _ (r := main_arg17) (by decide), skip2 _ (r := main_arg18) (by decide), skip2 _ (r := main_arg14) (by decide),
    skip2 _ (r := main_arg6) (by decide), skip2 _ (r := main_arg13) (by decide), skip2 _ (r := main_arg5) (by decide),
    skip2 _ (r := main_arg12) (by decide), skip2 _ (r := main_arg4) (by decide), skip2 _ (r := main_arg11) (by decide),
    skip2 _ (r := main_arg3) (by decide), take1_eq, skip1 _ (r := main_v0) (by decide),
    skip1 _ (r := main_arg7) (by decide), skip1 _ (r := main_arg15) (by decide), skip1 _ (r := main_arg16) (by decide),
    skip1 _ (r := main_arg17) (by decide), skip1 _ (r := main_arg18) (by decide), skip1 _ (r := main_arg14) (by decide),
    skip1 _ (r := main_arg6) (by decide), skip1 _ (r := main_arg13) (by decide), skip1 _ (r := main_arg5) (by decide),
    skip1 _ (r := main_arg12) (by decide), skip1 _ (r := main_arg4) (by decide), skip1 _ (r := main_arg11) (by decide),
    skip1 _ (r := main_arg3) (by decide), skip1 _ (r := main_arg10) (by decide), skip1 _ (r := main_arg2) (by decide),
    take0_eq, skip0 _ (r := main_arg7) (by decide), skip0 _ (r := main_arg15) (by decide),
    skip0 _ (r := main_arg16) (by decide), skip0 _ (r := main_arg17) (by decide), skip0 _ (r := main_arg18) (by decide),
    skip0 _ (r := main_arg14) (by decide), skip0 _ (r := main_arg6) (by decide), skip0 _ (r := main_arg13) (by decide),
    skip0 _ (r := main_arg5) (by decide), skip0 _ (r := main_arg12) (by decide), skip0 _ (r := main_arg4) (by decide),
    skip0 _ (r := main_arg11) (by decide), skip0 _ (r := main_arg3) (by decide), skip0 _ (r := main_arg10) (by decide),
    skip0 _ (r := main_arg2) (by decide), skip0 _ (r := main_arg9) (by decide), skip0 _ (r := main_arg1) (by decide)]
  rfl

theorem arg0_eq (V : Valuation τ sig (Elt F)) : after ops V (main_arg0 : DevRef τ sig) = V (main_arg0 : DevRef τ sig) := by
  rw [after_ops, skipm _ (r := main_arg0) (by decide), skip6 _ (r := main_arg0) (by decide), skip5 _ (r := main_arg0) (by decide),
    skip4 _ (r := main_arg0) (by decide), skip3 _ (r := main_arg0) (by decide), skip2 _ (r := main_arg0) (by decide),
    skip1 _ (r := main_arg0) (by decide), skip0 _ (r := main_arg0) (by decide)]

theorem arg1_eq (V : Valuation τ sig (Elt F)) : after ops V (main_arg1 : DevRef τ sig) = V (main_arg1 : DevRef τ sig) := by
  rw [after_ops, skipm _ (r := main_arg1) (by decide), skip6 _ (r := main_arg1) (by decide), skip5 _ (r := main_arg1) (by decide),
    skip4 _ (r := main_arg1) (by decide), skip3 _ (r := main_arg1) (by decide), skip2 _ (r := main_arg1) (by decide),
    skip1 _ (r := main_arg1) (by decide), skip0 _ (r := main_arg1) (by decide)]

theorem arg2_eq (V : Valuation τ sig (Elt F)) : after ops V (main_arg2 : DevRef τ sig) = V (main_arg2 : DevRef τ sig) := by
  rw [after_ops, skipm _ (r := main_arg2) (by decide), skip6 _ (r := main_arg2) (by decide), skip5 _ (r := main_arg2) (by decide),
    skip4 _ (r := main_arg2) (by decide), skip3 _ (r := main_arg2) (by decide), skip2 _ (r := main_arg2) (by decide),
    skip1 _ (r := main_arg2) (by decide), skip0 _ (r := main_arg2) (by decide)]

theorem arg3_eq (V : Valuation τ sig (Elt F)) : after ops V (main_arg3 : DevRef τ sig) = V (main_arg3 : DevRef τ sig) := by
  rw [after_ops, skipm _ (r := main_arg3) (by decide), skip6 _ (r := main_arg3) (by decide), skip5 _ (r := main_arg3) (by decide),
    skip4 _ (r := main_arg3) (by decide), skip3 _ (r := main_arg3) (by decide), skip2 _ (r := main_arg3) (by decide),
    skip1 _ (r := main_arg3) (by decide), skip0 _ (r := main_arg3) (by decide)]

theorem arg4_eq (V : Valuation τ sig (Elt F)) : after ops V (main_arg4 : DevRef τ sig) = V (main_arg4 : DevRef τ sig) := by
  rw [after_ops, skipm _ (r := main_arg4) (by decide), skip6 _ (r := main_arg4) (by decide), skip5 _ (r := main_arg4) (by decide),
    skip4 _ (r := main_arg4) (by decide), skip3 _ (r := main_arg4) (by decide), skip2 _ (r := main_arg4) (by decide),
    skip1 _ (r := main_arg4) (by decide), skip0 _ (r := main_arg4) (by decide)]

theorem arg5_eq (V : Valuation τ sig (Elt F)) : after ops V (main_arg5 : DevRef τ sig) = V (main_arg5 : DevRef τ sig) := by
  rw [after_ops, skipm _ (r := main_arg5) (by decide), skip6 _ (r := main_arg5) (by decide), skip5 _ (r := main_arg5) (by decide),
    skip4 _ (r := main_arg5) (by decide), skip3 _ (r := main_arg5) (by decide), skip2 _ (r := main_arg5) (by decide),
    skip1 _ (r := main_arg5) (by decide), skip0 _ (r := main_arg5) (by decide)]

theorem arg6_eq (V : Valuation τ sig (Elt F)) : after ops V (main_arg6 : DevRef τ sig) = V (main_arg6 : DevRef τ sig) := by
  rw [after_ops, skipm _ (r := main_arg6) (by decide), skip6 _ (r := main_arg6) (by decide), skip5 _ (r := main_arg6) (by decide),
    skip4 _ (r := main_arg6) (by decide), skip3 _ (r := main_arg6) (by decide), skip2 _ (r := main_arg6) (by decide),
    skip1 _ (r := main_arg6) (by decide), skip0 _ (r := main_arg6) (by decide)]

theorem arg7_eq (V : Valuation τ sig (Elt F)) : after ops V (main_arg7 : DevRef τ sig) = V (main_arg7 : DevRef τ sig) := by
  rw [after_ops, skipm _ (r := main_arg7) (by decide), skip6 _ (r := main_arg7) (by decide), skip5 _ (r := main_arg7) (by decide),
    skip4 _ (r := main_arg7) (by decide), skip3 _ (r := main_arg7) (by decide), skip2 _ (r := main_arg7) (by decide),
    skip1 _ (r := main_arg7) (by decide), skip0 _ (r := main_arg7) (by decide)]

theorem arg8_eq (V : Valuation τ sig (Elt F)) : after ops V (main_arg8 : DevRef τ sig) = V (main_arg8 : DevRef τ sig) := by
  rw [after_ops, skipm _ (r := main_arg8) (by decide), skip6 _ (r := main_arg8) (by decide), skip5 _ (r := main_arg8) (by decide),
    skip4 _ (r := main_arg8) (by decide), skip3 _ (r := main_arg8) (by decide), skip2 _ (r := main_arg8) (by decide),
    skip1 _ (r := main_arg8) (by decide), skip0 _ (r := main_arg8) (by decide)]

theorem arg9_eq (V : Valuation τ sig (Elt F)) : after ops V (main_arg9 : DevRef τ sig) = V (main_arg9 : DevRef τ sig) := by
  rw [after_ops, skipm _ (r := main_arg9) (by decide), skip6 _ (r := main_arg9) (by decide), skip5 _ (r := main_arg9) (by decide),
    skip4 _ (r := main_arg9) (by decide), skip3 _ (r := main_arg9) (by decide), skip2 _ (r := main_arg9) (by decide),
    skip1 _ (r := main_arg9) (by decide), skip0 _ (r := main_arg9) (by decide)]

theorem arg10_eq (V : Valuation τ sig (Elt F)) : after ops V (main_arg10 : DevRef τ sig) = V (main_arg10 : DevRef τ sig) := by
  rw [after_ops, skipm _ (r := main_arg10) (by decide), skip6 _ (r := main_arg10) (by decide), skip5 _ (r := main_arg10) (by decide),
    skip4 _ (r := main_arg10) (by decide), skip3 _ (r := main_arg10) (by decide), skip2 _ (r := main_arg10) (by decide),
    skip1 _ (r := main_arg10) (by decide), skip0 _ (r := main_arg10) (by decide)]

theorem arg11_eq (V : Valuation τ sig (Elt F)) : after ops V (main_arg11 : DevRef τ sig) = V (main_arg11 : DevRef τ sig) := by
  rw [after_ops, skipm _ (r := main_arg11) (by decide), skip6 _ (r := main_arg11) (by decide), skip5 _ (r := main_arg11) (by decide),
    skip4 _ (r := main_arg11) (by decide), skip3 _ (r := main_arg11) (by decide), skip2 _ (r := main_arg11) (by decide),
    skip1 _ (r := main_arg11) (by decide), skip0 _ (r := main_arg11) (by decide)]

theorem arg12_eq (V : Valuation τ sig (Elt F)) : after ops V (main_arg12 : DevRef τ sig) = V (main_arg12 : DevRef τ sig) := by
  rw [after_ops, skipm _ (r := main_arg12) (by decide), skip6 _ (r := main_arg12) (by decide), skip5 _ (r := main_arg12) (by decide),
    skip4 _ (r := main_arg12) (by decide), skip3 _ (r := main_arg12) (by decide), skip2 _ (r := main_arg12) (by decide),
    skip1 _ (r := main_arg12) (by decide), skip0 _ (r := main_arg12) (by decide)]

theorem arg13_eq (V : Valuation τ sig (Elt F)) : after ops V (main_arg13 : DevRef τ sig) = V (main_arg13 : DevRef τ sig) := by
  rw [after_ops, skipm _ (r := main_arg13) (by decide), skip6 _ (r := main_arg13) (by decide), skip5 _ (r := main_arg13) (by decide),
    skip4 _ (r := main_arg13) (by decide), skip3 _ (r := main_arg13) (by decide), skip2 _ (r := main_arg13) (by decide),
    skip1 _ (r := main_arg13) (by decide), skip0 _ (r := main_arg13) (by decide)]

theorem arg14_eq (V : Valuation τ sig (Elt F)) : after ops V (main_arg14 : DevRef τ sig) = V (main_arg14 : DevRef τ sig) := by
  rw [after_ops, skipm _ (r := main_arg14) (by decide), skip6 _ (r := main_arg14) (by decide), skip5 _ (r := main_arg14) (by decide),
    skip4 _ (r := main_arg14) (by decide), skip3 _ (r := main_arg14) (by decide), skip2 _ (r := main_arg14) (by decide),
    skip1 _ (r := main_arg14) (by decide), skip0 _ (r := main_arg14) (by decide)]

theorem arg15_eq (V : Valuation τ sig (Elt F)) : after ops V (main_arg15 : DevRef τ sig) = V (main_arg15 : DevRef τ sig) := by
  rw [after_ops, skipm _ (r := main_arg15) (by decide), skip6 _ (r := main_arg15) (by decide), skip5 _ (r := main_arg15) (by decide),
    skip4 _ (r := main_arg15) (by decide), skip3 _ (r := main_arg15) (by decide), skip2 _ (r := main_arg15) (by decide),
    skip1 _ (r := main_arg15) (by decide), skip0 _ (r := main_arg15) (by decide)]

theorem arg16_eq (V : Valuation τ sig (Elt F)) : after ops V (main_arg16 : DevRef τ sig) = V (main_arg16 : DevRef τ sig) := by
  rw [after_ops, skipm _ (r := main_arg16) (by decide), skip6 _ (r := main_arg16) (by decide), skip5 _ (r := main_arg16) (by decide),
    skip4 _ (r := main_arg16) (by decide), skip3 _ (r := main_arg16) (by decide), skip2 _ (r := main_arg16) (by decide),
    skip1 _ (r := main_arg16) (by decide), skip0 _ (r := main_arg16) (by decide)]

theorem arg17_eq (V : Valuation τ sig (Elt F)) : after ops V (main_arg17 : DevRef τ sig) = V (main_arg17 : DevRef τ sig) := by
  rw [after_ops, skipm _ (r := main_arg17) (by decide), skip6 _ (r := main_arg17) (by decide), skip5 _ (r := main_arg17) (by decide),
    skip4 _ (r := main_arg17) (by decide), skip3 _ (r := main_arg17) (by decide), skip2 _ (r := main_arg17) (by decide),
    skip1 _ (r := main_arg17) (by decide), skip0 _ (r := main_arg17) (by decide)]

theorem arg18_eq (V : Valuation τ sig (Elt F)) : after ops V (main_arg18 : DevRef τ sig) = V (main_arg18 : DevRef τ sig) := by
  rw [after_ops, skipm _ (r := main_arg18) (by decide), skip6 _ (r := main_arg18) (by decide), skip5 _ (r := main_arg18) (by decide),
    skip4 _ (r := main_arg18) (by decide), skip3 _ (r := main_arg18) (by decide), skip2 _ (r := main_arg18) (by decide),
    skip1 _ (r := main_arg18) (by decide), skip0 _ (r := main_arg18) (by decide)]

/-- On every device, for any float values, from any memory with zero counters: every weakly fair execution
    of @main terminates with the result at `refOut` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v16) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v16).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _)⟩)
    (run_seq scopedRefs_eq scopedSems_eq defs main (fun _ => ops) main_eq (fun _ => ops_sub) m ρ)

/-- The reference runs to its end, faults nowhere and leaves its arguments unchanged: the run with the
    result dropped (no precondition is needed: host operations do not fault). -/
theorem frame : Cert.frame_ReferenceIdeal := fun m g _ =>
  (θ_run _ _ _).mono (fun _ h c => (h c).2) (run (F := Ideal) m g)

end Cert.ReferenceIdeal.RefRun

end
-- ==== Proof.RefPre.lean ====
/-
  The precondition's index ranges, read back.

  The precondition is one `i1` scalar: the conjunction of one "all elements" reduction per input array —
  finiteness for the float arrays, `0 ≤ x ≤ height − 1` (signed) for each of the seven index arrays — and the
  claim assumes it is one.  A conjunction that is one has both conjuncts one; a reduction by `and` that is
  one had a one at every element; and a word that is signed-nonnegative and signed-at-most a bound below
  `2³¹` is, read unsigned, at most that bound.
-/
import proofs.«211833_g48473000902786_cont_8to1_c_597_31_alg».proof.Pre_input_domain
import proofs.«211833_g48473000902786_cont_8to1_c_597_31_alg».proof.Proof.Gen.Pre_input_domain
import Idealize.ShloMosaic.Lib.ReduceAll
import Idealize.ShloMosaic.Lib.ValueIdx

noncomputable section

namespace Cert.ReferenceIdeal.RefValue

open Cert.Pre_input_domain Idealize.ShloMosaic Idealize.ShloMosaic.ValueIdx

instance : Subsingleton S_.Idx := ⟨fun a b => funext fun d => d.elim0⟩

/-- A word that tests signed-nonnegative and signed-at-most `c`, with `c` below `2³¹`, is at most `c` read unsigned. -/
theorem word_le_of_cmp {w c : BitVec 32} (hc : 2 * c.toNat < 2 ^ 32)
    (h : IntOp.andi (IntOp.cmpi .sge w 0#32) (IntOp.cmpi .sle w c) = 1#1) : w.toNat ≤ c.toNat := by
  obtain ⟨h0, h1⟩ := IntOp.andi_eq_one.1 h
  have hw : 2 * w.toNat < 2 ^ 32 := (Scalar.nonneg_iff w).1 h0
  rw [IntOp.cmpi_sle, BitVec.toInt_eq_toNat_of_lt hw, BitVec.toInt_eq_toNat_of_lt hc] at h1
  omega

variable {F : FTy → Type} [FloatOps F]

set_option maxRecDepth 16384 in
set_option maxHeartbeats 1600000 in
/-- Under the precondition every index array is within its table: unsigned, below the table's height. -/
theorem ranges_of_fn (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32)
    (a17 : FVec F S512x64 .f32) (a18 : FVec F S64 .f32)
    (h : Cert.Pre_input_domain.fn (F := F) a0 a1 a2 a3 a4 a5 a6 a7 a8 a9 a10 a11 a12 a13 a14 a15 a16 a17 a18 = fun _ => 1#1) :
    (∀ q : Fin 16384, (a0 (ix1 q)).toNat < 16) ∧ (∀ q : Fin 16384, (a1 (ix1 q)).toNat < 100000)
    ∧ (∀ q : Fin 16384, (a2 (ix1 q)).toNat < 400) ∧ (∀ q : Fin 16384, (a3 (ix1 q)).toNat < 100000)
    ∧ (∀ q : Fin 16384, (a4 (ix1 q)).toNat < 4) ∧ (∀ q : Fin 16384, (a5 (ix1 q)).toNat < 64)
    ∧ (∀ q : Fin 16384, (a6 (ix1 q)).toNat < 100000) := by
  have e := congrFun h ix0
  unfold Cert.Pre_input_domain.fn Cert.Pre_input_domain.fn_part1 Cert.Pre_input_domain.fn_part2 Cert.Pre_input_domain.fn_part3
    Cert.Pre_input_domain.fn_part4 Cert.Pre_input_domain.fn_part5 Cert.Pre_input_domain.fn_part6 at e
  dsimp only at e
  obtain ⟨e, r6⟩ := IntOp.andi_eq_one.1 e
  obtain ⟨e, r5⟩ := IntOp.andi_eq_one.1 e
  obtain ⟨e, r4⟩ := IntOp.andi_eq_one.1 e
  obtain ⟨e, r3⟩ := IntOp.andi_eq_one.1 e
  obtain ⟨e, r2⟩ := IntOp.andi_eq_one.1 e
  obtain ⟨e, r1⟩ := IntOp.andi_eq_one.1 e
  obtain ⟨-, r0⟩ := IntOp.andi_eq_one.1 e
  refine ⟨fun q => ?_, fun q => ?_, fun q => ?_, fun q => ?_, fun q => ?_, fun q => ?_, fun q => ?_⟩
  · have := word_le_of_cmp (c := 15#32) (by decide) (Host.reduce_andi_all _ _ _ _ ix0 r0 (ix1 q))
    exact Nat.lt_succ_of_le this
  · have := word_le_of_cmp (c := 99999#32) (by decide) (Host.reduce_andi_all _ _ _ _ ix0 r1 (ix1 q))
    exact Nat.lt_succ_of_le this
  · have := word_le_of_cmp (c := 399#32) (by decide) (Host.reduce_andi_all _ _ _ _ ix0 r2 (ix1 q))
    exact Nat.lt_succ_of_le this
  · have := word_le_of_cmp (c := 99999#32) (by decide) (Host.reduce_andi_all _ _ _ _ ix0 r3 (ix1 q))
    exact Nat.lt_succ_of_le this
  · have := word_le_of_cmp (c := 3#32) (by decide) (Host.reduce_andi_all _ _ _ _ ix0 r4 (ix1 q))
    exact Nat.lt_succ_of_le this
  · have := word_le_of_cmp (c := 63#32) (by decide) (Host.reduce_andi_all _ _ _ _ ix0 r5 (ix1 q))
    exact Nat.lt_succ_of_le this
  · have := word_le_of_cmp (c := 99999#32) (by decide) (Host.reduce_andi_all _ _ _ _ ix0 r6 (ix1 q))
    exact Nat.lt_succ_of_le this

end Cert.ReferenceIdeal.RefValue

end
-- ==== Proof.KerPre.lean ====
/-
  The precondition's finiteness conjuncts, read back at the ideal instance.

  Beside the index ranges the precondition holds one "all elements" reduction per float input of
  `|x| < +∞`.  At the ideal instance a float is an extended real and the pattern `0x7F800000` denotes `⊤`:
  an extended real whose absolute value `max x (−x)` is below `⊤` is neither `⊤` nor `⊥`, that is, a real.
-/
import proofs.«211833_g48473000902786_cont_8to1_c_597_31_alg».proof.Proof.RefPre
import Idealize.ShloMosaic.PureOps.Ideal.Laws

noncomputable section

namespace Cert.ReferenceIdeal.RefValue

open Cert.Pre_input_domain Idealize.ShloMosaic Idealize.ShloMosaic.ValueIdx

/-- An ideal value whose absolute value tests below `+∞` is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  induction x using EReal.rec with
  | bot => simp at hlt
  | top => simp at hlt
  | coe r => exact ⟨r, rfl⟩

set_option maxRecDepth 16384 in
set_option maxHeartbeats 1600000 in
/-- Under the precondition the frequency, the numeric projection and bias, the final weight and the final bias
    are real everywhere. -/
theorem finite_of_fn (a0 a1 a2 a3 a4 a5 a6 : IVec S16384 32) (a7 : FVec Ideal S16384 .f32) (a8 : FVec Ideal S16x64 .f32)
    (a9 : FVec Ideal S100000x64 .f32) (a10 : FVec Ideal S400x64 .f32) (a11 : FVec Ideal S100000x64 .f32) (a12 : FVec Ideal S4x64 .f32)
    (a13 : FVec Ideal S64x64 .f32) (a14 : FVec Ideal S100000x64 .f32) (a15 : FVec Ideal S1x64 .f32) (a16 : FVec Ideal S64 .f32)
    (a17 : FVec Ideal S512x64 .f32) (a18 : FVec Ideal S64 .f32)
    (h : Cert.Pre_input_domain.fn (F := Ideal) a0 a1 a2 a3 a4 a5 a6 a7 a8 a9 a10 a11 a12 a13 a14 a15 a16 a17 a18 = fun _ => 1#1) :
    (∀ i, ∃ r : ℝ, a7 i = (r : EReal)) ∧ (∀ i, ∃ r : ℝ, a15 i = (r : EReal)) ∧ (∀ i, ∃ r : ℝ, a16 i = (r : EReal))
    ∧ (∀ i, ∃ r : ℝ, a17 i = (r : EReal)) ∧ (∀ i, ∃ r : ℝ, a18 i = (r : EReal)) := by
  have e := congrFun h ix0
  unfold Cert.Pre_input_domain.fn Cert.Pre_input_domain.fn_part1 Cert.Pre_input_domain.fn_part2 Cert.Pre_input_domain.fn_part3
    Cert.Pre_input_domain.fn_part4 Cert.Pre_input_domain.fn_part5 Cert.Pre_input_domain.fn_part6 at e
  dsimp only at e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, f18⟩ := IntOp.andi_eq_one.1 e
  obtain ⟨e, f17⟩ := IntOp.andi_eq_one.1 e
  obtain ⟨e, f16⟩ := IntOp.andi_eq_one.1 e
  obtain ⟨e, f15⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨f7, -⟩ := IntOp.andi_eq_one.1 e
  exact ⟨fun i => real_of_abs_lt_inf (a7 i) (Host.reduce_andi_all _ _ _ _ ix0 f7 i),
    fun i => real_of_abs_lt_inf (a15 i) (Host.reduce_andi_all _ _ _ _ ix0 f15 i),
    fun i => real_of_abs_lt_inf (a16 i) (Host.reduce_andi_all _ _ _ _ ix0 f16 i),
    fun i => real_of_abs_lt_inf (a17 i) (Host.reduce_andi_all _ _ _ _ ix0 f17 i),
    fun i => real_of_abs_lt_inf (a18 i) (Host.reduce_andi_all _ _ _ _ ix0 f18 i)⟩

end Cert.ReferenceIdeal.RefValue

end
-- ==== Proof.KerSpec.lean ====
/-
  What the kernel computes at one output entry, at the ideal instance, in the kernel's own order of operations.

  The kernel does not form the 512-wide concatenated row.  It multiplies the four small tables by their blocks of
  the final weight once (`tabW`), pushes the numeric projection and bias through the last block (`w7n`, `c0`),
  and then, per row `p`, adds nine terms: `c0`, the frequency times `w7n`, three products of a gathered row
  widened by 64 zero columns (`wide`) with a weight block stacked twice (`stackW`), and four products of a one-hot
  row (`onehot`) with a premultiplied table.  Row `k` of block `t` of the final weight is row `k + 64 t`.
-/
import proofs.«211833_g48473000902786_cont_8to1_c_597_31_alg».proof.ReferenceIdeal
import Idealize.ShloMosaic.Lib.ValueIdx
import Idealize.ShloMosaic.PureOps.Ideal

noncomputable section

namespace Cert.Proof.Ker

open Cert.ReferenceIdeal Idealize.ShloMosaic Idealize.ShloMosaic.ValueIdx

/-- Row `k + o` of the 512 rows of the final weight (`o` a block's offset). -/
abbrev wrow (o : Nat) (ho : o + 64 ≤ 512) (k : Fin 64) : Fin 512 := ⟨k.val + o, by have := k.isLt; omega⟩

/-- A table times its block of the final weight: entry `(v, c)` is `∑ k, E[v, k] · W[k + o, c]`. -/
def tabW {V : Nat} (E : FVec Ideal ⟨2, ![V, 64]⟩ .f32) (W : FVec Ideal S512x64 .f32) (o : Nat) (ho : o + 64 ≤ 512)
    (v : Fin V) (c : Fin 64) : EReal :=
  ∑ k : Fin 64, E (ix2 v k) * W (ix2 (wrow o ho k) c)

/-- The numeric projection pushed through the last block: `∑ k, W_num[0, k] · W[k + 448, c]`. -/
def w7n (a15 : FVec Ideal S1x64 .f32) (W : FVec Ideal S512x64 .f32) (c : Fin 64) : EReal :=
  ∑ k : Fin 64, a15 (ix2 (0 : Fin 1) k) * W (ix2 (wrow 448 (by omega) k) c)

/-- The constant row: the numeric bias pushed through the last block, plus the final bias. -/
def c0 (a16 : FVec Ideal S64 .f32) (a18 : FVec Ideal S64 .f32) (W : FVec Ideal S512x64 .f32) (c : Fin 64) : EReal :=
  (∑ k : Fin 64, a16 (ix1 k) * W (ix2 (wrow 448 (by omega) k) c)) + a18 (ix1 c)

/-- Row `r` of a table widened to 128 columns by 64 zero columns. -/
def wide {V : Nat} (E : FVec Ideal ⟨2, ![V, 64]⟩ .f32) (r : Fin V) (k : Fin 128) : EReal :=
  if h : k.val < 64 then E (ix2 r ⟨k.val, h⟩) else 0

/-- A block of the final weight stacked twice: row `k` of the stack is row `k mod 64` of the block. -/
def stackW (W : FVec Ideal S512x64 .f32) (o : Nat) (ho : o + 64 ≤ 512) (k : Fin 128) (c : Fin 64) : EReal :=
  W (ix2 ⟨k.val % 64 + o, by have := Nat.mod_lt k.val (show 0 < 64 by omega); omega⟩ c)

/-- A one-hot row: one at position `i`, zero elsewhere. -/
def onehot {n : Nat} (i : Nat) (v : Fin n) : EReal := if v.val = i then 1 else 0

/-- The kernel's result at `(p, c)`: the nine terms added left to right. -/
def kerOut (a0 a1 a2 a3 a4 a5 a6 : IVec S16384 32) (a7 : FVec Ideal S16384 .f32) (a8 : FVec Ideal S16x64 .f32)
    (a9 : FVec Ideal S100000x64 .f32) (a10 : FVec Ideal S400x64 .f32) (a11 : FVec Ideal S100000x64 .f32) (a12 : FVec Ideal S4x64 .f32)
    (a13 : FVec Ideal S64x64 .f32) (a14 : FVec Ideal S100000x64 .f32) (a15 : FVec Ideal S1x64 .f32) (a16 : FVec Ideal S64 .f32)
    (a17 : FVec Ideal S512x64 .f32) (a18 : FVec Ideal S64 .f32)
    (h1 : ∀ q : Fin 16384, (a1 (ix1 q)).toNat < 100000) (h3 : ∀ q : Fin 16384, (a3 (ix1 q)).toNat < 100000)
    (h6 : ∀ q : Fin 16384, (a6 (ix1 q)).toNat < 100000) (p : Fin 16384) (c : Fin 64) : EReal :=
  ((((((((c0 a16 a18 a17 c + a7 (ix1 p) * w7n a15 a17 c)
    + ∑ k : Fin 128, wide a9 ⟨(a1 (ix1 p)).toNat, h1 p⟩ k * stackW a17 64 (by omega) k c)
    + ∑ k : Fin 128, wide a11 ⟨(a3 (ix1 p)).toNat, h3 p⟩ k * stackW a17 192 (by omega) k c)
    + ∑ k : Fin 128, wide a14 ⟨(a6 (ix1 p)).toNat, h6 p⟩ k * stackW a17 384 (by omega) k c)
    + ∑ v : Fin 16, onehot (a0 (ix1 p)).toNat v * tabW a8 a17 0 (by omega) v c)
    + ∑ v : Fin 400, onehot (a2 (ix1 p)).toNat v * tabW a10 a17 128 (by omega) v c)
    + ∑ v : Fin 4, onehot (a4 (ix1 p)).toNat v * tabW a12 a17 256 (by omega) v c)
    + ∑ v : Fin 64, onehot (a5 (ix1 p)).toNat v * tabW a13 a17 320 (by omega) v c)

end Cert.Proof.Ker

end
-- ==== Proof.RefLemmas.lean ====
/-
  Reading lemmas for the reference's value, over the library's definitions only.

  * A gather of whole rows: for an operand `V × 64`, a `16384 × 1` column of start indices and the
    dimension numbers of a row lookup (offset axis 1, axis 0 collapsed and indexed), the result at `(p, c)` is
    the operand at `(r, c)` where `r` is the start index of row `p` read signed and clamped into `[0, V − 1]`.
  * A concatenation at an index: once the coordinate along the axis is located in piece `k`, the result is
    piece `k` at the index with that local coordinate; and where a coordinate falls among sizes laid end to
    end, by partial sums.
  * A conjunction-reduction of an array of ones from one is one.
  * A 32-bit word below a bound `V ≤ 2³¹` is nonnegative as a signed number and reads the same signed and
    unsigned.
-/
import Idealize.ShloMosaic.Lib.ValueIdx
import Idealize.ShloMosaic.Lib.ReduceAll
import Idealize.ShloMosaic.PureOps

noncomputable section

namespace Cert.ReferenceIdeal.RefValue

open Idealize.ShloMosaic Idealize.ShloMosaic.ValueIdx

/-! ## A gather of rows -/

/-- The dimension numbers of a row lookup in a `V × 64` table at a `16384 × 1` column of indices. -/
abbrev rowDims (V : Nat) (wf : GatherDims.WF ⟨2, ![V, 64]⟩ ⟨2, ![16384, 1]⟩ ⟨2, ![16384, 64]⟩ [1] [0] [] [0] [] 1 ![1, 64]) :
    GatherDims ⟨2, ![V, 64]⟩ ⟨2, ![16384, 1]⟩ ⟨2, ![16384, 64]⟩ where
  offsetDims := [1]
  collapsedSliceDims := [0]
  operandBatchingDims := []
  startIndicesBatchingDims := []
  startIndexMap := [0]
  indexVectorDim := 1
  sliceSizes := ![1, 64]
  wf := wf

section
variable {α : Type} {V w : Nat}
    (wf : GatherDims.WF ⟨2, ![V, 64]⟩ ⟨2, ![16384, 1]⟩ ⟨2, ![16384, 64]⟩ [1] [0] [] [0] [] 1 ![1, 64])
    (idx : IVec ⟨2, ![16384, 1]⟩ w) (p : Fin 16384) (c : Fin 64)

theorem row_axis0 :
    (rowDims V wf).start (ix2 p c) idx 0 + (rowDims V wf).batchCoord (ix2 p c) 0 + (rowDims V wf).offCoord (ix2 p c) 0
      = min (idx (ix2 p 0)).toInt.toNat (V - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims V wf).startIndexMap from List.mem_singleton.mpr rfl)]
  have hsi : (rowDims V wf).siIdx (ix2 p c) ⟨List.idxOf (0 : Fin 2) (rowDims V wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

theorem row_axis1 :
    (rowDims V wf).start (ix2 p c) idx 1 + (rowDims V wf).batchCoord (ix2 p c) 1 + (rowDims V wf).offCoord (ix2 p c) 1
      = c.val := by
  rw [GatherDims.batchCoord_eq_zero _ _ _ List.not_mem_nil]
  have h0 : (rowDims V wf).start (ix2 p c) idx 1 = 0 := by
    unfold GatherDims.start
    rw [dif_neg (show (1 : Fin 2) ∉ ([0] : List (Fin 2)) by decide)]
  have h1 : (rowDims V wf).offCoord (ix2 p c) 1 = c.val := by
    unfold GatherDims.offCoord
    rw [dif_pos (show (1 : Fin 2) ∈ (rowDims V wf).sKept from
      (GatherDims.mem_sKept _ _).mpr ⟨(show (1 : Fin 2) ∉ ([0] : List (Fin 2)) by decide), List.not_mem_nil⟩)]
    rfl
  rw [h0, h1]; omega

theorem gather_row_apply (hV : 0 < V) (x : (⟨2, ![V, 64]⟩ : Shape).Idx → α) :
    Host.gather (rowDims V wf) x idx (ix2 p c)
      = x (ix2 ⟨min (idx (ix2 p 0)).toInt.toNat (V - 1), by omega⟩ c) := by
  unfold Host.gather
  refine congrArg x (funext fun a => Fin.ext ?_)
  have key : ∀ a : Fin 2, ((rowDims V wf).operandIdx (ix2 p c) idx a).val
      = ((ix2 (⟨min (idx (ix2 p 0)).toInt.toNat (V - 1), by omega⟩ : Fin V) c : (⟨2, ![V, 64]⟩ : Shape).Idx) a).val :=
    Fin.forall_fin_two.2 ⟨row_axis0 wf idx p c, row_axis1 wf idx p c⟩
  exact key a
end

/-! ## A concatenation at an index -/

/-- Where a position falls among sizes laid end to end, by the partial sums: in piece `k` when the first `k`
    sizes sum to at most `c` and the first `k + 1` to more, at `c` less the first `k` sizes. -/
theorem locate_val : ∀ (ns : List Nat) (c : Nat) (h : c < ns.sum) (k : Nat),
    (ns.take k).sum ≤ c → c < (ns.take (k + 1)).sum →
    (locate ns c h).1.val = k ∧ (locate ns c h).2.val = c - (ns.take k).sum
  | [], c, h, _, _, _ => absurd h (Nat.not_lt_zero _)
  | n :: ns, c, h, 0, _, hhi => by
    have hc : c < n := by simpa using hhi
    rw [locate, dif_pos hc]
    exact ⟨rfl, by simp⟩
  | n :: ns, c, h, k + 1, hlo, hhi => by
    have hlo' : n + (ns.take k).sum ≤ c := by simpa using hlo
    have hhi' : c < n + (ns.take (k + 1)).sum := by simpa using hhi
    have hc : ¬ c < n := by omega
    have ih := locate_val ns (c - n) (by rw [List.sum_cons] at h; omega) k (by omega) (by omega)
    rw [locate, dif_neg hc]
    refine ⟨?_, ?_⟩
    · show (locate ns (c - n) _).1.val + 1 = k + 1
      rw [ih.1]
    · show (locate ns (c - n) _).2.val = c - ((n :: ns).take (k + 1)).sum
      rw [ih.2]; simp; omega

variable {α : Type}

/-- A concatenation read at an index: piece `k` of the list at the index `i` with the same coordinates off the
    axis, once the axis coordinate is located in piece `k` at `i`'s axis coordinate. -/
theorem concatenate_apply_of_locate {t : Shape} (a : Fin t.rank) (xs : List ((s : Shape) × (s.Idx → α)))
    (h : Shape.Concatenates (xs.map (·.1)) t a) (j : t.Idx) (k : Fin xs.length) (hr : xs[k].1.rank = t.rank)
    (i : xs[k].1.Idx)
    (hk : (locate ((xs.map (·.1)).map fun s => if h : s.rank = t.rank then s.size (a.cast h.symm) else 0) (j a).val
        (by rw [h.2.2]; exact (j a).isLt)).1.val = k.val)
    (hpos : (locate ((xs.map (·.1)).map fun s => if h : s.rank = t.rank then s.size (a.cast h.symm) else 0) (j a).val
        (by rw [h.2.2]; exact (j a).isLt)).2.val = (i (a.cast hr.symm)).val)
    (hi : ∀ b : Fin xs[k].1.rank, b.cast hr ≠ a → (i b).val = (j (b.cast hr)).val) :
    concatenate t a xs h j = xs[k].2 i := by
  let ns : List Nat := (xs.map (·.1)).map fun s => if h : s.rank = t.rank then s.size (a.cast h.symm) else 0
  have PF : (j a).val < ns.sum := by rw [h.2.2]; exact (j a).isLt
  have HLen : ∀ kr : (k : Fin ns.length) × Fin ns[k], kr.1.val < xs.length := fun kr => by simpa [ns] using kr.1.isLt
  have HP : ∀ kr : (k : Fin ns.length) × Fin ns[k], (xs[kr.1.val]'(HLen kr)).1 ∈ xs.map (·.1) := fun kr =>
    List.mem_map.2 ⟨_, List.getElem_mem (HLen kr), rfl⟩
  have HR : ∀ kr : (k : Fin ns.length) × Fin ns[k], (xs[kr.1.val]'(HLen kr)).1.rank = t.rank := fun kr => (h.2.1 _ (HP kr)).1
  have HK : ∀ (kr : (k : Fin ns.length) × Fin ns[k]) (b : Fin (xs[kr.1.val]'(HLen kr)).1.rank), b.cast (HR kr) = a →
      ns[kr.1] = (xs[kr.1.val]'(HLen kr)).1.size b := fun kr b hb => by
    have : ns[kr.1.val]'(kr.1.isLt) = (if h' : (xs[kr.1.val]'(HLen kr)).1.rank = t.rank then (xs[kr.1.val]'(HLen kr)).1.size (a.cast h'.symm) else 0) := by
      simp [ns]
    have e : a.cast (HR kr).symm = b := Fin.ext (by have := congrArg Fin.val hb; simpa using this.symm)
    rw [Fin.getElem_fin, this, dif_pos (HR kr), e]
  have HB : ∀ (kr : (k : Fin ns.length) × Fin ns[k]) (b : Fin (xs[kr.1.val]'(HLen kr)).1.rank), b.cast (HR kr) ≠ a →
      t.size (b.cast (HR kr)) = (xs[kr.1.val]'(HLen kr)).1.size b := fun kr b hb =>
    ((h.2.1 _ (HP kr)).2 (b.cast (HR kr)) hb).symm
  show (fun kr : (k : Fin ns.length) × Fin ns[k] =>
      (xs[kr.1.val]'(HLen kr)).2 (fun b => if hb : b.cast (HR kr) = a then kr.2.cast (HK kr b hb) else (j (b.cast (HR kr))).cast (HB kr b hb)))
      (locate ns (j a).val PF) = xs[k].2 i
  have hk' : (locate ns (j a).val PF).1.val = k.val := hk
  have hpos' : (locate ns (j a).val PF).2.val = (i (a.cast hr.symm)).val := hpos
  generalize locate ns (j a).val PF = kr at hk' hpos'
  obtain ⟨⟨kv, hkv⟩, pos⟩ := kr
  obtain ⟨kk, hkk⟩ := k
  simp only at hk' hpos'
  subst hk'
  refine congrArg (xs[kv]'hkk).2 (funext fun b => Fin.ext ?_)
  by_cases hb : b.cast hr = a
  · rw [dif_pos hb]
    have e : b = a.cast hr.symm := Fin.ext (by have := congrArg Fin.val hb; simpa using this)
    show pos.val = (i b).val
    rw [hpos']
    exact congrArg (fun q => (i q).val) e.symm
  · rw [dif_neg hb]
    simpa using (hi b hb).symm

/-! ## A conjunction of ones -/

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and` of an array that is one everywhere, from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x _ fun i _ => hx i

/-! ## Words below a bound -/

section Words
variable {w : BitVec 32} {V : Nat}

theorem word_toInt (hV : V ≤ 2 ^ 31) (hw : w.toNat < V) : w.toInt = (w.toNat : Int) :=
  BitVec.toInt_eq_toNat_of_lt (by omega)

theorem word_toInt_toNat (hV : V ≤ 2 ^ 31) (hw : w.toNat < V) : w.toInt.toNat = w.toNat := by
  rw [word_toInt hV hw]; exact Int.toNat_natCast _

theorem word_not_slt (hV : V ≤ 2 ^ 31) (hw : w.toNat < V) : ¬ IntOp.cmpi .slt w 0#32 = 1#1 := by
  rw [IntOp.cmpi_slt, word_toInt hV hw, show (0#32 : BitVec 32).toInt = 0 from by decide]; omega

theorem word_sge (hV : V ≤ 2 ^ 31) (hw : w.toNat < V) : IntOp.cmpi .sge w 0#32 = 1#1 := by
  rw [IntOp.cmpi_sge, word_toInt hV hw, show (0#32 : BitVec 32).toInt = 0 from by decide]; omega

theorem word_sle {c : BitVec 32} (hV : V ≤ 2 ^ 31) (hc : c.toNat + 1 = V) (hw : w.toNat < V) : IntOp.cmpi .sle w c = 1#1 := by
  rw [IntOp.cmpi_sle, word_toInt hV hw, word_toInt (w := c) hV (by omega)]; omega

end Words

end Cert.ReferenceIdeal.RefValue

end
-- ==== Proof.RefValue.lean ====
/-
  The reference's value at an index, at the ideal instance, under the precondition's index ranges.

  `refOut` at `(p, c)` is the contraction over the 512 concatenated features of the feature value with the
  final weight, plus the final bias.  The 512 features are eight blocks of 64.  Under the ranges every
  lookup's index is nonnegative and below its table's height, so the wrap of negative indices is not
  taken, the in-range mask is one and the gather's clamp leaves the index: block `t < 7` at `(p, k)` is
  table `t` at row `idx_t p`, column `k`.  The eighth block is `freq p · W_num[0, k] + b_num[k]`.
-/
import proofs.«211833_g48473000902786_cont_8to1_c_597_31_alg».proof.Defs
import proofs.«211833_g48473000902786_cont_8to1_c_597_31_alg».proof.Proof.Gen.Pre_input_domain
import proofs.«211833_g48473000902786_cont_8to1_c_597_31_alg».proof.Proof.RefOut
import proofs.«211833_g48473000902786_cont_8to1_c_597_31_alg».proof.Proof.RefLemmas
import Idealize.ShloMosaic.Lib.StackMember

set_option maxRecDepth 8192

noncomputable section

namespace Cert.ReferenceIdeal.RefValue

open Cert.ReferenceIdeal Cert.ReferenceIdeal.Facts₀ Cert.ReferenceIdeal.RefRun
open Idealize.ShloMosaic Idealize.ShloMosaic.ValueIdx Idealize.ShloMosaic.StackMember

/-! ## Broadcasts read at an index -/

section Bcast
variable {α : Type}

/-- A per-row array as a `16384 × 1` column reads the row's entry. -/
theorem bcast_col (x : S16384.Idx → α) (i : S16384x1.Idx) :
    broadcastInDim S16384x1 ![0] bcast_S16384_S16384x1_0 x i = x (ix1 (⟨(i 0).val, idx2_lt0 i⟩ : Fin 16384)) :=
  broadcastInDim_apply _ _ x i (ix1 (⟨(i 0).val, idx2_lt0 i⟩ : Fin 16384)) (fun a => by match a with | ⟨0, _⟩ => rfl)

/-- A per-row array broadcast along the 64 columns reads the row's entry. -/
theorem bcast_row (x : S16384.Idx → α) (p : Fin 16384) (k : Fin 64) :
    broadcastInDim S16384x64 ![0] bcast_S16384_S16384x64_0 x (ix2 p k) = x (ix1 p) :=
  broadcastInDim_apply _ _ x (ix2 p k) (ix1 p) (fun a => by match a with | ⟨0, _⟩ => rfl)

/-- A bias vector as a `1 × 64` row broadcast down the 16384 rows reads the column's entry. -/
theorem bcast_bias (x : S64.Idx → α) (p : Fin 16384) (k : Fin 64) :
    broadcastInDim S16384x64 ![0, 1] bcast_S1x64_S16384x64_0_1 (broadcastInDim S1x64 ![1] bcast_S64_S1x64_1 x) (ix2 p k)
      = x (ix1 k) := by
  rw [broadcastInDim_apply _ _ _ (ix2 p k) (ix2 (0 : Fin 1) k)
    (fun a => by match a with | ⟨0, _⟩ => rfl | ⟨1, _⟩ => rfl)]
  exact broadcastInDim_apply _ _ x (ix2 (0 : Fin 1) k) (ix1 k) (fun a => by match a with | ⟨0, _⟩ => rfl)

end Bcast

/-! ## One lookup at an index -/

section Take
variable {F : FTy → Type} [FloatOps F]
variable {V : Nat} (cV cV1 : BitVec 32) (idx : IVec S16384 32)

/-- Below the table's height (at most `2³¹`) the index is nonnegative: the wrap is not taken. -/
theorem wrapIdx_apply (hV : V ≤ 2 ^ 31) (hidx : ∀ q : Fin 16384, (idx (ix1 q)).toNat < V) (q : Fin 16384) :
    wrapIdx cV idx (ix1 q) = idx (ix1 q) := by
  show Scalar.select (IntOp.cmpi .slt (idx (ix1 q)) 0#32) (IntOp.addi (idx (ix1 q)) cV) (idx (ix1 q)) = _
  exact if_neg (word_not_slt hV (hidx q))

theorem idxCol_apply (i : S16384x1.Idx) :
    idxCol cV idx i = wrapIdx cV idx (ix1 (⟨(i 0).val, idx2_lt0 i⟩ : Fin 16384)) :=
  bcast_col _ i

/-- With every index in `[0, V)` and `cV1 = V − 1` the in-range mask is one everywhere. -/
theorem inRange_apply (hV : V ≤ 2 ^ 31) (hc1 : cV1.toNat + 1 = V) (hidx : ∀ q : Fin 16384, (idx (ix1 q)).toNat < V)
    (q : S16384.Idx) : inRange cV cV1 idx q = 1#1 := by
  unfold inRange
  refine reduce_andi_ones _ _ _ _ (fun i => ?_) (fun _ => rfl) q
  show IntOp.andi (IntOp.cmpi .sge (idxCol cV idx i) 0#32) (IntOp.cmpi .sle (idxCol cV idx i) cV1) = 1#1
  rw [idxCol_apply, wrapIdx_apply cV idx hV hidx]
  exact IntOp.andi_eq_one.2 ⟨word_sge hV (hidx _), word_sle hV hc1 (hidx _)⟩

/-- THE LOOKUP AT `(p, k)`: the table at row `idx p` (read unsigned), column `k` — no mask, wrap or clamp left. -/
theorem takeT_apply (wf : GatherDims.WF ⟨2, ![V, 64]⟩ ⟨2, ![16384, 1]⟩ ⟨2, ![16384, 64]⟩ [1] [0] [] [0] [] 1 ![1, 64])
    (hV0 : 0 < V) (hV : V ≤ 2 ^ 31) (hc1 : cV1.toNat + 1 = V) (E : FVec F ⟨2, ![V, 64]⟩ .f32)
    (hidx : ∀ q : Fin 16384, (idx (ix1 q)).toNat < V) (p : Fin 16384) (k : Fin 64) :
    takeT (rowDims V wf) cV cV1 E idx (ix2 p k) = E (ix2 ⟨(idx (ix1 p)).toNat, hidx p⟩ k) := by
  unfold takeT
  rw [select_apply, bcast_row, inRange_apply cV cV1 idx hV hc1 hidx, select_one]
  dsimp only
  rw [gather_row_apply wf (idxCol cV idx) p k hV0 E]
  refine congrArg E (congrArg (fun r => ix2 r k) (Fin.ext ?_))
  show min ((idxCol cV idx (ix2 p 0)).toInt.toNat) (V - 1) = (idx (ix1 p)).toNat
  rw [idxCol_apply, wrapIdx_apply cV idx hV hidx]
  show min ((idx (ix1 p)).toInt.toNat) (V - 1) = (idx (ix1 p)).toNat
  rw [word_toInt_toNat hV (hidx p)]
  have := hidx p
  exact Nat.min_eq_left (by omega)

end Take

/-! ## The numeric block and the final product, at the ideal instance -/

/-- The numeric block at `(p, k)`: `freq p · W_num[0, k] + b_num[k]`. -/
theorem numT_apply (a7 : FVec Ideal S16384 .f32) (a15 : FVec Ideal S1x64 .f32) (a16 : FVec Ideal S64 .f32)
    (p : Fin 16384) (k : Fin 64) :
    numT a7 a15 a16 (ix2 p k) = a7 (ix1 p) * a15 (ix2 (0 : Fin 1) k) + a16 (ix1 k) := by
  show Host.dotGeneral (DotDims.plain 16384 1 64) none (broadcastInDim S16384x1 ![0] bcast_S16384_S16384x1_0 a7) a15 (ix2 p k)
      + broadcastInDim S16384x64 ![0, 1] bcast_S1x64_S16384x64_0_1 (broadcastInDim S1x64 ![1] bcast_S64_S1x64_1 a16) (ix2 p k) = _
  rw [dotGeneral_plain_apply, Fin.sum_univ_one, bcast_bias, bcast_col]

/-- `refOut` at `(p, c)`: the sum over the 512 concatenated features against the final weight, plus the final bias. -/
theorem refOut_apply (a0 a1 a2 a3 a4 a5 a6 : IVec S16384 32) (a7 : FVec Ideal S16384 .f32) (a8 : FVec Ideal S16x64 .f32)
    (a9 : FVec Ideal S100000x64 .f32) (a10 : FVec Ideal S400x64 .f32) (a11 : FVec Ideal S100000x64 .f32) (a12 : FVec Ideal S4x64 .f32)
    (a13 : FVec Ideal S64x64 .f32) (a14 : FVec Ideal S100000x64 .f32) (a15 : FVec Ideal S1x64 .f32) (a16 : FVec Ideal S64 .f32)
    (a17 : FVec Ideal S512x64 .f32) (a18 : FVec Ideal S64 .f32) (p : Fin 16384) (c : Fin 64) :
    refOut a0 a1 a2 a3 a4 a5 a6 a7 a8 a9 a10 a11 a12 a13 a14 a15 a16 a17 a18 (ix2 p c)
      = (∑ k : Fin 512, catT a0 a1 a2 a3 a4 a5 a6 a7 a8 a9 a10 a11 a12 a13 a14 a15 a16 (ix2 p k) * a17 (ix2 k c)) + a18 (ix1 c) := by
  show Host.dotGeneral (DotDims.plain 16384 512 64) none (catT a0 a1 a2 a3 a4 a5 a6 a7 a8 a9 a10 a11 a12 a13 a14 a15 a16) a17 (ix2 p c)
      + broadcastInDim S16384x64 ![0, 1] bcast_S1x64_S16384x64_0_1 (broadcastInDim S1x64 ![1] bcast_S64_S1x64_1 a18) (ix2 p c) = _
  rw [dotGeneral_plain_apply, bcast_bias]

/-! ## The eight blocks of the concatenation -/

/-- The same with the piece named: the list's entry `k` is the array `x` of shape `s`. -/
theorem concatenate_apply_of_locate' {α : Type} {t : Shape} (a : Fin t.rank) (xs : List ((s : Shape) × (s.Idx → α)))
    (h : Shape.Concatenates (xs.map (·.1)) t a) (j : t.Idx) (k : Nat) (hk : k < xs.length) (s : Shape) (x : s.Idx → α)
    (hx : xs[k] = ⟨s, x⟩) (hr : s.rank = t.rank) (i : s.Idx)
    (hloc : (locate ((xs.map (·.1)).map fun s => if h : s.rank = t.rank then s.size (a.cast h.symm) else 0) (j a).val
        (by rw [h.2.2]; exact (j a).isLt)).1.val = k)
    (hpos : (locate ((xs.map (·.1)).map fun s => if h : s.rank = t.rank then s.size (a.cast h.symm) else 0) (j a).val
        (by rw [h.2.2]; exact (j a).isLt)).2.val = (i (a.cast hr.symm)).val)
    (hi : ∀ b : Fin s.rank, b.cast hr ≠ a → (i b).val = (j (b.cast hr)).val) :
    concatenate t a xs h j = x i := by
  have key : ∀ q : (s : Shape) × (s.Idx → α), xs[k] = q → ∀ (hr : q.1.rank = t.rank) (i : q.1.Idx),
      (locate ((xs.map (·.1)).map fun s => if h : s.rank = t.rank then s.size (a.cast h.symm) else 0) (j a).val
        (by rw [h.2.2]; exact (j a).isLt)).2.val = (i (a.cast hr.symm)).val →
      (∀ b : Fin q.1.rank, b.cast hr ≠ a → (i b).val = (j (b.cast hr)).val) →
      concatenate t a xs h j = q.2 i := by
    intro q hq
    subst hq
    exact fun hr i hpos hi => concatenate_apply_of_locate a xs h j ⟨k, hk⟩ hr i hloc hpos hi
  exact key ⟨s, x⟩ hx hr i hpos hi

/-- Among eight sizes of 64 laid end to end, position `k + 64 t` is in piece `t` at `k`. -/
theorem locate_block (t : Nat) (ht : t < 8) (k : Fin 64) (c : Nat) (hc : c = k.val + 64 * t) (ns : List Nat)
    (hns : ns = [64, 64, 64, 64, 64, 64, 64, 64]) (h : c < ns.sum) :
    (locate ns c h).1.val = t ∧ (locate ns c h).2.val = k.val := by
  subst hns hc
  have hk := k.isLt
  have L := locate_val [64, 64, 64, 64, 64, 64, 64, 64] (k.val + 64 * t) h t
    (by interval_cases t <;> simp) (by interval_cases t <;> simp <;> omega)
  refine ⟨L.1, L.2.trans ?_⟩
  interval_cases t <;> simp

section Blocks
variable {F : FTy → Type} [FloatOps F]

set_option maxHeartbeats 1000000 in
theorem catT_block0 (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) (p : Fin 16384) (k : Fin 64) :
    catT a0 a1 a2 a3 a4 a5 a6 a7 a8 a9 a10 a11 a12 a13 a14 a15 a16 (ix2 p ⟨k.val + 0, by have := k.isLt; omega⟩) = (takeT gather_S16x64_S16384x1_S16384x64_1_0_n_n_0_1_164 16#32 15#32 a8 a0) (ix2 p k) := by
  have h512 : k.val + 0 < ([64, 64, 64, 64, 64, 64, 64, 64] : List Nat).sum := by have := k.isLt; simp; omega
  have L := locate_block 0 (by omega) k (k.val + 0) (by omega) [64, 64, 64, 64, 64, 64, 64, 64] rfl h512
  unfold catT
  refine concatenate_apply_of_locate' (t := S16384x512) (1 : Fin 2)
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1 (ix2 p ⟨k.val + 0, by have := k.isLt; omega⟩)
    0 (by simp) S16384x64 (takeT gather_S16x64_S16384x1_S16384x64_1_0_n_n_0_1_164 16#32 15#32 a8 a0) rfl rfl (ix2 p k) ?_ ?_ ?_
  · exact L.1
  · exact L.2
  · exact Fin.forall_fin_two.2 ⟨fun _ => rfl, fun h => absurd rfl h⟩

set_option maxHeartbeats 1000000 in
theorem catT_block1 (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) (p : Fin 16384) (k : Fin 64) :
    catT a0 a1 a2 a3 a4 a5 a6 a7 a8 a9 a10 a11 a12 a13 a14 a15 a16 (ix2 p ⟨k.val + 64, by have := k.isLt; omega⟩) = (takeT gather_S100000x64_S16384x1_S16384x64_1_0_n_n_0_1_164 100000#32 99999#32 a9 a1) (ix2 p k) := by
  have h512 : k.val + 64 < ([64, 64, 64, 64, 64, 64, 64, 64] : List Nat).sum := by have := k.isLt; simp; omega
  have L := locate_block 1 (by omega) k (k.val + 64) (by omega) [64, 64, 64, 64, 64, 64, 64, 64] rfl h512
  unfold catT
  refine concatenate_apply_of_locate' (t := S16384x512) (1 : Fin 2)
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1 (ix2 p ⟨k.val + 64, by have := k.isLt; omega⟩)
    1 (by simp) S16384x64 (takeT gather_S100000x64_S16384x1_S16384x64_1_0_n_n_0_1_164 100000#32 99999#32 a9 a1) rfl rfl (ix2 p k) ?_ ?_ ?_
  · exact L.1
  · exact L.2
  · exact Fin.forall_fin_two.2 ⟨fun _ => rfl, fun h => absurd rfl h⟩

set_option maxHeartbeats 1000000 in
theorem catT_block2 (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) (p : Fin 16384) (k : Fin 64) :
    catT a0 a1 a2 a3 a4 a5 a6 a7 a8 a9 a10 a11 a12 a13 a14 a15 a16 (ix2 p ⟨k.val + 128, by have := k.isLt; omega⟩) = (takeT gather_S400x64_S16384x1_S16384x64_1_0_n_n_0_1_164 400#32 399#32 a10 a2) (ix2 p k) := by
  have h512 : k.val + 128 < ([64, 64, 64, 64, 64, 64, 64, 64] : List Nat).sum := by have := k.isLt; simp; omega
  have L := locate_block 2 (by omega) k (k.val + 128) (by omega) [64, 64, 64, 64, 64, 64, 64, 64] rfl h512
  unfold catT
  refine concatenate_apply_of_locate' (t := S16384x512) (1 : Fin 2)
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1 (ix2 p ⟨k.val + 128, by have := k.isLt; omega⟩)
    2 (by simp) S16384x64 (takeT gather_S400x64_S16384x1_S16384x64_1_0_n_n_0_1_164 400#32 399#32 a10 a2) rfl rfl (ix2 p k) ?_ ?_ ?_
  · exact L.1
  · exact L.2
  · exact Fin.forall_fin_two.2 ⟨fun _ => rfl, fun h => absurd rfl h⟩

set_option maxHeartbeats 1000000 in
theorem catT_block3 (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) (p : Fin 16384) (k : Fin 64) :
    catT a0 a1 a2 a3 a4 a5 a6 a7 a8 a9 a10 a11 a12 a13 a14 a15 a16 (ix2 p ⟨k.val + 192, by have := k.isLt; omega⟩) = (takeT gather_S100000x64_S16384x1_S16384x64_1_0_n_n_0_1_164 100000#32 99999#32 a11 a3) (ix2 p k) := by
  have h512 : k.val + 192 < ([64, 64, 64, 64, 64, 64, 64, 64] : List Nat).sum := by have := k.isLt; simp; omega
  have L := locate_block 3 (by omega) k (k.val + 192) (by omega) [64, 64, 64, 64, 64, 64, 64, 64] rfl h512
  unfold catT
  refine concatenate_apply_of_locate' (t := S16384x512) (1 : Fin 2)
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1 (ix2 p ⟨k.val + 192, by have := k.isLt; omega⟩)
    3 (by simp) S16384x64 (takeT gather_S100000x64_S16384x1_S16384x64_1_0_n_n_0_1_164 100000#32 99999#32 a11 a3) rfl rfl (ix2 p k) ?_ ?_ ?_
  · exact L.1
  · exact L.2
  · exact Fin.forall_fin_two.2 ⟨fun _ => rfl, fun h => absurd rfl h⟩

set_option maxHeartbeats 1000000 in
theorem catT_block4 (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) (p : Fin 16384) (k : Fin 64) :
    catT a0 a1 a2 a3 a4 a5 a6 a7 a8 a9 a10 a11 a12 a13 a14 a15 a16 (ix2 p ⟨k.val + 256, by have := k.isLt; omega⟩) = (takeT gather_S4x64_S16384x1_S16384x64_1_0_n_n_0_1_164 4#32 3#32 a12 a4) (ix2 p k) := by
  have h512 : k.val + 256 < ([64, 64, 64, 64, 64, 64, 64, 64] : List Nat).sum := by have := k.isLt; simp; omega
  have L := locate_block 4 (by omega) k (k.val + 256) (by omega) [64, 64, 64, 64, 64, 64, 64, 64] rfl h512
  unfold catT
  refine concatenate_apply_of_locate' (t := S16384x512) (1 : Fin 2)
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1 (ix2 p ⟨k.val + 256, by have := k.isLt; omega⟩)
    4 (by simp) S16384x64 (takeT gather_S4x64_S16384x1_S16384x64_1_0_n_n_0_1_164 4#32 3#32 a12 a4) rfl rfl (ix2 p k) ?_ ?_ ?_
  · exact L.1
  · exact L.2
  · exact Fin.forall_fin_two.2 ⟨fun _ => rfl, fun h => absurd rfl h⟩

set_option maxHeartbeats 1000000 in
theorem catT_block5 (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) (p : Fin 16384) (k : Fin 64) :
    catT a0 a1 a2 a3 a4 a5 a6 a7 a8 a9 a10 a11 a12 a13 a14 a15 a16 (ix2 p ⟨k.val + 320, by have := k.isLt; omega⟩) = (takeT gather_S64x64_S16384x1_S16384x64_1_0_n_n_0_1_164 64#32 63#32 a13 a5) (ix2 p k) := by
  have h512 : k.val + 320 < ([64, 64, 64, 64, 64, 64, 64, 64] : List Nat).sum := by have := k.isLt; simp; omega
  have L := locate_block 5 (by omega) k (k.val + 320) (by omega) [64, 64, 64, 64, 64, 64, 64, 64] rfl h512
  unfold catT
  refine concatenate_apply_of_locate' (t := S16384x512) (1 : Fin 2)
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1 (ix2 p ⟨k.val + 320, by have := k.isLt; omega⟩)
    5 (by simp) S16384x64 (takeT gather_S64x64_S16384x1_S16384x64_1_0_n_n_0_1_164 64#32 63#32 a13 a5) rfl rfl (ix2 p k) ?_ ?_ ?_
  · exact L.1
  · exact L.2
  · exact Fin.forall_fin_two.2 ⟨fun _ => rfl, fun h => absurd rfl h⟩

set_option maxHeartbeats 1000000 in
theorem catT_block6 (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) (p : Fin 16384) (k : Fin 64) :
    catT a0 a1 a2 a3 a4 a5 a6 a7 a8 a9 a10 a11 a12 a13 a14 a15 a16 (ix2 p ⟨k.val + 384, by have := k.isLt; omega⟩) = (takeT gather_S100000x64_S16384x1_S16384x64_1_0_n_n_0_1_164 100000#32 99999#32 a14 a6) (ix2 p k) := by
  have h512 : k.val + 384 < ([64, 64, 64, 64, 64, 64, 64, 64] : List Nat).sum := by have := k.isLt; simp; omega
  have L := locate_block 6 (by omega) k (k.val + 384) (by omega) [64, 64, 64, 64, 64, 64, 64, 64] rfl h512
  unfold catT
  refine concatenate_apply_of_locate' (t := S16384x512) (1 : Fin 2)
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1 (ix2 p ⟨k.val + 384, by have := k.isLt; omega⟩)
    6 (by simp) S16384x64 (takeT gather_S100000x64_S16384x1_S16384x64_1_0_n_n_0_1_164 100000#32 99999#32 a14 a6) rfl rfl (ix2 p k) ?_ ?_ ?_
  · exact L.1
  · exact L.2
  · exact Fin.forall_fin_two.2 ⟨fun _ => rfl, fun h => absurd rfl h⟩

set_option maxHeartbeats 1000000 in
theorem catT_block7 (a0 a1 a2 a3 a4 a5 a6 : IVec S16384 32) (a7 : FVec F S16384 .f32) (a8 : FVec F S16x64 .f32)
    (a9 : FVec F S100000x64 .f32) (a10 : FVec F S400x64 .f32) (a11 : FVec F S100000x64 .f32) (a12 : FVec F S4x64 .f32)
    (a13 : FVec F S64x64 .f32) (a14 : FVec F S100000x64 .f32) (a15 : FVec F S1x64 .f32) (a16 : FVec F S64 .f32) (p : Fin 16384) (k : Fin 64) :
    catT a0 a1 a2 a3 a4 a5 a6 a7 a8 a9 a10 a11 a12 a13 a14 a15 a16 (ix2 p ⟨k.val + 448, by have := k.isLt; omega⟩) = (numT a7 a15 a16) (ix2 p k) := by
  have h512 : k.val + 448 < ([64, 64, 64, 64, 64, 64, 64, 64] : List Nat).sum := by have := k.isLt; simp; omega
  have L := locate_block 7 (by omega) k (k.val + 448) (by omega) [64, 64, 64, 64, 64, 64, 64, 64] rfl h512
  unfold catT
  refine concatenate_apply_of_locate' (t := S16384x512) (1 : Fin 2)
    [⟨S16384x64, takeT gather_S16x64_S16384x1_S16384x64_1_0_n_n_0_1_164 16#32 15#32 a8 a0⟩,
     ⟨S16384x64, takeT gather_S100000x64_S16384x1_S16384x64_1_0_n_n_0_1_164 100000#32 99999#32 a9 a1⟩,
     ⟨S16384x64, takeT gather_S400x64_S16384x1_S16384x64_1_0_n_n_0_1_164 400#32 399#32 a10 a2⟩,
     ⟨S16384x64, takeT gather_S100000x64_S16384x1_S16384x64_1_0_n_n_0_1_164 100000#32 99999#32 a11 a3⟩,
     ⟨S16384x64, takeT gather_S4x64_S16384x1_S16384x64_1_0_n_n_0_1_164 4#32 3#32 a12 a4⟩,
     ⟨S16384x64, takeT gather_S64x64_S16384x1_S16384x64_1_0_n_n_0_1_164 64#32 63#32 a13 a5⟩,
     ⟨S16384x64, takeT gather_S100000x64_S16384x1_S16384x64_1_0_n_n_0_1_164 100000#32 99999#32 a14 a6⟩,
     ⟨S16384x64, numT a7 a15 a16⟩]
    concatenates_S16384x64_S16384x64_S16384x64_S16384x64_S16384x64_S16384x64_S16384x64_S16384x64_S16384x512_d1 (ix2 p ⟨k.val + 448, by have := k.isLt; omega⟩)
    7 (by simp) S16384x64 (numT a7 a15 a16) rfl rfl (ix2 p k) ?_ ?_ ?_
  · exact L.1
  · exact L.2
  · exact Fin.forall_fin_two.2 ⟨fun _ => rfl, fun h => absurd rfl h⟩

/-! ### Each table's lookup at an index, under its range -/

theorem take_S16x64_apply (E : FVec F S16x64 .f32) (idx : IVec S16384 32) (h : ∀ q : Fin 16384, (idx (ix1 q)).toNat < 16)
    (p : Fin 16384) (k : Fin 64) :
    takeT gather_S16x64_S16384x1_S16384x64_1_0_n_n_0_1_164 16#32 15#32 E idx (ix2 p k) = E (ix2 ⟨(idx (ix1 p)).toNat, h p⟩ k) :=
  takeT_apply 16#32 15#32 idx gather_S16x64_S16384x1_S16384x64_1_0_n_n_0_1_164_wf (by decide) (by decide) (by decide) E h p k

theorem take_S100000x64_apply (E : FVec F S100000x64 .f32) (idx : IVec S16384 32) (h : ∀ q : Fin 16384, (idx (ix1 q)).toNat < 100000)
    (p : Fin 16384) (k : Fin 64) :
    takeT gather_S100000x64_S16384x1_S16384x64_1_0_n_n_0_1_164 100000#32 99999#32 E idx (ix2 p k) = E (ix2 ⟨(idx (ix1 p)).toNat, h p⟩ k) :=
  takeT_apply 100000#32 99999#32 idx gather_S100000x64_S16384x1_S16384x64_1_0_n_n_0_1_164_wf (by decide) (by decide) (by decide) E h p k

theorem take_S400x64_apply (E : FVec F S400x64 .f32) (idx : IVec S16384 32) (h : ∀ q : Fin 16384, (idx (ix1 q)).toNat < 400)
    (p : Fin 16384) (k : Fin 64) :
    takeT gather_S400x64_S16384x1_S16384x64_1_0_n_n_0_1_164 400#32 399#32 E idx (ix2 p k) = E (ix2 ⟨(idx (ix1 p)).toNat, h p⟩ k) :=
  takeT_apply 400#32 399#32 idx gather_S400x64_S16384x1_S16384x64_1_0_n_n_0_1_164_wf (by decide) (by decide) (by decide) E h p k

theorem take_S4x64_apply (E : FVec F S4x64 .f32) (idx : IVec S16384 32) (h : ∀ q : Fin 16384, (idx (ix1 q)).toNat < 4)
    (p : Fin 16384) (k : Fin 64) :
    takeT gather_S4x64_S16384x1_S16384x64_1_0_n_n_0_1_164 4#32 3#32 E idx (ix2 p k) = E (ix2 ⟨(idx (ix1 p)).toNat, h p⟩ k) :=
  takeT_apply 4#32 3#32 idx gather_S4x64_S16384x1_S16384x64_1_0_n_n_0_1_164_wf (by decide) (by decide) (by decide) E h p k

theorem take_S64x64_apply (E : FVec F S64x64 .f32) (idx : IVec S16384 32) (h : ∀ q : Fin 16384, (idx (ix1 q)).toNat < 64)
    (p : Fin 16384) (k : Fin 64) :
    takeT gather_S64x64_S16384x1_S16384x64_1_0_n_n_0_1_164 64#32 63#32 E idx (ix2 p k) = E (ix2 ⟨(idx (ix1 p)).toNat, h p⟩ k) :=
  takeT_apply 64#32 63#32 idx gather_S64x64_S16384x1_S16384x64_1_0_n_n_0_1_164_wf (by decide) (by decide) (by decide) E h p k

end Blocks

/-- A sum over the 512 features is the sum over the eight blocks of the sums over their 64 columns. -/
theorem sum_fin512 {M : Type} [AddCommMonoid M] (f : Fin 512 → M) :
    ∑ j : Fin 512, f j = ∑ t : Fin 8, ∑ k : Fin 64, f ⟨k.val + 64 * t.val, by have := k.isLt; have := t.isLt; omega⟩ := by
  rw [← Equiv.sum_comp (finProdFinEquiv (m := 8) (n := 64)) f, Fintype.sum_prod_type]
  rfl

/-- The same with the eight blocks written out. -/
theorem sum_fin512_blocks {M : Type} [AddCommMonoid M] (f : Fin 512 → M) :
    ∑ j : Fin 512, f j
      = (∑ k : Fin 64, f ⟨k.val + 0, by have := k.isLt; omega⟩)
        + (∑ k : Fin 64, f ⟨k.val + 64, by have := k.isLt; omega⟩)
        + (∑ k : Fin 64, f ⟨k.val + 128, by have := k.isLt; omega⟩)
        + (∑ k : Fin 64, f ⟨k.val + 192, by have := k.isLt; omega⟩)
        + (∑ k : Fin 64, f ⟨k.val + 256, by have := k.isLt; omega⟩)
        + (∑ k : Fin 64, f ⟨k.val + 320, by have := k.isLt; omega⟩)
        + (∑ k : Fin 64, f ⟨k.val + 384, by have := k.isLt; omega⟩)
        + (∑ k : Fin 64, f ⟨k.val + 448, by have := k.isLt; omega⟩) := by
  rw [sum_fin512, Fin.sum_univ_eight]
  rfl

/-! ## The value at an index -/

/-- THE REFERENCE AT `(p, c)` under the index ranges: for each of the seven tables the sum over its 64 columns of the
    looked-up row against its block of the final weight, the numeric block likewise, and the final bias. -/
theorem refOut_blocks (a0 a1 a2 a3 a4 a5 a6 : IVec S16384 32) (a7 : FVec Ideal S16384 .f32) (a8 : FVec Ideal S16x64 .f32)
    (a9 : FVec Ideal S100000x64 .f32) (a10 : FVec Ideal S400x64 .f32) (a11 : FVec Ideal S100000x64 .f32) (a12 : FVec Ideal S4x64 .f32)
    (a13 : FVec Ideal S64x64 .f32) (a14 : FVec Ideal S100000x64 .f32) (a15 : FVec Ideal S1x64 .f32) (a16 : FVec Ideal S64 .f32)
    (a17 : FVec Ideal S512x64 .f32) (a18 : FVec Ideal S64 .f32)
    (h0 : ∀ q : Fin 16384, (a0 (ix1 q)).toNat < 16)
    (h1 : ∀ q : Fin 16384, (a1 (ix1 q)).toNat < 100000)
    (h2 : ∀ q : Fin 16384, (a2 (ix1 q)).toNat < 400)
    (h3 : ∀ q : Fin 16384, (a3 (ix1 q)).toNat < 100000)
    (h4 : ∀ q : Fin 16384, (a4 (ix1 q)).toNat < 4)
    (h5 : ∀ q : Fin 16384, (a5 (ix1 q)).toNat < 64)
    (h6 : ∀ q : Fin 16384, (a6 (ix1 q)).toNat < 100000)
    (p : Fin 16384) (c : Fin 64) :
    refOut a0 a1 a2 a3 a4 a5 a6 a7 a8 a9 a10 a11 a12 a13 a14 a15 a16 a17 a18 (ix2 p c)
      = (∑ k : Fin 64, a8 (ix2 ⟨(a0 (ix1 p)).toNat, h0 p⟩ k) * a17 (ix2 ⟨k.val + 0, by have := k.isLt; omega⟩ c))
        + (∑ k : Fin 64, a9 (ix2 ⟨(a1 (ix1 p)).toNat, h1 p⟩ k) * a17 (ix2 ⟨k.val + 64, by have := k.isLt; omega⟩ c))
        + (∑ k : Fin 64, a10 (ix2 ⟨(a2 (ix1 p)).toNat, h2 p⟩ k) * a17 (ix2 ⟨k.val + 128, by have := k.isLt; omega⟩ c))
        + (∑ k : Fin 64, a11 (ix2 ⟨(a3 (ix1 p)).toNat, h3 p⟩ k) * a17 (ix2 ⟨k.val + 192, by have := k.isLt; omega⟩ c))
        + (∑ k : Fin 64, a12 (ix2 ⟨(a4 (ix1 p)).toNat, h4 p⟩ k) * a17 (ix2 ⟨k.val + 256, by have := k.isLt; omega⟩ c))
        + (∑ k : Fin 64, a13 (ix2 ⟨(a5 (ix1 p)).toNat, h5 p⟩ k) * a17 (ix2 ⟨k.val + 320, by have := k.isLt; omega⟩ c))
        + (∑ k : Fin 64, a14 (ix2 ⟨(a6 (ix1 p)).toNat, h6 p⟩ k) * a17 (ix2 ⟨k.val + 384, by have := k.isLt; omega⟩ c))
        + (∑ k : Fin 64, (a7 (ix1 p) * a15 (ix2 (0 : Fin 1) k) + a16 (ix1 k)) * a17 (ix2 ⟨k.val + 448, by have := k.isLt; omega⟩ c))
        + a18 (ix1 c) := by
  rw [refOut_apply, sum_fin512_blocks]
  simp only [catT_block0, catT_block1, catT_block2, catT_block3, catT_block4, catT_block5, catT_block6, catT_block7, numT_apply,
    take_S16x64_apply a8 a0 h0, take_S100000x64_apply a9 a1 h1, take_S400x64_apply a10 a2 h2, take_S100000x64_apply a11 a3 h3, take_S4x64_apply a12 a4 h4, take_S64x64_apply a13 a5 h5, take_S100000x64_apply a14 a6 h6]

end Cert.ReferenceIdeal.RefValue

end
-- ==== Proof.Law.lean ====
/-
  The algebra that joins the two programs' results at one output entry, on the extended reals.

  The reference multiplies one concatenated row of 512 entries — seven looked-up embedding rows of 64 entries and
  the affine image `fr * wn k + bn k` of the numerical feature — by a column of the final weights and adds a bias.
  The kernel adds nine terms instead: the bias with `bn` pushed through the last weight block, `fr` times `wn`
  pushed through that block, three products of a row widened by 64 zeros with a weight block stacked twice, and
  four products of a one-hot row with a table already multiplied by its weight block. Each regrouping below holds
  for ALL extended reals except the one that distributes a product over a sum (`affine_block`), which is stated
  for real entries.
-/
import Mathlib.Data.EReal.Basic
import Mathlib.Algebra.BigOperators.Fin
import Mathlib.Algebra.BigOperators.Ring.Finset
import Mathlib.Logic.Equiv.Fin.Basic

open scoped BigOperators

namespace Cert.Proof.Law

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A one-hot row times a column picks the column's entry: `0 * x = 0` and `1 * x = x` for every extended real. -/
theorem onehot_sum {n : ℕ} (i : Fin n) (x : Fin n → EReal) :
    ∑ v : Fin n, (if v = i then (1 : EReal) else 0) * x v = x i := by
  rw [Finset.sum_eq_single i]
  · rw [if_pos rfl, one_mul]
  · intro v _ hv; rw [if_neg hv, zero_mul]
  · intro h; exact absurd (Finset.mem_univ i) h

/-- A sum over `a + b` terms is the sum of its first `a` and its last `b`. -/
theorem sum_split {a b : ℕ} (g : Fin (a + b) → EReal) :
    ∑ k : Fin (a + b), g k = (∑ j : Fin a, g (Fin.castAdd b j)) + ∑ j : Fin b, g (Fin.natAdd a j) :=
  Fin.sum_univ_add g

/-- A row whose last `b` entries are zero contributes only its first `a` products. -/
theorem padded_sum {a b : ℕ} (f w : Fin (a + b) → EReal) (hz : ∀ j : Fin b, f (Fin.natAdd a j) = 0) :
    ∑ k : Fin (a + b), f k * w k = ∑ j : Fin a, f (Fin.castAdd b j) * w (Fin.castAdd b j) := by
  rw [sum_split, Finset.sum_eq_zero (s := Finset.univ) (f := fun j : Fin b => f (Fin.natAdd a j) * w (Fin.natAdd a j))
    (fun j _ => by rw [hz j, zero_mul]), add_zero]

/-- A sum over `n * b` terms is the sum of its `n` blocks of `b` consecutive terms. -/
theorem sum_blocks {n b : ℕ} (g : Fin (n * b) → EReal) :
    ∑ k : Fin (n * b), g k = ∑ t : Fin n, ∑ j : Fin b, g (finProdFinEquiv (t, j)) := by
  rw [← Equiv.sum_comp finProdFinEquiv g, Fintype.sum_prod_type]

/-- The numerical feature's block, for real entries: the bias pushed through the weights, plus the feature times
    the projection pushed through the weights, is the affine row `fr * wn k + bn k` times the weights, plus the bias. -/
theorem affine_block {n : ℕ} (fr bf : ℝ) (wn bn w : Fin n → ℝ) :
    ((∑ k : Fin n, (bn k : EReal) * (w k : EReal)) + (bf : EReal)) + (fr : EReal) * ∑ k : Fin n, (wn k : EReal) * (w k : EReal)
      = (∑ k : Fin n, ((fr : EReal) * (wn k : EReal) + (bn k : EReal)) * (w k : EReal)) + (bf : EReal) := by
  simp only [← EReal.coe_mul, ← EReal.coe_add, ← coe_sum]
  congr 1
  rw [Finset.mul_sum, add_right_comm, ← Finset.sum_add_distrib]
  congr 1
  refine Finset.sum_congr rfl fun k _ => ?_
  ring

end Cert.Proof.Law
-- ==== Proof.KerBridge.lean ====
/-
  The kernel's nine terms are the reference's contraction.

  A one-hot row times a premultiplied table picks the table's row, so it is that lookup's block of the
  reference's sum.  A row widened by 64 zeros times a weight block stacked twice is the row times the block.
  The constant row plus the frequency times the pushed-through projection is the affine block's sum plus the
  final bias — the one step that distributes a product over a sum, which needs real entries.  What remains is
  reordering a sum of nine extended reals.
-/
import proofs.«211833_g48473000902786_cont_8to1_c_597_31_alg».proof.Proof.KerSpec
import proofs.«211833_g48473000902786_cont_8to1_c_597_31_alg».proof.Proof.RefValue
import proofs.«211833_g48473000902786_cont_8to1_c_597_31_alg».proof.Proof.Law

noncomputable section

namespace Cert.Proof.Ker

open Cert.ReferenceIdeal Cert.ReferenceIdeal.RefRun Idealize.ShloMosaic Idealize.ShloMosaic.ValueIdx

/-- A one-hot row at `i < n` times a column is the column's entry `i`. -/
theorem onehot_sum {n : Nat} (i : Nat) (hi : i < n) (x : Fin n → EReal) :
    ∑ v : Fin n, onehot i v * x v = x ⟨i, hi⟩ := by
  rw [← Cert.Proof.Law.onehot_sum ⟨i, hi⟩ x]
  refine Finset.sum_congr rfl fun v _ => ?_
  unfold onehot
  by_cases hv : v.val = i
  · rw [if_pos hv, if_pos (Fin.ext hv)]
  · rw [if_neg hv, if_neg (fun h => hv (congrArg Fin.val h))]

/-- A widened row times a twice-stacked block is the row times the block. -/
theorem wide_stack {V : Nat} (E : FVec Ideal ⟨2, ![V, 64]⟩ .f32) (r : Fin V) (W : FVec Ideal S512x64 .f32)
    (o : Nat) (ho : o + 64 ≤ 512) (c : Fin 64) :
    ∑ k : Fin 128, wide E r k * stackW W o ho k c = ∑ j : Fin 64, E (ix2 r j) * W (ix2 (wrow o ho j) c) := by
  have hz : ∀ j : Fin 64, wide E r (Fin.natAdd 64 j) = 0 := fun j => by
    unfold wide
    exact dif_neg (by show ¬ (64 + j.val < 64); omega)
  refine (Cert.Proof.Law.padded_sum (a := 64) (b := 64) (fun k => wide E r k) (fun k => stackW W o ho k c) hz).trans ?_
  refine Finset.sum_congr rfl fun j _ => ?_
  have e1 : wide E r (Fin.castAdd 64 j) = E (ix2 r j) := by
    unfold wide
    exact dif_pos (show (Fin.castAdd 64 j).val < 64 from j.isLt)
  have e2 : stackW W o ho (Fin.castAdd 64 j) c = W (ix2 (wrow o ho j) c) := by
    unfold stackW
    exact congrArg (fun q => W (ix2 q c)) (Fin.ext (by show j.val % 64 + o = j.val + o; rw [Nat.mod_eq_of_lt j.isLt]))
  rw [e1, e2]

/-- The affine block, for real entries. -/
theorem affine_blk (fr : EReal) (x15 x16 w : Fin 64 → EReal) (b : EReal) (h7 : ∃ r : ℝ, fr = (r : EReal))
    (h15 : ∀ k, ∃ r : ℝ, x15 k = (r : EReal)) (h16 : ∀ k, ∃ r : ℝ, x16 k = (r : EReal))
    (hw : ∀ k, ∃ r : ℝ, w k = (r : EReal)) (hb : ∃ r : ℝ, b = (r : EReal)) :
    ((∑ k : Fin 64, x16 k * w k) + b) + fr * (∑ k : Fin 64, x15 k * w k)
      = (∑ k : Fin 64, (fr * x15 k + x16 k) * w k) + b := by
  obtain ⟨r7, rfl⟩ := h7
  obtain ⟨rb, rfl⟩ := hb
  choose wn hwn using h15
  choose bn hbn using h16
  choose ww hww using hw
  obtain rfl : x15 = fun k => ((wn k : ℝ) : EReal) := funext hwn
  obtain rfl : x16 = fun k => ((bn k : ℝ) : EReal) := funext hbn
  obtain rfl : w = fun k => ((ww k : ℝ) : EReal) := funext hww
  exact Cert.Proof.Law.affine_block r7 rb wn bn ww

/-- Nine extended reals added in the kernel's order and in the reference's. -/
theorem regroup (B0 B1 B2 B3 B4 B5 B6 B7 b : EReal) :
    ((((((((B7 + b) + B1) + B3) + B6) + B0) + B2) + B4) + B5)
      = ((((((((B0 + B1) + B2) + B3) + B4) + B5) + B6) + B7) + b) := by
  abel

/-- THE KERNEL'S TERM IS THE REFERENCE'S at every `(p, c)`, under the index ranges and with the frequency, the
    numeric projection and bias, the final weight and the final bias real. -/
theorem kerOut_eq_refOut (a0 a1 a2 a3 a4 a5 a6 : IVec S16384 32) (a7 : FVec Ideal S16384 .f32) (a8 : FVec Ideal S16x64 .f32)
    (a9 : FVec Ideal S100000x64 .f32) (a10 : FVec Ideal S400x64 .f32) (a11 : FVec Ideal S100000x64 .f32) (a12 : FVec Ideal S4x64 .f32)
    (a13 : FVec Ideal S64x64 .f32) (a14 : FVec Ideal S100000x64 .f32) (a15 : FVec Ideal S1x64 .f32) (a16 : FVec Ideal S64 .f32)
    (a17 : FVec Ideal S512x64 .f32) (a18 : FVec Ideal S64 .f32)
    (h0 : ∀ q : Fin 16384, (a0 (ix1 q)).toNat < 16)
    (h1 : ∀ q : Fin 16384, (a1 (ix1 q)).toNat < 100000)
    (h2 : ∀ q : Fin 16384, (a2 (ix1 q)).toNat < 400)
    (h3 : ∀ q : Fin 16384, (a3 (ix1 q)).toNat < 100000)
    (h4 : ∀ q : Fin 16384, (a4 (ix1 q)).toNat < 4)
    (h5 : ∀ q : Fin 16384, (a5 (ix1 q)).toNat < 64)
    (h6 : ∀ q : Fin 16384, (a6 (ix1 q)).toNat < 100000)
    (f7 : ∀ i, ∃ r : ℝ, a7 i = (r : EReal)) (f15 : ∀ i, ∃ r : ℝ, a15 i = (r : EReal)) (f16 : ∀ i, ∃ r : ℝ, a16 i = (r : EReal))
    (f17 : ∀ i, ∃ r : ℝ, a17 i = (r : EReal)) (f18 : ∀ i, ∃ r : ℝ, a18 i = (r : EReal))
    (p : Fin 16384) (c : Fin 64) :
    kerOut a0 a1 a2 a3 a4 a5 a6 a7 a8 a9 a10 a11 a12 a13 a14 a15 a16 a17 a18 h1 h3 h6 p c = refOut a0 a1 a2 a3 a4 a5 a6 a7 a8 a9 a10 a11 a12 a13 a14 a15 a16 a17 a18 (ix2 p c) := by
  rw [Cert.ReferenceIdeal.RefValue.refOut_blocks a0 a1 a2 a3 a4 a5 a6 a7 a8 a9 a10 a11 a12 a13 a14 a15 a16 a17 a18 h0 h1 h2 h3 h4 h5 h6 p c]
  have o0 := onehot_sum (a0 (ix1 p)).toNat (h0 p) (fun v => tabW a8 a17 0 (by omega) v c)
  have o2 := onehot_sum (a2 (ix1 p)).toNat (h2 p) (fun v => tabW a10 a17 128 (by omega) v c)
  have o4 := onehot_sum (a4 (ix1 p)).toNat (h4 p) (fun v => tabW a12 a17 256 (by omega) v c)
  have o5 := onehot_sum (a5 (ix1 p)).toNat (h5 p) (fun v => tabW a13 a17 320 (by omega) v c)
  have s1 := wide_stack a9 ⟨(a1 (ix1 p)).toNat, h1 p⟩ a17 64 (by omega) c
  have s3 := wide_stack a11 ⟨(a3 (ix1 p)).toNat, h3 p⟩ a17 192 (by omega) c
  have s6 := wide_stack a14 ⟨(a6 (ix1 p)).toNat, h6 p⟩ a17 384 (by omega) c
  have af := affine_blk (a7 (ix1 p)) (fun k => a15 (ix2 (0 : Fin 1) k)) (fun k => a16 (ix1 k))
    (fun k => a17 (ix2 (wrow 448 (by omega) k) c)) (a18 (ix1 c)) (f7 _) (fun k => f15 _) (fun k => f16 _) (fun k => f17 _) (f18 _)
  unfold kerOut c0 w7n
  rw [o0, o2, o4, o5, s1, s3, s6, af]
  exact regroup _ _ _ _ _ _ _ _ _

end Cert.Proof.Ker

end
-- ==== Proof.Algebraic.lean ====
/-
  The two idealized programs end with equal results, given what the kernel's run computes.

  The reference ends with its result at `refOut` of its arguments (its run, read back). On the kernel's side the
  arithmetic is settled: the nine-term sum the two TensorCore bodies add up over the gathered rows — `kerOut` — equals
  `refOut` entry by entry wherever the index arrays are in range and the float arrays finite, which the precondition
  says. What joins them is that the kernel's run ends with its result at `kerOut` of its arguments: `KernelValue`.
-/
import proofs.«211833_g48473000902786_cont_8to1_c_597_31_alg».proof.Defs
import proofs.«211833_g48473000902786_cont_8to1_c_597_31_alg».proof.Proof.RefRun
import proofs.«211833_g48473000902786_cont_8to1_c_597_31_alg».proof.Proof.RefPre
import proofs.«211833_g48473000902786_cont_8to1_c_597_31_alg».proof.Proof.KerPre
import proofs.«211833_g48473000902786_cont_8to1_c_597_31_alg».proof.Proof.KerSpec
import proofs.«211833_g48473000902786_cont_8to1_c_597_31_alg».proof.Proof.KerBridge

noncomputable section

namespace Cert.Proof

open Idealize.ShloMosaic Idealize.SL.Sem Idealize.ShloMosaic.ValueIdx

/-- The kernel's result array as the kernel computes it: entry `(p, c)` is `kerOut … p c`. -/
def kerArr (a0 a1 a2 a3 a4 a5 a6 : IVec Cert.ReferenceIdeal.S16384 32) (a7 : FVec Ideal Cert.ReferenceIdeal.S16384 .f32) (a8 : FVec Ideal Cert.ReferenceIdeal.S16x64 .f32)
    (a9 : FVec Ideal Cert.ReferenceIdeal.S100000x64 .f32) (a10 : FVec Ideal Cert.ReferenceIdeal.S400x64 .f32) (a11 : FVec Ideal Cert.ReferenceIdeal.S100000x64 .f32)
    (a12 : FVec Ideal Cert.ReferenceIdeal.S4x64 .f32) (a13 : FVec Ideal Cert.ReferenceIdeal.S64x64 .f32) (a14 : FVec Ideal Cert.ReferenceIdeal.S100000x64 .f32)
    (a15 : FVec Ideal Cert.ReferenceIdeal.S1x64 .f32) (a16 : FVec Ideal Cert.ReferenceIdeal.S64 .f32) (a17 : FVec Ideal Cert.ReferenceIdeal.S512x64 .f32) (a18 : FVec Ideal Cert.ReferenceIdeal.S64 .f32)
    (h1 : ∀ q : Fin 16384, (a1 (ix1 q)).toNat < 100000) (h3 : ∀ q : Fin 16384, (a3 (ix1 q)).toNat < 100000)
    (h6 : ∀ q : Fin 16384, (a6 (ix1 q)).toNat < 100000) : FVec Ideal Cert.ReferenceIdeal.S16384x64 .f32 :=
  fun j => Cert.Proof.Ker.kerOut a0 a1 a2 a3 a4 a5 a6 a7 a8 a9 a10 a11 a12 a13 a14 a15 a16 a17 a18 h1 h3 h6 (j 0) (j 1)

/-- What is owed on the kernel's side: under the precondition its run ends, on every device, with the result at
    `kerArr` of its argument arrays (for the in-range facts the precondition gives) and the arguments unchanged. -/
def KernelValue [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    θ_run (Cert.KernelIdeal.defs (F := Ideal)) (Cert.KernelIdeal.threads (F := Ideal)) ⟨m, fun _ => 0, g⟩ (fun r => ∀ c : Dev Cert.KernelIdeal.nD,
      (∃ h1 h3 h6, r.2.mem ((c.tc : Thread Cert.KernelIdeal.nD Cert.KernelIdeal.τ).loc Cert.KernelIdeal.main_v18)
          = kerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) h1 h3 h6)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

theorem algebraic_of_value [hKernelIdeal : Cert.KernelIdeal.Facts] [hReferenceIdeal : Cert.ReferenceIdeal.Facts] [hPre_input_domain : Cert.Pre_input_domain.Facts]
    (hk : KernelValue) : Cert.algebraic_KernelIdeal_ReferenceIdeal := by
  intro m g m' g' hpre hagree
  refine ⟨_, ?_, Cert.ReferenceIdeal.RefRun.run (F := Ideal) m' g'⟩
  refine (θ_run _ _ _).mono (fun r h c => ?_) (hk m g hpre)
  obtain ⟨⟨h1, h3, h6, hv⟩, hargs⟩ := h c
  refine ⟨?_, hargs⟩
  obtain ⟨e0, e1, e2, e3, e4, e5, e6, e7, e8, e9, e10, e11, e12, e13, e14, e15, e16, e17, e18⟩ := hagree c
  rw [hv, e0, e1, e2, e3, e4, e5, e6, e7, e8, e9, e10, e11, e12, e13, e14, e15, e16, e17, e18]
  obtain ⟨r0, r1, r2, r3, r4, r5, r6⟩ := Cert.ReferenceIdeal.RefValue.ranges_of_fn _ _ _ _ _ _ _ _ _ _ _ _ _ _ _ _ _ _ _ (hpre c)
  obtain ⟨f7, f15, f16, f17, f18⟩ := Cert.ReferenceIdeal.RefValue.finite_of_fn _ _ _ _ _ _ _ _ _ _ _ _ _ _ _ _ _ _ _ (hpre c)
  funext j
  rw [eq_ix2 j]
  exact Cert.Proof.Ker.kerOut_eq_refOut _ _ _ _ _ _ _ _ _ _ _ _ _ _ _ _ _ _ _ r0 r1 r2 r3 r4 r5 r6 f7 f15 f16 f17 f18 (j 0) (j 1)

end Cert.Proof

end
-- ==== Proof.PayLemmas.lean ====
/-
  Pure reading lemmas for the two TensorCore bodies' values, over the library's definitions only, at the ideal
  values (a float is an extended real).

  * A plain matrix product into a zero accumulator, read at an entry, is the sum over the contracted coordinate of
    the products of the entries.
  * A column `[a, 1]` broadcast to `[a, b]` reads, at `(p, c)`, the column at row `p`.
  * The column counter of an `[a, b]` array of 32-bit words reads, at `(p, c)`, the word of `c`.
  * A one-hot entry: "the word of `v` equals `w`", as a bit, widened to 32 bits and converted to a float, is
    the real `1` where `v` is `w`'s value and `0` elsewhere.
  * Two `[n, b]` arrays stacked along the rows read, at `(k, c)`, the first at `k` below `n` and the second at
    `k - n` from `n` on.
-/
import Idealize.ShloMosaic.Lib.ValueLayout
import Idealize.ShloMosaic.PureOps
import Idealize.ShloMosaic.PureOps.Ideal.Laws

noncomputable section

open scoped BigOperators

namespace Cert.Proof.Pay

open Idealize.ShloMosaic Idealize.ShloMosaic.ValueIdx

/-! ## A plain matrix product into a zero accumulator -/

/-- The dimension numbers of a plain product of an `m × k` by a `k × n` matrix: the left operand's axis 1 is
    contracted with the right operand's axis 0, no batch axis. -/
abbrev plainDims {m k n : Nat}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The product of an `m × k` by a `k × n` matrix accumulated into the zero array, read at `(a, b)`: the sum
    over the contracted coordinate `c` of `A (a, c) * B (c, b)`. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Proof.Pay

end
-- ==== Proof.PayRegion0.lean ====
/-
  The first TensorCore body's stored values read at an entry: each of its five small products is a plain matrix
  product into a zero accumulator, so its entry `(v, c)` is the sum over the contracted coordinate `k` of
  `A (v, k) * B (k, c)`; the sixth value is such a product of a single row, plus a bias row.
-/
import proofs.«211833_g48473000902786_cont_8to1_c_597_31_alg».proof.Proof.PayLemmas
import proofs.«211833_g48473000902786_cont_8to1_c_597_31_alg».proof.Proof.Gen.KernelIdeal.Skeleton

noncomputable section

open scoped BigOperators

namespace Cert.Proof.Pay

open Cert.KernelIdeal Cert.KernelIdeal.Gen Idealize.ShloMosaic Idealize.ShloMosaic.ValueIdx

/-- The `16 × 64` table times a `64 × 64` weight block. -/
theorem k1_pay2_apply (v0 : Vec Ideal S16x64 .f32) (v1 : Vec Ideal S64x64 .f32) (v : Fin 16) (c : Fin 64) :
    k1_pay2 v0 v1 (ix2 v c) = ∑ k : Fin 64, v0 (ix2 v k) * v1 (ix2 k c) :=
  matmul_zero_apply dot_S16x64_S64x64_S16x64_1_0_0_1_n_n_wf none v0 v1 v c

/-- The `400 × 64` table times a `64 × 64` weight block. -/
theorem k1_pay3_apply (v4 : Vec Ideal S400x64 .f32) (v5 : Vec Ideal S64x64 .f32) (v : Fin 400) (c : Fin 64) :
    k1_pay3 v4 v5 (ix2 v c) = ∑ k : Fin 64, v4 (ix2 v k) * v5 (ix2 k c) :=
  matmul_zero_apply dot_S400x64_S64x64_S400x64_1_0_0_1_n_n_wf none v4 v5 v c

/-- The `4 × 64` table times a `64 × 64` weight block. -/
theorem k1_pay4_apply (v8 : Vec Ideal S4x64 .f32) (v9 : Vec Ideal S64x64 .f32) (v : Fin 4) (c : Fin 64) :
    k1_pay4 v8 v9 (ix2 v c) = ∑ k : Fin 64, v8 (ix2 v k) * v9 (ix2 k c) :=
  matmul_zero_apply dot_S4x64_S64x64_S4x64_1_0_0_1_n_n_wf none v8 v9 v c

/-- The `64 × 64` table times a `64 × 64` weight block. -/
theorem k1_pay5_apply (v12 : Vec Ideal S64x64 .f32) (v13 : Vec Ideal S64x64 .f32) (v : Fin 64) (c : Fin 64) :
    k1_pay5 v12 v13 (ix2 v c) = ∑ k : Fin 64, v12 (ix2 v k) * v13 (ix2 k c) :=
  matmul_zero_apply dot_S64x64_S64x64_S64x64_1_0_0_1_n_n_wf none v12 v13 v c

/-- The one numeric weight row times a `64 × 64` weight block. -/
theorem k1_pay6_apply (v16 : Vec Ideal S1x64 .f32) (v17 : Vec Ideal S64x64 .f32) (c : Fin 64) :
    k1_pay6 v16 v17 (ix2 (0 : Fin 1) c) = ∑ k : Fin 64, v16 (ix2 (0 : Fin 1) k) * v17 (ix2 k c) :=
  matmul_zero_apply dot_S1x64_S64x64_S1x64_1_0_0_1_n_n_wf none v16 v17 0 c

/-- The one numeric bias row times a `64 × 64` weight block, plus the final bias row. -/
theorem k1_pay1_apply (v20 : Vec Ideal S1x64 .f32) (v22 : Vec Ideal S64x64 .f32) (v24 : Vec Ideal S1x64 .f32) (c : Fin 64) :
    k1_pay1 v20 v22 v24 (ix2 (0 : Fin 1) c)
      = (∑ k : Fin 64, v20 (ix2 (0 : Fin 1) k) * v22 (ix2 k c)) + v24 (ix2 (0 : Fin 1) c) := by
  unfold k1_pay1
  simp only [shapeCast_self]
  rw [addf_apply]
  exact congrArg (· + v24 (ix2 (0 : Fin 1) c)) (matmul_zero_apply dot_S1x64_S64x64_S1x64_1_0_0_1_n_n_wf none v20 v22 0 c)

end Cert.Proof.Pay

end
-- ==== Proof.PayOneHot.lean ====
/-
  More reading lemmas for the second TensorCore body's value, over the library's definitions only, at the ideal
  values.

  * A column `[a, 1]` broadcast to `[a, b]` reads, at `(p, c)`, the column at row `p`.
  * The column counter of an `[a, b]` array of 32-bit words reads, at `(p, c)`, the word of `c`.
  * A one-hot entry: the bit "the word of `v` equals `w`", widened to 32 bits and converted to a float, is the
    real `1` where `v` is `w`'s value and `0` elsewhere; so a product of the one-hot rows of a column of words
    with a table is, at `(r, c)`, the sum over the table's rows `v` of (one-hot of word `r` at `v`) times the
    table at `(v, c)`.
  * Two `[n, b]` arrays stacked along the rows read, at `(k, c)`, the first at `k` below `n` and the second at
    `k - n` from `n` on; so a product with the stack is the sum over the `n + n` stacked rows.
-/
import proofs.«211833_g48473000902786_cont_8to1_c_597_31_alg».proof.Proof.PayLemmas

noncomputable section

open scoped BigOperators

namespace Cert.Proof.Pay

open Idealize.ShloMosaic Idealize.ShloMosaic.ValueIdx

/-! ## A column broadcast over many columns, and the column counter -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The counter along axis 1 of an `[a, b]` array of 32-bit words reads, at `(p, c)`, the word of `c`. -/
theorem iota_cols_apply {a b : ℕ} (h : (⟨2, ![a, b]⟩ : Shape).Iotas .tc 32 [1]) (p : Fin a) (c : Fin b) :
    iota .tc ⟨2, ![a, b]⟩ 32 [1] h (ix2 p c) = BitVec.ofNat 32 c.val := by
  show BitVec.ofNat 32 (0 * _ + c.val) = _
  rw [Nat.zero_mul, Nat.zero_add]

/-! ## One-hot rows -/

/-- The one-hot row of a 32-bit word: `1` at the position that is the word's value, `0` at every other. -/
def oneHot (w : BitVec 32) {n : ℕ} (v : Fin n) : EReal := if v.val = w.toNat then 1 else 0

/-- The bit "the word of `v` equals `w`", widened to 32 bits and converted to a float, is `1` where `v` is
    `w`'s value and `0` elsewhere (`v` below `2 ^ 32`, so that its word determines it). -/
theorem onehot_word (v : ℕ) (hv : v < 2 ^ 32) (w : BitVec 32) :
    FloatOps.sitofp (F := Ideal) .f32 ((IntOp.cmpi .eq (BitVec.ofNat 32 v) w).setWidth 32)
      = if v = w.toNat then (1 : EReal) else 0 := by
  show (((((IntOp.cmpi .eq (BitVec.ofNat 32 v) w).setWidth 32).toInt : ℝ)) : EReal) = _
  by_cases h : BitVec.ofNat 32 v = w
  · subst h
    have e : IntOp.cmpi .eq (BitVec.ofNat 32 v) (BitVec.ofNat 32 v) = 1#1 := by simp [IntOp.cmpi]
    rw [e, if_pos (by rw [BitVec.toNat_ofNat, Nat.mod_eq_of_lt hv])]
    show (((1 : ℤ) : ℝ) : EReal) = 1
    simp
  · have e : IntOp.cmpi .eq (BitVec.ofNat 32 v) w = 0#1 := by
      show BitVec.ofBool (BitVec.ofNat 32 v == w) = 0#1
      rw [beq_eq_false_iff_ne.mpr h]; rfl
    rw [e, if_neg (fun hvw => h (by rw [hvw, BitVec.ofNat_toNat, BitVec.setWidth_eq]))]
    show (((0 : ℤ) : ℝ) : EReal) = 0
    simp

/-- The one-hot rows of a column `idx` of words (the column counter compared with the broadcast column, the bit
    widened and converted) times an `n × b` table, into a zero accumulator: at `(r, c)` the sum over the table's
    rows `v` of the one-hot row of `idx`'s word `r` at `v` times the table at `(v, c)`. -/
theorem onehotDot_apply {a n b : ℕ} (hn : n ≤ 2 ^ 32)
    (w : DotDims.WF ⟨2, ![a, n]⟩ ⟨2, ![n, b]⟩ ⟨2, ![a, b]⟩ [1] [0] [0] [1] [] [])
    (hi : (⟨2, ![a, n]⟩ : Shape).Iotas .tc 32 [1]) (hb : (⟨2, ![a, 1]⟩ : Shape).Broadcasts ⟨2, ![a, n]⟩)
    (hlt : 1 < 32) (idx : IVec ⟨2, ![a, 1]⟩ 32) (M : FVec Ideal ⟨2, ![n, b]⟩ .f32) (r : Fin a) (c : Fin b) :
    matmul (F := Ideal) (plainDims w) none
        (sitofp (F := Ideal) .f32
          (extui 32 (cmpi .eq (iota .tc ⟨2, ![a, n]⟩ 32 [1] hi) (broadcastTo ⟨2, ![a, n]⟩ idx hb)) hlt))
        M (constant (F := Ideal) ⟨2, ![a, b]⟩ .f32 0x00000000#32) (ix2 r c)
      = ∑ v : Fin n, oneHot (idx (ix2 r (0 : Fin 1))) v * M (ix2 v c) := by
  rw [matmul_zero_apply]
  refine Finset.sum_congr rfl fun v _ => ?_
  show FloatOps.sitofp (F := Ideal) .f32
      ((IntOp.cmpi .eq (iota .tc ⟨2, ![a, n]⟩ 32 [1] hi (ix2 r v)) (broadcastTo ⟨2, ![a, n]⟩ idx hb (ix2 r v))).setWidth 32)
      * M (ix2 v c) = _
  rw [iota_cols_apply, broadcastTo_a1_ab_apply, onehot_word v.val (by have := v.isLt; omega)]
  rfl

/-! ## Two blocks stacked along the rows -/

/-- Two `[n, b]` arrays concatenated along axis 0 read, at `(k, c)`, the first at row `k` where `k` is below
    `n` and the second at row `k - n` otherwise. -/
theorem concatenate_rows_apply {α : Type} {n m b : ℕ} (x₁ x₂ : (⟨2, ![n, b]⟩ : Shape).Idx → α)
    (h : Shape.Concatenates [(⟨2, ![n, b]⟩ : Shape), ⟨2, ![n, b]⟩] ⟨2, ![m, b]⟩ 0) (hm : m = n + n)
    (k : Fin m) (c : Fin b) :
    concatenate ⟨2, ![m, b]⟩ 0 [⟨_, x₁⟩, ⟨_, x₂⟩] h (ix2 k c)
      = if hk : k.val < n then x₁ (ix2 ⟨k.val, hk⟩ c) else x₂ (ix2 ⟨k.val - n, by omega⟩ c) := by
  split
  · rename_i hk
    refine concatenate_pair_apply_left 0 x₁ x₂ h (ix2 k c) rfl (ix2 ⟨k.val, hk⟩ c) fun bx => ?_
    match bx with
    | ⟨0, _⟩ => rfl
    | ⟨1, _⟩ => rfl
  · rename_i hk
    refine concatenate_pair_apply_right 0 x₁ x₂ h (ix2 k c) rfl rfl (ix2 ⟨k.val - n, by omega⟩ c) (fun bx hb => ?_) ?_
    · match bx with
      | ⟨0, _⟩ => exact absurd rfl hb
      | ⟨1, _⟩ => rfl
    · show (k.val - n) + n = k.val
      omega

/-- An `a × m` block times two `[n, b]` arrays stacked along the rows (`m = n + n`), into a zero accumulator:
    at `(r, c)` the sum over the stacked rows `k` of the block at `(r, k)` times the stack at `(k, c)`. -/
theorem stackDot_apply {a n m b : ℕ} (hm : m = n + n)
    (w : DotDims.WF ⟨2, ![a, m]⟩ ⟨2, ![m, b]⟩ ⟨2, ![a, b]⟩ [1] [0] [0] [1] [] [])
    (h : Shape.Concatenates [(⟨2, ![n, b]⟩ : Shape), ⟨2, ![n, b]⟩] ⟨2, ![m, b]⟩ 0)
    (f : FVec Ideal ⟨2, ![a, m]⟩ .f32) (x₁ x₂ : FVec Ideal ⟨2, ![n, b]⟩ .f32) (r : Fin a) (c : Fin b) :
    matmul (F := Ideal) (plainDims w) none f (concatenate ⟨2, ![m, b]⟩ 0 [⟨_, x₁⟩, ⟨_, x₂⟩] h)
        (constant (F := Ideal) ⟨2, ![a, b]⟩ .f32 0x00000000#32) (ix2 r c)
      = ∑ k : Fin m, f (ix2 r k)
          * (if hk : k.val < n then x₁ (ix2 ⟨k.val, hk⟩ c) else x₂ (ix2 ⟨k.val - n, by omega⟩ c)) := by
  rw [matmul_zero_apply]
  refine Finset.sum_congr rfl fun k _ => ?_
  rw [concatenate_rows_apply x₁ x₂ h hm k c]

end Cert.Proof.Pay

end
-- ==== Proof.PayRegion1.lean ====
/-
  The second TensorCore body's stored block read at an entry `(r, c)`: the bias row at `c`, plus the numeric
  column at `r` times the numeric weight row at `c`, plus three products of a `2048 × 128` block of gathered
  rows with a `64 × 64` weight block stacked on itself, plus four products of the one-hot rows of a column of
  indices with a small precomputed table.
-/
import proofs.«211833_g48473000902786_cont_8to1_c_597_31_alg».proof.Proof.PayOneHot
import proofs.«211833_g48473000902786_cont_8to1_c_597_31_alg».proof.Proof.Gen.KernelIdeal.Skeleton

noncomputable section

open scoped BigOperators

namespace Cert.Proof.Pay

open Cert.KernelIdeal Cert.KernelIdeal.Gen Idealize.ShloMosaic Idealize.ShloMosaic.ValueIdx

/-- Two `64 × 64` weight blocks stacked along the rows, read at `(k, c)`: the first at row `k` where `k` is
    below 64, the second at row `k - 64` otherwise. -/
def stacked (w w' : Vec Ideal S64x64 .f32) (k : Fin 128) (c : Fin 64) : EReal :=
  if h : k.val < 64 then w (ix2 ⟨k.val, h⟩ c) else w' (ix2 ⟨k.val - 64, by omega⟩ c)

/-- A `2048 × 128` block times two stacked `64 × 64` weight blocks, into a zero accumulator, at `(r, c)`. -/
theorem stackedDot_apply (f : FVec Ideal S2048x128 .f32) (x₁ x₂ : FVec Ideal S64x64 .f32) (r : Fin 2048) (c : Fin 64) :
    matmul (F := Ideal) (φ₁ := .f32) (φ₂ := .f32) dot_S2048x128_S128x64_S2048x64_1_0_0_1_n_n none f
        (concatenate S128x64 0 [⟨S64x64, x₁⟩, ⟨S64x64, x₂⟩] concatenates_S64x64_S64x64_S128x64_d0)
        (constant (F := Ideal) S2048x64 .f32 0x00000000#32) (ix2 r c)
      = ∑ k : Fin 128, f (ix2 r k) * stacked x₁ x₂ k c :=
  stackDot_apply (n := 64) rfl dot_S2048x128_S128x64_S2048x64_1_0_0_1_n_n_wf
    concatenates_S64x64_S64x64_S128x64_d0 f x₁ x₂ r c

/-- The first four terms and the three stacked products. -/
theorem k2_pay2_apply (c0 : Vec Ideal S1x64 .f32) (fr : Vec Ideal S2048x1 .f32) (w7n : Vec Ideal S1x64 .f32)
    (w1 w1' w3 w3' w6 w6' : Vec Ideal S64x64 .f32) (f1 f3 f6 : Vec Ideal S2048x128 .f32)
    (r : Fin 2048) (c : Fin 64) :
    k2_pay2 c0 fr w7n w1 w1' w3 w3' w6 w6' f1 f3 f6 (ix2 r c)
      = (((c0 (ix2 (0 : Fin 1) c) + fr (ix2 r (0 : Fin 1)) * w7n (ix2 (0 : Fin 1) c))
            + ∑ k : Fin 128, f1 (ix2 r k) * stacked w1 w1' k c)
          + ∑ k : Fin 128, f3 (ix2 r k) * stacked w3 w3' k c)
        + ∑ k : Fin 128, f6 (ix2 r k) * stacked w6 w6' k c := by
  unfold k2_pay2
  simp only [shapeCast_self, addf_apply, mulf_apply]
  refine congrArg₂ (· + ·) (congrArg₂ (· + ·) (congrArg₂ (· + ·) (congrArg₂ (· + ·) ?_ (congrArg₂ (· * ·) ?_ ?_))
    (stackedDot_apply f1 w1 w1' r c)) (stackedDot_apply f3 w3 w3' r c)) (stackedDot_apply f6 w6 w6' r c)
  · exact broadcastTo_1b_ab_apply c0 broadcasts_S1x64_S2048x64 r c
  · exact broadcastTo_a1_ab_apply fr broadcasts_S2048x1_S2048x64 r c
  · exact broadcastTo_1b_ab_apply w7n broadcasts_S1x64_S2048x64 r c

/-- The three one-hot products with the tables of 16, 400 and 4 rows, added to the running sum. -/
theorem k2_pay3_apply (v31 : FVec Ideal S2048x64 .f32) (i0 : Vec Ideal S2048x1 .i32) (m0 : Vec Ideal S16x64 .f32)
    (i2 : Vec Ideal S2048x1 .i32) (m2 : Vec Ideal S400x64 .f32) (i4 : Vec Ideal S2048x1 .i32)
    (m4 : Vec Ideal S4x64 .f32) (r : Fin 2048) (c : Fin 64) :
    k2_pay3 v31 i0 m0 i2 m2 i4 m4 (ix2 r c)
      = ((v31 (ix2 r c) + ∑ v : Fin 16, oneHot (i0 (ix2 r (0 : Fin 1))) v * m0 (ix2 v c))
          + ∑ v : Fin 400, oneHot (i2 (ix2 r (0 : Fin 1))) v * m2 (ix2 v c))
        + ∑ v : Fin 4, oneHot (i4 (ix2 r (0 : Fin 1))) v * m4 (ix2 v c) := by
  unfold k2_pay3
  simp only [shapeCast_self, addf_apply]
  refine congrArg₂ (· + ·) (congrArg₂ (· + ·) (congrArg₂ (· + ·) rfl ?_) ?_) ?_
  · exact onehotDot_apply (by norm_num) dot_S2048x16_S16x64_S2048x64_1_0_0_1_n_n_wf iota_S2048x16_d1_w32
      broadcasts_S2048x1_S2048x16 natLt_1_32 i0 m0 r c
  · exact onehotDot_apply (by norm_num) dot_S2048x400_S400x64_S2048x64_1_0_0_1_n_n_wf iota_S2048x400_d1_w32
      broadcasts_S2048x1_S2048x400 natLt_1_32 i2 m2 r c
  · exact onehotDot_apply (by norm_num) dot_S2048x4_S4x64_S2048x64_1_0_0_1_n_n_wf iota_S2048x4_d1_w32
      broadcasts_S2048x1_S2048x4 natLt_1_32 i4 m4 r c

/-- The fourth one-hot product, with the table of 64 rows, added to the running sum. -/
theorem k2_pay1_apply (v64 : FVec Ideal S2048x64 .f32) (m5 : Vec Ideal S64x64 .f32) (i5 : Vec Ideal S2048x1 .i32)
    (r : Fin 2048) (c : Fin 64) :
    k2_pay1 v64 (k2_pay4 m5) (k2_pay5 i5) (ix2 r c)
      = v64 (ix2 r c) + ∑ v : Fin 64, oneHot (i5 (ix2 r (0 : Fin 1))) v * m5 (ix2 v c) := by
  unfold k2_pay1 k2_pay4 k2_pay5
  simp only [shapeCast_self, addf_apply]
  exact congrArg (v64 (ix2 r c) + ·) (onehotDot_apply (by norm_num) dot_S2048x64_S64x64_S2048x64_1_0_0_1_n_n_wf
    iota_S2048x64_d1_w32 broadcasts_S2048x1_S2048x64 natLt_1_32 i5 m5 r c)

/-- The stored block of the second body, its payloads composed as the body composes them, at `(r, c)`: the nine
    terms, added from the left. -/
theorem k2_stored_apply (c0 : Vec Ideal S1x64 .f32) (fr : Vec Ideal S2048x1 .f32) (w7n : Vec Ideal S1x64 .f32)
    (w1 w1' w3 w3' w6 w6' : Vec Ideal S64x64 .f32) (f1 f3 f6 : Vec Ideal S2048x128 .f32)
    (i0 : Vec Ideal S2048x1 .i32) (m0 : Vec Ideal S16x64 .f32) (i2 : Vec Ideal S2048x1 .i32)
    (m2 : Vec Ideal S400x64 .f32) (i4 : Vec Ideal S2048x1 .i32) (m4 : Vec Ideal S4x64 .f32)
    (i5 : Vec Ideal S2048x1 .i32) (m5 : Vec Ideal S64x64 .f32) (r : Fin 2048) (c : Fin 64) :
    k2_pay1 (k2_pay3 (k2_pay2 c0 fr w7n w1 w1' w3 w3' w6 w6' f1 f3 f6) i0 m0 i2 m2 i4 m4) (k2_pay4 m5) (k2_pay5 i5)
        (ix2 r c)
      = ((((((((c0 (ix2 (0 : Fin 1) c) + fr (ix2 r (0 : Fin 1)) * w7n (ix2 (0 : Fin 1) c))
                      + ∑ k : Fin 128, f1 (ix2 r k) * stacked w1 w1' k c)
                    + ∑ k : Fin 128, f3 (ix2 r k) * stacked w3 w3' k c)
                  + ∑ k : Fin 128, f6 (ix2 r k) * stacked w6 w6' k c)
                + ∑ v : Fin 16, oneHot (i0 (ix2 r (0 : Fin 1))) v * m0 (ix2 v c))
              + ∑ v : Fin 400, oneHot (i2 (ix2 r (0 : Fin 1))) v * m2 (ix2 v c))
            + ∑ v : Fin 4, oneHot (i4 (ix2 r (0 : Fin 1))) v * m4 (ix2 v c))
          + ∑ v : Fin 64, oneHot (i5 (ix2 r (0 : Fin 1))) v * m5 (ix2 v c)) := by
  rw [k2_pay1_apply, k2_pay3_apply, k2_pay2_apply]

/-- A weight block stacked on itself reads, at `(k, c)`, the block at row `k mod 64`. -/
theorem stacked_self (w : Vec Ideal S64x64 .f32) (k : Fin 128) (c : Fin 64) :
    stacked w w k c = w (ix2 ⟨k.val % 64, Nat.mod_lt _ (by norm_num)⟩ c) := by
  unfold stacked
  split
  · rename_i h
    exact congrArg (fun q => w (ix2 q c)) (Fin.ext (Nat.mod_eq_of_lt h).symm)
  · rename_i h
    refine congrArg (fun q => w (ix2 q c)) (Fin.ext ?_)
    show k.val - 64 = k.val % 64
    have := k.isLt; omega

end Cert.Proof.Pay

end
-- ==== Proof.KerMatchCore.lean ====
/-
  The second TensorCore body's stored block is the kernel formula's row.

  Feed the second body, at grid point `t`, with rows `[2048 t, 2048 t + 2048)` of: the three gathered outputs (whose
  entries are the widened tables' rows at the index arrays' words), the four small-table index columns and the numerical
  feature's column (the launch arrays reshaped), with the stacked 64-row blocks 1, 3 and 6 of the final weights, and
  with what the first body stores — the four small tables times blocks 0, 2, 4 and 5, the numerical projection times
  block 7, and the numerical bias times block 7 plus the final bias. Then entry `(r, c)` of the block it stores is the
  nine-term sum `kerOut` at row `2048 t + r`, column `c`.
-/
import proofs.«211833_g48473000902786_cont_8to1_c_597_31_alg».proof.Proof.PayRegion0
import proofs.«211833_g48473000902786_cont_8to1_c_597_31_alg».proof.Proof.PayRegion1
import proofs.«211833_g48473000902786_cont_8to1_c_597_31_alg».proof.Proof.KerSpec

open scoped BigOperators

noncomputable section

namespace Cert.Proof.KI

open Cert.KernelIdeal Cert.KernelIdeal.Gen
open Idealize.ShloMosaic Idealize.ShloMosaic.ValueIdx
open Cert.Proof.Pay Cert.Proof.Ker

/-- The 64 rows of the final weights from row `o` on. -/
def wblk (W : FVec Ideal S512x64 .f32) (o : ℕ) (ho : o + 64 ≤ 512) : Vec Ideal S64x64 .f32 := fun y =>
  W (ix2 (⟨(y 0).val + o, by have h : (y 0 : ℕ) < 64 := (y 0).isLt; omega⟩ : Fin 512) (⟨(y 1).val, (y 1).isLt⟩ : Fin 64))

theorem wblk_apply (W : FVec Ideal S512x64 .f32) (o : ℕ) (ho : o + 64 ≤ 512) (k c : Fin 64) :
    wblk W o ho (ix2 k c) = W (ix2 (wrow o ho k) c) := rfl

/-- Rows `[2048 t, 2048 t + 2048)` of an array of 16384 rows. -/
def rowsBlk {α : Type} {n : ℕ} (A : (⟨2, ![16384, n]⟩ : Shape).Idx → α) (t : Fin 8) : (⟨2, ![2048, n]⟩ : Shape).Idx → α := fun y =>
  A (ix2 (⟨2048 * t.val + (y 0).val, by have h : (y 0 : ℕ) < 2048 := (y 0).isLt; have := t.isLt; omega⟩ : Fin 16384) (⟨(y 1).val, (y 1).isLt⟩ : Fin n))

/-- Row `2048 t + r`. -/
def rowAt (t : Fin 8) (r : Fin 2048) : Fin 16384 := ⟨2048 * t.val + r.val, by have := t.isLt; have := r.isLt; omega⟩

theorem rowsBlk_apply {α : Type} {n : ℕ} (A : (⟨2, ![16384, n]⟩ : Shape).Idx → α) (t : Fin 8) (r : Fin 2048) (k : Fin n) :
    rowsBlk A t (ix2 r k) = A (ix2 (rowAt t r) k) := rfl

set_option maxHeartbeats 4000000 in
theorem stored_eq_kerOut (a0 a1 a2 a3 a4 a5 a6 : IVec S16384 32) (a7 : FVec Ideal S16384 .f32) (a8 : FVec Ideal S16x64 .f32)
    (a9 : FVec Ideal S100000x64 .f32) (a10 : FVec Ideal S400x64 .f32) (a11 : FVec Ideal S100000x64 .f32) (a12 : FVec Ideal S4x64 .f32)
    (a13 : FVec Ideal S64x64 .f32) (a14 : FVec Ideal S100000x64 .f32) (a15 : FVec Ideal S1x64 .f32) (a16 : FVec Ideal S64 .f32) (a17 : FVec Ideal S512x64 .f32) (a18 : FVec Ideal S64 .f32)
    (h1 : ∀ q : Fin 16384, (a1 (ix1 q)).toNat < 100000) (h3 : ∀ q : Fin 16384, (a3 (ix1 q)).toNat < 100000)
    (h6 : ∀ q : Fin 16384, (a6 (ix1 q)).toNat < 100000)
    (G0 G1 G2 : FVec Ideal S16384x128 .f32)
    (hG0 : ∀ p k, G0 (ix2 p k) = wide a9 ⟨(a1 (ix1 p)).toNat, h1 p⟩ k)
    (hG1 : ∀ p k, G1 (ix2 p k) = wide a11 ⟨(a3 (ix1 p)).toNat, h3 p⟩ k)
    (hG2 : ∀ p k, G2 (ix2 p k) = wide a14 ⟨(a6 (ix1 p)).toNat, h6 p⟩ k)
    (I0 I2 I4 I5 : IVec S16384x1 32)
    (hI0 : ∀ p, I0 (ix2 p (0 : Fin 1)) = a0 (ix1 p)) (hI2 : ∀ p, I2 (ix2 p (0 : Fin 1)) = a2 (ix1 p))
    (hI4 : ∀ p, I4 (ix2 p (0 : Fin 1)) = a4 (ix1 p)) (hI5 : ∀ p, I5 (ix2 p (0 : Fin 1)) = a5 (ix1 p))
    (FR : FVec Ideal S16384x1 .f32) (hFR : ∀ p, FR (ix2 p (0 : Fin 1)) = a7 (ix1 p))
    (BN BF : FVec Ideal S1x64 .f32) (hBN : ∀ k, BN (ix2 (0 : Fin 1) k) = a16 (ix1 k)) (hBF : ∀ c, BF (ix2 (0 : Fin 1) c) = a18 (ix1 c))
    (t : Fin 8) (r : Fin 2048) (c : Fin 64) :
    k2_pay1 (k2_pay3 (k2_pay2 (k1_pay1 BN (wblk a17 448 (by norm_num)) BF) (rowsBlk FR t) (k1_pay6 a15 (wblk a17 448 (by norm_num)))
          (wblk a17 64 (by norm_num)) (wblk a17 64 (by norm_num)) (wblk a17 192 (by norm_num)) (wblk a17 192 (by norm_num))
          (wblk a17 384 (by norm_num)) (wblk a17 384 (by norm_num)) (rowsBlk G0 t) (rowsBlk G1 t) (rowsBlk G2 t))
        (rowsBlk I0 t) (k1_pay2 a8 (wblk a17 0 (by norm_num))) (rowsBlk I2 t) (k1_pay3 a10 (wblk a17 128 (by norm_num)))
        (rowsBlk I4 t) (k1_pay4 a12 (wblk a17 256 (by norm_num))))
      (k2_pay4 (k1_pay5 a13 (wblk a17 320 (by norm_num)))) (k2_pay5 (F := Ideal) (rowsBlk I5 t)) (ix2 r c)
      = kerOut a0 a1 a2 a3 a4 a5 a6 a7 a8 a9 a10 a11 a12 a13 a14 a15 a16 a17 a18 h1 h3 h6 (rowAt t r) c := by
  rw [k2_stored_apply]
  unfold kerOut
  have eC : k1_pay1 BN (wblk a17 448 (by norm_num)) BF (ix2 (0 : Fin 1) c) = Cert.Proof.Ker.c0 a16 a18 a17 c := by
    rw [k1_pay1_apply, hBF]; unfold Cert.Proof.Ker.c0
    congr 1
    exact Finset.sum_congr rfl fun k _ => by rw [hBN, wblk_apply]
  have eW : k1_pay6 a15 (wblk a17 448 (by norm_num)) (ix2 (0 : Fin 1) c) = Cert.Proof.Ker.w7n a15 a17 c := by
    rw [k1_pay6_apply]; unfold Cert.Proof.Ker.w7n
    exact Finset.sum_congr rfl fun k _ => by rw [wblk_apply]
  have eF : rowsBlk FR t (ix2 r (0 : Fin 1)) = a7 (ix1 (rowAt t r)) := by rw [rowsBlk_apply, hFR]
  have eS : ∀ (G : FVec Ideal S16384x128 .f32) (E : FVec Ideal S100000x64 .f32) (a : IVec S16384 32) (h : ∀ q : Fin 16384, (a (ix1 q)).toNat < 100000)
      (hG : ∀ p k, G (ix2 p k) = wide E ⟨(a (ix1 p)).toNat, h p⟩ k) (o : ℕ) (ho : o + 64 ≤ 512),
      (∑ k : Fin 128, rowsBlk G t (ix2 r k) * stacked (wblk a17 o ho) (wblk a17 o ho) k c)
        = ∑ k : Fin 128, wide E ⟨(a (ix1 (rowAt t r))).toNat, h (rowAt t r)⟩ k * stackW a17 o ho k c := by
    intro G E a h hG o ho
    refine Finset.sum_congr rfl fun k _ => ?_
    rw [rowsBlk_apply, hG, stacked_self, wblk_apply]
    rfl
  have eH : ∀ {n : ℕ} (I : IVec S16384x1 32) (a : IVec S16384 32) (hI : ∀ p, I (ix2 p (0 : Fin 1)) = a (ix1 p))
      (M : Fin n → EReal) (M' : Fin n → EReal) (hM : ∀ v, M v = M' v),
      (∑ v : Fin n, oneHot (rowsBlk I t (ix2 r (0 : Fin 1))) v * M v) = ∑ v : Fin n, onehot (a (ix1 (rowAt t r))).toNat v * M' v := by
    intro n I a hI M M' hM
    refine Finset.sum_congr rfl fun v _ => ?_
    rw [rowsBlk_apply, hI, hM]
    rfl
  rw [eC, eW, eF, eS G0 a9 a1 h1 hG0, eS G1 a11 a3 h3 hG1, eS G2 a14 a6 h6 hG2,
    eH I0 a0 hI0 _ (fun v => tabW a8 a17 0 (by norm_num) v c) (fun v => by rw [k1_pay2_apply]; unfold tabW; exact Finset.sum_congr rfl fun k _ => by rw [wblk_apply]),
    eH I2 a2 hI2 _ (fun v => tabW a10 a17 128 (by norm_num) v c) (fun v => by rw [k1_pay3_apply]; unfold tabW; exact Finset.sum_congr rfl fun k _ => by rw [wblk_apply]),
    eH I4 a4 hI4 _ (fun v => tabW a12 a17 256 (by norm_num) v c) (fun v => by rw [k1_pay4_apply]; unfold tabW; exact Finset.sum_congr rfl fun k _ => by rw [wblk_apply]),
    eH I5 a5 hI5 _ (fun v => tabW a13 a17 320 (by norm_num) v c) (fun v => by rw [k1_pay5_apply]; unfold tabW; exact Finset.sum_congr rfl fun k _ => by rw [wblk_apply])]

end Cert.Proof.KI

end
-- ==== Proof.TaskIndex.lean ====
/-
  Where the task's views sit in their arrays, coordinate by coordinate.

  Row `j` of plane `t` of the index scratch holds, at position `r`, element `(t, j, r)` of the scratch, and so does
  the plane at `(j, r)`; slot `s` of the row scratch holds element `(s, r, k)` at `(r, k)`; the task's slab of an
  index array holds element `(number, j, r)` at `(j, r)`; chunk `j` of the task's output rows holds element
  `(512 * number + 128 * j + r, k)` at `(r, k)`; the table is read as it is.
-/
import proofs.«211833_g48473000902786_cont_8to1_c_597_31_alg».proof.Proof.TaskViews
import proofs.«211833_g48473000902786_cont_8to1_c_597_31_alg».proof.Proof.TaskGeom
import Idealize.ShloMosaic.Lib.ValueIdx
import Idealize.ShloMosaic.Lib.ValueLayout

noncomputable section

namespace Cert.Proof.KI

open Cert.KernelIdeal Cert.KernelIdeal.Gen
open Idealize.ShloMosaic Idealize.ShloMosaic.ValueIdx
open Idealize.SL.Sem

/-- An index `x` matched with shape `[1, 1, a]` is `(0, 0, x)`. -/
theorem reshapeEquiv_ix1_11a {a : ℕ} (h : (⟨1, ![a]⟩ : Shape).numel = (⟨3, ![1, 1, a]⟩ : Shape).numel) (x : Fin a) :
    Shape.reshapeEquiv h (ix1 x) = ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add, Nat.add_zero])

variable (L : grid0.Coords)
theorem ivr0_0_emb (r : Fin 128) : (ivr0_0).view.emb (ix1 r) = (ix3 (0 : Fin 3) (0 : Fin 4) r : S3x4x128.Idx) := by
  show (Rect.unit (s := S3x4x128) ![0, 0, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr0_1_emb (r : Fin 128) : (ivr0_1).view.emb (ix1 r) = (ix3 (0 : Fin 3) (1 : Fin 4) r : S3x4x128.Idx) := by
  show (Rect.unit (s := S3x4x128) ![0, 1, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr0_2_emb (r : Fin 128) : (ivr0_2).view.emb (ix1 r) = (ix3 (0 : Fin 3) (2 : Fin 4) r : S3x4x128.Idx) := by
  show (Rect.unit (s := S3x4x128) ![0, 2, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr0_3_emb (r : Fin 128) : (ivr0_3).view.emb (ix1 r) = (ix3 (0 : Fin 3) (3 : Fin 4) r : S3x4x128.Idx) := by
  show (Rect.unit (s := S3x4x128) ![0, 3, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem iv0_emb (j : Fin 4) (r : Fin 128) : (iv0).view.emb (ix2 j r) = (ix3 (0 : Fin 3) j r : S3x4x128.Idx) := by
  show (Rect.unit (s := S3x4x128) ![0, 0, 0] S1x4x128.size _).emb (Shape.reshapeEquiv _ (ix2 j r)) = _
  rw [reshapeEquiv_ix2_1ab]
  funext a; apply Fin.ext
  match a with
  | 0 => rfl
  | 1 => show 0 + 1 * j.val = j.val; omega
  | 2 => show 0 + 1 * r.val = r.val; omega
theorem iSlab0_emb (j : Fin 4) (r : Fin 128) : (iSlab0 L).view.emb (ix2 j r) = (ix3 (numL L) j r : S32x4x128.Idx) := by
  show (Rect.unit (s := S32x4x128) (k0_off1 L) S1x4x128.size _).emb (Shape.reshapeEquiv _ (ix2 j r)) = _
  rw [reshapeEquiv_ix2_1ab]
  funext a; apply Fin.ext
  have e := Gen.k0_off1_eq L
  match a with
  | 0 => show k0_off1 L 0 + 1 * 0 = 2 * (L 1).val + (L 0).val; rw [e]; simp
  | 1 => show k0_off1 L 1 + 1 * j.val = j.val; rw [e]; simp
  | 2 => show k0_off1 L 2 + 1 * r.val = r.val; rw [e]; simp
theorem tab0_emb (y : S100000x128.Idx) : (tab0).view.emb y = y := by
  show (Rect.unit (s := S100000x128) ![0, 0] S100000x128.size _).emb y = y
  funext a; apply Fin.ext
  match a with
  | 0 => show 0 + 1 * (y 0).val = (y 0).val; omega
  | 1 => show 0 + 1 * (y 1).val = (y 1).val; omega
theorem oCh0_0_emb (r k : Fin 128) :
    ((oCh0_0 L).view.emb (ix2 r k) : S16384x128.Idx) 0 = 512 * (numL L).val + 128 * 0 + r.val ∧ ((oCh0_0 L).view.emb (ix2 r k) : S16384x128.Idx) 1 = k.val := by
  have e := Gen.k0_off2_eq L (0 : Fin 4)
  constructor
  · show k0_off2 L 0#32 0 + 1 * r.val = _
    rw [show (0#32 : BitVec 32) = BitVec.ofNat 32 (128 * ((0 : Fin 4) : ℕ)) from rfl, e]
    show 1024 * (L 1).val + 512 * (L 0).val + 128 * ((0 : Fin 4) : ℕ) + 1 * r.val = 512 * (2 * (L 1).val + (L 0).val) + 128 * 0 + r.val
    have : ((0 : Fin 4) : ℕ) = 0 := rfl
    omega
  · show k0_off2 L 0#32 1 + 1 * k.val = _
    rw [show (0#32 : BitVec 32) = BitVec.ofNat 32 (128 * ((0 : Fin 4) : ℕ)) from rfl, e]
    show 0 + 1 * k.val = k.val
    omega
theorem oCh0_1_emb (r k : Fin 128) :
    ((oCh0_1 L).view.emb (ix2 r k) : S16384x128.Idx) 0 = 512 * (numL L).val + 128 * 1 + r.val ∧ ((oCh0_1 L).view.emb (ix2 r k) : S16384x128.Idx) 1 = k.val := by
  have e := Gen.k0_off2_eq L (1 : Fin 4)
  constructor
  · show k0_off2 L 128#32 0 + 1 * r.val = _
    rw [show (128#32 : BitVec 32) = BitVec.ofNat 32 (128 * ((1 : Fin 4) : ℕ)) from rfl, e]
    show 1024 * (L 1).val + 512 * (L 0).val + 128 * ((1 : Fin 4) : ℕ) + 1 * r.val = 512 * (2 * (L 1).val + (L 0).val) + 128 * 1 + r.val
    have : ((1 : Fin 4) : ℕ) = 1 := rfl
    omega
  · show k0_off2 L 128#32 1 + 1 * k.val = _
    rw [show (128#32 : BitVec 32) = BitVec.ofNat 32 (128 * ((1 : Fin 4) : ℕ)) from rfl, e]
    show 0 + 1 * k.val = k.val
    omega
theorem oCh0_2_emb (r k : Fin 128) :
    ((oCh0_2 L).view.emb (ix2 r k) : S16384x128.Idx) 0 = 512 * (numL L).val + 128 * 2 + r.val ∧ ((oCh0_2 L).view.emb (ix2 r k) : S16384x128.Idx) 1 = k.val := by
  have e := Gen.k0_off2_eq L (2 : Fin 4)
  constructor
  · show k0_off2 L 256#32 0 + 1 * r.val = _
    rw [show (256#32 : BitVec 32) = BitVec.ofNat 32 (128 * ((2 : Fin 4) : ℕ)) from rfl, e]
    show 1024 * (L 1).val + 512 * (L 0).val + 128 * ((2 : Fin 4) : ℕ) + 1 * r.val = 512 * (2 * (L 1).val + (L 0).val) + 128 * 2 + r.val
    have : ((2 : Fin 4) : ℕ) = 2 := rfl
    omega
  · show k0_off2 L 256#32 1 + 1 * k.val = _
    rw [show (256#32 : BitVec 32) = BitVec.ofNat 32 (128 * ((2 : Fin 4) : ℕ)) from rfl, e]
    show 0 + 1 * k.val = k.val
    omega
theorem oCh0_3_emb (r k : Fin 128) :
    ((oCh0_3 L).view.emb (ix2 r k) : S16384x128.Idx) 0 = 512 * (numL L).val + 128 * 3 + r.val ∧ ((oCh0_3 L).view.emb (ix2 r k) : S16384x128.Idx) 1 = k.val := by
  have e := Gen.k0_off2_eq L (3 : Fin 4)
  constructor
  · show k0_off2 L 384#32 0 + 1 * r.val = _
    rw [show (384#32 : BitVec 32) = BitVec.ofNat 32 (128 * ((3 : Fin 4) : ℕ)) from rfl, e]
    show 1024 * (L 1).val + 512 * (L 0).val + 128 * ((3 : Fin 4) : ℕ) + 1 * r.val = 512 * (2 * (L 1).val + (L 0).val) + 128 * 3 + r.val
    have : ((3 : Fin 4) : ℕ) = 3 := rfl
    omega
  · show k0_off2 L 384#32 1 + 1 * k.val = _
    rw [show (384#32 : BitVec 32) = BitVec.ofNat 32 (128 * ((3 : Fin 4) : ℕ)) from rfl, e]
    show 0 + 1 * k.val = k.val
    omega
theorem ivr1_0_emb (r : Fin 128) : (ivr1_0).view.emb (ix1 r) = (ix3 (1 : Fin 3) (0 : Fin 4) r : S3x4x128.Idx) := by
  show (Rect.unit (s := S3x4x128) ![1, 0, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr1_1_emb (r : Fin 128) : (ivr1_1).view.emb (ix1 r) = (ix3 (1 : Fin 3) (1 : Fin 4) r : S3x4x128.Idx) := by
  show (Rect.unit (s := S3x4x128) ![1, 1, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr1_2_emb (r : Fin 128) : (ivr1_2).view.emb (ix1 r) = (ix3 (1 : Fin 3) (2 : Fin 4) r : S3x4x128.Idx) := by
  show (Rect.unit (s := S3x4x128) ![1, 2, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr1_3_emb (r : Fin 128) : (ivr1_3).view.emb (ix1 r) = (ix3 (1 : Fin 3) (3 : Fin 4) r : S3x4x128.Idx) := by
  show (Rect.unit (s := S3x4x128) ![1, 3, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem iv1_emb (j : Fin 4) (r : Fin 128) : (iv1).view.emb (ix2 j r) = (ix3 (1 : Fin 3) j r : S3x4x128.Idx) := by
  show (Rect.unit (s := S3x4x128) ![1, 0, 0] S1x4x128.size _).emb (Shape.reshapeEquiv _ (ix2 j r)) = _
  rw [reshapeEquiv_ix2_1ab]
  funext a; apply Fin.ext
  match a with
  | 0 => rfl
  | 1 => show 0 + 1 * j.val = j.val; omega
  | 2 => show 0 + 1 * r.val = r.val; omega
theorem iSlab1_emb (j : Fin 4) (r : Fin 128) : (iSlab1 L).view.emb (ix2 j r) = (ix3 (numL L) j r : S32x4x128.Idx) := by
  show (Rect.unit (s := S32x4x128) (k0_off1 L) S1x4x128.size _).emb (Shape.reshapeEquiv _ (ix2 j r)) = _
  rw [reshapeEquiv_ix2_1ab]
  funext a; apply Fin.ext
  have e := Gen.k0_off1_eq L
  match a with
  | 0 => show k0_off1 L 0 + 1 * 0 = 2 * (L 1).val + (L 0).val; rw [e]; simp
  | 1 => show k0_off1 L 1 + 1 * j.val = j.val; rw [e]; simp
  | 2 => show k0_off1 L 2 + 1 * r.val = r.val; rw [e]; simp
theorem tab1_emb (y : S100000x128.Idx) : (tab1).view.emb y = y := by
  show (Rect.unit (s := S100000x128) ![0, 0] S100000x128.size _).emb y = y
  funext a; apply Fin.ext
  match a with
  | 0 => show 0 + 1 * (y 0).val = (y 0).val; omega
  | 1 => show 0 + 1 * (y 1).val = (y 1).val; omega
theorem oCh1_0_emb (r k : Fin 128) :
    ((oCh1_0 L).view.emb (ix2 r k) : S16384x128.Idx) 0 = 512 * (numL L).val + 128 * 0 + r.val ∧ ((oCh1_0 L).view.emb (ix2 r k) : S16384x128.Idx) 1 = k.val := by
  have e := Gen.k0_off2_eq L (0 : Fin 4)
  constructor
  · show k0_off2 L 0#32 0 + 1 * r.val = _
    rw [show (0#32 : BitVec 32) = BitVec.ofNat 32 (128 * ((0 : Fin 4) : ℕ)) from rfl, e]
    show 1024 * (L 1).val + 512 * (L 0).val + 128 * ((0 : Fin 4) : ℕ) + 1 * r.val = 512 * (2 * (L 1).val + (L 0).val) + 128 * 0 + r.val
    have : ((0 : Fin 4) : ℕ) = 0 := rfl
    omega
  · show k0_off2 L 0#32 1 + 1 * k.val = _
    rw [show (0#32 : BitVec 32) = BitVec.ofNat 32 (128 * ((0 : Fin 4) : ℕ)) from rfl, e]
    show 0 + 1 * k.val = k.val
    omega
theorem oCh1_1_emb (r k : Fin 128) :
    ((oCh1_1 L).view.emb (ix2 r k) : S16384x128.Idx) 0 = 512 * (numL L).val + 128 * 1 + r.val ∧ ((oCh1_1 L).view.emb (ix2 r k) : S16384x128.Idx) 1 = k.val := by
  have e := Gen.k0_off2_eq L (1 : Fin 4)
  constructor
  · show k0_off2 L 128#32 0 + 1 * r.val = _
    rw [show (128#32 : BitVec 32) = BitVec.ofNat 32 (128 * ((1 : Fin 4) : ℕ)) from rfl, e]
    show 1024 * (L 1).val + 512 * (L 0).val + 128 * ((1 : Fin 4) : ℕ) + 1 * r.val = 512 * (2 * (L 1).val + (L 0).val) + 128 * 1 + r.val
    have : ((1 : Fin 4) : ℕ) = 1 := rfl
    omega
  · show k0_off2 L 128#32 1 + 1 * k.val = _
    rw [show (128#32 : BitVec 32) = BitVec.ofNat 32 (128 * ((1 : Fin 4) : ℕ)) from rfl, e]
    show 0 + 1 * k.val = k.val
    omega
theorem oCh1_2_emb (r k : Fin 128) :
    ((oCh1_2 L).view.emb (ix2 r k) : S16384x128.Idx) 0 = 512 * (numL L).val + 128 * 2 + r.val ∧ ((oCh1_2 L).view.emb (ix2 r k) : S16384x128.Idx) 1 = k.val := by
  have e := Gen.k0_off2_eq L (2 : Fin 4)
  constructor
  · show k0_off2 L 256#32 0 + 1 * r.val = _
    rw [show (256#32 : BitVec 32) = BitVec.ofNat 32 (128 * ((2 : Fin 4) : ℕ)) from rfl, e]
    show 1024 * (L 1).val + 512 * (L 0).val + 128 * ((2 : Fin 4) : ℕ) + 1 * r.val = 512 * (2 * (L 1).val + (L 0).val) + 128 * 2 + r.val
    have : ((2 : Fin 4) : ℕ) = 2 := rfl
    omega
  · show k0_off2 L 256#32 1 + 1 * k.val = _
    rw [show (256#32 : BitVec 32) = BitVec.ofNat 32 (128 * ((2 : Fin 4) : ℕ)) from rfl, e]
    show 0 + 1 * k.val = k.val
    omega
theorem oCh1_3_emb (r k : Fin 128) :
    ((oCh1_3 L).view.emb (ix2 r k) : S16384x128.Idx) 0 = 512 * (numL L).val + 128 * 3 + r.val ∧ ((oCh1_3 L).view.emb (ix2 r k) : S16384x128.Idx) 1 = k.val := by
  have e := Gen.k0_off2_eq L (3 : Fin 4)
  constructor
  · show k0_off2 L 384#32 0 + 1 * r.val = _
    rw [show (384#32 : BitVec 32) = BitVec.ofNat 32 (128 * ((3 : Fin 4) : ℕ)) from rfl, e]
    show 1024 * (L 1).val + 512 * (L 0).val + 128 * ((3 : Fin 4) : ℕ) + 1 * r.val = 512 * (2 * (L 1).val + (L 0).val) + 128 * 3 + r.val
    have : ((3 : Fin 4) : ℕ) = 3 := rfl
    omega
  · show k0_off2 L 384#32 1 + 1 * k.val = _
    rw [show (384#32 : BitVec 32) = BitVec.ofNat 32 (128 * ((3 : Fin 4) : ℕ)) from rfl, e]
    show 0 + 1 * k.val = k.val
    omega
theorem ivr2_0_emb (r : Fin 128) : (ivr2_0).view.emb (ix1 r) = (ix3 (2 : Fin 3) (0 : Fin 4) r : S3x4x128.Idx) := by
  show (Rect.unit (s := S3x4x128) ![2, 0, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr2_1_emb (r : Fin 128) : (ivr2_1).view.emb (ix1 r) = (ix3 (2 : Fin 3) (1 : Fin 4) r : S3x4x128.Idx) := by
  show (Rect.unit (s := S3x4x128) ![2, 1, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr2_2_emb (r : Fin 128) : (ivr2_2).view.emb (ix1 r) = (ix3 (2 : Fin 3) (2 : Fin 4) r : S3x4x128.Idx) := by
  show (Rect.unit (s := S3x4x128) ![2, 2, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem ivr2_3_emb (r : Fin 128) : (ivr2_3).view.emb (ix1 r) = (ix3 (2 : Fin 3) (3 : Fin 4) r : S3x4x128.Idx) := by
  show (Rect.unit (s := S3x4x128) ![2, 3, 0] S1x1x128.size _).emb (Shape.reshapeEquiv _ (ix1 r)) = _
  rw [reshapeEquiv_ix1_11a]
  funext a; apply Fin.ext
  match a with
  | 0 => rfl
  | 1 => rfl
  | 2 => show 0 + 1 * r.val = r.val; omega
theorem iv2_emb (j : Fin 4) (r : Fin 128) : (iv2).view.emb (ix2 j r) = (ix3 (2 : Fin 3) j r : S3x4x128.Idx) := by
  show (Rect.unit (s := S3x4x128) ![2, 0, 0] S1x4x128.size _).emb (Shape.reshapeEquiv _ (ix2 j r)) = _
  rw [reshapeEquiv_ix2_1ab]
  funext a; apply Fin.ext
  match a with
  | 0 => rfl
  | 1 => show 0 + 1 * j.val = j.val; omega
  | 2 => show 0 + 1 * r.val = r.val; omega
theorem iSlab2_emb (j : Fin 4) (r : Fin 128) : (iSlab2 L).view.emb (ix2 j r) = (ix3 (numL L) j r : S32x4x128.Idx) := by
  show (Rect.unit (s := S32x4x128) (k0_off1 L) S1x4x128.size _).emb (Shape.reshapeEquiv _ (ix2 j r)) = _
  rw [reshapeEquiv_ix2_1ab]
  funext a; apply Fin.ext
  have e := Gen.k0_off1_eq L
  match a with
  | 0 => show k0_off1 L 0 + 1 * 0 = 2 * (L 1).val + (L 0).val; rw [e]; simp
  | 1 => show k0_off1 L 1 + 1 * j.val = j.val; rw [e]; simp
  | 2 => show k0_off1 L 2 + 1 * r.val = r.val; rw [e]; simp
theorem tab2_emb (y : S100000x128.Idx) : (tab2).view.emb y = y := by
  show (Rect.unit (s := S100000x128) ![0, 0] S100000x128.size _).emb y = y
  funext a; apply Fin.ext
  match a with
  | 0 => show 0 + 1 * (y 0).val = (y 0).val; omega
  | 1 => show 0 + 1 * (y 1).val = (y 1).val; omega
theorem oCh2_0_emb (r k : Fin 128) :
    ((oCh2_0 L).view.emb (ix2 r k) : S16384x128.Idx) 0 = 512 * (numL L).val + 128 * 0 + r.val ∧ ((oCh2_0 L).view.emb (ix2 r k) : S16384x128.Idx) 1 = k.val := by
  have e := Gen.k0_off2_eq L (0 : Fin 4)
  constructor
  · show k0_off2 L 0#32 0 + 1 * r.val = _
    rw [show (0#32 : BitVec 32) = BitVec.ofNat 32 (128 * ((0 : Fin 4) : ℕ)) from rfl, e]
    show 1024 * (L 1).val + 512 * (L 0).val + 128 * ((0 : Fin 4) : ℕ) + 1 * r.val = 512 * (2 * (L 1).val + (L 0).val) + 128 * 0 + r.val
    have : ((0 : Fin 4) : ℕ) = 0 := rfl
    omega
  · show k0_off2 L 0#32 1 + 1 * k.val = _
    rw [show (0#32 : BitVec 32) = BitVec.ofNat 32 (128 * ((0 : Fin 4) : ℕ)) from rfl, e]
    show 0 + 1 * k.val = k.val
    omega
theorem oCh2_1_emb (r k : Fin 128) :
    ((oCh2_1 L).view.emb (ix2 r k) : S16384x128.Idx) 0 = 512 * (numL L).val + 128 * 1 + r.val ∧ ((oCh2_1 L).view.emb (ix2 r k) : S16384x128.Idx) 1 = k.val := by
  have e := Gen.k0_off2_eq L (1 : Fin 4)
  constructor
  · show k0_off2 L 128#32 0 + 1 * r.val = _
    rw [show (128#32 : BitVec 32) = BitVec.ofNat 32 (128 * ((1 : Fin 4) : ℕ)) from rfl, e]
    show 1024 * (L 1).val + 512 * (L 0).val + 128 * ((1 : Fin 4) : ℕ) + 1 * r.val = 512 * (2 * (L 1).val + (L 0).val) + 128 * 1 + r.val
    have : ((1 : Fin 4) : ℕ) = 1 := rfl
    omega
  · show k0_off2 L 128#32 1 + 1 * k.val = _
    rw [show (128#32 : BitVec 32) = BitVec.ofNat 32 (128 * ((1 : Fin 4) : ℕ)) from rfl, e]
    show 0 + 1 * k.val = k.val
    omega
theorem oCh2_2_emb (r k : Fin 128) :
    ((oCh2_2 L).view.emb (ix2 r k) : S16384x128.Idx) 0 = 512 * (numL L).val + 128 * 2 + r.val ∧ ((oCh2_2 L).view.emb (ix2 r k) : S16384x128.Idx) 1 = k.val := by
  have e := Gen.k0_off2_eq L (2 : Fin 4)
  constructor
  · show k0_off2 L 256#32 0 + 1 * r.val = _
    rw [show (256#32 : BitVec 32) = BitVec.ofNat 32 (128 * ((2 : Fin 4) : ℕ)) from rfl, e]
    show 1024 * (L 1).val + 512 * (L 0).val + 128 * ((2 : Fin 4) : ℕ) + 1 * r.val = 512 * (2 * (L 1).val + (L 0).val) + 128 * 2 + r.val
    have : ((2 : Fin 4) : ℕ) = 2 := rfl
    omega
  · show k0_off2 L 256#32 1 + 1 * k.val = _
    rw [show (256#32 : BitVec 32) = BitVec.ofNat 32 (128 * ((2 : Fin 4) : ℕ)) from rfl, e]
    show 0 + 1 * k.val = k.val
    omega
theorem oCh2_3_emb (r k : Fin 128) :
    ((oCh2_3 L).view.emb (ix2 r k) : S16384x128.Idx) 0 = 512 * (numL L).val + 128 * 3 + r.val ∧ ((oCh2_3 L).view.emb (ix2 r k) : S16384x128.Idx) 1 = k.val := by
  have e := Gen.k0_off2_eq L (3 : Fin 4)
  constructor
  · show k0_off2 L 384#32 0 + 1 * r.val = _
    rw [show (384#32 : BitVec 32) = BitVec.ofNat 32 (128 * ((3 : Fin 4) : ℕ)) from rfl, e]
    show 1024 * (L 1).val + 512 * (L 0).val + 128 * ((3 : Fin 4) : ℕ) + 1 * r.val = 512 * (2 * (L 1).val + (L 0).val) + 128 * 3 + r.val
    have : ((3 : Fin 4) : ℕ) = 3 := rfl
    omega
  · show k0_off2 L 384#32 1 + 1 * k.val = _
    rw [show (384#32 : BitVec 32) = BitVec.ofNat 32 (128 * ((3 : Fin 4) : ℕ)) from rfl, e]
    show 0 + 1 * k.val = k.val
    omega
theorem slot0_emb (r k : Fin 128) : (slot0).view.emb (ix2 r k) = (ix3 (0 : Fin 7) r k : S7x128x128.Idx) := by
  show (Rect.unit (s := S7x128x128) ![0, 0, 0] S1x128x128.size _).emb (Shape.reshapeEquiv _ (ix2 r k)) = _
  rw [reshapeEquiv_ix2_1ab]
  funext a; apply Fin.ext
  match a with
  | 0 => rfl
  | 1 => show 0 + 1 * r.val = r.val; omega
  | 2 => show 0 + 1 * k.val = k.val; omega
theorem slot1_emb (r k : Fin 128) : (slot1).view.emb (ix2 r k) = (ix3 (1 : Fin 7) r k : S7x128x128.Idx) := by
  show (Rect.unit (s := S7x128x128) ![1, 0, 0] S1x128x128.size _).emb (Shape.reshapeEquiv _ (ix2 r k)) = _
  rw [reshapeEquiv_ix2_1ab]
  funext a; apply Fin.ext
  match a with
  | 0 => rfl
  | 1 => show 0 + 1 * r.val = r.val; omega
  | 2 => show 0 + 1 * k.val = k.val; omega
theorem slot2_emb (r k : Fin 128) : (slot2).view.emb (ix2 r k) = (ix3 (2 : Fin 7) r k : S7x128x128.Idx) := by
  show (Rect.unit (s := S7x128x128) ![2, 0, 0] S1x128x128.size _).emb (Shape.reshapeEquiv _ (ix2 r k)) = _
  rw [reshapeEquiv_ix2_1ab]
  funext a; apply Fin.ext
  match a with
  | 0 => rfl
  | 1 => show 0 + 1 * r.val = r.val; omega
  | 2 => show 0 + 1 * k.val = k.val; omega
theorem slot3_emb (r k : Fin 128) : (slot3).view.emb (ix2 r k) = (ix3 (3 : Fin 7) r k : S7x128x128.Idx) := by
  show (Rect.unit (s := S7x128x128) ![3, 0, 0] S1x128x128.size _).emb (Shape.reshapeEquiv _ (ix2 r k)) = _
  rw [reshapeEquiv_ix2_1ab]
  funext a; apply Fin.ext
  match a with
  | 0 => rfl
  | 1 => show 0 + 1 * r.val = r.val; omega
  | 2 => show 0 + 1 * k.val = k.val; omega
theorem slot4_emb (r k : Fin 128) : (slot4).view.emb (ix2 r k) = (ix3 (4 : Fin 7) r k : S7x128x128.Idx) := by
  show (Rect.unit (s := S7x128x128) ![4, 0, 0] S1x128x128.size _).emb (Shape.reshapeEquiv _ (ix2 r k)) = _
  rw [reshapeEquiv_ix2_1ab]
  funext a; apply Fin.ext
  match a with
  | 0 => rfl
  | 1 => show 0 + 1 * r.val = r.val; omega
  | 2 => show 0 + 1 * k.val = k.val; omega
theorem slot5_emb (r k : Fin 128) : (slot5).view.emb (ix2 r k) = (ix3 (5 : Fin 7) r k : S7x128x128.Idx) := by
  show (Rect.unit (s := S7x128x128) ![5, 0, 0] S1x128x128.size _).emb (Shape.reshapeEquiv _ (ix2 r k)) = _
  rw [reshapeEquiv_ix2_1ab]
  funext a; apply Fin.ext
  match a with
  | 0 => rfl
  | 1 => show 0 + 1 * r.val = r.val; omega
  | 2 => show 0 + 1 * k.val = k.val; omega
theorem slot6_emb (r k : Fin 128) : (slot6).view.emb (ix2 r k) = (ix3 (6 : Fin 7) r k : S7x128x128.Idx) := by
  show (Rect.unit (s := S7x128x128) ![6, 0, 0] S1x128x128.size _).emb (Shape.reshapeEquiv _ (ix2 r k)) = _
  rw [reshapeEquiv_ix2_1ab]
  funext a; apply Fin.ext
  match a with
  | 0 => rfl
  | 1 => show 0 + 1 * r.val = r.val; omega
  | 2 => show 0 + 1 * k.val = k.val; omega

end Cert.Proof.KI

end
-- ==== Proof.TaskGather.lean ====
/-
  What a gathered chunk holds.

  The task copies slab `number` of index array `t` into plane `t` of its index scratch, gathers, for chunk `j`, the
  rows of the widened table that row `j` of the plane lists into a slot, and copies the slot out to chunk `j` of its
  rows of output `t`. So entry `(512 * number + 128 * j + r, k)` of the output ends at entry
  `(idx (number, j, r), k)` of the table, `idx` the index array: the whole output is the table gathered along the
  index array read in row-major order (`gat`).
-/
import proofs.«211833_g48473000902786_cont_8to1_c_597_31_alg».proof.Proof.TaskViews
import proofs.«211833_g48473000902786_cont_8to1_c_597_31_alg».proof.Proof.TaskIndex
import Idealize.ShloMosaic.Lib.Writes
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.SL.Sem

variable {F : FTy → Type}

/-- Output row `p` is row `r` of chunk `j` of task `n`: `p = 512 n + 128 j + r`. -/
def rowN (p : Fin 16384) : Fin 32 := ⟨p.val / 512, by have := p.isLt; omega⟩
def rowJ (p : Fin 16384) : Fin 4 := ⟨p.val % 512 / 128, by omega⟩
def rowR (p : Fin 16384) : Fin 128 := ⟨p.val % 128, Nat.mod_lt _ (by decide)⟩
/-- A word as a table row, modulo the table's height (the identity on words in range). -/
def modRow (w : ℕ) : Fin 100000 := ⟨w % 100000, Nat.mod_lt _ (by decide)⟩

theorem rowN_eq {p : Fin 16384} {n : Fin 32} {j : Fin 4} {r : Fin 128} (h : p.val = 512 * n.val + 128 * j.val + r.val) : rowN p = n :=
  Fin.ext (by show p.val / 512 = n.val; have := r.isLt; have := j.isLt; omega)
theorem rowJ_eq {p : Fin 16384} {n : Fin 32} {j : Fin 4} {r : Fin 128} (h : p.val = 512 * n.val + 128 * j.val + r.val) : rowJ p = j :=
  Fin.ext (by show p.val % 512 / 128 = j.val; have := r.isLt; have := j.isLt; omega)
theorem rowR_eq {p : Fin 16384} {n : Fin 32} {j : Fin 4} {r : Fin 128} (h : p.val = 512 * n.val + 128 * j.val + r.val) : rowR p = r :=
  Fin.ext (by show p.val % 128 = r.val; have := r.isLt; have := j.isLt; omega)
theorem modRow_of_lt {w : ℕ} (h : w < 100000) : modRow w = ⟨w, h⟩ := Fin.ext (Nat.mod_eq_of_lt h)

/-- The table `fT` gathered along the index array `fI` (its `32 × 4 × 128` words in row-major order, one per output
    row; a word is read modulo the table's height, which changes nothing where the words are in range). -/
def gat (fI : S32x4x128.Idx → Elt F .i32) (fT : S100000x128.Idx → Elt F .f32) : S16384x128.Idx → Elt F .f32 := fun i =>
  fT (ix2 (modRow (fI (ix3 (rowN ⟨(i 0).val, (i 0).isLt⟩) (rowJ ⟨(i 0).val, (i 0).isLt⟩) (rowR ⟨(i 0).val, (i 0).isLt⟩))).toNat)
    (⟨(i 1).val, (i 1).isLt⟩ : Fin 128))

variable (d : Dev nD) (L : grid0.Coords)

theorem rowMajor_symm_S128 (k : Fin 128) (h : S128.numel = 128) : S128.rowMajor.symm (k.cast h.symm) = ix1 k := by
  have e : (k.cast h.symm : Fin S128.numel) = S128.rowMajor (ix1 k) :=
    Fin.ext (Shape.rowMajor_val_one (d := ![128]) (ix1 k)).symm
  rw [e, Equiv.symm_apply_apply]

/-- `gat` at an entry whose row is `512 n + 128 j + r` and column `k`: the table's entry at the row the index array
    names at `(n, j, r)`, when that word is in range. -/
theorem gat_at (fI : S32x4x128.Idx → Elt F .i32) (fT : S100000x128.Idx → Elt F .f32) (i : S16384x128.Idx)
    (n : Fin 32) (j : Fin 4) (r k : Fin 128) (h0 : (i 0 : ℕ) = 512 * n.val + 128 * j.val + r.val) (h1 : (i 1 : ℕ) = k.val)
    (hlt : (fI (ix3 n j r)).toNat < 100000) :
    gat fI fT i = fT (ix2 (⟨(fI (ix3 n j r)).toNat, hlt⟩ : Fin 100000) k) := by
  unfold gat
  rw [rowN_eq (p := ⟨(i 0).val, (i 0).isLt⟩) (n := n) (j := j) (r := r) h0, rowJ_eq (p := ⟨(i 0).val, (i 0).isLt⟩) (n := n) (j := j) (r := r) h0,
    rowR_eq (p := ⟨(i 0).val, (i 0).isLt⟩) (n := n) (j := j) (r := r) h0, modRow_of_lt hlt,
    show (⟨(i 1).val, (i 1).isLt⟩ : Fin 128) = k from Fin.ext h1]

/-- The source index of a row gather: the listed row, the entry's own column. -/
theorem gather_src (rows : Fin 128 → Fin 100000) (r k : Fin 128) :
    gathers_S100000x128_S128x128.idx rows (ix2 r k : S128x128.Idx) = (ix2 (rows r) k : S100000x128.Idx) := by
  funext a
  apply Fin.ext
  match a with
  | 0 => exact congrArg Fin.val (Shape.Gathers.idx_axis gathers_S100000x128_S128x128 rows (ix2 r k : S128x128.Idx))
  | 1 => exact Shape.Gathers.idx_of_ne gathers_S100000x128_S128x128 rows (ix2 r k : S128x128.Idx) 1 (by decide)

set_option maxHeartbeats 4000000 in
theorem chunk0_0_val (fO : Buf (Elt F) ((oCh0_0 L).view.loc (thr d L))) (fS : Buf (Elt F) ((slot0).view.loc (thr d L)))
    (rest : List (View.Piece (Elt F) S128x128 .f32))
    (fT : Buf (Elt F) ((tab0).view.loc (thr d L))) (fV : Buf (Elt F) ((iv0).view.loc (thr d L)))
    (fI : Buf (Elt F) ((iSlab0 L).view.loc (thr d L))) (hn : S128.numel = 128)
    (hin : ∀ x, (((ivr0_0).view.read (Elt F) ((iv0).view.writes (Elt F) fV
        [⟨Rect.whole S4x128, ReadAs.same.apply ((iSlab0 L).view.read (Elt F) fI)⟩])) x).toNat < 100000) :
    ∀ i ∈ (oCh0_0 L).view.set,
      ((oCh0_0 L).view.writes (Elt F) fO [⟨Rect.whole S128x128, ReadAs.same.apply ((slot0).view.read (Elt F)
        ((slot0).view.writes (Elt F) fS (⟨Rect.whole S128x128, SparseCore.gatherPayload gathers_S100000x128_S128x128
          ((tab0).view.read (Elt F) fT)
          (SparseCore.rows ((ivr0_0).view.read (Elt F) ((iv0).view.writes (Elt F) fV
            [⟨Rect.whole S4x128, ReadAs.same.apply ((iSlab0 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh0_0 L).view (Val := Elt F) fO (Rect.whole S128x128) (ReadAs.same.apply ((slot0).view.read (Elt F)
        ((slot0).view.writes (Elt F) fS (⟨Rect.whole S128x128, SparseCore.gatherPayload gathers_S100000x128_S128x128
          ((tab0).view.read (Elt F) fT)
          (SparseCore.rows ((ivr0_0).view.read (Elt F) ((iv0).view.writes (Elt F) fV
            [⟨Rect.whole S4x128, ReadAs.same.apply ((iSlab0 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot0).view (Val := Elt F) fS (Rect.whole S128x128) (SparseCore.gatherPayload gathers_S100000x128_S128x128
          ((tab0).view.read (Elt F) fT)
          (SparseCore.rows ((ivr0_0).view.read (Elt F) ((iv0).view.writes (Elt F) fV
            [⟨Rect.whole S4x128, ReadAs.same.apply ((iSlab0 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr0_0).view.read (Elt F) ((iv0).view.writes (Elt F) fV
        [⟨Rect.whole S4x128, ReadAs.same.apply ((iSlab0 L).view.read (Elt F) fI)⟩])) (ix1 r) = fI (ix3 (numL L) (0 : Fin 4) r) := by
    have h3 := View.read_writes_cons_emb (iv0).view (Val := Elt F) fV (Rect.whole S4x128) (ReadAs.same.apply ((iSlab0 L).view.read (Elt F) fI)) [] (ix2 (0 : Fin 4) r)
    rw [Rect.emb_whole_apply, View.read_apply, iv0_emb] at h3
    rw [View.read_apply, ivr0_0_emb]
    refine Eq.trans (?_ : _ = _) (Eq.trans h3 ?_)
    · rfl
    show (iSlab0 L).view.read (Elt F) fI (ix2 (0 : Fin 4) r) = _
    rw [View.read_apply, iSlab0_emb]
    exact cast_eq _ _
  obtain ⟨e0, e1⟩ := oCh0_0_emb L r k
  have hlt := hin (ix1 r)
  rw [hrow] at hlt
  show (tab0).view.read (Elt F) fT (gathers_S100000x128_S128x128.idx _ (ix2 r k)) = _
  rw [View.read_apply, tab0_emb]
  refine Eq.trans (cast_eq _ _) ?_
  rw [gat_at fI fT _ (numL L) (0 : Fin 4) r k e0 e1 hlt]
  refine (congrArg fT (gather_src _ r k)).trans ?_
  congr 2
  apply Fin.ext
  show (((ivr0_0).view.read (Elt F) _ (S128.rowMajor.symm ((r : Fin 128).cast hn.symm))).toNat) = _
  rw [rowMajor_symm_S128 r hn, hrow]

set_option maxHeartbeats 4000000 in
theorem chunk0_1_val (fO : Buf (Elt F) ((oCh0_1 L).view.loc (thr d L))) (fS : Buf (Elt F) ((slot1).view.loc (thr d L)))
    (rest : List (View.Piece (Elt F) S128x128 .f32))
    (fT : Buf (Elt F) ((tab0).view.loc (thr d L))) (fV : Buf (Elt F) ((iv0).view.loc (thr d L)))
    (fI : Buf (Elt F) ((iSlab0 L).view.loc (thr d L))) (hn : S128.numel = 128)
    (hin : ∀ x, (((ivr0_1).view.read (Elt F) ((iv0).view.writes (Elt F) fV
        [⟨Rect.whole S4x128, ReadAs.same.apply ((iSlab0 L).view.read (Elt F) fI)⟩])) x).toNat < 100000) :
    ∀ i ∈ (oCh0_1 L).view.set,
      ((oCh0_1 L).view.writes (Elt F) fO [⟨Rect.whole S128x128, ReadAs.same.apply ((slot1).view.read (Elt F)
        ((slot1).view.writes (Elt F) fS (⟨Rect.whole S128x128, SparseCore.gatherPayload gathers_S100000x128_S128x128
          ((tab0).view.read (Elt F) fT)
          (SparseCore.rows ((ivr0_1).view.read (Elt F) ((iv0).view.writes (Elt F) fV
            [⟨Rect.whole S4x128, ReadAs.same.apply ((iSlab0 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh0_1 L).view (Val := Elt F) fO (Rect.whole S128x128) (ReadAs.same.apply ((slot1).view.read (Elt F)
        ((slot1).view.writes (Elt F) fS (⟨Rect.whole S128x128, SparseCore.gatherPayload gathers_S100000x128_S128x128
          ((tab0).view.read (Elt F) fT)
          (SparseCore.rows ((ivr0_1).view.read (Elt F) ((iv0).view.writes (Elt F) fV
            [⟨Rect.whole S4x128, ReadAs.same.apply ((iSlab0 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot1).view (Val := Elt F) fS (Rect.whole S128x128) (SparseCore.gatherPayload gathers_S100000x128_S128x128
          ((tab0).view.read (Elt F) fT)
          (SparseCore.rows ((ivr0_1).view.read (Elt F) ((iv0).view.writes (Elt F) fV
            [⟨Rect.whole S4x128, ReadAs.same.apply ((iSlab0 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr0_1).view.read (Elt F) ((iv0).view.writes (Elt F) fV
        [⟨Rect.whole S4x128, ReadAs.same.apply ((iSlab0 L).view.read (Elt F) fI)⟩])) (ix1 r) = fI (ix3 (numL L) (1 : Fin 4) r) := by
    have h3 := View.read_writes_cons_emb (iv0).view (Val := Elt F) fV (Rect.whole S4x128) (ReadAs.same.apply ((iSlab0 L).view.read (Elt F) fI)) [] (ix2 (1 : Fin 4) r)
    rw [Rect.emb_whole_apply, View.read_apply, iv0_emb] at h3
    rw [View.read_apply, ivr0_1_emb]
    refine Eq.trans (?_ : _ = _) (Eq.trans h3 ?_)
    · rfl
    show (iSlab0 L).view.read (Elt F) fI (ix2 (1 : Fin 4) r) = _
    rw [View.read_apply, iSlab0_emb]
    exact cast_eq _ _
  obtain ⟨e0, e1⟩ := oCh0_1_emb L r k
  have hlt := hin (ix1 r)
  rw [hrow] at hlt
  show (tab0).view.read (Elt F) fT (gathers_S100000x128_S128x128.idx _ (ix2 r k)) = _
  rw [View.read_apply, tab0_emb]
  refine Eq.trans (cast_eq _ _) ?_
  rw [gat_at fI fT _ (numL L) (1 : Fin 4) r k e0 e1 hlt]
  refine (congrArg fT (gather_src _ r k)).trans ?_
  congr 2
  apply Fin.ext
  show (((ivr0_1).view.read (Elt F) _ (S128.rowMajor.symm ((r : Fin 128).cast hn.symm))).toNat) = _
  rw [rowMajor_symm_S128 r hn, hrow]

set_option maxHeartbeats 4000000 in
theorem chunk0_2_val (fO : Buf (Elt F) ((oCh0_2 L).view.loc (thr d L))) (fS : Buf (Elt F) ((slot2).view.loc (thr d L)))
    (rest : List (View.Piece (Elt F) S128x128 .f32))
    (fT : Buf (Elt F) ((tab0).view.loc (thr d L))) (fV : Buf (Elt F) ((iv0).view.loc (thr d L)))
    (fI : Buf (Elt F) ((iSlab0 L).view.loc (thr d L))) (hn : S128.numel = 128)
    (hin : ∀ x, (((ivr0_2).view.read (Elt F) ((iv0).view.writes (Elt F) fV
        [⟨Rect.whole S4x128, ReadAs.same.apply ((iSlab0 L).view.read (Elt F) fI)⟩])) x).toNat < 100000) :
    ∀ i ∈ (oCh0_2 L).view.set,
      ((oCh0_2 L).view.writes (Elt F) fO [⟨Rect.whole S128x128, ReadAs.same.apply ((slot2).view.read (Elt F)
        ((slot2).view.writes (Elt F) fS (⟨Rect.whole S128x128, SparseCore.gatherPayload gathers_S100000x128_S128x128
          ((tab0).view.read (Elt F) fT)
          (SparseCore.rows ((ivr0_2).view.read (Elt F) ((iv0).view.writes (Elt F) fV
            [⟨Rect.whole S4x128, ReadAs.same.apply ((iSlab0 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh0_2 L).view (Val := Elt F) fO (Rect.whole S128x128) (ReadAs.same.apply ((slot2).view.read (Elt F)
        ((slot2).view.writes (Elt F) fS (⟨Rect.whole S128x128, SparseCore.gatherPayload gathers_S100000x128_S128x128
          ((tab0).view.read (Elt F) fT)
          (SparseCore.rows ((ivr0_2).view.read (Elt F) ((iv0).view.writes (Elt F) fV
            [⟨Rect.whole S4x128, ReadAs.same.apply ((iSlab0 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot2).view (Val := Elt F) fS (Rect.whole S128x128) (SparseCore.gatherPayload gathers_S100000x128_S128x128
          ((tab0).view.read (Elt F) fT)
          (SparseCore.rows ((ivr0_2).view.read (Elt F) ((iv0).view.writes (Elt F) fV
            [⟨Rect.whole S4x128, ReadAs.same.apply ((iSlab0 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr0_2).view.read (Elt F) ((iv0).view.writes (Elt F) fV
        [⟨Rect.whole S4x128, ReadAs.same.apply ((iSlab0 L).view.read (Elt F) fI)⟩])) (ix1 r) = fI (ix3 (numL L) (2 : Fin 4) r) := by
    have h3 := View.read_writes_cons_emb (iv0).view (Val := Elt F) fV (Rect.whole S4x128) (ReadAs.same.apply ((iSlab0 L).view.read (Elt F) fI)) [] (ix2 (2 : Fin 4) r)
    rw [Rect.emb_whole_apply, View.read_apply, iv0_emb] at h3
    rw [View.read_apply, ivr0_2_emb]
    refine Eq.trans (?_ : _ = _) (Eq.trans h3 ?_)
    · rfl
    show (iSlab0 L).view.read (Elt F) fI (ix2 (2 : Fin 4) r) = _
    rw [View.read_apply, iSlab0_emb]
    exact cast_eq _ _
  obtain ⟨e0, e1⟩ := oCh0_2_emb L r k
  have hlt := hin (ix1 r)
  rw [hrow] at hlt
  show (tab0).view.read (Elt F) fT (gathers_S100000x128_S128x128.idx _ (ix2 r k)) = _
  rw [View.read_apply, tab0_emb]
  refine Eq.trans (cast_eq _ _) ?_
  rw [gat_at fI fT _ (numL L) (2 : Fin 4) r k e0 e1 hlt]
  refine (congrArg fT (gather_src _ r k)).trans ?_
  congr 2
  apply Fin.ext
  show (((ivr0_2).view.read (Elt F) _ (S128.rowMajor.symm ((r : Fin 128).cast hn.symm))).toNat) = _
  rw [rowMajor_symm_S128 r hn, hrow]

set_option maxHeartbeats 4000000 in
theorem chunk0_3_val (fO : Buf (Elt F) ((oCh0_3 L).view.loc (thr d L))) (fS : Buf (Elt F) ((slot3).view.loc (thr d L)))
    (rest : List (View.Piece (Elt F) S128x128 .f32))
    (fT : Buf (Elt F) ((tab0).view.loc (thr d L))) (fV : Buf (Elt F) ((iv0).view.loc (thr d L)))
    (fI : Buf (Elt F) ((iSlab0 L).view.loc (thr d L))) (hn : S128.numel = 128)
    (hin : ∀ x, (((ivr0_3).view.read (Elt F) ((iv0).view.writes (Elt F) fV
        [⟨Rect.whole S4x128, ReadAs.same.apply ((iSlab0 L).view.read (Elt F) fI)⟩])) x).toNat < 100000) :
    ∀ i ∈ (oCh0_3 L).view.set,
      ((oCh0_3 L).view.writes (Elt F) fO [⟨Rect.whole S128x128, ReadAs.same.apply ((slot3).view.read (Elt F)
        ((slot3).view.writes (Elt F) fS (⟨Rect.whole S128x128, SparseCore.gatherPayload gathers_S100000x128_S128x128
          ((tab0).view.read (Elt F) fT)
          (SparseCore.rows ((ivr0_3).view.read (Elt F) ((iv0).view.writes (Elt F) fV
            [⟨Rect.whole S4x128, ReadAs.same.apply ((iSlab0 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh0_3 L).view (Val := Elt F) fO (Rect.whole S128x128) (ReadAs.same.apply ((slot3).view.read (Elt F)
        ((slot3).view.writes (Elt F) fS (⟨Rect.whole S128x128, SparseCore.gatherPayload gathers_S100000x128_S128x128
          ((tab0).view.read (Elt F) fT)
          (SparseCore.rows ((ivr0_3).view.read (Elt F) ((iv0).view.writes (Elt F) fV
            [⟨Rect.whole S4x128, ReadAs.same.apply ((iSlab0 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot3).view (Val := Elt F) fS (Rect.whole S128x128) (SparseCore.gatherPayload gathers_S100000x128_S128x128
          ((tab0).view.read (Elt F) fT)
          (SparseCore.rows ((ivr0_3).view.read (Elt F) ((iv0).view.writes (Elt F) fV
            [⟨Rect.whole S4x128, ReadAs.same.apply ((iSlab0 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr0_3).view.read (Elt F) ((iv0).view.writes (Elt F) fV
        [⟨Rect.whole S4x128, ReadAs.same.apply ((iSlab0 L).view.read (Elt F) fI)⟩])) (ix1 r) = fI (ix3 (numL L) (3 : Fin 4) r) := by
    have h3 := View.read_writes_cons_emb (iv0).view (Val := Elt F) fV (Rect.whole S4x128) (ReadAs.same.apply ((iSlab0 L).view.read (Elt F) fI)) [] (ix2 (3 : Fin 4) r)
    rw [Rect.emb_whole_apply, View.read_apply, iv0_emb] at h3
    rw [View.read_apply, ivr0_3_emb]
    refine Eq.trans (?_ : _ = _) (Eq.trans h3 ?_)
    · rfl
    show (iSlab0 L).view.read (Elt F) fI (ix2 (3 : Fin 4) r) = _
    rw [View.read_apply, iSlab0_emb]
    exact cast_eq _ _
  obtain ⟨e0, e1⟩ := oCh0_3_emb L r k
  have hlt := hin (ix1 r)
  rw [hrow] at hlt
  show (tab0).view.read (Elt F) fT (gathers_S100000x128_S128x128.idx _ (ix2 r k)) = _
  rw [View.read_apply, tab0_emb]
  refine Eq.trans (cast_eq _ _) ?_
  rw [gat_at fI fT _ (numL L) (3 : Fin 4) r k e0 e1 hlt]
  refine (congrArg fT (gather_src _ r k)).trans ?_
  congr 2
  apply Fin.ext
  show (((ivr0_3).view.read (Elt F) _ (S128.rowMajor.symm ((r : Fin 128).cast hn.symm))).toNat) = _
  rw [rowMajor_symm_S128 r hn, hrow]

set_option maxHeartbeats 4000000 in
theorem chunk1_0_val (fO : Buf (Elt F) ((oCh1_0 L).view.loc (thr d L))) (fS : Buf (Elt F) ((slot4).view.loc (thr d L)))
    (rest : List (View.Piece (Elt F) S128x128 .f32))
    (fT : Buf (Elt F) ((tab1).view.loc (thr d L))) (fV : Buf (Elt F) ((iv1).view.loc (thr d L)))
    (fI : Buf (Elt F) ((iSlab1 L).view.loc (thr d L))) (hn : S128.numel = 128)
    (hin : ∀ x, (((ivr1_0).view.read (Elt F) ((iv1).view.writes (Elt F) fV
        [⟨Rect.whole S4x128, ReadAs.same.apply ((iSlab1 L).view.read (Elt F) fI)⟩])) x).toNat < 100000) :
    ∀ i ∈ (oCh1_0 L).view.set,
      ((oCh1_0 L).view.writes (Elt F) fO [⟨Rect.whole S128x128, ReadAs.same.apply ((slot4).view.read (Elt F)
        ((slot4).view.writes (Elt F) fS (⟨Rect.whole S128x128, SparseCore.gatherPayload gathers_S100000x128_S128x128
          ((tab1).view.read (Elt F) fT)
          (SparseCore.rows ((ivr1_0).view.read (Elt F) ((iv1).view.writes (Elt F) fV
            [⟨Rect.whole S4x128, ReadAs.same.apply ((iSlab1 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh1_0 L).view (Val := Elt F) fO (Rect.whole S128x128) (ReadAs.same.apply ((slot4).view.read (Elt F)
        ((slot4).view.writes (Elt F) fS (⟨Rect.whole S128x128, SparseCore.gatherPayload gathers_S100000x128_S128x128
          ((tab1).view.read (Elt F) fT)
          (SparseCore.rows ((ivr1_0).view.read (Elt F) ((iv1).view.writes (Elt F) fV
            [⟨Rect.whole S4x128, ReadAs.same.apply ((iSlab1 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot4).view (Val := Elt F) fS (Rect.whole S128x128) (SparseCore.gatherPayload gathers_S100000x128_S128x128
          ((tab1).view.read (Elt F) fT)
          (SparseCore.rows ((ivr1_0).view.read (Elt F) ((iv1).view.writes (Elt F) fV
            [⟨Rect.whole S4x128, ReadAs.same.apply ((iSlab1 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr1_0).view.read (Elt F) ((iv1).view.writes (Elt F) fV
        [⟨Rect.whole S4x128, ReadAs.same.apply ((iSlab1 L).view.read (Elt F) fI)⟩])) (ix1 r) = fI (ix3 (numL L) (0 : Fin 4) r) := by
    have h3 := View.read_writes_cons_emb (iv1).view (Val := Elt F) fV (Rect.whole S4x128) (ReadAs.same.apply ((iSlab1 L).view.read (Elt F) fI)) [] (ix2 (0 : Fin 4) r)
    rw [Rect.emb_whole_apply, View.read_apply, iv1_emb] at h3
    rw [View.read_apply, ivr1_0_emb]
    refine Eq.trans (?_ : _ = _) (Eq.trans h3 ?_)
    · rfl
    show (iSlab1 L).view.read (Elt F) fI (ix2 (0 : Fin 4) r) = _
    rw [View.read_apply, iSlab1_emb]
    exact cast_eq _ _
  obtain ⟨e0, e1⟩ := oCh1_0_emb L r k
  have hlt := hin (ix1 r)
  rw [hrow] at hlt
  show (tab1).view.read (Elt F) fT (gathers_S100000x128_S128x128.idx _ (ix2 r k)) = _
  rw [View.read_apply, tab1_emb]
  refine Eq.trans (cast_eq _ _) ?_
  rw [gat_at fI fT _ (numL L) (0 : Fin 4) r k e0 e1 hlt]
  refine (congrArg fT (gather_src _ r k)).trans ?_
  congr 2
  apply Fin.ext
  show (((ivr1_0).view.read (Elt F) _ (S128.rowMajor.symm ((r : Fin 128).cast hn.symm))).toNat) = _
  rw [rowMajor_symm_S128 r hn, hrow]

set_option maxHeartbeats 4000000 in
theorem chunk1_1_val (fO : Buf (Elt F) ((oCh1_1 L).view.loc (thr d L))) (fS : Buf (Elt F) ((slot5).view.loc (thr d L)))
    (rest : List (View.Piece (Elt F) S128x128 .f32))
    (fT : Buf (Elt F) ((tab1).view.loc (thr d L))) (fV : Buf (Elt F) ((iv1).view.loc (thr d L)))
    (fI : Buf (Elt F) ((iSlab1 L).view.loc (thr d L))) (hn : S128.numel = 128)
    (hin : ∀ x, (((ivr1_1).view.read (Elt F) ((iv1).view.writes (Elt F) fV
        [⟨Rect.whole S4x128, ReadAs.same.apply ((iSlab1 L).view.read (Elt F) fI)⟩])) x).toNat < 100000) :
    ∀ i ∈ (oCh1_1 L).view.set,
      ((oCh1_1 L).view.writes (Elt F) fO [⟨Rect.whole S128x128, ReadAs.same.apply ((slot5).view.read (Elt F)
        ((slot5).view.writes (Elt F) fS (⟨Rect.whole S128x128, SparseCore.gatherPayload gathers_S100000x128_S128x128
          ((tab1).view.read (Elt F) fT)
          (SparseCore.rows ((ivr1_1).view.read (Elt F) ((iv1).view.writes (Elt F) fV
            [⟨Rect.whole S4x128, ReadAs.same.apply ((iSlab1 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh1_1 L).view (Val := Elt F) fO (Rect.whole S128x128) (ReadAs.same.apply ((slot5).view.read (Elt F)
        ((slot5).view.writes (Elt F) fS (⟨Rect.whole S128x128, SparseCore.gatherPayload gathers_S100000x128_S128x128
          ((tab1).view.read (Elt F) fT)
          (SparseCore.rows ((ivr1_1).view.read (Elt F) ((iv1).view.writes (Elt F) fV
            [⟨Rect.whole S4x128, ReadAs.same.apply ((iSlab1 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot5).view (Val := Elt F) fS (Rect.whole S128x128) (SparseCore.gatherPayload gathers_S100000x128_S128x128
          ((tab1).view.read (Elt F) fT)
          (SparseCore.rows ((ivr1_1).view.read (Elt F) ((iv1).view.writes (Elt F) fV
            [⟨Rect.whole S4x128, ReadAs.same.apply ((iSlab1 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr1_1).view.read (Elt F) ((iv1).view.writes (Elt F) fV
        [⟨Rect.whole S4x128, ReadAs.same.apply ((iSlab1 L).view.read (Elt F) fI)⟩])) (ix1 r) = fI (ix3 (numL L) (1 : Fin 4) r) := by
    have h3 := View.read_writes_cons_emb (iv1).view (Val := Elt F) fV (Rect.whole S4x128) (ReadAs.same.apply ((iSlab1 L).view.read (Elt F) fI)) [] (ix2 (1 : Fin 4) r)
    rw [Rect.emb_whole_apply, View.read_apply, iv1_emb] at h3
    rw [View.read_apply, ivr1_1_emb]
    refine Eq.trans (?_ : _ = _) (Eq.trans h3 ?_)
    · rfl
    show (iSlab1 L).view.read (Elt F) fI (ix2 (1 : Fin 4) r) = _
    rw [View.read_apply, iSlab1_emb]
    exact cast_eq _ _
  obtain ⟨e0, e1⟩ := oCh1_1_emb L r k
  have hlt := hin (ix1 r)
  rw [hrow] at hlt
  show (tab1).view.read (Elt F) fT (gathers_S100000x128_S128x128.idx _ (ix2 r k)) = _
  rw [View.read_apply, tab1_emb]
  refine Eq.trans (cast_eq _ _) ?_
  rw [gat_at fI fT _ (numL L) (1 : Fin 4) r k e0 e1 hlt]
  refine (congrArg fT (gather_src _ r k)).trans ?_
  congr 2
  apply Fin.ext
  show (((ivr1_1).view.read (Elt F) _ (S128.rowMajor.symm ((r : Fin 128).cast hn.symm))).toNat) = _
  rw [rowMajor_symm_S128 r hn, hrow]

set_option maxHeartbeats 4000000 in
theorem chunk1_2_val (fO : Buf (Elt F) ((oCh1_2 L).view.loc (thr d L))) (fS : Buf (Elt F) ((slot6).view.loc (thr d L)))
    (rest : List (View.Piece (Elt F) S128x128 .f32))
    (fT : Buf (Elt F) ((tab1).view.loc (thr d L))) (fV : Buf (Elt F) ((iv1).view.loc (thr d L)))
    (fI : Buf (Elt F) ((iSlab1 L).view.loc (thr d L))) (hn : S128.numel = 128)
    (hin : ∀ x, (((ivr1_2).view.read (Elt F) ((iv1).view.writes (Elt F) fV
        [⟨Rect.whole S4x128, ReadAs.same.apply ((iSlab1 L).view.read (Elt F) fI)⟩])) x).toNat < 100000) :
    ∀ i ∈ (oCh1_2 L).view.set,
      ((oCh1_2 L).view.writes (Elt F) fO [⟨Rect.whole S128x128, ReadAs.same.apply ((slot6).view.read (Elt F)
        ((slot6).view.writes (Elt F) fS (⟨Rect.whole S128x128, SparseCore.gatherPayload gathers_S100000x128_S128x128
          ((tab1).view.read (Elt F) fT)
          (SparseCore.rows ((ivr1_2).view.read (Elt F) ((iv1).view.writes (Elt F) fV
            [⟨Rect.whole S4x128, ReadAs.same.apply ((iSlab1 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh1_2 L).view (Val := Elt F) fO (Rect.whole S128x128) (ReadAs.same.apply ((slot6).view.read (Elt F)
        ((slot6).view.writes (Elt F) fS (⟨Rect.whole S128x128, SparseCore.gatherPayload gathers_S100000x128_S128x128
          ((tab1).view.read (Elt F) fT)
          (SparseCore.rows ((ivr1_2).view.read (Elt F) ((iv1).view.writes (Elt F) fV
            [⟨Rect.whole S4x128, ReadAs.same.apply ((iSlab1 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot6).view (Val := Elt F) fS (Rect.whole S128x128) (SparseCore.gatherPayload gathers_S100000x128_S128x128
          ((tab1).view.read (Elt F) fT)
          (SparseCore.rows ((ivr1_2).view.read (Elt F) ((iv1).view.writes (Elt F) fV
            [⟨Rect.whole S4x128, ReadAs.same.apply ((iSlab1 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr1_2).view.read (Elt F) ((iv1).view.writes (Elt F) fV
        [⟨Rect.whole S4x128, ReadAs.same.apply ((iSlab1 L).view.read (Elt F) fI)⟩])) (ix1 r) = fI (ix3 (numL L) (2 : Fin 4) r) := by
    have h3 := View.read_writes_cons_emb (iv1).view (Val := Elt F) fV (Rect.whole S4x128) (ReadAs.same.apply ((iSlab1 L).view.read (Elt F) fI)) [] (ix2 (2 : Fin 4) r)
    rw [Rect.emb_whole_apply, View.read_apply, iv1_emb] at h3
    rw [View.read_apply, ivr1_2_emb]
    refine Eq.trans (?_ : _ = _) (Eq.trans h3 ?_)
    · rfl
    show (iSlab1 L).view.read (Elt F) fI (ix2 (2 : Fin 4) r) = _
    rw [View.read_apply, iSlab1_emb]
    exact cast_eq _ _
  obtain ⟨e0, e1⟩ := oCh1_2_emb L r k
  have hlt := hin (ix1 r)
  rw [hrow] at hlt
  show (tab1).view.read (Elt F) fT (gathers_S100000x128_S128x128.idx _ (ix2 r k)) = _
  rw [View.read_apply, tab1_emb]
  refine Eq.trans (cast_eq _ _) ?_
  rw [gat_at fI fT _ (numL L) (2 : Fin 4) r k e0 e1 hlt]
  refine (congrArg fT (gather_src _ r k)).trans ?_
  congr 2
  apply Fin.ext
  show (((ivr1_2).view.read (Elt F) _ (S128.rowMajor.symm ((r : Fin 128).cast hn.symm))).toNat) = _
  rw [rowMajor_symm_S128 r hn, hrow]

set_option maxHeartbeats 4000000 in
theorem chunk1_3_val (fO : Buf (Elt F) ((oCh1_3 L).view.loc (thr d L))) (fS : Buf (Elt F) ((slot0).view.loc (thr d L)))
    (rest : List (View.Piece (Elt F) S128x128 .f32))
    (fT : Buf (Elt F) ((tab1).view.loc (thr d L))) (fV : Buf (Elt F) ((iv1).view.loc (thr d L)))
    (fI : Buf (Elt F) ((iSlab1 L).view.loc (thr d L))) (hn : S128.numel = 128)
    (hin : ∀ x, (((ivr1_3).view.read (Elt F) ((iv1).view.writes (Elt F) fV
        [⟨Rect.whole S4x128, ReadAs.same.apply ((iSlab1 L).view.read (Elt F) fI)⟩])) x).toNat < 100000) :
    ∀ i ∈ (oCh1_3 L).view.set,
      ((oCh1_3 L).view.writes (Elt F) fO [⟨Rect.whole S128x128, ReadAs.same.apply ((slot0).view.read (Elt F)
        ((slot0).view.writes (Elt F) fS (⟨Rect.whole S128x128, SparseCore.gatherPayload gathers_S100000x128_S128x128
          ((tab1).view.read (Elt F) fT)
          (SparseCore.rows ((ivr1_3).view.read (Elt F) ((iv1).view.writes (Elt F) fV
            [⟨Rect.whole S4x128, ReadAs.same.apply ((iSlab1 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh1_3 L).view (Val := Elt F) fO (Rect.whole S128x128) (ReadAs.same.apply ((slot0).view.read (Elt F)
        ((slot0).view.writes (Elt F) fS (⟨Rect.whole S128x128, SparseCore.gatherPayload gathers_S100000x128_S128x128
          ((tab1).view.read (Elt F) fT)
          (SparseCore.rows ((ivr1_3).view.read (Elt F) ((iv1).view.writes (Elt F) fV
            [⟨Rect.whole S4x128, ReadAs.same.apply ((iSlab1 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot0).view (Val := Elt F) fS (Rect.whole S128x128) (SparseCore.gatherPayload gathers_S100000x128_S128x128
          ((tab1).view.read (Elt F) fT)
          (SparseCore.rows ((ivr1_3).view.read (Elt F) ((iv1).view.writes (Elt F) fV
            [⟨Rect.whole S4x128, ReadAs.same.apply ((iSlab1 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr1_3).view.read (Elt F) ((iv1).view.writes (Elt F) fV
        [⟨Rect.whole S4x128, ReadAs.same.apply ((iSlab1 L).view.read (Elt F) fI)⟩])) (ix1 r) = fI (ix3 (numL L) (3 : Fin 4) r) := by
    have h3 := View.read_writes_cons_emb (iv1).view (Val := Elt F) fV (Rect.whole S4x128) (ReadAs.same.apply ((iSlab1 L).view.read (Elt F) fI)) [] (ix2 (3 : Fin 4) r)
    rw [Rect.emb_whole_apply, View.read_apply, iv1_emb] at h3
    rw [View.read_apply, ivr1_3_emb]
    refine Eq.trans (?_ : _ = _) (Eq.trans h3 ?_)
    · rfl
    show (iSlab1 L).view.read (Elt F) fI (ix2 (3 : Fin 4) r) = _
    rw [View.read_apply, iSlab1_emb]
    exact cast_eq _ _
  obtain ⟨e0, e1⟩ := oCh1_3_emb L r k
  have hlt := hin (ix1 r)
  rw [hrow] at hlt
  show (tab1).view.read (Elt F) fT (gathers_S100000x128_S128x128.idx _ (ix2 r k)) = _
  rw [View.read_apply, tab1_emb]
  refine Eq.trans (cast_eq _ _) ?_
  rw [gat_at fI fT _ (numL L) (3 : Fin 4) r k e0 e1 hlt]
  refine (congrArg fT (gather_src _ r k)).trans ?_
  congr 2
  apply Fin.ext
  show (((ivr1_3).view.read (Elt F) _ (S128.rowMajor.symm ((r : Fin 128).cast hn.symm))).toNat) = _
  rw [rowMajor_symm_S128 r hn, hrow]

set_option maxHeartbeats 4000000 in
theorem chunk2_0_val (fO : Buf (Elt F) ((oCh2_0 L).view.loc (thr d L))) (fS : Buf (Elt F) ((slot1).view.loc (thr d L)))
    (rest : List (View.Piece (Elt F) S128x128 .f32))
    (fT : Buf (Elt F) ((tab2).view.loc (thr d L))) (fV : Buf (Elt F) ((iv2).view.loc (thr d L)))
    (fI : Buf (Elt F) ((iSlab2 L).view.loc (thr d L))) (hn : S128.numel = 128)
    (hin : ∀ x, (((ivr2_0).view.read (Elt F) ((iv2).view.writes (Elt F) fV
        [⟨Rect.whole S4x128, ReadAs.same.apply ((iSlab2 L).view.read (Elt F) fI)⟩])) x).toNat < 100000) :
    ∀ i ∈ (oCh2_0 L).view.set,
      ((oCh2_0 L).view.writes (Elt F) fO [⟨Rect.whole S128x128, ReadAs.same.apply ((slot1).view.read (Elt F)
        ((slot1).view.writes (Elt F) fS (⟨Rect.whole S128x128, SparseCore.gatherPayload gathers_S100000x128_S128x128
          ((tab2).view.read (Elt F) fT)
          (SparseCore.rows ((ivr2_0).view.read (Elt F) ((iv2).view.writes (Elt F) fV
            [⟨Rect.whole S4x128, ReadAs.same.apply ((iSlab2 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh2_0 L).view (Val := Elt F) fO (Rect.whole S128x128) (ReadAs.same.apply ((slot1).view.read (Elt F)
        ((slot1).view.writes (Elt F) fS (⟨Rect.whole S128x128, SparseCore.gatherPayload gathers_S100000x128_S128x128
          ((tab2).view.read (Elt F) fT)
          (SparseCore.rows ((ivr2_0).view.read (Elt F) ((iv2).view.writes (Elt F) fV
            [⟨Rect.whole S4x128, ReadAs.same.apply ((iSlab2 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot1).view (Val := Elt F) fS (Rect.whole S128x128) (SparseCore.gatherPayload gathers_S100000x128_S128x128
          ((tab2).view.read (Elt F) fT)
          (SparseCore.rows ((ivr2_0).view.read (Elt F) ((iv2).view.writes (Elt F) fV
            [⟨Rect.whole S4x128, ReadAs.same.apply ((iSlab2 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr2_0).view.read (Elt F) ((iv2).view.writes (Elt F) fV
        [⟨Rect.whole S4x128, ReadAs.same.apply ((iSlab2 L).view.read (Elt F) fI)⟩])) (ix1 r) = fI (ix3 (numL L) (0 : Fin 4) r) := by
    have h3 := View.read_writes_cons_emb (iv2).view (Val := Elt F) fV (Rect.whole S4x128) (ReadAs.same.apply ((iSlab2 L).view.read (Elt F) fI)) [] (ix2 (0 : Fin 4) r)
    rw [Rect.emb_whole_apply, View.read_apply, iv2_emb] at h3
    rw [View.read_apply, ivr2_0_emb]
    refine Eq.trans (?_ : _ = _) (Eq.trans h3 ?_)
    · rfl
    show (iSlab2 L).view.read (Elt F) fI (ix2 (0 : Fin 4) r) = _
    rw [View.read_apply, iSlab2_emb]
    exact cast_eq _ _
  obtain ⟨e0, e1⟩ := oCh2_0_emb L r k
  have hlt := hin (ix1 r)
  rw [hrow] at hlt
  show (tab2).view.read (Elt F) fT (gathers_S100000x128_S128x128.idx _ (ix2 r k)) = _
  rw [View.read_apply, tab2_emb]
  refine Eq.trans (cast_eq _ _) ?_
  rw [gat_at fI fT _ (numL L) (0 : Fin 4) r k e0 e1 hlt]
  refine (congrArg fT (gather_src _ r k)).trans ?_
  congr 2
  apply Fin.ext
  show (((ivr2_0).view.read (Elt F) _ (S128.rowMajor.symm ((r : Fin 128).cast hn.symm))).toNat) = _
  rw [rowMajor_symm_S128 r hn, hrow]

set_option maxHeartbeats 4000000 in
theorem chunk2_1_val (fO : Buf (Elt F) ((oCh2_1 L).view.loc (thr d L))) (fS : Buf (Elt F) ((slot2).view.loc (thr d L)))
    (rest : List (View.Piece (Elt F) S128x128 .f32))
    (fT : Buf (Elt F) ((tab2).view.loc (thr d L))) (fV : Buf (Elt F) ((iv2).view.loc (thr d L)))
    (fI : Buf (Elt F) ((iSlab2 L).view.loc (thr d L))) (hn : S128.numel = 128)
    (hin : ∀ x, (((ivr2_1).view.read (Elt F) ((iv2).view.writes (Elt F) fV
        [⟨Rect.whole S4x128, ReadAs.same.apply ((iSlab2 L).view.read (Elt F) fI)⟩])) x).toNat < 100000) :
    ∀ i ∈ (oCh2_1 L).view.set,
      ((oCh2_1 L).view.writes (Elt F) fO [⟨Rect.whole S128x128, ReadAs.same.apply ((slot2).view.read (Elt F)
        ((slot2).view.writes (Elt F) fS (⟨Rect.whole S128x128, SparseCore.gatherPayload gathers_S100000x128_S128x128
          ((tab2).view.read (Elt F) fT)
          (SparseCore.rows ((ivr2_1).view.read (Elt F) ((iv2).view.writes (Elt F) fV
            [⟨Rect.whole S4x128, ReadAs.same.apply ((iSlab2 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh2_1 L).view (Val := Elt F) fO (Rect.whole S128x128) (ReadAs.same.apply ((slot2).view.read (Elt F)
        ((slot2).view.writes (Elt F) fS (⟨Rect.whole S128x128, SparseCore.gatherPayload gathers_S100000x128_S128x128
          ((tab2).view.read (Elt F) fT)
          (SparseCore.rows ((ivr2_1).view.read (Elt F) ((iv2).view.writes (Elt F) fV
            [⟨Rect.whole S4x128, ReadAs.same.apply ((iSlab2 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot2).view (Val := Elt F) fS (Rect.whole S128x128) (SparseCore.gatherPayload gathers_S100000x128_S128x128
          ((tab2).view.read (Elt F) fT)
          (SparseCore.rows ((ivr2_1).view.read (Elt F) ((iv2).view.writes (Elt F) fV
            [⟨Rect.whole S4x128, ReadAs.same.apply ((iSlab2 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr2_1).view.read (Elt F) ((iv2).view.writes (Elt F) fV
        [⟨Rect.whole S4x128, ReadAs.same.apply ((iSlab2 L).view.read (Elt F) fI)⟩])) (ix1 r) = fI (ix3 (numL L) (1 : Fin 4) r) := by
    have h3 := View.read_writes_cons_emb (iv2).view (Val := Elt F) fV (Rect.whole S4x128) (ReadAs.same.apply ((iSlab2 L).view.read (Elt F) fI)) [] (ix2 (1 : Fin 4) r)
    rw [Rect.emb_whole_apply, View.read_apply, iv2_emb] at h3
    rw [View.read_apply, ivr2_1_emb]
    refine Eq.trans (?_ : _ = _) (Eq.trans h3 ?_)
    · rfl
    show (iSlab2 L).view.read (Elt F) fI (ix2 (1 : Fin 4) r) = _
    rw [View.read_apply, iSlab2_emb]
    exact cast_eq _ _
  obtain ⟨e0, e1⟩ := oCh2_1_emb L r k
  have hlt := hin (ix1 r)
  rw [hrow] at hlt
  show (tab2).view.read (Elt F) fT (gathers_S100000x128_S128x128.idx _ (ix2 r k)) = _
  rw [View.read_apply, tab2_emb]
  refine Eq.trans (cast_eq _ _) ?_
  rw [gat_at fI fT _ (numL L) (1 : Fin 4) r k e0 e1 hlt]
  refine (congrArg fT (gather_src _ r k)).trans ?_
  congr 2
  apply Fin.ext
  show (((ivr2_1).view.read (Elt F) _ (S128.rowMajor.symm ((r : Fin 128).cast hn.symm))).toNat) = _
  rw [rowMajor_symm_S128 r hn, hrow]

set_option maxHeartbeats 4000000 in
theorem chunk2_2_val (fO : Buf (Elt F) ((oCh2_2 L).view.loc (thr d L))) (fS : Buf (Elt F) ((slot3).view.loc (thr d L)))
    (rest : List (View.Piece (Elt F) S128x128 .f32))
    (fT : Buf (Elt F) ((tab2).view.loc (thr d L))) (fV : Buf (Elt F) ((iv2).view.loc (thr d L)))
    (fI : Buf (Elt F) ((iSlab2 L).view.loc (thr d L))) (hn : S128.numel = 128)
    (hin : ∀ x, (((ivr2_2).view.read (Elt F) ((iv2).view.writes (Elt F) fV
        [⟨Rect.whole S4x128, ReadAs.same.apply ((iSlab2 L).view.read (Elt F) fI)⟩])) x).toNat < 100000) :
    ∀ i ∈ (oCh2_2 L).view.set,
      ((oCh2_2 L).view.writes (Elt F) fO [⟨Rect.whole S128x128, ReadAs.same.apply ((slot3).view.read (Elt F)
        ((slot3).view.writes (Elt F) fS (⟨Rect.whole S128x128, SparseCore.gatherPayload gathers_S100000x128_S128x128
          ((tab2).view.read (Elt F) fT)
          (SparseCore.rows ((ivr2_2).view.read (Elt F) ((iv2).view.writes (Elt F) fV
            [⟨Rect.whole S4x128, ReadAs.same.apply ((iSlab2 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh2_2 L).view (Val := Elt F) fO (Rect.whole S128x128) (ReadAs.same.apply ((slot3).view.read (Elt F)
        ((slot3).view.writes (Elt F) fS (⟨Rect.whole S128x128, SparseCore.gatherPayload gathers_S100000x128_S128x128
          ((tab2).view.read (Elt F) fT)
          (SparseCore.rows ((ivr2_2).view.read (Elt F) ((iv2).view.writes (Elt F) fV
            [⟨Rect.whole S4x128, ReadAs.same.apply ((iSlab2 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot3).view (Val := Elt F) fS (Rect.whole S128x128) (SparseCore.gatherPayload gathers_S100000x128_S128x128
          ((tab2).view.read (Elt F) fT)
          (SparseCore.rows ((ivr2_2).view.read (Elt F) ((iv2).view.writes (Elt F) fV
            [⟨Rect.whole S4x128, ReadAs.same.apply ((iSlab2 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr2_2).view.read (Elt F) ((iv2).view.writes (Elt F) fV
        [⟨Rect.whole S4x128, ReadAs.same.apply ((iSlab2 L).view.read (Elt F) fI)⟩])) (ix1 r) = fI (ix3 (numL L) (2 : Fin 4) r) := by
    have h3 := View.read_writes_cons_emb (iv2).view (Val := Elt F) fV (Rect.whole S4x128) (ReadAs.same.apply ((iSlab2 L).view.read (Elt F) fI)) [] (ix2 (2 : Fin 4) r)
    rw [Rect.emb_whole_apply, View.read_apply, iv2_emb] at h3
    rw [View.read_apply, ivr2_2_emb]
    refine Eq.trans (?_ : _ = _) (Eq.trans h3 ?_)
    · rfl
    show (iSlab2 L).view.read (Elt F) fI (ix2 (2 : Fin 4) r) = _
    rw [View.read_apply, iSlab2_emb]
    exact cast_eq _ _
  obtain ⟨e0, e1⟩ := oCh2_2_emb L r k
  have hlt := hin (ix1 r)
  rw [hrow] at hlt
  show (tab2).view.read (Elt F) fT (gathers_S100000x128_S128x128.idx _ (ix2 r k)) = _
  rw [View.read_apply, tab2_emb]
  refine Eq.trans (cast_eq _ _) ?_
  rw [gat_at fI fT _ (numL L) (2 : Fin 4) r k e0 e1 hlt]
  refine (congrArg fT (gather_src _ r k)).trans ?_
  congr 2
  apply Fin.ext
  show (((ivr2_2).view.read (Elt F) _ (S128.rowMajor.symm ((r : Fin 128).cast hn.symm))).toNat) = _
  rw [rowMajor_symm_S128 r hn, hrow]

set_option maxHeartbeats 4000000 in
theorem chunk2_3_val (fO : Buf (Elt F) ((oCh2_3 L).view.loc (thr d L))) (fS : Buf (Elt F) ((slot4).view.loc (thr d L)))
    (rest : List (View.Piece (Elt F) S128x128 .f32))
    (fT : Buf (Elt F) ((tab2).view.loc (thr d L))) (fV : Buf (Elt F) ((iv2).view.loc (thr d L)))
    (fI : Buf (Elt F) ((iSlab2 L).view.loc (thr d L))) (hn : S128.numel = 128)
    (hin : ∀ x, (((ivr2_3).view.read (Elt F) ((iv2).view.writes (Elt F) fV
        [⟨Rect.whole S4x128, ReadAs.same.apply ((iSlab2 L).view.read (Elt F) fI)⟩])) x).toNat < 100000) :
    ∀ i ∈ (oCh2_3 L).view.set,
      ((oCh2_3 L).view.writes (Elt F) fO [⟨Rect.whole S128x128, ReadAs.same.apply ((slot4).view.read (Elt F)
        ((slot4).view.writes (Elt F) fS (⟨Rect.whole S128x128, SparseCore.gatherPayload gathers_S100000x128_S128x128
          ((tab2).view.read (Elt F) fT)
          (SparseCore.rows ((ivr2_3).view.read (Elt F) ((iv2).view.writes (Elt F) fV
            [⟨Rect.whole S4x128, ReadAs.same.apply ((iSlab2 L).view.read (Elt F) fI)⟩])) hn hin)⟩ :: rest)))⟩]) i
        = gat fI fT i := by
  intro i hi
  obtain ⟨x, -, rfl⟩ := Finset.mem_map.mp hi
  obtain ⟨r, k, rfl⟩ : ∃ (r k : Fin 128), x = ix2 r k := ⟨x 0, x 1, eq_ix2 x⟩
  have h1 := View.read_writes_cons_emb (oCh2_3 L).view (Val := Elt F) fO (Rect.whole S128x128) (ReadAs.same.apply ((slot4).view.read (Elt F)
        ((slot4).view.writes (Elt F) fS (⟨Rect.whole S128x128, SparseCore.gatherPayload gathers_S100000x128_S128x128
          ((tab2).view.read (Elt F) fT)
          (SparseCore.rows ((ivr2_3).view.read (Elt F) ((iv2).view.writes (Elt F) fV
            [⟨Rect.whole S4x128, ReadAs.same.apply ((iSlab2 L).view.read (Elt F) fI)⟩])) hn hin)⟩ :: rest)))) [] (ix2 r k)
  rw [Rect.emb_whole_apply, View.read_apply] at h1
  refine Eq.trans (?_ : _ = _) (Eq.trans h1 ?_)
  · exact (cast_eq _ _).symm
  have h2 := View.read_writes_cons_emb (slot4).view (Val := Elt F) fS (Rect.whole S128x128) (SparseCore.gatherPayload gathers_S100000x128_S128x128
          ((tab2).view.read (Elt F) fT)
          (SparseCore.rows ((ivr2_3).view.read (Elt F) ((iv2).view.writes (Elt F) fV
            [⟨Rect.whole S4x128, ReadAs.same.apply ((iSlab2 L).view.read (Elt F) fI)⟩])) hn hin)) rest (ix2 r k)
  rw [Rect.emb_whole_apply] at h2
  refine Eq.trans (?_ : _ = _) (Eq.trans h2 ?_)
  · rfl
  -- the gathered entry: the table at the row the list names
  have hrow : ((ivr2_3).view.read (Elt F) ((iv2).view.writes (Elt F) fV
        [⟨Rect.whole S4x128, ReadAs.same.apply ((iSlab2 L).view.read (Elt F) fI)⟩])) (ix1 r) = fI (ix3 (numL L) (3 : Fin 4) r) := by
    have h3 := View.read_writes_cons_emb (iv2).view (Val := Elt F) fV (Rect.whole S4x128) (ReadAs.same.apply ((iSlab2 L).view.read (Elt F) fI)) [] (ix2 (3 : Fin 4) r)
    rw [Rect.emb_whole_apply, View.read_apply, iv2_emb] at h3
    rw [View.read_apply, ivr2_3_emb]
    refine Eq.trans (?_ : _ = _) (Eq.trans h3 ?_)
    · rfl
    show (iSlab2 L).view.read (Elt F) fI (ix2 (3 : Fin 4) r) = _
    rw [View.read_apply, iSlab2_emb]
    exact cast_eq _ _
  obtain ⟨e0, e1⟩ := oCh2_3_emb L r k
  have hlt := hin (ix1 r)
  rw [hrow] at hlt
  show (tab2).view.read (Elt F) fT (gathers_S100000x128_S128x128.idx _ (ix2 r k)) = _
  rw [View.read_apply, tab2_emb]
  refine Eq.trans (cast_eq _ _) ?_
  rw [gat_at fI fT _ (numL L) (3 : Fin 4) r k e0 e1 hlt]
  refine (congrArg fT (gather_src _ r k)).trans ?_
  congr 2
  apply Fin.ext
  show (((ivr2_3).view.read (Elt F) _ (S128.rowMajor.symm ((r : Fin 128).cast hn.symm))).toNat) = _
  rw [rowMajor_symm_S128 r hn, hrow]

end Cert.Proof.KI

end
-- ==== Proof.KerMatchGather.lean ====
/-
  The gathered rows, in the words of the kernel's formula.

  The host reshapes an index array of 16384 words to `32 × 4 × 128` and widens a `100000 × 64` table by 64 zero
  columns; the SparseCore call leaves each output at the widened table gathered along the reshaped index array.
  Entry `(p, k)` of that output is therefore the table's row `idx p` at column `k` for `k < 64`, and `0` beyond: the
  "wide row" the kernel's nine-term sum multiplies with a weight block stacked twice.
-/
import proofs.«211833_g48473000902786_cont_8to1_c_597_31_alg».proof.Proof.TaskGather
import proofs.«211833_g48473000902786_cont_8to1_c_597_31_alg».proof.Proof.KerSpec
import Idealize.ShloMosaic.Lib.Pipeline.Value
import Idealize.ShloMosaic.PureOps.Ideal.Laws

noncomputable section

namespace Cert.Proof.KI

open Cert.KernelIdeal Cert.KernelIdeal.Gen
open Idealize.ShloMosaic Idealize.ShloMosaic.ValueIdx

theorem row_split (p : Fin 16384) : p.val = 512 * (rowN p).val + 128 * (rowJ p).val + (rowR p).val := by
  show p.val = 512 * (p.val / 512) + 128 * (p.val % 512 / 128) + p.val % 128
  omega

/-- The reshaped index array at `(n, j, r)` is the index array at `512 n + 128 j + r`. -/
theorem reshaped_idx (a : S16384.Idx → Elt Ideal .i32) (p : Fin 16384) :
    shapeCast S32x4x128 a Gen.shapeCasts_S16384_S32x4x128 (ix3 (rowN p) (rowJ p) (rowR p)) = a (ix1 p) :=
  shapeCast_apply a _ _ _ (by
    rw [Shape.rowMajor_val_one, Shape.rowMajor_val_three]
    show p.val = ((rowN p).val * 4 + (rowJ p).val) * 128 + (rowR p).val
    have := row_split p
    omega)

set_option maxHeartbeats 1000000 in
theorem gat_reshape_wide (a : S16384.Idx → Elt Ideal .i32) (E : FVec Ideal S100000x64 .f32)
    (h : ∀ q : Fin 16384, (a (ix1 q)).toNat < 100000) (p : Fin 16384) (k : Fin 128) :
    gat (F := Ideal) (shapeCast S32x4x128 a Gen.shapeCasts_S16384_S32x4x128)
        (concatenate S100000x128 1 [⟨S100000x64, E⟩, ⟨S100000x64, broadcastInDim S100000x64 ![] Gen.bcast_S_S100000x64 (constant (F := Ideal) S_ .f32 0x00000000#32)⟩]
          Gen.concatenates_S100000x64_S100000x64_S100000x128_d1) (ix2 p k)
      = Cert.Proof.Ker.wide E ⟨(a (ix1 p)).toNat, h p⟩ k := by
  have hlt : ((shapeCast S32x4x128 a Gen.shapeCasts_S16384_S32x4x128) (ix3 (rowN p) (rowJ p) (rowR p))).toNat < 100000 := by
    rw [reshaped_idx]; exact h p
  rw [gat_at _ _ (ix2 p k) (rowN p) (rowJ p) (rowR p) k (row_split p) rfl hlt]
  have e : (⟨((shapeCast S32x4x128 a Gen.shapeCasts_S16384_S32x4x128) (ix3 (rowN p) (rowJ p) (rowR p))).toNat, hlt⟩ : Fin 100000)
      = ⟨(a (ix1 p)).toNat, h p⟩ := Fin.ext (congrArg BitVec.toNat (reshaped_idx a p))
  rw [e]
  unfold Cert.Proof.Ker.wide
  by_cases hk : k.val < 64
  · rw [dif_pos hk]
    exact concatenate_pair_apply_left (t := S100000x128) (s₁ := S100000x64) (s₂ := S100000x64) (1 : Fin 2) E _ Gen.concatenates_S100000x64_S100000x64_S100000x128_d1 _ rfl
      (ix2 ⟨(a (ix1 p)).toNat, h p⟩ ⟨k.val, hk⟩) (fun b => by match b with | 0 => rfl | 1 => rfl)
  · rw [dif_neg hk]
    rw [concatenate_pair_apply_right (t := S100000x128) (s₁ := S100000x64) (s₂ := S100000x64) (1 : Fin 2) E _ Gen.concatenates_S100000x64_S100000x64_S100000x128_d1 _ rfl rfl
      (ix2 ⟨(a (ix1 p)).toNat, h p⟩ ⟨k.val - 64, by have := k.isLt; omega⟩)
      (fun b hb => by match b with | 0 => rfl | 1 => exact absurd rfl hb)
      (by show (k.val - 64) + 64 = k.val; omega)]
    show Ideal.ofBits .f32 0x00000000#32 = 0
    exact Ideal.ofBits_zero_f32

end Cert.Proof.KI

end
-- ==== Proof.TaskPayVal.lean ====
/-
  The SparseCore call's handshakes, with what the call leaves in its outputs.

  As in the frame form, except on the way back: a task hands back rows `[512 n, 512 n + 512)` of each output at the
  widened table gathered along the index array (`gat`), and a SparseCore its sixteen tasks' parts.
-/
import proofs.«211833_g48473000902786_cont_8to1_c_597_31_alg».proof.Proof.TaskPay
import proofs.«211833_g48473000902786_cont_8to1_c_597_31_alg».proof.Proof.TaskGather

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (W : Dev nD → Valuation τ sig (Elt F))

/-- The three outputs after the call: each widened table gathered along its index array. -/
abbrev gO0 (d : Dev nD) : Buf (Elt F) (o0Loc d) := gat (wI0 W d) (wT0 W d)
abbrev gO1 (d : Dev nD) : Buf (Elt F) (o1Loc d) := gat (wI1 W d) (wT1 W d)
abbrev gO2 (d : Dev nD) : Buf (Elt F) (o2Loc d) := gat (wI2 W d) (wT2 W d)

/-- Task `n`'s part of the call's arrays when it is done. -/
def taskOut (d : Dev nD) (n : Fin 32) : sProp 𝕄 :=
  iprop((i0Loc d ↦[(iBox n).set]{fullShare} wI0 W d) ∗ (i1Loc d ↦[(iBox n).set]{fullShare} wI1 W d) ∗ (i2Loc d ↦[(iBox n).set]{fullShare} wI2 W d)
    ∗ (t0Loc d ↦{tq n} wT0 W d) ∗ (t1Loc d ↦{tq n} wT1 W d) ∗ (t2Loc d ↦{tq n} wT2 W d)
    ∗ (o0Loc d ↦[(oBox n).set]{fullShare} gO0 W d) ∗ (o1Loc d ↦[(oBox n).set]{fullShare} gO1 W d) ∗ (o2Loc d ↦[(oBox n).set]{fullShare} gO2 W d))

def coreOut (d : Dev nD) (c : Fin 2) : sProp 𝕄 := bigSep Finset.univ fun i : Fin 16 => taskOut W d (taskNo c i)

/-- The payloads: out as in the frame form, back with the outputs read. -/
def PV : (K (F := F)).Pay (nD := nD) (Val := Elt F) (Name := ℕ) (U := UU) where
  st := fun q d c => match q with | 0 => coreRes W d (Fin.cast nCore_zero c)
  dn := fun q d c => match q with | 0 => coreOut W d (Fin.cast nCore_zero c)
  go := fun q d c i => match q with | 0 => taskRes W d (taskNo (Fin.cast nCore_zero c) (Fin.cast nSub_zero i))
  td := fun q d c i => match q with | 0 => taskOut W d (taskNo (Fin.cast nCore_zero c) (Fin.cast nSub_zero i))
  x := fun _ _ => iprop(emp)

set_option synthInstance.maxHeartbeats 400000 in
set_option synthInstance.maxSize 4096 in
instance taskOut_storable (d : Dev nD) (n : Fin 32) : BI.Storable (upEmb : UEmb _ 𝕄) (taskOut W d n) := by
  unfold taskOut; infer_instance
instance coreOut_storable (d : Dev nD) (c : Fin 2) : BI.Storable (upEmb : UEmb _ 𝕄) (coreOut W d c) := by
  unfold coreOut; infer_instance

instance PV_storable : (PV (F := F) W).IsStorable where
  st q d c := match q with | 0 => (inferInstance : BI.Storable (upEmb : UEmb _ 𝕄) (coreRes W d (Fin.cast nCore_zero c)))
  dn q d c := match q with | 0 => (inferInstance : BI.Storable (upEmb : UEmb _ 𝕄) (coreOut W d (Fin.cast nCore_zero c)))
  go q d c i := match q with
    | 0 => (inferInstance : BI.Storable (upEmb : UEmb _ 𝕄) (taskRes W d (taskNo (Fin.cast nCore_zero c) (Fin.cast nSub_zero i))))
  td q d c i := match q with
    | 0 => (inferInstance : BI.Storable (upEmb : UEmb _ 𝕄) (taskOut W d (taskNo (Fin.cast nCore_zero c) (Fin.cast nSub_zero i))))

/-- A SparseCore's part splits into its tasks' parts, and their parts when done are its part when done: by definition. -/
theorem vecSplitV : (K (F := F)).VecSplit' (PV W) 0 := by
  intro d c
  show coreRes W d (Fin.cast nCore_zero c) ⊢ |={Set.univ}=> iprop(
      (bigSep Finset.univ fun i : Fin ((K (F := F)).nSub 0) => taskRes W d (taskNo (Fin.cast nCore_zero c) (Fin.cast nSub_zero i)))
      ∗ ((bigSep Finset.univ fun i : Fin ((K (F := F)).nSub 0) => taskOut W d (taskNo (Fin.cast nCore_zero c) (Fin.cast nSub_zero i)))
          -∗ coreOut W d (Fin.cast nCore_zero c)))
  have e : (bigSep Finset.univ fun i : Fin ((K (F := F)).nSub 0) => taskRes W d (taskNo (Fin.cast nCore_zero c) (Fin.cast nSub_zero i)))
      = coreRes W d (Fin.cast nCore_zero c) := by
    unfold coreRes
    exact bigSep_congr fun _ _ => congrArg (fun i => taskRes W d (taskNo (Fin.cast nCore_zero c) i)) (Fin.ext rfl)
  have e' : (bigSep Finset.univ fun i : Fin ((K (F := F)).nSub 0) => taskOut W d (taskNo (Fin.cast nCore_zero c) (Fin.cast nSub_zero i)))
      = coreOut W d (Fin.cast nCore_zero c) := by
    unfold coreOut
    exact bigSep_congr fun _ _ => congrArg (fun i => taskOut W d (taskNo (Fin.cast nCore_zero c) i)) (Fin.ext rfl)
  rw [e, e']
  iintro H; imodintro
  isplitl [H]; · iexact H
  iintro H; iexact H

end Cert.Proof.KI

end
-- ==== Proof.LaunchSplitVal.lean ====
/-
  The SparseCore call's operands joined back, with what the call left in its outputs.

  On the way out the payloads are the frame form's. On the way back every task's block of an output holds the
  widened table gathered along the index array, one function for the whole output, so the 32 blocks are the
  output whole at that function.
-/
import proofs.«211833_g48473000902786_cont_8to1_c_597_31_alg».proof.Proof.LaunchSplit
import proofs.«211833_g48473000902786_cont_8to1_c_597_31_alg».proof.Proof.TaskPayVal

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

local notation "𝕄" => MT nD τ sig (HIx 1) (Elt F) ℕ UU ℕ

variable (W : Dev nD → Valuation τ sig (Elt F))

/-- What the call takes is the frame form's; -/
theorem stV0_eq (d : Dev nD) :
    (bigSep Finset.univ fun c : Fin ((K (F := F)).nCore 0) => (PV W).st 0 d c) = bigSep Finset.univ fun n : Fin 32 => taskRes W d n := by
  show (bigSep Finset.univ fun c : Fin ((K (F := F)).nCore 0) => coreRes W d (Fin.cast nCore_zero c)) = _
  rw [bigSep_cores (F := F) (fun c => coreRes W d c)]
  unfold coreRes
  exact bigSep_tasks32 (fun n => taskRes W d n)
/-- what it hands back, the 32 tasks' parts with the outputs read. -/
theorem dnV0_eq (d : Dev nD) :
    (bigSep Finset.univ fun c : Fin ((K (F := F)).nCore 0) => (PV W).dn 0 d c) = bigSep Finset.univ fun n : Fin 32 => taskOut W d n := by
  show (bigSep Finset.univ fun c : Fin ((K (F := F)).nCore 0) => coreOut W d (Fin.cast nCore_zero c)) = _
  rw [bigSep_cores (F := F) (fun c => coreOut W d c)]
  unfold coreOut
  exact bigSep_tasks32 (fun n => taskOut W d n)

theorem tasksOut_eq (d : Dev nD) :
    (bigSep Finset.univ fun n : Fin 32 => taskOut W d n) = iprop(
      (bigSep Finset.univ fun n : Fin 32 => i0Loc d ↦[(iBox n).set]{fullShare} wI0 W d)
      ∗ (bigSep Finset.univ fun n : Fin 32 => i1Loc d ↦[(iBox n).set]{fullShare} wI1 W d)
      ∗ (bigSep Finset.univ fun n : Fin 32 => i2Loc d ↦[(iBox n).set]{fullShare} wI2 W d)
      ∗ (bigSep Finset.univ fun n : Fin 32 => t0Loc d ↦{tq n} wT0 W d)
      ∗ (bigSep Finset.univ fun n : Fin 32 => t1Loc d ↦{tq n} wT1 W d)
      ∗ (bigSep Finset.univ fun n : Fin 32 => t2Loc d ↦{tq n} wT2 W d)
      ∗ (bigSep Finset.univ fun n : Fin 32 => o0Loc d ↦[(oBox n).set]{fullShare} gO0 W d)
      ∗ (bigSep Finset.univ fun n : Fin 32 => o1Loc d ↦[(oBox n).set]{fullShare} gO1 W d)
      ∗ (bigSep Finset.univ fun n : Fin 32 => o2Loc d ↦[(oBox n).set]{fullShare} gO2 W d)) := by
  unfold taskOut
  rw [bigSep_sep', bigSep_sep', bigSep_sep', bigSep_sep', bigSep_sep', bigSep_sep', bigSep_sep', bigSep_sep']

/-- The nine arrays whole after the call: the index arrays and the tables at `W`, each output at its table gathered
    along its index array. -/
def wholeNineV (d : Dev nD) : sProp 𝕄 :=
  iprop((i0Loc d ↦{fullShare} wI0 W d) ∗ (i1Loc d ↦{fullShare} wI1 W d) ∗ (i2Loc d ↦{fullShare} wI2 W d)
    ∗ (t0Loc d ↦{fullShare} wT0 W d) ∗ (t1Loc d ↦{fullShare} wT1 W d) ∗ (t2Loc d ↦{fullShare} wT2 W d)
    ∗ (o0Loc d ↦{fullShare} gO0 W d) ∗ (o1Loc d ↦{fullShare} gO1 W d) ∗ (o2Loc d ↦{fullShare} gO2 W d))

theorem st_splitV (d : Dev nD) :
    wholeNine W d ⊢ iprop((bigSep Finset.univ fun c : Fin ((K (F := F)).nCore 0) => (PV W).st 0 d c) ∗ tabRest W d) := by
  rw [stV0_eq, ← st0_eq]
  exact st_split W d

theorem dn_joinV (d : Dev nD) :
    iprop((bigSep Finset.univ fun c : Fin ((K (F := F)).nCore 0) => (PV W).dn 0 d c) ∗ tabRest W d) ⊢ wholeNineV W d := by
  rw [dnV0_eq, tasksOut_eq]
  unfold wholeNineV tabRest
  rw [i0_rows, i1_rows, i2_rows, o0_rows, o1_rows, o2_rows]
  iintro ⟨⟨Hi0, Hi1, Hi2, Hk0, Hk1, Hk2, Hs0, Hs1, Hs2⟩, Hr0, Hr1, Hr2⟩
  isplitl [Hi0]; · iexact Hi0
  isplitl [Hi1]; · iexact Hi1
  isplitl [Hi2]; · iexact Hi2
  isplitl [Hr0 Hk0]
  · iapply (Transfers.pointsTo_toks_join (Ix := HIx 1) (Name := ℕ) (U := UU) (Lvl := ℕ) (ℓ := t0Loc d) (S := Finset.univ) (f := wT0 W d) fullShare 32)
    isplitl [Hr0] <;> iassumption
  isplitl [Hr1 Hk1]
  · iapply (Transfers.pointsTo_toks_join (Ix := HIx 1) (Name := ℕ) (U := UU) (Lvl := ℕ) (ℓ := t1Loc d) (S := Finset.univ) (f := wT1 W d) fullShare 32)
    isplitl [Hr1] <;> iassumption
  isplitl [Hr2 Hk2]
  · iapply (Transfers.pointsTo_toks_join (Ix := HIx 1) (Name := ℕ) (U := UU) (Lvl := ℕ) (ℓ := t2Loc d) (S := Finset.univ) (f := wT2 W d) fullShare 32)
    isplitl [Hr2] <;> iassumption
  isplitl [Hs0]; · iexact Hs0
  isplitl [Hs1]; · iexact Hs1
  iexact Hs2

end Cert.Proof.KI

end
-- ==== Proof.LaunchMainVal.lean ====
/-
  The launch with the values threaded: @main on the TensorCore ends with the result array at a named function of
  the launch contents.

  As in the frame form, except that nothing is forgotten on the way. The SparseCore call hands its three outputs
  back at each widened table gathered along its index array. Each TensorCore region enters as a hypothesis that it
  leaves every array outside a set `O` as it was and the arrays of `O` at a function `R` of the contents it was
  entered with; then the contents after the region are determined, array by array. So the contents of every unscoped
  array at the end of @main are one chain of definitions from the launch contents, read at the result array for
  the value and at the arguments, which no step writes, for the frame.
-/
import proofs.«211833_g48473000902786_cont_8to1_c_597_31_alg».proof.Proof.LaunchMain
import proofs.«211833_g48473000902786_cont_8to1_c_597_31_alg».proof.Proof.LaunchSplitVal

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

local notation "𝕄" => MT nD τ sig (HIx 1) (Elt F) ℕ UU ℕ

/-! ## The nine arrays back, the outputs read -/

theorem nine_backV (W : Dev nD → Valuation τ sig (Elt F)) (d : Dev nD) :
    wholeNineV W d ⊢ (held (SparseCore.T d) nine (V1 d (W d) (gO0 W d) (gO1 W d) (gO2 W d)) : sProp 𝕄) := by
  unfold wholeNineV
  rw [held_nine, V1_ne d (W d) (gO0 W d) (gO1 W d) (gO2 W d) (b := (Proc.devRef .tc (main_v0 : Ref sig .tc) : DevRef τ sig)) (by decide) (by decide) (by decide),
    V1_ne d (W d) (gO0 W d) (gO1 W d) (gO2 W d) (b := (Proc.devRef .tc (main_v1 : Ref sig .tc) : DevRef τ sig)) (by decide) (by decide) (by decide),
    V1_ne d (W d) (gO0 W d) (gO1 W d) (gO2 W d) (b := (Proc.devRef .tc (main_v2 : Ref sig .tc) : DevRef τ sig)) (by decide) (by decide) (by decide),
    V1_ne d (W d) (gO0 W d) (gO1 W d) (gO2 W d) (b := (Proc.devRef .tc (main_v4 : Ref sig .tc) : DevRef τ sig)) (by decide) (by decide) (by decide),
    V1_ne d (W d) (gO0 W d) (gO1 W d) (gO2 W d) (b := (Proc.devRef .tc (main_v6 : Ref sig .tc) : DevRef τ sig)) (by decide) (by decide) (by decide),
    V1_ne d (W d) (gO0 W d) (gO1 W d) (gO2 W d) (b := (Proc.devRef .tc (main_v8 : Ref sig .tc) : DevRef τ sig)) (by decide) (by decide) (by decide),
    V1_o0, V1_o1, V1_o2]

/-! ## The contents after a region -/

/-- The contents `V` with the arrays of `O` replaced by `R`'s. -/
def upd (O : Finset (DevRef τ sig)) (R V : Valuation τ sig (Elt F)) : Valuation τ sig (Elt F) := fun b => if b ∈ O then R b else V b

theorem upd_off {O : Finset (DevRef τ sig)} (R V : Valuation τ sig (Elt F)) {b : DevRef τ sig} (hb : b ∉ O) : upd O R V b = V b := if_neg hb
theorem upd_on {O : Finset (DevRef τ sig)} (R V : Valuation τ sig (Elt F)) {b : DevRef τ sig} (hb : b ∈ O) : upd O R V b = R b := if_pos hb

/-- Contents that agree with `V` off `O` and with `R` on `O` are `upd O R V`. -/
theorem eq_upd {O : Finset (DevRef τ sig)} {R V W' : Valuation τ sig (Elt F)} (hoff : ∀ b, b ∉ O → W' b = V b) (hon : ∀ b, b ∈ O → W' b = R b) :
    W' = upd O R V := funext fun b => by
  by_cases hb : b ∈ O
  · rw [hon b hb, upd_on R V hb]
  · rw [hoff b hb, upd_off R V hb]

/-! ## The chain of contents through @main -/

section Chain

variable (m : (ℓ : Loc nD τ sig) → Buf (Elt F) ℓ)
variable (O1 O2 : Finset (DevRef τ sig)) (R0 R1 : Valuation τ sig (Elt F) → Valuation τ sig (Elt F))

/-- After the SparseCore call: the outputs at the gathered tables. -/
def Vg (d : Dev nD) : Valuation τ sig (Elt F) := V1 d (Wc m d) (gO0 (Wc m) d) (gO1 (Wc m) d) (gO2 (Wc m) d)
/-- Entering the first region; -/
def V2 (d : Dev nD) : Valuation τ sig (Elt F) := after mid2 (Vg m d)
/-- leaving it; -/
def V3 (d : Dev nD) : Valuation τ sig (Elt F) := upd O1 (R0 (V2 m d)) (V2 m d)
/-- entering the second region; -/
def V4 (d : Dev nD) : Valuation τ sig (Elt F) := after mid5 (V3 m O1 R0 d)
/-- leaving it: the contents at the end of @main. -/
def V5 (d : Dev nD) : Valuation τ sig (Elt F) := upd O2 (R1 (V4 m O1 R0 d)) (V4 m O1 R0 d)

/-- The result array at the end of @main. -/
def resultVal (d : Dev nD) : Buf (Elt F) ((SparseCore.T d : Thread nD τ).loc main_v18) := V5 m O1 O2 R0 R1 d (Proc.devRef .tc (main_v18 : Ref sig .tc) : DevRef τ sig)

theorem resultVal_eq (d : Dev nD) (h : (Proc.devRef .tc (main_v18 : Ref sig .tc) : DevRef τ sig) ∈ O2) :
    resultVal m O1 O2 R0 R1 d = R1 (V4 m O1 R0 d) (Proc.devRef .tc (main_v18 : Ref sig .tc) : DevRef τ sig) := upd_on _ _ h

/-- No step writes an argument: at the end of @main each holds its launch contents. -/
theorem V5_arg (hO1 : ∀ b ∈ args19, b ∉ O1) (hO2 : ∀ b ∈ args19, b ∉ O2) (d : Dev nD) {b : DevRef τ sig} (hb : b ∈ args19) :
    V5 m O1 O2 R0 R1 d b = V0 m d b := by
  unfold V5 V4 V3 V2 Vg
  rw [upd_off _ _ (hO2 b hb), after_keep writes_mid5 _ (args_not_written b hb), upd_off _ _ (hO1 b hb),
    after_keep writes_mid2 _ (args_not_written b hb), V1_off d (Wc m d) _ _ _ (args_not_nine b hb)]
  exact after_keep writes_pre12 (V0 m d) (args_not_written b hb)

end Chain

/-! ## The launch element -/

set_option backward.isDefEq.respectTransparency.types false in
theorem hu₀V (W : Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => Cert.Proof.Region.G (F := F) d)
        ∗ bigSep Finset.univ fun thr : Thread nD τ => bigSep Finset.univ fun q : Fin 1 => (PV W).x q thr) := by
  unfold u₀
  iintro Hu
  ihave H := (Cert.Proof.Region.ownU_split (F := F) _ _ _) $$ Hu
  icases H with ⟨HH, HP, -⟩
  imod (Cert.Proof.Region.fundG (F := F)) $$ HP with HG
  imodintro
  isplitl [HH]; · iexact HH
  isplitl [HG]; · iexact HG
  rw [show (bigSep Finset.univ fun thr : Thread nD τ => bigSep Finset.univ fun q : Fin 1 => (PV (F := F) W).x q thr) = bigSep Finset.univ fun _ => iprop(emp) from
    bigSep_congr fun _ _ => bigSep_univ_of_subsingleton (0 : Fin 1), bigSep_emp']
  iempintro

/-! ## @main on the TensorCore -/

/-- The result array and the nineteen arguments. -/
abbrev fin20 : Finset (DevRef τ sig) := {(Proc.devRef .tc (main_v18 : Ref sig .tc) : DevRef τ sig), (Proc.devRef .tc (main_arg0 : Ref sig .tc) : DevRef τ sig), (Proc.devRef .tc (main_arg1 : Ref sig .tc) : DevRef τ sig), (Proc.devRef .tc (main_arg2 : Ref sig .tc) : DevRef τ sig), (Proc.devRef .tc (main_arg3 : Ref sig .tc) : DevRef τ sig), (Proc.devRef .tc (main_arg4 : Ref sig .tc) : DevRef τ sig), (Proc.devRef .tc (main_arg5 : Ref sig .tc) : DevRef τ sig), (Proc.devRef .tc (main_arg6 : Ref sig .tc) : DevRef τ sig), (Proc.devRef .tc (main_arg7 : Ref sig .tc) : DevRef τ sig), (Proc.devRef .tc (main_arg8 : Ref sig .tc) : DevRef τ sig), (Proc.devRef .tc (main_arg9 : Ref sig .tc) : DevRef τ sig), (Proc.devRef .tc (main_arg10 : Ref sig .tc) : DevRef τ sig), (Proc.devRef .tc (main_arg11 : Ref sig .tc) : DevRef τ sig), (Proc.devRef .tc (main_arg12 : Ref sig .tc) : DevRef τ sig), (Proc.devRef .tc (main_arg13 : Ref sig .tc) : DevRef τ sig), (Proc.devRef .tc (main_arg14 : Ref sig .tc) : DevRef τ sig), (Proc.devRef .tc (main_arg15 : Ref sig .tc) : DevRef τ sig), (Proc.devRef .tc (main_arg16 : Ref sig .tc) : DevRef τ sig), (Proc.devRef .tc (main_arg17 : Ref sig .tc) : DevRef τ sig), (Proc.devRef .tc (main_arg18 : Ref sig .tc) : DevRef τ sig)}

theorem fin20_sub : fin20 ⊆ Pipeline.ucRefs τ sig := fun b hb => by
  unfold fin20 at hb
  simp only [Finset.mem_insert, Finset.mem_singleton] at hb
  rcases hb with rfl | rfl | rfl | rfl | rfl | rfl | rfl | rfl | rfl | rfl | rfl | rfl | rfl | rfl | rfl | rfl | rfl | rfl | rfl | rfl <;> exact Cert.Proof.Region.mem_uc _ (by decide)

section Main

variable (m : (ℓ : Loc nD τ sig) → Buf (Elt F) ℓ) (ρ : Dev nD → PrngReg)
variable (O1 O2 : Finset (DevRef τ sig)) (R0 R1 : Valuation τ sig (Elt F) → Valuation τ sig (Elt F))

/-- What @main leaves the claim: the result array and the arguments at the end of the chain. -/
def FINV (d : Dev nD) : sProp 𝕄 := held (SparseCore.T d) fin20 (V5 m O1 O2 R0 R1 d)

set_option backward.isDefEq.respectTransparency.types false in
set_option maxHeartbeats 1600000 in
/-- @main on device `d`'s TensorCore, the values threaded: as the frame form, the call's outputs coming back at the
    gathered tables and each region leaving its results at its function of what it was entered with. -/
theorem hmainV [∀ e, Nonempty (Elt F e)]
    (hreg0 : ∀ (W : Valuation τ sig (Elt F)) (κ : GSem nD τ sig → ℕ) (d : Dev nD),
      iprop((K (F := F)).ctx EH (PV (Wc m)) κ ∗ (K (F := F)).tcSt EH d 1 ∗ boundary (SparseCore.T d) ∗ held (SparseCore.T d) (Pipeline.ucRefs τ sig) W ∗ Cert.Proof.Region.Gp (F := F) 0 d)
      ⊢ wp frame (wpE ((K (F := F)).defs (D (F := F))) 𝒱 (SparseCore.T d) none) Set.univ
          (Prog.lift (.customCall (SparseCore.inner (Pipeline.entry 0)) ()))
          fun _ => iprop(∃ W' : Valuation τ sig (Elt F), ⌜∀ b, b ∉ O1 → W' b = W b⌝ ∗ ⌜∀ b, b ∈ O1 → W' b = R0 W b⌝
            ∗ (K (F := F)).tcSt EH d 1 ∗ boundary (SparseCore.T d) ∗ held (SparseCore.T d) (Pipeline.ucRefs τ sig) W'))
    (hreg1 : ∀ (W : Valuation τ sig (Elt F)) (κ : GSem nD τ sig → ℕ) (d : Dev nD),
      iprop((K (F := F)).ctx EH (PV (Wc m)) κ ∗ (K (F := F)).tcSt EH d 1 ∗ boundary (SparseCore.T d) ∗ held (SparseCore.T d) (Pipeline.ucRefs τ sig) W ∗ Cert.Proof.Region.Gp (F := F) 1 d)
      ⊢ wp frame (wpE ((K (F := F)).defs (D (F := F))) 𝒱 (SparseCore.T d) none) Set.univ
          (Prog.lift (.customCall (SparseCore.inner (Pipeline.entry 1)) ()))
          fun _ => iprop(∃ W' : Valuation τ sig (Elt F), ⌜∀ b, b ∉ O2 → W' b = W b⌝ ∗ ⌜∀ b, b ∈ O2 → W' b = R1 W b⌝
            ∗ (K (F := F)).tcSt EH d 1 ∗ boundary (SparseCore.T d) ∗ held (SparseCore.T d) (Pipeline.ucRefs τ sig) W'))
    (κ : GSem nD τ sig → ℕ) (d : Dev nD) :
    iprop((K (F := F)).ctx EH (PV (Wc m)) κ ∗ (K (F := F)).tcSt EH d 0 ∗ (K (F := F)).tcRes m ρ d ∗ Cert.Proof.Region.G (F := F) d)
      ⊢ wp frame (wpE ((K (F := F)).defs (D (F := F))) 𝒱 (SparseCore.T d) none) Set.univ (main d)
          fun _ => iprop((K (F := F)).tcSt EH d 1 ∗ FINV m O1 O2 R0 R1 d) := by
  unfold SparseCore.Cfg.tcRes Cert.Proof.Region.G
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, -, -⟩, Hg0, Hg1⟩
  -- the twelve host operations
  iapply (wp_seq 𝒱 none Set.univ d (Pipeline.ucRefs τ sig) _ pre12 sub_pre12 fresh_pre12 (V0 m d)) $$ [Hb Hheld]
  · isplitl [Hb] <;> iassumption
  iintro ⟨Hb, Hheld⟩
  rw [wp_bind]
  -- the call: the nine arrays out, split among the tasks, and back with the outputs read
  ihave Hh := (Entails.of_eq (show (held (SparseCore.T d) (Pipeline.ucRefs τ sig) (after pre12 (V0 m d)) : sProp 𝕄)
      = iprop(held (SparseCore.T d) nine (Wc m d) ∗ held (SparseCore.T d) (Pipeline.ucRefs τ sig \ nine) (Wc m d)) from held_sub_split (SparseCore.T d) nine_sub (Wc m d))) $$ Hheld
  icases Hh with ⟨Hn, Hrest⟩
  ihave Hw := (nine_out (Wc m) d) $$ Hn
  ihave Hs := (st_splitV (Wc m) d) $$ Hw
  icases Hs with ⟨Hst0, Htab⟩
  iapply ((K (F := F)).wp_run (D (F := F)) 𝒱 (EH := EH) (P := PV (Wc m)) κ d 0) $$ [Hst Hst0 Hb Hrest Htab Hg0 Hg1]
  isplitr; · iexact Hctx
  isplitl [Hst]; · iexact Hst
  isplitl [Hst0]; · iexact Hst0
  iintro ⟨Hst, Hdn⟩
  ihave Hw := (dn_joinV (Wc m) d) $$ [Hdn Htab]
  · isplitl [Hdn] <;> iassumption
  ihave Hn := (nine_backV (Wc m) d) $$ Hw
  ihave Hheld := (rebuild d (Wc m d) (gO0 (Wc m) d) (gO1 (Wc m) d) (gO2 (Wc m) d)) $$ [Hn Hrest]
  · isplitl [Hn] <;> iassumption
  -- two reshapes
  iapply (wp_seq 𝒱 none Set.univ d (Pipeline.ucRefs τ sig) _ mid2 sub_mid2 fresh_mid2 (V1 d (Wc m d) (gO0 (Wc m) d) (gO1 (Wc m) d) (gO2 (Wc m) d))) $$ [Hb Hheld]
  · isplitl [Hb] <;> iassumption
  iintro ⟨Hb, Hheld⟩
  rw [wp_bind]
  -- the first region
  iapply (wp_wand_r frame _ Set.univ)
  isplitl [Hst Hb Hheld Hg0]
  · iapply (hreg0 (after mid2 (V1 d (Wc m d) (gO0 (Wc m) d) (gO1 (Wc m) d) (gO2 (Wc m) d))) κ d)
    isplitr; · iexact Hctx
    isplitl [Hst]; · iexact Hst
    isplitl [Hb]; · iexact Hb
    isplitl [Hheld]; · iexact Hheld
    iexact Hg0
  iintro %u ⟨%W1, %hW1a, %hW1b, Hst, Hb, Hheld⟩
  obtain rfl : W1 = V3 m O1 R0 d := eq_upd hW1a hW1b
  -- five reshapes
  iapply (wp_seq 𝒱 none Set.univ d (Pipeline.ucRefs τ sig) _ mid5 sub_mid5 fresh_mid5 (V3 m O1 R0 d)) $$ [Hb Hheld]
  · isplitl [Hb] <;> iassumption
  iintro ⟨Hb, Hheld⟩
  rw [wp_bind]
  -- the second region
  iapply (wp_wand_r frame _ Set.univ)
  isplitl [Hst Hb Hheld Hg1]
  · iapply (hreg1 (after mid5 (V3 m O1 R0 d)) κ d)
    isplitr; · iexact Hctx
    isplitl [Hst]; · iexact Hst
    isplitl [Hb]; · iexact Hb
    isplitl [Hheld]; · iexact Hheld
    iexact Hg1
  iintro %u' ⟨%W2, %hW2a, %hW2b, Hst, Hb, Hheld⟩
  obtain rfl : W2 = V5 m O1 O2 R0 R1 d := eq_upd hW2a hW2b
  rw [wp_pure]; imodintro
  isplitl [Hst]; · iexact Hst
  ihave Hh := (Entails.of_eq (held_sub_split (SparseCore.T d) fin20_sub (V5 m O1 O2 R0 R1 d))) $$ Hheld
  icases Hh with ⟨Ha, -⟩
  unfold FINV
  iexact Ha

/-! ## The final reading -/

def fqV (d : Dev nD) (s' : Phys nD τ sig (Elt F)) : Prop := ∀ b ∈ fin20, s'.mem.mem (d, b) = V5 m O1 O2 R0 R1 d b

theorem hfinV (d : Dev nD) (s' : Phys nD τ sig (Elt F)) : iprop(FINV m O1 O2 R0 R1 d ∗ SI s') ⊢ (⌜fqV m O1 O2 R0 R1 d s'⌝ : sProp 𝕄) := by
  unfold FINV fqV
  exact held_agree d (V5 m O1 O2 R0 R1 d) s' fin20

/-! ## The program's run -/

/-- On every device the result array ends at the end of the chain, and every argument array at its launch contents. -/
def QCV : PUnit × MemSt nD τ sig (Elt F) → Prop := fun r => ∀ c : Dev nD,
  r.2.mem ((c.tc : Thread nD τ).loc main_v18) = resultVal m O1 O2 R0 R1 c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)
  ∧ r.2.mem ((c.tc : Thread nD τ).loc main_arg18) = m ((c.tc : Thread nD τ).loc main_arg18)

theorem hQV (hO1 : ∀ b ∈ args19, b ∉ O1) (hO2 : ∀ b ∈ args19, b ∉ O2) (s' : Phys nD τ sig (Elt F)) (h : ∀ d, fqV m O1 O2 R0 R1 d s') :
    QCV m O1 O2 R0 R1 (⟨⟩, s'.mem) := fun c =>
  ⟨h c (Proc.devRef .tc (main_v18 : Ref sig .tc) : DevRef τ sig) (by decide),
   (h c (Proc.devRef .tc (main_arg0 : Ref sig .tc) : DevRef τ sig) (by decide)).trans (V5_arg m O1 O2 R0 R1 hO1 hO2 c (by decide)),
   (h c (Proc.devRef .tc (main_arg1 : Ref sig .tc) : DevRef τ sig) (by decide)).trans (V5_arg m O1 O2 R0 R1 hO1 hO2 c (by decide)),
   (h c (Proc.devRef .tc (main_arg2 : Ref sig .tc) : DevRef τ sig) (by decide)).trans (V5_arg m O1 O2 R0 R1 hO1 hO2 c (by decide)),
   (h c (Proc.devRef .tc (main_arg3 : Ref sig .tc) : DevRef τ sig) (by decide)).trans (V5_arg m O1 O2 R0 R1 hO1 hO2 c (by decide)),
   (h c (Proc.devRef .tc (main_arg4 : Ref sig .tc) : DevRef τ sig) (by decide)).trans (V5_arg m O1 O2 R0 R1 hO1 hO2 c (by decide)),
   (h c (Proc.devRef .tc (main_arg5 : Ref sig .tc) : DevRef τ sig) (by decide)).trans (V5_arg m O1 O2 R0 R1 hO1 hO2 c (by decide)),
   (h c (Proc.devRef .tc (main_arg6 : Ref sig .tc) : DevRef τ sig) (by decide)).trans (V5_arg m O1 O2 R0 R1 hO1 hO2 c (by decide)),
   (h c (Proc.devRef .tc (main_arg7 : Ref sig .tc) : DevRef τ sig) (by decide)).trans (V5_arg m O1 O2 R0 R1 hO1 hO2 c (by decide)),
   (h c (Proc.devRef .tc (main_arg8 : Ref sig .tc) : DevRef τ sig) (by decide)).trans (V5_arg m O1 O2 R0 R1 hO1 hO2 c (by decide)),
   (h c (Proc.devRef .tc (main_arg9 : Ref sig .tc) : DevRef τ sig) (by decide)).trans (V5_arg m O1 O2 R0 R1 hO1 hO2 c (by decide)),
   (h c (Proc.devRef .tc (main_arg10 : Ref sig .tc) : DevRef τ sig) (by decide)).trans (V5_arg m O1 O2 R0 R1 hO1 hO2 c (by decide)),
   (h c (Proc.devRef .tc (main_arg11 : Ref sig .tc) : DevRef τ sig) (by decide)).trans (V5_arg m O1 O2 R0 R1 hO1 hO2 c (by decide)),
   (h c (Proc.devRef .tc (main_arg12 : Ref sig .tc) : DevRef τ sig) (by decide)).trans (V5_arg m O1 O2 R0 R1 hO1 hO2 c (by decide)),
   (h c (Proc.devRef .tc (main_arg13 : Ref sig .tc) : DevRef τ sig) (by decide)).trans (V5_arg m O1 O2 R0 R1 hO1 hO2 c (by decide)),
   (h c (Proc.devRef .tc (main_arg14 : Ref sig .tc) : DevRef τ sig) (by decide)).trans (V5_arg m O1 O2 R0 R1 hO1 hO2 c (by decide)),
   (h c (Proc.devRef .tc (main_arg15 : Ref sig .tc) : DevRef τ sig) (by decide)).trans (V5_arg m O1 O2 R0 R1 hO1 hO2 c (by decide)),
   (h c (Proc.devRef .tc (main_arg16 : Ref sig .tc) : DevRef τ sig) (by decide)).trans (V5_arg m O1 O2 R0 R1 hO1 hO2 c (by decide)),
   (h c (Proc.devRef .tc (main_arg17 : Ref sig .tc) : DevRef τ sig) (by decide)).trans (V5_arg m O1 O2 R0 R1 hO1 hO2 c (by decide)),
   (h c (Proc.devRef .tc (main_arg18 : Ref sig .tc) : DevRef τ sig) (by decide)).trans (V5_arg m O1 O2 R0 R1 hO1 hO2 c (by decide))⟩

theorem run_mainV [∀ e, Nonempty (Elt F e)] (htile : (K (F := F)).TileObl (D (F := F)) 𝒱 (PV (Wc m)) v₀ 0)
    (hO1 : ∀ b ∈ args19, b ∉ O1) (hO2 : ∀ b ∈ args19, b ∉ O2)
    (hreg0 : ∀ (W : Valuation τ sig (Elt F)) (κ : GSem nD τ sig → ℕ) (d : Dev nD),
      iprop((K (F := F)).ctx EH (PV (Wc m)) κ ∗ (K (F := F)).tcSt EH d 1 ∗ boundary (SparseCore.T d) ∗ held (SparseCore.T d) (Pipeline.ucRefs τ sig) W ∗ Cert.Proof.Region.Gp (F := F) 0 d)
      ⊢ wp frame (wpE ((K (F := F)).defs (D (F := F))) 𝒱 (SparseCore.T d) none) Set.univ
          (Prog.lift (.customCall (SparseCore.inner (Pipeline.entry 0)) ()))
          fun _ => iprop(∃ W' : Valuation τ sig (Elt F), ⌜∀ b, b ∉ O1 → W' b = W b⌝ ∗ ⌜∀ b, b ∈ O1 → W' b = R0 W b⌝
            ∗ (K (F := F)).tcSt EH d 1 ∗ boundary (SparseCore.T d) ∗ held (SparseCore.T d) (Pipeline.ucRefs τ sig) W'))
    (hreg1 : ∀ (W : Valuation τ sig (Elt F)) (κ : GSem nD τ sig → ℕ) (d : Dev nD),
      iprop((K (F := F)).ctx EH (PV (Wc m)) κ ∗ (K (F := F)).tcSt EH d 1 ∗ boundary (SparseCore.T d) ∗ held (SparseCore.T d) (Pipeline.ucRefs τ sig) W ∗ Cert.Proof.Region.Gp (F := F) 1 d)
      ⊢ wp frame (wpE ((K (F := F)).defs (D (F := F))) 𝒱 (SparseCore.T d) none) Set.univ
          (Prog.lift (.customCall (SparseCore.inner (Pipeline.entry 1)) ()))
          fun _ => iprop(∃ W' : Valuation τ sig (Elt F), ⌜∀ b, b ∉ O2 → W' b = W b⌝ ∗ ⌜∀ b, b ∈ O2 → W' b = R1 W b⌝
            ∗ (K (F := F)).tcSt EH d 1 ∗ boundary (SparseCore.T d) ∗ held (SparseCore.T d) (Pipeline.ucRefs τ sig) W')) :
    θ_run (Cert.KernelIdeal.defs (F := F)) (Cert.KernelIdeal.threads (F := F)) ⟨m, fun _ => 0, ρ⟩ (QCV m O1 O2 R0 R1) :=
  SparseCore.Cfg.θ_run_sc (K := K (F := F)) (D := D (F := F)) (𝒱 := 𝒱) (EH := EH) (P := PV (Wc m)) facts v₀
    (fun q hq => match q with | 0 => nomatch hq)
    (fun q _ => match q with | 0 => htile)
    (fun q _ => match q with | 0 => SparseCore.Cfg.VecSplit.of_plain (vecSplitV (Wc m)))
    m ρ main (fun d => Cert.Proof.Region.G (F := F) d) (FINV m O1 O2 R0 R1) (u₀ (F := F)) (sep_elim_left.trans (hu₀V (Wc m)))
    (hmainV m ρ O1 O2 R0 R1 hreg0 hreg1) (fqV m O1 O2 R0 R1) (hfinV m O1 O2 R0 R1) (QCV m O1 O2 R0 R1) (hQV m O1 O2 R0 R1 hO1 hO2)

end Main

end Cert.Proof.KI

end
-- ==== Proof.LaunchRunVal.lean ====
/-
  The value-threading launch at the two regions' own result sets: the program's run ends with the result array at
  the second region's function of the contents it was entered with, the arguments unchanged.
-/
import proofs.«211833_g48473000902786_cont_8to1_c_597_31_alg».proof.Proof.LaunchMainVal
import proofs.«211833_g48473000902786_cont_8to1_c_597_31_alg».proof.Proof.LaunchRun

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

variable (m : (ℓ : Loc nD τ sig) → Buf (Elt F) ℓ) (ρ : Dev nD → PrngReg)
variable (R0 R1 : Valuation τ sig (Elt F) → Valuation τ sig (Elt F))

/-- The run, the values threaded, given the vector subcores' task with its outputs read and each region's step in value
    form: the region leaves every array outside its result set as it was, and its results at `R0` (`R1`) of the
    contents it was entered with. -/
theorem run_valV [∀ e, Nonempty (Elt F e)] (htile : (K (F := F)).TileObl (D (F := F)) 𝒱 (PV (Wc m)) v₀ 0)
    (hreg0 : ∀ (W : Valuation τ sig (Elt F)) (κ : GSem nD τ sig → ℕ) (d : Dev nD),
      iprop((K (F := F)).ctx EH (PV (Wc m)) κ ∗ (K (F := F)).tcSt EH d 1 ∗ boundary (SparseCore.T d) ∗ held (SparseCore.T d) (Pipeline.ucRefs τ sig) W ∗ Cert.Proof.Region.Gp (F := F) 0 d)
      ⊢ wp Idealize.ShloMosaic.frame (wpE ((K (F := F)).defs (D (F := F))) 𝒱 (SparseCore.T d) none) Set.univ
          (Prog.lift (.customCall (SparseCore.inner (Pipeline.entry 0)) ()))
          fun _ => iprop(∃ W' : Valuation τ sig (Elt F), ⌜∀ b, b ∉ Cert.Proof.Region.outs1 → W' b = W b⌝ ∗ ⌜∀ b, b ∈ Cert.Proof.Region.outs1 → W' b = R0 W b⌝
            ∗ (K (F := F)).tcSt EH d 1 ∗ boundary (SparseCore.T d) ∗ held (SparseCore.T d) (Pipeline.ucRefs τ sig) W'))
    (hreg1 : ∀ (W : Valuation τ sig (Elt F)) (κ : GSem nD τ sig → ℕ) (d : Dev nD),
      iprop((K (F := F)).ctx EH (PV (Wc m)) κ ∗ (K (F := F)).tcSt EH d 1 ∗ boundary (SparseCore.T d) ∗ held (SparseCore.T d) (Pipeline.ucRefs τ sig) W ∗ Cert.Proof.Region.Gp (F := F) 1 d)
      ⊢ wp Idealize.ShloMosaic.frame (wpE ((K (F := F)).defs (D (F := F))) 𝒱 (SparseCore.T d) none) Set.univ
          (Prog.lift (.customCall (SparseCore.inner (Pipeline.entry 1)) ()))
          fun _ => iprop(∃ W' : Valuation τ sig (Elt F), ⌜∀ b, b ∉ Cert.Proof.Region.outs2 → W' b = W b⌝ ∗ ⌜∀ b, b ∈ Cert.Proof.Region.outs2 → W' b = R1 W b⌝
            ∗ (K (F := F)).tcSt EH d 1 ∗ boundary (SparseCore.T d) ∗ held (SparseCore.T d) (Pipeline.ucRefs τ sig) W')) :
    θ_run (Cert.KernelIdeal.defs (F := F)) (Cert.KernelIdeal.threads (F := F)) ⟨m, fun _ => 0, ρ⟩
      (QCV m Cert.Proof.Region.outs1 Cert.Proof.Region.outs2 R0 R1) :=
  run_mainV m ρ Cert.Proof.Region.outs1 Cert.Proof.Region.outs2 R0 R1 htile args_not_outs1 args_not_outs2 hreg0 hreg1

/-- The result array at the end of the run: the second region's function, at the result array, of the contents the
    region was entered with. -/
theorem resultVal_outs (d : Dev nD) :
    resultVal m Cert.Proof.Region.outs1 Cert.Proof.Region.outs2 R0 R1 d
      = R1 (V4 m Cert.Proof.Region.outs1 R0 d) (Proc.devRef .tc (main_v18 : Ref sig .tc) : DevRef τ sig) :=
  resultVal_eq m Cert.Proof.Region.outs1 Cert.Proof.Region.outs2 R0 R1 d (by decide)

end Cert.Proof.KI

end
-- ==== Proof.LaunchChainVal.lean ====
/-
  What the chain of contents holds where the two TensorCore regions read.

  Each array a region reads is, along the chain, either an argument (never written: its launch contents), a reshape of
  an argument (its elements at the new shape), an output of the SparseCore call (the widened table gathered along
  its index array), or a result of the first region (its function of the contents it was entered with). The widened
  tables themselves are the argument tables with zero columns appended.
-/
import proofs.«211833_g48473000902786_cont_8to1_c_597_31_alg».proof.Proof.LaunchRunVal

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

/-! ## What each host line writes -/

abbrev wr12 : Finset (DevRef τ sig) := {(Proc.devRef .tc (main_v0 : Ref sig .tc) : DevRef τ sig), (Proc.devRef .tc (main_v1 : Ref sig .tc) : DevRef τ sig), (Proc.devRef .tc (main_v2 : Ref sig .tc) : DevRef τ sig), (Proc.devRef .tc (main_cst : Ref sig .tc) : DevRef τ sig), (Proc.devRef .tc (main_v3 : Ref sig .tc) : DevRef τ sig), (Proc.devRef .tc (main_v4 : Ref sig .tc) : DevRef τ sig), (Proc.devRef .tc (main_cst_0 : Ref sig .tc) : DevRef τ sig), (Proc.devRef .tc (main_v5 : Ref sig .tc) : DevRef τ sig), (Proc.devRef .tc (main_v6 : Ref sig .tc) : DevRef τ sig), (Proc.devRef .tc (main_cst_1 : Ref sig .tc) : DevRef τ sig), (Proc.devRef .tc (main_v7 : Ref sig .tc) : DevRef τ sig), (Proc.devRef .tc (main_v8 : Ref sig .tc) : DevRef τ sig)}
abbrev wr2 : Finset (DevRef τ sig) := {(Proc.devRef .tc (main_v10 : Ref sig .tc) : DevRef τ sig), (Proc.devRef .tc (main_v11 : Ref sig .tc) : DevRef τ sig)}
abbrev wr5 : Finset (DevRef τ sig) := {(Proc.devRef .tc (main_v13 : Ref sig .tc) : DevRef τ sig), (Proc.devRef .tc (main_v14 : Ref sig .tc) : DevRef τ sig), (Proc.devRef .tc (main_v15 : Ref sig .tc) : DevRef τ sig), (Proc.devRef .tc (main_v16 : Ref sig .tc) : DevRef τ sig), (Proc.devRef .tc (main_v17 : Ref sig .tc) : DevRef τ sig)}

theorem writes_pre12' : ∀ op ∈ pre12 (F := F), op.writes ⊆ wr12 := by
  intro op hop
  simp only [pre12, List.mem_cons, List.mem_nil_iff, or_false] at hop
  rcases hop with rfl | rfl | rfl | rfl | rfl | rfl | rfl | rfl | rfl | rfl | rfl | rfl <;>
    simp only [StableHlo.reshape_writes, StableHlo.nullary_writes, StableHlo.unary_writes, StableHlo.binary_writes] <;> decide
theorem writes_mid2' : ∀ op ∈ mid2 (F := F), op.writes ⊆ wr2 := by
  intro op hop
  simp only [mid2, List.mem_cons, List.mem_nil_iff, or_false] at hop
  rcases hop with rfl | rfl <;>
    simp only [StableHlo.reshape_writes] <;> decide
theorem writes_mid5' : ∀ op ∈ mid5 (F := F), op.writes ⊆ wr5 := by
  intro op hop
  simp only [mid5, List.mem_cons, List.mem_nil_iff, or_false] at hop
  rcases hop with rfl | rfl | rfl | rfl | rfl <;>
    simp only [StableHlo.reshape_writes] <;> decide

variable (m : (ℓ : Loc nD τ sig) → Buf (Elt F) ℓ)
variable (R0 : Valuation τ sig (Elt F) → Valuation τ sig (Elt F))

local notation "O1" => Cert.Proof.Region.outs1

/-! ## The arguments along the chain -/

theorem Wc_arg (d : Dev nD) {b : DevRef τ sig} (hb : b ∈ args19) : Wc m d b = V0 m d b :=
  after_keep writes_pre12 (V0 m d) (args_not_written b hb)
theorem Vg_arg (d : Dev nD) {b : DevRef τ sig} (hb : b ∈ args19) : Vg m d b = V0 m d b := by
  unfold Vg; rw [V1_off d (Wc m d) _ _ _ (args_not_nine b hb)]; exact Wc_arg m d hb
theorem V2_arg (d : Dev nD) {b : DevRef τ sig} (hb : b ∈ args19) : V2 m d b = V0 m d b := by
  unfold V2; rw [after_keep writes_mid2 _ (args_not_written b hb)]; exact Vg_arg m d hb
theorem V3_arg (d : Dev nD) {b : DevRef τ sig} (hb : b ∈ args19) : V3 m O1 R0 d b = V0 m d b := by
  unfold V3; rw [upd_off _ _ (args_not_outs1 b hb)]; exact V2_arg m d hb
theorem V4_arg (d : Dev nD) {b : DevRef τ sig} (hb : b ∈ args19) : V4 m O1 R0 d b = V0 m d b := by
  unfold V4; rw [after_keep writes_mid5 _ (args_not_written b hb)]; exact V3_arg m R0 d hb

/-- Entering the first region, each argument it reads holds its launch contents; -/
theorem V2_arg8 (d : Dev nD) : V2 m d (Proc.devRef .tc (main_arg8 : Ref sig .tc) : DevRef τ sig) = m ((SparseCore.T d).loc main_arg8) := V2_arg m d (by decide)
theorem V2_arg10 (d : Dev nD) : V2 m d (Proc.devRef .tc (main_arg10 : Ref sig .tc) : DevRef τ sig) = m ((SparseCore.T d).loc main_arg10) := V2_arg m d (by decide)
theorem V2_arg12 (d : Dev nD) : V2 m d (Proc.devRef .tc (main_arg12 : Ref sig .tc) : DevRef τ sig) = m ((SparseCore.T d).loc main_arg12) := V2_arg m d (by decide)
theorem V2_arg13 (d : Dev nD) : V2 m d (Proc.devRef .tc (main_arg13 : Ref sig .tc) : DevRef τ sig) = m ((SparseCore.T d).loc main_arg13) := V2_arg m d (by decide)
theorem V2_arg15 (d : Dev nD) : V2 m d (Proc.devRef .tc (main_arg15 : Ref sig .tc) : DevRef τ sig) = m ((SparseCore.T d).loc main_arg15) := V2_arg m d (by decide)
theorem V2_arg17 (d : Dev nD) : V2 m d (Proc.devRef .tc (main_arg17 : Ref sig .tc) : DevRef τ sig) = m ((SparseCore.T d).loc main_arg17) := V2_arg m d (by decide)
/-- entering the second, the argument it reads. -/
theorem V4_arg17 (d : Dev nD) : V4 m O1 R0 d (Proc.devRef .tc (main_arg17 : Ref sig .tc) : DevRef τ sig) = m ((SparseCore.T d).loc main_arg17) := V4_arg m R0 d (by decide)

/-! ## The reshapes -/

theorem V2_v10 (d : Dev nD) : V2 m d (Proc.devRef .tc (main_v10 : Ref sig .tc) : DevRef τ sig)
    = fun i => shapeCast S1x64 (m ((SparseCore.T d).loc main_arg16)) Facts₀.shapeCasts_S64_S1x64 i := by
  have e : V2 m d (Proc.devRef .tc (main_v10 : Ref sig .tc) : DevRef τ sig) = fun i => shapeCast S1x64 (Vg m d (Proc.devRef .tc (main_arg16 : Ref sig .tc) : DevRef τ sig)) Facts₀.shapeCasts_S64_S1x64 i := by
    unfold V2 mid2; after_results; rfl
  rw [e, Vg_arg m d (by decide)]; rfl
theorem V2_v11 (d : Dev nD) : V2 m d (Proc.devRef .tc (main_v11 : Ref sig .tc) : DevRef τ sig)
    = fun i => shapeCast S1x64 (m ((SparseCore.T d).loc main_arg18)) Facts₀.shapeCasts_S64_S1x64 i := by
  have e : V2 m d (Proc.devRef .tc (main_v11 : Ref sig .tc) : DevRef τ sig) = fun i => shapeCast S1x64 (Vg m d (Proc.devRef .tc (main_arg18 : Ref sig .tc) : DevRef τ sig)) Facts₀.shapeCasts_S64_S1x64 i := by
    unfold V2 mid2; after_results; rfl
  rw [e, Vg_arg m d (by decide)]; rfl

theorem V4_v13 (d : Dev nD) : V4 m O1 R0 d (Proc.devRef .tc (main_v13 : Ref sig .tc) : DevRef τ sig)
    = fun i => shapeCast S16384x1 (m ((SparseCore.T d).loc main_arg0)) Facts₀.shapeCasts_S16384_S16384x1 i := by
  have e : V4 m O1 R0 d (Proc.devRef .tc (main_v13 : Ref sig .tc) : DevRef τ sig) = fun i => shapeCast S16384x1 (V3 m O1 R0 d (Proc.devRef .tc (main_arg0 : Ref sig .tc) : DevRef τ sig)) Facts₀.shapeCasts_S16384_S16384x1 i := by
    unfold V4 mid5; after_results; rfl
  rw [e, V3_arg m R0 d (by decide)]; rfl
theorem V4_v14 (d : Dev nD) : V4 m O1 R0 d (Proc.devRef .tc (main_v14 : Ref sig .tc) : DevRef τ sig)
    = fun i => shapeCast S16384x1 (m ((SparseCore.T d).loc main_arg2)) Facts₀.shapeCasts_S16384_S16384x1 i := by
  have e : V4 m O1 R0 d (Proc.devRef .tc (main_v14 : Ref sig .tc) : DevRef τ sig) = fun i => shapeCast S16384x1 (V3 m O1 R0 d (Proc.devRef .tc (main_arg2 : Ref sig .tc) : DevRef τ sig)) Facts₀.shapeCasts_S16384_S16384x1 i := by
    unfold V4 mid5; after_results; rfl
  rw [e, V3_arg m R0 d (by decide)]; rfl
theorem V4_v15 (d : Dev nD) : V4 m O1 R0 d (Proc.devRef .tc (main_v15 : Ref sig .tc) : DevRef τ sig)
    = fun i => shapeCast S16384x1 (m ((SparseCore.T d).loc main_arg4)) Facts₀.shapeCasts_S16384_S16384x1 i := by
  have e : V4 m O1 R0 d (Proc.devRef .tc (main_v15 : Ref sig .tc) : DevRef τ sig) = fun i => shapeCast S16384x1 (V3 m O1 R0 d (Proc.devRef .tc (main_arg4 : Ref sig .tc) : DevRef τ sig)) Facts₀.shapeCasts_S16384_S16384x1 i := by
    unfold V4 mid5; after_results; rfl
  rw [e, V3_arg m R0 d (by decide)]; rfl
theorem V4_v16 (d : Dev nD) : V4 m O1 R0 d (Proc.devRef .tc (main_v16 : Ref sig .tc) : DevRef τ sig)
    = fun i => shapeCast S16384x1 (m ((SparseCore.T d).loc main_arg5)) Facts₀.shapeCasts_S16384_S16384x1 i := by
  have e : V4 m O1 R0 d (Proc.devRef .tc (main_v16 : Ref sig .tc) : DevRef τ sig) = fun i => shapeCast S16384x1 (V3 m O1 R0 d (Proc.devRef .tc (main_arg5 : Ref sig .tc) : DevRef τ sig)) Facts₀.shapeCasts_S16384_S16384x1 i := by
    unfold V4 mid5; after_results; rfl
  rw [e, V3_arg m R0 d (by decide)]; rfl
theorem V4_v17 (d : Dev nD) : V4 m O1 R0 d (Proc.devRef .tc (main_v17 : Ref sig .tc) : DevRef τ sig)
    = fun i => shapeCast S16384x1 (m ((SparseCore.T d).loc main_arg7)) Facts₀.shapeCasts_S16384_S16384x1 i := by
  have e : V4 m O1 R0 d (Proc.devRef .tc (main_v17 : Ref sig .tc) : DevRef τ sig) = fun i => shapeCast S16384x1 (V3 m O1 R0 d (Proc.devRef .tc (main_arg7 : Ref sig .tc) : DevRef τ sig)) Facts₀.shapeCasts_S16384_S16384x1 i := by
    unfold V4 mid5; after_results; rfl
  rw [e, V3_arg m R0 d (by decide)]; rfl

/-! ## The SparseCore call's outputs, and the first region's results, entering the second region -/

theorem V4_keep (d : Dev nD) {b : DevRef τ sig} (hb : b ∉ wr5) : V4 m O1 R0 d b = V3 m O1 R0 d b := by
  unfold V4; exact after_keep writes_mid5' _ hb
theorem V2_keep (d : Dev nD) {b : DevRef τ sig} (hb : b ∉ wr2) : V2 m d b = Vg m d b := by
  unfold V2; exact after_keep writes_mid2' _ hb

theorem V4_v9_0 (d : Dev nD) : V4 m O1 R0 d (Proc.devRef .tc (main_v9_0 : Ref sig .tc) : DevRef τ sig) = gO0 (Wc m) d := by
  rw [V4_keep m R0 d (by decide)]; unfold V3; rw [upd_off _ _ (by decide), V2_keep m d (by decide)]; unfold Vg; exact V1_o0 d _ _ _ _
theorem V4_v9_1 (d : Dev nD) : V4 m O1 R0 d (Proc.devRef .tc (main_v9_1 : Ref sig .tc) : DevRef τ sig) = gO1 (Wc m) d := by
  rw [V4_keep m R0 d (by decide)]; unfold V3; rw [upd_off _ _ (by decide), V2_keep m d (by decide)]; unfold Vg; exact V1_o1 d _ _ _ _
theorem V4_v9_2 (d : Dev nD) : V4 m O1 R0 d (Proc.devRef .tc (main_v9_2 : Ref sig .tc) : DevRef τ sig) = gO2 (Wc m) d := by
  rw [V4_keep m R0 d (by decide)]; unfold V3; rw [upd_off _ _ (by decide), V2_keep m d (by decide)]; unfold Vg; exact V1_o2 d _ _ _ _

theorem V4_v12_0 (d : Dev nD) : V4 m O1 R0 d (Proc.devRef .tc (main_v12_0 : Ref sig .tc) : DevRef τ sig) = R0 (V2 m d) (Proc.devRef .tc (main_v12_0 : Ref sig .tc) : DevRef τ sig) := by
  rw [V4_keep m R0 d (by decide)]; unfold V3; exact upd_on _ _ (by decide)
theorem V4_v12_1 (d : Dev nD) : V4 m O1 R0 d (Proc.devRef .tc (main_v12_1 : Ref sig .tc) : DevRef τ sig) = R0 (V2 m d) (Proc.devRef .tc (main_v12_1 : Ref sig .tc) : DevRef τ sig) := by
  rw [V4_keep m R0 d (by decide)]; unfold V3; exact upd_on _ _ (by decide)
theorem V4_v12_2 (d : Dev nD) : V4 m O1 R0 d (Proc.devRef .tc (main_v12_2 : Ref sig .tc) : DevRef τ sig) = R0 (V2 m d) (Proc.devRef .tc (main_v12_2 : Ref sig .tc) : DevRef τ sig) := by
  rw [V4_keep m R0 d (by decide)]; unfold V3; exact upd_on _ _ (by decide)
theorem V4_v12_3 (d : Dev nD) : V4 m O1 R0 d (Proc.devRef .tc (main_v12_3 : Ref sig .tc) : DevRef τ sig) = R0 (V2 m d) (Proc.devRef .tc (main_v12_3 : Ref sig .tc) : DevRef τ sig) := by
  rw [V4_keep m R0 d (by decide)]; unfold V3; exact upd_on _ _ (by decide)
theorem V4_v12_4 (d : Dev nD) : V4 m O1 R0 d (Proc.devRef .tc (main_v12_4 : Ref sig .tc) : DevRef τ sig) = R0 (V2 m d) (Proc.devRef .tc (main_v12_4 : Ref sig .tc) : DevRef τ sig) := by
  rw [V4_keep m R0 d (by decide)]; unfold V3; exact upd_on _ _ (by decide)
theorem V4_v12_5 (d : Dev nD) : V4 m O1 R0 d (Proc.devRef .tc (main_v12_5 : Ref sig .tc) : DevRef τ sig) = R0 (V2 m d) (Proc.devRef .tc (main_v12_5 : Ref sig .tc) : DevRef τ sig) := by
  rw [V4_keep m R0 d (by decide)]; unfold V3; exact upd_on _ _ (by decide)

/-! ## The widened tables when the SparseCore call starts -/

theorem Wc_v4 (d : Dev nD) : Wc m d (Proc.devRef .tc (main_v4 : Ref sig .tc) : DevRef τ sig)
    = concatenate S100000x128 1 [⟨S100000x64, m ((SparseCore.T d).loc main_arg9)⟩,
        ⟨S100000x64, (broadcastInDim S100000x64 ![] Facts₀.bcast_S_S100000x64 (constant (F := F) S_ .f32 0x00000000#32) : FVec F S100000x64 .f32)⟩]
      Facts₀.concatenates_S100000x64_S100000x64_S100000x128_d1 := by
  unfold Wc pre12; after_results; rfl
theorem Wc_v6 (d : Dev nD) : Wc m d (Proc.devRef .tc (main_v6 : Ref sig .tc) : DevRef τ sig)
    = concatenate S100000x128 1 [⟨S100000x64, m ((SparseCore.T d).loc main_arg11)⟩,
        ⟨S100000x64, (broadcastInDim S100000x64 ![] Facts₀.bcast_S_S100000x64 (constant (F := F) S_ .f32 0x00000000#32) : FVec F S100000x64 .f32)⟩]
      Facts₀.concatenates_S100000x64_S100000x64_S100000x128_d1 := by
  unfold Wc pre12; after_results; rfl
theorem Wc_v8 (d : Dev nD) : Wc m d (Proc.devRef .tc (main_v8 : Ref sig .tc) : DevRef τ sig)
    = concatenate S100000x128 1 [⟨S100000x64, m ((SparseCore.T d).loc main_arg14)⟩,
        ⟨S100000x64, (broadcastInDim S100000x64 ![] Facts₀.bcast_S_S100000x64 (constant (F := F) S_ .f32 0x00000000#32) : FVec F S100000x64 .f32)⟩]
      Facts₀.concatenates_S100000x64_S100000x64_S100000x128_d1 := by
  unfold Wc pre12; after_results; rfl

end Cert.Proof.KI

end
-- ==== Proof.TaskRunVal.lean ====
/-
  The gather task, run, with what it leaves in the outputs.

  The same run as the task's frame form, with the twelve output chunks read back: each ends at the widened table
  gathered along the index array (`gat`), restricted to the chunk — the write-out copies a slot, the slot holds what the
  gather delivered, the gather delivered the table's rows at the offsets the plane's row lists, and the plane holds the
  task's slab of the index array.
-/
import proofs.«211833_g48473000902786_cont_8to1_c_597_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«211833_g48473000902786_cont_8to1_c_597_31_alg».proof.Proof.Gen.KernelIdeal
import proofs.«211833_g48473000902786_cont_8to1_c_597_31_alg».proof.Proof.Gen.KernelIdeal.Skeleton
import proofs.«211833_g48473000902786_cont_8to1_c_597_31_alg».proof.Proof.TaskViews
import proofs.«211833_g48473000902786_cont_8to1_c_597_31_alg».proof.Proof.TaskPieces
import proofs.«211833_g48473000902786_cont_8to1_c_597_31_alg».proof.Proof.TaskRange
import proofs.«211833_g48473000902786_cont_8to1_c_597_31_alg».proof.Proof.TaskGather

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]
local notation "𝕄" => MT nD τ sig (HIx 1) (Elt F) ℕ UU ℕ
variable [FloatOps F] (𝒱₀ : Variants) (d : Dev nD) (L : grid0.Coords)

theorem waits_base' {W : Waits sig (HIx 1)} : ∀ p ∈ W, p ∈ W ∨ p.2 = none := fun _ hp => .inl hp
theorem waits_step' {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 16000000 in
theorem task_core_val (O : CellTallies nD τ sig (HIx 1)) (W : Waits sig (HIx 1)) (q : PosShare TreeShare)
    (fI0 : Buf (Elt F) ((iSlab0 L).view.loc (thr d L)))
    (fI1 : Buf (Elt F) ((iSlab1 L).view.loc (thr d L)))
    (fI2 : Buf (Elt F) ((iSlab2 L).view.loc (thr d L)))
    (fT0 : Buf (Elt F) ((tab0).view.loc (thr d L)))
    (fT1 : Buf (Elt F) ((tab1).view.loc (thr d L)))
    (fT2 : Buf (Elt F) ((tab2).view.loc (thr d L)))
    (fO0_0 : Buf (Elt F) ((oCh0_0 L).view.loc (thr d L)))
    (fO0_1 : Buf (Elt F) ((oCh0_1 L).view.loc (thr d L)))
    (fO0_2 : Buf (Elt F) ((oCh0_2 L).view.loc (thr d L)))
    (fO0_3 : Buf (Elt F) ((oCh0_3 L).view.loc (thr d L)))
    (fO1_0 : Buf (Elt F) ((oCh1_0 L).view.loc (thr d L)))
    (fO1_1 : Buf (Elt F) ((oCh1_1 L).view.loc (thr d L)))
    (fO1_2 : Buf (Elt F) ((oCh1_2 L).view.loc (thr d L)))
    (fO1_3 : Buf (Elt F) ((oCh1_3 L).view.loc (thr d L)))
    (fO2_0 : Buf (Elt F) ((oCh2_0 L).view.loc (thr d L)))
    (fO2_1 : Buf (Elt F) ((oCh2_1 L).view.loc (thr d L)))
    (fO2_2 : Buf (Elt F) ((oCh2_2 L).view.loc (thr d L)))
    (fO2_3 : Buf (Elt F) ((oCh2_3 L).view.loc (thr d L)))
    (fV0 : Buf (Elt F) ((iv0).view.loc (thr d L)))
    (fV1 : Buf (Elt F) ((iv1).view.loc (thr d L)))
    (fV2 : Buf (Elt F) ((iv2).view.loc (thr d L)))
    (fS0 : Buf (Elt F) ((slot0).view.loc (thr d L)))
    (fS1 : Buf (Elt F) ((slot1).view.loc (thr d L)))
    (fS2 : Buf (Elt F) ((slot2).view.loc (thr d L)))
    (fS3 : Buf (Elt F) ((slot3).view.loc (thr d L)))
    (fS4 : Buf (Elt F) ((slot4).view.loc (thr d L)))
    (fS5 : Buf (Elt F) ((slot5).view.loc (thr d L)))
    (fS6 : Buf (Elt F) ((slot6).view.loc (thr d L)))
    (hI0 : ∀ y : S4x128.Idx, ((iSlab0 L).view.read (Elt F) fI0 y).toNat < 100000)
    (hI1 : ∀ y : S4x128.Idx, ((iSlab1 L).view.read (Elt F) fI1 y).toNat < 100000)
    (hI2 : ∀ y : S4x128.Idx, ((iSlab2 L).view.read (Elt F) fI2 y).toNat < 100000) :
    (iprop(Transfers.MayWaits (thr d L) (default : HIx 1) O
      ∗ ((iSlab0 L).view.loc (thr d L) ↦[(iSlab0 L).view.set]{fullShare} fI0)
      ∗ ((iSlab1 L).view.loc (thr d L) ↦[(iSlab1 L).view.set]{fullShare} fI1)
      ∗ ((iSlab2 L).view.loc (thr d L) ↦[(iSlab2 L).view.set]{fullShare} fI2)
      ∗ ((tab0).view.loc (thr d L) ↦{Transfers.shareTok q 10 (3 : Fin 10)} fT0)
      ∗ ((tab0).view.loc (thr d L) ↦{Transfers.shareTok q 10 (4 : Fin 10)} fT0)
      ∗ ((tab0).view.loc (thr d L) ↦{Transfers.shareTok q 10 (5 : Fin 10)} fT0)
      ∗ ((tab0).view.loc (thr d L) ↦{Transfers.shareTok q 10 (6 : Fin 10)} fT0)
      ∗ ((tab1).view.loc (thr d L) ↦{Transfers.shareTok q 10 (7 : Fin 10)} fT1)
      ∗ ((tab1).view.loc (thr d L) ↦{Transfers.shareTok q 10 (8 : Fin 10)} fT1)
      ∗ ((tab1).view.loc (thr d L) ↦{Transfers.shareTok q 10 (9 : Fin 10)} fT1)
      ∗ ((tab1).view.loc (thr d L) ↦{Transfers.shareTok q 10 (3 : Fin 10)} fT1)
      ∗ ((tab2).view.loc (thr d L) ↦{Transfers.shareTok q 10 (4 : Fin 10)} fT2)
      ∗ ((tab2).view.loc (thr d L) ↦{Transfers.shareTok q 10 (5 : Fin 10)} fT2)
      ∗ ((tab2).view.loc (thr d L) ↦{Transfers.shareTok q 10 (6 : Fin 10)} fT2)
      ∗ ((tab2).view.loc (thr d L) ↦{Transfers.shareTok q 10 (7 : Fin 10)} fT2)
      ∗ ((oCh0_0 L).view.loc (thr d L) ↦[(oCh0_0 L).view.set]{fullShare} fO0_0)
      ∗ ((oCh0_1 L).view.loc (thr d L) ↦[(oCh0_1 L).view.set]{fullShare} fO0_1)
      ∗ ((oCh0_2 L).view.loc (thr d L) ↦[(oCh0_2 L).view.set]{fullShare} fO0_2)
      ∗ ((oCh0_3 L).view.loc (thr d L) ↦[(oCh0_3 L).view.set]{fullShare} fO0_3)
      ∗ ((oCh1_0 L).view.loc (thr d L) ↦[(oCh1_0 L).view.set]{fullShare} fO1_0)
      ∗ ((oCh1_1 L).view.loc (thr d L) ↦[(oCh1_1 L).view.set]{fullShare} fO1_1)
      ∗ ((oCh1_2 L).view.loc (thr d L) ↦[(oCh1_2 L).view.set]{fullShare} fO1_2)
      ∗ ((oCh1_3 L).view.loc (thr d L) ↦[(oCh1_3 L).view.set]{fullShare} fO1_3)
      ∗ ((oCh2_0 L).view.loc (thr d L) ↦[(oCh2_0 L).view.set]{fullShare} fO2_0)
      ∗ ((oCh2_1 L).view.loc (thr d L) ↦[(oCh2_1 L).view.set]{fullShare} fO2_1)
      ∗ ((oCh2_2 L).view.loc (thr d L) ↦[(oCh2_2 L).view.set]{fullShare} fO2_2)
      ∗ ((oCh2_3 L).view.loc (thr d L) ↦[(oCh2_3 L).view.set]{fullShare} fO2_3)
      ∗ ((iv0).view.loc (thr d L) ↦[(iv0).view.set]{fullShare} fV0)
      ∗ ((iv1).view.loc (thr d L) ↦[(iv1).view.set]{fullShare} fV1)
      ∗ ((iv2).view.loc (thr d L) ↦[(iv2).view.set]{fullShare} fV2)
      ∗ ((slot0).view.loc (thr d L) ↦[(slot0).view.set]{fullShare} fS0)
      ∗ ((slot1).view.loc (thr d L) ↦[(slot1).view.set]{fullShare} fS1)
      ∗ ((slot2).view.loc (thr d L) ↦[(slot2).view.set]{fullShare} fS2)
      ∗ ((slot3).view.loc (thr d L) ↦[(slot3).view.set]{fullShare} fS3)
      ∗ ((slot4).view.loc (thr d L) ↦[(slot4).view.set]{fullShare} fS4)
      ∗ ((slot5).view.loc (thr d L) ↦[(slot5).view.set]{fullShare} fS5)
      ∗ ((slot6).view.loc (thr d L) ↦[(slot6).view.set]{fullShare} fS6)
      ∗ semVal (thr d L, SemLoc.dma isem0) 0
      ∗ semVal (thr d L, SemLoc.dma isem1) 0
      ∗ semVal (thr d L, SemLoc.dma isem2) 0
      ∗ semVal (thr d L, SemLoc.dma gsem0) 0
      ∗ semVal (thr d L, SemLoc.dma gsem1) 0
      ∗ semVal (thr d L, SemLoc.dma gsem2) 0
      ∗ semVal (thr d L, SemLoc.dma gsem3) 0
      ∗ semVal (thr d L, SemLoc.dma gsem4) 0
      ∗ semVal (thr d L, SemLoc.dma gsem5) 0
      ∗ semVal (thr d L, SemLoc.dma gsem6) 0
      ∗ semVal (thr d L, SemLoc.dma wsem0) 0
      ∗ semVal (thr d L, SemLoc.dma wsem1) 0
      ∗ semVal (thr d L, SemLoc.dma wsem2) 0
      ∗ semVal (thr d L, SemLoc.dma wsem3) 0
      ∗ semVal (thr d L, SemLoc.dma wsem4) 0
      ∗ semVal (thr d L, SemLoc.dma wsem5) 0
      ∗ semVal (thr d L, SemLoc.dma wsem6) 0
      ∗ owes (thr d L) O W) : sProp 𝕄)
      ⊢ wp frame (wpE (defs₀ (F := F)) 𝒱₀ (thr d L) none) Set.univ
          (cc0_k L (Memref.whole main_v0_scv) (Memref.isWhole_whole _) (Memref.whole main_v1_scv) (Memref.isWhole_whole _) (Memref.whole main_v2_scv) (Memref.isWhole_whole _) (Memref.whole main_v4_scv) (Memref.isWhole_whole _) (Memref.whole main_v6_scv) (Memref.isWhole_whole _) (Memref.whole main_v8_scv) (Memref.isWhole_whole _) (Memref.whole main_v9_0_scv) (Memref.isWhole_whole _) (Memref.whole main_v9_1_scv) (Memref.isWhole_whole _) (Memref.whole main_v9_2_scv) (Memref.isWhole_whole _) (Memref.whole cc0_scratch0) (Memref.isWhole_whole _) (Memref.whole cc0_scratch1) (Memref.isWhole_whole _) cc0_scratch2 cc0_scratch3 cc0_scratch4)
          fun _ => iprop(((iSlab0 L).view.loc (thr d L) ↦[(iSlab0 L).view.set]{fullShare} fI0)
            ∗ ((iSlab1 L).view.loc (thr d L) ↦[(iSlab1 L).view.set]{fullShare} fI1)
            ∗ ((iSlab2 L).view.loc (thr d L) ↦[(iSlab2 L).view.set]{fullShare} fI2)
            ∗ ((tab0).view.loc (thr d L) ↦{Transfers.shareTok q 10 (3 : Fin 10)} fT0)
            ∗ ((tab0).view.loc (thr d L) ↦{Transfers.shareTok q 10 (4 : Fin 10)} fT0)
            ∗ ((tab0).view.loc (thr d L) ↦{Transfers.shareTok q 10 (5 : Fin 10)} fT0)
            ∗ ((tab0).view.loc (thr d L) ↦{Transfers.shareTok q 10 (6 : Fin 10)} fT0)
            ∗ ((tab1).view.loc (thr d L) ↦{Transfers.shareTok q 10 (7 : Fin 10)} fT1)
            ∗ ((tab1).view.loc (thr d L) ↦{Transfers.shareTok q 10 (8 : Fin 10)} fT1)
            ∗ ((tab1).view.loc (thr d L) ↦{Transfers.shareTok q 10 (9 : Fin 10)} fT1)
            ∗ ((tab1).view.loc (thr d L) ↦{Transfers.shareTok q 10 (3 : Fin 10)} fT1)
            ∗ ((tab2).view.loc (thr d L) ↦{Transfers.shareTok q 10 (4 : Fin 10)} fT2)
            ∗ ((tab2).view.loc (thr d L) ↦{Transfers.shareTok q 10 (5 : Fin 10)} fT2)
            ∗ ((tab2).view.loc (thr d L) ↦{Transfers.shareTok q 10 (6 : Fin 10)} fT2)
            ∗ ((tab2).view.loc (thr d L) ↦{Transfers.shareTok q 10 (7 : Fin 10)} fT2)
            ∗ ((oCh0_0 L).view.loc (thr d L) ↦[(oCh0_0 L).view.set]{fullShare} gat fI0 fT0)
            ∗ ((oCh0_1 L).view.loc (thr d L) ↦[(oCh0_1 L).view.set]{fullShare} gat fI0 fT0)
            ∗ ((oCh0_2 L).view.loc (thr d L) ↦[(oCh0_2 L).view.set]{fullShare} gat fI0 fT0)
            ∗ ((oCh0_3 L).view.loc (thr d L) ↦[(oCh0_3 L).view.set]{fullShare} gat fI0 fT0)
            ∗ ((oCh1_0 L).view.loc (thr d L) ↦[(oCh1_0 L).view.set]{fullShare} gat fI1 fT1)
            ∗ ((oCh1_1 L).view.loc (thr d L) ↦[(oCh1_1 L).view.set]{fullShare} gat fI1 fT1)
            ∗ ((oCh1_2 L).view.loc (thr d L) ↦[(oCh1_2 L).view.set]{fullShare} gat fI1 fT1)
            ∗ ((oCh1_3 L).view.loc (thr d L) ↦[(oCh1_3 L).view.set]{fullShare} gat fI1 fT1)
            ∗ ((oCh2_0 L).view.loc (thr d L) ↦[(oCh2_0 L).view.set]{fullShare} gat fI2 fT2)
            ∗ ((oCh2_1 L).view.loc (thr d L) ↦[(oCh2_1 L).view.set]{fullShare} gat fI2 fT2)
            ∗ ((oCh2_2 L).view.loc (thr d L) ↦[(oCh2_2 L).view.set]{fullShare} gat fI2 fT2)
            ∗ ((oCh2_3 L).view.loc (thr d L) ↦[(oCh2_3 L).view.set]{fullShare} gat fI2 fT2)
            ∗ (∃ f, (iv0).view.loc (thr d L) ↦[(iv0).view.set]{fullShare} f)
            ∗ (∃ f, (iv1).view.loc (thr d L) ↦[(iv1).view.set]{fullShare} f)
            ∗ (∃ f, (iv2).view.loc (thr d L) ↦[(iv2).view.set]{fullShare} f)
            ∗ (∃ f, (slot0).view.loc (thr d L) ↦[(slot0).view.set]{fullShare} f)
            ∗ (∃ f, (slot1).view.loc (thr d L) ↦[(slot1).view.set]{fullShare} f)
            ∗ (∃ f, (slot2).view.loc (thr d L) ↦[(slot2).view.set]{fullShare} f)
            ∗ (∃ f, (slot3).view.loc (thr d L) ↦[(slot3).view.set]{fullShare} f)
            ∗ (∃ f, (slot4).view.loc (thr d L) ↦[(slot4).view.set]{fullShare} f)
            ∗ (∃ f, (slot5).view.loc (thr d L) ↦[(slot5).view.set]{fullShare} f)
            ∗ (∃ f, (slot6).view.loc (thr d L) ↦[(slot6).view.set]{fullShare} f)
            ∗ semVal (thr d L, SemLoc.dma isem0) 0
            ∗ semVal (thr d L, SemLoc.dma isem1) 0
            ∗ semVal (thr d L, SemLoc.dma isem2) 0
            ∗ semVal (thr d L, SemLoc.dma gsem0) 0
            ∗ semVal (thr d L, SemLoc.dma gsem1) 0
            ∗ semVal (thr d L, SemLoc.dma gsem2) 0
            ∗ semVal (thr d L, SemLoc.dma gsem3) 0
            ∗ semVal (thr d L, SemLoc.dma gsem4) 0
            ∗ semVal (thr d L, SemLoc.dma gsem5) 0
            ∗ semVal (thr d L, SemLoc.dma gsem6) 0
            ∗ semVal (thr d L, SemLoc.dma wsem0) 0
            ∗ semVal (thr d L, SemLoc.dma wsem1) 0
            ∗ semVal (thr d L, SemLoc.dma wsem2) 0
            ∗ semVal (thr d L, SemLoc.dma wsem3) 0
            ∗ semVal (thr d L, SemLoc.dma wsem4) 0
            ∗ semVal (thr d L, SemLoc.dma wsem5) 0
            ∗ semVal (thr d L, SemLoc.dma wsem6) 0
            ∗ ∃ W', ⌜∀ p ∈ W', p ∈ W ∨ p.2 = none⌝ ∗ owes (thr d L) O W') := by
  have hin0_0 := hin0_0 (F := F) d L fI0 hI0
  have hin0_1 := hin0_1 (F := F) d L fI0 hI0
  have hin0_2 := hin0_2 (F := F) d L fI0 hI0
  have hin0_3 := hin0_3 (F := F) d L fI0 hI0
  have hin1_0 := hin1_0 (F := F) d L fI1 hI1
  have hin1_1 := hin1_1 (F := F) d L fI1 hI1
  have hin1_2 := hin1_2 (F := F) d L fI1 hI1
  have hin1_3 := hin1_3 (F := F) d L fI1 hI1
  have hin2_0 := hin2_0 (F := F) d L fI2 hI2
  have hin2_1 := hin2_1 (F := F) d L fI2 hI2
  have hin2_2 := hin2_2 (F := F) d L fI2 hI2
  have hin2_3 := hin2_3 (F := F) d L fI2 hI2
  iintro ⟨#Hmw, Hi0, Hi1, Hi2, Ht0_0, Ht0_1, Ht0_2, Ht0_3, Ht1_4, Ht1_5, Ht1_6, Ht1_0, Ht2_1, Ht2_2, Ht2_3, Ht2_4, Ho0_0, Ho0_1, Ho0_2, Ho0_3, Ho1_0, Ho1_1, Ho1_2, Ho1_3, Ho2_0, Ho2_1, Ho2_2, Ho2_3, Hv0, Hv1, Hv2, Hs0, Hs1, Hs2, Hs3, Hs4, Hs5, Hs6, Hc_i0, Hc_i1, Hc_i2, Hc_g0, Hc_g1, Hc_g2, Hc_g3, Hc_g4, Hc_g5, Hc_g6, Hc_w0, Hc_w1, Hc_w2, Hc_w3, Hc_w4, Hc_w5, Hc_w6, HO⟩
  sl_exec_parts
  ihave Hrows := (plane0_split (F := F) (UU := UU) d L _) $$ Hv0
  icases Hrows with ⟨Hr0_0, Hr0_1, Hr0_2, Hr0_3⟩
  generalize hg0 : (iv0).view.writes (Elt F) fV0 _ = g0 at *
  have hin0_0' : ∀ x, (((ivr0_0).view.read (Elt F) g0) x).toNat < 100000 := hg0 ▸ hin0_0 fV0
  have hin0_1' : ∀ x, (((ivr0_1).view.read (Elt F) g0) x).toNat < 100000 := hg0 ▸ hin0_1 fV0
  have hin0_2' : ∀ x, (((ivr0_2).view.read (Elt F) g0) x).toNat < 100000 := hg0 ▸ hin0_2 fV0
  have hin0_3' : ∀ x, (((ivr0_3).view.read (Elt F) g0) x).toNat < 100000 := hg0 ▸ hin0_3 fV0
  sl_exec_parts
  ihave Hrows := (plane1_split (F := F) (UU := UU) d L _) $$ Hv1
  icases Hrows with ⟨Hr1_0, Hr1_1, Hr1_2, Hr1_3⟩
  generalize hg1 : (iv1).view.writes (Elt F) fV1 _ = g1 at *
  have hin1_0' : ∀ x, (((ivr1_0).view.read (Elt F) g1) x).toNat < 100000 := hg1 ▸ hin1_0 fV1
  have hin1_1' : ∀ x, (((ivr1_1).view.read (Elt F) g1) x).toNat < 100000 := hg1 ▸ hin1_1 fV1
  have hin1_2' : ∀ x, (((ivr1_2).view.read (Elt F) g1) x).toNat < 100000 := hg1 ▸ hin1_2 fV1
  have hin1_3' : ∀ x, (((ivr1_3).view.read (Elt F) g1) x).toNat < 100000 := hg1 ▸ hin1_3 fV1
  sl_exec_parts
  ihave Hrows := (plane2_split (F := F) (UU := UU) d L _) $$ Hv2
  icases Hrows with ⟨Hr2_0, Hr2_1, Hr2_2, Hr2_3⟩
  generalize hg2 : (iv2).view.writes (Elt F) fV2 _ = g2 at *
  have hin2_0' : ∀ x, (((ivr2_0).view.read (Elt F) g2) x).toNat < 100000 := hg2 ▸ hin2_0 fV2
  have hin2_1' : ∀ x, (((ivr2_1).view.read (Elt F) g2) x).toNat < 100000 := hg2 ▸ hin2_1 fV2
  have hin2_2' : ∀ x, (((ivr2_2).view.read (Elt F) g2) x).toNat < 100000 := hg2 ▸ hin2_2 fV2
  have hin2_3' : ∀ x, (((ivr2_3).view.read (Elt F) g2) x).toNat < 100000 := hg2 ▸ hin2_3 fV2
  sl_exec_parts
  sl_step
  subst hg0
  subst hg1
  subst hg2
  ihave Ho0_0' := (Entails.of_eq (pointsTo_congr (chunk0_0_val (F := F) d L _ _ _ _ _ _ _ _))) $$ Ho0_0
  ihave Ho0_1' := (Entails.of_eq (pointsTo_congr (chunk0_1_val (F := F) d L _ _ _ _ _ _ _ _))) $$ Ho0_1
  ihave Ho0_2' := (Entails.of_eq (pointsTo_congr (chunk0_2_val (F := F) d L _ _ _ _ _ _ _ _))) $$ Ho0_2
  ihave Ho0_3' := (Entails.of_eq (pointsTo_congr (chunk0_3_val (F := F) d L _ _ _ _ _ _ _ _))) $$ Ho0_3
  ihave Ho1_0' := (Entails.of_eq (pointsTo_congr (chunk1_0_val (F := F) d L _ _ _ _ _ _ _ _))) $$ Ho1_0
  ihave Ho1_1' := (Entails.of_eq (pointsTo_congr (chunk1_1_val (F := F) d L _ _ _ _ _ _ _ _))) $$ Ho1_1
  ihave Ho1_2' := (Entails.of_eq (pointsTo_congr (chunk1_2_val (F := F) d L _ _ _ _ _ _ _ _))) $$ Ho1_2
  ihave Ho1_3' := (Entails.of_eq (pointsTo_congr (chunk1_3_val (F := F) d L _ _ _ _ _ _ _ _))) $$ Ho1_3
  ihave Ho2_0' := (Entails.of_eq (pointsTo_congr (chunk2_0_val (F := F) d L _ _ _ _ _ _ _ _))) $$ Ho2_0
  ihave Ho2_1' := (Entails.of_eq (pointsTo_congr (chunk2_1_val (F := F) d L _ _ _ _ _ _ _ _))) $$ Ho2_1
  ihave Ho2_2' := (Entails.of_eq (pointsTo_congr (chunk2_2_val (F := F) d L _ _ _ _ _ _ _ _))) $$ Ho2_2
  ihave Ho2_3' := (Entails.of_eq (pointsTo_congr (chunk2_3_val (F := F) d L _ _ _ _ _ _ _ _))) $$ Ho2_3
  ihave Hp0 := (plane0_join (F := F) (UU := UU) d L _) $$ [Hr0_0 Hr0_1 Hr0_2 Hr0_3]
  · isplitl [Hr0_0]; · iexact Hr0_0
    isplitl [Hr0_1]; · iexact Hr0_1
    isplitl [Hr0_2]; · iexact Hr0_2
    iexact Hr0_3
  ihave Hp1 := (plane1_join (F := F) (UU := UU) d L _) $$ [Hr1_0 Hr1_1 Hr1_2 Hr1_3]
  · isplitl [Hr1_0]; · iexact Hr1_0
    isplitl [Hr1_1]; · iexact Hr1_1
    isplitl [Hr1_2]; · iexact Hr1_2
    iexact Hr1_3
  ihave Hp2 := (plane2_join (F := F) (UU := UU) d L _) $$ [Hr2_0 Hr2_1 Hr2_2 Hr2_3]
  · isplitl [Hr2_0]; · iexact Hr2_0
    isplitl [Hr2_1]; · iexact Hr2_1
    isplitl [Hr2_2]; · iexact Hr2_2
    iexact Hr2_3
  isplitl [Hi0]; · iexact Hi0
  isplitl [Hi1]; · iexact Hi1
  isplitl [Hi2]; · iexact Hi2
  isplitl [Ht0_0]; · iexact Ht0_0
  isplitl [Ht0_1]; · iexact Ht0_1
  isplitl [Ht0_2]; · iexact Ht0_2
  isplitl [Ht0_3]; · iexact Ht0_3
  isplitl [Ht1_4]; · iexact Ht1_4
  isplitl [Ht1_5]; · iexact Ht1_5
  isplitl [Ht1_6]; · iexact Ht1_6
  isplitl [Ht1_0]; · iexact Ht1_0
  isplitl [Ht2_1]; · iexact Ht2_1
  isplitl [Ht2_2]; · iexact Ht2_2
  isplitl [Ht2_3]; · iexact Ht2_3
  isplitl [Ht2_4]; · iexact Ht2_4
  isplitl [Ho0_0']; · iexact Ho0_0'
  isplitl [Ho0_1']; · iexact Ho0_1'
  isplitl [Ho0_2']; · iexact Ho0_2'
  isplitl [Ho0_3']; · iexact Ho0_3'
  isplitl [Ho1_0']; · iexact Ho1_0'
  isplitl [Ho1_1']; · iexact Ho1_1'
  isplitl [Ho1_2']; · iexact Ho1_2'
  isplitl [Ho1_3']; · iexact Ho1_3'
  isplitl [Ho2_0']; · iexact Ho2_0'
  isplitl [Ho2_1']; · iexact Ho2_1'
  isplitl [Ho2_2']; · iexact Ho2_2'
  isplitl [Ho2_3']; · iexact Ho2_3'
  isplitl [Hp0]; · iexists _; iexact Hp0
  isplitl [Hp1]; · iexists _; iexact Hp1
  isplitl [Hp2]; · iexists _; iexact Hp2
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hc_i0]; · iexact Hc_i0
  isplitl [Hc_i1]; · iexact Hc_i1
  isplitl [Hc_i2]; · iexact Hc_i2
  isplitl [Hc_g0]; · iexact Hc_g0
  isplitl [Hc_g1]; · iexact Hc_g1
  isplitl [Hc_g2]; · iexact Hc_g2
  isplitl [Hc_g3]; · iexact Hc_g3
  isplitl [Hc_g4]; · iexact Hc_g4
  isplitl [Hc_g5]; · iexact Hc_g5
  isplitl [Hc_g6]; · iexact Hc_g6
  isplitl [Hc_w0]; · iexact Hc_w0
  isplitl [Hc_w1]; · iexact Hc_w1
  isplitl [Hc_w2]; · iexact Hc_w2
  isplitl [Hc_w3]; · iexact Hc_w3
  isplitl [Hc_w4]; · iexact Hc_w4
  isplitl [Hc_w5]; · iexact Hc_w5
  isplitl [Hc_w6]; · iexact Hc_w6
  iexists _; isplitr
  swap; · iexact HO
  ipureintro
  repeat' (first | exact waits_base' | apply waits_step')

end Cert.Proof.KI

end
-- ==== Proof.TaskOblVal.lean ====
/-
  The gather task as the launch theorem's obligation, with the outputs read.

  The frame form's respelling of the task's parts, around the run that reads back what each output chunk holds: the
  task hands back its rows of each output at the widened table gathered along the index array.
-/
import proofs.«211833_g48473000902786_cont_8to1_c_597_31_alg».proof.Proof.TaskObl
import proofs.«211833_g48473000902786_cont_8to1_c_597_31_alg».proof.Proof.TaskRunVal
import proofs.«211833_g48473000902786_cont_8to1_c_597_31_alg».proof.Proof.TaskPayVal

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (W : Dev nD → Valuation τ sig (Elt F)) (d : Dev nD) (L : grid0.Coords)

/-- Output 0's four chunks at one contents are its part at those contents. -/
theorem oPart0_joinSame (f : Buf (Elt F) (o0Loc d)) :
    iprop(((oCh0_0 L).view.loc (thr d L) ↦[(oCh0_0 L).view.set]{fullShare} f)
          ∗ ((oCh0_1 L).view.loc (thr d L) ↦[(oCh0_1 L).view.set]{fullShare} f)
          ∗ ((oCh0_2 L).view.loc (thr d L) ↦[(oCh0_2 L).view.set]{fullShare} f)
          ∗ ((oCh0_3 L).view.loc (thr d L) ↦[(oCh0_3 L).view.set]{fullShare} f))
      ⊢ (o0Loc d ↦[(oBox (numL L)).set]{fullShare} f : sProp 𝕄) := by
  rw [oCh0_0_set, oCh0_1_set, oCh0_2_set, oCh0_3_set]
  exact pointsTo_join4 (oPart_eq_chunks L) (chunks_d1 L) (chunks_d2 L) (chunks_d3 L)

/-- Output 1's four chunks at one contents are its part at those contents. -/
theorem oPart1_joinSame (f : Buf (Elt F) (o1Loc d)) :
    iprop(((oCh1_0 L).view.loc (thr d L) ↦[(oCh1_0 L).view.set]{fullShare} f)
          ∗ ((oCh1_1 L).view.loc (thr d L) ↦[(oCh1_1 L).view.set]{fullShare} f)
          ∗ ((oCh1_2 L).view.loc (thr d L) ↦[(oCh1_2 L).view.set]{fullShare} f)
          ∗ ((oCh1_3 L).view.loc (thr d L) ↦[(oCh1_3 L).view.set]{fullShare} f))
      ⊢ (o1Loc d ↦[(oBox (numL L)).set]{fullShare} f : sProp 𝕄) := by
  rw [oCh1_0_set, oCh1_1_set, oCh1_2_set, oCh1_3_set]
  exact pointsTo_join4 (oPart_eq_chunks L) (chunks_d1 L) (chunks_d2 L) (chunks_d3 L)

/-- Output 2's four chunks at one contents are its part at those contents. -/
theorem oPart2_joinSame (f : Buf (Elt F) (o2Loc d)) :
    iprop(((oCh2_0 L).view.loc (thr d L) ↦[(oCh2_0 L).view.set]{fullShare} f)
          ∗ ((oCh2_1 L).view.loc (thr d L) ↦[(oCh2_1 L).view.set]{fullShare} f)
          ∗ ((oCh2_2 L).view.loc (thr d L) ↦[(oCh2_2 L).view.set]{fullShare} f)
          ∗ ((oCh2_3 L).view.loc (thr d L) ↦[(oCh2_3 L).view.set]{fullShare} f))
      ⊢ (o2Loc d ↦[(oBox (numL L)).set]{fullShare} f : sProp 𝕄) := by
  rw [oCh2_0_set, oCh2_1_set, oCh2_2_set, oCh2_3_set]
  exact pointsTo_join4 (oPart_eq_chunks L) (chunks_d1 L) (chunks_d2 L) (chunks_d3 L)

variable [FloatOps F]

set_option maxHeartbeats 4000000 in
set_option maxRecDepth 16384 in
/-- The task on vector subcore `L` of device `d`, from its part of the call's arrays and its own scoped storage, back
    to them with the outputs read. -/
theorem tile_body_val (hF : (K (F := F)).Facts) (hpre : PreOK W) (O : CellTallies nD τ sig (HIx 1)) (W0 : Waits sig (HIx 1)) (hO : ∀ g, O g none = 0) :
    iprop(levAts (K (F := F)).L (K (F := F)).lev ∗ emp ∗ taskRes W d (numL L)
        ∗ scopedBufs (thr d L) ∗ scopedSems0 (thr d L) ∗ owes (thr d L) O W0)
      ⊢ wp frame (wpE (defs₀ (F := F)) 𝒱₀ (thr d L) none) Set.univ
          (cc0_k L (Memref.whole main_v0_scv) (Memref.isWhole_whole _) (Memref.whole main_v1_scv) (Memref.isWhole_whole _) (Memref.whole main_v2_scv) (Memref.isWhole_whole _) (Memref.whole main_v4_scv) (Memref.isWhole_whole _) (Memref.whole main_v6_scv) (Memref.isWhole_whole _) (Memref.whole main_v8_scv) (Memref.isWhole_whole _) (Memref.whole main_v9_0_scv) (Memref.isWhole_whole _) (Memref.whole main_v9_1_scv) (Memref.isWhole_whole _) (Memref.whole main_v9_2_scv) (Memref.isWhole_whole _) (Memref.whole cc0_scratch0) (Memref.isWhole_whole _) (Memref.whole cc0_scratch1) (Memref.isWhole_whole _) cc0_scratch2 cc0_scratch3 cc0_scratch4)
          fun _ => iprop(taskOut W d (numL L) ∗ scopedBufs (thr d L) ∗ scopedSems0 (thr d L)
            ∗ ∃ W', ⌜∀ p ∈ W', p ∈ W0 ∨ p.2 = none⌝ ∗ owes (thr d L) O W') := by
  rw [(K (F := F)).scopedBufs_V hF d (cV L) (jV L), SparseCore.Cfg.scopedSems0_V (Val := Elt F) d (cV L) (jV L),
    ownSems0_task (F := F) (UU := UU) d L, ownBufs_task (F := F) (UU := UU) d L]
  unfold taskRes taskOut gO0 gO1 gO2
  iintro ⟨#Hlv, -, ⟨Hi0, Hi1, Hi2, Ht0, Ht1, Ht2, ⟨%fo0, Ho0⟩, ⟨%fo1, Ho1⟩, ⟨%fo2, Ho2⟩⟩, ⟨⟨%fs0, Hsc0⟩, ⟨%fs1, Hsc1⟩, Hbufs⟩,
    ⟨Hc_i0, Hc_i1, Hc_i2, Hc_g0, Hc_g1, Hc_g2, Hc_g3, Hc_g4, Hc_g5, Hc_g6, Hc_w0, Hc_w1, Hc_w2, Hc_w3, Hc_w4, Hc_w5, Hc_w6, Hsems⟩, HO⟩
  ihave Hmw := (show levAts (K (F := F)).L (K (F := F)).lev ⊢ Transfers.MayWaits (thr d L) (default : HIx 1) O from
    (K (F := F)).mayWaits_none (thr := thr d L) hO) $$ Hlv
  ihave Hi0' := (Entails.of_eq (pts_i0 (F := F) d L _).symm) $$ Hi0
  ihave Hi1' := (Entails.of_eq (pts_i1 (F := F) d L _).symm) $$ Hi1
  ihave Hi2' := (Entails.of_eq (pts_i2 (F := F) d L _).symm) $$ Hi2
  ihave Hk0 := (toks10_split (F := F) (UU := UU) (X := Finset.univ) (tq (numL L))) $$ Ht0
  icases Hk0 with ⟨Hd0, Hk0_0, Hk0_1, Hk0_2, Hk0_3, Hk0_4, Hk0_5, Hk0_6, Hk0_7, Hk0_8, Hk0_9⟩
  ihave Hk1 := (toks10_split (F := F) (UU := UU) (X := Finset.univ) (tq (numL L))) $$ Ht1
  icases Hk1 with ⟨Hd1, Hk1_0, Hk1_1, Hk1_2, Hk1_3, Hk1_4, Hk1_5, Hk1_6, Hk1_7, Hk1_8, Hk1_9⟩
  ihave Hk2 := (toks10_split (F := F) (UU := UU) (X := Finset.univ) (tq (numL L))) $$ Ht2
  icases Hk2 with ⟨Hd2, Hk2_0, Hk2_1, Hk2_2, Hk2_3, Hk2_4, Hk2_5, Hk2_6, Hk2_7, Hk2_8, Hk2_9⟩
  ihave Hq0 := (oPart0_split (F := F) d L fo0) $$ Ho0
  icases Hq0 with ⟨Ho0_0, Ho0_1, Ho0_2, Ho0_3⟩
  ihave Hq1 := (oPart1_split (F := F) d L fo1) $$ Ho1
  icases Hq1 with ⟨Ho1_0, Ho1_1, Ho1_2, Ho1_3⟩
  ihave Hq2 := (oPart2_split (F := F) d L fo2) $$ Ho2
  icases Hq2 with ⟨Ho2_0, Ho2_1, Ho2_2, Ho2_3⟩
  ihave Hp := (Entails.of_eq (scratch0_planes (F := F) (UU := UU) d L fs0)) $$ Hsc0
  icases Hp with ⟨Hv0, Hv1, Hv2⟩
  ihave Hq := (Entails.of_eq (scratch1_slots (F := F) (UU := UU) d L fs1)) $$ Hsc1
  icases Hq with ⟨Hs0, Hs1, Hs2, Hs3, Hs4, Hs5, Hs6⟩
  iapply (wp_wand_r frame _ _)
  isplitl [Hmw Hi0' Hi1' Hi2' Hk0_3 Hk0_4 Hk0_5 Hk0_6 Hk1_7 Hk1_8 Hk1_9 Hk1_3 Hk2_4 Hk2_5 Hk2_6 Hk2_7 Ho0_0 Ho0_1 Ho0_2 Ho0_3 Ho1_0 Ho1_1 Ho1_2 Ho1_3 Ho2_0 Ho2_1 Ho2_2 Ho2_3 Hv0 Hv1 Hv2 Hs0 Hs1 Hs2 Hs3 Hs4 Hs5 Hs6 Hc_i0 Hc_i1 Hc_i2 Hc_g0 Hc_g1 Hc_g2 Hc_g3 Hc_g4 Hc_g5 Hc_g6 Hc_w0 Hc_w1 Hc_w2 Hc_w3 Hc_w4 Hc_w5 Hc_w6 HO]
  · iapply (task_core_val (F := F) (UU := UU) 𝒱₀ d L O W0 (tq (numL L)) (wI0 W d) (wI1 W d) (wI2 W d) (wT0 W d) (wT1 W d) (wT2 W d) fo0 fo0 fo0 fo0 fo1 fo1 fo1 fo1 fo2 fo2 fo2 fo2 fs0 fs0 fs0 fs1 fs1 fs1 fs1 fs1 fs1 fs1
      (slab0_in_range W d L hpre) (slab1_in_range W d L hpre) (slab2_in_range W d L hpre))
    isplitl [Hmw]; · iexact Hmw
    isplitl [Hi0']; · iexact Hi0'
    isplitl [Hi1']; · iexact Hi1'
    isplitl [Hi2']; · iexact Hi2'
    isplitl [Hk0_3]; · iexact Hk0_3
    isplitl [Hk0_4]; · iexact Hk0_4
    isplitl [Hk0_5]; · iexact Hk0_5
    isplitl [Hk0_6]; · iexact Hk0_6
    isplitl [Hk1_7]; · iexact Hk1_7
    isplitl [Hk1_8]; · iexact Hk1_8
    isplitl [Hk1_9]; · iexact Hk1_9
    isplitl [Hk1_3]; · iexact Hk1_3
    isplitl [Hk2_4]; · iexact Hk2_4
    isplitl [Hk2_5]; · iexact Hk2_5
    isplitl [Hk2_6]; · iexact Hk2_6
    isplitl [Hk2_7]; · iexact Hk2_7
    isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Hv0]; · iexact Hv0
    isplitl [Hv1]; · iexact Hv1
    isplitl [Hv2]; · iexact Hv2
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hc_i0]; · iexact Hc_i0
    isplitl [Hc_i1]; · iexact Hc_i1
    isplitl [Hc_i2]; · iexact Hc_i2
    isplitl [Hc_g0]; · iexact Hc_g0
    isplitl [Hc_g1]; · iexact Hc_g1
    isplitl [Hc_g2]; · iexact Hc_g2
    isplitl [Hc_g3]; · iexact Hc_g3
    isplitl [Hc_g4]; · iexact Hc_g4
    isplitl [Hc_g5]; · iexact Hc_g5
    isplitl [Hc_g6]; · iexact Hc_g6
    isplitl [Hc_w0]; · iexact Hc_w0
    isplitl [Hc_w1]; · iexact Hc_w1
    isplitl [Hc_w2]; · iexact Hc_w2
    isplitl [Hc_w3]; · iexact Hc_w3
    isplitl [Hc_w4]; · iexact Hc_w4
    isplitl [Hc_w5]; · iexact Hc_w5
    isplitl [Hc_w6]; · iexact Hc_w6
    iexact HO
  iintro %_ Hpost
  icases Hpost with ⟨Hi0', Hi1', Hi2', Hk0_3, Hk0_4, Hk0_5, Hk0_6, Hk1_7, Hk1_8, Hk1_9, Hk1_3, Hk2_4, Hk2_5, Hk2_6, Hk2_7, Ho0_0, Ho0_1, Ho0_2, Ho0_3, Ho1_0, Ho1_1, Ho1_2, Ho1_3, Ho2_0, Ho2_1, Ho2_2, Ho2_3, Hv0, Hv1, Hv2, Hs0, Hs1, Hs2, Hs3, Hs4, Hs5, Hs6, Hc_i0, Hc_i1, Hc_i2, Hc_g0, Hc_g1, Hc_g2, Hc_g3, Hc_g4, Hc_g5, Hc_g6, Hc_w0, Hc_w1, Hc_w2, Hc_w3, Hc_w4, Hc_w5, Hc_w6, ⟨%W', %hW', HO⟩⟩
  -- the call's arrays
  isplitl [Hi0' Hi1' Hi2' Hd0 Hk0_0 Hk0_1 Hk0_2 Hk0_3 Hk0_4 Hk0_5 Hk0_6 Hk0_7 Hk0_8 Hk0_9 Hd1 Hk1_0 Hk1_1 Hk1_2 Hk1_3 Hk1_4 Hk1_5 Hk1_6 Hk1_7 Hk1_8 Hk1_9 Hd2 Hk2_0 Hk2_1 Hk2_2 Hk2_3 Hk2_4 Hk2_5 Hk2_6 Hk2_7 Hk2_8 Hk2_9 Ho0_0 Ho0_1 Ho0_2 Ho0_3 Ho1_0 Ho1_1 Ho1_2 Ho1_3 Ho2_0 Ho2_1 Ho2_2 Ho2_3]
  · isplitl [Hi0']; · iapply (Entails.of_eq (pts_i0 (F := F) d L _)); iexact Hi0'
    isplitl [Hi1']; · iapply (Entails.of_eq (pts_i1 (F := F) d L _)); iexact Hi1'
    isplitl [Hi2']; · iapply (Entails.of_eq (pts_i2 (F := F) d L _)); iexact Hi2'
    isplitl [Hd0 Hk0_0 Hk0_1 Hk0_2 Hk0_3 Hk0_4 Hk0_5 Hk0_6 Hk0_7 Hk0_8 Hk0_9]
    · iapply (toks10_join (F := F) (UU := UU) (X := Finset.univ) (tq (numL L)))
      isplitl [Hd0]; · iexact Hd0
      isplitl [Hk0_0]; · iexact Hk0_0
      isplitl [Hk0_1]; · iexact Hk0_1
      isplitl [Hk0_2]; · iexact Hk0_2
      isplitl [Hk0_3]; · iexact Hk0_3
      isplitl [Hk0_4]; · iexact Hk0_4
      isplitl [Hk0_5]; · iexact Hk0_5
      isplitl [Hk0_6]; · iexact Hk0_6
      isplitl [Hk0_7]; · iexact Hk0_7
      isplitl [Hk0_8]; · iexact Hk0_8
      iexact Hk0_9
    isplitl [Hd1 Hk1_0 Hk1_1 Hk1_2 Hk1_3 Hk1_4 Hk1_5 Hk1_6 Hk1_7 Hk1_8 Hk1_9]
    · iapply (toks10_join (F := F) (UU := UU) (X := Finset.univ) (tq (numL L)))
      isplitl [Hd1]; · iexact Hd1
      isplitl [Hk1_0]; · iexact Hk1_0
      isplitl [Hk1_1]; · iexact Hk1_1
      isplitl [Hk1_2]; · iexact Hk1_2
      isplitl [Hk1_3]; · iexact Hk1_3
      isplitl [Hk1_4]; · iexact Hk1_4
      isplitl [Hk1_5]; · iexact Hk1_5
      isplitl [Hk1_6]; · iexact Hk1_6
      isplitl [Hk1_7]; · iexact Hk1_7
      isplitl [Hk1_8]; · iexact Hk1_8
      iexact Hk1_9
    isplitl [Hd2 Hk2_0 Hk2_1 Hk2_2 Hk2_3 Hk2_4 Hk2_5 Hk2_6 Hk2_7 Hk2_8 Hk2_9]
    · iapply (toks10_join (F := F) (UU := UU) (X := Finset.univ) (tq (numL L)))
      isplitl [Hd2]; · iexact Hd2
      isplitl [Hk2_0]; · iexact Hk2_0
      isplitl [Hk2_1]; · iexact Hk2_1
      isplitl [Hk2_2]; · iexact Hk2_2
      isplitl [Hk2_3]; · iexact Hk2_3
      isplitl [Hk2_4]; · iexact Hk2_4
      isplitl [Hk2_5]; · iexact Hk2_5
      isplitl [Hk2_6]; · iexact Hk2_6
      isplitl [Hk2_7]; · iexact Hk2_7
      isplitl [Hk2_8]; · iexact Hk2_8
      iexact Hk2_9
    isplitl [Ho0_0 Ho0_1 Ho0_2 Ho0_3]
    · iapply (oPart0_joinSame (F := F) d L _)
      isplitl [Ho0_0]; · iexact Ho0_0
      isplitl [Ho0_1]; · iexact Ho0_1
      isplitl [Ho0_2]; · iexact Ho0_2
      iexact Ho0_3
    isplitl [Ho1_0 Ho1_1 Ho1_2 Ho1_3]
    · iapply (oPart1_joinSame (F := F) d L _)
      isplitl [Ho1_0]; · iexact Ho1_0
      isplitl [Ho1_1]; · iexact Ho1_1
      isplitl [Ho1_2]; · iexact Ho1_2
      iexact Ho1_3
    iapply (oPart2_joinSame (F := F) d L _)
    isplitl [Ho2_0]; · iexact Ho2_0
    isplitl [Ho2_1]; · iexact Ho2_1
    isplitl [Ho2_2]; · iexact Ho2_2
    iexact Ho2_3
  -- the subcore's own buffers
  isplitl [Hv0 Hv1 Hv2 Hs0 Hs1 Hs2 Hs3 Hs4 Hs5 Hs6 Hbufs]
  · isplitl [Hv0 Hv1 Hv2]
    · iapply (planes_join (F := F) (UU := UU) d L)
      isplitl [Hv0]; · iexact Hv0
      isplitl [Hv1]; · iexact Hv1
      iexact Hv2
    isplitl [Hs0 Hs1 Hs2 Hs3 Hs4 Hs5 Hs6]
    · iapply (slots_join (F := F) (UU := UU) d L)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    iexact Hbufs
  -- its semaphores
  isplitl [Hc_i0 Hc_i1 Hc_i2 Hc_g0 Hc_g1 Hc_g2 Hc_g3 Hc_g4 Hc_g5 Hc_g6 Hc_w0 Hc_w1 Hc_w2 Hc_w3 Hc_w4 Hc_w5 Hc_w6 Hsems]
  · isplitl [Hc_i0]; · iexact Hc_i0
    isplitl [Hc_i1]; · iexact Hc_i1
    isplitl [Hc_i2]; · iexact Hc_i2
    isplitl [Hc_g0]; · iexact Hc_g0
    isplitl [Hc_g1]; · iexact Hc_g1
    isplitl [Hc_g2]; · iexact Hc_g2
    isplitl [Hc_g3]; · iexact Hc_g3
    isplitl [Hc_g4]; · iexact Hc_g4
    isplitl [Hc_g5]; · iexact Hc_g5
    isplitl [Hc_g6]; · iexact Hc_g6
    isplitl [Hc_w0]; · iexact Hc_w0
    isplitl [Hc_w1]; · iexact Hc_w1
    isplitl [Hc_w2]; · iexact Hc_w2
    isplitl [Hc_w3]; · iexact Hc_w3
    isplitl [Hc_w4]; · iexact Hc_w4
    isplitl [Hc_w5]; · iexact Hc_w5
    isplitl [Hc_w6]; · iexact Hc_w6
    iexact Hsems
  iexists W'; isplitr
  · ipureintro; exact hW'
  · iexact HO

set_option maxRecDepth 16384 in
/-- The launch theorem's obligation for the call's vector subcores, outputs read. -/
theorem tileOblV (hF : (K (F := F)).Facts) (hpre : PreOK W) : (K (F := F)).TileObl (D (F := F)) 𝒱 (PV W) v₀ 0 := by
  intro d c i O W0 hO _ _
  simp only [show (PV W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body_val W d (coordsV ⟨_, hci.1⟩ ⟨_, hci.2⟩) hF hpre O W0 hO).trans (wp_mono frame _ _ fun _ => obl_post)

end Cert.Proof.KI

end
-- ==== Proof.KernelValueOf.lean ====
/-
  What is owed for the kernel's result, made explicit.

  The kernel's run ends with its result at the nine-term sum of its arguments as soon as (a) the first TensorCore region
  leaves its six results at a function `R0` of the arrays it was entered with, (b) the second leaves the result array at
  a function `R1` of the arrays it was entered with, and (c) `R1` of the arrays the second region is entered with — the
  launch arrays through the host operations, the SparseCore call's gathered outputs, the first region's `R0` — is the
  nine-term sum. The SparseCore call's part is proved (the outputs are the widened tables gathered along the index
  arrays); the values are threaded through the program's operations by the launch.
-/
import proofs.«211833_g48473000902786_cont_8to1_c_597_31_alg».proof.Proof.Algebraic
import proofs.«211833_g48473000902786_cont_8to1_c_597_31_alg».proof.Proof.LaunchRunVal
import proofs.«211833_g48473000902786_cont_8to1_c_597_31_alg».proof.Proof.TaskOblVal

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable (m : (ℓ : Loc nD τ sig) → Buf (Elt Ideal) ℓ)
variable (R0 R1 : Valuation τ sig (Elt Ideal) → Valuation τ sig (Elt Ideal))

/-- The first region leaves its six results at `R0` of the arrays it was entered with, and nothing else changed. -/
def RegionValue0 : Prop :=
  ∀ (W : Valuation τ sig (Elt Ideal)) (κ : GSem nD τ sig → ℕ) (d : Dev nD),
      iprop((K (F := Ideal)).ctx EH (PV (Wc m)) κ ∗ (K (F := Ideal)).tcSt EH d 1 ∗ boundary (SparseCore.T d) ∗ held (SparseCore.T d) (Pipeline.ucRefs τ sig) W ∗ Cert.Proof.Region.Gp (F := Ideal) 0 d)
      ⊢ wp Idealize.ShloMosaic.frame (wpE ((K (F := Ideal)).defs (D (F := Ideal))) 𝒱 (SparseCore.T d) none) Set.univ
          (Prog.lift (.customCall (SparseCore.inner (Pipeline.entry 0)) ()))
          fun _ => iprop(∃ W' : Valuation τ sig (Elt Ideal), ⌜∀ b, b ∉ Cert.Proof.Region.outs1 → W' b = W b⌝ ∗ ⌜∀ b, b ∈ Cert.Proof.Region.outs1 → W' b = R0 W b⌝
            ∗ (K (F := Ideal)).tcSt EH d 1 ∗ boundary (SparseCore.T d) ∗ held (SparseCore.T d) (Pipeline.ucRefs τ sig) W')

/-- The second region leaves the result array at `R1` of the arrays it was entered with, and nothing else changed. -/
def RegionValue1 : Prop :=
  ∀ (W : Valuation τ sig (Elt Ideal)) (κ : GSem nD τ sig → ℕ) (d : Dev nD),
      iprop((K (F := Ideal)).ctx EH (PV (Wc m)) κ ∗ (K (F := Ideal)).tcSt EH d 1 ∗ boundary (SparseCore.T d) ∗ held (SparseCore.T d) (Pipeline.ucRefs τ sig) W ∗ Cert.Proof.Region.Gp (F := Ideal) 1 d)
      ⊢ wp Idealize.ShloMosaic.frame (wpE ((K (F := Ideal)).defs (D (F := Ideal))) 𝒱 (SparseCore.T d) none) Set.univ
          (Prog.lift (.customCall (SparseCore.inner (Pipeline.entry 1)) ()))
          fun _ => iprop(∃ W' : Valuation τ sig (Elt Ideal), ⌜∀ b, b ∉ Cert.Proof.Region.outs2 → W' b = W b⌝ ∗ ⌜∀ b, b ∈ Cert.Proof.Region.outs2 → W' b = R1 W b⌝
            ∗ (K (F := Ideal)).tcSt EH d 1 ∗ boundary (SparseCore.T d) ∗ held (SparseCore.T d) (Pipeline.ucRefs τ sig) W')

/-- From the two regions' values and the equation for the threaded result, the kernel's result. -/
theorem kernelValue_of_regions
    (h0 : ∀ m, RegionValue0 m R0) (h1 : ∀ m, RegionValue1 m R1)
    (hmatch : ∀ m, Cert.Pre_KernelIdeal m → ∀ c : Dev nD, ∃ q1 q3 q6,
      resultVal m Cert.Proof.Region.outs1 Cert.Proof.Region.outs2 R0 R1 c
        = Cert.Proof.kerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) q1 q3 q6) :
    Cert.Proof.KernelValue (hKernelIdeal := Cert.KernelIdeal.Gen.facts) (hPre_input_domain := Cert.Pre_input_domain.Gen.facts) := by
  intro m g hpre
  refine (θ_run _ _ _).mono (fun r h c => ?_)
    (run_valV m g R0 R1 (tileOblV (Wc m) facts (preOK_of_pre m hpre)) (h0 m) (h1 m))
  obtain ⟨hv, hargs⟩ := h c
  obtain ⟨q1, q3, q6, e⟩ := hmatch m hpre c
  exact ⟨⟨q1, q3, q6, hv.trans e⟩, hargs⟩

end Cert.Proof.KI

end
-- ==== Proof.KerMatch.lean ====
/-
  The threaded result is the kernel formula.

  Take for the first region's results the first body's payloads of the launch arrays (the four small tables times blocks
  0, 2, 4, 5 of the final weights, the numerical projection times block 7, the numerical bias times block 7 plus the
  final bias), and for the second region's result, block of 2048 rows by block, the second body's stored payload of the
  arrays' blocks. Threaded through the program — the host's reshapes and widenings, the SparseCore call's gathered
  outputs, the first region's results — the second region's result is the nine-term sum at every entry.
-/
import proofs.«211833_g48473000902786_cont_8to1_c_597_31_alg».proof.Proof.KerMatchCore
import proofs.«211833_g48473000902786_cont_8to1_c_597_31_alg».proof.Proof.KerMatchGather
import proofs.«211833_g48473000902786_cont_8to1_c_597_31_alg».proof.Proof.LaunchChainVal
import proofs.«211833_g48473000902786_cont_8to1_c_597_31_alg».proof.Proof.KernelValueOf
import proofs.«211833_g48473000902786_cont_8to1_c_597_31_alg».proof.Proof.RefPre

noncomputable section

namespace Cert.Proof.KI

open Cert.KernelIdeal Cert.KernelIdeal.Gen
open Idealize.ShloMosaic Idealize.ShloMosaic.ValueIdx
open Idealize.SL.Sem
open Cert.Proof.Pay Cert.Proof.Ker

/-- A TensorCore array, as a buffer of a device. -/
abbrev rr (b : Ref sig .tc) : DevRef τ sig := Proc.devRef .tc b

/-- A column `[n, 1]` cast of an array `[n]` reads it. -/
theorem colCast_apply {α : Type} (a : S16384.Idx → α) (p : Fin 16384) :
    shapeCast S16384x1 a Gen.shapeCasts_S16384_S16384x1 (ix2 p (0 : Fin 1)) = a (ix1 p) :=
  shapeCast_apply a _ _ _ (by
    rw [Shape.rowMajor_val_one, Shape.rowMajor_val_two]
    show p.val = p.val * 1 + 0
    omega)
/-- A row `[1, n]` cast of an array `[n]` reads it. -/
theorem rowCast_apply {α : Type} (a : S64.Idx → α) (k : Fin 64) :
    shapeCast S1x64 a Gen.shapeCasts_S64_S1x64 (ix2 (0 : Fin 1) k) = a (ix1 k) :=
  shapeCast_apply a _ _ _ (by
    rw [Shape.rowMajor_val_one, Shape.rowMajor_val_two]
    show k.val = 0 * 64 + k.val
    omega)

/-- The first region's six results, as functions of the arrays it is entered with. -/
def R0c (V : Valuation τ sig (Elt Ideal)) : Valuation τ sig (Elt Ideal) :=
  Function.update (Function.update (Function.update (Function.update (Function.update (Function.update V
    (rr main_v12_0) (k1_pay2 (F := Ideal) (V (rr main_arg8)) (wblk (V (rr main_arg17)) 0 (by norm_num))))
    (rr main_v12_1) (k1_pay3 (F := Ideal) (V (rr main_arg10)) (wblk (V (rr main_arg17)) 128 (by norm_num))))
    (rr main_v12_2) (k1_pay4 (F := Ideal) (V (rr main_arg12)) (wblk (V (rr main_arg17)) 256 (by norm_num))))
    (rr main_v12_3) (k1_pay5 (F := Ideal) (V (rr main_arg13)) (wblk (V (rr main_arg17)) 320 (by norm_num))))
    (rr main_v12_4) (k1_pay6 (F := Ideal) (V (rr main_arg15)) (wblk (V (rr main_arg17)) 448 (by norm_num))))
    (rr main_v12_5) (k1_pay1 (F := Ideal) (V (rr main_v10)) (wblk (V (rr main_arg17)) 448 (by norm_num)) (V (rr main_v11)))

/-- The block of 2048 rows an output row lies in, and the row within it. -/
def blkOf (p : Fin 16384) : Fin 8 := ⟨p.val / 2048, by have := p.isLt; omega⟩
def inBlk (p : Fin 16384) : Fin 2048 := ⟨p.val % 2048, Nat.mod_lt _ (by decide)⟩
theorem rowAt_blk (p : Fin 16384) : rowAt (blkOf p) (inBlk p) = p :=
  Fin.ext (by show 2048 * (p.val / 2048) + p.val % 2048 = p.val; omega)

/-- The second region's result, as a function of the arrays it is entered with. -/
def R1c (V : Valuation τ sig (Elt Ideal)) : Valuation τ sig (Elt Ideal) :=
  Function.update V (rr main_v18) (fun i : S16384x64.Idx =>
    k2_pay1 (F := Ideal) (k2_pay3 (k2_pay2 (V (rr main_v12_5)) (rowsBlk (V (rr main_v17)) (blkOf ⟨(i 0).val, (i 0).isLt⟩)) (V (rr main_v12_4))
          (wblk (V (rr main_arg17)) 64 (by norm_num)) (wblk (V (rr main_arg17)) 64 (by norm_num))
          (wblk (V (rr main_arg17)) 192 (by norm_num)) (wblk (V (rr main_arg17)) 192 (by norm_num))
          (wblk (V (rr main_arg17)) 384 (by norm_num)) (wblk (V (rr main_arg17)) 384 (by norm_num))
          (rowsBlk (V (rr main_v9_0)) (blkOf ⟨(i 0).val, (i 0).isLt⟩)) (rowsBlk (V (rr main_v9_1)) (blkOf ⟨(i 0).val, (i 0).isLt⟩))
          (rowsBlk (V (rr main_v9_2)) (blkOf ⟨(i 0).val, (i 0).isLt⟩)))
        (rowsBlk (V (rr main_v13)) (blkOf ⟨(i 0).val, (i 0).isLt⟩)) (V (rr main_v12_0))
        (rowsBlk (V (rr main_v14)) (blkOf ⟨(i 0).val, (i 0).isLt⟩)) (V (rr main_v12_1))
        (rowsBlk (V (rr main_v15)) (blkOf ⟨(i 0).val, (i 0).isLt⟩)) (V (rr main_v12_2)))
      (k2_pay4 (V (rr main_v12_3))) (k2_pay5 (F := Ideal) (rowsBlk (V (rr main_v16)) (blkOf ⟨(i 0).val, (i 0).isLt⟩)))
      (ix2 (inBlk ⟨(i 0).val, (i 0).isLt⟩) (⟨(i 1).val, (i 1).isLt⟩ : Fin 64)))

theorem R0c_v12_0 (V : Valuation τ sig (Elt Ideal)) : R0c V (rr main_v12_0) = k1_pay2 (F := Ideal) (V (rr main_arg8)) (wblk (V (rr main_arg17)) 0 (by norm_num)) := by
  unfold R0c
  rw [Function.update_of_ne (show rr main_v12_0 ≠ rr main_v12_5 by decide), Function.update_of_ne (show rr main_v12_0 ≠ rr main_v12_4 by decide), Function.update_of_ne (show rr main_v12_0 ≠ rr main_v12_3 by decide), Function.update_of_ne (show rr main_v12_0 ≠ rr main_v12_2 by decide), Function.update_of_ne (show rr main_v12_0 ≠ rr main_v12_1 by decide), Function.update_self]
theorem R0c_v12_1 (V : Valuation τ sig (Elt Ideal)) : R0c V (rr main_v12_1) = k1_pay3 (F := Ideal) (V (rr main_arg10)) (wblk (V (rr main_arg17)) 128 (by norm_num)) := by
  unfold R0c
  rw [Function.update_of_ne (show rr main_v12_1 ≠ rr main_v12_5 by decide), Function.update_of_ne (show rr main_v12_1 ≠ rr main_v12_4 by decide), Function.update_of_ne (show rr main_v12_1 ≠ rr main_v12_3 by decide), Function.update_of_ne (show rr main_v12_1 ≠ rr main_v12_2 by decide), Function.update_self]
theorem R0c_v12_2 (V : Valuation τ sig (Elt Ideal)) : R0c V (rr main_v12_2) = k1_pay4 (F := Ideal) (V (rr main_arg12)) (wblk (V (rr main_arg17)) 256 (by norm_num)) := by
  unfold R0c
  rw [Function.update_of_ne (show rr main_v12_2 ≠ rr main_v12_5 by decide), Function.update_of_ne (show rr main_v12_2 ≠ rr main_v12_4 by decide), Function.update_of_ne (show rr main_v12_2 ≠ rr main_v12_3 by decide), Function.update_self]
theorem R0c_v12_3 (V : Valuation τ sig (Elt Ideal)) : R0c V (rr main_v12_3) = k1_pay5 (F := Ideal) (V (rr main_arg13)) (wblk (V (rr main_arg17)) 320 (by norm_num)) := by
  unfold R0c
  rw [Function.update_of_ne (show rr main_v12_3 ≠ rr main_v12_5 by decide), Function.update_of_ne (show rr main_v12_3 ≠ rr main_v12_4 by decide), Function.update_self]
theorem R0c_v12_4 (V : Valuation τ sig (Elt Ideal)) : R0c V (rr main_v12_4) = k1_pay6 (F := Ideal) (V (rr main_arg15)) (wblk (V (rr main_arg17)) 448 (by norm_num)) := by
  unfold R0c
  rw [Function.update_of_ne (show rr main_v12_4 ≠ rr main_v12_5 by decide), Function.update_self]
theorem R0c_v12_5 (V : Valuation τ sig (Elt Ideal)) : R0c V (rr main_v12_5) = k1_pay1 (F := Ideal) (V (rr main_v10)) (wblk (V (rr main_arg17)) 448 (by norm_num)) (V (rr main_v11)) := by
  unfold R0c
  rw [Function.update_self]

variable (m : (ℓ : Loc nD τ sig) → Buf (Elt Ideal) ℓ)

/-- The gathered output `t`, in the kernel formula's words. -/
theorem gO0_wide (c : Dev nD) (h : ∀ q : Fin 16384, ((m ((SparseCore.T c).loc main_arg1)) (ix1 q)).toNat < 100000) (p : Fin 16384) (k : Fin 128) :
    gO0 (Wc m) c (ix2 p k) = wide (m ((SparseCore.T c).loc main_arg9)) ⟨((m ((SparseCore.T c).loc main_arg1)) (ix1 p)).toNat, h p⟩ k := by
  unfold gO0 wI0 wT0
  rw [Wc_v0, Wc_v4]
  exact gat_reshape_wide _ _ h p k
theorem gO1_wide (c : Dev nD) (h : ∀ q : Fin 16384, ((m ((SparseCore.T c).loc main_arg3)) (ix1 q)).toNat < 100000) (p : Fin 16384) (k : Fin 128) :
    gO1 (Wc m) c (ix2 p k) = wide (m ((SparseCore.T c).loc main_arg11)) ⟨((m ((SparseCore.T c).loc main_arg3)) (ix1 p)).toNat, h p⟩ k := by
  unfold gO1 wI1 wT1
  rw [Wc_v1, Wc_v6]
  exact gat_reshape_wide _ _ h p k
theorem gO2_wide (c : Dev nD) (h : ∀ q : Fin 16384, ((m ((SparseCore.T c).loc main_arg6)) (ix1 q)).toNat < 100000) (p : Fin 16384) (k : Fin 128) :
    gO2 (Wc m) c (ix2 p k) = wide (m ((SparseCore.T c).loc main_arg14)) ⟨((m ((SparseCore.T c).loc main_arg6)) (ix1 p)).toNat, h p⟩ k := by
  unfold gO2 wI2 wT2
  rw [Wc_v2, Wc_v8]
  exact gat_reshape_wide _ _ h p k

set_option maxHeartbeats 4000000 in
/-- The threaded result is the nine-term sum of the launch arrays. -/
theorem result_eq_kerArr (hpre : Cert.Pre_KernelIdeal m) (c : Dev nD) : ∃ q1 q3 q6,
    resultVal m Cert.Proof.Region.outs1 Cert.Proof.Region.outs2 R0c R1c c
      = Cert.Proof.kerArr (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9)) (m ((SparseCore.T c).loc main_arg10)) (m ((SparseCore.T c).loc main_arg11)) (m ((SparseCore.T c).loc main_arg12)) (m ((SparseCore.T c).loc main_arg13)) (m ((SparseCore.T c).loc main_arg14)) (m ((SparseCore.T c).loc main_arg15)) (m ((SparseCore.T c).loc main_arg16)) (m ((SparseCore.T c).loc main_arg17)) (m ((SparseCore.T c).loc main_arg18)) q1 q3 q6 := by
  obtain ⟨r0, r1, r2, r3, r4, r5, r6⟩ := Cert.ReferenceIdeal.RefValue.ranges_of_fn _ _ _ _ _ _ _ _ _ _ _ _ _ _ _ _ _ _ _ (hpre c)
  refine ⟨r1, r3, r6, ?_⟩
  rw [resultVal_outs]
  unfold R1c
  rw [Function.update_self]
  funext i
  rw [V4_v12_0 m R0c c, V4_v12_1 m R0c c, V4_v12_2 m R0c c, V4_v12_3 m R0c c, V4_v12_4 m R0c c, V4_v12_5 m R0c c,
    V4_v9_0 m R0c c, V4_v9_1 m R0c c, V4_v9_2 m R0c c, V4_v13 m R0c c, V4_v14 m R0c c, V4_v15 m R0c c, V4_v16 m R0c c, V4_v17 m R0c c,
    V4_arg17 m R0c c, R0c_v12_0, R0c_v12_1, R0c_v12_2, R0c_v12_3, R0c_v12_4, R0c_v12_5,
    V2_arg8, V2_arg10, V2_arg12, V2_arg13, V2_arg15, V2_arg17, V2_v10, V2_v11]
  have h := stored_eq_kerOut (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9)) (m ((SparseCore.T c).loc main_arg10)) (m ((SparseCore.T c).loc main_arg11)) (m ((SparseCore.T c).loc main_arg12)) (m ((SparseCore.T c).loc main_arg13)) (m ((SparseCore.T c).loc main_arg14)) (m ((SparseCore.T c).loc main_arg15)) (m ((SparseCore.T c).loc main_arg16)) (m ((SparseCore.T c).loc main_arg17)) (m ((SparseCore.T c).loc main_arg18)) r1 r3 r6
    (gO0 (Wc m) c) (gO1 (Wc m) c) (gO2 (Wc m) c) (gO0_wide m c r1) (gO1_wide m c r3) (gO2_wide m c r6)
    (fun i => shapeCast S16384x1 (m ((SparseCore.T c).loc main_arg0)) Gen.shapeCasts_S16384_S16384x1 i)
    (fun i => shapeCast S16384x1 (m ((SparseCore.T c).loc main_arg2)) Gen.shapeCasts_S16384_S16384x1 i)
    (fun i => shapeCast S16384x1 (m ((SparseCore.T c).loc main_arg4)) Gen.shapeCasts_S16384_S16384x1 i)
    (fun i => shapeCast S16384x1 (m ((SparseCore.T c).loc main_arg5)) Gen.shapeCasts_S16384_S16384x1 i)
    (fun p => colCast_apply _ p) (fun p => colCast_apply _ p) (fun p => colCast_apply _ p) (fun p => colCast_apply _ p)
    (fun i => shapeCast S16384x1 (m ((SparseCore.T c).loc main_arg7)) Gen.shapeCasts_S16384_S16384x1 i) (fun p => colCast_apply _ p)
    (fun i => shapeCast S1x64 (m ((SparseCore.T c).loc main_arg16)) Gen.shapeCasts_S64_S1x64 i) (fun i => shapeCast S1x64 (m ((SparseCore.T c).loc main_arg18)) Gen.shapeCasts_S64_S1x64 i)
    (fun k => rowCast_apply _ k) (fun k => rowCast_apply _ k)
    (blkOf ⟨(i 0).val, (i 0).isLt⟩) (inBlk ⟨(i 0).val, (i 0).isLt⟩) ⟨(i 1).val, (i 1).isLt⟩
  rw [rowAt_blk] at h
  exact h

/-- The kernel's result, from the two regions' value forms for these result functions. -/
theorem kernelValue_of_regionsC (h0 : ∀ m, RegionValue0 m R0c) (h1 : ∀ m, RegionValue1 m R1c) :
    Cert.Proof.KernelValue (hKernelIdeal := Cert.KernelIdeal.Gen.facts) (hPre_input_domain := Cert.Pre_input_domain.Gen.facts) :=
  kernelValue_of_regions R0c R1c h0 h1 (fun m hpre c => result_eq_kerArr m hpre c)

end Cert.Proof.KI

end
-- ==== Proof.RegionBody1V.lean ====
/-
  The first TensorCore region's kernel body run on any staging buffers, with what it stores named: each result buffer
  ends as its prior contents overwritten, on its whole rectangle, by the product (or product plus bias) of what the
  operand buffers held.
-/
import proofs.«211833_g48473000902786_cont_8to1_c_597_31_alg».proof.Proof.RegionSetup
import proofs.«211833_g48473000902786_cont_8to1_c_597_31_alg».proof.Proof.Gen.KernelIdeal.Skeleton
import Idealize.ShloMosaic.Lib.Tactic

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

/-- The body of the first region on any eighteen whole staging buffers held whole at contents `f₁ … f₁₈`: it runs to its
    return, hands the twelve operand buffers back as they were, and each of the six result buffers at its prior contents
    overwritten on the whole rectangle by: the first four, the matrix product of an embedding table and its 64×64 block of
    the final weights; the fifth, the numeric weight row times its block; the sixth, the numeric bias row times that block
    plus the final bias. -/
theorem run1V (c : Dev nD) (i : grid1.Coords) (a1 : Memref sig .tc .vmem S16x64 .f32) (h1 : a1.IsWhole) (a2 : Memref sig .tc .vmem S400x64 .f32) (h2 : a2.IsWhole) (a3 : Memref sig .tc .vmem S4x64 .f32) (h3 : a3.IsWhole) (a4 : Memref sig .tc .vmem S64x64 .f32) (h4 : a4.IsWhole) (a5 : Memref sig .tc .vmem S64x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S64x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S16x64 .f32) (h13 : a13.IsWhole) (a14 : Memref sig .tc .vmem S400x64 .f32) (h14 : a14.IsWhole) (a15 : Memref sig .tc .vmem S4x64 .f32) (h15 : a15.IsWhole) (a16 : Memref sig .tc .vmem S64x64 .f32) (h16 : a16.IsWhole) (a17 : Memref sig .tc .vmem S1x64 .f32) (h17 : a17.IsWhole) (a18 : Memref sig .tc .vmem S1x64 .f32) (h18 : a18.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18
        ∗ (iprop(pt c a1 f1
          ∗ pt c a2 f2
          ∗ pt c a3 f3
          ∗ pt c a4 f4
          ∗ pt c a5 f5
          ∗ pt c a6 f6
          ∗ pt c a7 f7
          ∗ pt c a8 f8
          ∗ pt c a9 f9
          ∗ pt c a10 f10
          ∗ pt c a11 f11
          ∗ pt c a12 f12
          ∗ pt c a13 (a13.view.writes (Elt F) f13 [⟨(Rect.unit (s := S16x64) ![0, 0] S16x64.size inb_S16x64_S16x64_0_0), k1_pay2 (View.readAt (Elt F) a1.view (Rect.unit (s := S16x64) ![0, 0] S16x64.size inb_S16x64_S16x64_0_0).toLoadRect f1) (View.readAt (Elt F) a5.view (Rect.unit (s := S64x64) ![0, 0] S64x64.size inb_S64x64_S64x64_0_0).toLoadRect f5)⟩])
          ∗ pt c a14 (a14.view.writes (Elt F) f14 [⟨(Rect.unit (s := S400x64) ![0, 0] S400x64.size inb_S400x64_S400x64_0_0), k1_pay3 (View.readAt (Elt F) a2.view (Rect.unit (s := S400x64) ![0, 0] S400x64.size inb_S400x64_S400x64_0_0).toLoadRect f2) (View.readAt (Elt F) a6.view (Rect.unit (s := S64x64) ![0, 0] S64x64.size inb_S64x64_S64x64_0_0).toLoadRect f6)⟩])
          ∗ pt c a15 (a15.view.writes (Elt F) f15 [⟨(Rect.unit (s := S4x64) ![0, 0] S4x64.size inb_S4x64_S4x64_0_0), k1_pay4 (View.readAt (Elt F) a3.view (Rect.unit (s := S4x64) ![0, 0] S4x64.size inb_S4x64_S4x64_0_0).toLoadRect f3) (View.readAt (Elt F) a7.view (Rect.unit (s := S64x64) ![0, 0] S64x64.size inb_S64x64_S64x64_0_0).toLoadRect f7)⟩])
          ∗ pt c a16 (a16.view.writes (Elt F) f16 [⟨(Rect.unit (s := S64x64) ![0, 0] S64x64.size inb_S64x64_S64x64_0_0), k1_pay5 (View.readAt (Elt F) a4.view (Rect.unit (s := S64x64) ![0, 0] S64x64.size inb_S64x64_S64x64_0_0).toLoadRect f4) (View.readAt (Elt F) a8.view (Rect.unit (s := S64x64) ![0, 0] S64x64.size inb_S64x64_S64x64_0_0).toLoadRect f8)⟩])
          ∗ pt c a17 (a17.view.writes (Elt F) f17 [⟨(Rect.unit (s := S1x64) ![0, 0] S1x64.size inb_S1x64_S1x64_0_0), k1_pay6 (View.readAt (Elt F) a10.view (Rect.unit (s := S1x64) ![0, 0] S1x64.size inb_S1x64_S1x64_0_0).toLoadRect f10) (View.readAt (Elt F) a9.view (Rect.unit (s := S64x64) ![0, 0] S64x64.size inb_S64x64_S64x64_0_0).toLoadRect f9)⟩])
          ∗ pt c a18 (a18.view.writes (Elt F) f18 [⟨(Rect.unit (s := S1x64) ![0, 0] S1x64.size inb_S1x64_S1x64_0_0), k1_pay1 (View.readAt (Elt F) a11.view (Rect.unit (s := S1x64) ![0, 0] S1x64.size inb_S1x64_S1x64_0_0).toLoadRect f11) (View.readAt (Elt F) a9.view (Rect.unit (s := S64x64) ![0, 0] S64x64.size inb_S64x64_S64x64_0_0).toLoadRect f9) (View.readAt (Elt F) a12.view (Rect.unit (s := S1x64) ![0, 0] S1x64.size inb_S1x64_S1x64_0_0).toLoadRect f12)⟩])) -∗ Q ⟨⟩))
      ⊢ wp frame (wpE (defs₀ (F := F)) 𝒱₀ (c : Thread nD τ) none) Set.univ (cc1__pre_body i a1 h1 a2 h2 a3 h3 a4 h4 a5 h5 a6 h6 a7 h7 a8 h8 a9 h9 a10 h10 a11 h11 a12 h12 a13 h13 a14 h14 a15 h15 a16 h16 a17 h17 a18 h18) Q := by
  iintro ⟨H1, H2, H3, H4, H5, H6, H7, H8, H9, H10, H11, H12, H13, H14, H15, H16, H17, H18, Hk⟩
  sl_unfold [cc1__pre_body]
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Proof.Region

end
-- ==== Proof.RegionValDefs.lean ====
/-
  The first TensorCore region with its values: the data.

  The region has one grid point. Each operand window's staging buffer holds, when the body runs, the block of its
  array the fetch brought; the body leaves in each result window's buffer a named function of those blocks; the
  write-back overwrites the result array's block with it.
-/
import proofs.«211833_g48473000902786_cont_8to1_c_597_31_alg».proof.Proof.RegionPre
import proofs.«211833_g48473000902786_cont_8to1_c_597_31_alg».proof.Proof.RegionBody1V

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig (HIx 1) (Elt F) ℕ UU ℕ
/-! ## Reading through a whole rectangle at the origin -/

section Whole
variable {sig' : RefSig} {κ : Kind} {sp : Space} {e : EltTy} {Val : EltTy → Type} {dd : Fin 2 → ℕ}

theorem unit0_emb (inb : ∀ a, (![0, 0] : Fin 2 → ℕ) a + dd a ≤ dd a) (x : (Rect.unit (s := ⟨2, dd⟩) ![0, 0] dd inb).shape.Idx) :
    (Rect.unit (s := ⟨2, dd⟩) ![0, 0] dd inb).emb x = x :=
  funext fun a => Fin.ext (by rw [Rect.emb_apply]; show (![0, 0] : Fin 2 → ℕ) a + 1 * (x a).val = (x a).val; fin_cases a <;> simp)

theorem unit0_idx (inb : ∀ a, (![0, 0] : Fin 2 → ℕ) a + dd a ≤ dd a) (x : (Rect.unit (s := ⟨2, dd⟩) ![0, 0] dd inb).shape.Idx) :
    (Rect.unit (s := ⟨2, dd⟩) ![0, 0] dd inb).idx x = x :=
  funext fun a => Fin.ext (by show (![0, 0] : Fin 2 → ℕ) a + 1 * (x a).val = (x a).val; fin_cases a <;> simp)

/-- A store of `p` through the whole rectangle reads back as `p`. -/
theorem read_writes_unit0 (v : View sig' κ sp ⟨2, dd⟩ e) (f : v.ty.Contents Val) (inb : ∀ a, (![0, 0] : Fin 2 → ℕ) a + dd a ≤ dd a)
    (p : (Rect.unit (s := ⟨2, dd⟩) ![0, 0] dd inb).shape.Idx → Val e) :
    v.read Val (v.writes Val f [⟨Rect.unit (s := ⟨2, dd⟩) ![0, 0] dd inb, p⟩]) = p := funext fun x => by
  have h := View.read_writes_cons_emb v f (Rect.unit (s := ⟨2, dd⟩) ![0, 0] dd inb) p [] x
  rwa [unit0_emb] at h

/-- A load through the whole rectangle reads the contents. -/
theorem readAt_unit0 (v : View sig' κ sp ⟨2, dd⟩ e) (f : v.ty.Contents Val) (inb : ∀ a, (![0, 0] : Fin 2 → ℕ) a + dd a ≤ dd a) :
    View.readAt Val v (Rect.unit (s := ⟨2, dd⟩) ![0, 0] dd inb).toLoadRect f = v.read Val f := funext fun x => by
  show v.read Val f ((Rect.unit (s := ⟨2, dd⟩) ![0, 0] dd inb).idx x) = _
  rw [unit0_idx]

end Whole

variable (W : Valuation τ sig (Elt F))

theorem N1 : cfg1.N = 1 := rfl
abbrev t0 : Fin cfg1.N := ⟨0, by decide⟩

/-- What input window `w`'s staging buffer holds when the body runs: the array's block, fetched. -/
def inV (d : Dev nD) (w : Fin 18) : (cfg1.win w).block.Idx → Elt F (cfg1.win w).elt :=
  (cfg1.win w).fill (cfg1.grid.coords t0) (fun _ => Classical.arbitrary _) (((cfg1.win w).blk t0).view.read (Elt F) ((rdat1 W d).A w))

/-- What the body leaves in each result window's staging buffer. -/
def payV (d : Dev nD) : (w : Fin 18) → (cfg1.win w).block.Idx → Elt F (cfg1.win w).elt
  | ⟨12, _⟩ => k1_pay2 (F := F) (inV W d 0) (inV W d 4)
  | ⟨13, _⟩ => k1_pay3 (F := F) (inV W d 1) (inV W d 5)
  | ⟨14, _⟩ => k1_pay4 (F := F) (inV W d 2) (inV W d 6)
  | ⟨15, _⟩ => k1_pay5 (F := F) (inV W d 3) (inV W d 7)
  | ⟨16, _⟩ => k1_pay6 (F := F) (inV W d 9) (inV W d 8)
  | ⟨17, _⟩ => k1_pay1 (F := F) (inV W d 10) (inV W d 8) (inV W d 11)
  | w => inV W d w

def after1V (d : Dev nD) : (w : Fin 18) → Fin cfg1.N → (Y X : (cfg1.win w).block.Idx → Elt F (cfg1.win w).elt) → Prop
  | ⟨12, _⟩, _, _, X => X = k1_pay2 (F := F) (inV W d 0) (inV W d 4)
  | ⟨13, _⟩, _, _, X => X = k1_pay3 (F := F) (inV W d 1) (inV W d 5)
  | ⟨14, _⟩, _, _, X => X = k1_pay4 (F := F) (inV W d 2) (inV W d 6)
  | ⟨15, _⟩, _, _, X => X = k1_pay5 (F := F) (inV W d 3) (inV W d 7)
  | ⟨16, _⟩, _, _, X => X = k1_pay6 (F := F) (inV W d 9) (inV W d 8)
  | ⟨17, _⟩, _, _, X => X = k1_pay1 (F := F) (inV W d 10) (inV W d 8) (inV W d 11)
  | _, _, _, _ => True

def rdat1V (d : Dev nD) : RDat τ (Elt F) (HIx 1) ℕ UU ℕ cfg1 d := { rdat1 W d with after := after1V W d }
/-- A fetched, uncut input window holds its array's block when the body runs. -/
theorem finds_in (d : Dev nD) (w : Fin 18) (hf : (cfg1.win w).fetch t0 = true) (hc : ∀ a, (cfg1.win w).clip (cfg1.grid.coords t0) a = none)
    (Y : (cfg1.win w).block.Idx → Elt F (cfg1.win w).elt) (h : (rdat1V W d).Finds w t0 Y) : Y = inV W d w := by
  obtain ⟨d', hd'⟩ := ((rdat1V W d).finds_of_fetch hf Y).mp h
  rw [hd']
  exact Pipeline.fill_of_clip_none w (cfg1.grid.coords t0) hc d' _ _

/-- Result window `w`'s array after the write-back: its block overwritten by what the body left. -/
def resV (d : Dev nD) (w : Fin 18) : Buf (Elt F) ((cfg1.win w).arr.view.loc (d : Thread nD τ)) :=
  ((cfg1.win w).blk t0).view.write (Elt F) ((rdat1 W d).A w) ((cfg1.win w).cut (cfg1.grid.coords t0) (payV W d w)) Finset.univ

/-- The six result arrays of a valuation are the written-back blocks. -/
def resFacts (d : Dev nD) (W' : Valuation τ sig (Elt F)) : Prop :=
  W' (Proc.devRef .tc (main_v12_0 : Ref sig .tc) : DevRef τ sig) = resV W d 12 ∧ W' (Proc.devRef .tc (main_v12_1 : Ref sig .tc) : DevRef τ sig) = resV W d 13 ∧ W' (Proc.devRef .tc (main_v12_2 : Ref sig .tc) : DevRef τ sig) = resV W d 14 ∧ W' (Proc.devRef .tc (main_v12_3 : Ref sig .tc) : DevRef τ sig) = resV W d 15 ∧ W' (Proc.devRef .tc (main_v12_4 : Ref sig .tc) : DevRef τ sig) = resV W d 16 ∧ W' (Proc.devRef .tc (main_v12_5 : Ref sig .tc) : DevRef τ sig) = resV W d 17

/-- The proof data family, a literal match on the pipeline. -/
def rdats1V : (p : Fin 2) → (c : Dev nD) → RDat τ (Elt F) (HIx 1) ℕ UU ℕ (Pipeline.pin (pcfgs (F := F)) adm p) c
  | ⟨0, _⟩ => fun c => rdat1V W c
  | ⟨1, _⟩ => fun c => rdatO1 W c

theorem arrays1V_entry (d : Dev nD) : (StableHlo.held (T d) arrs1 W : sProp 𝕄) ⊢ (rdat1V W d).arrays (rdat1V W d).A := arrays1_entry W d

end Cert.Proof.Region

end
-- ==== Proof.RegionValBody.lean ====
/-
  The first TensorCore region with its values: the body, at the one grid point, leaves each result buffer at its
  named function of the operand blocks.
-/
import proofs.«211833_g48473000902786_cont_8to1_c_597_31_alg».proof.Proof.RegionValDefs

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig (HIx 1) (Elt F) ℕ UU ℕ

variable (W : Valuation τ sig (Elt F))

set_option maxHeartbeats 4000000 in
theorem body_obligation1V (d : Dev nD) : (rdat1V W d).BodyObligation (defs₀ (F := F)) 𝒱₀ (none : HIx 1) Set.univ := fun t Y hY => by
  obtain rfl : t = t0 := Fin.ext (by have h : t.val < 1 := t.isLt; show t.val = 0; omega)
  have hin0 := finds_in W d 0 rfl (fun _ => rfl) (Y 0) (hY 0)
  have hin1 := finds_in W d 1 rfl (fun _ => rfl) (Y 1) (hY 1)
  have hin2 := finds_in W d 2 rfl (fun _ => rfl) (Y 2) (hY 2)
  have hin3 := finds_in W d 3 rfl (fun _ => rfl) (Y 3) (hY 3)
  have hin4 := finds_in W d 4 rfl (fun _ => rfl) (Y 4) (hY 4)
  have hin5 := finds_in W d 5 rfl (fun _ => rfl) (Y 5) (hY 5)
  have hin6 := finds_in W d 6 rfl (fun _ => rfl) (Y 6) (hY 6)
  have hin7 := finds_in W d 7 rfl (fun _ => rfl) (Y 7) (hY 7)
  have hin8 := finds_in W d 8 rfl (fun _ => rfl) (Y 8) (hY 8)
  have hin9 := finds_in W d 9 rfl (fun _ => rfl) (Y 9) (hY 9)
  have hin10 := finds_in W d 10 rfl (fun _ => rfl) (Y 10) (hY 10)
  have hin11 := finds_in W d 11 rfl (fun _ => rfl) (Y 11) (hY 11)
  rw [bigSep_W1, bigSep_W1]
  rw [show (rdat1V W d).Φ t0.castSucc = Φc1 d from rfl, show (rdat1V W d).Φ t0.succ = Φc1 d from rfl,
    show (rdat1V W d).owesAt (none : HIx 1) t0.succ = (rdat1V W d).owesAt (none : HIx 1) t0.castSucc from rfl]
  show _ ⊢ wp frame (wpE (defs₀ (F := F)) 𝒱₀ (d : Thread nD τ) none) Set.univ (bodyAt1 t0) _
  unfold owns
  iintro ⟨HΦ, HO, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  iapply (run1V (F := F) d _ _ _ _ _ _ _ _ _ _ _ _ _ _ _ _ _ _ _ _ _ _ _ _ _ _ _ _ _ _ _ _ _ _ _ _ _ f0 f1 f2 f3 f4 f5 f6 f7 f8 f9 f10 f11 f12 f13 f14 f15 f16 f17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨G0, G1, G2, G3, G4, G5, G6, G7, G8, G9, G10, G11, G12, G13, G14, G15, G16, G17⟩
  isplitl [HΦ]; · iexact HΦ
  isplitl [HO]; · iexact HO
  isplitl [G0]
  · iexists ((st1_0 t0).view.read (Elt F) f0); isplitr; · ipureintro; trivial
    iexists f0; isplitr; · ipureintro; rfl
    iexact G0
  isplitl [G1]
  · iexists ((st1_1 t0).view.read (Elt F) f1); isplitr; · ipureintro; trivial
    iexists f1; isplitr; · ipureintro; rfl
    iexact G1
  isplitl [G2]
  · iexists ((st1_2 t0).view.read (Elt F) f2); isplitr; · ipureintro; trivial
    iexists f2; isplitr; · ipureintro; rfl
    iexact G2
  isplitl [G3]
  · iexists ((st1_3 t0).view.read (Elt F) f3); isplitr; · ipureintro; trivial
    iexists f3; isplitr; · ipureintro; rfl
    iexact G3
  isplitl [G4]
  · iexists ((st1_4 t0).view.read (Elt F) f4); isplitr; · ipureintro; trivial
    iexists f4; isplitr; · ipureintro; rfl
    iexact G4
  isplitl [G5]
  · iexists ((st1_5 t0).view.read (Elt F) f5); isplitr; · ipureintro; trivial
    iexists f5; isplitr; · ipureintro; rfl
    iexact G5
  isplitl [G6]
  · iexists ((st1_6 t0).view.read (Elt F) f6); isplitr; · ipureintro; trivial
    iexists f6; isplitr; · ipureintro; rfl
    iexact G6
  isplitl [G7]
  · iexists ((st1_7 t0).view.read (Elt F) f7); isplitr; · ipureintro; trivial
    iexists f7; isplitr; · ipureintro; rfl
    iexact G7
  isplitl [G8]
  · iexists ((st1_8 t0).view.read (Elt F) f8); isplitr; · ipureintro; trivial
    iexists f8; isplitr; · ipureintro; rfl
    iexact G8
  isplitl [G9]
  · iexists ((st1_9 t0).view.read (Elt F) f9); isplitr; · ipureintro; trivial
    iexists f9; isplitr; · ipureintro; rfl
    iexact G9
  isplitl [G10]
  · iexists ((st1_10 t0).view.read (Elt F) f10); isplitr; · ipureintro; trivial
    iexists f10; isplitr; · ipureintro; rfl
    iexact G10
  isplitl [G11]
  · iexists ((st1_11 t0).view.read (Elt F) f11); isplitr; · ipureintro; trivial
    iexists f11; isplitr; · ipureintro; rfl
    iexact G11
  isplitl [G12]
  · iexists ((st1_12 t0).view.read (Elt F) ((st1_12 t0).view.writes (Elt F) f12 [⟨(Rect.unit (s := S16x64) ![0, 0] S16x64.size inb_S16x64_S16x64_0_0), k1_pay2 (View.readAt (Elt F) (st1_0 t0).view (Rect.unit (s := S16x64) ![0, 0] S16x64.size inb_S16x64_S16x64_0_0).toLoadRect f0) (View.readAt (Elt F) (st1_4 t0).view (Rect.unit (s := S64x64) ![0, 0] S64x64.size inb_S64x64_S64x64_0_0).toLoadRect f4)⟩])); isplitr
    · ipureintro
      refine (read_writes_unit0 _ _ _ _).trans ?_
      exact (congr (congrArg _ ((readAt_unit0 _ _ _).trans (e0.trans hin0))) ((readAt_unit0 _ _ _).trans (e4.trans hin4)))
    iexists ((st1_12 t0).view.writes (Elt F) f12 [⟨(Rect.unit (s := S16x64) ![0, 0] S16x64.size inb_S16x64_S16x64_0_0), k1_pay2 (View.readAt (Elt F) (st1_0 t0).view (Rect.unit (s := S16x64) ![0, 0] S16x64.size inb_S16x64_S16x64_0_0).toLoadRect f0) (View.readAt (Elt F) (st1_4 t0).view (Rect.unit (s := S64x64) ![0, 0] S64x64.size inb_S64x64_S64x64_0_0).toLoadRect f4)⟩]); isplitr; · ipureintro; rfl
    iexact G12
  isplitl [G13]
  · iexists ((st1_13 t0).view.read (Elt F) ((st1_13 t0).view.writes (Elt F) f13 [⟨(Rect.unit (s := S400x64) ![0, 0] S400x64.size inb_S400x64_S400x64_0_0), k1_pay3 (View.readAt (Elt F) (st1_1 t0).view (Rect.unit (s := S400x64) ![0, 0] S400x64.size inb_S400x64_S400x64_0_0).toLoadRect f1) (View.readAt (Elt F) (st1_5 t0).view (Rect.unit (s := S64x64) ![0, 0] S64x64.size inb_S64x64_S64x64_0_0).toLoadRect f5)⟩])); isplitr
    · ipureintro
      refine (read_writes_unit0 _ _ _ _).trans ?_
      exact (congr (congrArg _ ((readAt_unit0 _ _ _).trans (e1.trans hin1))) ((readAt_unit0 _ _ _).trans (e5.trans hin5)))
    iexists ((st1_13 t0).view.writes (Elt F) f13 [⟨(Rect.unit (s := S400x64) ![0, 0] S400x64.size inb_S400x64_S400x64_0_0), k1_pay3 (View.readAt (Elt F) (st1_1 t0).view (Rect.unit (s := S400x64) ![0, 0] S400x64.size inb_S400x64_S400x64_0_0).toLoadRect f1) (View.readAt (Elt F) (st1_5 t0).view (Rect.unit (s := S64x64) ![0, 0] S64x64.size inb_S64x64_S64x64_0_0).toLoadRect f5)⟩]); isplitr; · ipureintro; rfl
    iexact G13
  isplitl [G14]
  · iexists ((st1_14 t0).view.read (Elt F) ((st1_14 t0).view.writes (Elt F) f14 [⟨(Rect.unit (s := S4x64) ![0, 0] S4x64.size inb_S4x64_S4x64_0_0), k1_pay4 (View.readAt (Elt F) (st1_2 t0).view (Rect.unit (s := S4x64) ![0, 0] S4x64.size inb_S4x64_S4x64_0_0).toLoadRect f2) (View.readAt (Elt F) (st1_6 t0).view (Rect.unit (s := S64x64) ![0, 0] S64x64.size inb_S64x64_S64x64_0_0).toLoadRect f6)⟩])); isplitr
    · ipureintro
      refine (read_writes_unit0 _ _ _ _).trans ?_
      exact (congr (congrArg _ ((readAt_unit0 _ _ _).trans (e2.trans hin2))) ((readAt_unit0 _ _ _).trans (e6.trans hin6)))
    iexists ((st1_14 t0).view.writes (Elt F) f14 [⟨(Rect.unit (s := S4x64) ![0, 0] S4x64.size inb_S4x64_S4x64_0_0), k1_pay4 (View.readAt (Elt F) (st1_2 t0).view (Rect.unit (s := S4x64) ![0, 0] S4x64.size inb_S4x64_S4x64_0_0).toLoadRect f2) (View.readAt (Elt F) (st1_6 t0).view (Rect.unit (s := S64x64) ![0, 0] S64x64.size inb_S64x64_S64x64_0_0).toLoadRect f6)⟩]); isplitr; · ipureintro; rfl
    iexact G14
  isplitl [G15]
  · iexists ((st1_15 t0).view.read (Elt F) ((st1_15 t0).view.writes (Elt F) f15 [⟨(Rect.unit (s := S64x64) ![0, 0] S64x64.size inb_S64x64_S64x64_0_0), k1_pay5 (View.readAt (Elt F) (st1_3 t0).view (Rect.unit (s := S64x64) ![0, 0] S64x64.size inb_S64x64_S64x64_0_0).toLoadRect f3) (View.readAt (Elt F) (st1_7 t0).view (Rect.unit (s := S64x64) ![0, 0] S64x64.size inb_S64x64_S64x64_0_0).toLoadRect f7)⟩])); isplitr
    · ipureintro
      refine (read_writes_unit0 _ _ _ _).trans ?_
      exact (congr (congrArg _ ((readAt_unit0 _ _ _).trans (e3.trans hin3))) ((readAt_unit0 _ _ _).trans (e7.trans hin7)))
    iexists ((st1_15 t0).view.writes (Elt F) f15 [⟨(Rect.unit (s := S64x64) ![0, 0] S64x64.size inb_S64x64_S64x64_0_0), k1_pay5 (View.readAt (Elt F) (st1_3 t0).view (Rect.unit (s := S64x64) ![0, 0] S64x64.size inb_S64x64_S64x64_0_0).toLoadRect f3) (View.readAt (Elt F) (st1_7 t0).view (Rect.unit (s := S64x64) ![0, 0] S64x64.size inb_S64x64_S64x64_0_0).toLoadRect f7)⟩]); isplitr; · ipureintro; rfl
    iexact G15
  isplitl [G16]
  · iexists ((st1_16 t0).view.read (Elt F) ((st1_16 t0).view.writes (Elt F) f16 [⟨(Rect.unit (s := S1x64) ![0, 0] S1x64.size inb_S1x64_S1x64_0_0), k1_pay6 (View.readAt (Elt F) (st1_9 t0).view (Rect.unit (s := S1x64) ![0, 0] S1x64.size inb_S1x64_S1x64_0_0).toLoadRect f9) (View.readAt (Elt F) (st1_8 t0).view (Rect.unit (s := S64x64) ![0, 0] S64x64.size inb_S64x64_S64x64_0_0).toLoadRect f8)⟩])); isplitr
    · ipureintro
      refine (read_writes_unit0 _ _ _ _).trans ?_
      exact (congr (congrArg _ ((readAt_unit0 _ _ _).trans (e9.trans hin9))) ((readAt_unit0 _ _ _).trans (e8.trans hin8)))
    iexists ((st1_16 t0).view.writes (Elt F) f16 [⟨(Rect.unit (s := S1x64) ![0, 0] S1x64.size inb_S1x64_S1x64_0_0), k1_pay6 (View.readAt (Elt F) (st1_9 t0).view (Rect.unit (s := S1x64) ![0, 0] S1x64.size inb_S1x64_S1x64_0_0).toLoadRect f9) (View.readAt (Elt F) (st1_8 t0).view (Rect.unit (s := S64x64) ![0, 0] S64x64.size inb_S64x64_S64x64_0_0).toLoadRect f8)⟩]); isplitr; · ipureintro; rfl
    iexact G16
  iexists ((st1_17 t0).view.read (Elt F) ((st1_17 t0).view.writes (Elt F) f17 [⟨(Rect.unit (s := S1x64) ![0, 0] S1x64.size inb_S1x64_S1x64_0_0), k1_pay1 (View.readAt (Elt F) (st1_10 t0).view (Rect.unit (s := S1x64) ![0, 0] S1x64.size inb_S1x64_S1x64_0_0).toLoadRect f10) (View.readAt (Elt F) (st1_8 t0).view (Rect.unit (s := S64x64) ![0, 0] S64x64.size inb_S64x64_S64x64_0_0).toLoadRect f8) (View.readAt (Elt F) (st1_11 t0).view (Rect.unit (s := S1x64) ![0, 0] S1x64.size inb_S1x64_S1x64_0_0).toLoadRect f11)⟩])); isplitr
  · ipureintro
    refine (read_writes_unit0 _ _ _ _).trans ?_
    exact (congr (congr (congrArg _ ((readAt_unit0 _ _ _).trans (e10.trans hin10))) ((readAt_unit0 _ _ _).trans (e8.trans hin8))) ((readAt_unit0 _ _ _).trans (e11.trans hin11)))
  iexists ((st1_17 t0).view.writes (Elt F) f17 [⟨(Rect.unit (s := S1x64) ![0, 0] S1x64.size inb_S1x64_S1x64_0_0), k1_pay1 (View.readAt (Elt F) (st1_10 t0).view (Rect.unit (s := S1x64) ![0, 0] S1x64.size inb_S1x64_S1x64_0_0).toLoadRect f10) (View.readAt (Elt F) (st1_8 t0).view (Rect.unit (s := S64x64) ![0, 0] S64x64.size inb_S64x64_S64x64_0_0).toLoadRect f8) (View.readAt (Elt F) (st1_11 t0).view (Rect.unit (s := S1x64) ![0, 0] S1x64.size inb_S1x64_S1x64_0_0).toLoadRect f11)⟩]); isplitr; · ipureintro; rfl
  iexact G17

end Cert.Proof.Region

end
-- ==== Proof.RegionValExit.lean ====
/-
  The first TensorCore region with its values: the exit. After the one write-back each result array is its block
  overwritten by what the body left; the other arrays are as at the entry.
-/
import proofs.«211833_g48473000902786_cont_8to1_c_597_31_alg».proof.Proof.RegionValDefs

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig (HIx 1) (Elt F) ℕ UU ℕ

variable (W : Valuation τ sig (Elt F))

/-! ## The exit: what the result arrays hold -/

theorem arrAt_out (d : Dev nD) (w : Fin 18) (hfl : (cfg1.win w).flush t0 = true) (Fw) (h : (rdat1V W d).ArrAt w 1 Fw) :
    ∃ Y X, (rdat1V W d).Finds w t0 Y ∧ after1V W d w t0 Y X
      ∧ Fw = ((cfg1.win w).blk t0).view.write (Elt F) ((rdat1V W d).A w) ((cfg1.win w).cut (cfg1.grid.coords t0) X) Finset.univ := by
  have e : (rdat1V W d).ArrAt w 1 = (rdat1V W d).ArrStep w t0 (fun G => G = (rdat1V W d).A w) := by
    show (if h : 0 < cfg1.N then if (cfg1.win w).flush ⟨0, h⟩ then (rdat1V W d).ArrStep w ⟨0, h⟩ ((rdat1V W d).ArrAt w 0) else (rdat1V W d).ArrAt w 0 else (rdat1V W d).ArrAt w 0) = _
    rw [dif_pos (by decide : 0 < cfg1.N), if_pos hfl]; rfl
  rw [e] at h
  obtain ⟨G₀, X, rfl, ⟨Y, hY, hYX⟩, hF⟩ := h
  exact ⟨Y, X, hY, hYX, hF⟩

theorem arrAt_res12 (d : Dev nD) (Fw) (h : (rdat1V W d).ArrAt 12 1 Fw) : Fw = resV W d 12 := by
  obtain ⟨Y, X, -, hX, hF⟩ := arrAt_out W d 12 rfl Fw h
  have hX' : X = payV W d 12 := hX
  rw [hF, hX']; rfl
theorem arrAt_res13 (d : Dev nD) (Fw) (h : (rdat1V W d).ArrAt 13 1 Fw) : Fw = resV W d 13 := by
  obtain ⟨Y, X, -, hX, hF⟩ := arrAt_out W d 13 rfl Fw h
  have hX' : X = payV W d 13 := hX
  rw [hF, hX']; rfl
theorem arrAt_res14 (d : Dev nD) (Fw) (h : (rdat1V W d).ArrAt 14 1 Fw) : Fw = resV W d 14 := by
  obtain ⟨Y, X, -, hX, hF⟩ := arrAt_out W d 14 rfl Fw h
  have hX' : X = payV W d 14 := hX
  rw [hF, hX']; rfl
theorem arrAt_res15 (d : Dev nD) (Fw) (h : (rdat1V W d).ArrAt 15 1 Fw) : Fw = resV W d 15 := by
  obtain ⟨Y, X, -, hX, hF⟩ := arrAt_out W d 15 rfl Fw h
  have hX' : X = payV W d 15 := hX
  rw [hF, hX']; rfl
theorem arrAt_res16 (d : Dev nD) (Fw) (h : (rdat1V W d).ArrAt 16 1 Fw) : Fw = resV W d 16 := by
  obtain ⟨Y, X, -, hX, hF⟩ := arrAt_out W d 16 rfl Fw h
  have hX' : X = payV W d 16 := hX
  rw [hF, hX']; rfl
theorem arrAt_res17 (d : Dev nD) (Fw) (h : (rdat1V W d).ArrAt 17 1 Fw) : Fw = resV W d 17 := by
  obtain ⟨Y, X, -, hX, hF⟩ := arrAt_out W d 17 rfl Fw h
  have hX' : X = payV W d 17 := hX
  rw [hF, hX']; rfl

theorem share1V (d : Dev nD) (w : Fin 18) : (rdat1V W d).share w = q1 w := by
  fin_cases w <;> rfl

theorem arraysAt1V_eq (d : Dev nD) (k : ℕ) :
    ((rdat1V W d).arraysAt k : sProp 𝕄)
      = bigSep Finset.univ fun w => iprop(∃ Fw, ⌜(rdat1V W d).ArrAt w k Fw⌝ ∗ (((d : Thread nD τ).loc (Pipeline.arrRef spec1 w)) ↦{q1 w} Fw : sProp 𝕄)) := by
  have harr : ∀ w, (cfg1.win w).arr.IsWhole := arr_whole1
  unfold RDat.arraysAt
  exact bigSep_congr fun w _ => by rw [(harr w).set_eq_univ, share1V]

set_option maxHeartbeats 4000000 in
/-- EXIT: the windows' arrays after the write-back are those buffers whole at a valuation that differs from the entry's at
    the results only, where it holds each result's block overwritten by what the body left. -/
theorem arrays1_exitV (d : Dev nD) : ((rdat1V W d).arraysAt 1 : sProp 𝕄)
    ⊢ iprop(∃ W' : Valuation τ sig (Elt F), ⌜∀ b, b ∉ outs1 → W' b = W b⌝
        ∗ ⌜resFacts W d W'⌝
        ∗ StableHlo.held (T d) arrs1 W') := by
  rw [arraysAt1V_eq, bigSep_W1]
  iintro ⟨⟨%F0, %h0, A0⟩, ⟨%F1, %h1, A1⟩, ⟨%F2, %h2, A2⟩, ⟨%F3, %h3, A3⟩, ⟨%F4, %h4, A4⟩, ⟨%F5, %h5, A5⟩, ⟨%F6, %h6, A6⟩, ⟨%F7, %h7, A7⟩, ⟨%F8, %h8, A8⟩, ⟨%F9, %h9, A9⟩, ⟨%F10, %h10, A10⟩, ⟨%F11, %h11, A11⟩, ⟨%F12, %h12, A12⟩, ⟨%F13, %h13, A13⟩, ⟨%F14, %h14, A14⟩, ⟨%F15, %h15, A15⟩, ⟨%F16, %h16, A16⟩, ⟨%F17, %h17, A17⟩⟩
  rw [(rdat1V W d).ArrAt_in 0 rfl] at h0; subst h0
  rw [(rdat1V W d).ArrAt_in 1 rfl] at h1; subst h1
  rw [(rdat1V W d).ArrAt_in 2 rfl] at h2; subst h2
  rw [(rdat1V W d).ArrAt_in 3 rfl] at h3; subst h3
  rw [(rdat1V W d).ArrAt_in 4 rfl] at h4; subst h4
  rw [(rdat1V W d).ArrAt_in 5 rfl] at h5; subst h5
  rw [(rdat1V W d).ArrAt_in 6 rfl] at h6; subst h6
  rw [(rdat1V W d).ArrAt_in 7 rfl] at h7; subst h7
  rw [(rdat1V W d).ArrAt_in 8 rfl] at h8; subst h8
  rw [(rdat1V W d).ArrAt_in 9 rfl] at h9; subst h9
  rw [(rdat1V W d).ArrAt_in 10 rfl] at h10; subst h10
  rw [(rdat1V W d).ArrAt_in 11 rfl] at h11; subst h11
  obtain rfl := arrAt_res12 W d F12 h12
  obtain rfl := arrAt_res13 W d F13 h13
  obtain rfl := arrAt_res14 W d F14 h14
  obtain rfl := arrAt_res15 W d F15 h15
  obtain rfl := arrAt_res16 W d F16 h16
  obtain rfl := arrAt_res17 W d F17 h17
  ihave J4 := (pt_split4 (F := F)).2 $$ [A4 A5 A6 A7 A8]
  · isplitl [A4]; · iexact A4
    isplitl [A5]; · iexact A5
    isplitl [A6]; · iexact A6
    isplitl [A7]; · iexact A7
    iexact A8
  obtain ⟨W', hoff, e0, e1, e2, e3, e4, e5⟩ := upd_facts1 W (resV W d 12) (resV W d 13) (resV W d 14) (resV W d 15) (resV W d 16) (resV W d 17)
  iexists W'
  isplitr; · ipureintro; exact hoff
  isplitr; · ipureintro; exact ⟨e0, e1, e2, e3, e4, e5⟩
  rw [held_arrs1]
  dsimp only [pr]
  rw [hoff (Proc.devRef .tc (main_arg8 : Ref sig .tc) : DevRef τ sig) (by decide),
    hoff (Proc.devRef .tc (main_arg10 : Ref sig .tc) : DevRef τ sig) (by decide),
    hoff (Proc.devRef .tc (main_arg12 : Ref sig .tc) : DevRef τ sig) (by decide),
    hoff (Proc.devRef .tc (main_arg13 : Ref sig .tc) : DevRef τ sig) (by decide),
    hoff (Proc.devRef .tc (main_arg17 : Ref sig .tc) : DevRef τ sig) (by decide),
    hoff (Proc.devRef .tc (main_arg15 : Ref sig .tc) : DevRef τ sig) (by decide),
    hoff (Proc.devRef .tc (main_v10 : Ref sig .tc) : DevRef τ sig) (by decide),
    hoff (Proc.devRef .tc (main_v11 : Ref sig .tc) : DevRef τ sig) (by decide),
    e0, e1, e2, e3, e4, e5]
  isplitl [A0]; · iexact A0
  isplitl [A1]; · iexact A1
  isplitl [A2]; · iexact A2
  isplitl [A3]; · iexact A3
  isplitl [J4]; · iexact J4
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  iexact A17

end Cert.Proof.Region

end
-- ==== Proof.RegionValSeg.lean ====
/-
  The first TensorCore region with its values: the region as a segment of @main, and its step in the whole program.
-/
import proofs.«211833_g48473000902786_cont_8to1_c_597_31_alg».proof.Proof.RegionValBody
import proofs.«211833_g48473000902786_cont_8to1_c_597_31_alg».proof.Proof.RegionValExit

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig (HIx 1) (Elt F) ℕ UU ℕ

variable (W : Valuation τ sig (Elt F))

/-! ## The region over the thread state -/

set_option backward.isDefEq.respectTransparency.types false in
/-- The region as a segment of @main: entered from every unscoped buffer of the TensorCore whole at `W` and the core
    owing nothing; left with them at a valuation that differs from `W` at the region's results only. Nothing enters
    the invariant but the scoped buffers the pipeline does not stage; the kernel has no semaphore of its own. -/
def reg1V : Pipeline.RDat.RegionSeg (pcfgs (F := F)) adm (rdats1V W) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody d := body_obligation1V W d
  hwaits := Pipeline.RDat.hwaits_of_owed_zero _ _ _ _ _ _ 0 fun _ _ => rfl
  pre d := iprop(StableHlo.held (T d) (Pipeline.ucRefs τ sig) W ∗ owesT (F := F) d)
  post d := iprop(∃ W' : Valuation τ sig (Elt F), ⌜∀ b, b ∉ outs1 → W' b = W b⌝ ∗ ⌜resFacts W d W'⌝ ∗ StableHlo.held (T d) (Pipeline.ucRefs τ sig) W' ∗ owesT (F := F) d)
  X _ := BI.emp
  Y _ := BI.emp
  Z d := StableHlo.held (T d) (Pipeline.ucRefs τ sig \ arrs1) W
  hentry d := by
    rw [Pipeline.ownSems0_none, StableHlo.held_sub_split (T d) arrs1_sub W]
    iintro ⟨⟨⟨Ha, Hrest⟩, HO⟩, -, -⟩
    imodintro
    isplitl [Ha]; · iapply (arrays1V_entry W d); iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%Wt, %hWt, HO⟩; iexists Wt; isplitr
      · ipureintro; exact fun q hq => Or.inl (hWt q (Finset.mem_coe.mp hq))
      iexact HO
    isplitr; · iempintro
    iexact Hrest
  hin d := by
    rw [show (rdats1V W 0 d).Φ 0 = Φc1 d from rfl]
    iintro ⟨-, -, Hr⟩; iexact Hr
  hout d := by
    rw [Pipeline.ownSems0_none, show (rdats1V W 0 d).Φ (Fin.last _) = Φc1 d from rfl]
    iintro Hr
    isplitr; · iempintro
    isplitr; · iempintro
    iexact Hr
  hexit d := by
    have hx : ((rdats1V W 0 d).arraysAt (Pipeline.pin (pcfgs (F := F)) adm 0).N : sProp 𝕄)
        ⊢ iprop(∃ W' : Valuation τ sig (Elt F), ⌜∀ b, b ∉ outs1 → W' b = W b⌝ ∗ ⌜resFacts W d W'⌝ ∗ StableHlo.held (T d) arrs1 W') := arrays1_exitV W d
    iintro ⟨Ha, HO, -, Hrest⟩
    ihave Ha' := hx $$ Ha
    icases Ha' with ⟨%W', %hW', %hR, Ha⟩
    imodintro
    iexists W'
    isplitr; · ipureintro; exact hW'
    isplitr; · ipureintro; exact hR
    isplitl [Ha Hrest]
    · rw [StableHlo.held_sub_split (T d) arrs1_sub W',
        StableHlo.held_congr (T d) (V := W') (V' := W) fun b hb => hW' b fun h => (Finset.mem_sdiff.mp hb).2 (outs1_sub h)]
      isplitl [Ha] <;> iassumption
    unfold RDat.owesAt Pipeline.owesWithin
    icases HO with ⟨%Wt, %hWt, HO⟩; iexists Wt; isplitr
    · ipureintro; intro q hq
      rcases hWt (Finset.mem_coe.mpr hq) with h | ⟨w, s, rfl⟩
      · exact h
      · exact Nat.zero_le _
    iexact HO

/-! ## The region's step inside @main of the whole program -/

/-- What the region's step leaves: the TensorCore's state, the boundary, the buffers at a valuation that differs from
    `W` at the region's results only, where it holds each result's block overwritten by what the body left. -/
abbrev postR1V (d : Dev nD) : PUnit → sProp 𝕄 := fun _ =>
  iprop(∃ W' : Valuation τ sig (Elt F), ⌜∀ b, b ∉ outs1 → W' b = W b⌝ ∗ ⌜resFacts W d W'⌝
    ∗ (K (F := F)).tcSt EH d 1 ∗ boundary (T d) ∗ StableHlo.held (T d) (Pipeline.ucRefs τ sig) W')

set_option backward.isDefEq.respectTransparency.types false in
/-- Region 0 on device `d`'s TensorCore, after the SparseCore call: from the handshakes' records, the TensorCore's
    state after the call, the region boundary, every unscoped buffer whole at `W` and the region's staging cells' ghost
    state, the region's call runs to the same with the buffers at a valuation that differs from `W` at its results only. -/
theorem region_wp0V (P : (K (F := F)).Pay (nD := nD) (Val := Elt F) (Name := ℕ) (U := UU)) (κ : GSem nD τ sig → ℕ) (d : Dev nD)
    [∀ e, Nonempty (Elt F e)] :
    iprop((K (F := F)).ctx EH P κ ∗ (K (F := F)).tcSt EH d 1 ∗ boundary (T d) ∗ StableHlo.held (T d) (Pipeline.ucRefs τ sig) W ∗ Gp (F := F) 0 d)
      ⊢ wp frame (wpE ((K (F := F)).defs (D (F := F))) 𝒱 (T d) none) Set.univ
          (Prog.lift (.customCall (SparseCore.inner (Pipeline.entry 0)) ()))
          (postR1V W d) := by
  rw [entry_lift0]
  refine BIBase.Entails.trans ?_ ((K (F := F)).wp_liftProg (D (F := F)) 𝒱 (T d) Set.univ none
    (Prog.lift (.customCall (Pipeline.entry 0) ())) (postR1V W d))
  unfold postR1V SparseCore.Cfg.tcSt Gp
  rw [(K (F := F)).Otc_end d (le_refl 1)]
  iintro ⟨#Hctx, ⟨HO, Hst⟩, Hb, Hheld, Hg, Ht⟩
  ihave #Hla := (SparseCore.Cfg.ctx_levAts κ) $$ Hctx
  iapply (Pipeline.RDat.RegionSeg.wp (pcfgs (F := F)) adm (rdats1V W) (none : HIx 1) phinj EP defs₀ 𝒱₀ (K (F := F)).L (K (F := F)).lev
    (reg1V W) d none (fun u h => nomatch h) (fun x => .ret x) _)
  rw [show (reg1V W).pre d = iprop(StableHlo.held (T d) (Pipeline.ucRefs τ sig) W ∗ owesT (F := F) d) from rfl,
    show (reg1V W).post d = iprop(∃ W' : Valuation τ sig (Elt F), ⌜∀ b, b ∉ outs1 → W' b = W b⌝ ∗ ⌜resFacts W d W'⌝
      ∗ StableHlo.held (T d) (Pipeline.ucRefs τ sig) W' ∗ owesT (F := F) d) from rfl]
  isplitl [Hst]
  · iintro ⟨Hb, %W', %hW', %hR, Hheld, HO⟩
    rw [wp_ret]; imodintro
    iexists W'
    isplitr; · ipureintro; exact hW'
    isplitr; · ipureintro; exact hR
    isplitl [HO Hst]; · isplitl [HO] <;> iassumption
    isplitl [Hb] <;> iassumption
  isplitl [Hb]; · iexact Hb
  isplitl [Hheld HO]; · isplitl [Hheld] <;> iassumption
  isplitr; · iexact Hla
  isplitl [Hg] <;> iassumption

end Cert.Proof.Region

end
-- ==== Proof.RegionValMatch.lean ====
/-
  The first TensorCore region's results, read as plain functions of the arrays the region is entered with.

  An uncut window's fetched block is the array read at the block's offset, so a window on a whole array holds the
  array, and a window on rows [64 r, 64 r + 64) of the final weights holds those rows; a write-back through a window on
  a whole array leaves the array at what was written.
-/
import proofs.«211833_g48473000902786_cont_8to1_c_597_31_alg».proof.Proof.RegionValDefs
import proofs.«211833_g48473000902786_cont_8to1_c_597_31_alg».proof.Proof.KerMatch

noncomputable section

namespace Cert.Proof.Region

open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay)
open Idealize.SL.Sem
open Idealize.ShloMosaic.Pipeline (RDat)
open Cert.Proof.KI (rr wblk R0c)

variable (W : Valuation τ sig (Elt Idealize.ShloMosaic.Ideal)) (d : Dev nD)

/-! ## The operand windows -/

theorem inV_0 : inV W d 0 = W (rr main_arg8) := funext fun j => by
  refine ((cfg1.win 0).fill_xinj (cfg1.grid.coords t0) _ _ j).trans ?_
  rw [View.read_apply, cast_eq]
  exact congrArg (W (rr main_arg8)) (funext fun a => Fin.ext (by
      fin_cases a
      · show 0 * 16 + 1 * (j 0).val = _; simp
      · show 0 * 64 + 1 * (j 1).val = _; simp))
theorem inV_1 : inV W d 1 = W (rr main_arg10) := funext fun j => by
  refine ((cfg1.win 1).fill_xinj (cfg1.grid.coords t0) _ _ j).trans ?_
  rw [View.read_apply, cast_eq]
  exact congrArg (W (rr main_arg10)) (funext fun a => Fin.ext (by
      fin_cases a
      · show 0 * 400 + 1 * (j 0).val = _; simp
      · show 0 * 64 + 1 * (j 1).val = _; simp))
theorem inV_2 : inV W d 2 = W (rr main_arg12) := funext fun j => by
  refine ((cfg1.win 2).fill_xinj (cfg1.grid.coords t0) _ _ j).trans ?_
  rw [View.read_apply, cast_eq]
  exact congrArg (W (rr main_arg12)) (funext fun a => Fin.ext (by
      fin_cases a
      · show 0 * 4 + 1 * (j 0).val = _; simp
      · show 0 * 64 + 1 * (j 1).val = _; simp))
theorem inV_3 : inV W d 3 = W (rr main_arg13) := funext fun j => by
  refine ((cfg1.win 3).fill_xinj (cfg1.grid.coords t0) _ _ j).trans ?_
  rw [View.read_apply, cast_eq]
  exact congrArg (W (rr main_arg13)) (funext fun a => Fin.ext (by
      fin_cases a
      · show 0 * 64 + 1 * (j 0).val = _; simp
      · show 0 * 64 + 1 * (j 1).val = _; simp))
theorem inV_9 : inV W d 9 = W (rr main_arg15) := funext fun j => by
  refine ((cfg1.win 9).fill_xinj (cfg1.grid.coords t0) _ _ j).trans ?_
  rw [View.read_apply, cast_eq]
  exact congrArg (W (rr main_arg15)) (funext fun a => Fin.ext (by
      fin_cases a
      · show 0 * 1 + 1 * (j 0).val = _; simp
      · show 0 * 64 + 1 * (j 1).val = _; simp))
theorem inV_10 : inV W d 10 = W (rr main_v10) := funext fun j => by
  refine ((cfg1.win 10).fill_xinj (cfg1.grid.coords t0) _ _ j).trans ?_
  rw [View.read_apply, cast_eq]
  exact congrArg (W (rr main_v10)) (funext fun a => Fin.ext (by
      fin_cases a
      · show 0 * 1 + 1 * (j 0).val = _; simp
      · show 0 * 64 + 1 * (j 1).val = _; simp))
theorem inV_11 : inV W d 11 = W (rr main_v11) := funext fun j => by
  refine ((cfg1.win 11).fill_xinj (cfg1.grid.coords t0) _ _ j).trans ?_
  rw [View.read_apply, cast_eq]
  exact congrArg (W (rr main_v11)) (funext fun a => Fin.ext (by
      fin_cases a
      · show 0 * 1 + 1 * (j 0).val = _; simp
      · show 0 * 64 + 1 * (j 1).val = _; simp))

theorem inV_4 : inV W d 4 = wblk (W (rr main_arg17)) 0 (by norm_num) := funext fun j => by
  refine ((cfg1.win 4).fill_xinj (cfg1.grid.coords t0) _ _ j).trans ?_
  rw [View.read_apply, cast_eq]
  refine congrArg (W (rr main_arg17)) (funext fun a => Fin.ext ?_)
  fin_cases a
  · show 0 * 64 + 1 * (j 0).val = (j 0).val + 0; omega
  · show 0 * 64 + 1 * (j 1).val = (j 1).val; omega
theorem inV_5 : inV W d 5 = wblk (W (rr main_arg17)) 128 (by norm_num) := funext fun j => by
  refine ((cfg1.win 5).fill_xinj (cfg1.grid.coords t0) _ _ j).trans ?_
  rw [View.read_apply, cast_eq]
  refine congrArg (W (rr main_arg17)) (funext fun a => Fin.ext ?_)
  fin_cases a
  · show 2 * 64 + 1 * (j 0).val = (j 0).val + 128; omega
  · show 0 * 64 + 1 * (j 1).val = (j 1).val; omega
theorem inV_6 : inV W d 6 = wblk (W (rr main_arg17)) 256 (by norm_num) := funext fun j => by
  refine ((cfg1.win 6).fill_xinj (cfg1.grid.coords t0) _ _ j).trans ?_
  rw [View.read_apply, cast_eq]
  refine congrArg (W (rr main_arg17)) (funext fun a => Fin.ext ?_)
  fin_cases a
  · show 4 * 64 + 1 * (j 0).val = (j 0).val + 256; omega
  · show 0 * 64 + 1 * (j 1).val = (j 1).val; omega
theorem inV_7 : inV W d 7 = wblk (W (rr main_arg17)) 320 (by norm_num) := funext fun j => by
  refine ((cfg1.win 7).fill_xinj (cfg1.grid.coords t0) _ _ j).trans ?_
  rw [View.read_apply, cast_eq]
  refine congrArg (W (rr main_arg17)) (funext fun a => Fin.ext ?_)
  fin_cases a
  · show 5 * 64 + 1 * (j 0).val = (j 0).val + 320; omega
  · show 0 * 64 + 1 * (j 1).val = (j 1).val; omega
theorem inV_8 : inV W d 8 = wblk (W (rr main_arg17)) 448 (by norm_num) := funext fun j => by
  refine ((cfg1.win 8).fill_xinj (cfg1.grid.coords t0) _ _ j).trans ?_
  rw [View.read_apply, cast_eq]
  refine congrArg (W (rr main_arg17)) (funext fun a => Fin.ext ?_)
  fin_cases a
  · show 7 * 64 + 1 * (j 0).val = (j 0).val + 448; omega
  · show 0 * 64 + 1 * (j 1).val = (j 1).val; omega

/-! ## The result windows -/

theorem resV_12 : resV W d 12 = payV W d 12 := funext fun i => by
  have he : ((cfg1.win 12).blk t0).view.emb i = i := funext fun a => Fin.ext (by
      fin_cases a
      · show 0 * 16 + 1 * (i 0).val = _; simp
      · show 0 * 64 + 1 * (i 1).val = _; simp)
  refine (congrArg (resV W d 12) he.symm).trans ?_
  refine (View.write_emb_of_mem _ _ (Finset.mem_univ i)).trans ?_
  rw [cast_eq]; rfl
theorem resV_13 : resV W d 13 = payV W d 13 := funext fun i => by
  have he : ((cfg1.win 13).blk t0).view.emb i = i := funext fun a => Fin.ext (by
      fin_cases a
      · show 0 * 400 + 1 * (i 0).val = _; simp
      · show 0 * 64 + 1 * (i 1).val = _; simp)
  refine (congrArg (resV W d 13) he.symm).trans ?_
  refine (View.write_emb_of_mem _ _ (Finset.mem_univ i)).trans ?_
  rw [cast_eq]; rfl
theorem resV_14 : resV W d 14 = payV W d 14 := funext fun i => by
  have he : ((cfg1.win 14).blk t0).view.emb i = i := funext fun a => Fin.ext (by
      fin_cases a
      · show 0 * 4 + 1 * (i 0).val = _; simp
      · show 0 * 64 + 1 * (i 1).val = _; simp)
  refine (congrArg (resV W d 14) he.symm).trans ?_
  refine (View.write_emb_of_mem _ _ (Finset.mem_univ i)).trans ?_
  rw [cast_eq]; rfl
theorem resV_15 : resV W d 15 = payV W d 15 := funext fun i => by
  have he : ((cfg1.win 15).blk t0).view.emb i = i := funext fun a => Fin.ext (by
      fin_cases a
      · show 0 * 64 + 1 * (i 0).val = _; simp
      · show 0 * 64 + 1 * (i 1).val = _; simp)
  refine (congrArg (resV W d 15) he.symm).trans ?_
  refine (View.write_emb_of_mem _ _ (Finset.mem_univ i)).trans ?_
  rw [cast_eq]; rfl
theorem resV_16 : resV W d 16 = payV W d 16 := funext fun i => by
  have he : ((cfg1.win 16).blk t0).view.emb i = i := funext fun a => Fin.ext (by
      fin_cases a
      · show 0 * 1 + 1 * (i 0).val = _; simp
      · show 0 * 64 + 1 * (i 1).val = _; simp)
  refine (congrArg (resV W d 16) he.symm).trans ?_
  refine (View.write_emb_of_mem _ _ (Finset.mem_univ i)).trans ?_
  rw [cast_eq]; rfl
theorem resV_17 : resV W d 17 = payV W d 17 := funext fun i => by
  have he : ((cfg1.win 17).blk t0).view.emb i = i := funext fun a => Fin.ext (by
      fin_cases a
      · show 0 * 1 + 1 * (i 0).val = _; simp
      · show 0 * 64 + 1 * (i 1).val = _; simp)
  refine (congrArg (resV W d 17) he.symm).trans ?_
  refine (View.write_emb_of_mem _ _ (Finset.mem_univ i)).trans ?_
  rw [cast_eq]; rfl

/-- The six result arrays the exit leaves are the concrete result functions of the entry contents. -/
theorem resFacts_R0c {W' : Valuation τ sig (Elt Idealize.ShloMosaic.Ideal)} (h : resFacts W d W') :
    ∀ b, b ∈ outs1 → W' b = R0c W b := by
  obtain ⟨h0, h1, h2, h3, h4, h5⟩ := h
  intro b hb
  unfold outs1 at hb
  simp only [Finset.mem_insert, Finset.mem_singleton] at hb
  rcases hb with rfl | rfl | rfl | rfl | rfl | rfl
  · rw [h0, resV_12, Cert.Proof.KI.R0c_v12_0]; show k1_pay2 (inV W d 0) (inV W d 4) = _; rw [inV_0, inV_4]
  · rw [h1, resV_13, Cert.Proof.KI.R0c_v12_1]; show k1_pay3 (inV W d 1) (inV W d 5) = _; rw [inV_1, inV_5]
  · rw [h2, resV_14, Cert.Proof.KI.R0c_v12_2]; show k1_pay4 (inV W d 2) (inV W d 6) = _; rw [inV_2, inV_6]
  · rw [h3, resV_15, Cert.Proof.KI.R0c_v12_3]; show k1_pay5 (inV W d 3) (inV W d 7) = _; rw [inV_3, inV_7]
  · rw [h4, resV_16, Cert.Proof.KI.R0c_v12_4]; show k1_pay6 (inV W d 9) (inV W d 8) = _; rw [inV_9, inV_8]
  · rw [h5, resV_17, Cert.Proof.KI.R0c_v12_5]; show k1_pay1 (inV W d 10) (inV W d 8) (inV W d 11) = _; rw [inV_10, inV_8, inV_11]

end Cert.Proof.Region

end
-- ==== Proof.RegionValue0.lean ====
/-
  The first TensorCore region leaves its six results at the concrete functions of the arrays it was entered with.
-/
import proofs.«211833_g48473000902786_cont_8to1_c_597_31_alg».proof.Proof.RegionValSeg
import proofs.«211833_g48473000902786_cont_8to1_c_597_31_alg».proof.Proof.RegionValMatch

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

set_option backward.isDefEq.respectTransparency.types false in
/-- The first region, in value form: entered with the unscoped arrays at `W`, it leaves them at a valuation that
    agrees with `W` off its six results and holds the concrete result functions of `W` there. -/
theorem region0_value (m : (ℓ : Loc nD τ sig) → Buf (Elt Idealize.ShloMosaic.Ideal) ℓ) : RegionValue0 m R0c := by
  intro W κ d
  refine (Cert.Proof.Region.region_wp0V W (PV (Wc m)) κ d).trans (wp_mono Idealize.ShloMosaic.frame _ Set.univ fun _ => ?_)
  iintro ⟨%W', %hoff, %hR, H⟩
  iexists W'
  isplitr; · ipureintro; exact hoff
  isplitr; · ipureintro; exact Cert.Proof.Region.resFacts_R0c W d hR
  iexact H

end Cert.Proof.KI

end
-- ==== Proof.RegionBody2V.lean ====
/-
  The second TensorCore region's kernel body run on any staging buffers, with what it stores named: the result buffer
  ends as its prior contents overwritten, on its whole rectangle, by the nine-term sum of what the operand buffers held.
-/
import proofs.«211833_g48473000902786_cont_8to1_c_597_31_alg».proof.Proof.RegionSetup
import proofs.«211833_g48473000902786_cont_8to1_c_597_31_alg».proof.Proof.Gen.KernelIdeal.Skeleton
import Idealize.ShloMosaic.Lib.Tactic

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- The body of the second region on any eighteen whole staging buffers held whole at contents `f₁ … f₁₈`: it runs to its
    return, hands the seventeen operand buffers back as they were, and the result buffer at its prior contents overwritten on
    the whole rectangle by the nine-term sum of what the operand buffers held: the bias row plus the feature column times
    the projection row, three products of a gathered block with a weight block stacked twice, and four products of a
    one-hot block with a precomputed table. -/
theorem run2V (c : Dev nD) (i : grid2.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S2048x1 .i32) (h4 : a4.IsWhole) (a5 : Memref sig .tc .vmem S2048x1 .i32) (h5 : a5.IsWhole) (a6 : Memref sig .tc .vmem S2048x1 .i32) (h6 : a6.IsWhole) (a7 : Memref sig .tc .vmem S2048x1 .i32) (h7 : a7.IsWhole) (a8 : Memref sig .tc .vmem S2048x1 .f32) (h8 : a8.IsWhole) (a9 : Memref sig .tc .vmem S64x64 .f32) (h9 : a9.IsWhole) (a10 : Memref sig .tc .vmem S64x64 .f32) (h10 : a10.IsWhole) (a11 : Memref sig .tc .vmem S64x64 .f32) (h11 : a11.IsWhole) (a12 : Memref sig .tc .vmem S16x64 .f32) (h12 : a12.IsWhole) (a13 : Memref sig .tc .vmem S400x64 .f32) (h13 : a13.IsWhole) (a14 : Memref sig .tc .vmem S4x64 .f32) (h14 : a14.IsWhole) (a15 : Memref sig .tc .vmem S64x64 .f32) (h15 : a15.IsWhole) (a16 : Memref sig .tc .vmem S1x64 .f32) (h16 : a16.IsWhole) (a17 : Memref sig .tc .vmem S1x64 .f32) (h17 : a17.IsWhole) (a18 : Memref sig .tc .vmem S2048x64 .f32) (h18 : a18.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18
        ∗ (iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17
          ∗ pt c a18 (a18.view.writes (Elt F) f18 [⟨(Rect.unit (s := S2048x64) ![0, 0] S2048x64.size inb_S2048x64_S2048x64_0_0), k2_pay1 (k2_pay3 (k2_pay2 (View.readAt (Elt F) a17.view (Rect.unit (s := S1x64) ![0, 0] S1x64.size inb_S1x64_S1x64_0_0).toLoadRect f17) (View.readAt (Elt F) a8.view (Rect.unit (s := S2048x1) ![0, 0] S2048x1.size inb_S2048x1_S2048x1_0_0).toLoadRect f8) (View.readAt (Elt F) a16.view (Rect.unit (s := S1x64) ![0, 0] S1x64.size inb_S1x64_S1x64_0_0).toLoadRect f16) (View.readAt (Elt F) a9.view (Rect.unit (s := S64x64) ![0, 0] S64x64.size inb_S64x64_S64x64_0_0).toLoadRect f9) (View.readAt (Elt F) a9.view (Rect.unit (s := S64x64) ![0, 0] S64x64.size inb_S64x64_S64x64_0_0).toLoadRect f9) (View.readAt (Elt F) a10.view (Rect.unit (s := S64x64) ![0, 0] S64x64.size inb_S64x64_S64x64_0_0).toLoadRect f10) (View.readAt (Elt F) a10.view (Rect.unit (s := S64x64) ![0, 0] S64x64.size inb_S64x64_S64x64_0_0).toLoadRect f10) (View.readAt (Elt F) a11.view (Rect.unit (s := S64x64) ![0, 0] S64x64.size inb_S64x64_S64x64_0_0).toLoadRect f11) (View.readAt (Elt F) a11.view (Rect.unit (s := S64x64) ![0, 0] S64x64.size inb_S64x64_S64x64_0_0).toLoadRect f11) (View.readAt (Elt F) a1.view (Rect.unit (s := S2048x128) ![0, 0] S2048x128.size inb_S2048x128_S2048x128_0_0).toLoadRect f1) (View.readAt (Elt F) a2.view (Rect.unit (s := S2048x128) ![0, 0] S2048x128.size inb_S2048x128_S2048x128_0_0).toLoadRect f2) (View.readAt (Elt F) a3.view (Rect.unit (s := S2048x128) ![0, 0] S2048x128.size inb_S2048x128_S2048x128_0_0).toLoadRect f3)) (View.readAt (Elt F) a4.view (Rect.unit (s := S2048x1) ![0, 0] S2048x1.size inb_S2048x1_S2048x1_0_0).toLoadRect f4) (View.readAt (Elt F) a12.view (Rect.unit (s := S16x64) ![0, 0] S16x64.size inb_S16x64_S16x64_0_0).toLoadRect f12) (View.readAt (Elt F) a5.view (Rect.unit (s := S2048x1) ![0, 0] S2048x1.size inb_S2048x1_S2048x1_0_0).toLoadRect f5) (View.readAt (Elt F) a13.view (Rect.unit (s := S400x64) ![0, 0] S400x64.size inb_S400x64_S400x64_0_0).toLoadRect f13) (View.readAt (Elt F) a6.view (Rect.unit (s := S2048x1) ![0, 0] S2048x1.size inb_S2048x1_S2048x1_0_0).toLoadRect f6) (View.readAt (Elt F) a14.view (Rect.unit (s := S4x64) ![0, 0] S4x64.size inb_S4x64_S4x64_0_0).toLoadRect f14)) (k2_pay4 (View.readAt (Elt F) a15.view (Rect.unit (s := S64x64) ![0, 0] S64x64.size inb_S64x64_S64x64_0_0).toLoadRect f15)) (k2_pay5 (View.readAt (Elt F) a7.view (Rect.unit (s := S2048x1) ![0, 0] S2048x1.size inb_S2048x1_S2048x1_0_0).toLoadRect f7))⟩])) -∗ Q ⟨⟩))
      ⊢ wp frame (wpE (defs₀ (F := F)) 𝒱₀ (c : Thread nD τ) none) Set.univ (cc2__tc_body i a1 h1 a2 h2 a3 h3 a4 h4 a5 h5 a6 h6 a7 h7 a8 h8 a9 h9 a10 h10 a11 h11 a12 h12 a13 h13 a14 h14 a15 h15 a16 h16 a17 h17 a18 h18) Q := by
  iintro ⟨H1, H2, H3, H4, H5, H6, H7, H8, H9, H10, H11, H12, H13, H14, H15, H16, H17, H18, Hk⟩
  sl_unfold [cc2__tc_body]
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Proof.Region

end
-- ==== Proof.RegionVal2Defs.lean ====
/-
  The second TensorCore region with its values: the data.

  The region has eight grid points. At each, every operand window's staging buffer holds the block of its array
  that a fetch there brings (fetched there or, for a window whose block does not move, earlier: the body leaves an
  operand buffer as it found it); the body leaves in the result window's buffer a named function of those blocks; the
  write-back overwrites the result array's block of that point with it.
-/
import proofs.«211833_g48473000902786_cont_8to1_c_597_31_alg».proof.Proof.RegionProject
import proofs.«211833_g48473000902786_cont_8to1_c_597_31_alg».proof.Proof.RegionBody2V
import proofs.«211833_g48473000902786_cont_8to1_c_597_31_alg».proof.Proof.RegionValDefs
import Idealize.ShloMosaic.Lib.Pipeline.FrameBody

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig (HIx 1) (Elt F) ℕ UU ℕ

variable (W : Valuation τ sig (Elt F))

theorem N2 : cfg2.N = 8 := rfl

/-- What operand window `w`'s staging buffer holds when the body runs at point `t`: the array's block there. -/
def inV2 (d : Dev nD) (w : Fin 18) (t : Fin cfg2.N) : (cfg2.win w).block.Idx → Elt F (cfg2.win w).elt :=
  (cfg2.win w).fill (cfg2.grid.coords t) (fun _ => Classical.arbitrary _) (((cfg2.win w).blk t).view.read (Elt F) ((rdat2 W d).A w))

/-- What the body leaves in the result window's staging buffer at point `t`. -/
def pay2V (d : Dev nD) (t : Fin cfg2.N) : (cfg2.win 17).block.Idx → Elt F (cfg2.win 17).elt :=
  k2_pay1 (F := F) (k2_pay3 (k2_pay2 (inV2 W d 16 t) (inV2 W d 7 t) (inV2 W d 15 t) (inV2 W d 8 t) (inV2 W d 8 t) (inV2 W d 9 t) (inV2 W d 9 t) (inV2 W d 10 t) (inV2 W d 10 t) (inV2 W d 0 t) (inV2 W d 1 t) (inV2 W d 2 t)) (inV2 W d 3 t) (inV2 W d 11 t) (inV2 W d 4 t) (inV2 W d 12 t) (inV2 W d 5 t) (inV2 W d 13 t)) (k2_pay4 (inV2 W d 14 t)) (k2_pay5 (F := F) (inV2 W d 6 t))

/-- The body leaves an operand buffer as it found it, and the result buffer at the named function. -/
def after2V (d : Dev nD) : (w : Fin 18) → Fin cfg2.N → (Y X : (cfg2.win w).block.Idx → Elt F (cfg2.win w).elt) → Prop
  | ⟨17, _⟩, t, _, X => X = pay2V W d t
  | _, _, Y, X => X = Y

def rdat2V (d : Dev nD) : RDat τ (Elt F) (HIx 1) ℕ UU ℕ cfg2 d := { rdat2 W d with after := after2V W d }

/-- An uncut operand window holds its array's block at every point, fetched there or not. -/
theorem finds_in2 (d : Dev nD) (w : Fin 18) (hw : (cfg2.win w).isOut = false)
    (hc : ∀ (t : Fin cfg2.N) a, (cfg2.win w).clip (cfg2.grid.coords t) a = none)
    (hkeep : ∀ t Y X, after2V W d w t Y X → X = Y)
    (t : Fin cfg2.N) (Y : (cfg2.win w).block.Idx → Elt F (cfg2.win w).elt) (h : (rdat2V W d).Finds w t Y) : Y = inV2 W d w t := by
  obtain ⟨d', hd'⟩ := Pipeline.RDat.finds_in_eq_fetched (rdat2V W d) w hw
    (fun t t' _ => funext fun a => (hc t a).trans (hc t' a).symm) hkeep t Y h
  rw [hd']
  exact Pipeline.fill_of_clip_none w (cfg2.grid.coords t) (hc t) d' _ _

/-- The result array after the write-back of point `t`, from what it held before. -/
def resStep (d : Dev nD) (t : Fin cfg2.N) (G : Buf (Elt F) ((cfg2.win 17).arr.view.loc (d : Thread nD τ))) :
    Buf (Elt F) ((cfg2.win 17).arr.view.loc (d : Thread nD τ)) :=
  ((cfg2.win 17).blk t).view.write (Elt F) G ((cfg2.win 17).cut (cfg2.grid.coords t) (pay2V W d t)) Finset.univ

/-- The result array after the eight write-backs. -/
def resV2 (d : Dev nD) : Buf (Elt F) ((cfg2.win 17).arr.view.loc (d : Thread nD τ)) :=
  resStep W d ⟨7, by decide⟩ (resStep W d ⟨6, by decide⟩ (resStep W d ⟨5, by decide⟩ (resStep W d ⟨4, by decide⟩
    (resStep W d ⟨3, by decide⟩ (resStep W d ⟨2, by decide⟩ (resStep W d ⟨1, by decide⟩ (resStep W d ⟨0, by decide⟩ ((rdat2 W d).A 17))))))))

/-- The proof data family, a literal match on the pipeline. -/
def rdats2V : (p : Fin 2) → (c : Dev nD) → RDat τ (Elt F) (HIx 1) ℕ UU ℕ (Pipeline.pin (pcfgs (F := F)) adm p) c
  | ⟨1, _⟩ => fun c => rdat2V W c
  | ⟨0, _⟩ => fun c => rdatO2 W c

theorem arrays2V_entry (d : Dev nD) : (StableHlo.held (T d) arrs2 W : sProp 𝕄) ⊢ (rdat2V W d).arrays (rdat2V W d).A := arrays2_entry W d

end Cert.Proof.Region

end
-- ==== Proof.RegionVal2Body.lean ====
/-
  The second TensorCore region with its values: the body, at each grid point, leaves the operand buffers as it found
  them and the result buffer at its named function of the operand blocks.
-/
import proofs.«211833_g48473000902786_cont_8to1_c_597_31_alg».proof.Proof.RegionVal2Defs

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig (HIx 1) (Elt F) ℕ UU ℕ

variable (W : Valuation τ sig (Elt F))

set_option maxHeartbeats 8000000 in
theorem body_obligation2V (d : Dev nD) : (rdat2V W d).BodyObligation (defs₀ (F := F)) 𝒱₀ (none : HIx 1) Set.univ := fun t Y hY => by
  have hin0 := finds_in2 W d 0 rfl (fun _ _ => rfl) (fun _ _ _ h => h) t (Y 0) (hY 0)
  have hin1 := finds_in2 W d 1 rfl (fun _ _ => rfl) (fun _ _ _ h => h) t (Y 1) (hY 1)
  have hin2 := finds_in2 W d 2 rfl (fun _ _ => rfl) (fun _ _ _ h => h) t (Y 2) (hY 2)
  have hin3 := finds_in2 W d 3 rfl (fun _ _ => rfl) (fun _ _ _ h => h) t (Y 3) (hY 3)
  have hin4 := finds_in2 W d 4 rfl (fun _ _ => rfl) (fun _ _ _ h => h) t (Y 4) (hY 4)
  have hin5 := finds_in2 W d 5 rfl (fun _ _ => rfl) (fun _ _ _ h => h) t (Y 5) (hY 5)
  have hin6 := finds_in2 W d 6 rfl (fun _ _ => rfl) (fun _ _ _ h => h) t (Y 6) (hY 6)
  have hin7 := finds_in2 W d 7 rfl (fun _ _ => rfl) (fun _ _ _ h => h) t (Y 7) (hY 7)
  have hin8 := finds_in2 W d 8 rfl (fun _ _ => rfl) (fun _ _ _ h => h) t (Y 8) (hY 8)
  have hin9 := finds_in2 W d 9 rfl (fun _ _ => rfl) (fun _ _ _ h => h) t (Y 9) (hY 9)
  have hin10 := finds_in2 W d 10 rfl (fun _ _ => rfl) (fun _ _ _ h => h) t (Y 10) (hY 10)
  have hin11 := finds_in2 W d 11 rfl (fun _ _ => rfl) (fun _ _ _ h => h) t (Y 11) (hY 11)
  have hin12 := finds_in2 W d 12 rfl (fun _ _ => rfl) (fun _ _ _ h => h) t (Y 12) (hY 12)
  have hin13 := finds_in2 W d 13 rfl (fun _ _ => rfl) (fun _ _ _ h => h) t (Y 13) (hY 13)
  have hin14 := finds_in2 W d 14 rfl (fun _ _ => rfl) (fun _ _ _ h => h) t (Y 14) (hY 14)
  have hin15 := finds_in2 W d 15 rfl (fun _ _ => rfl) (fun _ _ _ h => h) t (Y 15) (hY 15)
  have hin16 := finds_in2 W d 16 rfl (fun _ _ => rfl) (fun _ _ _ h => h) t (Y 16) (hY 16)
  rw [bigSep_W2, bigSep_W2]
  rw [show (rdat2V W d).Φ t.castSucc = Φc2 d from rfl, show (rdat2V W d).Φ t.succ = Φc2 d from rfl,
    show (rdat2V W d).owesAt (none : HIx 1) t.succ = (rdat2V W d).owesAt (none : HIx 1) t.castSucc from rfl]
  show _ ⊢ wp frame (wpE (defs₀ (F := F)) 𝒱₀ (d : Thread nD τ) none) Set.univ (bodyAt2 t) _
  unfold owns
  iintro ⟨HΦ, HO, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  have r0 : (View.readAt (Elt F) (st2_0 t).view (Rect.unit (s := S2048x128) ![0, 0] S2048x128.size inb_S2048x128_S2048x128_0_0).toLoadRect f0) = inV2 W d 0 t := (readAt_unit0 _ _ _).trans (e0.trans hin0)
  have r1 : (View.readAt (Elt F) (st2_1 t).view (Rect.unit (s := S2048x128) ![0, 0] S2048x128.size inb_S2048x128_S2048x128_0_0).toLoadRect f1) = inV2 W d 1 t := (readAt_unit0 _ _ _).trans (e1.trans hin1)
  have r2 : (View.readAt (Elt F) (st2_2 t).view (Rect.unit (s := S2048x128) ![0, 0] S2048x128.size inb_S2048x128_S2048x128_0_0).toLoadRect f2) = inV2 W d 2 t := (readAt_unit0 _ _ _).trans (e2.trans hin2)
  have r3 : (View.readAt (Elt F) (st2_3 t).view (Rect.unit (s := S2048x1) ![0, 0] S2048x1.size inb_S2048x1_S2048x1_0_0).toLoadRect f3) = inV2 W d 3 t := (readAt_unit0 _ _ _).trans (e3.trans hin3)
  have r4 : (View.readAt (Elt F) (st2_4 t).view (Rect.unit (s := S2048x1) ![0, 0] S2048x1.size inb_S2048x1_S2048x1_0_0).toLoadRect f4) = inV2 W d 4 t := (readAt_unit0 _ _ _).trans (e4.trans hin4)
  have r5 : (View.readAt (Elt F) (st2_5 t).view (Rect.unit (s := S2048x1) ![0, 0] S2048x1.size inb_S2048x1_S2048x1_0_0).toLoadRect f5) = inV2 W d 5 t := (readAt_unit0 _ _ _).trans (e5.trans hin5)
  have r6 : (View.readAt (Elt F) (st2_6 t).view (Rect.unit (s := S2048x1) ![0, 0] S2048x1.size inb_S2048x1_S2048x1_0_0).toLoadRect f6) = inV2 W d 6 t := (readAt_unit0 _ _ _).trans (e6.trans hin6)
  have r7 : (View.readAt (Elt F) (st2_7 t).view (Rect.unit (s := S2048x1) ![0, 0] S2048x1.size inb_S2048x1_S2048x1_0_0).toLoadRect f7) = inV2 W d 7 t := (readAt_unit0 _ _ _).trans (e7.trans hin7)
  have r8 : (View.readAt (Elt F) (st2_8 t).view (Rect.unit (s := S64x64) ![0, 0] S64x64.size inb_S64x64_S64x64_0_0).toLoadRect f8) = inV2 W d 8 t := (readAt_unit0 _ _ _).trans (e8.trans hin8)
  have r9 : (View.readAt (Elt F) (st2_9 t).view (Rect.unit (s := S64x64) ![0, 0] S64x64.size inb_S64x64_S64x64_0_0).toLoadRect f9) = inV2 W d 9 t := (readAt_unit0 _ _ _).trans (e9.trans hin9)
  have r10 : (View.readAt (Elt F) (st2_10 t).view (Rect.unit (s := S64x64) ![0, 0] S64x64.size inb_S64x64_S64x64_0_0).toLoadRect f10) = inV2 W d 10 t := (readAt_unit0 _ _ _).trans (e10.trans hin10)
  have r11 : (View.readAt (Elt F) (st2_11 t).view (Rect.unit (s := S16x64) ![0, 0] S16x64.size inb_S16x64_S16x64_0_0).toLoadRect f11) = inV2 W d 11 t := (readAt_unit0 _ _ _).trans (e11.trans hin11)
  have r12 : (View.readAt (Elt F) (st2_12 t).view (Rect.unit (s := S400x64) ![0, 0] S400x64.size inb_S400x64_S400x64_0_0).toLoadRect f12) = inV2 W d 12 t := (readAt_unit0 _ _ _).trans (e12.trans hin12)
  have r13 : (View.readAt (Elt F) (st2_13 t).view (Rect.unit (s := S4x64) ![0, 0] S4x64.size inb_S4x64_S4x64_0_0).toLoadRect f13) = inV2 W d 13 t := (readAt_unit0 _ _ _).trans (e13.trans hin13)
  have r14 : (View.readAt (Elt F) (st2_14 t).view (Rect.unit (s := S64x64) ![0, 0] S64x64.size inb_S64x64_S64x64_0_0).toLoadRect f14) = inV2 W d 14 t := (readAt_unit0 _ _ _).trans (e14.trans hin14)
  have r15 : (View.readAt (Elt F) (st2_15 t).view (Rect.unit (s := S1x64) ![0, 0] S1x64.size inb_S1x64_S1x64_0_0).toLoadRect f15) = inV2 W d 15 t := (readAt_unit0 _ _ _).trans (e15.trans hin15)
  have r16 : (View.readAt (Elt F) (st2_16 t).view (Rect.unit (s := S1x64) ![0, 0] S1x64.size inb_S1x64_S1x64_0_0).toLoadRect f16) = inV2 W d 16 t := (readAt_unit0 _ _ _).trans (e16.trans hin16)
  iapply (run2V (F := F) d _ _ _ _ _ _ _ _ _ _ _ _ _ _ _ _ _ _ _ _ _ _ _ _ _ _ _ _ _ _ _ _ _ _ _ _ _ f0 f1 f2 f3 f4 f5 f6 f7 f8 f9 f10 f11 f12 f13 f14 f15 f16 f17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨G0, G1, G2, G3, G4, G5, G6, G7, G8, G9, G10, G11, G12, G13, G14, G15, G16, G17⟩
  isplitl [HΦ]; · iexact HΦ
  isplitl [HO]; · iexact HO
  isplitl [G0]
  · iexists ((st2_0 t).view.read (Elt F) f0); isplitr; · ipureintro; exact e0
    iexists f0; isplitr; · ipureintro; rfl
    iexact G0
  isplitl [G1]
  · iexists ((st2_1 t).view.read (Elt F) f1); isplitr; · ipureintro; exact e1
    iexists f1; isplitr; · ipureintro; rfl
    iexact G1
  isplitl [G2]
  · iexists ((st2_2 t).view.read (Elt F) f2); isplitr; · ipureintro; exact e2
    iexists f2; isplitr; · ipureintro; rfl
    iexact G2
  isplitl [G3]
  · iexists ((st2_3 t).view.read (Elt F) f3); isplitr; · ipureintro; exact e3
    iexists f3; isplitr; · ipureintro; rfl
    iexact G3
  isplitl [G4]
  · iexists ((st2_4 t).view.read (Elt F) f4); isplitr; · ipureintro; exact e4
    iexists f4; isplitr; · ipureintro; rfl
    iexact G4
  isplitl [G5]
  · iexists ((st2_5 t).view.read (Elt F) f5); isplitr; · ipureintro; exact e5
    iexists f5; isplitr; · ipureintro; rfl
    iexact G5
  isplitl [G6]
  · iexists ((st2_6 t).view.read (Elt F) f6); isplitr; · ipureintro; exact e6
    iexists f6; isplitr; · ipureintro; rfl
    iexact G6
  isplitl [G7]
  · iexists ((st2_7 t).view.read (Elt F) f7); isplitr; · ipureintro; exact e7
    iexists f7; isplitr; · ipureintro; rfl
    iexact G7
  isplitl [G8]
  · iexists ((st2_8 t).view.read (Elt F) f8); isplitr; · ipureintro; exact e8
    iexists f8; isplitr; · ipureintro; rfl
    iexact G8
  isplitl [G9]
  · iexists ((st2_9 t).view.read (Elt F) f9); isplitr; · ipureintro; exact e9
    iexists f9; isplitr; · ipureintro; rfl
    iexact G9
  isplitl [G10]
  · iexists ((st2_10 t).view.read (Elt F) f10); isplitr; · ipureintro; exact e10
    iexists f10; isplitr; · ipureintro; rfl
    iexact G10
  isplitl [G11]
  · iexists ((st2_11 t).view.read (Elt F) f11); isplitr; · ipureintro; exact e11
    iexists f11; isplitr; · ipureintro; rfl
    iexact G11
  isplitl [G12]
  · iexists ((st2_12 t).view.read (Elt F) f12); isplitr; · ipureintro; exact e12
    iexists f12; isplitr; · ipureintro; rfl
    iexact G12
  isplitl [G13]
  · iexists ((st2_13 t).view.read (Elt F) f13); isplitr; · ipureintro; exact e13
    iexists f13; isplitr; · ipureintro; rfl
    iexact G13
  isplitl [G14]
  · iexists ((st2_14 t).view.read (Elt F) f14); isplitr; · ipureintro; exact e14
    iexists f14; isplitr; · ipureintro; rfl
    iexact G14
  isplitl [G15]
  · iexists ((st2_15 t).view.read (Elt F) f15); isplitr; · ipureintro; exact e15
    iexists f15; isplitr; · ipureintro; rfl
    iexact G15
  isplitl [G16]
  · iexists ((st2_16 t).view.read (Elt F) f16); isplitr; · ipureintro; exact e16
    iexists f16; isplitr; · ipureintro; rfl
    iexact G16
  iexists ((st2_17 t).view.read (Elt F) ((st2_17 t).view.writes (Elt F) f17 [⟨(Rect.unit (s := S2048x64) ![0, 0] S2048x64.size inb_S2048x64_S2048x64_0_0), k2_pay1 (F := F) (k2_pay3 (k2_pay2 (View.readAt (Elt F) (st2_16 t).view (Rect.unit (s := S1x64) ![0, 0] S1x64.size inb_S1x64_S1x64_0_0).toLoadRect f16) (View.readAt (Elt F) (st2_7 t).view (Rect.unit (s := S2048x1) ![0, 0] S2048x1.size inb_S2048x1_S2048x1_0_0).toLoadRect f7) (View.readAt (Elt F) (st2_15 t).view (Rect.unit (s := S1x64) ![0, 0] S1x64.size inb_S1x64_S1x64_0_0).toLoadRect f15) (View.readAt (Elt F) (st2_8 t).view (Rect.unit (s := S64x64) ![0, 0] S64x64.size inb_S64x64_S64x64_0_0).toLoadRect f8) (View.readAt (Elt F) (st2_8 t).view (Rect.unit (s := S64x64) ![0, 0] S64x64.size inb_S64x64_S64x64_0_0).toLoadRect f8) (View.readAt (Elt F) (st2_9 t).view (Rect.unit (s := S64x64) ![0, 0] S64x64.size inb_S64x64_S64x64_0_0).toLoadRect f9) (View.readAt (Elt F) (st2_9 t).view (Rect.unit (s := S64x64) ![0, 0] S64x64.size inb_S64x64_S64x64_0_0).toLoadRect f9) (View.readAt (Elt F) (st2_10 t).view (Rect.unit (s := S64x64) ![0, 0] S64x64.size inb_S64x64_S64x64_0_0).toLoadRect f10) (View.readAt (Elt F) (st2_10 t).view (Rect.unit (s := S64x64) ![0, 0] S64x64.size inb_S64x64_S64x64_0_0).toLoadRect f10) (View.readAt (Elt F) (st2_0 t).view (Rect.unit (s := S2048x128) ![0, 0] S2048x128.size inb_S2048x128_S2048x128_0_0).toLoadRect f0) (View.readAt (Elt F) (st2_1 t).view (Rect.unit (s := S2048x128) ![0, 0] S2048x128.size inb_S2048x128_S2048x128_0_0).toLoadRect f1) (View.readAt (Elt F) (st2_2 t).view (Rect.unit (s := S2048x128) ![0, 0] S2048x128.size inb_S2048x128_S2048x128_0_0).toLoadRect f2)) (View.readAt (Elt F) (st2_3 t).view (Rect.unit (s := S2048x1) ![0, 0] S2048x1.size inb_S2048x1_S2048x1_0_0).toLoadRect f3) (View.readAt (Elt F) (st2_11 t).view (Rect.unit (s := S16x64) ![0, 0] S16x64.size inb_S16x64_S16x64_0_0).toLoadRect f11) (View.readAt (Elt F) (st2_4 t).view (Rect.unit (s := S2048x1) ![0, 0] S2048x1.size inb_S2048x1_S2048x1_0_0).toLoadRect f4) (View.readAt (Elt F) (st2_12 t).view (Rect.unit (s := S400x64) ![0, 0] S400x64.size inb_S400x64_S400x64_0_0).toLoadRect f12) (View.readAt (Elt F) (st2_5 t).view (Rect.unit (s := S2048x1) ![0, 0] S2048x1.size inb_S2048x1_S2048x1_0_0).toLoadRect f5) (View.readAt (Elt F) (st2_13 t).view (Rect.unit (s := S4x64) ![0, 0] S4x64.size inb_S4x64_S4x64_0_0).toLoadRect f13)) (k2_pay4 (View.readAt (Elt F) (st2_14 t).view (Rect.unit (s := S64x64) ![0, 0] S64x64.size inb_S64x64_S64x64_0_0).toLoadRect f14)) (k2_pay5 (F := F) (View.readAt (Elt F) (st2_6 t).view (Rect.unit (s := S2048x1) ![0, 0] S2048x1.size inb_S2048x1_S2048x1_0_0).toLoadRect f6))⟩])); isplitr
  · ipureintro
    refine (read_writes_unit0 _ _ _ _).trans ?_
    unfold pay2V
    rw [r0, r1, r2, r3, r4, r5, r6, r7, r8, r9, r10, r11, r12, r13, r14, r15, r16]
  iexists ((st2_17 t).view.writes (Elt F) f17 [⟨(Rect.unit (s := S2048x64) ![0, 0] S2048x64.size inb_S2048x64_S2048x64_0_0), k2_pay1 (F := F) (k2_pay3 (k2_pay2 (View.readAt (Elt F) (st2_16 t).view (Rect.unit (s := S1x64) ![0, 0] S1x64.size inb_S1x64_S1x64_0_0).toLoadRect f16) (View.readAt (Elt F) (st2_7 t).view (Rect.unit (s := S2048x1) ![0, 0] S2048x1.size inb_S2048x1_S2048x1_0_0).toLoadRect f7) (View.readAt (Elt F) (st2_15 t).view (Rect.unit (s := S1x64) ![0, 0] S1x64.size inb_S1x64_S1x64_0_0).toLoadRect f15) (View.readAt (Elt F) (st2_8 t).view (Rect.unit (s := S64x64) ![0, 0] S64x64.size inb_S64x64_S64x64_0_0).toLoadRect f8) (View.readAt (Elt F) (st2_8 t).view (Rect.unit (s := S64x64) ![0, 0] S64x64.size inb_S64x64_S64x64_0_0).toLoadRect f8) (View.readAt (Elt F) (st2_9 t).view (Rect.unit (s := S64x64) ![0, 0] S64x64.size inb_S64x64_S64x64_0_0).toLoadRect f9) (View.readAt (Elt F) (st2_9 t).view (Rect.unit (s := S64x64) ![0, 0] S64x64.size inb_S64x64_S64x64_0_0).toLoadRect f9) (View.readAt (Elt F) (st2_10 t).view (Rect.unit (s := S64x64) ![0, 0] S64x64.size inb_S64x64_S64x64_0_0).toLoadRect f10) (View.readAt (Elt F) (st2_10 t).view (Rect.unit (s := S64x64) ![0, 0] S64x64.size inb_S64x64_S64x64_0_0).toLoadRect f10) (View.readAt (Elt F) (st2_0 t).view (Rect.unit (s := S2048x128) ![0, 0] S2048x128.size inb_S2048x128_S2048x128_0_0).toLoadRect f0) (View.readAt (Elt F) (st2_1 t).view (Rect.unit (s := S2048x128) ![0, 0] S2048x128.size inb_S2048x128_S2048x128_0_0).toLoadRect f1) (View.readAt (Elt F) (st2_2 t).view (Rect.unit (s := S2048x128) ![0, 0] S2048x128.size inb_S2048x128_S2048x128_0_0).toLoadRect f2)) (View.readAt (Elt F) (st2_3 t).view (Rect.unit (s := S2048x1) ![0, 0] S2048x1.size inb_S2048x1_S2048x1_0_0).toLoadRect f3) (View.readAt (Elt F) (st2_11 t).view (Rect.unit (s := S16x64) ![0, 0] S16x64.size inb_S16x64_S16x64_0_0).toLoadRect f11) (View.readAt (Elt F) (st2_4 t).view (Rect.unit (s := S2048x1) ![0, 0] S2048x1.size inb_S2048x1_S2048x1_0_0).toLoadRect f4) (View.readAt (Elt F) (st2_12 t).view (Rect.unit (s := S400x64) ![0, 0] S400x64.size inb_S400x64_S400x64_0_0).toLoadRect f12) (View.readAt (Elt F) (st2_5 t).view (Rect.unit (s := S2048x1) ![0, 0] S2048x1.size inb_S2048x1_S2048x1_0_0).toLoadRect f5) (View.readAt (Elt F) (st2_13 t).view (Rect.unit (s := S4x64) ![0, 0] S4x64.size inb_S4x64_S4x64_0_0).toLoadRect f13)) (k2_pay4 (View.readAt (Elt F) (st2_14 t).view (Rect.unit (s := S64x64) ![0, 0] S64x64.size inb_S64x64_S64x64_0_0).toLoadRect f14)) (k2_pay5 (F := F) (View.readAt (Elt F) (st2_6 t).view (Rect.unit (s := S2048x1) ![0, 0] S2048x1.size inb_S2048x1_S2048x1_0_0).toLoadRect f6))⟩]); isplitr; · ipureintro; rfl
  iexact G17

end Cert.Proof.Region

end
-- ==== Proof.RegionVal2Exit.lean ====
/-
  The second TensorCore region with its values: the exit. The result array after the eight write-backs is its
  contents at the entry with the block of each point overwritten, in order, by what the body left there; the other
  arrays are as at the entry.
-/
import proofs.«211833_g48473000902786_cont_8to1_c_597_31_alg».proof.Proof.RegionVal2Defs

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig (HIx 1) (Elt F) ℕ UU ℕ

variable (W : Valuation τ sig (Elt F))

/-- One write-back of the result window. -/
theorem arrAt_succ17 (d : Dev nD) (n : ℕ) (hn : n < cfg2.N) (hfl : (cfg2.win 17).flush ⟨n, hn⟩ = true) (Fw)
    (h : (rdat2V W d).ArrAt 17 (n + 1) Fw) : ∃ G, (rdat2V W d).ArrAt 17 n G ∧ Fw = resStep W d ⟨n, hn⟩ G := by
  have e : (rdat2V W d).ArrAt 17 (n + 1) = (rdat2V W d).ArrStep 17 ⟨n, hn⟩ ((rdat2V W d).ArrAt 17 n) := by
    show (if h : n < cfg2.N then if (cfg2.win 17).flush ⟨n, h⟩ then (rdat2V W d).ArrStep 17 ⟨n, h⟩ ((rdat2V W d).ArrAt 17 n) else (rdat2V W d).ArrAt 17 n else (rdat2V W d).ArrAt 17 n) = _
    rw [dif_pos hn, if_pos hfl]
  rw [e] at h
  obtain ⟨G₀, X, hG, ⟨Y, -, hYX⟩, hF⟩ := h
  have hX : X = pay2V W d ⟨n, hn⟩ := hYX
  exact ⟨G₀, hG, by rw [hF, hX]; rfl⟩

/-- The result array after the eight write-backs. -/
theorem arrAt2_res17 (d : Dev nD) (Fw) (h : (rdat2V W d).ArrAt 17 8 Fw) : Fw = resV2 W d := by
  obtain ⟨G7, h7, rfl⟩ := arrAt_succ17 W d 7 (by decide) rfl Fw h
  obtain ⟨G6, h6, rfl⟩ := arrAt_succ17 W d 6 (by decide) rfl G7 h7
  obtain ⟨G5, h5, rfl⟩ := arrAt_succ17 W d 5 (by decide) rfl G6 h6
  obtain ⟨G4, h4, rfl⟩ := arrAt_succ17 W d 4 (by decide) rfl G5 h5
  obtain ⟨G3, h3, rfl⟩ := arrAt_succ17 W d 3 (by decide) rfl G4 h4
  obtain ⟨G2, h2, rfl⟩ := arrAt_succ17 W d 2 (by decide) rfl G3 h3
  obtain ⟨G1, h1, rfl⟩ := arrAt_succ17 W d 1 (by decide) rfl G2 h2
  obtain ⟨G0, h0, rfl⟩ := arrAt_succ17 W d 0 (by decide) rfl G1 h1
  have h0' : G0 = (rdat2V W d).A 17 := h0
  subst h0'; rfl

theorem share2V (d : Dev nD) (w : Fin 18) : (rdat2V W d).share w = q2 w := by
  fin_cases w <;> rfl

theorem arraysAt2V_eq (d : Dev nD) (k : ℕ) :
    ((rdat2V W d).arraysAt k : sProp 𝕄)
      = bigSep Finset.univ fun w => iprop(∃ Fw, ⌜(rdat2V W d).ArrAt w k Fw⌝ ∗ (((d : Thread nD τ).loc (Pipeline.arrRef spec2 w)) ↦{q2 w} Fw : sProp 𝕄)) := by
  have harr : ∀ w, (cfg2.win w).arr.IsWhole := arr_whole2
  unfold RDat.arraysAt
  exact bigSep_congr fun w _ => by rw [(harr w).set_eq_univ, share2V]

set_option maxHeartbeats 4000000 in
/-- EXIT: the windows' arrays after the eight write-backs are those buffers whole at a valuation that differs from the
    entry's at the result only, where it holds the result array with its eight blocks written. -/
theorem arrays2_exitV (d : Dev nD) : ((rdat2V W d).arraysAt 8 : sProp 𝕄)
    ⊢ iprop(∃ W' : Valuation τ sig (Elt F), ⌜∀ b, b ∉ outs2 → W' b = W b⌝ ∗ ⌜W' (Proc.devRef .tc (main_v18 : Ref sig .tc) : DevRef τ sig) = resV2 W d⌝ ∗ StableHlo.held (T d) arrs2 W') := by
  rw [arraysAt2V_eq, bigSep_W2]
  iintro ⟨⟨%F0, %h0, A0⟩, ⟨%F1, %h1, A1⟩, ⟨%F2, %h2, A2⟩, ⟨%F3, %h3, A3⟩, ⟨%F4, %h4, A4⟩, ⟨%F5, %h5, A5⟩, ⟨%F6, %h6, A6⟩, ⟨%F7, %h7, A7⟩, ⟨%F8, %h8, A8⟩, ⟨%F9, %h9, A9⟩, ⟨%F10, %h10, A10⟩, ⟨%F11, %h11, A11⟩, ⟨%F12, %h12, A12⟩, ⟨%F13, %h13, A13⟩, ⟨%F14, %h14, A14⟩, ⟨%F15, %h15, A15⟩, ⟨%F16, %h16, A16⟩, ⟨%F17, %h17, A17⟩⟩
  rw [(rdat2V W d).ArrAt_in 0 rfl] at h0; subst h0
  rw [(rdat2V W d).ArrAt_in 1 rfl] at h1; subst h1
  rw [(rdat2V W d).ArrAt_in 2 rfl] at h2; subst h2
  rw [(rdat2V W d).ArrAt_in 3 rfl] at h3; subst h3
  rw [(rdat2V W d).ArrAt_in 4 rfl] at h4; subst h4
  rw [(rdat2V W d).ArrAt_in 5 rfl] at h5; subst h5
  rw [(rdat2V W d).ArrAt_in 6 rfl] at h6; subst h6
  rw [(rdat2V W d).ArrAt_in 7 rfl] at h7; subst h7
  rw [(rdat2V W d).ArrAt_in 8 rfl] at h8; subst h8
  rw [(rdat2V W d).ArrAt_in 9 rfl] at h9; subst h9
  rw [(rdat2V W d).ArrAt_in 10 rfl] at h10; subst h10
  rw [(rdat2V W d).ArrAt_in 11 rfl] at h11; subst h11
  rw [(rdat2V W d).ArrAt_in 12 rfl] at h12; subst h12
  rw [(rdat2V W d).ArrAt_in 13 rfl] at h13; subst h13
  rw [(rdat2V W d).ArrAt_in 14 rfl] at h14; subst h14
  rw [(rdat2V W d).ArrAt_in 15 rfl] at h15; subst h15
  rw [(rdat2V W d).ArrAt_in 16 rfl] at h16; subst h16
  obtain rfl := arrAt2_res17 W d F17 h17
  ihave J8 := (pt_split2 (F := F)).2 $$ [A8 A9 A10]
  · isplitl [A8]; · iexact A8
    isplitl [A9]; · iexact A9
    iexact A10
  obtain ⟨W', hoff, e0⟩ := upd_facts2 W (resV2 W d)
  iexists W'
  isplitr; · ipureintro; exact hoff
  isplitr; · ipureintro; exact e0
  rw [held_arrs2]
  dsimp only [pr]
  rw [hoff (Proc.devRef .tc (main_v9_0 : Ref sig .tc) : DevRef τ sig) (by decide),
    hoff (Proc.devRef .tc (main_v9_1 : Ref sig .tc) : DevRef τ sig) (by decide),
    hoff (Proc.devRef .tc (main_v9_2 : Ref sig .tc) : DevRef τ sig) (by decide),
    hoff (Proc.devRef .tc (main_v13 : Ref sig .tc) : DevRef τ sig) (by decide),
    hoff (Proc.devRef .tc (main_v14 : Ref sig .tc) : DevRef τ sig) (by decide),
    hoff (Proc.devRef .tc (main_v15 : Ref sig .tc) : DevRef τ sig) (by decide),
    hoff (Proc.devRef .tc (main_v16 : Ref sig .tc) : DevRef τ sig) (by decide),
    hoff (Proc.devRef .tc (main_v17 : Ref sig .tc) : DevRef τ sig) (by decide),
    hoff (Proc.devRef .tc (main_arg17 : Ref sig .tc) : DevRef τ sig) (by decide),
    hoff (Proc.devRef .tc (main_v12_0 : Ref sig .tc) : DevRef τ sig) (by decide),
    hoff (Proc.devRef .tc (main_v12_1 : Ref sig .tc) : DevRef τ sig) (by decide),
    hoff (Proc.devRef .tc (main_v12_2 : Ref sig .tc) : DevRef τ sig) (by decide),
    hoff (Proc.devRef .tc (main_v12_3 : Ref sig .tc) : DevRef τ sig) (by decide),
    hoff (Proc.devRef .tc (main_v12_4 : Ref sig .tc) : DevRef τ sig) (by decide),
    hoff (Proc.devRef .tc (main_v12_5 : Ref sig .tc) : DevRef τ sig) (by decide),
    e0]
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [J8]; · iexact J8
  isplitl [A11]; · iexact A11
  isplitl [A12]; · iexact A12
  isplitl [A13]; · iexact A13
  isplitl [A14]; · iexact A14
  isplitl [A15]; · iexact A15
  isplitl [A16]; · iexact A16
  iexact A17

end Cert.Proof.Region

end
-- ==== Proof.RegionVal2Seg.lean ====
/-
  The second TensorCore region with its values: the region as a segment of @main, and its step in the whole program.
-/
import proofs.«211833_g48473000902786_cont_8to1_c_597_31_alg».proof.Proof.RegionVal2Body
import proofs.«211833_g48473000902786_cont_8to1_c_597_31_alg».proof.Proof.RegionVal2Exit

noncomputable section

namespace Cert.Proof.Region

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig (HIx 1) (Elt F) ℕ UU ℕ

variable (W : Valuation τ sig (Elt F))

/-! ## The region over the thread state -/

set_option backward.isDefEq.respectTransparency.types false in
/-- The region as a segment of @main: entered from every unscoped buffer of the TensorCore whole at `W` and the core
    owing nothing; left with them at a valuation that differs from `W` at the region's results only. Nothing enters
    the invariant but the scoped buffers the pipeline does not stage; the kernel has no semaphore of its own. -/
def reg2V : Pipeline.RDat.RegionSeg (pcfgs (F := F)) adm (rdats2V W) (none : HIx 1) defs₀ 𝒱₀ (K (F := F)).L (K (F := F)).lev 1 where
  win := winFacts₀2
  block_pos := block_pos2
  stage_whole := stage_whole2
  K := PEmpty
  osem k := k.elim
  ho := Pipeline.OwnSemFacts.none _
  hbody d := body_obligation2V W d
  hwaits := Pipeline.RDat.hwaits_of_owed_zero _ _ _ _ _ _ 1 fun _ _ => rfl
  pre d := iprop(StableHlo.held (T d) (Pipeline.ucRefs τ sig) W ∗ owesT (F := F) d)
  post d := iprop(∃ W' : Valuation τ sig (Elt F), ⌜∀ b, b ∉ outs2 → W' b = W b⌝ ∗ ⌜W' (Proc.devRef .tc (main_v18 : Ref sig .tc) : DevRef τ sig) = resV2 W d⌝ ∗ StableHlo.held (T d) (Pipeline.ucRefs τ sig) W' ∗ owesT (F := F) d)
  X _ := BI.emp
  Y _ := BI.emp
  Z d := StableHlo.held (T d) (Pipeline.ucRefs τ sig \ arrs2) W
  hentry d := by
    rw [Pipeline.ownSems0_none, StableHlo.held_sub_split (T d) arrs2_sub W]
    iintro ⟨⟨⟨Ha, Hrest⟩, HO⟩, -, -⟩
    imodintro
    isplitl [Ha]; · iapply (arrays2V_entry W d); iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%Wt, %hWt, HO⟩; iexists Wt; isplitr
      · ipureintro; exact fun q hq => Or.inl (hWt q (Finset.mem_coe.mp hq))
      iexact HO
    isplitr; · iempintro
    iexact Hrest
  hin d := by
    rw [show (rdats2V W 1 d).Φ 0 = Φc2 d from rfl]
    iintro ⟨-, -, Hr⟩; iexact Hr
  hout d := by
    rw [Pipeline.ownSems0_none, show (rdats2V W 1 d).Φ (Fin.last _) = Φc2 d from rfl]
    iintro Hr
    isplitr; · iempintro
    isplitr; · iempintro
    iexact Hr
  hexit d := by
    have hx : ((rdats2V W 1 d).arraysAt (Pipeline.pin (pcfgs (F := F)) adm 1).N : sProp 𝕄)
        ⊢ iprop(∃ W' : Valuation τ sig (Elt F), ⌜∀ b, b ∉ outs2 → W' b = W b⌝ ∗ ⌜W' (Proc.devRef .tc (main_v18 : Ref sig .tc) : DevRef τ sig) = resV2 W d⌝ ∗ StableHlo.held (T d) arrs2 W') := arrays2_exitV W d
    iintro ⟨Ha, HO, -, Hrest⟩
    ihave Ha' := hx $$ Ha
    icases Ha' with ⟨%W', %hW', %hR, Ha⟩
    imodintro
    iexists W'
    isplitr; · ipureintro; exact hW'
    isplitr; · ipureintro; exact hR
    isplitl [Ha Hrest]
    · rw [StableHlo.held_sub_split (T d) arrs2_sub W',
        StableHlo.held_congr (T d) (V := W') (V' := W) fun b hb => hW' b fun h => (Finset.mem_sdiff.mp hb).2 (outs2_sub h)]
      isplitl [Ha] <;> iassumption
    unfold RDat.owesAt Pipeline.owesWithin
    icases HO with ⟨%Wt, %hWt, HO⟩; iexists Wt; isplitr
    · ipureintro; intro q hq
      rcases hWt (Finset.mem_coe.mpr hq) with h | ⟨w, s, rfl⟩
      · exact h
      · exact Nat.zero_le _
    iexact HO

/-! ## The region's step inside @main of the whole program -/

/-- What the region's step leaves: the TensorCore's state, the boundary, the buffers at a valuation that differs from
    `W` at the region's result only, where it holds the result array with its eight blocks written. -/
abbrev postR2V (d : Dev nD) : PUnit → sProp 𝕄 := fun _ =>
  iprop(∃ W' : Valuation τ sig (Elt F), ⌜∀ b, b ∉ outs2 → W' b = W b⌝ ∗ ⌜W' (Proc.devRef .tc (main_v18 : Ref sig .tc) : DevRef τ sig) = resV2 W d⌝
    ∗ (K (F := F)).tcSt EH d 1 ∗ boundary (T d) ∗ StableHlo.held (T d) (Pipeline.ucRefs τ sig) W')

set_option backward.isDefEq.respectTransparency.types false in
/-- Region 1 on device `d`'s TensorCore, after the SparseCore call: from the handshakes' records, the TensorCore's
    state after the call, the region boundary, every unscoped buffer whole at `W` and the region's staging cells' ghost
    state, the region's call runs to the same with the buffers at a valuation that differs from `W` at its results only. -/
theorem region_wp1V (P : (K (F := F)).Pay (nD := nD) (Val := Elt F) (Name := ℕ) (U := UU)) (κ : GSem nD τ sig → ℕ) (d : Dev nD)
    [∀ e, Nonempty (Elt F e)] :
    iprop((K (F := F)).ctx EH P κ ∗ (K (F := F)).tcSt EH d 1 ∗ boundary (T d) ∗ StableHlo.held (T d) (Pipeline.ucRefs τ sig) W ∗ Gp (F := F) 1 d)
      ⊢ wp frame (wpE ((K (F := F)).defs (D (F := F))) 𝒱 (T d) none) Set.univ
          (Prog.lift (.customCall (SparseCore.inner (Pipeline.entry 1)) ()))
          (postR2V W d) := by
  rw [entry_lift1]
  refine BIBase.Entails.trans ?_ ((K (F := F)).wp_liftProg (D (F := F)) 𝒱 (T d) Set.univ none
    (Prog.lift (.customCall (Pipeline.entry 1) ())) (postR2V W d))
  unfold postR2V SparseCore.Cfg.tcSt Gp
  rw [(K (F := F)).Otc_end d (le_refl 1)]
  iintro ⟨#Hctx, ⟨HO, Hst⟩, Hb, Hheld, Hg, Ht⟩
  ihave #Hla := (SparseCore.Cfg.ctx_levAts κ) $$ Hctx
  iapply (Pipeline.RDat.RegionSeg.wp (pcfgs (F := F)) adm (rdats2V W) (none : HIx 1) phinj EP defs₀ 𝒱₀ (K (F := F)).L (K (F := F)).lev
    (reg2V W) d none (fun u h => nomatch h) (fun x => .ret x) _)
  rw [show (reg2V W).pre d = iprop(StableHlo.held (T d) (Pipeline.ucRefs τ sig) W ∗ owesT (F := F) d) from rfl,
    show (reg2V W).post d = iprop(∃ W' : Valuation τ sig (Elt F), ⌜∀ b, b ∉ outs2 → W' b = W b⌝ ∗ ⌜W' (Proc.devRef .tc (main_v18 : Ref sig .tc) : DevRef τ sig) = resV2 W d⌝
      ∗ StableHlo.held (T d) (Pipeline.ucRefs τ sig) W' ∗ owesT (F := F) d) from rfl]
  isplitl [Hst]
  · iintro ⟨Hb, %W', %hW', %hR, Hheld, HO⟩
    rw [wp_ret]; imodintro
    iexists W'
    isplitr; · ipureintro; exact hW'
    isplitr; · ipureintro; exact hR
    isplitl [HO Hst]; · isplitl [HO] <;> iassumption
    isplitl [Hb] <;> iassumption
  isplitl [Hb]; · iexact Hb
  isplitl [Hheld HO]; · isplitl [Hheld] <;> iassumption
  isplitr; · iexact Hla
  isplitl [Hg] <;> iassumption

end Cert.Proof.Region

end
-- ==== Proof.RegionValue1.lean ====
/-
  The second TensorCore region leaves the result array at the concrete function of the arrays it was entered with,
  given that the eight written blocks are that function.
-/
import proofs.«211833_g48473000902786_cont_8to1_c_597_31_alg».proof.Proof.RegionVal2Seg
import proofs.«211833_g48473000902786_cont_8to1_c_597_31_alg».proof.Proof.KerMatch

noncomputable section

namespace Cert.Proof.KI

open Cert.KernelIdeal Cert.KernelIdeal.Gen
open Cert.Proof.Region (ΛP K D 𝒱₀ 𝒱 v₀ UH UP UU EH EP)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

set_option backward.isDefEq.respectTransparency.types false in
/-- The second region, in value form: entered with the unscoped arrays at `W`, it leaves them at a valuation that
    agrees with `W` off the result array and holds the concrete result function of `W` there — given the pure fact
    that the result array with its eight blocks written is that function. -/
theorem region1_value_of
    (hpure : ∀ (W : Valuation τ sig (Elt Idealize.ShloMosaic.Ideal)) (d : Dev nD), Cert.Proof.Region.resV2 W d = R1c W (rr main_v18))
    (m : (ℓ : Loc nD τ sig) → Buf (Elt Idealize.ShloMosaic.Ideal) ℓ) : RegionValue1 m R1c := by
  intro W κ d
  refine (Cert.Proof.Region.region_wp1V W (PV (Wc m)) κ d).trans (wp_mono Idealize.ShloMosaic.frame _ Set.univ fun _ => ?_)
  iintro ⟨%W', %hoff, %hR, H⟩
  iexists W'
  isplitr; · ipureintro; exact hoff
  isplitr
  · ipureintro
    intro b hb
    unfold Cert.Proof.Region.outs2 at hb
    obtain rfl := Finset.mem_singleton.mp hb
    rw [hR, hpure W d]
  iexact H

end Cert.Proof.KI

end
-- ==== Proof.RegionVal2Pure.lean ====
/-
  The second region's result, read back.

  The second region writes the result array back one block of 2048 rows per grid point; the block it writes at point `t`
  is the second body's stored payload of the operand windows' blocks at `t`. The moving windows' blocks are rows
  `[2048 t, 2048 t + 2048)` of their arrays, the three weight windows are blocks 1, 3 and 6 of the final weights, the six
  precomputed tables are read whole. Row `p` of the result lies in block `p / 2048` and is written there only, so after the
  eight write-backs the result array is, row by row, the function `R1c` names.
-/
import proofs.«211833_g48473000902786_cont_8to1_c_597_31_alg».proof.Proof.RegionVal2Defs
import proofs.«211833_g48473000902786_cont_8to1_c_597_31_alg».proof.Proof.KerMatch

noncomputable section

namespace Cert.Proof.Region

open Cert.KernelIdeal Cert.KernelIdeal.Gen
open Idealize.ShloMosaic Idealize.ShloMosaic.ValueIdx
open Idealize.SL.Sem
open Cert.Proof.KI (rr rowsBlk wblk blkOf inBlk rowAt R1c)
open Cert.Proof.Pay

variable (W : Valuation τ sig (Elt Ideal)) (d : Dev nD)

set_option maxHeartbeats 2000000 in
theorem inV2_0 (t : Fin cfg2.N) : inV2 W d 0 t = rowsBlk (W (rr main_v9_0)) ⟨t.val, t.isLt⟩ := by
  funext j
  refine ((cfg2.win 0).fill_xinj (cfg2.grid.coords t) _ _ j).trans ?_
  rw [View.read_apply, cast_eq]
  fin_cases t
  · exact congrArg (W (rr main_v9_0)) (funext fun a => Fin.ext (by
      fin_cases a
      · show 0 * 2048 + 1 * (j 0).val = 2048 * 0 + (j 0).val; omega
      · show 0 * 128 + 1 * (j 1).val = (j 1).val; omega))
  · exact congrArg (W (rr main_v9_0)) (funext fun a => Fin.ext (by
      fin_cases a
      · show 1 * 2048 + 1 * (j 0).val = 2048 * 1 + (j 0).val; omega
      · show 0 * 128 + 1 * (j 1).val = (j 1).val; omega))
  · exact congrArg (W (rr main_v9_0)) (funext fun a => Fin.ext (by
      fin_cases a
      · show 2 * 2048 + 1 * (j 0).val = 2048 * 2 + (j 0).val; omega
      · show 0 * 128 + 1 * (j 1).val = (j 1).val; omega))
  · exact congrArg (W (rr main_v9_0)) (funext fun a => Fin.ext (by
      fin_cases a
      · show 3 * 2048 + 1 * (j 0).val = 2048 * 3 + (j 0).val; omega
      · show 0 * 128 + 1 * (j 1).val = (j 1).val; omega))
  · exact congrArg (W (rr main_v9_0)) (funext fun a => Fin.ext (by
      fin_cases a
      · show 4 * 2048 + 1 * (j 0).val = 2048 * 4 + (j 0).val; omega
      · show 0 * 128 + 1 * (j 1).val = (j 1).val; omega))
  · exact congrArg (W (rr main_v9_0)) (funext fun a => Fin.ext (by
      fin_cases a
      · show 5 * 2048 + 1 * (j 0).val = 2048 * 5 + (j 0).val; omega
      · show 0 * 128 + 1 * (j 1).val = (j 1).val; omega))
  · exact congrArg (W (rr main_v9_0)) (funext fun a => Fin.ext (by
      fin_cases a
      · show 6 * 2048 + 1 * (j 0).val = 2048 * 6 + (j 0).val; omega
      · show 0 * 128 + 1 * (j 1).val = (j 1).val; omega))
  · exact congrArg (W (rr main_v9_0)) (funext fun a => Fin.ext (by
      fin_cases a
      · show 7 * 2048 + 1 * (j 0).val = 2048 * 7 + (j 0).val; omega
      · show 0 * 128 + 1 * (j 1).val = (j 1).val; omega))
set_option maxHeartbeats 2000000 in
theorem inV2_1 (t : Fin cfg2.N) : inV2 W d 1 t = rowsBlk (W (rr main_v9_1)) ⟨t.val, t.isLt⟩ := by
  funext j
  refine ((cfg2.win 1).fill_xinj (cfg2.grid.coords t) _ _ j).trans ?_
  rw [View.read_apply, cast_eq]
  fin_cases t
  · exact congrArg (W (rr main_v9_1)) (funext fun a => Fin.ext (by
      fin_cases a
      · show 0 * 2048 + 1 * (j 0).val = 2048 * 0 + (j 0).val; omega
      · show 0 * 128 + 1 * (j 1).val = (j 1).val; omega))
  · exact congrArg (W (rr main_v9_1)) (funext fun a => Fin.ext (by
      fin_cases a
      · show 1 * 2048 + 1 * (j 0).val = 2048 * 1 + (j 0).val; omega
      · show 0 * 128 + 1 * (j 1).val = (j 1).val; omega))
  · exact congrArg (W (rr main_v9_1)) (funext fun a => Fin.ext (by
      fin_cases a
      · show 2 * 2048 + 1 * (j 0).val = 2048 * 2 + (j 0).val; omega
      · show 0 * 128 + 1 * (j 1).val = (j 1).val; omega))
  · exact congrArg (W (rr main_v9_1)) (funext fun a => Fin.ext (by
      fin_cases a
      · show 3 * 2048 + 1 * (j 0).val = 2048 * 3 + (j 0).val; omega
      · show 0 * 128 + 1 * (j 1).val = (j 1).val; omega))
  · exact congrArg (W (rr main_v9_1)) (funext fun a => Fin.ext (by
      fin_cases a
      · show 4 * 2048 + 1 * (j 0).val = 2048 * 4 + (j 0).val; omega
      · show 0 * 128 + 1 * (j 1).val = (j 1).val; omega))
  · exact congrArg (W (rr main_v9_1)) (funext fun a => Fin.ext (by
      fin_cases a
      · show 5 * 2048 + 1 * (j 0).val = 2048 * 5 + (j 0).val; omega
      · show 0 * 128 + 1 * (j 1).val = (j 1).val; omega))
  · exact congrArg (W (rr main_v9_1)) (funext fun a => Fin.ext (by
      fin_cases a
      · show 6 * 2048 + 1 * (j 0).val = 2048 * 6 + (j 0).val; omega
      · show 0 * 128 + 1 * (j 1).val = (j 1).val; omega))
  · exact congrArg (W (rr main_v9_1)) (funext fun a => Fin.ext (by
      fin_cases a
      · show 7 * 2048 + 1 * (j 0).val = 2048 * 7 + (j 0).val; omega
      · show 0 * 128 + 1 * (j 1).val = (j 1).val; omega))
set_option maxHeartbeats 2000000 in
theorem inV2_2 (t : Fin cfg2.N) : inV2 W d 2 t = rowsBlk (W (rr main_v9_2)) ⟨t.val, t.isLt⟩ := by
  funext j
  refine ((cfg2.win 2).fill_xinj (cfg2.grid.coords t) _ _ j).trans ?_
  rw [View.read_apply, cast_eq]
  fin_cases t
  · exact congrArg (W (rr main_v9_2)) (funext fun a => Fin.ext (by
      fin_cases a
      · show 0 * 2048 + 1 * (j 0).val = 2048 * 0 + (j 0).val; omega
      · show 0 * 128 + 1 * (j 1).val = (j 1).val; omega))
  · exact congrArg (W (rr main_v9_2)) (funext fun a => Fin.ext (by
      fin_cases a
      · show 1 * 2048 + 1 * (j 0).val = 2048 * 1 + (j 0).val; omega
      · show 0 * 128 + 1 * (j 1).val = (j 1).val; omega))
  · exact congrArg (W (rr main_v9_2)) (funext fun a => Fin.ext (by
      fin_cases a
      · show 2 * 2048 + 1 * (j 0).val = 2048 * 2 + (j 0).val; omega
      · show 0 * 128 + 1 * (j 1).val = (j 1).val; omega))
  · exact congrArg (W (rr main_v9_2)) (funext fun a => Fin.ext (by
      fin_cases a
      · show 3 * 2048 + 1 * (j 0).val = 2048 * 3 + (j 0).val; omega
      · show 0 * 128 + 1 * (j 1).val = (j 1).val; omega))
  · exact congrArg (W (rr main_v9_2)) (funext fun a => Fin.ext (by
      fin_cases a
      · show 4 * 2048 + 1 * (j 0).val = 2048 * 4 + (j 0).val; omega
      · show 0 * 128 + 1 * (j 1).val = (j 1).val; omega))
  · exact congrArg (W (rr main_v9_2)) (funext fun a => Fin.ext (by
      fin_cases a
      · show 5 * 2048 + 1 * (j 0).val = 2048 * 5 + (j 0).val; omega
      · show 0 * 128 + 1 * (j 1).val = (j 1).val; omega))
  · exact congrArg (W (rr main_v9_2)) (funext fun a => Fin.ext (by
      fin_cases a
      · show 6 * 2048 + 1 * (j 0).val = 2048 * 6 + (j 0).val; omega
      · show 0 * 128 + 1 * (j 1).val = (j 1).val; omega))
  · exact congrArg (W (rr main_v9_2)) (funext fun a => Fin.ext (by
      fin_cases a
      · show 7 * 2048 + 1 * (j 0).val = 2048 * 7 + (j 0).val; omega
      · show 0 * 128 + 1 * (j 1).val = (j 1).val; omega))
set_option maxHeartbeats 2000000 in
theorem inV2_3 (t : Fin cfg2.N) : inV2 W d 3 t = rowsBlk (W (rr main_v13)) ⟨t.val, t.isLt⟩ := by
  funext j
  refine ((cfg2.win 3).fill_xinj (cfg2.grid.coords t) _ _ j).trans ?_
  rw [View.read_apply, cast_eq]
  fin_cases t
  · exact congrArg (W (rr main_v13)) (funext fun a => Fin.ext (by
      fin_cases a
      · show 0 * 2048 + 1 * (j 0).val = 2048 * 0 + (j 0).val; omega
      · show 0 * 1 + 1 * (j 1).val = (j 1).val; omega))
  · exact congrArg (W (rr main_v13)) (funext fun a => Fin.ext (by
      fin_cases a
      · show 1 * 2048 + 1 * (j 0).val = 2048 * 1 + (j 0).val; omega
      · show 0 * 1 + 1 * (j 1).val = (j 1).val; omega))
  · exact congrArg (W (rr main_v13)) (funext fun a => Fin.ext (by
      fin_cases a
      · show 2 * 2048 + 1 * (j 0).val = 2048 * 2 + (j 0).val; omega
      · show 0 * 1 + 1 * (j 1).val = (j 1).val; omega))
  · exact congrArg (W (rr main_v13)) (funext fun a => Fin.ext (by
      fin_cases a
      · show 3 * 2048 + 1 * (j 0).val = 2048 * 3 + (j 0).val; omega
      · show 0 * 1 + 1 * (j 1).val = (j 1).val; omega))
  · exact congrArg (W (rr main_v13)) (funext fun a => Fin.ext (by
      fin_cases a
      · show 4 * 2048 + 1 * (j 0).val = 2048 * 4 + (j 0).val; omega
      · show 0 * 1 + 1 * (j 1).val = (j 1).val; omega))
  · exact congrArg (W (rr main_v13)) (funext fun a => Fin.ext (by
      fin_cases a
      · show 5 * 2048 + 1 * (j 0).val = 2048 * 5 + (j 0).val; omega
      · show 0 * 1 + 1 * (j 1).val = (j 1).val; omega))
  · exact congrArg (W (rr main_v13)) (funext fun a => Fin.ext (by
      fin_cases a
      · show 6 * 2048 + 1 * (j 0).val = 2048 * 6 + (j 0).val; omega
      · show 0 * 1 + 1 * (j 1).val = (j 1).val; omega))
  · exact congrArg (W (rr main_v13)) (funext fun a => Fin.ext (by
      fin_cases a
      · show 7 * 2048 + 1 * (j 0).val = 2048 * 7 + (j 0).val; omega
      · show 0 * 1 + 1 * (j 1).val = (j 1).val; omega))
set_option maxHeartbeats 2000000 in
theorem inV2_4 (t : Fin cfg2.N) : inV2 W d 4 t = rowsBlk (W (rr main_v14)) ⟨t.val, t.isLt⟩ := by
  funext j
  refine ((cfg2.win 4).fill_xinj (cfg2.grid.coords t) _ _ j).trans ?_
  rw [View.read_apply, cast_eq]
  fin_cases t
  · exact congrArg (W (rr main_v14)) (funext fun a => Fin.ext (by
      fin_cases a
      · show 0 * 2048 + 1 * (j 0).val = 2048 * 0 + (j 0).val; omega
      · show 0 * 1 + 1 * (j 1).val = (j 1).val; omega))
  · exact congrArg (W (rr main_v14)) (funext fun a => Fin.ext (by
      fin_cases a
      · show 1 * 2048 + 1 * (j 0).val = 2048 * 1 + (j 0).val; omega
      · show 0 * 1 + 1 * (j 1).val = (j 1).val; omega))
  · exact congrArg (W (rr main_v14)) (funext fun a => Fin.ext (by
      fin_cases a
      · show 2 * 2048 + 1 * (j 0).val = 2048 * 2 + (j 0).val; omega
      · show 0 * 1 + 1 * (j 1).val = (j 1).val; omega))
  · exact congrArg (W (rr main_v14)) (funext fun a => Fin.ext (by
      fin_cases a
      · show 3 * 2048 + 1 * (j 0).val = 2048 * 3 + (j 0).val; omega
      · show 0 * 1 + 1 * (j 1).val = (j 1).val; omega))
  · exact congrArg (W (rr main_v14)) (funext fun a => Fin.ext (by
      fin_cases a
      · show 4 * 2048 + 1 * (j 0).val = 2048 * 4 + (j 0).val; omega
      · show 0 * 1 + 1 * (j 1).val = (j 1).val; omega))
  · exact congrArg (W (rr main_v14)) (funext fun a => Fin.ext (by
      fin_cases a
      · show 5 * 2048 + 1 * (j 0).val = 2048 * 5 + (j 0).val; omega
      · show 0 * 1 + 1 * (j 1).val = (j 1).val; omega))
  · exact congrArg (W (rr main_v14)) (funext fun a => Fin.ext (by
      fin_cases a
      · show 6 * 2048 + 1 * (j 0).val = 2048 * 6 + (j 0).val; omega
      · show 0 * 1 + 1 * (j 1).val = (j 1).val; omega))
  · exact congrArg (W (rr main_v14)) (funext fun a => Fin.ext (by
      fin_cases a
      · show 7 * 2048 + 1 * (j 0).val = 2048 * 7 + (j 0).val; omega
      · show 0 * 1 + 1 * (j 1).val = (j 1).val; omega))
set_option maxHeartbeats 2000000 in
theorem inV2_5 (t : Fin cfg2.N) : inV2 W d 5 t = rowsBlk (W (rr main_v15)) ⟨t.val, t.isLt⟩ := by
  funext j
  refine ((cfg2.win 5).fill_xinj (cfg2.grid.coords t) _ _ j).trans ?_
  rw [View.read_apply, cast_eq]
  fin_cases t
  · exact congrArg (W (rr main_v15)) (funext fun a => Fin.ext (by
      fin_cases a
      · show 0 * 2048 + 1 * (j 0).val = 2048 * 0 + (j 0).val; omega
      · show 0 * 1 + 1 * (j 1).val = (j 1).val; omega))
  · exact congrArg (W (rr main_v15)) (funext fun a => Fin.ext (by
      fin_cases a
      · show 1 * 2048 + 1 * (j 0).val = 2048 * 1 + (j 0).val; omega
      · show 0 * 1 + 1 * (j 1).val = (j 1).val; omega))
  · exact congrArg (W (rr main_v15)) (funext fun a => Fin.ext (by
      fin_cases a
      · show 2 * 2048 + 1 * (j 0).val = 2048 * 2 + (j 0).val; omega
      · show 0 * 1 + 1 * (j 1).val = (j 1).val; omega))
  · exact congrArg (W (rr main_v15)) (funext fun a => Fin.ext (by
      fin_cases a
      · show 3 * 2048 + 1 * (j 0).val = 2048 * 3 + (j 0).val; omega
      · show 0 * 1 + 1 * (j 1).val = (j 1).val; omega))
  · exact congrArg (W (rr main_v15)) (funext fun a => Fin.ext (by
      fin_cases a
      · show 4 * 2048 + 1 * (j 0).val = 2048 * 4 + (j 0).val; omega
      · show 0 * 1 + 1 * (j 1).val = (j 1).val; omega))
  · exact congrArg (W (rr main_v15)) (funext fun a => Fin.ext (by
      fin_cases a
      · show 5 * 2048 + 1 * (j 0).val = 2048 * 5 + (j 0).val; omega
      · show 0 * 1 + 1 * (j 1).val = (j 1).val; omega))
  · exact congrArg (W (rr main_v15)) (funext fun a => Fin.ext (by
      fin_cases a
      · show 6 * 2048 + 1 * (j 0).val = 2048 * 6 + (j 0).val; omega
      · show 0 * 1 + 1 * (j 1).val = (j 1).val; omega))
  · exact congrArg (W (rr main_v15)) (funext fun a => Fin.ext (by
      fin_cases a
      · show 7 * 2048 + 1 * (j 0).val = 2048 * 7 + (j 0).val; omega
      · show 0 * 1 + 1 * (j 1).val = (j 1).val; omega))
set_option maxHeartbeats 2000000 in
theorem inV2_6 (t : Fin cfg2.N) : inV2 W d 6 t = rowsBlk (W (rr main_v16)) ⟨t.val, t.isLt⟩ := by
  funext j
  refine ((cfg2.win 6).fill_xinj (cfg2.grid.coords t) _ _ j).trans ?_
  rw [View.read_apply, cast_eq]
  fin_cases t
  · exact congrArg (W (rr main_v16)) (funext fun a => Fin.ext (by
      fin_cases a
      · show 0 * 2048 + 1 * (j 0).val = 2048 * 0 + (j 0).val; omega
      · show 0 * 1 + 1 * (j 1).val = (j 1).val; omega))
  · exact congrArg (W (rr main_v16)) (funext fun a => Fin.ext (by
      fin_cases a
      · show 1 * 2048 + 1 * (j 0).val = 2048 * 1 + (j 0).val; omega
      · show 0 * 1 + 1 * (j 1).val = (j 1).val; omega))
  · exact congrArg (W (rr main_v16)) (funext fun a => Fin.ext (by
      fin_cases a
      · show 2 * 2048 + 1 * (j 0).val = 2048 * 2 + (j 0).val; omega
      · show 0 * 1 + 1 * (j 1).val = (j 1).val; omega))
  · exact congrArg (W (rr main_v16)) (funext fun a => Fin.ext (by
      fin_cases a
      · show 3 * 2048 + 1 * (j 0).val = 2048 * 3 + (j 0).val; omega
      · show 0 * 1 + 1 * (j 1).val = (j 1).val; omega))
  · exact congrArg (W (rr main_v16)) (funext fun a => Fin.ext (by
      fin_cases a
      · show 4 * 2048 + 1 * (j 0).val = 2048 * 4 + (j 0).val; omega
      · show 0 * 1 + 1 * (j 1).val = (j 1).val; omega))
  · exact congrArg (W (rr main_v16)) (funext fun a => Fin.ext (by
      fin_cases a
      · show 5 * 2048 + 1 * (j 0).val = 2048 * 5 + (j 0).val; omega
      · show 0 * 1 + 1 * (j 1).val = (j 1).val; omega))
  · exact congrArg (W (rr main_v16)) (funext fun a => Fin.ext (by
      fin_cases a
      · show 6 * 2048 + 1 * (j 0).val = 2048 * 6 + (j 0).val; omega
      · show 0 * 1 + 1 * (j 1).val = (j 1).val; omega))
  · exact congrArg (W (rr main_v16)) (funext fun a => Fin.ext (by
      fin_cases a
      · show 7 * 2048 + 1 * (j 0).val = 2048 * 7 + (j 0).val; omega
      · show 0 * 1 + 1 * (j 1).val = (j 1).val; omega))
set_option maxHeartbeats 2000000 in
theorem inV2_7 (t : Fin cfg2.N) : inV2 W d 7 t = rowsBlk (W (rr main_v17)) ⟨t.val, t.isLt⟩ := by
  funext j
  refine ((cfg2.win 7).fill_xinj (cfg2.grid.coords t) _ _ j).trans ?_
  rw [View.read_apply, cast_eq]
  fin_cases t
  · exact congrArg (W (rr main_v17)) (funext fun a => Fin.ext (by
      fin_cases a
      · show 0 * 2048 + 1 * (j 0).val = 2048 * 0 + (j 0).val; omega
      · show 0 * 1 + 1 * (j 1).val = (j 1).val; omega))
  · exact congrArg (W (rr main_v17)) (funext fun a => Fin.ext (by
      fin_cases a
      · show 1 * 2048 + 1 * (j 0).val = 2048 * 1 + (j 0).val; omega
      · show 0 * 1 + 1 * (j 1).val = (j 1).val; omega))
  · exact congrArg (W (rr main_v17)) (funext fun a => Fin.ext (by
      fin_cases a
      · show 2 * 2048 + 1 * (j 0).val = 2048 * 2 + (j 0).val; omega
      · show 0 * 1 + 1 * (j 1).val = (j 1).val; omega))
  · exact congrArg (W (rr main_v17)) (funext fun a => Fin.ext (by
      fin_cases a
      · show 3 * 2048 + 1 * (j 0).val = 2048 * 3 + (j 0).val; omega
      · show 0 * 1 + 1 * (j 1).val = (j 1).val; omega))
  · exact congrArg (W (rr main_v17)) (funext fun a => Fin.ext (by
      fin_cases a
      · show 4 * 2048 + 1 * (j 0).val = 2048 * 4 + (j 0).val; omega
      · show 0 * 1 + 1 * (j 1).val = (j 1).val; omega))
  · exact congrArg (W (rr main_v17)) (funext fun a => Fin.ext (by
      fin_cases a
      · show 5 * 2048 + 1 * (j 0).val = 2048 * 5 + (j 0).val; omega
      · show 0 * 1 + 1 * (j 1).val = (j 1).val; omega))
  · exact congrArg (W (rr main_v17)) (funext fun a => Fin.ext (by
      fin_cases a
      · show 6 * 2048 + 1 * (j 0).val = 2048 * 6 + (j 0).val; omega
      · show 0 * 1 + 1 * (j 1).val = (j 1).val; omega))
  · exact congrArg (W (rr main_v17)) (funext fun a => Fin.ext (by
      fin_cases a
      · show 7 * 2048 + 1 * (j 0).val = 2048 * 7 + (j 0).val; omega
      · show 0 * 1 + 1 * (j 1).val = (j 1).val; omega))
set_option maxHeartbeats 2000000 in
theorem inV2_8 (t : Fin cfg2.N) : inV2 W d 8 t = wblk (W (rr main_arg17)) 64 (by norm_num) := by
  funext j
  refine ((cfg2.win 8).fill_xinj (cfg2.grid.coords t) _ _ j).trans ?_
  rw [View.read_apply, cast_eq]
  fin_cases t
  · exact congrArg (W (rr main_arg17)) (funext fun a => Fin.ext (by
      fin_cases a
      · show 1 * 64 + 1 * (j 0).val = (j 0).val + 64; omega
      · show 0 * 64 + 1 * (j 1).val = (j 1).val; omega))
  · exact congrArg (W (rr main_arg17)) (funext fun a => Fin.ext (by
      fin_cases a
      · show 1 * 64 + 1 * (j 0).val = (j 0).val + 64; omega
      · show 0 * 64 + 1 * (j 1).val = (j 1).val; omega))
  · exact congrArg (W (rr main_arg17)) (funext fun a => Fin.ext (by
      fin_cases a
      · show 1 * 64 + 1 * (j 0).val = (j 0).val + 64; omega
      · show 0 * 64 + 1 * (j 1).val = (j 1).val; omega))
  · exact congrArg (W (rr main_arg17)) (funext fun a => Fin.ext (by
      fin_cases a
      · show 1 * 64 + 1 * (j 0).val = (j 0).val + 64; omega
      · show 0 * 64 + 1 * (j 1).val = (j 1).val; omega))
  · exact congrArg (W (rr main_arg17)) (funext fun a => Fin.ext (by
      fin_cases a
      · show 1 * 64 + 1 * (j 0).val = (j 0).val + 64; omega
      · show 0 * 64 + 1 * (j 1).val = (j 1).val; omega))
  · exact congrArg (W (rr main_arg17)) (funext fun a => Fin.ext (by
      fin_cases a
      · show 1 * 64 + 1 * (j 0).val = (j 0).val + 64; omega
      · show 0 * 64 + 1 * (j 1).val = (j 1).val; omega))
  · exact congrArg (W (rr main_arg17)) (funext fun a => Fin.ext (by
      fin_cases a
      · show 1 * 64 + 1 * (j 0).val = (j 0).val + 64; omega
      · show 0 * 64 + 1 * (j 1).val = (j 1).val; omega))
  · exact congrArg (W (rr main_arg17)) (funext fun a => Fin.ext (by
      fin_cases a
      · show 1 * 64 + 1 * (j 0).val = (j 0).val + 64; omega
      · show 0 * 64 + 1 * (j 1).val = (j 1).val; omega))
set_option maxHeartbeats 2000000 in
theorem inV2_9 (t : Fin cfg2.N) : inV2 W d 9 t = wblk (W (rr main_arg17)) 192 (by norm_num) := by
  funext j
  refine ((cfg2.win 9).fill_xinj (cfg2.grid.coords t) _ _ j).trans ?_
  rw [View.read_apply, cast_eq]
  fin_cases t
  · exact congrArg (W (rr main_arg17)) (funext fun a => Fin.ext (by
      fin_cases a
      · show 3 * 64 + 1 * (j 0).val = (j 0).val + 192; omega
      · show 0 * 64 + 1 * (j 1).val = (j 1).val; omega))
  · exact congrArg (W (rr main_arg17)) (funext fun a => Fin.ext (by
      fin_cases a
      · show 3 * 64 + 1 * (j 0).val = (j 0).val + 192; omega
      · show 0 * 64 + 1 * (j 1).val = (j 1).val; omega))
  · exact congrArg (W (rr main_arg17)) (funext fun a => Fin.ext (by
      fin_cases a
      · show 3 * 64 + 1 * (j 0).val = (j 0).val + 192; omega
      · show 0 * 64 + 1 * (j 1).val = (j 1).val; omega))
  · exact congrArg (W (rr main_arg17)) (funext fun a => Fin.ext (by
      fin_cases a
      · show 3 * 64 + 1 * (j 0).val = (j 0).val + 192; omega
      · show 0 * 64 + 1 * (j 1).val = (j 1).val; omega))
  · exact congrArg (W (rr main_arg17)) (funext fun a => Fin.ext (by
      fin_cases a
      · show 3 * 64 + 1 * (j 0).val = (j 0).val + 192; omega
      · show 0 * 64 + 1 * (j 1).val = (j 1).val; omega))
  · exact congrArg (W (rr main_arg17)) (funext fun a => Fin.ext (by
      fin_cases a
      · show 3 * 64 + 1 * (j 0).val = (j 0).val + 192; omega
      · show 0 * 64 + 1 * (j 1).val = (j 1).val; omega))
  · exact congrArg (W (rr main_arg17)) (funext fun a => Fin.ext (by
      fin_cases a
      · show 3 * 64 + 1 * (j 0).val = (j 0).val + 192; omega
      · show 0 * 64 + 1 * (j 1).val = (j 1).val; omega))
  · exact congrArg (W (rr main_arg17)) (funext fun a => Fin.ext (by
      fin_cases a
      · show 3 * 64 + 1 * (j 0).val = (j 0).val + 192; omega
      · show 0 * 64 + 1 * (j 1).val = (j 1).val; omega))
set_option maxHeartbeats 2000000 in
theorem inV2_10 (t : Fin cfg2.N) : inV2 W d 10 t = wblk (W (rr main_arg17)) 384 (by norm_num) := by
  funext j
  refine ((cfg2.win 10).fill_xinj (cfg2.grid.coords t) _ _ j).trans ?_
  rw [View.read_apply, cast_eq]
  fin_cases t
  · exact congrArg (W (rr main_arg17)) (funext fun a => Fin.ext (by
      fin_cases a
      · show 6 * 64 + 1 * (j 0).val = (j 0).val + 384; omega
      · show 0 * 64 + 1 * (j 1).val = (j 1).val; omega))
  · exact congrArg (W (rr main_arg17)) (funext fun a => Fin.ext (by
      fin_cases a
      · show 6 * 64 + 1 * (j 0).val = (j 0).val + 384; omega
      · show 0 * 64 + 1 * (j 1).val = (j 1).val; omega))
  · exact congrArg (W (rr main_arg17)) (funext fun a => Fin.ext (by
      fin_cases a
      · show 6 * 64 + 1 * (j 0).val = (j 0).val + 384; omega
      · show 0 * 64 + 1 * (j 1).val = (j 1).val; omega))
  · exact congrArg (W (rr main_arg17)) (funext fun a => Fin.ext (by
      fin_cases a
      · show 6 * 64 + 1 * (j 0).val = (j 0).val + 384; omega
      · show 0 * 64 + 1 * (j 1).val = (j 1).val; omega))
  · exact congrArg (W (rr main_arg17)) (funext fun a => Fin.ext (by
      fin_cases a
      · show 6 * 64 + 1 * (j 0).val = (j 0).val + 384; omega
      · show 0 * 64 + 1 * (j 1).val = (j 1).val; omega))
  · exact congrArg (W (rr main_arg17)) (funext fun a => Fin.ext (by
      fin_cases a
      · show 6 * 64 + 1 * (j 0).val = (j 0).val + 384; omega
      · show 0 * 64 + 1 * (j 1).val = (j 1).val; omega))
  · exact congrArg (W (rr main_arg17)) (funext fun a => Fin.ext (by
      fin_cases a
      · show 6 * 64 + 1 * (j 0).val = (j 0).val + 384; omega
      · show 0 * 64 + 1 * (j 1).val = (j 1).val; omega))
  · exact congrArg (W (rr main_arg17)) (funext fun a => Fin.ext (by
      fin_cases a
      · show 6 * 64 + 1 * (j 0).val = (j 0).val + 384; omega
      · show 0 * 64 + 1 * (j 1).val = (j 1).val; omega))
set_option maxHeartbeats 2000000 in
theorem inV2_11 (t : Fin cfg2.N) : inV2 W d 11 t = W (rr main_v12_0) := by
  funext j
  refine ((cfg2.win 11).fill_xinj (cfg2.grid.coords t) _ _ j).trans ?_
  rw [View.read_apply, cast_eq]
  fin_cases t
  · exact congrArg (W (rr main_v12_0)) (funext fun a => Fin.ext (by
      fin_cases a
      · show 0 * 16 + 1 * (j 0).val = (j 0).val; omega
      · show 0 * 64 + 1 * (j 1).val = (j 1).val; omega))
  · exact congrArg (W (rr main_v12_0)) (funext fun a => Fin.ext (by
      fin_cases a
      · show 0 * 16 + 1 * (j 0).val = (j 0).val; omega
      · show 0 * 64 + 1 * (j 1).val = (j 1).val; omega))
  · exact congrArg (W (rr main_v12_0)) (funext fun a => Fin.ext (by
      fin_cases a
      · show 0 * 16 + 1 * (j 0).val = (j 0).val; omega
      · show 0 * 64 + 1 * (j 1).val = (j 1).val; omega))
  · exact congrArg (W (rr main_v12_0)) (funext fun a => Fin.ext (by
      fin_cases a
      · show 0 * 16 + 1 * (j 0).val = (j 0).val; omega
      · show 0 * 64 + 1 * (j 1).val = (j 1).val; omega))
  · exact congrArg (W (rr main_v12_0)) (funext fun a => Fin.ext (by
      fin_cases a
      · show 0 * 16 + 1 * (j 0).val = (j 0).val; omega
      · show 0 * 64 + 1 * (j 1).val = (j 1).val; omega))
  · exact congrArg (W (rr main_v12_0)) (funext fun a => Fin.ext (by
      fin_cases a
      · show 0 * 16 + 1 * (j 0).val = (j 0).val; omega
      · show 0 * 64 + 1 * (j 1).val = (j 1).val; omega))
  · exact congrArg (W (rr main_v12_0)) (funext fun a => Fin.ext (by
      fin_cases a
      · show 0 * 16 + 1 * (j 0).val = (j 0).val; omega
      · show 0 * 64 + 1 * (j 1).val = (j 1).val; omega))
  · exact congrArg (W (rr main_v12_0)) (funext fun a => Fin.ext (by
      fin_cases a
      · show 0 * 16 + 1 * (j 0).val = (j 0).val; omega
      · show 0 * 64 + 1 * (j 1).val = (j 1).val; omega))
set_option maxHeartbeats 2000000 in
theorem inV2_12 (t : Fin cfg2.N) : inV2 W d 12 t = W (rr main_v12_1) := by
  funext j
  refine ((cfg2.win 12).fill_xinj (cfg2.grid.coords t) _ _ j).trans ?_
  rw [View.read_apply, cast_eq]
  fin_cases t
  · exact congrArg (W (rr main_v12_1)) (funext fun a => Fin.ext (by
      fin_cases a
      · show 0 * 400 + 1 * (j 0).val = (j 0).val; omega
      · show 0 * 64 + 1 * (j 1).val = (j 1).val; omega))
  · exact congrArg (W (rr main_v12_1)) (funext fun a => Fin.ext (by
      fin_cases a
      · show 0 * 400 + 1 * (j 0).val = (j 0).val; omega
      · show 0 * 64 + 1 * (j 1).val = (j 1).val; omega))
  · exact congrArg (W (rr main_v12_1)) (funext fun a => Fin.ext (by
      fin_cases a
      · show 0 * 400 + 1 * (j 0).val = (j 0).val; omega
      · show 0 * 64 + 1 * (j 1).val = (j 1).val; omega))
  · exact congrArg (W (rr main_v12_1)) (funext fun a => Fin.ext (by
      fin_cases a
      · show 0 * 400 + 1 * (j 0).val = (j 0).val; omega
      · show 0 * 64 + 1 * (j 1).val = (j 1).val; omega))
  · exact congrArg (W (rr main_v12_1)) (funext fun a => Fin.ext (by
      fin_cases a
      · show 0 * 400 + 1 * (j 0).val = (j 0).val; omega
      · show 0 * 64 + 1 * (j 1).val = (j 1).val; omega))
  · exact congrArg (W (rr main_v12_1)) (funext fun a => Fin.ext (by
      fin_cases a
      · show 0 * 400 + 1 * (j 0).val = (j 0).val; omega
      · show 0 * 64 + 1 * (j 1).val = (j 1).val; omega))
  · exact congrArg (W (rr main_v12_1)) (funext fun a => Fin.ext (by
      fin_cases a
      · show 0 * 400 + 1 * (j 0).val = (j 0).val; omega
      · show 0 * 64 + 1 * (j 1).val = (j 1).val; omega))
  · exact congrArg (W (rr main_v12_1)) (funext fun a => Fin.ext (by
      fin_cases a
      · show 0 * 400 + 1 * (j 0).val = (j 0).val; omega
      · show 0 * 64 + 1 * (j 1).val = (j 1).val; omega))
set_option maxHeartbeats 2000000 in
theorem inV2_13 (t : Fin cfg2.N) : inV2 W d 13 t = W (rr main_v12_2) := by
  funext j
  refine ((cfg2.win 13).fill_xinj (cfg2.grid.coords t) _ _ j).trans ?_
  rw [View.read_apply, cast_eq]
  fin_cases t
  · exact congrArg (W (rr main_v12_2)) (funext fun a => Fin.ext (by
      fin_cases a
      · show 0 * 4 + 1 * (j 0).val = (j 0).val; omega
      · show 0 * 64 + 1 * (j 1).val = (j 1).val; omega))
  · exact congrArg (W (rr main_v12_2)) (funext fun a => Fin.ext (by
      fin_cases a
      · show 0 * 4 + 1 * (j 0).val = (j 0).val; omega
      · show 0 * 64 + 1 * (j 1).val = (j 1).val; omega))
  · exact congrArg (W (rr main_v12_2)) (funext fun a => Fin.ext (by
      fin_cases a
      · show 0 * 4 + 1 * (j 0).val = (j 0).val; omega
      · show 0 * 64 + 1 * (j 1).val = (j 1).val; omega))
  · exact congrArg (W (rr main_v12_2)) (funext fun a => Fin.ext (by
      fin_cases a
      · show 0 * 4 + 1 * (j 0).val = (j 0).val; omega
      · show 0 * 64 + 1 * (j 1).val = (j 1).val; omega))
  · exact congrArg (W (rr main_v12_2)) (funext fun a => Fin.ext (by
      fin_cases a
      · show 0 * 4 + 1 * (j 0).val = (j 0).val; omega
      · show 0 * 64 + 1 * (j 1).val = (j 1).val; omega))
  · exact congrArg (W (rr main_v12_2)) (funext fun a => Fin.ext (by
      fin_cases a
      · show 0 * 4 + 1 * (j 0).val = (j 0).val; omega
      · show 0 * 64 + 1 * (j 1).val = (j 1).val; omega))
  · exact congrArg (W (rr main_v12_2)) (funext fun a => Fin.ext (by
      fin_cases a
      · show 0 * 4 + 1 * (j 0).val = (j 0).val; omega
      · show 0 * 64 + 1 * (j 1).val = (j 1).val; omega))
  · exact congrArg (W (rr main_v12_2)) (funext fun a => Fin.ext (by
      fin_cases a
      · show 0 * 4 + 1 * (j 0).val = (j 0).val; omega
      · show 0 * 64 + 1 * (j 1).val = (j 1).val; omega))
set_option maxHeartbeats 2000000 in
theorem inV2_14 (t : Fin cfg2.N) : inV2 W d 14 t = W (rr main_v12_3) := by
  funext j
  refine ((cfg2.win 14).fill_xinj (cfg2.grid.coords t) _ _ j).trans ?_
  rw [View.read_apply, cast_eq]
  fin_cases t
  · exact congrArg (W (rr main_v12_3)) (funext fun a => Fin.ext (by
      fin_cases a
      · show 0 * 64 + 1 * (j 0).val = (j 0).val; omega
      · show 0 * 64 + 1 * (j 1).val = (j 1).val; omega))
  · exact congrArg (W (rr main_v12_3)) (funext fun a => Fin.ext (by
      fin_cases a
      · show 0 * 64 + 1 * (j 0).val = (j 0).val; omega
      · show 0 * 64 + 1 * (j 1).val = (j 1).val; omega))
  · exact congrArg (W (rr main_v12_3)) (funext fun a => Fin.ext (by
      fin_cases a
      · show 0 * 64 + 1 * (j 0).val = (j 0).val; omega
      · show 0 * 64 + 1 * (j 1).val = (j 1).val; omega))
  · exact congrArg (W (rr main_v12_3)) (funext fun a => Fin.ext (by
      fin_cases a
      · show 0 * 64 + 1 * (j 0).val = (j 0).val; omega
      · show 0 * 64 + 1 * (j 1).val = (j 1).val; omega))
  · exact congrArg (W (rr main_v12_3)) (funext fun a => Fin.ext (by
      fin_cases a
      · show 0 * 64 + 1 * (j 0).val = (j 0).val; omega
      · show 0 * 64 + 1 * (j 1).val = (j 1).val; omega))
  · exact congrArg (W (rr main_v12_3)) (funext fun a => Fin.ext (by
      fin_cases a
      · show 0 * 64 + 1 * (j 0).val = (j 0).val; omega
      · show 0 * 64 + 1 * (j 1).val = (j 1).val; omega))
  · exact congrArg (W (rr main_v12_3)) (funext fun a => Fin.ext (by
      fin_cases a
      · show 0 * 64 + 1 * (j 0).val = (j 0).val; omega
      · show 0 * 64 + 1 * (j 1).val = (j 1).val; omega))
  · exact congrArg (W (rr main_v12_3)) (funext fun a => Fin.ext (by
      fin_cases a
      · show 0 * 64 + 1 * (j 0).val = (j 0).val; omega
      · show 0 * 64 + 1 * (j 1).val = (j 1).val; omega))
set_option maxHeartbeats 2000000 in
theorem inV2_15 (t : Fin cfg2.N) : inV2 W d 15 t = W (rr main_v12_4) := by
  funext j
  refine ((cfg2.win 15).fill_xinj (cfg2.grid.coords t) _ _ j).trans ?_
  rw [View.read_apply, cast_eq]
  fin_cases t
  · exact congrArg (W (rr main_v12_4)) (funext fun a => Fin.ext (by
      fin_cases a
      · show 0 * 1 + 1 * (j 0).val = (j 0).val; omega
      · show 0 * 64 + 1 * (j 1).val = (j 1).val; omega))
  · exact congrArg (W (rr main_v12_4)) (funext fun a => Fin.ext (by
      fin_cases a
      · show 0 * 1 + 1 * (j 0).val = (j 0).val; omega
      · show 0 * 64 + 1 * (j 1).val = (j 1).val; omega))
  · exact congrArg (W (rr main_v12_4)) (funext fun a => Fin.ext (by
      fin_cases a
      · show 0 * 1 + 1 * (j 0).val = (j 0).val; omega
      · show 0 * 64 + 1 * (j 1).val = (j 1).val; omega))
  · exact congrArg (W (rr main_v12_4)) (funext fun a => Fin.ext (by
      fin_cases a
      · show 0 * 1 + 1 * (j 0).val = (j 0).val; omega
      · show 0 * 64 + 1 * (j 1).val = (j 1).val; omega))
  · exact congrArg (W (rr main_v12_4)) (funext fun a => Fin.ext (by
      fin_cases a
      · show 0 * 1 + 1 * (j 0).val = (j 0).val; omega
      · show 0 * 64 + 1 * (j 1).val = (j 1).val; omega))
  · exact congrArg (W (rr main_v12_4)) (funext fun a => Fin.ext (by
      fin_cases a
      · show 0 * 1 + 1 * (j 0).val = (j 0).val; omega
      · show 0 * 64 + 1 * (j 1).val = (j 1).val; omega))
  · exact congrArg (W (rr main_v12_4)) (funext fun a => Fin.ext (by
      fin_cases a
      · show 0 * 1 + 1 * (j 0).val = (j 0).val; omega
      · show 0 * 64 + 1 * (j 1).val = (j 1).val; omega))
  · exact congrArg (W (rr main_v12_4)) (funext fun a => Fin.ext (by
      fin_cases a
      · show 0 * 1 + 1 * (j 0).val = (j 0).val; omega
      · show 0 * 64 + 1 * (j 1).val = (j 1).val; omega))
set_option maxHeartbeats 2000000 in
theorem inV2_16 (t : Fin cfg2.N) : inV2 W d 16 t = W (rr main_v12_5) := by
  funext j
  refine ((cfg2.win 16).fill_xinj (cfg2.grid.coords t) _ _ j).trans ?_
  rw [View.read_apply, cast_eq]
  fin_cases t
  · exact congrArg (W (rr main_v12_5)) (funext fun a => Fin.ext (by
      fin_cases a
      · show 0 * 1 + 1 * (j 0).val = (j 0).val; omega
      · show 0 * 64 + 1 * (j 1).val = (j 1).val; omega))
  · exact congrArg (W (rr main_v12_5)) (funext fun a => Fin.ext (by
      fin_cases a
      · show 0 * 1 + 1 * (j 0).val = (j 0).val; omega
      · show 0 * 64 + 1 * (j 1).val = (j 1).val; omega))
  · exact congrArg (W (rr main_v12_5)) (funext fun a => Fin.ext (by
      fin_cases a
      · show 0 * 1 + 1 * (j 0).val = (j 0).val; omega
      · show 0 * 64 + 1 * (j 1).val = (j 1).val; omega))
  · exact congrArg (W (rr main_v12_5)) (funext fun a => Fin.ext (by
      fin_cases a
      · show 0 * 1 + 1 * (j 0).val = (j 0).val; omega
      · show 0 * 64 + 1 * (j 1).val = (j 1).val; omega))
  · exact congrArg (W (rr main_v12_5)) (funext fun a => Fin.ext (by
      fin_cases a
      · show 0 * 1 + 1 * (j 0).val = (j 0).val; omega
      · show 0 * 64 + 1 * (j 1).val = (j 1).val; omega))
  · exact congrArg (W (rr main_v12_5)) (funext fun a => Fin.ext (by
      fin_cases a
      · show 0 * 1 + 1 * (j 0).val = (j 0).val; omega
      · show 0 * 64 + 1 * (j 1).val = (j 1).val; omega))
  · exact congrArg (W (rr main_v12_5)) (funext fun a => Fin.ext (by
      fin_cases a
      · show 0 * 1 + 1 * (j 0).val = (j 0).val; omega
      · show 0 * 64 + 1 * (j 1).val = (j 1).val; omega))
  · exact congrArg (W (rr main_v12_5)) (funext fun a => Fin.ext (by
      fin_cases a
      · show 0 * 1 + 1 * (j 0).val = (j 0).val; omega
      · show 0 * 64 + 1 * (j 1).val = (j 1).val; omega))

/-- The block written back at point `t`: the second body's stored payload of the operand blocks at `t`. -/
theorem pay2V_eq (t : Fin cfg2.N) : pay2V W d t
    = k2_pay1 (F := Ideal) (k2_pay3 (k2_pay2 (W (rr main_v12_5)) (rowsBlk (W (rr main_v17)) ⟨t.val, t.isLt⟩) (W (rr main_v12_4))
          (wblk (W (rr main_arg17)) 64 (by norm_num)) (wblk (W (rr main_arg17)) 64 (by norm_num))
          (wblk (W (rr main_arg17)) 192 (by norm_num)) (wblk (W (rr main_arg17)) 192 (by norm_num))
          (wblk (W (rr main_arg17)) 384 (by norm_num)) (wblk (W (rr main_arg17)) 384 (by norm_num))
          (rowsBlk (W (rr main_v9_0)) ⟨t.val, t.isLt⟩) (rowsBlk (W (rr main_v9_1)) ⟨t.val, t.isLt⟩) (rowsBlk (W (rr main_v9_2)) ⟨t.val, t.isLt⟩))
        (rowsBlk (W (rr main_v13)) ⟨t.val, t.isLt⟩) (W (rr main_v12_0))
        (rowsBlk (W (rr main_v14)) ⟨t.val, t.isLt⟩) (W (rr main_v12_1))
        (rowsBlk (W (rr main_v15)) ⟨t.val, t.isLt⟩) (W (rr main_v12_2)))
      (k2_pay4 (W (rr main_v12_3))) (k2_pay5 (F := Ideal) (rowsBlk (W (rr main_v16)) ⟨t.val, t.isLt⟩)) := by
  unfold pay2V
  rw [inV2_0, inV2_1, inV2_2, inV2_3, inV2_4, inV2_5, inV2_6, inV2_7, inV2_8, inV2_9, inV2_10, inV2_11, inV2_12, inV2_13, inV2_14, inV2_15, inV2_16]

set_option maxHeartbeats 2000000 in
/-- Block `t` of the result array: entry `(r, c)` of the block is entry `(2048 t + r, c)` of the array. -/
theorem blk17_emb (t : Fin cfg2.N) (x : S2048x64.Idx) :
    ((cfg2.win 17).blk t).view.emb x
      = (ix2 (⟨2048 * t.val + (x 0).val, by have h : (x 0 : ℕ) < 2048 := (x 0).isLt; have ht : t.val < 8 := t.isLt; omega⟩ : Fin 16384)
          (⟨(x 1).val, (x 1).isLt⟩ : Fin 64) : S16384x64.Idx) := by
  fin_cases t
  · exact funext fun a => Fin.ext (by
      fin_cases a
      · show 0 * 2048 + 1 * (x 0).val = 2048 * 0 + (x 0).val; omega
      · show 0 * 64 + 1 * (x 1).val = (x 1).val; omega)
  · exact funext fun a => Fin.ext (by
      fin_cases a
      · show 1 * 2048 + 1 * (x 0).val = 2048 * 1 + (x 0).val; omega
      · show 0 * 64 + 1 * (x 1).val = (x 1).val; omega)
  · exact funext fun a => Fin.ext (by
      fin_cases a
      · show 2 * 2048 + 1 * (x 0).val = 2048 * 2 + (x 0).val; omega
      · show 0 * 64 + 1 * (x 1).val = (x 1).val; omega)
  · exact funext fun a => Fin.ext (by
      fin_cases a
      · show 3 * 2048 + 1 * (x 0).val = 2048 * 3 + (x 0).val; omega
      · show 0 * 64 + 1 * (x 1).val = (x 1).val; omega)
  · exact funext fun a => Fin.ext (by
      fin_cases a
      · show 4 * 2048 + 1 * (x 0).val = 2048 * 4 + (x 0).val; omega
      · show 0 * 64 + 1 * (x 1).val = (x 1).val; omega)
  · exact funext fun a => Fin.ext (by
      fin_cases a
      · show 5 * 2048 + 1 * (x 0).val = 2048 * 5 + (x 0).val; omega
      · show 0 * 64 + 1 * (x 1).val = (x 1).val; omega)
  · exact funext fun a => Fin.ext (by
      fin_cases a
      · show 6 * 2048 + 1 * (x 0).val = 2048 * 6 + (x 0).val; omega
      · show 0 * 64 + 1 * (x 1).val = (x 1).val; omega)
  · exact funext fun a => Fin.ext (by
      fin_cases a
      · show 7 * 2048 + 1 * (x 0).val = 2048 * 7 + (x 0).val; omega
      · show 0 * 64 + 1 * (x 1).val = (x 1).val; omega)

set_option maxHeartbeats 2000000 in
/-- One write-back, at an entry: the block's rows get the payload, every other row stays. -/
theorem resStep_apply (t : Fin cfg2.N) (G) (i : S16384x64.Idx) :
    resStep W d t G i = if (i 0).val / 2048 = t.val
      then pay2V W d t (ix2 (⟨(i 0).val % 2048, Nat.mod_lt _ (by decide)⟩ : Fin 2048) (⟨(i 1).val, (i 1).isLt⟩ : Fin 64)) else G i := by
  have ht : t.val < 8 := t.isLt
  by_cases h : (i 0).val / 2048 = t.val
  · rw [if_pos h]
    have he : ((cfg2.win 17).blk t).view.emb (ix2 (⟨(i 0).val % 2048, Nat.mod_lt _ (by decide)⟩ : Fin 2048) (⟨(i 1).val, (i 1).isLt⟩ : Fin 64)) = i := by
      rw [blk17_emb]
      funext a
      apply Fin.ext
      fin_cases a
      · show 2048 * t.val + (i 0).val % 2048 = (i 0).val; omega
      · rfl
    unfold resStep
    refine (congrArg _ he.symm).trans ?_
    refine (View.write_emb_of_mem _ _ (Finset.mem_univ _)).trans ?_
    rw [cast_eq]; rfl
  · rw [if_neg h]
    unfold resStep
    refine View.write_of_not_mem _ _ _ (fun hm => h ?_)
    obtain ⟨x, -, hx⟩ := Finset.mem_map.mp hm
    have hx' := (blk17_emb t x).symm.trans hx
    have h0 : 2048 * t.val + (x 0).val = (i 0).val := congrArg (fun z : S16384x64.Idx => (z 0).val) hx'
    have hx0 : (x 0).val < 2048 := (x 0).isLt
    omega

set_option maxHeartbeats 2000000 in
/-- After the eight write-backs, row `p` holds what was written at point `p / 2048`. -/
theorem resV2_apply (i : S16384x64.Idx) :
    resV2 W d i = pay2V W d (blkOf ⟨(i 0).val, (i 0).isLt⟩)
      (ix2 (inBlk ⟨(i 0).val, (i 0).isLt⟩) (⟨(i 1).val, (i 1).isLt⟩ : Fin 64)) := by
  have hlt : (i 0).val / 2048 < 8 := by have h : (i 0 : ℕ) < 16384 := (i 0).isLt; omega
  unfold resV2
  simp only [resStep_apply]
  interval_cases h : (i 0).val / 2048 <;>
  · have hb : blkOf ⟨(i 0).val, (i 0).isLt⟩ = ⟨_, hlt⟩ := Fin.ext h
    simp [hb]
    rfl

/-- The second region's result array, read back, is the function `R1c` names. -/
theorem resV2_eq_R1c : resV2 W d = R1c W (rr main_v18) := by
  unfold R1c
  rw [Function.update_self]
  funext i
  exact (resV2_apply W d i).trans (congrFun (pay2V_eq W d (blkOf ⟨(i 0).val, (i 0).isLt⟩)) _)

end Cert.Proof.Region

end
-- ==== Proof.lean ====
/-
  The claim: the three frames, the idealization's conjunct, and the equality of the two idealized programs' results.

  The kernel gathers rows of three 100000-row embedding tables on the SparseCore's thirty-two vector subcores, multiplies
  the four small tables by their blocks of the final weights once, and then adds, block of 2048 rows by block, the
  nine terms of the final projection; the reference concatenates eight 64-wide features and multiplies by the final
  weights. Both programs run to their ends without a fault and leave their arguments alone: for the kernel, at either
  float instance, through the SparseCore launch (each vector subcore's gather task; the two TensorCore regions entered
  from the TensorCore's thread; the host operations between them), for the reference through its run read back. The
  idealization rewrote nothing, so its conjunct is `True`. For the results: the reference's is `refOut` of its
  arguments; the kernel's nine-term sum `kerOut` equals `refOut` entry by entry under the precondition (one-hot sums
  pick table rows, zero-padded and stacked blocks regroup the 512-term contraction, and one distributive step uses
  that the float inputs are finite); what joins them is that the kernel's run ends with its result at `kerOut` of its
  arguments (`KernelValue`): the SparseCore call leaves the gathered tables, the two TensorCore regions leave their
  bodies' payloads of the arrays they are entered with, the values are threaded through the program's operations, and
  the threaded result is `kerOut` at every entry.
-/
import proofs.«211833_g48473000902786_cont_8to1_c_597_31_alg».proof.Defs
import proofs.«211833_g48473000902786_cont_8to1_c_597_31_alg».proof.Proof.Gen.Kernel
import proofs.«211833_g48473000902786_cont_8to1_c_597_31_alg».proof.Proof.Gen.KernelIdeal
import proofs.«211833_g48473000902786_cont_8to1_c_597_31_alg».proof.Proof.Gen.ReferenceIdeal
import proofs.«211833_g48473000902786_cont_8to1_c_597_31_alg».proof.Proof.Gen.Pre_input_domain
import proofs.«211833_g48473000902786_cont_8to1_c_597_31_alg».proof.Proof.LaunchRun
import proofs.«211833_g48473000902786_cont_8to1_c_597_31_alg».proof.Proof.KLaunchRun
import proofs.«211833_g48473000902786_cont_8to1_c_597_31_alg».proof.Proof.RefRun
import proofs.«211833_g48473000902786_cont_8to1_c_597_31_alg».proof.Proof.Algebraic
import proofs.«211833_g48473000902786_cont_8to1_c_597_31_alg».proof.Proof.KerMatch
import proofs.«211833_g48473000902786_cont_8to1_c_597_31_alg».proof.Proof.RegionValue0
import proofs.«211833_g48473000902786_cont_8to1_c_597_31_alg».proof.Proof.RegionValue1
import proofs.«211833_g48473000902786_cont_8to1_c_597_31_alg».proof.Proof.RegionVal2Pure
import Idealize.ShloMosaic.Adequacy
import Idealize.ShloMosaic.Init

noncomputable section

namespace Cert.Proof

open Idealize.ShloMosaic Idealize.SL.Sem Cert.Kernel

/-- The kernel's run ends with its result at the nine-term sum of its arguments. -/
theorem kernel_value : KernelValue (hKernelIdeal := Cert.KernelIdeal.Gen.facts) (hPre_input_domain := Cert.Pre_input_domain.Gen.facts) :=
  KI.kernelValue_of_regionsC KI.region0_value (KI.region1_value_of fun W d => Region.resV2_eq_R1c W d)

theorem claim : Cert.Claim := ⟨Cert.Kernel.Gen.facts, Cert.KernelIdeal.Gen.facts, Cert.ReferenceIdeal.Gen.facts, Cert.Pre_input_domain.Gen.facts,
  Cert.Proof.KB.frame, Cert.Proof.KI.frame, Cert.ReferenceIdeal.RefRun.frame, trivial, algebraic_of_value kernel_value⟩

end Cert.Proof

end
